-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x3 : Shape := ⟨2, ![16384, 3]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_

variable [Facts]

def fn {F : FTy → Type} [FloatOps F] (main_arg0 : IVec S16384x3 32) (main_arg1 : FVec F S100000x128 .f32) (main_arg2 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S16384x3 32 := broadcastInDim S16384x3 ![] bcast_S_S16384x3 main_c_2
  let main_v10 : IVec S16384x3 1 := cmpi .sge main_arg0 main_v9
  let main_c_3 : IVec S_ 32 := constantI S_ 32 99999#32
  let main_v11 : IVec S16384x3 32 := broadcastInDim S16384x3 ![] bcast_S_S16384x3 main_c_3
  let main_v12 : IVec S16384x3 1 := cmpi .sle main_arg0 main_v11
  let main_v13 : IVec S16384x3 1 := andi main_v10 main_v12
  let main_c_4 : IVec S_ 1 := constantI S_ 1 1#1
  let main_v14 : IVec S_ 1 := (fun x v => Host.reduce IntOp.andi x v reducesTo_S16384x3_S_d0_1 h_S_) main_v13 main_c_4
  let main_v15 : IVec S_ 1 := andi main_v8 main_v14
  main_v15
-- ==== Kernel.lean ====
abbrev S16384x3 : Shape := ⟨2, ![16384, 3]⟩
abbrev S100000x128 : Shape := ⟨2, ![100000, 128]⟩
abbrev S16384x1 : Shape := ⟨2, ![16384, 1]⟩
abbrev S16384 : Shape := ⟨1, ![16384]⟩
abbrev S512 : Shape := ⟨1, ![512]⟩
abbrev S8x16x128 : Shape := ⟨3, ![8, 16, 128]⟩
abbrev S256 : Shape := ⟨1, ![256]⟩
abbrev S8 : Shape := ⟨1, ![8]⟩
abbrev S_ : Shape := ⟨0, ![]⟩
abbrev S16 : Shape := ⟨1, ![16]⟩
abbrev S1x16x128 : Shape := ⟨3, ![1, 16, 128]⟩
abbrev S16x128 : Shape := ⟨2, ![16, 128]⟩
abbrev S1 : Shape := ⟨1, ![1]⟩
abbrev S1x1x16 : Shape := ⟨3, ![1, 1, 16]⟩

abbrev nBuf : Table → Nat
  | .hbm => 11
  | .local .scVector .vmem => 8
  | _ => 0

abbrev bufTy : (tb : Table) → Fin (nBuf tb) → BufTy
  | .hbm, ⟨0, _⟩ => ⟨S16384x3, .i32⟩
  | .hbm, ⟨1, _⟩ => ⟨S100000x128, .f32⟩
  | .hbm, ⟨2, _⟩ => ⟨S100000x128, .f32⟩
  | .hbm, ⟨3, _⟩ => ⟨S16384x1, .i32⟩
  | .hbm, ⟨4, _⟩ => ⟨S16384, .i32⟩
  | .hbm, ⟨5, _⟩ => ⟨S16384x1, .i32⟩
  | .hbm, ⟨6, _⟩ => ⟨S16384, .i32⟩
  | .hbm, ⟨7, _⟩ => ⟨S16384x1, .i32⟩
  | .hbm, ⟨8, _⟩ => ⟨S16384, .i32⟩
  | .hbm, ⟨9, _⟩ => ⟨S16384, .f32⟩
  | .hbm, ⟨10, _⟩ => ⟨S16384x1, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S8x16x128, .f32⟩
  | .local .scVector .vmem, ⟨4, _⟩ => ⟨S8x16x128, .f32⟩
  | .local .scVector .vmem, ⟨5, _⟩ => ⟨S8x16x128, .f32⟩
  | .local .scVector .vmem, ⟨6, _⟩ => ⟨S256, .f32⟩
  | .local .scVector .vmem, ⟨7, _⟩ => ⟨S512, .f32⟩
  | _, _ => ⟨S16384x3, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v1_scv : Ref sig .scVector := ⟨.hbm, 4, rfl⟩
abbrev main_v3_scv : Ref sig .scVector := ⟨.hbm, 6, rfl⟩
abbrev main_v5_scv : Ref sig .scVector := ⟨.hbm, 8, rfl⟩
abbrev main_arg1_scv : Ref sig .scVector := ⟨.hbm, 1, rfl⟩
abbrev main_arg2_scv : Ref sig .scVector := ⟨.hbm, 2, rfl⟩
abbrev main_v6_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (c0_i32 : BitVec 32) : Fin 3 → Nat :=
  let c8_i32 : BitVec 32 := 8#32
  let v16 : BitVec 32 := Scalar.remsi c0_i32 c8_i32
  let c0_i32_0 : BitVec 32 := 0#32
  let c0_i32_1 : BitVec 32 := 0#32
  ![v16.toNat, 0, 0]
def k0_off3 (c0_i32 : BitVec 32) : Fin 1 → Nat :=
  let c8_i32 : BitVec 32 := 8#32
  let v16 : BitVec 32 := Scalar.remsi c0_i32 c8_i32
  ![v16.toNat]
@[reducible] def k0_t1_loop : Scf.Loop 32 :=
  let c0_i32_106 : BitVec 32 := 0#32
  let c32_i32_107 : BitVec 32 := 32#32
  let v149 : BitVec 32 := Scalar.addi c0_i32_106 c32_i32_107
  let c1_i32_108 : BitVec 32 := 1#32
  ⟨c0_i32_106, v149, c1_i32_108⟩
def k0_cond1 (k0_t1 : Fin k0_t1_loop.trips) : BitVec 1 :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_113 : BitVec 32 := 8#32
  let v153 : BitVec 32 := Scalar.addi v151 c8_i32_113
  let c1_i32_114 : BitVec 32 := 1#32
  let v154 : BitVec 32 := Scalar.subi v153 c1_i32_114
  let c32_i32_115 : BitVec 32 := 32#32
  let v155 : BitVec 1 := Scalar.cmpi .slt v154 c32_i32_115
  let v156 : BitVec 32 := Scalar.extui v155
  let c0_i32_116 : BitVec 32 := 0#32
  let v157 : BitVec 1 := Scalar.cmpi .ne v156 c0_i32_116
  v157

def k0_off4 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_926 : BitVec 32 := 8#32
  let v1941 : BitVec 32 := Scalar.addi v151 c8_i32_926
  let c1_i32_927 : BitVec 32 := 1#32
  let v1942 : BitVec 32 := Scalar.subi v1941 c1_i32_927
  let c8_i32_928 : BitVec 32 := 8#32
  let v1943 : BitVec 32 := Scalar.remsi v1942 c8_i32_928
  let c0_i32_930 : BitVec 32 := 0#32
  let c0_i32_931 : BitVec 32 := 0#32
  ![v1943.toNat, 0, 0]
def k0_off5 (k0_t1 : Fin k0_t1_loop.trips) : Fin 1 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_926 : BitVec 32 := 8#32
  let v1941 : BitVec 32 := Scalar.addi v151 c8_i32_926
  let c1_i32_927 : BitVec 32 := 1#32
  let v1942 : BitVec 32 := Scalar.subi v1941 c1_i32_927
  let c16_i32_929 : BitVec 32 := 16#32
  let v1944 : BitVec 32 := Scalar.muli v1942 c16_i32_929
  ![v1944.toNat]
def k0_off6 (k0_t1 : Fin k0_t1_loop.trips) : Fin 1 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_926 : BitVec 32 := 8#32
  let v1941 : BitVec 32 := Scalar.addi v151 c8_i32_926
  let c1_i32_927 : BitVec 32 := 1#32
  let v1942 : BitVec 32 := Scalar.subi v1941 c1_i32_927
  let c8_i32_928 : BitVec 32 := 8#32
  let v1943 : BitVec 32 := Scalar.remsi v1942 c8_i32_928
  ![v1943.toNat]
def k0_off7 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let c0_i32_117 : BitVec 32 := 0#32
  let c0_i32_118 : BitVec 32 := 0#32
  ![v152.toNat, 0, 0]
def k0_off8 (k0_t1 : Fin k0_t1_loop.trips) : Fin 1 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  ![v152.toNat]
def k0_off9 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v176 : Index := Scalar.indexCast v152
  let c0_i32_132 : BitVec 32 := 0#32
  let v177 : Index := Scalar.indexCast c0_i32_132
  let c0 : Index := 0#32
  ![v176.toNat, 0, 0]
def k0_off10 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v188 : Index := Scalar.indexCast v152
  let c0_i32_137 : BitVec 32 := 0#32
  let v189 : Index := Scalar.indexCast c0_i32_137
  let c16 : Index := 16#32
  ![v188.toNat, 0, 16]
def k0_off11 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v200 : Index := Scalar.indexCast v152
  let c0_i32_142 : BitVec 32 := 0#32
  let v201 : Index := Scalar.indexCast c0_i32_142
  let c32 : Index := 32#32
  ![v200.toNat, 0, 32]
def k0_off12 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v212 : Index := Scalar.indexCast v152
  let c0_i32_147 : BitVec 32 := 0#32
  let v213 : Index := Scalar.indexCast c0_i32_147
  let c48 : Index := 48#32
  ![v212.toNat, 0, 48]
def k0_off13 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v224 : Index := Scalar.indexCast v152
  let c0_i32_152 : BitVec 32 := 0#32
  let v225 : Index := Scalar.indexCast c0_i32_152
  let c64 : Index := 64#32
  ![v224.toNat, 0, 64]
def k0_off14 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v236 : Index := Scalar.indexCast v152
  let c0_i32_157 : BitVec 32 := 0#32
  let v237 : Index := Scalar.indexCast c0_i32_157
  let c80 : Index := 80#32
  ![v236.toNat, 0, 80]
def k0_off15 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v248 : Index := Scalar.indexCast v152
  let c0_i32_162 : BitVec 32 := 0#32
  let v249 : Index := Scalar.indexCast c0_i32_162
  let c96 : Index := 96#32
  ![v248.toNat, 0, 96]
def k0_off16 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v260 : Index := Scalar.indexCast v152
  let c0_i32_167 : BitVec 32 := 0#32
  let v261 : Index := Scalar.indexCast c0_i32_167
  let c112 : Index := 112#32
  ![v260.toNat, 0, 112]
def k0_off17 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v280 : Index := Scalar.indexCast v152
  let c1_i32_173 : BitVec 32 := 1#32
  let v281 : Index := Scalar.indexCast c1_i32_173
  let c0_174 : Index := 0#32
  ![v280.toNat, 1, 0]
def k0_off18 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v292 : Index := Scalar.indexCast v152
  let c1_i32_179 : BitVec 32 := 1#32
  let v293 : Index := Scalar.indexCast c1_i32_179
  let c16_180 : Index := 16#32
  ![v292.toNat, 1, 16]
def k0_off19 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v304 : Index := Scalar.indexCast v152
  let c1_i32_185 : BitVec 32 := 1#32
  let v305 : Index := Scalar.indexCast c1_i32_185
  let c32_186 : Index := 32#32
  ![v304.toNat, 1, 32]
def k0_off20 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v316 : Index := Scalar.indexCast v152
  let c1_i32_191 : BitVec 32 := 1#32
  let v317 : Index := Scalar.indexCast c1_i32_191
  let c48_192 : Index := 48#32
  ![v316.toNat, 1, 48]
def k0_off21 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v328 : Index := Scalar.indexCast v152
  let c1_i32_197 : BitVec 32 := 1#32
  let v329 : Index := Scalar.indexCast c1_i32_197
  let c64_198 : Index := 64#32
  ![v328.toNat, 1, 64]
def k0_off22 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v340 : Index := Scalar.indexCast v152
  let c1_i32_203 : BitVec 32 := 1#32
  let v341 : Index := Scalar.indexCast c1_i32_203
  let c80_204 : Index := 80#32
  ![v340.toNat, 1, 80]
def k0_off23 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v352 : Index := Scalar.indexCast v152
  let c1_i32_209 : BitVec 32 := 1#32
  let v353 : Index := Scalar.indexCast c1_i32_209
  let c96_210 : Index := 96#32
  ![v352.toNat, 1, 96]
def k0_off24 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v364 : Index := Scalar.indexCast v152
  let c1_i32_215 : BitVec 32 := 1#32
  let v365 : Index := Scalar.indexCast c1_i32_215
  let c112_216 : Index := 112#32
  ![v364.toNat, 1, 112]
def k0_off25 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v384 : Index := Scalar.indexCast v152
  let c2_i32_222 : BitVec 32 := 2#32
  let v385 : Index := Scalar.indexCast c2_i32_222
  let c0_223 : Index := 0#32
  ![v384.toNat, 2, 0]
def k0_off26 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v396 : Index := Scalar.indexCast v152
  let c2_i32_228 : BitVec 32 := 2#32
  let v397 : Index := Scalar.indexCast c2_i32_228
  let c16_229 : Index := 16#32
  ![v396.toNat, 2, 16]
def k0_off27 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v408 : Index := Scalar.indexCast v152
  let c2_i32_234 : BitVec 32 := 2#32
  let v409 : Index := Scalar.indexCast c2_i32_234
  let c32_235 : Index := 32#32
  ![v408.toNat, 2, 32]
def k0_off28 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v420 : Index := Scalar.indexCast v152
  let c2_i32_240 : BitVec 32 := 2#32
  let v421 : Index := Scalar.indexCast c2_i32_240
  let c48_241 : Index := 48#32
  ![v420.toNat, 2, 48]
def k0_off29 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v432 : Index := Scalar.indexCast v152
  let c2_i32_246 : BitVec 32 := 2#32
  let v433 : Index := Scalar.indexCast c2_i32_246
  let c64_247 : Index := 64#32
  ![v432.toNat, 2, 64]
def k0_off30 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v444 : Index := Scalar.indexCast v152
  let c2_i32_252 : BitVec 32 := 2#32
  let v445 : Index := Scalar.indexCast c2_i32_252
  let c80_253 : Index := 80#32
  ![v444.toNat, 2, 80]
def k0_off31 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v456 : Index := Scalar.indexCast v152
  let c2_i32_258 : BitVec 32 := 2#32
  let v457 : Index := Scalar.indexCast c2_i32_258
  let c96_259 : Index := 96#32
  ![v456.toNat, 2, 96]
def k0_off32 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v468 : Index := Scalar.indexCast v152
  let c2_i32_264 : BitVec 32 := 2#32
  let v469 : Index := Scalar.indexCast c2_i32_264
  let c112_265 : Index := 112#32
  ![v468.toNat, 2, 112]
def k0_off33 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v488 : Index := Scalar.indexCast v152
  let c3_i32_271 : BitVec 32 := 3#32
  let v489 : Index := Scalar.indexCast c3_i32_271
  let c0_272 : Index := 0#32
  ![v488.toNat, 3, 0]
def k0_off34 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v500 : Index := Scalar.indexCast v152
  let c3_i32_277 : BitVec 32 := 3#32
  let v501 : Index := Scalar.indexCast c3_i32_277
  let c16_278 : Index := 16#32
  ![v500.toNat, 3, 16]
def k0_off35 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v512 : Index := Scalar.indexCast v152
  let c3_i32_283 : BitVec 32 := 3#32
  let v513 : Index := Scalar.indexCast c3_i32_283
  let c32_284 : Index := 32#32
  ![v512.toNat, 3, 32]
def k0_off36 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v524 : Index := Scalar.indexCast v152
  let c3_i32_289 : BitVec 32 := 3#32
  let v525 : Index := Scalar.indexCast c3_i32_289
  let c48_290 : Index := 48#32
  ![v524.toNat, 3, 48]
def k0_off37 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v536 : Index := Scalar.indexCast v152
  let c3_i32_295 : BitVec 32 := 3#32
  let v537 : Index := Scalar.indexCast c3_i32_295
  let c64_296 : Index := 64#32
  ![v536.toNat, 3, 64]
def k0_off38 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v548 : Index := Scalar.indexCast v152
  let c3_i32_301 : BitVec 32 := 3#32
  let v549 : Index := Scalar.indexCast c3_i32_301
  let c80_302 : Index := 80#32
  ![v548.toNat, 3, 80]
def k0_off39 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v560 : Index := Scalar.indexCast v152
  let c3_i32_307 : BitVec 32 := 3#32
  let v561 : Index := Scalar.indexCast c3_i32_307
  let c96_308 : Index := 96#32
  ![v560.toNat, 3, 96]
def k0_off40 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v572 : Index := Scalar.indexCast v152
  let c3_i32_313 : BitVec 32 := 3#32
  let v573 : Index := Scalar.indexCast c3_i32_313
  let c112_314 : Index := 112#32
  ![v572.toNat, 3, 112]
def k0_off41 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v592 : Index := Scalar.indexCast v152
  let c4_i32_320 : BitVec 32 := 4#32
  let v593 : Index := Scalar.indexCast c4_i32_320
  let c0_321 : Index := 0#32
  ![v592.toNat, 4, 0]
def k0_off42 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v604 : Index := Scalar.indexCast v152
  let c4_i32_326 : BitVec 32 := 4#32
  let v605 : Index := Scalar.indexCast c4_i32_326
  let c16_327 : Index := 16#32
  ![v604.toNat, 4, 16]
def k0_off43 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v616 : Index := Scalar.indexCast v152
  let c4_i32_332 : BitVec 32 := 4#32
  let v617 : Index := Scalar.indexCast c4_i32_332
  let c32_333 : Index := 32#32
  ![v616.toNat, 4, 32]
def k0_off44 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v628 : Index := Scalar.indexCast v152
  let c4_i32_338 : BitVec 32 := 4#32
  let v629 : Index := Scalar.indexCast c4_i32_338
  let c48_339 : Index := 48#32
  ![v628.toNat, 4, 48]
def k0_off45 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v640 : Index := Scalar.indexCast v152
  let c4_i32_344 : BitVec 32 := 4#32
  let v641 : Index := Scalar.indexCast c4_i32_344
  let c64_345 : Index := 64#32
  ![v640.toNat, 4, 64]
def k0_off46 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v652 : Index := Scalar.indexCast v152
  let c4_i32_350 : BitVec 32 := 4#32
  let v653 : Index := Scalar.indexCast c4_i32_350
  let c80_351 : Index := 80#32
  ![v652.toNat, 4, 80]
def k0_off47 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v664 : Index := Scalar.indexCast v152
  let c4_i32_356 : BitVec 32 := 4#32
  let v665 : Index := Scalar.indexCast c4_i32_356
  let c96_357 : Index := 96#32
  ![v664.toNat, 4, 96]
def k0_off48 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v676 : Index := Scalar.indexCast v152
  let c4_i32_362 : BitVec 32 := 4#32
  let v677 : Index := Scalar.indexCast c4_i32_362
  let c112_363 : Index := 112#32
  ![v676.toNat, 4, 112]
def k0_off49 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v696 : Index := Scalar.indexCast v152
  let c5_i32_369 : BitVec 32 := 5#32
  let v697 : Index := Scalar.indexCast c5_i32_369
  let c0_370 : Index := 0#32
  ![v696.toNat, 5, 0]
def k0_off50 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v708 : Index := Scalar.indexCast v152
  let c5_i32_375 : BitVec 32 := 5#32
  let v709 : Index := Scalar.indexCast c5_i32_375
  let c16_376 : Index := 16#32
  ![v708.toNat, 5, 16]
def k0_off51 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v720 : Index := Scalar.indexCast v152
  let c5_i32_381 : BitVec 32 := 5#32
  let v721 : Index := Scalar.indexCast c5_i32_381
  let c32_382 : Index := 32#32
  ![v720.toNat, 5, 32]
def k0_off52 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v732 : Index := Scalar.indexCast v152
  let c5_i32_387 : BitVec 32 := 5#32
  let v733 : Index := Scalar.indexCast c5_i32_387
  let c48_388 : Index := 48#32
  ![v732.toNat, 5, 48]
def k0_off53 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v744 : Index := Scalar.indexCast v152
  let c5_i32_393 : BitVec 32 := 5#32
  let v745 : Index := Scalar.indexCast c5_i32_393
  let c64_394 : Index := 64#32
  ![v744.toNat, 5, 64]
def k0_off54 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v756 : Index := Scalar.indexCast v152
  let c5_i32_399 : BitVec 32 := 5#32
  let v757 : Index := Scalar.indexCast c5_i32_399
  let c80_400 : Index := 80#32
  ![v756.toNat, 5, 80]
def k0_off55 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v768 : Index := Scalar.indexCast v152
  let c5_i32_405 : BitVec 32 := 5#32
  let v769 : Index := Scalar.indexCast c5_i32_405
  let c96_406 : Index := 96#32
  ![v768.toNat, 5, 96]
def k0_off56 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v780 : Index := Scalar.indexCast v152
  let c5_i32_411 : BitVec 32 := 5#32
  let v781 : Index := Scalar.indexCast c5_i32_411
  let c112_412 : Index := 112#32
  ![v780.toNat, 5, 112]
def k0_off57 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v800 : Index := Scalar.indexCast v152
  let c6_i32_418 : BitVec 32 := 6#32
  let v801 : Index := Scalar.indexCast c6_i32_418
  let c0_419 : Index := 0#32
  ![v800.toNat, 6, 0]
def k0_off58 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v812 : Index := Scalar.indexCast v152
  let c6_i32_424 : BitVec 32 := 6#32
  let v813 : Index := Scalar.indexCast c6_i32_424
  let c16_425 : Index := 16#32
  ![v812.toNat, 6, 16]
def k0_off59 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v824 : Index := Scalar.indexCast v152
  let c6_i32_430 : BitVec 32 := 6#32
  let v825 : Index := Scalar.indexCast c6_i32_430
  let c32_431 : Index := 32#32
  ![v824.toNat, 6, 32]
def k0_off60 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v836 : Index := Scalar.indexCast v152
  let c6_i32_436 : BitVec 32 := 6#32
  let v837 : Index := Scalar.indexCast c6_i32_436
  let c48_437 : Index := 48#32
  ![v836.toNat, 6, 48]
def k0_off61 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v848 : Index := Scalar.indexCast v152
  let c6_i32_442 : BitVec 32 := 6#32
  let v849 : Index := Scalar.indexCast c6_i32_442
  let c64_443 : Index := 64#32
  ![v848.toNat, 6, 64]
def k0_off62 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v860 : Index := Scalar.indexCast v152
  let c6_i32_448 : BitVec 32 := 6#32
  let v861 : Index := Scalar.indexCast c6_i32_448
  let c80_449 : Index := 80#32
  ![v860.toNat, 6, 80]
def k0_off63 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v872 : Index := Scalar.indexCast v152
  let c6_i32_454 : BitVec 32 := 6#32
  let v873 : Index := Scalar.indexCast c6_i32_454
  let c96_455 : Index := 96#32
  ![v872.toNat, 6, 96]
def k0_off64 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v884 : Index := Scalar.indexCast v152
  let c6_i32_460 : BitVec 32 := 6#32
  let v885 : Index := Scalar.indexCast c6_i32_460
  let c112_461 : Index := 112#32
  ![v884.toNat, 6, 112]
def k0_off65 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v904 : Index := Scalar.indexCast v152
  let c7_i32 : BitVec 32 := 7#32
  let v905 : Index := Scalar.indexCast c7_i32
  let c0_467 : Index := 0#32
  ![v904.toNat, 7, 0]
def k0_off66 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v916 : Index := Scalar.indexCast v152
  let c7_i32_472 : BitVec 32 := 7#32
  let v917 : Index := Scalar.indexCast c7_i32_472
  let c16_473 : Index := 16#32
  ![v916.toNat, 7, 16]
def k0_off67 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v928 : Index := Scalar.indexCast v152
  let c7_i32_478 : BitVec 32 := 7#32
  let v929 : Index := Scalar.indexCast c7_i32_478
  let c32_479 : Index := 32#32
  ![v928.toNat, 7, 32]
def k0_off68 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v940 : Index := Scalar.indexCast v152
  let c7_i32_484 : BitVec 32 := 7#32
  let v941 : Index := Scalar.indexCast c7_i32_484
  let c48_485 : Index := 48#32
  ![v940.toNat, 7, 48]
def k0_off69 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v952 : Index := Scalar.indexCast v152
  let c7_i32_490 : BitVec 32 := 7#32
  let v953 : Index := Scalar.indexCast c7_i32_490
  let c64_491 : Index := 64#32
  ![v952.toNat, 7, 64]
def k0_off70 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v964 : Index := Scalar.indexCast v152
  let c7_i32_496 : BitVec 32 := 7#32
  let v965 : Index := Scalar.indexCast c7_i32_496
  let c80_497 : Index := 80#32
  ![v964.toNat, 7, 80]
def k0_off71 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v976 : Index := Scalar.indexCast v152
  let c7_i32_502 : BitVec 32 := 7#32
  let v977 : Index := Scalar.indexCast c7_i32_502
  let c96_503 : Index := 96#32
  ![v976.toNat, 7, 96]
def k0_off72 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v988 : Index := Scalar.indexCast v152
  let c7_i32_508 : BitVec 32 := 7#32
  let v989 : Index := Scalar.indexCast c7_i32_508
  let c112_509 : Index := 112#32
  ![v988.toNat, 7, 112]
def k0_off73 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1008 : Index := Scalar.indexCast v152
  let c8_i32_515 : BitVec 32 := 8#32
  let v1009 : Index := Scalar.indexCast c8_i32_515
  let c0_516 : Index := 0#32
  ![v1008.toNat, 8, 0]
def k0_off74 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1020 : Index := Scalar.indexCast v152
  let c8_i32_521 : BitVec 32 := 8#32
  let v1021 : Index := Scalar.indexCast c8_i32_521
  let c16_522 : Index := 16#32
  ![v1020.toNat, 8, 16]
def k0_off75 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1032 : Index := Scalar.indexCast v152
  let c8_i32_527 : BitVec 32 := 8#32
  let v1033 : Index := Scalar.indexCast c8_i32_527
  let c32_528 : Index := 32#32
  ![v1032.toNat, 8, 32]
def k0_off76 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1044 : Index := Scalar.indexCast v152
  let c8_i32_533 : BitVec 32 := 8#32
  let v1045 : Index := Scalar.indexCast c8_i32_533
  let c48_534 : Index := 48#32
  ![v1044.toNat, 8, 48]
def k0_off77 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1056 : Index := Scalar.indexCast v152
  let c8_i32_539 : BitVec 32 := 8#32
  let v1057 : Index := Scalar.indexCast c8_i32_539
  let c64_540 : Index := 64#32
  ![v1056.toNat, 8, 64]
def k0_off78 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1068 : Index := Scalar.indexCast v152
  let c8_i32_545 : BitVec 32 := 8#32
  let v1069 : Index := Scalar.indexCast c8_i32_545
  let c80_546 : Index := 80#32
  ![v1068.toNat, 8, 80]
def k0_off79 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1080 : Index := Scalar.indexCast v152
  let c8_i32_551 : BitVec 32 := 8#32
  let v1081 : Index := Scalar.indexCast c8_i32_551
  let c96_552 : Index := 96#32
  ![v1080.toNat, 8, 96]
def k0_off80 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1092 : Index := Scalar.indexCast v152
  let c8_i32_557 : BitVec 32 := 8#32
  let v1093 : Index := Scalar.indexCast c8_i32_557
  let c112_558 : Index := 112#32
  ![v1092.toNat, 8, 112]
def k0_off81 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1112 : Index := Scalar.indexCast v152
  let c9_i32 : BitVec 32 := 9#32
  let v1113 : Index := Scalar.indexCast c9_i32
  let c0_563 : Index := 0#32
  ![v1112.toNat, 9, 0]
def k0_off82 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1124 : Index := Scalar.indexCast v152
  let c9_i32_568 : BitVec 32 := 9#32
  let v1125 : Index := Scalar.indexCast c9_i32_568
  let c16_569 : Index := 16#32
  ![v1124.toNat, 9, 16]
def k0_off83 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1136 : Index := Scalar.indexCast v152
  let c9_i32_574 : BitVec 32 := 9#32
  let v1137 : Index := Scalar.indexCast c9_i32_574
  let c32_575 : Index := 32#32
  ![v1136.toNat, 9, 32]
def k0_off84 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1148 : Index := Scalar.indexCast v152
  let c9_i32_580 : BitVec 32 := 9#32
  let v1149 : Index := Scalar.indexCast c9_i32_580
  let c48_581 : Index := 48#32
  ![v1148.toNat, 9, 48]
def k0_off85 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1160 : Index := Scalar.indexCast v152
  let c9_i32_586 : BitVec 32 := 9#32
  let v1161 : Index := Scalar.indexCast c9_i32_586
  let c64_587 : Index := 64#32
  ![v1160.toNat, 9, 64]
def k0_off86 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1172 : Index := Scalar.indexCast v152
  let c9_i32_592 : BitVec 32 := 9#32
  let v1173 : Index := Scalar.indexCast c9_i32_592
  let c80_593 : Index := 80#32
  ![v1172.toNat, 9, 80]
def k0_off87 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1184 : Index := Scalar.indexCast v152
  let c9_i32_598 : BitVec 32 := 9#32
  let v1185 : Index := Scalar.indexCast c9_i32_598
  let c96_599 : Index := 96#32
  ![v1184.toNat, 9, 96]
def k0_off88 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1196 : Index := Scalar.indexCast v152
  let c9_i32_604 : BitVec 32 := 9#32
  let v1197 : Index := Scalar.indexCast c9_i32_604
  let c112_605 : Index := 112#32
  ![v1196.toNat, 9, 112]
def k0_off89 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1216 : Index := Scalar.indexCast v152
  let c10_i32 : BitVec 32 := 10#32
  let v1217 : Index := Scalar.indexCast c10_i32
  let c0_610 : Index := 0#32
  ![v1216.toNat, 10, 0]
def k0_off90 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1228 : Index := Scalar.indexCast v152
  let c10_i32_615 : BitVec 32 := 10#32
  let v1229 : Index := Scalar.indexCast c10_i32_615
  let c16_616 : Index := 16#32
  ![v1228.toNat, 10, 16]
def k0_off91 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1240 : Index := Scalar.indexCast v152
  let c10_i32_621 : BitVec 32 := 10#32
  let v1241 : Index := Scalar.indexCast c10_i32_621
  let c32_622 : Index := 32#32
  ![v1240.toNat, 10, 32]
def k0_off92 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1252 : Index := Scalar.indexCast v152
  let c10_i32_627 : BitVec 32 := 10#32
  let v1253 : Index := Scalar.indexCast c10_i32_627
  let c48_628 : Index := 48#32
  ![v1252.toNat, 10, 48]
def k0_off93 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1264 : Index := Scalar.indexCast v152
  let c10_i32_633 : BitVec 32 := 10#32
  let v1265 : Index := Scalar.indexCast c10_i32_633
  let c64_634 : Index := 64#32
  ![v1264.toNat, 10, 64]
def k0_off94 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1276 : Index := Scalar.indexCast v152
  let c10_i32_639 : BitVec 32 := 10#32
  let v1277 : Index := Scalar.indexCast c10_i32_639
  let c80_640 : Index := 80#32
  ![v1276.toNat, 10, 80]
def k0_off95 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1288 : Index := Scalar.indexCast v152
  let c10_i32_645 : BitVec 32 := 10#32
  let v1289 : Index := Scalar.indexCast c10_i32_645
  let c96_646 : Index := 96#32
  ![v1288.toNat, 10, 96]
def k0_off96 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1300 : Index := Scalar.indexCast v152
  let c10_i32_651 : BitVec 32 := 10#32
  let v1301 : Index := Scalar.indexCast c10_i32_651
  let c112_652 : Index := 112#32
  ![v1300.toNat, 10, 112]
def k0_off97 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1320 : Index := Scalar.indexCast v152
  let c11_i32 : BitVec 32 := 11#32
  let v1321 : Index := Scalar.indexCast c11_i32
  let c0_657 : Index := 0#32
  ![v1320.toNat, 11, 0]
def k0_off98 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1332 : Index := Scalar.indexCast v152
  let c11_i32_662 : BitVec 32 := 11#32
  let v1333 : Index := Scalar.indexCast c11_i32_662
  let c16_663 : Index := 16#32
  ![v1332.toNat, 11, 16]
def k0_off99 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1344 : Index := Scalar.indexCast v152
  let c11_i32_668 : BitVec 32 := 11#32
  let v1345 : Index := Scalar.indexCast c11_i32_668
  let c32_669 : Index := 32#32
  ![v1344.toNat, 11, 32]
def k0_off100 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1356 : Index := Scalar.indexCast v152
  let c11_i32_674 : BitVec 32 := 11#32
  let v1357 : Index := Scalar.indexCast c11_i32_674
  let c48_675 : Index := 48#32
  ![v1356.toNat, 11, 48]
def k0_off101 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1368 : Index := Scalar.indexCast v152
  let c11_i32_680 : BitVec 32 := 11#32
  let v1369 : Index := Scalar.indexCast c11_i32_680
  let c64_681 : Index := 64#32
  ![v1368.toNat, 11, 64]
def k0_off102 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1380 : Index := Scalar.indexCast v152
  let c11_i32_686 : BitVec 32 := 11#32
  let v1381 : Index := Scalar.indexCast c11_i32_686
  let c80_687 : Index := 80#32
  ![v1380.toNat, 11, 80]
def k0_off103 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1392 : Index := Scalar.indexCast v152
  let c11_i32_692 : BitVec 32 := 11#32
  let v1393 : Index := Scalar.indexCast c11_i32_692
  let c96_693 : Index := 96#32
  ![v1392.toNat, 11, 96]
def k0_off104 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1404 : Index := Scalar.indexCast v152
  let c11_i32_698 : BitVec 32 := 11#32
  let v1405 : Index := Scalar.indexCast c11_i32_698
  let c112_699 : Index := 112#32
  ![v1404.toNat, 11, 112]
def k0_off105 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1424 : Index := Scalar.indexCast v152
  let c12_i32 : BitVec 32 := 12#32
  let v1425 : Index := Scalar.indexCast c12_i32
  let c0_704 : Index := 0#32
  ![v1424.toNat, 12, 0]
def k0_off106 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1436 : Index := Scalar.indexCast v152
  let c12_i32_709 : BitVec 32 := 12#32
  let v1437 : Index := Scalar.indexCast c12_i32_709
  let c16_710 : Index := 16#32
  ![v1436.toNat, 12, 16]
def k0_off107 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1448 : Index := Scalar.indexCast v152
  let c12_i32_715 : BitVec 32 := 12#32
  let v1449 : Index := Scalar.indexCast c12_i32_715
  let c32_716 : Index := 32#32
  ![v1448.toNat, 12, 32]
def k0_off108 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1460 : Index := Scalar.indexCast v152
  let c12_i32_721 : BitVec 32 := 12#32
  let v1461 : Index := Scalar.indexCast c12_i32_721
  let c48_722 : Index := 48#32
  ![v1460.toNat, 12, 48]
def k0_off109 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1472 : Index := Scalar.indexCast v152
  let c12_i32_727 : BitVec 32 := 12#32
  let v1473 : Index := Scalar.indexCast c12_i32_727
  let c64_728 : Index := 64#32
  ![v1472.toNat, 12, 64]
def k0_off110 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1484 : Index := Scalar.indexCast v152
  let c12_i32_733 : BitVec 32 := 12#32
  let v1485 : Index := Scalar.indexCast c12_i32_733
  let c80_734 : Index := 80#32
  ![v1484.toNat, 12, 80]
def k0_off111 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1496 : Index := Scalar.indexCast v152
  let c12_i32_739 : BitVec 32 := 12#32
  let v1497 : Index := Scalar.indexCast c12_i32_739
  let c96_740 : Index := 96#32
  ![v1496.toNat, 12, 96]
def k0_off112 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1508 : Index := Scalar.indexCast v152
  let c12_i32_745 : BitVec 32 := 12#32
  let v1509 : Index := Scalar.indexCast c12_i32_745
  let c112_746 : Index := 112#32
  ![v1508.toNat, 12, 112]
def k0_off113 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1528 : Index := Scalar.indexCast v152
  let c13_i32 : BitVec 32 := 13#32
  let v1529 : Index := Scalar.indexCast c13_i32
  let c0_751 : Index := 0#32
  ![v1528.toNat, 13, 0]
def k0_off114 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1540 : Index := Scalar.indexCast v152
  let c13_i32_756 : BitVec 32 := 13#32
  let v1541 : Index := Scalar.indexCast c13_i32_756
  let c16_757 : Index := 16#32
  ![v1540.toNat, 13, 16]
def k0_off115 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1552 : Index := Scalar.indexCast v152
  let c13_i32_762 : BitVec 32 := 13#32
  let v1553 : Index := Scalar.indexCast c13_i32_762
  let c32_763 : Index := 32#32
  ![v1552.toNat, 13, 32]
def k0_off116 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1564 : Index := Scalar.indexCast v152
  let c13_i32_768 : BitVec 32 := 13#32
  let v1565 : Index := Scalar.indexCast c13_i32_768
  let c48_769 : Index := 48#32
  ![v1564.toNat, 13, 48]
def k0_off117 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1576 : Index := Scalar.indexCast v152
  let c13_i32_774 : BitVec 32 := 13#32
  let v1577 : Index := Scalar.indexCast c13_i32_774
  let c64_775 : Index := 64#32
  ![v1576.toNat, 13, 64]
def k0_off118 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1588 : Index := Scalar.indexCast v152
  let c13_i32_780 : BitVec 32 := 13#32
  let v1589 : Index := Scalar.indexCast c13_i32_780
  let c80_781 : Index := 80#32
  ![v1588.toNat, 13, 80]
def k0_off119 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1600 : Index := Scalar.indexCast v152
  let c13_i32_786 : BitVec 32 := 13#32
  let v1601 : Index := Scalar.indexCast c13_i32_786
  let c96_787 : Index := 96#32
  ![v1600.toNat, 13, 96]
def k0_off120 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1612 : Index := Scalar.indexCast v152
  let c13_i32_792 : BitVec 32 := 13#32
  let v1613 : Index := Scalar.indexCast c13_i32_792
  let c112_793 : Index := 112#32
  ![v1612.toNat, 13, 112]
def k0_off121 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1632 : Index := Scalar.indexCast v152
  let c14_i32 : BitVec 32 := 14#32
  let v1633 : Index := Scalar.indexCast c14_i32
  let c0_798 : Index := 0#32
  ![v1632.toNat, 14, 0]
def k0_off122 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1644 : Index := Scalar.indexCast v152
  let c14_i32_803 : BitVec 32 := 14#32
  let v1645 : Index := Scalar.indexCast c14_i32_803
  let c16_804 : Index := 16#32
  ![v1644.toNat, 14, 16]
def k0_off123 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1656 : Index := Scalar.indexCast v152
  let c14_i32_809 : BitVec 32 := 14#32
  let v1657 : Index := Scalar.indexCast c14_i32_809
  let c32_810 : Index := 32#32
  ![v1656.toNat, 14, 32]
def k0_off124 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1668 : Index := Scalar.indexCast v152
  let c14_i32_815 : BitVec 32 := 14#32
  let v1669 : Index := Scalar.indexCast c14_i32_815
  let c48_816 : Index := 48#32
  ![v1668.toNat, 14, 48]
def k0_off125 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1680 : Index := Scalar.indexCast v152
  let c14_i32_821 : BitVec 32 := 14#32
  let v1681 : Index := Scalar.indexCast c14_i32_821
  let c64_822 : Index := 64#32
  ![v1680.toNat, 14, 64]
def k0_off126 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1692 : Index := Scalar.indexCast v152
  let c14_i32_827 : BitVec 32 := 14#32
  let v1693 : Index := Scalar.indexCast c14_i32_827
  let c80_828 : Index := 80#32
  ![v1692.toNat, 14, 80]
def k0_off127 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1704 : Index := Scalar.indexCast v152
  let c14_i32_833 : BitVec 32 := 14#32
  let v1705 : Index := Scalar.indexCast c14_i32_833
  let c96_834 : Index := 96#32
  ![v1704.toNat, 14, 96]
def k0_off128 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1716 : Index := Scalar.indexCast v152
  let c14_i32_839 : BitVec 32 := 14#32
  let v1717 : Index := Scalar.indexCast c14_i32_839
  let c112_840 : Index := 112#32
  ![v1716.toNat, 14, 112]
def k0_off129 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1736 : Index := Scalar.indexCast v152
  let c15_i32 : BitVec 32 := 15#32
  let v1737 : Index := Scalar.indexCast c15_i32
  let c0_845 : Index := 0#32
  ![v1736.toNat, 15, 0]
def k0_off130 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1748 : Index := Scalar.indexCast v152
  let c15_i32_850 : BitVec 32 := 15#32
  let v1749 : Index := Scalar.indexCast c15_i32_850
  let c16_851 : Index := 16#32
  ![v1748.toNat, 15, 16]
def k0_off131 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1760 : Index := Scalar.indexCast v152
  let c15_i32_856 : BitVec 32 := 15#32
  let v1761 : Index := Scalar.indexCast c15_i32_856
  let c32_857 : Index := 32#32
  ![v1760.toNat, 15, 32]
def k0_off132 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1772 : Index := Scalar.indexCast v152
  let c15_i32_862 : BitVec 32 := 15#32
  let v1773 : Index := Scalar.indexCast c15_i32_862
  let c48_863 : Index := 48#32
  ![v1772.toNat, 15, 48]
def k0_off133 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1784 : Index := Scalar.indexCast v152
  let c15_i32_868 : BitVec 32 := 15#32
  let v1785 : Index := Scalar.indexCast c15_i32_868
  let c64_869 : Index := 64#32
  ![v1784.toNat, 15, 64]
def k0_off134 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1796 : Index := Scalar.indexCast v152
  let c15_i32_874 : BitVec 32 := 15#32
  let v1797 : Index := Scalar.indexCast c15_i32_874
  let c80_875 : Index := 80#32
  ![v1796.toNat, 15, 80]
def k0_off135 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1808 : Index := Scalar.indexCast v152
  let c15_i32_880 : BitVec 32 := 15#32
  let v1809 : Index := Scalar.indexCast c15_i32_880
  let c96_881 : Index := 96#32
  ![v1808.toNat, 15, 96]
def k0_off136 (k0_t1 : Fin k0_t1_loop.trips) : Fin 3 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c8_i32_112 : BitVec 32 := 8#32
  let v152 : BitVec 32 := Scalar.remsi v151 c8_i32_112
  let v1820 : Index := Scalar.indexCast v152
  let c15_i32_886 : BitVec 32 := 15#32
  let v1821 : Index := Scalar.indexCast c15_i32_886
  let c112_887 : Index := 112#32
  ![v1820.toNat, 15, 112]

def k0_chk1 (v1843 : IVec S16 32) : Prop :=
  (∀ a x, ((![v1843] : Fin 1 → IVec S16 32) a x).toNat < S256.size a)
instance k0_chk1.dec : ∀ (v1843 : IVec S16 32), Decidable (k0_chk1 v1843) := fun v1843 => decidable_of_iff' _ (Iff.of_eq (k0_chk1.eq_1 v1843))
theorem k0_idx1_inb : ∀ (v1843 : IVec S16 32) (k0_hw1 : k0_chk1 v1843), ∀ a x, ((![v1843] : Fin 1 → IVec S16 32) a x).toNat < S256.size a := fun v1843 k0_hw1 => k0_hw1

def k0_chk2 (v1848 : IVec S16 32) : Prop :=
  (∀ a x, ((![v1848] : Fin 1 → IVec S16 32) a x).toNat < S256.size a)
instance k0_chk2.dec : ∀ (v1848 : IVec S16 32), Decidable (k0_chk2 v1848) := fun v1848 => decidable_of_iff' _ (Iff.of_eq (k0_chk2.eq_1 v1848))
theorem k0_idx2_inb : ∀ (v1848 : IVec S16 32) (k0_hw2 : k0_chk2 v1848), ∀ a x, ((![v1848] : Fin 1 → IVec S16 32) a x).toNat < S256.size a := fun v1848 k0_hw2 => k0_hw2

def k0_chk3 (v1853 : IVec S16 32) : Prop :=
  (∀ a x, ((![v1853] : Fin 1 → IVec S16 32) a x).toNat < S256.size a)
instance k0_chk3.dec : ∀ (v1853 : IVec S16 32), Decidable (k0_chk3 v1853) := fun v1853 => decidable_of_iff' _ (Iff.of_eq (k0_chk3.eq_1 v1853))
theorem k0_idx3_inb : ∀ (v1853 : IVec S16 32) (k0_hw3 : k0_chk3 v1853), ∀ a x, ((![v1853] : Fin 1 → IVec S16 32) a x).toNat < S256.size a := fun v1853 k0_hw3 => k0_hw3

def k0_chk4 (v1858 : IVec S16 32) : Prop :=
  (∀ a x, ((![v1858] : Fin 1 → IVec S16 32) a x).toNat < S256.size a)
instance k0_chk4.dec : ∀ (v1858 : IVec S16 32), Decidable (k0_chk4 v1858) := fun v1858 => decidable_of_iff' _ (Iff.of_eq (k0_chk4.eq_1 v1858))
theorem k0_idx4_inb : ∀ (v1858 : IVec S16 32) (k0_hw4 : k0_chk4 v1858), ∀ a x, ((![v1858] : Fin 1 → IVec S16 32) a x).toNat < S256.size a := fun v1858 k0_hw4 => k0_hw4

def k0_chk5 (v1863 : IVec S16 32) : Prop :=
  (∀ a x, ((![v1863] : Fin 1 → IVec S16 32) a x).toNat < S256.size a)
instance k0_chk5.dec : ∀ (v1863 : IVec S16 32), Decidable (k0_chk5 v1863) := fun v1863 => decidable_of_iff' _ (Iff.of_eq (k0_chk5.eq_1 v1863))
theorem k0_idx5_inb : ∀ (v1863 : IVec S16 32) (k0_hw5 : k0_chk5 v1863), ∀ a x, ((![v1863] : Fin 1 → IVec S16 32) a x).toNat < S256.size a := fun v1863 k0_hw5 => k0_hw5

def k0_chk6 (v1868 : IVec S16 32) : Prop :=
  (∀ a x, ((![v1868] : Fin 1 → IVec S16 32) a x).toNat < S256.size a)
instance k0_chk6.dec : ∀ (v1868 : IVec S16 32), Decidable (k0_chk6 v1868) := fun v1868 => decidable_of_iff' _ (Iff.of_eq (k0_chk6.eq_1 v1868))
theorem k0_idx6_inb : ∀ (v1868 : IVec S16 32) (k0_hw6 : k0_chk6 v1868), ∀ a x, ((![v1868] : Fin 1 → IVec S16 32) a x).toNat < S256.size a := fun v1868 k0_hw6 => k0_hw6

def k0_chk7 (v1873 : IVec S16 32) : Prop :=
  (∀ a x, ((![v1873] : Fin 1 → IVec S16 32) a x).toNat < S256.size a)
instance k0_chk7.dec : ∀ (v1873 : IVec S16 32), Decidable (k0_chk7 v1873) := fun v1873 => decidable_of_iff' _ (Iff.of_eq (k0_chk7.eq_1 v1873))
theorem k0_idx7_inb : ∀ (v1873 : IVec S16 32) (k0_hw7 : k0_chk7 v1873), ∀ a x, ((![v1873] : Fin 1 → IVec S16 32) a x).toNat < S256.size a := fun v1873 k0_hw7 => k0_hw7

def k0_chk8 (v1878 : IVec S16 32) : Prop :=
  (∀ a x, ((![v1878] : Fin 1 → IVec S16 32) a x).toNat < S256.size a)
instance k0_chk8.dec : ∀ (v1878 : IVec S16 32), Decidable (k0_chk8 v1878) := fun v1878 => decidable_of_iff' _ (Iff.of_eq (k0_chk8.eq_1 v1878))
theorem k0_idx8_inb : ∀ (v1878 : IVec S16 32) (k0_hw8 : k0_chk8 v1878), ∀ a x, ((![v1878] : Fin 1 → IVec S16 32) a x).toNat < S256.size a := fun v1878 k0_hw8 => k0_hw8

def k0_chk9 (v1883 : IVec S16 32) : Prop :=
  (∀ a x, ((![v1883] : Fin 1 → IVec S16 32) a x).toNat < S256.size a)
instance k0_chk9.dec : ∀ (v1883 : IVec S16 32), Decidable (k0_chk9 v1883) := fun v1883 => decidable_of_iff' _ (Iff.of_eq (k0_chk9.eq_1 v1883))
theorem k0_idx9_inb : ∀ (v1883 : IVec S16 32) (k0_hw9 : k0_chk9 v1883), ∀ a x, ((![v1883] : Fin 1 → IVec S16 32) a x).toNat < S256.size a := fun v1883 k0_hw9 => k0_hw9

def k0_chk10 (v1888 : IVec S16 32) : Prop :=
  (∀ a x, ((![v1888] : Fin 1 → IVec S16 32) a x).toNat < S256.size a)
instance k0_chk10.dec : ∀ (v1888 : IVec S16 32), Decidable (k0_chk10 v1888) := fun v1888 => decidable_of_iff' _ (Iff.of_eq (k0_chk10.eq_1 v1888))
theorem k0_idx10_inb : ∀ (v1888 : IVec S16 32) (k0_hw10 : k0_chk10 v1888), ∀ a x, ((![v1888] : Fin 1 → IVec S16 32) a x).toNat < S256.size a := fun v1888 k0_hw10 => k0_hw10

def k0_chk11 (v1893 : IVec S16 32) : Prop :=
  (∀ a x, ((![v1893] : Fin 1 → IVec S16 32) a x).toNat < S256.size a)
instance k0_chk11.dec : ∀ (v1893 : IVec S16 32), Decidable (k0_chk11 v1893) := fun v1893 => decidable_of_iff' _ (Iff.of_eq (k0_chk11.eq_1 v1893))
theorem k0_idx11_inb : ∀ (v1893 : IVec S16 32) (k0_hw11 : k0_chk11 v1893), ∀ a x, ((![v1893] : Fin 1 → IVec S16 32) a x).toNat < S256.size a := fun v1893 k0_hw11 => k0_hw11

def k0_chk12 (v1898 : IVec S16 32) : Prop :=
  (∀ a x, ((![v1898] : Fin 1 → IVec S16 32) a x).toNat < S256.size a)
instance k0_chk12.dec : ∀ (v1898 : IVec S16 32), Decidable (k0_chk12 v1898) := fun v1898 => decidable_of_iff' _ (Iff.of_eq (k0_chk12.eq_1 v1898))
theorem k0_idx12_inb : ∀ (v1898 : IVec S16 32) (k0_hw12 : k0_chk12 v1898), ∀ a x, ((![v1898] : Fin 1 → IVec S16 32) a x).toNat < S256.size a := fun v1898 k0_hw12 => k0_hw12

def k0_chk13 (v1903 : IVec S16 32) : Prop :=
  (∀ a x, ((![v1903] : Fin 1 → IVec S16 32) a x).toNat < S256.size a)
instance k0_chk13.dec : ∀ (v1903 : IVec S16 32), Decidable (k0_chk13 v1903) := fun v1903 => decidable_of_iff' _ (Iff.of_eq (k0_chk13.eq_1 v1903))
theorem k0_idx13_inb : ∀ (v1903 : IVec S16 32) (k0_hw13 : k0_chk13 v1903), ∀ a x, ((![v1903] : Fin 1 → IVec S16 32) a x).toNat < S256.size a := fun v1903 k0_hw13 => k0_hw13

def k0_chk14 (v1908 : IVec S16 32) : Prop :=
  (∀ a x, ((![v1908] : Fin 1 → IVec S16 32) a x).toNat < S256.size a)
instance k0_chk14.dec : ∀ (v1908 : IVec S16 32), Decidable (k0_chk14 v1908) := fun v1908 => decidable_of_iff' _ (Iff.of_eq (k0_chk14.eq_1 v1908))
theorem k0_idx14_inb : ∀ (v1908 : IVec S16 32) (k0_hw14 : k0_chk14 v1908), ∀ a x, ((![v1908] : Fin 1 → IVec S16 32) a x).toNat < S256.size a := fun v1908 k0_hw14 => k0_hw14

def k0_chk15 (v1913 : IVec S16 32) : Prop :=
  (∀ a x, ((![v1913] : Fin 1 → IVec S16 32) a x).toNat < S256.size a)
instance k0_chk15.dec : ∀ (v1913 : IVec S16 32), Decidable (k0_chk15 v1913) := fun v1913 => decidable_of_iff' _ (Iff.of_eq (k0_chk15.eq_1 v1913))
theorem k0_idx15_inb : ∀ (v1913 : IVec S16 32) (k0_hw15 : k0_chk15 v1913), ∀ a x, ((![v1913] : Fin 1 → IVec S16 32) a x).toNat < S256.size a := fun v1913 k0_hw15 => k0_hw15

def k0_chk16 (v1918 : IVec S16 32) : Prop :=
  (∀ a x, ((![v1918] : Fin 1 → IVec S16 32) a x).toNat < S256.size a)
instance k0_chk16.dec : ∀ (v1918 : IVec S16 32), Decidable (k0_chk16 v1918) := fun v1918 => decidable_of_iff' _ (Iff.of_eq (k0_chk16.eq_1 v1918))
theorem k0_idx16_inb : ∀ (v1918 : IVec S16 32) (k0_hw16 : k0_chk16 v1918), ∀ a x, ((![v1918] : Fin 1 → IVec S16 32) a x).toNat < S256.size a := fun v1918 k0_hw16 => k0_hw16
def k0_off137 (k0_t1 : Fin k0_t1_loop.trips) : Fin 1 → Nat :=
  let c0_i32_111 : BitVec 32 := 0#32
  let c0_i32_106 : BitVec 32 := 0#32
  let c1_i32_108 : BitVec 32 := 1#32
  let arg20 : BitVec 32 := Scf.iv c0_i32_106 c1_i32_108 k0_t1
  let c1_i32_110 : BitVec 32 := 1#32
  let v150 : BitVec 32 := Scalar.muli arg20 c1_i32_110
  let v151 : BitVec 32 := Scalar.addi c0_i32_111 v150
  let c16_i32_924 : BitVec 32 := 16#32
  let v1937 : BitVec 32 := Scalar.muli v151 c16_i32_924
  let c0_i32_925 : BitVec 32 := 0#32
  let v1938 : BitVec 32 := Scalar.addi v1937 c0_i32_925
  let v1939 : Index := Scalar.indexCast v1938
  ![v1939.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  iota_S16_d0_w32_scVector : S16.Iotas .scVector 32 [0]
  squeezes_S1x16x128_S16x128 : S1x16x128.Squeezes S16x128
  inb_S512_S16_0 : ∀ a, (![0] : Fin 1 → Nat) a + S16.size a ≤ S512.size a
  inb_S100000x128_S100000x128_0_0 : ∀ a, (![0, 0] : Fin 2 → Nat) a + S100000x128.size a ≤ S100000x128.size a
  squeezes_S1_S_ : S1.Squeezes S_
  gathers_S100000x128_S16x128 : S100000x128.Gathers 0 S16x128
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  h_S1x1x16 : 0 < S1x1x16.numel
  shapeCasts_S1x1x16_S16 : S1x1x16.ShapeCasts S16
  inb_S256_S16_0 : ∀ a, (![0] : Fin 1 → Nat) a + S16.size a ≤ S256.size a
  h_S16 : 0 < S16.numel
  inb_S256_S16_16 : ∀ a, (![16] : Fin 1 → Nat) a + S16.size a ≤ S256.size a
  inb_S256_S16_32 : ∀ a, (![32] : Fin 1 → Nat) a + S16.size a ≤ S256.size a
  inb_S256_S16_48 : ∀ a, (![48] : Fin 1 → Nat) a + S16.size a ≤ S256.size a
  inb_S256_S16_64 : ∀ a, (![64] : Fin 1 → Nat) a + S16.size a ≤ S256.size a
  inb_S256_S16_80 : ∀ a, (![80] : Fin 1 → Nat) a + S16.size a ≤ S256.size a
  inb_S256_S16_96 : ∀ a, (![96] : Fin 1 → Nat) a + S16.size a ≤ S256.size a
  inb_S256_S16_112 : ∀ a, (![112] : Fin 1 → Nat) a + S16.size a ≤ S256.size a
  inb_S256_S16_128 : ∀ a, (![128] : Fin 1 → Nat) a + S16.size a ≤ S256.size a
  inb_S256_S16_144 : ∀ a, (![144] : Fin 1 → Nat) a + S16.size a ≤ S256.size a
  inb_S256_S16_160 : ∀ a, (![160] : Fin 1 → Nat) a + S16.size a ≤ S256.size a
  inb_S256_S16_176 : ∀ a, (![176] : Fin 1 → Nat) a + S16.size a ≤ S256.size a
  inb_S256_S16_192 : ∀ a, (![192] : Fin 1 → Nat) a + S16.size a ≤ S256.size a
  inb_S256_S16_208 : ∀ a, (![208] : Fin 1 → Nat) a + S16.size a ≤ S256.size a
  inb_S256_S16_224 : ∀ a, (![224] : Fin 1 → Nat) a + S16.size a ≤ S256.size a
  inb_S256_S16_240 : ∀ a, (![240] : Fin 1 → Nat) a + S16.size a ≤ S256.size a
  h_S256 : 0 < S256.numel
  shapeCasts_S16384_S16384x1 : S16384.ShapeCasts S16384x1
  hcc0_scratch8 : 0 + S8.numel ≤ 26
  hcc0_scratch9 : 8 + S8.numel ≤ 26
  hcc0_scratch10 : 16 + S8.numel ≤ 26
  hcc0_scratch11 : 24 + S_.numel ≤ 26
  hcc0_scoped0 : 25 + S_.numel ≤ 26
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ (r : Fin 7), ∀ a, (k0_off2 (BitVec.ofNat 32 r.val)) a + S1x16x128.size a ≤ S8x16x128.size a
  k0_off3_inb : ∀ (r : Fin 7), ∀ a, (k0_off3 (BitVec.ofNat 32 r.val)) a + S1.size a ≤ S8.size a
  k0_t1_ok : k0_t1_loop.OK
  k0_off4_inb : ∀ k0_t1 : Fin k0_t1_loop.trips, ∀ (k0_h1 : k0_cond1 k0_t1 = 1#1), ∀ a, (k0_off4 k0_t1) a + S1x16x128.size a ≤ S8x16x128.size a
  k0_off5_inb : ∀ k0_t1 : Fin k0_t1_loop.trips, ∀ (k0_h1 : k0_cond1 k0_t1 = 1#1), ∀ a, (k0_off5 k0_t1) a + S16.size a ≤ S512.size a
  k0_off6_inb : ∀ k0_t1 : Fin k0_t1_loop.trips, ∀ (k0_h1 : k0_cond1 k0_t1 = 1#1), ∀ a, (k0_off6 k0_t1) a + S1.size a ≤ S8.size a
  k0_off7_inb : ∀ k0_t1 : Fin k0_t1_loop.trips, ∀ a, (k0_off7 k0_t1) a + S1x16x128.size a ≤ S8x16x128.size a
  k0_off8_inb : ∀ k0_t1 : Fin k0_t1_loop.trips, ∀ a, (k0_off8 k0_t1) a + S1.size a ≤ S8.size a
  k0_off9_inb : ∀ k0_t1 : Fin k0_t1_loop.trips, ∀ a, (k0_off9 k0_t1) a + S1x1x16.size a ≤ S8x16x128.size a
  k0_off10_inb : ∀ k0_t1 : Fin k0_t1_loop.trips, ∀ a, (k0_off10 k0_t1) a + S1x1x16.size a ≤ S8x16x128.size a
  k0_off11_inb : ∀ k0_t1 : Fin k0_t1_loop.trips, ∀ a, (k0_off11 k0_t1) a + S1x1x16.size a ≤ S8x16x128.size a
  k0_off12_inb : ∀ k0_t1 : Fin k0_t1_loop.trips, ∀ a, (k0_off12 k0_t1) a + S1x1x16.size a ≤ S8x16x128.size a
  k0_off13_inb : ∀ k0_t1 : Fin k0_t1_loop.trips, ∀ a, (k0_off13 k0_t1) a + S1x1x16.size a ≤ S8x16x128.size a
  k0_off14_inb : ∀ k0_t1 : Fin k0_t1_loop.trips, ∀ a, (k0_off14 k0_t1) a + S1x1x16.size a ≤ S8x16x128.size a
  k0_off15_inb : ∀ k0_t1 : Fin k0_t1_loop.trips, ∀ a, (k0_off15 k0_t1) a + S1x1x16.size a ≤ S8x16x128.size a
  k0_off16_inb : ∀ k0_t1 : Fin k0_t1_loop.trips, ∀ a, (k0_off16 k0_t1) a + S1x1x16.size a ≤ S8x16x128.size a
  k0_off17_inb : ∀ k0_t1 : Fin k0_t1_loop.trips, ∀ a, (k0_off17 k0_t1) a + S1x1x16.size a ≤ S8x16x128.size a
  k0_off18_inb : ∀ k0_t1 : Fin k0_t1_loop.trips, ∀ a, (k0_off18 k0_t1) a + S1x1x16.size a ≤ S8x16x128.size a
  k0_off19_inb : ∀ k0_t1 : Fin k0_t1_loop.trips, ∀ a, (k0_off19 k0_t1) a + S1x1x16.size a ≤ S8x16x128.size a
  k0_off20_inb : ∀ k0_t1 : Fin k0_t1_loop.trips, ∀ a, (k0_off20 k0_t1) a + S1x1x16.size a ≤ S8x16x128.size a
  k0_off21_inb : ∀ k0_t1 : Fin k0_t1_loop.trips, ∀ a, (k0_off21 k0_t1) a + S1x1x16.size a ≤ S8x16x128.size a
  k0_off22_inb : ∀ k0_t1 : Fin k0_t1_loop.trips, ∀ a, (k0_off22 k0_t1) a + S1x1x16.size a ≤ S8x16x128.size a
  k0_off23_inb : ∀ k0_t1 : Fin k0_t1_loop.trips, ∀ a, (k0_off23 k0_t1) a + S1x1x16.size a ≤ S8x16x128.size a
  k0_off24_inb : ∀ k0_t1 : Fin k0_t1_loop.trips, ∀ a, (k0_off24 k0_t1) a + S1x1x16.size a ≤ S8x16x128.size a
  k0_off25_inb : ∀ k0_t1 : Fin k0_t1_loop.trips, ∀ a, (k0_off25 k0_t1) a + S1x1x16.size a ≤ S8x16x128.size a
  k0_off26_inb : ∀ k0_t1 : Fin k0_t1_loop.trips, ∀ a, (k0_off26 k0_t1) a + S1x1x16.size a ≤ S8x16x128.size a
  k0_off27_inb : ∀ k0_t1 : Fin k0_t1_loop.trips, ∀ a, (k0_off27 k0_t1) a + S1x1x16.size a ≤ S8x16x128.size a
  k0_off28_inb : ∀ k0_t1 : Fin k0_t1_loop.trips, ∀ a, (k0_off28 k0_t1) a + S1x1x16.size a ≤ S8x16x128.size a
  k0_off29_inb : ∀ k0_t1 : Fin k0_t1_loop.trips, ∀ a, (k0_off29 k0_t1) a + S1x1x16.size a ≤ S8x16x128.size a
  k0_off30_inb : ∀ k0_t1 : Fin k0_t1_loop.trips, ∀ a, (k0_off30 k0_t1) a + S1x1x16.size a ≤ S8x16x128.size a
  k0_off31_inb : ∀ k0_t1 : Fin k0_t1_loop.trips, ∀ a, (k0_off31 k0_t1) a + S1x1x16.size a ≤ S8x16x128.size a
  k0_off32_inb : ∀ k0_t1 : Fin k0_t1_loop.trips, ∀ a, (k0_off32 k0_t1) a + S1x1x16.size a ≤ S8x16x128.size a
  k0_off33_inb : ∀ k0_t1 : Fin k0_t1_loop.trips, ∀ a, (k0_off33 k0_t1) a + S1x1x16.size a ≤ S8x16x128.size a
  k0_off34_inb : ∀ k0_t1 : Fin k0_t1_loop.trips, ∀ a, (k0_off34 k0_t1) a + S1x1x16.size a ≤ S8x16x128.size a
  k0_off35_inb : ∀ k0_t1 : Fin k0_t1_loop.trips, ∀ a, (k0_off35 k0_t1) a + S1x1x16.size a ≤ S8x16x128.size a
  k0_off36_inb : ∀ k0_t1 : Fin k0_t1_loop.trips, ∀ a, (k0_off36 k0_t1) a + S1x1x16.size a ≤ S8x16x128.size a
  k0_off37_inb : ∀ k0_t1 : Fin k0_t1_loop.trips, ∀ a, (k0_off37 k0_t1) a + S1x1x16.size a ≤ S8x16x128.size a
  k0_off38_inb : ∀ k0_t1 : Fin k0_t1_loop.trips, ∀ a, (k0_off38 k0_t1) a + S1x1x16.size a ≤ S8x16x128.size a
  k0_off39_inb : ∀ k0_t1 : Fin k0_t1_loop.trips, ∀ a, (k0_off39 k0_t1) a + S1x1x16.size a ≤ S8x16x128.size a
  k0_off40_inb : ∀ k0_t1 : Fin k0_t1_loop.trips, ∀ a, (k0_off40 k0_t1) a + S1x1x16.size a ≤ S8x16x128.size a
  k0_off41_inb : ∀ k0_t1 : Fin k0_t1_loop.trips, ∀ a, (k0_off41 k0_t1) a + S1x1x16.size a ≤ S8x16x128.size a
  k0_off42_inb : ∀ k0_t1 : Fin k0_t1_loop.trips, ∀ a, (k0_off42 k0_t1) a + S1x1x16.size a ≤ S8x16x128.size a
  k0_off43_inb : ∀ k0_t1 : Fin k0_t1_loop.trips, ∀ a, (k0_off43 k0_t1) a + S1x1x16.size a ≤ S8x16x128.size a
  k0_off44_inb : ∀ k0_t1 : Fin k0_t1_loop.trips, ∀ a, (k0_off44 k0_t1) a + S1x1x16.size a ≤ S8x16x128.size a
  k0_off45_inb : ∀ k0_t1 : Fin k0_t1_loop.trips, ∀ a, (k0_off45 k0_t1) a + S1x1x16.size a ≤ S8x16x128.size a
  k0_off46_inb : ∀ k0_t1 : Fin k0_t1_loop.trips, ∀ a, (k0_off46 k0_t1) a + S1x1x16.size a ≤ S8x16x128.size a
  k0_off47_inb : ∀ k0_t1 : Fin k0_t1_loop.trips, ∀ a, (k0_off47 k0_t1) a + S1x1x16.size a ≤ S8x16x128.size a
  k0_off48_inb : ∀ k0_t1 : Fin k0_t1_loop.trips, ∀ a, (k0_off48 k0_t1) a + S1x1x16.size a ≤ S8x16x128.size a
  k0_off49_inb : ∀ k0_t1 : Fin k0_t1_loop.trips, ∀ a, (k0_off49 k0_t1) a + S1x1x16.size a ≤ S8x16x128.size a
  k0_off50_inb : ∀ k0_t1 : Fin k0_t1_loop.trips, ∀ a, (k0_off50 k0_t1) a + S1x1x16.size a ≤ S8x16x128.size a
  k0_off51_inb : ∀ k0_t1 : Fin k0_t1_loop.trips, ∀ a, (k0_off51 k0_t1) a + S1x1x16.size a ≤ S8x16x128.size a
  k0_off52_inb : ∀ k0_t1 : Fin k0_t1_loop.trips, ∀ a, (k0_off52 k0_t1) a + S1x1x16.size a ≤ S8x16x128.size a
  k0_off53_inb : ∀ k0_t1 : Fin k0_t1_loop.trips, ∀ a, (k0_off53 k0_t1) a + S1x1x16.size a ≤ S8x16x128.size a
  k0_off54_inb : ∀ k0_t1 : Fin k0_t1_loop.trips, ∀ a, (k0_off54 k0_t1) a + S1x1x16.size a ≤ S8x16x128.size a
  k0_off55_inb : ∀ k0_t1 : Fin k0_t1_loop.trips, ∀ a, (k0_off55 k0_t1) a + S1x1x16.size a ≤ S8x16x128.size a
  k0_off56_inb : ∀ k0_t1 : Fin k0_t1_loop.trips, ∀ a, (k0_off56 k0_t1) a + S1x1x16.size a ≤ S8x16x128.size a
  k0_off57_inb : ∀ k0_t1 : Fin k0_t1_loop.trips, ∀ a, (k0_off57 k0_t1) a + S1x1x16.size a ≤ S8x16x128.size a
  k0_off58_inb : ∀ k0_t1 : Fin k0_t1_loop.trips, ∀ a, (k0_off58 k0_t1) a + S1x1x16.size a ≤ S8x16x128.size a
  k0_off59_inb : ∀ k0_t1 : Fin k0_t1_loop.trips, ∀ a, (k0_off59 k0_t1) a + S1x1x16.size a ≤ S8x16x128.size a
  k0_off60_inb : ∀ k0_t1 : Fin k0_t1_loop.trips, ∀ a, (k0_off60 k0_t1) a + S1x1x16.size a ≤ S8x16x128.size a
  k0_off61_inb : ∀ k0_t1 : Fin k0_t1_loop.trips, ∀ a, (k0_off61 k0_t1) a + S1x1x16.size a ≤ S8x16x128.size a
  k0_off62_inb : ∀ k0_t1 : Fin k0_t1_loop.trips, ∀ a, (k0_off62 k0_t1) a + S1x1x16.size a ≤ S8x16x128.size a
  k0_off63_inb : ∀ k0_t1 : Fin k0_t1_loop.trips, ∀ a, (k0_off63 k0_t1) a + S1x1x16.size a ≤ S8x16x128.size a
  k0_off64_inb : ∀ k0_t1 : Fin k0_t1_loop.trips, ∀ a, (k0_off64 k0_t1) a + S1x1x16.size a ≤ S8x16x128.size a
  k0_off65_inb : ∀ k0_t1 : Fin k0_t1_loop.trips, ∀ a, (k0_off65 k0_t1) a + S1x1x16.size a ≤ S8x16x128.size a
  k0_off66_inb : ∀ k0_t1 : Fin k0_t1_loop.trips, ∀ a, (k0_off66 k0_t1) a + S1x1x16.size a ≤ S8x16x128.size a
  k0_off67_inb : ∀ k0_t1 : Fin k0_t1_loop.trips, ∀ a, (k0_off67 k0_t1) a + S1x1x16.size a ≤ S8x16x128.size a
  k0_off68_inb : ∀ k0_t1 : Fin k0_t1_loop.trips, ∀ a, (k0_off68 k0_t1) a + S1x1x16.size a ≤ S8x16x128.size a
  k0_off69_inb : ∀ k0_t1 : Fin k0_t1_loop.trips, ∀ a, (k0_off69 k0_t1) a + S1x1x16.size a ≤ S8x16x128.size a
  k0_off70_inb : ∀ k0_t1 : Fin k0_t1_loop.trips, ∀ a, (k0_off70 k0_t1) a + S1x1x16.size a ≤ S8x16x128.size a
  k0_off71_inb : ∀ k0_t1 : Fin k0_t1_loop.trips, ∀ a, (k0_off71 k0_t1) a + S1x1x16.size a ≤ S8x16x128.size a
  k0_off72_inb : ∀ k0_t1 : Fin k0_t1_loop.trips, ∀ a, (k0_off72 k0_t1) a + S1x1x16.size a ≤ S8x16x128.size a
  k0_off73_inb : ∀ k0_t1 : Fin k0_t1_loop.trips, ∀ a, (k0_off73 k0_t1) a + S1x1x16.size a ≤ S8x16x128.size a
  k0_off74_inb : ∀ k0_t1 : Fin k0_t1_loop.trips, ∀ a, (k0_off74 k0_t1) a + S1x1x16.size a ≤ S8x16x128.size a
  k0_off75_inb : ∀ k0_t1 : Fin k0_t1_loop.trips, ∀ a, (k0_off75 k0_t1) a + S1x1x16.size a ≤ S8x16x128.size a
  k0_off76_inb : ∀ k0_t1 : Fin k0_t1_loop.trips, ∀ a, (k0_off76 k0_t1) a + S1x1x16.size a ≤ S8x16x128.size a
  k0_off77_inb : ∀ k0_t1 : Fin k0_t1_loop.trips, ∀ a, (k0_off77 k0_t1) a + S1x1x16.size a ≤ S8x16x128.size a
  k0_off78_inb : ∀ k0_t1 : Fin k0_t1_loop.trips, ∀ a, (k0_off78 k0_t1) a + S1x1x16.size a ≤ S8x16x128.size a
  k0_off79_inb : ∀ k0_t1 : Fin k0_t1_loop.trips, ∀ a, (k0_off79 k0_t1) a + S1x1x16.size a ≤ S8x16x128.size a
  k0_off80_inb : ∀ k0_t1 : Fin k0_t1_loop.trips, ∀ a, (k0_off80 k0_t1) a + S1x1x16.size a ≤ S8x16x128.size a
  k0_off81_inb : ∀ k0_t1 : Fin k0_t1_loop.trips, ∀ a, (k0_off81 k0_t1) a + S1x1x16.size a ≤ S8x16x128.size a
  k0_off82_inb : ∀ k0_t1 : Fin k0_t1_loop.trips, ∀ a, (k0_off82 k0_t1) a + S1x1x16.size a ≤ S8x16x128.size a
  k0_off83_inb : ∀ k0_t1 : Fin k0_t1_loop.trips, ∀ a, (k0_off83 k0_t1) a + S1x1x16.size a ≤ S8x16x128.size a
  k0_off84_inb : ∀ k0_t1 : Fin k0_t1_loop.trips, ∀ a, (k0_off84 k0_t1) a + S1x1x16.size a ≤ S8x16x128.size a
  k0_off85_inb : ∀ k0_t1 : Fin k0_t1_loop.trips, ∀ a, (k0_off85 k0_t1) a + S1x1x16.size a ≤ S8x16x128.size a
  k0_off86_inb : ∀ k0_t1 : Fin k0_t1_loop.trips, ∀ a, (k0_off86 k0_t1) a + S1x1x16.size a ≤ S8x16x128.size a
  k0_off87_inb : ∀ k0_t1 : Fin k0_t1_loop.trips, ∀ a, (k0_off87 k0_t1) a + S1x1x16.size a ≤ S8x16x128.size a
  k0_off88_inb : ∀ k0_t1 : Fin k0_t1_loop.trips, ∀ a, (k0_off88 k0_t1) a + S1x1x16.size a ≤ S8x16x128.size a
  k0_off89_inb : ∀ k0_t1 : Fin k0_t1_loop.trips, ∀ a, (k0_off89 k0_t1) a + S1x1x16.size a ≤ S8x16x128.size a
  k0_off90_inb : ∀ k0_t1 : Fin k0_t1_loop.trips, ∀ a, (k0_off90 k0_t1) a + S1x1x16.size a ≤ S8x16x128.size a
  k0_off91_inb : ∀ k0_t1 : Fin k0_t1_loop.trips, ∀ a, (k0_off91 k0_t1) a + S1x1x16.size a ≤ S8x16x128.size a
  k0_off92_inb : ∀ k0_t1 : Fin k0_t1_loop.trips, ∀ a, (k0_off92 k0_t1) a + S1x1x16.size a ≤ S8x16x128.size a
  k0_off93_inb : ∀ k0_t1 : Fin k0_t1_loop.trips, ∀ a, (k0_off93 k0_t1) a + S1x1x16.size a ≤ S8x16x128.size a
  k0_off94_inb : ∀ k0_t1 : Fin k0_t1_loop.trips, ∀ a, (k0_off94 k0_t1) a + S1x1x16.size a ≤ S8x16x128.size a
  k0_off95_inb : ∀ k0_t1 : Fin k0_t1_loop.trips, ∀ a, (k0_off95 k0_t1) a + S1x1x16.size a ≤ S8x16x128.size a
  k0_off96_inb : ∀ k0_t1 : Fin k0_t1_loop.trips, ∀ a, (k0_off96 k0_t1) a + S1x1x16.size a ≤ S8x16x128.size a
  k0_off97_inb : ∀ k0_t1 : Fin k0_t1_loop.trips, ∀ a, (k0_off97 k0_t1) a + S1x1x16.size a ≤ S8x16x128.size a
  k0_off98_inb : ∀ k0_t1 : Fin k0_t1_loop.trips, ∀ a, (k0_off98 k0_t1) a + S1x1x16.size a ≤ S8x16x128.size a
  k0_off99_inb : ∀ k0_t1 : Fin k0_t1_loop.trips, ∀ a, (k0_off99 k0_t1) a + S1x1x16.size a ≤ S8x16x128.size a
  k0_off100_inb : ∀ k0_t1 : Fin k0_t1_loop.trips, ∀ a, (k0_off100 k0_t1) a + S1x1x16.size a ≤ S8x16x128.size a
  k0_off101_inb : ∀ k0_t1 : Fin k0_t1_loop.trips, ∀ a, (k0_off101 k0_t1) a + S1x1x16.size a ≤ S8x16x128.size a
  k0_off102_inb : ∀ k0_t1 : Fin k0_t1_loop.trips, ∀ a, (k0_off102 k0_t1) a + S1x1x16.size a ≤ S8x16x128.size a
  k0_off103_inb : ∀ k0_t1 : Fin k0_t1_loop.trips, ∀ a, (k0_off103 k0_t1) a + S1x1x16.size a ≤ S8x16x128.size a
  k0_off104_inb : ∀ k0_t1 : Fin k0_t1_loop.trips, ∀ a, (k0_off104 k0_t1) a + S1x1x16.size a ≤ S8x16x128.size a
  k0_off105_inb : ∀ k0_t1 : Fin k0_t1_loop.trips, ∀ a, (k0_off105 k0_t1) a + S1x1x16.size a ≤ S8x16x128.size a
  k0_off106_inb : ∀ k0_t1 : Fin k0_t1_loop.trips, ∀ a, (k0_off106 k0_t1) a + S1x1x16.size a ≤ S8x16x128.size a
  k0_off107_inb : ∀ k0_t1 : Fin k0_t1_loop.trips, ∀ a, (k0_off107 k0_t1) a + S1x1x16.size a ≤ S8x16x128.size a
  k0_off108_inb : ∀ k0_t1 : Fin k0_t1_loop.trips, ∀ a, (k0_off108 k0_t1) a + S1x1x16.size a ≤ S8x16x128.size a
  k0_off109_inb : ∀ k0_t1 : Fin k0_t1_loop.trips, ∀ a, (k0_off109 k0_t1) a + S1x1x16.size a ≤ S8x16x128.size a
  k0_off110_inb : ∀ k0_t1 : Fin k0_t1_loop.trips, ∀ a, (k0_off110 k0_t1) a + S1x1x16.size a ≤ S8x16x128.size a
  k0_off111_inb : ∀ k0_t1 : Fin k0_t1_loop.trips, ∀ a, (k0_off111 k0_t1) a + S1x1x16.size a ≤ S8x16x128.size a
  k0_off112_inb : ∀ k0_t1 : Fin k0_t1_loop.trips, ∀ a, (k0_off112 k0_t1) a + S1x1x16.size a ≤ S8x16x128.size a
  k0_off113_inb : ∀ k0_t1 : Fin k0_t1_loop.trips, ∀ a, (k0_off113 k0_t1) a + S1x1x16.size a ≤ S8x16x128.size a
  k0_off114_inb : ∀ k0_t1 : Fin k0_t1_loop.trips, ∀ a, (k0_off114 k0_t1) a + S1x1x16.size a ≤ S8x16x128.size a
  k0_off115_inb : ∀ k0_t1 : Fin k0_t1_loop.trips, ∀ a, (k0_off115 k0_t1) a + S1x1x16.size a ≤ S8x16x128.size a
  k0_off116_inb : ∀ k0_t1 : Fin k0_t1_loop.trips, ∀ a, (k0_off116 k0_t1) a + S1x1x16.size a ≤ S8x16x128.size a
  k0_off117_inb : ∀ k0_t1 : Fin k0_t1_loop.trips, ∀ a, (k0_off117 k0_t1) a + S1x1x16.size a ≤ S8x16x128.size a
  k0_off118_inb : ∀ k0_t1 : Fin k0_t1_loop.trips, ∀ a, (k0_off118 k0_t1) a + S1x1x16.size a ≤ S8x16x128.size a
  k0_off119_inb : ∀ k0_t1 : Fin k0_t1_loop.trips, ∀ a, (k0_off119 k0_t1) a + S1x1x16.size a ≤ S8x16x128.size a
  k0_off120_inb : ∀ k0_t1 : Fin k0_t1_loop.trips, ∀ a, (k0_off120 k0_t1) a + S1x1x16.size a ≤ S8x16x128.size a
  k0_off121_inb : ∀ k0_t1 : Fin k0_t1_loop.trips, ∀ a, (k0_off121 k0_t1) a + S1x1x16.size a ≤ S8x16x128.size a
  k0_off122_inb : ∀ k0_t1 : Fin k0_t1_loop.trips, ∀ a, (k0_off122 k0_t1) a + S1x1x16.size a ≤ S8x16x128.size a
  k0_off123_inb : ∀ k0_t1 : Fin k0_t1_loop.trips, ∀ a, (k0_off123 k0_t1) a + S1x1x16.size a ≤ S8x16x128.size a
  k0_off124_inb : ∀ k0_t1 : Fin k0_t1_loop.trips, ∀ a, (k0_off124 k0_t1) a + S1x1x16.size a ≤ S8x16x128.size a
  k0_off125_inb : ∀ k0_t1 : Fin k0_t1_loop.trips, ∀ a, (k0_off125 k0_t1) a + S1x1x16.size a ≤ S8x16x128.size a
  k0_off126_inb : ∀ k0_t1 : Fin k0_t1_loop.trips, ∀ a, (k0_off126 k0_t1) a + S1x1x16.size a ≤ S8x16x128.size a
  k0_off127_inb : ∀ k0_t1 : Fin k0_t1_loop.trips, ∀ a, (k0_off127 k0_t1) a + S1x1x16.size a ≤ S8x16x128.size a
  k0_off128_inb : ∀ k0_t1 : Fin k0_t1_loop.trips, ∀ a, (k0_off128 k0_t1) a + S1x1x16.size a ≤ S8x16x128.size a
  k0_off129_inb : ∀ k0_t1 : Fin k0_t1_loop.trips, ∀ a, (k0_off129 k0_t1) a + S1x1x16.size a ≤ S8x16x128.size a
  k0_off130_inb : ∀ k0_t1 : Fin k0_t1_loop.trips, ∀ a, (k0_off130 k0_t1) a + S1x1x16.size a ≤ S8x16x128.size a
  k0_off131_inb : ∀ k0_t1 : Fin k0_t1_loop.trips, ∀ a, (k0_off131 k0_t1) a + S1x1x16.size a ≤ S8x16x128.size a
  k0_off132_inb : ∀ k0_t1 : Fin k0_t1_loop.trips, ∀ a, (k0_off132 k0_t1) a + S1x1x16.size a ≤ S8x16x128.size a
  k0_off133_inb : ∀ k0_t1 : Fin k0_t1_loop.trips, ∀ a, (k0_off133 k0_t1) a + S1x1x16.size a ≤ S8x16x128.size a
  k0_off134_inb : ∀ k0_t1 : Fin k0_t1_loop.trips, ∀ a, (k0_off134 k0_t1) a + S1x1x16.size a ≤ S8x16x128.size a
  k0_off135_inb : ∀ k0_t1 : Fin k0_t1_loop.trips, ∀ a, (k0_off135 k0_t1) a + S1x1x16.size a ≤ S8x16x128.size a
  k0_off136_inb : ∀ k0_t1 : Fin k0_t1_loop.trips, ∀ a, (k0_off136 k0_t1) a + S1x1x16.size a ≤ S8x16x128.size a
  k0_off137_inb : ∀ k0_t1 : Fin k0_t1_loop.trips, ∀ a, (k0_off137 k0_t1) a + S16.size a ≤ S512.size a

variable [Facts₀]

abbrev cc0_scratch8 : DmaSems sig S8 := SemArray.consecutive 0 S8 hcc0_scratch8
abbrev cc0_scratch9 : DmaSems sig S8 := SemArray.consecutive 8 S8 hcc0_scratch9
abbrev cc0_scratch10 : DmaSems sig S8 := SemArray.consecutive 16 S8 hcc0_scratch10
abbrev cc0_scratch11 : DmaSems sig S_ := SemArray.consecutive 24 S_ hcc0_scratch11
abbrev cc0_scoped0 : DmaSems sig S_ := SemArray.consecutive 25 S_ hcc0_scoped0

class Facts : Prop extends Facts₀ where

variable [Facts]
-- ==== ReferenceIdeal.lean ====
abbrev S16384x3 : Shape := ⟨2, ![16384, 3]⟩
abbrev S100000x128 : Shape := ⟨2, ![100000, 128]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x128 : Shape := ⟨2, ![16384, 128]⟩
abbrev S16384x1x128 : Shape := ⟨3, ![16384, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S16384x3, .i32⟩
  | .hbm, ⟨1, _⟩ => ⟨S100000x128, .f32⟩
  | .hbm, ⟨2, _⟩ => ⟨S100000x128, .f32⟩
  | .hbm, ⟨3, _⟩ => ⟨S16384x1, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x128, .f32⟩
  | .hbm, ⟨24, _⟩ => ⟨S16384x128, .i1⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S16384x1x128, .f32⟩
  | .hbm, ⟨29, _⟩ => ⟨S16384x1, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x128, .f32⟩
  | .hbm, ⟨50, _⟩ => ⟨S16384x128, .i1⟩
  | .hbm, ⟨51, _⟩ => ⟨S_, .f32⟩
  | .hbm, ⟨52, _⟩ => ⟨S16384x128, .f32⟩
  | .hbm, ⟨53, _⟩ => ⟨S16384x128, .f32⟩
  | .hbm, ⟨54, _⟩ => ⟨S16384x1x128, .f32⟩
  | .hbm, ⟨55, _⟩ => ⟨S16384x1, .i32⟩
  | .hbm, ⟨56, _⟩ => ⟨S16384, .i32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S1, .i32⟩
  | .hbm, ⟨66, _⟩ => ⟨S_, .i32⟩
  | .hbm, ⟨67, _⟩ => ⟨S16384x1, .i32⟩
  | .hbm, ⟨68, _⟩ => ⟨S16384x1, .i1⟩
  | .hbm, ⟨69, _⟩ => ⟨S1x1, .i32⟩
  | .hbm, ⟨70, _⟩ => ⟨S16384x1, .i32⟩
  | .hbm, ⟨71, _⟩ => ⟨S16384x1, .i1⟩
  | .hbm, ⟨72, _⟩ => ⟨S16384x1, .i1⟩
  | .hbm, ⟨73, _⟩ => ⟨S_, .i1⟩
  | .hbm, ⟨74, _⟩ => ⟨S16384, .i1⟩
  | .hbm, ⟨75, _⟩ => ⟨S16384x128, .f32⟩
  | .hbm, ⟨76, _⟩ => ⟨S16384x128, .i1⟩
  | .hbm, ⟨77, _⟩ => ⟨S_, .f32⟩
  | .hbm, ⟨78, _⟩ => ⟨S16384x128, .f32⟩
  | .hbm, ⟨79, _⟩ => ⟨S16384x128, .f32⟩
  | .hbm, ⟨80, _⟩ => ⟨S16384x1x128, .f32⟩
  | .hbm, ⟨81, _⟩ => ⟨S16384x1x128, .f32⟩
  | .hbm, ⟨82, _⟩ => ⟨S16384x1x128, .f32⟩
  | .hbm, ⟨83, _⟩ => ⟨S16384x1x128, .f32⟩
  | .hbm, ⟨84, _⟩ => ⟨S_, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | _, _ => ⟨S16384x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_cst : Ref sig .tc := ⟨.hbm, 84, rfl⟩
abbrev main_v15 : Ref sig .tc := ⟨.hbm, 85, rfl⟩
abbrev main_cst_0 : Ref sig .tc := ⟨.hbm, 86, rfl⟩
abbrev main_v16 : Ref sig .tc := ⟨.hbm, 87, rfl⟩
abbrev main_v17 : Ref sig .tc := ⟨.hbm, 88, rfl⟩

abbrev nD : Nat := 1
abbrev τ : Topo := Topo.v7x

variable {F : FTy → Type} [FloatOps F]

class Facts₀ : Prop where
  slices_S16384x3_S16384x1_0_0 : S16384x3.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S16384x128_S16384x1x128_0_2 : S16384x128.BroadcastsInDim S16384x1x128 (![0, 2] : Fin 2 → Fin S16384x1x128.rank)
  slices_S16384x3_S16384x1_0_1 : S16384x3.Slices ![0, 1] S16384x1
  slices_S16384x3_S16384x1_0_2 : S16384x3.Slices ![0, 2] S16384x1
  reducesTo_S16384x1x128_S16384x1_d2 : S16384x1x128.ReducesTo [2] S16384x1
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.Score.lean ====
/-
  The function both programs compute, stated once over the argument arrays.

  For a triple (h, r, t) in row i of `sample` the score is
      12 - Σ_{k < 128} | E[h, k] + (R[r, k] - E[t, k]) |
  where E is the entity table and R the relation table, each of 100000 rows of 128 reals. The absolute value on the
  extended reals is max x (-x). A row number is read off the sample's word as a natural number, clamped to the last row
  (under the precondition 0 ≤ word ≤ 99999 the clamp is the identity; clamping makes the index total).
-/
import Idealize.ShloMosaic.PureOps.Ideal
import Idealize.ShloMosaic.Lib.ValueIdx

noncomputable section

open scoped BigOperators

namespace Cert.Score

open Idealize.ShloMosaic Idealize.ShloMosaic.ValueIdx

abbrev SSample : Shape := ⟨2, ![16384, 3]⟩
abbrev STable : Shape := ⟨2, ![100000, 128]⟩
abbrev SOut : Shape := ⟨2, ![16384, 1]⟩

/-- The table row a sample word names: its value as a natural number, clamped to the last row. -/
def rowIx (w : BitVec 32) : Fin 100000 := ⟨min w.toNat 99999, by omega⟩

theorem rowIx_of_lt {w : BitVec 32} (h : w.toNat < 100000) : (rowIx w).val = w.toNat := by
  show min w.toNat 99999 = w.toNat; omega

/-- One coordinate's contribution: |h + (r - t)| on the extended reals. -/
def term (h r t : EReal) : EReal := max (h + (r - t)) (-(h + (r - t)))

/-- The L1 distance of row `i`: the sum over the 128 coordinates. -/
def dist (sample : SSample.Idx → BitVec 32) (ent rel : STable.Idx → EReal) (i : Fin 16384) : EReal :=
  ∑ k : Fin 128, term (ent (ix2 (rowIx (sample (ix2 i (0 : Fin 3)))) k)) (rel (ix2 (rowIx (sample (ix2 i (1 : Fin 3)))) k))
    (ent (ix2 (rowIx (sample (ix2 i (2 : Fin 3)))) k))

/-- The margin 12.0 as the extended real its f32 word denotes. -/
def gamma : EReal := Ideal.ofBits .f32 0x41400000#32

/-- The score array: entry (i, 0) is 12 - dist i. -/
def score (sample : SSample.Idx → BitVec 32) (ent rel : STable.Idx → EReal) : SOut.Idx → EReal :=
  fun j => gamma - dist sample ent rel (j 0)

end Cert.Score

end
-- ==== Proof.KI.Pay.lean ====
/-
  The idealized kernel's program as the launch theorem sees it, and what its handshakes carry.

  Each of the 32 vector subcores (SparseCore c < 2, subcore s < 16) is worker 2·s + c and owns the 512 consecutive rows
  [512·(2s + c), 512·(2s + c) + 512) of the three index columns and of the score vector. It copies its rows of the three
  columns into its own memory, gathers the 128-wide table rows they name sixteen at a time, and leaves in its rows of the
  score vector, at row n,
      12 - Σ_j Σ_k | E[h_n, 16k + j] + (R[r_n, 16k + j] - E[t_n, 16k + j]) |
  summed as the kernel sums it: for each lane j a balanced tree over the eight lane blocks k, then a balanced tree over
  the sixteen lanes j. The two tables are only read: every worker holds a read share of each, whole.
-/
import proofs.«209583_g49984829390938_cont_8to1c4_457_35_alg».proof.KernelIdeal
import proofs.«209583_g49984829390938_cont_8to1c4_457_35_alg».proof.Proof.Gen.KernelIdeal
import proofs.«209583_g49984829390938_cont_8to1c4_457_35_alg».proof.Proof.Score
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev sampleLoc (d : Dev nD) : Loc nD τ sig := (SparseCore.T d).loc main_arg0
abbrev entLoc (d : Dev nD) : Loc nD τ sig := (SparseCore.T d).loc main_arg1
abbrev relLoc (d : Dev nD) : Loc nD τ sig := (SparseCore.T d).loc main_arg2
abbrev hLoc (d : Dev nD) : Loc nD τ sig := (SparseCore.T d).loc main_v1
abbrev rLoc (d : Dev nD) : Loc nD τ sig := (SparseCore.T d).loc main_v3
abbrev tLoc (d : Dev nD) : Loc nD τ sig := (SparseCore.T d).loc main_v5
abbrev outLoc (d : Dev nD) : Loc nD τ sig := (SparseCore.T d).loc main_v6
abbrev resLoc (d : Dev nD) : Loc nD τ sig := (SparseCore.T d).loc main_v7

/-- Column `k` of `sample` as a vector of 16384 words: what @main's slice and reshape leave in the index arrays. -/
def col (d : Dev nD) (k : Fin 3) : S16384.Idx → BitVec 32 := fun i => (m (sampleLoc d) : S16384x3.Idx → BitVec 32) (ix2 (i 0) k)

/-! ## The kernel's sum, in the kernel's order -/

section Sum
variable [FloatOps F]

/-- A balanced tree over eight terms. -/
def tree8 (f : Fin 8 → F .f32) : F .f32 :=
  FloatOps.addf (FloatOps.addf (FloatOps.addf (f 0) (f 1)) (FloatOps.addf (f 2) (f 3)))
    (FloatOps.addf (FloatOps.addf (f 4) (f 5)) (FloatOps.addf (f 6) (f 7)))

/-- A balanced tree over sixteen terms. -/
def tree16 (f : Fin 16 → F .f32) : F .f32 :=
  FloatOps.addf (tree8 fun i => f ⟨i.val, by omega⟩) (tree8 fun i => f ⟨8 + i.val, by omega⟩)

/-- One coordinate's term |E[h, x] + (R[r, x] - E[t, x])| of score row `n`. -/
def lane (d : Dev nD) (n : Fin 16384) (x : Fin 128) : F .f32 :=
  FloatOps.absf (FloatOps.addf ((m (entLoc d) : S100000x128.Idx → F .f32) (ix2 (Cert.Score.rowIx (col m d 0 (ix1 n))) x))
    (FloatOps.subf ((m (relLoc d) : S100000x128.Idx → F .f32) (ix2 (Cert.Score.rowIx (col m d 1 (ix1 n))) x))
      ((m (entLoc d) : S100000x128.Idx → F .f32) (ix2 (Cert.Score.rowIx (col m d 2 (ix1 n))) x))))

/-- What the kernel leaves in the score vector. -/
def kout (d : Dev nD) : S16384.Idx → F .f32 := fun n =>
  FloatOps.subf (Scalar.ofBits .f32 0x41400000#32)
    (tree16 fun j => tree8 fun k => lane m d (n 0) ⟨16 * k.val + j.val, by omega⟩)

end Sum

/-! ## The 32 workers' rows -/

theorem hdiv : 32 ∣ S16384.size 0 := ⟨512, rfl⟩
/-- Worker `t`'s rows of a 16384-vector. -/
abbrev tileRect (t : Fin 32) : Rect S16384 := Rect.part (s := S16384) (a₀ := 0) hdiv t
abbrev tileSet (t : Fin 32) : Finset S16384.Idx :=
  ((Memref.whole main_v6_scv : Memref sig .scVector .hbm S16384 .f32).view.slice (tileRect t)).set

/-- The worker number of subcore `s` of SparseCore `c`. -/
def tid (c : Fin 2) (s : Fin 16) : Fin 32 := ⟨2 * s.val + c.val, by omega⟩

/-- What a worker is handed: its rows of the three index columns and of the score vector, whole; a read share of each
    table. `f` is what the score vector holds. -/
def tileRes (d : Dev nD) (t : Fin 32) (f : Buf (Elt F) (outLoc d)) : sProp 𝕄 :=
  iprop((hLoc d ↦[tileSet t]{fullShare} (col m d 0 : Buf (Elt F) (hLoc d)))
    ∗ (rLoc d ↦[tileSet t]{fullShare} (col m d 1 : Buf (Elt F) (rLoc d)))
    ∗ (tLoc d ↦[tileSet t]{fullShare} (col m d 2 : Buf (Elt F) (tLoc d)))
    ∗ (entLoc d ↦{Transfers.shareTok fullShare 32 t} m (entLoc d))
    ∗ (relLoc d ↦{Transfers.shareTok fullShare 32 t} m (relLoc d))
    ∗ (outLoc d ↦[tileSet t]{fullShare} f))

variable [FloatOps F]

/-- The one call: every worker its rows and shares, the score rows at the launch contents on the way in and at the
    kernel's sums on the way out; a SparseCore's operands are its sixteen workers'. -/
def P : (K (F := F)).Pay (nD := nD) (Val := Elt F) (Name := ℕ) (U := UU) where
  st := fun q d c => match q with
    | 0 => bigSep Finset.univ fun i : Fin ((K (F := F)).nSub 0) => tileRes m d (tid (Fin.cast nCore_zero c) (Fin.cast nSub_zero i)) (m (outLoc d))
  dn := fun q d c => match q with
    | 0 => bigSep Finset.univ fun i : Fin ((K (F := F)).nSub 0) => tileRes m d (tid (Fin.cast nCore_zero c) (Fin.cast nSub_zero i)) (kout m d : Buf (Elt F) (outLoc d))
  go := fun q d c i => match q with
    | 0 => tileRes m d (tid (Fin.cast nCore_zero c) (Fin.cast nSub_zero i)) (m (outLoc d))
  td := fun q d c i => match q with
    | 0 => tileRes m d (tid (Fin.cast nCore_zero c) (Fin.cast nSub_zero i)) (kout m d : Buf (Elt F) (outLoc d))
  x := fun _ _ => iprop(emp)

instance tileRes_storable (d : Dev nD) (t : Fin 32) (f : Buf (Elt F) (outLoc d)) : BI.Storable (upEmb : UEmb _ 𝕄) (tileRes m d t f) := by
  unfold tileRes; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands ARE its workers', and its results theirs. -/
theorem vecSplit : (K (F := F)).VecSplit' (P m) 0 := by
  intro d c
  show (bigSep Finset.univ fun i : Fin ((K (F := F)).nSub 0) => tileRes m d (tid (Fin.cast nCore_zero c) (Fin.cast nSub_zero i)) (m (outLoc d)))
    ⊢ |={Set.univ}=> iprop((bigSep Finset.univ fun i : Fin ((K (F := F)).nSub 0) => tileRes m d (tid (Fin.cast nCore_zero c) (Fin.cast nSub_zero i)) (m (outLoc d)))
      ∗ ((bigSep Finset.univ fun i : Fin ((K (F := F)).nSub 0) => tileRes m d (tid (Fin.cast nCore_zero c) (Fin.cast nSub_zero i)) (kout m d : Buf (Elt F) (outLoc d)))
          -∗ (bigSep Finset.univ fun i : Fin ((K (F := F)).nSub 0) => tileRes m d (tid (Fin.cast nCore_zero c) (Fin.cast nSub_zero i)) (kout m d : Buf (Elt F) (outLoc d)))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KI.Res.lean ====
/-
  What @main leaves in its result, as a function of the launch memory: the kernel's score vector, one sum per sample row,
  read as a 16384×1 array.
-/
import proofs.«209583_g49984829390938_cont_8to1c4_457_35_alg».proof.Proof.KI.Pay

noncomputable section

namespace Cert.Proof.KI

open Cert.KernelIdeal

open Idealize.ShloMosaic Idealize.ShloMosaic.ValueIdx

variable {F : FTy → Type} [FloatOps F] (m : (ℓ : Loc nD τ sig) → Buf (Elt F) ℓ)

/-- What @main leaves in its result: the score vector as a 16384×1 array. -/
def resOf (d : Dev nD) : S16384x1.Idx → F .f32 := fun j => kout m d (ix1 (j 0))

end Cert.Proof.KI

end
-- ==== Proof.KI.Launch.lean ====
/-
  The idealized kernel's run, from the vector subcores' task.

  @main on the TensorCore first cuts the three columns of `sample` out — each a 16384×1 slice read back as a 16384-vector,
  which at index i is `sample` at (i, k) —, then starts the two SparseCores, waits for them, and reads the score vector as a
  16384×1 array. The 32 workers' 512-row blocks are pairwise disjoint and cover the 16384 rows, so each of the three index
  vectors and the score vector splits into the workers' rows and joins back; each table goes out as 32 read shares beside a
  remainder kept on the TensorCore across the call, and the shares and the remainder join back to the whole. Worker
  2·s + c is subcore s of SparseCore c: (c, s) ↦ 2·s + c is a bijection of 2 × 16 onto the 32 workers, which regroups the
  workers' resources per SparseCore. What comes back is the same with the score rows at the kernel's sums, all restrictions
  of one function, so the score vector is whole at it. The final memory is read at the result and at the three arguments.
-/
import proofs.«209583_g49984829390938_cont_8to1c4_457_35_alg».proof.Proof.KI.Pay
import proofs.«209583_g49984829390938_cont_8to1c4_457_35_alg».proof.Proof.KI.Res
import Idealize.ShloMosaic.Lib.Pipeline.Value

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
/-! ## The index columns and the result, index by index -/

omit m ρ in
/-- Column `k` of a 16384×3 array, cut out as a 16384×1 slice and read as a vector, is the array read at `(i, k)`. -/
theorem reshape_slice_apply {α : Type} (x : S16384x3.Idx → α) (k : Fin 3) (off : Fin 2 → Nat) (h0 : off 0 = 0) (h1 : off 1 = k.val)
    (hs : S16384x3.Slices off S16384x1) (hc : S16384x1.ShapeCasts S16384) (j : S16384.Idx) :
    shapeCast S16384 (extractStridedSlice S16384x1 off x hs) hc j = x (ix2 (j 0) k) := by
  refine (shapeCast_apply _ hc j (ix2 (j 0) (0 : Fin 1)) ?_).trans ?_
  · rw [Shape.rowMajor_val_two, Shape.rowMajor_val_one]
    show (j 0).val * 1 + 0 = (j 0).val
    omega
  · refine extractStridedSlice_apply off x hs _ (ix2 (j 0) k) fun a => ?_
    match a with
    | ⟨0, _⟩ => show (j 0).val = off 0 + (j 0).val; omega
    | ⟨1, _⟩ => show k.val = off 1 + 0; omega

omit m ρ in
/-- A 16384-vector read as a 16384×1 array is the vector read at the row. -/
theorem reshape_col_apply {α : Type} (x : S16384.Idx → α) (hc : S16384.ShapeCasts S16384x1) (j : S16384x1.Idx) :
    shapeCast S16384x1 x hc j = x (ix1 (j 0)) := by
  refine shapeCast_apply _ hc j (ix1 (j 0)) ?_
  rw [Shape.rowMajor_val_two, Shape.rowMajor_val_one]
  have h1 : (j 1).val < 1 := (j 1).isLt
  show (j 0).val = (j 0).val * 1 + (j 1).val
  omega

/-! ## The 32 workers' rows cover the vector -/

omit m ρ in
theorem tileSet_eq (t : Fin 32) : tileSet t = (tileRect t).set := by
  show ((View.whole (main_v6_scv : Ref sig .scVector)).slice (tileRect t)).set = _
  rw [View.set_slice]; exact Finset.map_refl
omit m ρ in
theorem tiles_disjoint : ∀ i ∈ (Finset.univ : Finset (Fin 32)), ∀ j ∈ (Finset.univ : Finset (Fin 32)), i ≠ j → Disjoint (tileSet i) (tileSet j) :=
  fun i _ j _ h => by rw [tileSet_eq, tileSet_eq]; exact Rect.part_disjoint hdiv h
omit m ρ in
theorem tiles_cover : (Finset.univ : Finset (Fin 32)).biUnion tileSet = Finset.univ :=
  (Finset.biUnion_congr rfl fun i _ => tileSet_eq i).trans (Rect.biUnion_part hdiv)

omit m ρ in
theorem hPts_rows (d : Dev nD) (f : Buf (Elt F) (hLoc d)) :
    (hLoc d ↦{fullShare} f : sProp 𝕄) = bigSep Finset.univ fun t : Fin 32 => hLoc d ↦[tileSet t]{fullShare} f := by
  rw [← pointsTo_biUnion Finset.univ (ℓ := hLoc d) tileSet tiles_disjoint, tiles_cover]; try rfl
omit m ρ in
theorem rPts_rows (d : Dev nD) (f : Buf (Elt F) (rLoc d)) :
    (rLoc d ↦{fullShare} f : sProp 𝕄) = bigSep Finset.univ fun t : Fin 32 => rLoc d ↦[tileSet t]{fullShare} f := by
  rw [← pointsTo_biUnion Finset.univ (ℓ := rLoc d) tileSet tiles_disjoint, tiles_cover]; try rfl
omit m ρ in
theorem tPts_rows (d : Dev nD) (f : Buf (Elt F) (tLoc d)) :
    (tLoc d ↦{fullShare} f : sProp 𝕄) = bigSep Finset.univ fun t : Fin 32 => tLoc d ↦[tileSet t]{fullShare} f := by
  rw [← pointsTo_biUnion Finset.univ (ℓ := tLoc d) tileSet tiles_disjoint, tiles_cover]; try rfl
omit m ρ in
theorem oPts_rows (d : Dev nD) (f : Buf (Elt F) (outLoc d)) :
    (outLoc d ↦{fullShare} f : sProp 𝕄) = bigSep Finset.univ fun t : Fin 32 => outLoc d ↦[tileSet t]{fullShare} f := by
  rw [← pointsTo_biUnion Finset.univ (ℓ := outLoc d) tileSet tiles_disjoint, tiles_cover]; try rfl

/-! ## Workers as SparseCores × subcores -/

omit m ρ in
theorem tid_injective : Function.Injective fun p : Fin 2 × Fin 16 => tid p.1 p.2 := by
  intro p p' h
  have hv : 2 * p.2.val + p.1.val = 2 * p'.2.val + p'.1.val := congrArg Fin.val h
  have hc : p.1.val < 2 := p.1.isLt
  have hc' : p'.1.val < 2 := p'.1.isLt
  refine Prod.ext (Fin.ext ?_) (Fin.ext ?_) <;> omega

/-- (SparseCore, subcore) ↦ worker number is a bijection onto the 32 workers. -/
def tidEquiv : Fin 2 × Fin 16 ≃ Fin 32 :=
  Equiv.ofBijective _ ((Fintype.bijective_iff_injective_and_card _).mpr ⟨tid_injective, by simp⟩)

omit m ρ in
theorem bigSep_workers (Φ : Fin 32 → sProp 𝕄) :
    (bigSep Finset.univ fun c : Fin ((K (F := F)).nCore 0) => bigSep Finset.univ fun i : Fin ((K (F := F)).nSub 0) =>
        Φ (tid (Fin.cast nCore_zero c) (Fin.cast nSub_zero i))) = bigSep Finset.univ Φ := by
  conv_rhs => rw [bigSep_univ_equiv tidEquiv Φ, bigSep_univ_prod]
  rfl

/-- The 32 workers' resources are the three index columns and the score vector whole, and 32 read shares of each table. -/
theorem tiles_split (d : Dev nD) (f : Buf (Elt F) (outLoc d)) :
    (bigSep Finset.univ fun t : Fin 32 => tileRes m d t f) = iprop(
      (hLoc d ↦{fullShare} (col m d 0 : Buf (Elt F) (hLoc d))) ∗ (rLoc d ↦{fullShare} (col m d 1 : Buf (Elt F) (rLoc d)))
      ∗ (tLoc d ↦{fullShare} (col m d 2 : Buf (Elt F) (tLoc d)))
      ∗ (bigSep Finset.univ fun t : Fin 32 => entLoc d ↦{Transfers.shareTok fullShare 32 t} m (entLoc d))
      ∗ (bigSep Finset.univ fun t : Fin 32 => relLoc d ↦{Transfers.shareTok fullShare 32 t} m (relLoc d))
      ∗ (outLoc d ↦{fullShare} f)) := by
  unfold tileRes
  rw [bigSep_sep', bigSep_sep', bigSep_sep', bigSep_sep', bigSep_sep', ← hPts_rows, ← rPts_rows, ← tPts_rows, ← oPts_rows]

variable [FloatOps F]

theorem st0_eq (d : Dev nD) : (bigSep Finset.univ fun c : Fin ((K (F := F)).nCore 0) => (P m).st 0 d c) = iprop(
      (hLoc d ↦{fullShare} (col m d 0 : Buf (Elt F) (hLoc d))) ∗ (rLoc d ↦{fullShare} (col m d 1 : Buf (Elt F) (rLoc d)))
      ∗ (tLoc d ↦{fullShare} (col m d 2 : Buf (Elt F) (tLoc d)))
      ∗ (bigSep Finset.univ fun t : Fin 32 => entLoc d ↦{Transfers.shareTok fullShare 32 t} m (entLoc d))
      ∗ (bigSep Finset.univ fun t : Fin 32 => relLoc d ↦{Transfers.shareTok fullShare 32 t} m (relLoc d))
      ∗ (outLoc d ↦{fullShare} m (outLoc d))) :=
  (bigSep_workers (fun t => tileRes m d t (m (outLoc d)))).trans (tiles_split m d _)

theorem dn0_eq (d : Dev nD) : (bigSep Finset.univ fun c : Fin ((K (F := F)).nCore 0) => (P m).dn 0 d c) = iprop(
      (hLoc d ↦{fullShare} (col m d 0 : Buf (Elt F) (hLoc d))) ∗ (rLoc d ↦{fullShare} (col m d 1 : Buf (Elt F) (rLoc d)))
      ∗ (tLoc d ↦{fullShare} (col m d 2 : Buf (Elt F) (tLoc d)))
      ∗ (bigSep Finset.univ fun t : Fin 32 => entLoc d ↦{Transfers.shareTok fullShare 32 t} m (entLoc d))
      ∗ (bigSep Finset.univ fun t : Fin 32 => relLoc d ↦{Transfers.shareTok fullShare 32 t} m (relLoc d))
      ∗ (outLoc d ↦{fullShare} (kout m d : Buf (Elt F) (outLoc d)))) :=
  (bigSep_workers (fun t => tileRes m d t (kout m d : Buf (Elt F) (outLoc d)))).trans (tiles_split m d _)

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- The TensorCore's arrays, all unscoped. -/
abbrev S11 : Finset (DevRef τ sig) := {a0', a1', a2', v0', v1', v2', v3', v4', v5', v6', v7'}

omit [FloatOps F] in
theorem held_S11 (d : Dev nD) (W : Valuation τ sig (Elt F)) :
    (held (T d) S11 W : sProp 𝕄) = iprop((sampleLoc d ↦{fullShare} W a0') ∗ (entLoc d ↦{fullShare} W a1') ∗ (relLoc d ↦{fullShare} W a2')
      ∗ ((SparseCore.T d).loc main_v0 ↦{fullShare} W v0') ∗ (hLoc d ↦{fullShare} W v1') ∗ ((SparseCore.T d).loc main_v2 ↦{fullShare} W v2')
      ∗ (rLoc d ↦{fullShare} W v3') ∗ ((SparseCore.T d).loc main_v4 ↦{fullShare} W v4') ∗ (tLoc d ↦{fullShare} W v5')
      ∗ (outLoc d ↦{fullShare} W v6') ∗ (resLoc d ↦{fullShare} W v7')) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((sampleLoc d ↦{fullShare} W main_arg0) ∗ (entLoc d ↦{fullShare} W main_arg1) ∗ (relLoc d ↦{fullShare} W main_arg2)
      ∗ ((SparseCore.T d).loc main_v0 ↦{fullShare} W main_v0) ∗ (hLoc d ↦{fullShare} W main_v1) ∗ ((SparseCore.T d).loc main_v2 ↦{fullShare} W main_v2)
      ∗ (rLoc d ↦{fullShare} W main_v3) ∗ ((SparseCore.T d).loc main_v4 ↦{fullShare} W main_v4) ∗ (tLoc d ↦{fullShare} W main_v5)
      ∗ (outLoc d ↦{fullShare} W main_v6) ∗ (resLoc d ↦{fullShare} W main_v7)) := by
  unfold unscopedBufs
  rw [show (Finset.univ.filter fun b : Ref sig .tc => ¬ b.isScoped)
      = {main_arg0, main_arg1, main_arg2, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S11 (V0 m d) := by
  rw [unscopedBufs_eq, held_S11]; rfl

/-- The six operations before the call: each column of `sample` cut out and read as a vector. -/
abbrev opSl0 : HloOp τ sig (Elt F) := StableHlo.unary main_arg0 main_v0 ((extractStridedSlice S16384x1 ![0, 0] · Facts₀.slices_S16384x3_S16384x1_0_0) : (⟨S16384x3, .i32⟩ : BufTy).Contents (Elt F) → (⟨S16384x1, .i32⟩ : BufTy).Contents (Elt F))
abbrev opRs0 : HloOp τ sig (Elt F) := StableHlo.reshape main_v0 main_v1 rfl Facts₀.shapeCasts_S16384x1_S16384
abbrev opSl1 : HloOp τ sig (Elt F) := StableHlo.unary main_arg0 main_v2 ((extractStridedSlice S16384x1 ![0, 1] · Facts₀.slices_S16384x3_S16384x1_0_1) : (⟨S16384x3, .i32⟩ : BufTy).Contents (Elt F) → (⟨S16384x1, .i32⟩ : BufTy).Contents (Elt F))
abbrev opRs1 : HloOp τ sig (Elt F) := StableHlo.reshape main_v2 main_v3 rfl Facts₀.shapeCasts_S16384x1_S16384
abbrev opSl2 : HloOp τ sig (Elt F) := StableHlo.unary main_arg0 main_v4 ((extractStridedSlice S16384x1 ![0, 2] · Facts₀.slices_S16384x3_S16384x1_0_2) : (⟨S16384x3, .i32⟩ : BufTy).Contents (Elt F) → (⟨S16384x1, .i32⟩ : BufTy).Contents (Elt F))
abbrev opRs2 : HloOp τ sig (Elt F) := StableHlo.reshape main_v4 main_v5 rfl Facts₀.shapeCasts_S16384x1_S16384
abbrev ops₁ : List (HloOp τ sig (Elt F)) := [opSl0, opRs0, opSl1, opRs1, opSl2, opRs2]
/-- The operation after it: the score vector read as a 16384×1 array. -/
abbrev opOut : HloOp τ sig (Elt F) := StableHlo.reshape main_v6 main_v7 rfl Facts₀.shapeCasts_S16384_S16384x1

theorem main_eq (d : Dev nD) : main (F := F) d
    = ((StableHlo.seq ops₁ >>= fun _ => ((K (F := F)).run d 0 >>= fun _ =>
        (hlo rfl opOut (fun _ => .ret (⟨⟩ : PUnit)) >>= fun _ => pure (⟨⟩ : PUnit))))
      : Prog (TpuEff nD τ sig (Elt F) (SparseCore.Sig (ΛP (F := F)) 1) .tc) PUnit) := by
  rfl

theorem ops₁_sub : ∀ op ∈ (ops₁ (F := F)), op.bufs ⊆ S11 := by
  intro op hop
  simp only [ops₁, List.mem_cons, List.mem_nil_iff, or_false] at hop
  rcases hop with rfl | rfl | rfl | rfl | rfl | rfl
  · exact show ({a0', v0'} : Finset (DevRef τ sig)) ⊆ S11 by decide
  · exact show ({v0', v1'} : Finset (DevRef τ sig)) ⊆ S11 by decide
  · exact show ({a0', v2'} : Finset (DevRef τ sig)) ⊆ S11 by decide
  · exact show ({v2', v3'} : Finset (DevRef τ sig)) ⊆ S11 by decide
  · exact show ({a0', v4'} : Finset (DevRef τ sig)) ⊆ S11 by decide
  · exact show ({v4', v5'} : Finset (DevRef τ sig)) ⊆ S11 by decide

theorem ops₁_fresh : ∀ op ∈ (ops₁ (F := F)), op.fresh = ∅ := by
  intro op hop
  simp only [ops₁, List.mem_cons, List.mem_nil_iff, or_false] at hop
  rcases hop with rfl | rfl | rfl | rfl | rfl | rfl <;> rfl

theorem after_a0 (d : Dev nD) : StableHlo.after (ops₁ (F := F)) (V0 m d) a0' = m (sampleLoc d) := by
  after_results; rfl
theorem after_a1 (d : Dev nD) : StableHlo.after (ops₁ (F := F)) (V0 m d) a1' = m (entLoc d) := by
  after_results; rfl
theorem after_a2 (d : Dev nD) : StableHlo.after (ops₁ (F := F)) (V0 m d) a2' = m (relLoc d) := by
  after_results; rfl
theorem after_v6 (d : Dev nD) : StableHlo.after (ops₁ (F := F)) (V0 m d) v6' = m (outLoc d) := by
  after_results; rfl
theorem after_v7 (d : Dev nD) : StableHlo.after (ops₁ (F := F)) (V0 m d) v7' = m (resLoc d) := by
  after_results; rfl
theorem after_v1 (d : Dev nD) : StableHlo.after (ops₁ (F := F)) (V0 m d) v1' = col m d 0 := by
  after_results
  funext j
  exact reshape_slice_apply (m (sampleLoc d)) 0 _ rfl rfl _ _ j
theorem after_v3 (d : Dev nD) : StableHlo.after (ops₁ (F := F)) (V0 m d) v3' = col m d 1 := by
  after_results
  funext j
  exact reshape_slice_apply (m (sampleLoc d)) 1 _ rfl rfl _ _ j
theorem after_v5 (d : Dev nD) : StableHlo.after (ops₁ (F := F)) (V0 m d) v5' = col m d 2 := by
  after_results
  funext j
  exact reshape_slice_apply (m (sampleLoc d)) 2 _ rfl rfl _ _ j

/-- What the six operations leave: the arguments, the score vector and the result untouched, the three index vectors at
    the columns of `sample`. -/
theorem held_after (d : Dev nD) : (held (T d) S11 (StableHlo.after (ops₁ (F := F)) (V0 m d)) : sProp 𝕄) = iprop(
      (sampleLoc d ↦{fullShare} m (sampleLoc d)) ∗ (entLoc d ↦{fullShare} m (entLoc d)) ∗ (relLoc d ↦{fullShare} m (relLoc d))
      ∗ ((SparseCore.T d).loc main_v0 ↦{fullShare} StableHlo.after (ops₁ (F := F)) (V0 m d) v0')
      ∗ (hLoc d ↦{fullShare} (col m d 0 : Buf (Elt F) (hLoc d)))
      ∗ ((SparseCore.T d).loc main_v2 ↦{fullShare} StableHlo.after (ops₁ (F := F)) (V0 m d) v2')
      ∗ (rLoc d ↦{fullShare} (col m d 1 : Buf (Elt F) (rLoc d)))
      ∗ ((SparseCore.T d).loc main_v4 ↦{fullShare} StableHlo.after (ops₁ (F := F)) (V0 m d) v4')
      ∗ (tLoc d ↦{fullShare} (col m d 2 : Buf (Elt F) (tLoc d)))
      ∗ (outLoc d ↦{fullShare} m (outLoc d)) ∗ (resLoc d ↦{fullShare} m (resLoc d))) := by
  rw [held_S11, after_a0, after_a1, after_a2, after_v1, after_v3, after_v5, after_v6, after_v7]

/-- The score vector and the result. -/
abbrev S2 : Finset (DevRef τ sig) := {v6', v7'}

omit [FloatOps F] in
theorem held_S2 (d : Dev nD) (W : Valuation τ sig (Elt F)) :
    (held (T d) S2 W : sProp 𝕄) = iprop((outLoc d ↦{fullShare} W v6') ∗ (resLoc d ↦{fullShare} W v7')) := by
  unfold held S2
  rw [SparseCore.bigSep_insert' (by decide), bigSep_singleton]

/-- After the call: the score vector at the kernel's sums. -/
def V1 (d : Dev nD) : Valuation τ sig (Elt F) := Function.update (V0 m d) v6' (kout m d)

theorem V1_v6 (d : Dev nD) : V1 m d v6' = kout m d := Function.update_self _ _ _
theorem V1_v7 (d : Dev nD) : V1 m d v7' = m (resLoc d) := Function.update_of_ne (show v7' ≠ v6' by decide) _ _

theorem hOut : (opOut (F := F)).bufs ⊆ S2 := show ({v6', v7'} : Finset (DevRef τ sig)) ⊆ S2 by decide

theorem out_v7 (d : Dev nD) : (opOut (F := F)).result (V1 m d) v7' = resOf m d := by
  rw [StableHlo.reshape_result, V1_v6]
  funext j
  exact reshape_col_apply (kout m d) _ j

theorem out_v6 (d : Dev nD) : (opOut (F := F)).result (V1 m d) v6' = kout m d := by
  rw [(opOut (F := F)).result_of_not_mem (V1 m d) (b := v6') (show v6' ∉ ({v7'} : Finset (DevRef τ sig)) by decide), V1_v6]

theorem held_out (d : Dev nD) : (held (T d) S2 ((opOut (F := F)).result (V1 m d)) : sProp 𝕄)
    = iprop((outLoc d ↦{fullShare} (kout m d : Buf (Elt F) (outLoc d))) ∗ (resLoc d ↦{fullShare} (resOf m d : Buf (Elt F) (resLoc d)))) := by
  rw [held_S2, out_v6, out_v7]

/-- What @main leaves the claim: the result at the scores, the three arguments at their launch contents. -/
abbrev FIN (d : Dev nD) : sProp 𝕄 :=
  iprop((resLoc d ↦{fullShare} (resOf m d : Buf (Elt F) (resLoc d))) ∗ (sampleLoc d ↦{fullShare} m (sampleLoc d))
    ∗ (entLoc d ↦{fullShare} m (entLoc d)) ∗ (relLoc d ↦{fullShare} m (relLoc d)))

/-- @main on device `d`'s TensorCore: the six operations that cut the columns out; the call, every worker handed its rows
    and a read share of each table, the rows of the score vector coming back at the kernel's sums; the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S11 _ ops₁ ops₁_sub ops₁_fresh (V0 m d)) $$ [Hb Hheld]
  · isplitl [Hb] <;> iassumption
  iintro ⟨Hb, Hheld⟩
  ihave Hh := (Entails.of_eq (held_after m d)) $$ Hheld
  icases Hh with ⟨Ha0, Ha1, Ha2, -, Hv1, -, Hv3, -, Hv5, Hv6, Hv7⟩
  ihave He := (Transfers.pointsTo_toks_split fullShare 32) $$ Ha1
  icases He with ⟨HeD, HeT⟩
  ihave Hr := (Transfers.pointsTo_toks_split fullShare 32) $$ Ha2
  icases Hr with ⟨HrD, HrT⟩
  simp only [wp_bind, wp_pure]
  -- the call: the workers' rows and read shares out, the same back with the score rows at the kernel's sums
  iapply ((K (F := F)).wp_run (D (F := F)) 𝒱 (EH := EH) (P := P m) κ d 0) $$ [Hst Hv1 Hv3 Hv5 HeT HrT Hv6 Hb Ha0 HeD HrD Hv7]
  isplitr; · iexact Hctx
  isplitl [Hst]; · iexact Hst
  isplitl [Hv1 Hv3 Hv5 HeT HrT Hv6]
  · rw [st0_eq]
    isplitl [Hv1]; · iexact Hv1
    isplitl [Hv3]; · iexact Hv3
    isplitl [Hv5]; · iexact Hv5
    isplitl [HeT]; · iexact HeT
    isplitl [HrT]; · iexact HrT
    iexact Hv6
  iintro ⟨Hst, Hdn⟩
  ihave Hdn' := (Entails.of_eq (dn0_eq m d)) $$ Hdn
  icases Hdn' with ⟨-, -, -, HeT, HrT, Hv6⟩
  ihave Ha1 := (Transfers.pointsTo_toks_join fullShare 32) $$ [HeD HeT]
  · isplitl [HeD] <;> iassumption
  ihave Ha2 := (Transfers.pointsTo_toks_join fullShare 32) $$ [HrD HrT]
  · isplitl [HrD] <;> iassumption
  -- the last reshape, over the score vector and the result
  iapply (wp_hlo_within 𝒱 (SparseCore.T d) none Set.univ (op := opOut) (S := S2) hOut (V := V1 m d)) $$ [Hb Hv6 Hv7]
  · isplitl [Hb]; · iexact Hb
    rw [held_S2, V1_v6, V1_v7]
    isplitl [Hv6]; · iexact Hv6
    iexact Hv7
  iintro ⟨Hb, Hheld⟩
  ihave Hh := (Entails.of_eq (held_out m d)) $$ Hheld
  icases Hh with ⟨-, Hv7⟩
  rw [wp_ret]; imodintro; imodintro
  isplitl [Hst]; · iexact Hst
  isplitl [Hv7]; · iexact Hv7
  isplitl [Ha0]; · iexact Ha0
  isplitl [Ha1]; · iexact Ha1
  iexact Ha2

def fq (d : Dev nD) (s' : Phys nD τ sig (Elt F)) : Prop :=
  s'.mem.mem (resLoc d) = (resOf m d : Buf (Elt F) (resLoc d)) ∧ s'.mem.mem (sampleLoc d) = m (sampleLoc d)
    ∧ s'.mem.mem (entLoc d) = m (entLoc d) ∧ s'.mem.mem (relLoc d) = m (relLoc d)

theorem hfin (d : Dev nD) (s' : Phys nD τ sig (Elt F)) : iprop(FIN m d ∗ SI s') ⊢ (⌜fq m d s'⌝ : sProp 𝕄) := by
  iintro ⟨⟨Hr, Hs, He, Hl⟩, HSI⟩
  ihave H := (persistent_entails_right (SI_pointsTo_agree (st := s') (ℓ := resLoc d) (I := Finset.univ) (q := fullShare)
    (f := (resOf m d : Buf (Elt F) (resLoc d))))) $$ [HSI Hr]
  · isplitl [HSI] <;> iassumption
  icases H with ⟨%h1, HSI, -⟩
  ihave H := (persistent_entails_right (SI_pointsTo_agree (st := s') (ℓ := sampleLoc d) (I := Finset.univ) (q := fullShare) (f := m (sampleLoc d)))) $$ [HSI Hs]
  · isplitl [HSI] <;> iassumption
  icases H with ⟨%h2, HSI, -⟩
  ihave H := (persistent_entails_right (SI_pointsTo_agree (st := s') (ℓ := entLoc d) (I := Finset.univ) (q := fullShare) (f := m (entLoc d)))) $$ [HSI He]
  · isplitl [HSI] <;> iassumption
  icases H with ⟨%h3, HSI, -⟩
  ihave H := (SI_pointsTo_agree (st := s') (ℓ := relLoc d) (I := Finset.univ) (q := fullShare) (f := m (relLoc d))) $$ [HSI Hl]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

def QC : PUnit × MemSt nD τ sig (Elt F) → Prop := fun r => ∀ c : Dev nD,
  r.2.mem (resLoc c) = (resOf m c : Buf (Elt F) (resLoc c)) ∧ r.2.mem (sampleLoc c) = m (sampleLoc c)
    ∧ r.2.mem (entLoc c) = m (entLoc c) ∧ r.2.mem (relLoc c) = m (relLoc c)

/-- From any launch memory with the semaphores at zero, given the vector subcores' task proved: every weakly fair run of the
    35 threads ends, nothing faulting, with the result at the scores and the three arguments unchanged. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KI.Algebra.lean ====
/-
  At the extended reals the kernel's score is the reference's: the kernel adds the 128 coordinate terms of a row as sixteen
  balanced trees over the eight lane blocks, then one balanced tree over the sixteen lanes; addition of extended reals is
  commutative and associative, so both trees are plain sums, and (lane j, block k) ↦ 16·k + j runs once through the 128
  coordinates.
-/
import proofs.«209583_g49984829390938_cont_8to1c4_457_35_alg».proof.Proof.KI.Res
import proofs.«209583_g49984829390938_cont_8to1c4_457_35_alg».proof.Proof.Score

noncomputable section

open scoped BigOperators

namespace Cert.Proof.KI

open Cert.KernelIdeal

open Idealize.ShloMosaic Idealize.ShloMosaic.ValueIdx

/-- A balanced tree over eight extended reals is their sum. -/
theorem tree8_sum (f : Fin 8 → EReal) : tree8 (F := Ideal) f = ∑ i, f i := by
  rw [Fin.sum_univ_eight]
  show f 0 + f 1 + (f 2 + f 3) + (f 4 + f 5 + (f 6 + f 7)) = _
  ac_rfl

/-- A balanced tree over sixteen extended reals is their sum. -/
theorem tree16_sum (f : Fin 16 → EReal) : tree16 (F := Ideal) f = ∑ i, f i := by
  unfold tree16
  rw [tree8_sum, tree8_sum]
  exact (Fin.sum_univ_add (a := 8) (b := 8) f).symm

theorem lane_injective : Function.Injective fun p : Fin 16 × Fin 8 => (⟨16 * p.2.val + p.1.val, by omega⟩ : Fin 128) := by
  intro p p' h
  have hv : 16 * p.2.val + p.1.val = 16 * p'.2.val + p'.1.val := congrArg Fin.val h
  have hc : p.1.val < 16 := p.1.isLt
  have hc' : p'.1.val < 16 := p'.1.isLt
  refine Prod.ext (Fin.ext ?_) (Fin.ext ?_) <;> omega

/-- (lane, block) ↦ coordinate 16·block + lane is a bijection onto the 128 coordinates. -/
def laneEquiv : Fin 16 × Fin 8 ≃ Fin 128 :=
  Equiv.ofBijective _ ((Fintype.bijective_iff_injective_and_card _).mpr ⟨lane_injective, by simp⟩)

/-- The kernel's two trees over the coordinates, lanes outermost, add up every coordinate once. -/
theorem trees_sum (g : Fin 128 → EReal) :
    tree16 (F := Ideal) (fun j => tree8 (F := Ideal) fun k => g ⟨16 * k.val + j.val, by omega⟩) = ∑ x, g x := by
  rw [tree16_sum]
  simp only [tree8_sum]
  rw [← Equiv.sum_comp laneEquiv g, Fintype.sum_prod_type]
  rfl

/-- At the extended reals the kernel's two balanced trees are the plain sum: + is commutative and associative there. -/
theorem resOf_eq_score (m : (ℓ : Loc nD τ sig) → Buf (Elt Ideal) ℓ) (d : Dev nD) :
    (resOf m d : S16384x1.Idx → EReal) = Cert.Score.score (m (sampleLoc d)) (m (entLoc d)) (m (relLoc d)) := by
  funext j
  show Cert.Score.gamma - tree16 (F := Ideal) (fun jj => tree8 (F := Ideal) fun k => lane m d (j 0) ⟨16 * k.val + jj.val, by omega⟩)
    = Cert.Score.gamma - Cert.Score.dist (m (sampleLoc d)) (m (entLoc d)) (m (relLoc d)) (j 0)
  rw [trees_sum (fun x => lane m d (j 0) x)]
  rfl

end Cert.Proof.KI

end
-- ==== Proof.KB.Pay.lean ====
/-
  The kernel's program as the launch theorem sees it, and what its handshakes carry.

  Each of the 32 vector subcores (SparseCore c < 2, subcore s < 16) is worker 2·s + c and owns the 512 consecutive rows
  [512·(2s + c), 512·(2s + c) + 512) of the three index columns and of the score vector. It copies its rows of the three
  columns into its own memory, gathers the 128-wide table rows they name sixteen at a time, and leaves in its rows of the
  score vector, at row n,
      12 - Σ_j Σ_k | E[h_n, 16k + j] + (R[r_n, 16k + j] - E[t_n, 16k + j]) |
  summed as the kernel sums it: for each lane j a balanced tree over the eight lane blocks k, then a balanced tree over
  the sixteen lanes j. The two tables are only read: every worker holds a read share of each, whole.
-/
import proofs.«209583_g49984829390938_cont_8to1c4_457_35_alg».proof.Kernel
import proofs.«209583_g49984829390938_cont_8to1c4_457_35_alg».proof.Proof.Gen.Kernel
import proofs.«209583_g49984829390938_cont_8to1c4_457_35_alg».proof.Proof.Score
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev sampleLoc (d : Dev nD) : Loc nD τ sig := (SparseCore.T d).loc main_arg0
abbrev entLoc (d : Dev nD) : Loc nD τ sig := (SparseCore.T d).loc main_arg1
abbrev relLoc (d : Dev nD) : Loc nD τ sig := (SparseCore.T d).loc main_arg2
abbrev hLoc (d : Dev nD) : Loc nD τ sig := (SparseCore.T d).loc main_v1
abbrev rLoc (d : Dev nD) : Loc nD τ sig := (SparseCore.T d).loc main_v3
abbrev tLoc (d : Dev nD) : Loc nD τ sig := (SparseCore.T d).loc main_v5
abbrev outLoc (d : Dev nD) : Loc nD τ sig := (SparseCore.T d).loc main_v6
abbrev resLoc (d : Dev nD) : Loc nD τ sig := (SparseCore.T d).loc main_v7

/-- Column `k` of `sample` as a vector of 16384 words: what @main's slice and reshape leave in the index arrays. -/
def col (d : Dev nD) (k : Fin 3) : S16384.Idx → BitVec 32 := fun i => (m (sampleLoc d) : S16384x3.Idx → BitVec 32) (ix2 (i 0) k)

/-! ## The kernel's sum, in the kernel's order -/

section Sum
variable [FloatOps F]

/-- A balanced tree over eight terms. -/
def tree8 (f : Fin 8 → F .f32) : F .f32 :=
  FloatOps.addf (FloatOps.addf (FloatOps.addf (f 0) (f 1)) (FloatOps.addf (f 2) (f 3)))
    (FloatOps.addf (FloatOps.addf (f 4) (f 5)) (FloatOps.addf (f 6) (f 7)))

/-- A balanced tree over sixteen terms. -/
def tree16 (f : Fin 16 → F .f32) : F .f32 :=
  FloatOps.addf (tree8 fun i => f ⟨i.val, by omega⟩) (tree8 fun i => f ⟨8 + i.val, by omega⟩)

/-- One coordinate's term |E[h, x] + (R[r, x] - E[t, x])| of score row `n`. -/
def lane (d : Dev nD) (n : Fin 16384) (x : Fin 128) : F .f32 :=
  FloatOps.absf (FloatOps.addf ((m (entLoc d) : S100000x128.Idx → F .f32) (ix2 (Cert.Score.rowIx (col m d 0 (ix1 n))) x))
    (FloatOps.subf ((m (relLoc d) : S100000x128.Idx → F .f32) (ix2 (Cert.Score.rowIx (col m d 1 (ix1 n))) x))
      ((m (entLoc d) : S100000x128.Idx → F .f32) (ix2 (Cert.Score.rowIx (col m d 2 (ix1 n))) x))))

/-- What the kernel leaves in the score vector. -/
def kout (d : Dev nD) : S16384.Idx → F .f32 := fun n =>
  FloatOps.subf (Scalar.ofBits .f32 0x41400000#32)
    (tree16 fun j => tree8 fun k => lane m d (n 0) ⟨16 * k.val + j.val, by omega⟩)

end Sum

/-! ## The 32 workers' rows -/

theorem hdiv : 32 ∣ S16384.size 0 := ⟨512, rfl⟩
/-- Worker `t`'s rows of a 16384-vector. -/
abbrev tileRect (t : Fin 32) : Rect S16384 := Rect.part (s := S16384) (a₀ := 0) hdiv t
abbrev tileSet (t : Fin 32) : Finset S16384.Idx :=
  ((Memref.whole main_v6_scv : Memref sig .scVector .hbm S16384 .f32).view.slice (tileRect t)).set

/-- The worker number of subcore `s` of SparseCore `c`. -/
def tid (c : Fin 2) (s : Fin 16) : Fin 32 := ⟨2 * s.val + c.val, by omega⟩

/-- What a worker is handed: its rows of the three index columns and of the score vector, whole; a read share of each
    table. `f` is what the score vector holds. -/
def tileRes (d : Dev nD) (t : Fin 32) (f : Buf (Elt F) (outLoc d)) : sProp 𝕄 :=
  iprop((hLoc d ↦[tileSet t]{fullShare} (col m d 0 : Buf (Elt F) (hLoc d)))
    ∗ (rLoc d ↦[tileSet t]{fullShare} (col m d 1 : Buf (Elt F) (rLoc d)))
    ∗ (tLoc d ↦[tileSet t]{fullShare} (col m d 2 : Buf (Elt F) (tLoc d)))
    ∗ (entLoc d ↦{Transfers.shareTok fullShare 32 t} m (entLoc d))
    ∗ (relLoc d ↦{Transfers.shareTok fullShare 32 t} m (relLoc d))
    ∗ (outLoc d ↦[tileSet t]{fullShare} f))

variable [FloatOps F]

/-- The one call: every worker its rows and shares, the score rows at the launch contents on the way in and at the
    kernel's sums on the way out; a SparseCore's operands are its sixteen workers'. -/
def P : (K (F := F)).Pay (nD := nD) (Val := Elt F) (Name := ℕ) (U := UU) where
  st := fun q d c => match q with
    | 0 => bigSep Finset.univ fun i : Fin ((K (F := F)).nSub 0) => tileRes m d (tid (Fin.cast nCore_zero c) (Fin.cast nSub_zero i)) (m (outLoc d))
  dn := fun q d c => match q with
    | 0 => bigSep Finset.univ fun i : Fin ((K (F := F)).nSub 0) => tileRes m d (tid (Fin.cast nCore_zero c) (Fin.cast nSub_zero i)) (kout m d : Buf (Elt F) (outLoc d))
  go := fun q d c i => match q with
    | 0 => tileRes m d (tid (Fin.cast nCore_zero c) (Fin.cast nSub_zero i)) (m (outLoc d))
  td := fun q d c i => match q with
    | 0 => tileRes m d (tid (Fin.cast nCore_zero c) (Fin.cast nSub_zero i)) (kout m d : Buf (Elt F) (outLoc d))
  x := fun _ _ => iprop(emp)

instance tileRes_storable (d : Dev nD) (t : Fin 32) (f : Buf (Elt F) (outLoc d)) : BI.Storable (upEmb : UEmb _ 𝕄) (tileRes m d t f) := by
  unfold tileRes; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands ARE its workers', and its results theirs. -/
theorem vecSplit : (K (F := F)).VecSplit' (P m) 0 := by
  intro d c
  show (bigSep Finset.univ fun i : Fin ((K (F := F)).nSub 0) => tileRes m d (tid (Fin.cast nCore_zero c) (Fin.cast nSub_zero i)) (m (outLoc d)))
    ⊢ |={Set.univ}=> iprop((bigSep Finset.univ fun i : Fin ((K (F := F)).nSub 0) => tileRes m d (tid (Fin.cast nCore_zero c) (Fin.cast nSub_zero i)) (m (outLoc d)))
      ∗ ((bigSep Finset.univ fun i : Fin ((K (F := F)).nSub 0) => tileRes m d (tid (Fin.cast nCore_zero c) (Fin.cast nSub_zero i)) (kout m d : Buf (Elt F) (outLoc d)))
          -∗ (bigSep Finset.univ fun i : Fin ((K (F := F)).nSub 0) => tileRes m d (tid (Fin.cast nCore_zero c) (Fin.cast nSub_zero i)) (kout m d : Buf (Elt F) (outLoc d)))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KB.Res.lean ====
/-
  What @main leaves in its result, as a function of the launch memory: the kernel's score vector, one sum per sample row,
  read as a 16384×1 array.
-/
import proofs.«209583_g49984829390938_cont_8to1c4_457_35_alg».proof.Proof.KB.Pay

noncomputable section

namespace Cert.Proof.KB

open Cert.Kernel

open Idealize.ShloMosaic Idealize.ShloMosaic.ValueIdx

variable {F : FTy → Type} [FloatOps F] (m : (ℓ : Loc nD τ sig) → Buf (Elt F) ℓ)

/-- What @main leaves in its result: the score vector as a 16384×1 array. -/
def resOf (d : Dev nD) : S16384x1.Idx → F .f32 := fun j => kout m d (ix1 (j 0))

end Cert.Proof.KB

end
-- ==== Proof.KB.Launch.lean ====
/-
  The kernel's run, from the vector subcores' task.

  @main on the TensorCore first cuts the three columns of `sample` out — each a 16384×1 slice read back as a 16384-vector,
  which at index i is `sample` at (i, k) —, then starts the two SparseCores, waits for them, and reads the score vector as a
  16384×1 array. The 32 workers' 512-row blocks are pairwise disjoint and cover the 16384 rows, so each of the three index
  vectors and the score vector splits into the workers' rows and joins back; each table goes out as 32 read shares beside a
  remainder kept on the TensorCore across the call, and the shares and the remainder join back to the whole. Worker
  2·s + c is subcore s of SparseCore c: (c, s) ↦ 2·s + c is a bijection of 2 × 16 onto the 32 workers, which regroups the
  workers' resources per SparseCore. What comes back is the same with the score rows at the kernel's sums, all restrictions
  of one function, so the score vector is whole at it. The final memory is read at the result and at the three arguments.
-/
import proofs.«209583_g49984829390938_cont_8to1c4_457_35_alg».proof.Proof.KB.Pay
import proofs.«209583_g49984829390938_cont_8to1c4_457_35_alg».proof.Proof.KB.Res
import Idealize.ShloMosaic.Lib.Pipeline.Value

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
/-! ## The index columns and the result, index by index -/

omit m ρ in
/-- Column `k` of a 16384×3 array, cut out as a 16384×1 slice and read as a vector, is the array read at `(i, k)`. -/
theorem reshape_slice_apply {α : Type} (x : S16384x3.Idx → α) (k : Fin 3) (off : Fin 2 → Nat) (h0 : off 0 = 0) (h1 : off 1 = k.val)
    (hs : S16384x3.Slices off S16384x1) (hc : S16384x1.ShapeCasts S16384) (j : S16384.Idx) :
    shapeCast S16384 (extractStridedSlice S16384x1 off x hs) hc j = x (ix2 (j 0) k) := by
  refine (shapeCast_apply _ hc j (ix2 (j 0) (0 : Fin 1)) ?_).trans ?_
  · rw [Shape.rowMajor_val_two, Shape.rowMajor_val_one]
    show (j 0).val * 1 + 0 = (j 0).val
    omega
  · refine extractStridedSlice_apply off x hs _ (ix2 (j 0) k) fun a => ?_
    match a with
    | ⟨0, _⟩ => show (j 0).val = off 0 + (j 0).val; omega
    | ⟨1, _⟩ => show k.val = off 1 + 0; omega

omit m ρ in
/-- A 16384-vector read as a 16384×1 array is the vector read at the row. -/
theorem reshape_col_apply {α : Type} (x : S16384.Idx → α) (hc : S16384.ShapeCasts S16384x1) (j : S16384x1.Idx) :
    shapeCast S16384x1 x hc j = x (ix1 (j 0)) := by
  refine shapeCast_apply _ hc j (ix1 (j 0)) ?_
  rw [Shape.rowMajor_val_two, Shape.rowMajor_val_one]
  have h1 : (j 1).val < 1 := (j 1).isLt
  show (j 0).val = (j 0).val * 1 + (j 1).val
  omega

/-! ## The 32 workers' rows cover the vector -/

omit m ρ in
theorem tileSet_eq (t : Fin 32) : tileSet t = (tileRect t).set := by
  show ((View.whole (main_v6_scv : Ref sig .scVector)).slice (tileRect t)).set = _
  rw [View.set_slice]; exact Finset.map_refl
omit m ρ in
theorem tiles_disjoint : ∀ i ∈ (Finset.univ : Finset (Fin 32)), ∀ j ∈ (Finset.univ : Finset (Fin 32)), i ≠ j → Disjoint (tileSet i) (tileSet j) :=
  fun i _ j _ h => by rw [tileSet_eq, tileSet_eq]; exact Rect.part_disjoint hdiv h
omit m ρ in
theorem tiles_cover : (Finset.univ : Finset (Fin 32)).biUnion tileSet = Finset.univ :=
  (Finset.biUnion_congr rfl fun i _ => tileSet_eq i).trans (Rect.biUnion_part hdiv)

omit m ρ in
theorem hPts_rows (d : Dev nD) (f : Buf (Elt F) (hLoc d)) :
    (hLoc d ↦{fullShare} f : sProp 𝕄) = bigSep Finset.univ fun t : Fin 32 => hLoc d ↦[tileSet t]{fullShare} f := by
  rw [← pointsTo_biUnion Finset.univ (ℓ := hLoc d) tileSet tiles_disjoint, tiles_cover]; try rfl
omit m ρ in
theorem rPts_rows (d : Dev nD) (f : Buf (Elt F) (rLoc d)) :
    (rLoc d ↦{fullShare} f : sProp 𝕄) = bigSep Finset.univ fun t : Fin 32 => rLoc d ↦[tileSet t]{fullShare} f := by
  rw [← pointsTo_biUnion Finset.univ (ℓ := rLoc d) tileSet tiles_disjoint, tiles_cover]; try rfl
omit m ρ in
theorem tPts_rows (d : Dev nD) (f : Buf (Elt F) (tLoc d)) :
    (tLoc d ↦{fullShare} f : sProp 𝕄) = bigSep Finset.univ fun t : Fin 32 => tLoc d ↦[tileSet t]{fullShare} f := by
  rw [← pointsTo_biUnion Finset.univ (ℓ := tLoc d) tileSet tiles_disjoint, tiles_cover]; try rfl
omit m ρ in
theorem oPts_rows (d : Dev nD) (f : Buf (Elt F) (outLoc d)) :
    (outLoc d ↦{fullShare} f : sProp 𝕄) = bigSep Finset.univ fun t : Fin 32 => outLoc d ↦[tileSet t]{fullShare} f := by
  rw [← pointsTo_biUnion Finset.univ (ℓ := outLoc d) tileSet tiles_disjoint, tiles_cover]; try rfl

/-! ## Workers as SparseCores × subcores -/

omit m ρ in
theorem tid_injective : Function.Injective fun p : Fin 2 × Fin 16 => tid p.1 p.2 := by
  intro p p' h
  have hv : 2 * p.2.val + p.1.val = 2 * p'.2.val + p'.1.val := congrArg Fin.val h
  have hc : p.1.val < 2 := p.1.isLt
  have hc' : p'.1.val < 2 := p'.1.isLt
  refine Prod.ext (Fin.ext ?_) (Fin.ext ?_) <;> omega

/-- (SparseCore, subcore) ↦ worker number is a bijection onto the 32 workers. -/
def tidEquiv : Fin 2 × Fin 16 ≃ Fin 32 :=
  Equiv.ofBijective _ ((Fintype.bijective_iff_injective_and_card _).mpr ⟨tid_injective, by simp⟩)

omit m ρ in
theorem bigSep_workers (Φ : Fin 32 → sProp 𝕄) :
    (bigSep Finset.univ fun c : Fin ((K (F := F)).nCore 0) => bigSep Finset.univ fun i : Fin ((K (F := F)).nSub 0) =>
        Φ (tid (Fin.cast nCore_zero c) (Fin.cast nSub_zero i))) = bigSep Finset.univ Φ := by
  conv_rhs => rw [bigSep_univ_equiv tidEquiv Φ, bigSep_univ_prod]
  rfl

/-- The 32 workers' resources are the three index columns and the score vector whole, and 32 read shares of each table. -/
theorem tiles_split (d : Dev nD) (f : Buf (Elt F) (outLoc d)) :
    (bigSep Finset.univ fun t : Fin 32 => tileRes m d t f) = iprop(
      (hLoc d ↦{fullShare} (col m d 0 : Buf (Elt F) (hLoc d))) ∗ (rLoc d ↦{fullShare} (col m d 1 : Buf (Elt F) (rLoc d)))
      ∗ (tLoc d ↦{fullShare} (col m d 2 : Buf (Elt F) (tLoc d)))
      ∗ (bigSep Finset.univ fun t : Fin 32 => entLoc d ↦{Transfers.shareTok fullShare 32 t} m (entLoc d))
      ∗ (bigSep Finset.univ fun t : Fin 32 => relLoc d ↦{Transfers.shareTok fullShare 32 t} m (relLoc d))
      ∗ (outLoc d ↦{fullShare} f)) := by
  unfold tileRes
  rw [bigSep_sep', bigSep_sep', bigSep_sep', bigSep_sep', bigSep_sep', ← hPts_rows, ← rPts_rows, ← tPts_rows, ← oPts_rows]

variable [FloatOps F]

theorem st0_eq (d : Dev nD) : (bigSep Finset.univ fun c : Fin ((K (F := F)).nCore 0) => (P m).st 0 d c) = iprop(
      (hLoc d ↦{fullShare} (col m d 0 : Buf (Elt F) (hLoc d))) ∗ (rLoc d ↦{fullShare} (col m d 1 : Buf (Elt F) (rLoc d)))
      ∗ (tLoc d ↦{fullShare} (col m d 2 : Buf (Elt F) (tLoc d)))
      ∗ (bigSep Finset.univ fun t : Fin 32 => entLoc d ↦{Transfers.shareTok fullShare 32 t} m (entLoc d))
      ∗ (bigSep Finset.univ fun t : Fin 32 => relLoc d ↦{Transfers.shareTok fullShare 32 t} m (relLoc d))
      ∗ (outLoc d ↦{fullShare} m (outLoc d))) :=
  (bigSep_workers (fun t => tileRes m d t (m (outLoc d)))).trans (tiles_split m d _)

theorem dn0_eq (d : Dev nD) : (bigSep Finset.univ fun c : Fin ((K (F := F)).nCore 0) => (P m).dn 0 d c) = iprop(
      (hLoc d ↦{fullShare} (col m d 0 : Buf (Elt F) (hLoc d))) ∗ (rLoc d ↦{fullShare} (col m d 1 : Buf (Elt F) (rLoc d)))
      ∗ (tLoc d ↦{fullShare} (col m d 2 : Buf (Elt F) (tLoc d)))
      ∗ (bigSep Finset.univ fun t : Fin 32 => entLoc d ↦{Transfers.shareTok fullShare 32 t} m (entLoc d))
      ∗ (bigSep Finset.univ fun t : Fin 32 => relLoc d ↦{Transfers.shareTok fullShare 32 t} m (relLoc d))
      ∗ (outLoc d ↦{fullShare} (kout m d : Buf (Elt F) (outLoc d)))) :=
  (bigSep_workers (fun t => tileRes m d t (kout m d : Buf (Elt F) (outLoc d)))).trans (tiles_split m d _)

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- The TensorCore's arrays, all unscoped. -/
abbrev S11 : Finset (DevRef τ sig) := {a0', a1', a2', v0', v1', v2', v3', v4', v5', v6', v7'}

omit [FloatOps F] in
theorem held_S11 (d : Dev nD) (W : Valuation τ sig (Elt F)) :
    (held (T d) S11 W : sProp 𝕄) = iprop((sampleLoc d ↦{fullShare} W a0') ∗ (entLoc d ↦{fullShare} W a1') ∗ (relLoc d ↦{fullShare} W a2')
      ∗ ((SparseCore.T d).loc main_v0 ↦{fullShare} W v0') ∗ (hLoc d ↦{fullShare} W v1') ∗ ((SparseCore.T d).loc main_v2 ↦{fullShare} W v2')
      ∗ (rLoc d ↦{fullShare} W v3') ∗ ((SparseCore.T d).loc main_v4 ↦{fullShare} W v4') ∗ (tLoc d ↦{fullShare} W v5')
      ∗ (outLoc d ↦{fullShare} W v6') ∗ (resLoc d ↦{fullShare} W v7')) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((sampleLoc d ↦{fullShare} W main_arg0) ∗ (entLoc d ↦{fullShare} W main_arg1) ∗ (relLoc d ↦{fullShare} W main_arg2)
      ∗ ((SparseCore.T d).loc main_v0 ↦{fullShare} W main_v0) ∗ (hLoc d ↦{fullShare} W main_v1) ∗ ((SparseCore.T d).loc main_v2 ↦{fullShare} W main_v2)
      ∗ (rLoc d ↦{fullShare} W main_v3) ∗ ((SparseCore.T d).loc main_v4 ↦{fullShare} W main_v4) ∗ (tLoc d ↦{fullShare} W main_v5)
      ∗ (outLoc d ↦{fullShare} W main_v6) ∗ (resLoc d ↦{fullShare} W main_v7)) := by
  unfold unscopedBufs
  rw [show (Finset.univ.filter fun b : Ref sig .tc => ¬ b.isScoped)
      = {main_arg0, main_arg1, main_arg2, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S11 (V0 m d) := by
  rw [unscopedBufs_eq, held_S11]; rfl

/-- The six operations before the call: each column of `sample` cut out and read as a vector. -/
abbrev opSl0 : HloOp τ sig (Elt F) := StableHlo.unary main_arg0 main_v0 ((extractStridedSlice S16384x1 ![0, 0] · Facts₀.slices_S16384x3_S16384x1_0_0) : (⟨S16384x3, .i32⟩ : BufTy).Contents (Elt F) → (⟨S16384x1, .i32⟩ : BufTy).Contents (Elt F))
abbrev opRs0 : HloOp τ sig (Elt F) := StableHlo.reshape main_v0 main_v1 rfl Facts₀.shapeCasts_S16384x1_S16384
abbrev opSl1 : HloOp τ sig (Elt F) := StableHlo.unary main_arg0 main_v2 ((extractStridedSlice S16384x1 ![0, 1] · Facts₀.slices_S16384x3_S16384x1_0_1) : (⟨S16384x3, .i32⟩ : BufTy).Contents (Elt F) → (⟨S16384x1, .i32⟩ : BufTy).Contents (Elt F))
abbrev opRs1 : HloOp τ sig (Elt F) := StableHlo.reshape main_v2 main_v3 rfl Facts₀.shapeCasts_S16384x1_S16384
abbrev opSl2 : HloOp τ sig (Elt F) := StableHlo.unary main_arg0 main_v4 ((extractStridedSlice S16384x1 ![0, 2] · Facts₀.slices_S16384x3_S16384x1_0_2) : (⟨S16384x3, .i32⟩ : BufTy).Contents (Elt F) → (⟨S16384x1, .i32⟩ : BufTy).Contents (Elt F))
abbrev opRs2 : HloOp τ sig (Elt F) := StableHlo.reshape main_v4 main_v5 rfl Facts₀.shapeCasts_S16384x1_S16384
abbrev ops₁ : List (HloOp τ sig (Elt F)) := [opSl0, opRs0, opSl1, opRs1, opSl2, opRs2]
/-- The operation after it: the score vector read as a 16384×1 array. -/
abbrev opOut : HloOp τ sig (Elt F) := StableHlo.reshape main_v6 main_v7 rfl Facts₀.shapeCasts_S16384_S16384x1

theorem main_eq (d : Dev nD) : main (F := F) d
    = ((StableHlo.seq ops₁ >>= fun _ => ((K (F := F)).run d 0 >>= fun _ =>
        (hlo rfl opOut (fun _ => .ret (⟨⟩ : PUnit)) >>= fun _ => pure (⟨⟩ : PUnit))))
      : Prog (TpuEff nD τ sig (Elt F) (SparseCore.Sig (ΛP (F := F)) 1) .tc) PUnit) := by
  rfl

theorem ops₁_sub : ∀ op ∈ (ops₁ (F := F)), op.bufs ⊆ S11 := by
  intro op hop
  simp only [ops₁, List.mem_cons, List.mem_nil_iff, or_false] at hop
  rcases hop with rfl | rfl | rfl | rfl | rfl | rfl
  · exact show ({a0', v0'} : Finset (DevRef τ sig)) ⊆ S11 by decide
  · exact show ({v0', v1'} : Finset (DevRef τ sig)) ⊆ S11 by decide
  · exact show ({a0', v2'} : Finset (DevRef τ sig)) ⊆ S11 by decide
  · exact show ({v2', v3'} : Finset (DevRef τ sig)) ⊆ S11 by decide
  · exact show ({a0', v4'} : Finset (DevRef τ sig)) ⊆ S11 by decide
  · exact show ({v4', v5'} : Finset (DevRef τ sig)) ⊆ S11 by decide

theorem ops₁_fresh : ∀ op ∈ (ops₁ (F := F)), op.fresh = ∅ := by
  intro op hop
  simp only [ops₁, List.mem_cons, List.mem_nil_iff, or_false] at hop
  rcases hop with rfl | rfl | rfl | rfl | rfl | rfl <;> rfl

theorem after_a0 (d : Dev nD) : StableHlo.after (ops₁ (F := F)) (V0 m d) a0' = m (sampleLoc d) := by
  after_results; rfl
theorem after_a1 (d : Dev nD) : StableHlo.after (ops₁ (F := F)) (V0 m d) a1' = m (entLoc d) := by
  after_results; rfl
theorem after_a2 (d : Dev nD) : StableHlo.after (ops₁ (F := F)) (V0 m d) a2' = m (relLoc d) := by
  after_results; rfl
theorem after_v6 (d : Dev nD) : StableHlo.after (ops₁ (F := F)) (V0 m d) v6' = m (outLoc d) := by
  after_results; rfl
theorem after_v7 (d : Dev nD) : StableHlo.after (ops₁ (F := F)) (V0 m d) v7' = m (resLoc d) := by
  after_results; rfl
theorem after_v1 (d : Dev nD) : StableHlo.after (ops₁ (F := F)) (V0 m d) v1' = col m d 0 := by
  after_results
  funext j
  exact reshape_slice_apply (m (sampleLoc d)) 0 _ rfl rfl _ _ j
theorem after_v3 (d : Dev nD) : StableHlo.after (ops₁ (F := F)) (V0 m d) v3' = col m d 1 := by
  after_results
  funext j
  exact reshape_slice_apply (m (sampleLoc d)) 1 _ rfl rfl _ _ j
theorem after_v5 (d : Dev nD) : StableHlo.after (ops₁ (F := F)) (V0 m d) v5' = col m d 2 := by
  after_results
  funext j
  exact reshape_slice_apply (m (sampleLoc d)) 2 _ rfl rfl _ _ j

/-- What the six operations leave: the arguments, the score vector and the result untouched, the three index vectors at
    the columns of `sample`. -/
theorem held_after (d : Dev nD) : (held (T d) S11 (StableHlo.after (ops₁ (F := F)) (V0 m d)) : sProp 𝕄) = iprop(
      (sampleLoc d ↦{fullShare} m (sampleLoc d)) ∗ (entLoc d ↦{fullShare} m (entLoc d)) ∗ (relLoc d ↦{fullShare} m (relLoc d))
      ∗ ((SparseCore.T d).loc main_v0 ↦{fullShare} StableHlo.after (ops₁ (F := F)) (V0 m d) v0')
      ∗ (hLoc d ↦{fullShare} (col m d 0 : Buf (Elt F) (hLoc d)))
      ∗ ((SparseCore.T d).loc main_v2 ↦{fullShare} StableHlo.after (ops₁ (F := F)) (V0 m d) v2')
      ∗ (rLoc d ↦{fullShare} (col m d 1 : Buf (Elt F) (rLoc d)))
      ∗ ((SparseCore.T d).loc main_v4 ↦{fullShare} StableHlo.after (ops₁ (F := F)) (V0 m d) v4')
      ∗ (tLoc d ↦{fullShare} (col m d 2 : Buf (Elt F) (tLoc d)))
      ∗ (outLoc d ↦{fullShare} m (outLoc d)) ∗ (resLoc d ↦{fullShare} m (resLoc d))) := by
  rw [held_S11, after_a0, after_a1, after_a2, after_v1, after_v3, after_v5, after_v6, after_v7]

/-- The score vector and the result. -/
abbrev S2 : Finset (DevRef τ sig) := {v6', v7'}

omit [FloatOps F] in
theorem held_S2 (d : Dev nD) (W : Valuation τ sig (Elt F)) :
    (held (T d) S2 W : sProp 𝕄) = iprop((outLoc d ↦{fullShare} W v6') ∗ (resLoc d ↦{fullShare} W v7')) := by
  unfold held S2
  rw [SparseCore.bigSep_insert' (by decide), bigSep_singleton]

/-- After the call: the score vector at the kernel's sums. -/
def V1 (d : Dev nD) : Valuation τ sig (Elt F) := Function.update (V0 m d) v6' (kout m d)

theorem V1_v6 (d : Dev nD) : V1 m d v6' = kout m d := Function.update_self _ _ _
theorem V1_v7 (d : Dev nD) : V1 m d v7' = m (resLoc d) := Function.update_of_ne (show v7' ≠ v6' by decide) _ _

theorem hOut : (opOut (F := F)).bufs ⊆ S2 := show ({v6', v7'} : Finset (DevRef τ sig)) ⊆ S2 by decide

theorem out_v7 (d : Dev nD) : (opOut (F := F)).result (V1 m d) v7' = resOf m d := by
  rw [StableHlo.reshape_result, V1_v6]
  funext j
  exact reshape_col_apply (kout m d) _ j

theorem out_v6 (d : Dev nD) : (opOut (F := F)).result (V1 m d) v6' = kout m d := by
  rw [(opOut (F := F)).result_of_not_mem (V1 m d) (b := v6') (show v6' ∉ ({v7'} : Finset (DevRef τ sig)) by decide), V1_v6]

theorem held_out (d : Dev nD) : (held (T d) S2 ((opOut (F := F)).result (V1 m d)) : sProp 𝕄)
    = iprop((outLoc d ↦{fullShare} (kout m d : Buf (Elt F) (outLoc d))) ∗ (resLoc d ↦{fullShare} (resOf m d : Buf (Elt F) (resLoc d)))) := by
  rw [held_S2, out_v6, out_v7]

/-- What @main leaves the claim: the result at the scores, the three arguments at their launch contents. -/
abbrev FIN (d : Dev nD) : sProp 𝕄 :=
  iprop((resLoc d ↦{fullShare} (resOf m d : Buf (Elt F) (resLoc d))) ∗ (sampleLoc d ↦{fullShare} m (sampleLoc d))
    ∗ (entLoc d ↦{fullShare} m (entLoc d)) ∗ (relLoc d ↦{fullShare} m (relLoc d)))

/-- @main on device `d`'s TensorCore: the six operations that cut the columns out; the call, every worker handed its rows
    and a read share of each table, the rows of the score vector coming back at the kernel's sums; the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S11 _ ops₁ ops₁_sub ops₁_fresh (V0 m d)) $$ [Hb Hheld]
  · isplitl [Hb] <;> iassumption
  iintro ⟨Hb, Hheld⟩
  ihave Hh := (Entails.of_eq (held_after m d)) $$ Hheld
  icases Hh with ⟨Ha0, Ha1, Ha2, -, Hv1, -, Hv3, -, Hv5, Hv6, Hv7⟩
  ihave He := (Transfers.pointsTo_toks_split fullShare 32) $$ Ha1
  icases He with ⟨HeD, HeT⟩
  ihave Hr := (Transfers.pointsTo_toks_split fullShare 32) $$ Ha2
  icases Hr with ⟨HrD, HrT⟩
  simp only [wp_bind, wp_pure]
  -- the call: the workers' rows and read shares out, the same back with the score rows at the kernel's sums
  iapply ((K (F := F)).wp_run (D (F := F)) 𝒱 (EH := EH) (P := P m) κ d 0) $$ [Hst Hv1 Hv3 Hv5 HeT HrT Hv6 Hb Ha0 HeD HrD Hv7]
  isplitr; · iexact Hctx
  isplitl [Hst]; · iexact Hst
  isplitl [Hv1 Hv3 Hv5 HeT HrT Hv6]
  · rw [st0_eq]
    isplitl [Hv1]; · iexact Hv1
    isplitl [Hv3]; · iexact Hv3
    isplitl [Hv5]; · iexact Hv5
    isplitl [HeT]; · iexact HeT
    isplitl [HrT]; · iexact HrT
    iexact Hv6
  iintro ⟨Hst, Hdn⟩
  ihave Hdn' := (Entails.of_eq (dn0_eq m d)) $$ Hdn
  icases Hdn' with ⟨-, -, -, HeT, HrT, Hv6⟩
  ihave Ha1 := (Transfers.pointsTo_toks_join fullShare 32) $$ [HeD HeT]
  · isplitl [HeD] <;> iassumption
  ihave Ha2 := (Transfers.pointsTo_toks_join fullShare 32) $$ [HrD HrT]
  · isplitl [HrD] <;> iassumption
  -- the last reshape, over the score vector and the result
  iapply (wp_hlo_within 𝒱 (SparseCore.T d) none Set.univ (op := opOut) (S := S2) hOut (V := V1 m d)) $$ [Hb Hv6 Hv7]
  · isplitl [Hb]; · iexact Hb
    rw [held_S2, V1_v6, V1_v7]
    isplitl [Hv6]; · iexact Hv6
    iexact Hv7
  iintro ⟨Hb, Hheld⟩
  ihave Hh := (Entails.of_eq (held_out m d)) $$ Hheld
  icases Hh with ⟨-, Hv7⟩
  rw [wp_ret]; imodintro; imodintro
  isplitl [Hst]; · iexact Hst
  isplitl [Hv7]; · iexact Hv7
  isplitl [Ha0]; · iexact Ha0
  isplitl [Ha1]; · iexact Ha1
  iexact Ha2

def fq (d : Dev nD) (s' : Phys nD τ sig (Elt F)) : Prop :=
  s'.mem.mem (resLoc d) = (resOf m d : Buf (Elt F) (resLoc d)) ∧ s'.mem.mem (sampleLoc d) = m (sampleLoc d)
    ∧ s'.mem.mem (entLoc d) = m (entLoc d) ∧ s'.mem.mem (relLoc d) = m (relLoc d)

theorem hfin (d : Dev nD) (s' : Phys nD τ sig (Elt F)) : iprop(FIN m d ∗ SI s') ⊢ (⌜fq m d s'⌝ : sProp 𝕄) := by
  iintro ⟨⟨Hr, Hs, He, Hl⟩, HSI⟩
  ihave H := (persistent_entails_right (SI_pointsTo_agree (st := s') (ℓ := resLoc d) (I := Finset.univ) (q := fullShare)
    (f := (resOf m d : Buf (Elt F) (resLoc d))))) $$ [HSI Hr]
  · isplitl [HSI] <;> iassumption
  icases H with ⟨%h1, HSI, -⟩
  ihave H := (persistent_entails_right (SI_pointsTo_agree (st := s') (ℓ := sampleLoc d) (I := Finset.univ) (q := fullShare) (f := m (sampleLoc d)))) $$ [HSI Hs]
  · isplitl [HSI] <;> iassumption
  icases H with ⟨%h2, HSI, -⟩
  ihave H := (persistent_entails_right (SI_pointsTo_agree (st := s') (ℓ := entLoc d) (I := Finset.univ) (q := fullShare) (f := m (entLoc d)))) $$ [HSI He]
  · isplitl [HSI] <;> iassumption
  icases H with ⟨%h3, HSI, -⟩
  ihave H := (SI_pointsTo_agree (st := s') (ℓ := relLoc d) (I := Finset.univ) (q := fullShare) (f := m (relLoc d))) $$ [HSI Hl]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

def QC : PUnit × MemSt nD τ sig (Elt F) → Prop := fun r => ∀ c : Dev nD,
  r.2.mem (resLoc c) = (resOf m c : Buf (Elt F) (resLoc c)) ∧ r.2.mem (sampleLoc c) = m (sampleLoc c)
    ∧ r.2.mem (entLoc c) = m (entLoc c) ∧ r.2.mem (relLoc c) = m (relLoc c)

/-- From any launch memory with the semaphores at zero, given the vector subcores' task proved: every weakly fair run of the
    35 threads ends, nothing faulting, with the result at the scores and the three arguments unchanged. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.PreRange.lean ====
/-
  The sample words name table rows.

  The precondition is one bit: the conjunction of "every entry of the first table is finite", "every entry of the second
  table is finite" and "every sample word w has 0 ≤ w and w ≤ 99999, read signed". Read at its one index, the last conjunct
  is a reduction by "and" over every sample entry that came out 1, so every entry's two comparisons are 1. A 32-bit word
  that is nonnegative as a signed integer has its unsigned value equal to its signed one, so it is at most 99999 unsigned.
-/
import proofs.«209583_g49984829390938_cont_8to1c4_457_35_alg».proof.Pre_input_domain
import proofs.«209583_g49984829390938_cont_8to1c4_457_35_alg».proof.Proof.Gen.Pre_input_domain
import Idealize.ShloMosaic.Lib.ReduceAll
import Idealize.ShloMosaic.Lib.ValueIdx

noncomputable section

namespace Cert.Proof.PreRange

open Idealize.ShloMosaic

/-- The scalar shape has one index. -/
instance subsingleton_scalar_idx : Subsingleton Cert.Pre_input_domain.S_.Idx := ⟨fun a b => funext fun d => d.elim0⟩

/-- A 32-bit word between 0 and 99999 as a signed integer is below 100000 as a natural number. -/
theorem toNat_lt_of_signed (w : BitVec 32) (h0 : (0#32).toInt ≤ w.toInt) (h1 : w.toInt ≤ (99999#32).toInt) :
    w.toNat < 100000 := by
  have e0 : (0#32).toInt = 0 := by decide
  have e1 : (99999#32).toInt = 99999 := by decide
  rw [e0] at h0
  rw [e1] at h1
  have hw := w.isLt
  rw [BitVec.toInt_eq_toNat_cond] at h0 h1
  split at h0 <;> omega

/-- Every word of `sample` names a row of the tables: from the precondition read at any float instance. -/
theorem sample_lt {F : FTy → Type} [FloatOps F] [Cert.Pre_input_domain.Facts]
    (a0 : IVec Cert.Pre_input_domain.S16384x3 32) (a1 a2 : FVec F Cert.Pre_input_domain.S100000x128 .f32)
    (h : Cert.Pre_input_domain.fn (F := F) a0 a1 a2 = fun _ => 1#1) : ∀ i, (a0 i).toNat < 100000 := by
  intro i
  have e := congrFun h ValueIdx.ix0
  dsimp only [Cert.Pre_input_domain.fn] at e
  obtain ⟨-, e14⟩ := IntOp.andi_eq_one.1 e
  have e13 := Host.reduce_andi_all _ _ _ _ _ e14 i
  obtain ⟨e10, e12⟩ := IntOp.andi_eq_one.1 e13
  exact toNat_lt_of_signed _ (IntOp.cmpi_sge.1 e10) (IntOp.cmpi_sle.1 e12)

end Cert.Proof.PreRange

end
-- ==== Proof.RefRun.lean ====
/-
  The reference program's run, by hand: @main as the list of its 86 host operations, in order.

  @main takes each of the three columns of the sample array (a slice and a reshape), looks the column's words up in a table
  (the outlined function `_take`: 23 operations, among them the outlined `_where`'s one select, inlined here at each of
  the three calls over that call's own buffers), and broadcasts the looked-up rows to rank 3; then a subtraction, an addition,
  an absolute value, the sum over the last axis from the constant zero, the constant 12 broadcast, and the final subtraction.
  Unfolding the two outlined functions at their call sites and reassociating the sequencing turns @main into that straight
  line; every weakly fair execution of it terminates with each buffer at the fold of the operations over the launch contents.
-/
import proofs.«209583_g49984829390938_cont_8to1c4_457_35_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 86 operations, in order, the calls unfolded: per sample column the slice, the reshape, the lookup's 23
    (negative-index wrap: zero, its broadcast, the comparison, the table height, its broadcast, the addition, the select;
    the index as a column; the range test: the bounds, their broadcasts, the two comparisons, the conjunction, its reduction
    along the unit axis; the gather; the test broadcast along the row; the fill value, its broadcast; the select) and the
    broadcast to rank 3; then the eight operations of the arithmetic. -/
abbrev ops : List (HloOp τ sig (Elt F)) :=
  [ unary main_arg0 main_v0 ((extractStridedSlice S16384x1 ![0, 0] · slices_S16384x3_S16384x1_0_0) : (⟨S16384x3, .i32⟩ : BufTy).Contents (Elt F) → (⟨S16384x1, .i32⟩ : BufTy).Contents (Elt F)),
    reshape main_v0 main_v1 rfl shapeCasts_S16384x1_S16384,
    TRef.nullary main_call0.c (constantI S_ 32 0#32),
    TRef.unary main_call0.c main_call0.v0 (broadcastInDim S16384 ![] bcast_S_S16384),
    TRef.binary (.of main_v1 : TRef sig ⟨S16384, .i32⟩) main_call0.v0 main_call0.v1 (cmpi .slt),
    TRef.nullary main_call0.c_0 (constantI S_ 32 100000#32),
    TRef.unary main_call0.c_0 main_call0.v2 (broadcastInDim S16384 ![] bcast_S_S16384),
    TRef.binary (.of main_v1 : TRef sig ⟨S16384, .i32⟩) main_call0.v2 main_call0.v3 addi,
    TRef.ternary main_call0.v1 main_call0.v3 (.of main_v1 : TRef sig ⟨S16384, .i32⟩) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1 : TRef sig ⟨S100000x128, .f32⟩) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    unary main_v2 main_v3 (broadcastInDim S16384x1x128 ![0, 2] bcast_S16384x128_S16384x1x128_0_2 : (⟨S16384x128, .f32⟩ : BufTy).Contents (Elt F) → (⟨S16384x1x128, .f32⟩ : BufTy).Contents (Elt F)),
    unary main_arg0 main_v4 ((extractStridedSlice S16384x1 ![0, 1] · slices_S16384x3_S16384x1_0_1) : (⟨S16384x3, .i32⟩ : BufTy).Contents (Elt F) → (⟨S16384x1, .i32⟩ : BufTy).Contents (Elt F)),
    reshape main_v4 main_v5 rfl shapeCasts_S16384x1_S16384,
    TRef.nullary main_call1.c (constantI S_ 32 0#32),
    TRef.unary main_call1.c main_call1.v0 (broadcastInDim S16384 ![] bcast_S_S16384),
    TRef.binary (.of main_v5 : TRef sig ⟨S16384, .i32⟩) main_call1.v0 main_call1.v1 (cmpi .slt),
    TRef.nullary main_call1.c_0 (constantI S_ 32 100000#32),
    TRef.unary main_call1.c_0 main_call1.v2 (broadcastInDim S16384 ![] bcast_S_S16384),
    TRef.binary (.of main_v5 : TRef sig ⟨S16384, .i32⟩) main_call1.v2 main_call1.v3 addi,
    TRef.ternary main_call1.v1 main_call1.v3 (.of main_v5 : TRef sig ⟨S16384, .i32⟩) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg2 : TRef sig ⟨S100000x128, .f32⟩) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    unary main_v6 main_v7 (broadcastInDim S16384x1x128 ![0, 2] bcast_S16384x128_S16384x1x128_0_2 : (⟨S16384x128, .f32⟩ : BufTy).Contents (Elt F) → (⟨S16384x1x128, .f32⟩ : BufTy).Contents (Elt F)),
    unary main_arg0 main_v8 ((extractStridedSlice S16384x1 ![0, 2] · slices_S16384x3_S16384x1_0_2) : (⟨S16384x3, .i32⟩ : BufTy).Contents (Elt F) → (⟨S16384x1, .i32⟩ : BufTy).Contents (Elt F)),
    reshape main_v8 main_v9 rfl shapeCasts_S16384x1_S16384,
    TRef.nullary main_call2.c (constantI S_ 32 0#32),
    TRef.unary main_call2.c main_call2.v0 (broadcastInDim S16384 ![] bcast_S_S16384),
    TRef.binary (.of main_v9 : TRef sig ⟨S16384, .i32⟩) main_call2.v0 main_call2.v1 (cmpi .slt),
    TRef.nullary main_call2.c_0 (constantI S_ 32 100000#32),
    TRef.unary main_call2.c_0 main_call2.v2 (broadcastInDim S16384 ![] bcast_S_S16384),
    TRef.binary (.of main_v9 : TRef sig ⟨S16384, .i32⟩) main_call2.v2 main_call2.v3 addi,
    TRef.ternary main_call2.v1 main_call2.v3 (.of main_v9 : TRef sig ⟨S16384, .i32⟩) main_call2.call0.v0 select,
    TRef.unary main_call2.call0.v0 main_call2.v5 (broadcastInDim S16384x1 ![0] bcast_S16384_S16384x1_0),
    TRef.nullary main_call2.c_1 (constantI S1 32 99999#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg1 : TRef sig ⟨S100000x128, .f32⟩) main_call2.v5 main_call2.v13 (fun x i => Host.gather gather_S100000x128_S16384x1_S16384x128_1_0_n_n_0_1_1128 x i),
    TRef.unary main_call2.v12 main_call2.v14 (broadcastInDim S16384x128 ![0] bcast_S16384_S16384x128_0),
    TRef.nullary main_call2.cst (constant S_ .f32 0x7FC00000#32),
    TRef.unary main_call2.cst main_call2.v15 (broadcastInDim S16384x128 ![] bcast_S_S16384x128),
    TRef.ternary main_call2.v14 main_call2.v13 main_call2.v15 main_call2.v16 select,
    unary main_v10 main_v11 (broadcastInDim S16384x1x128 ![0, 2] bcast_S16384x128_S16384x1x128_0_2 : (⟨S16384x128, .f32⟩ : BufTy).Contents (Elt F) → (⟨S16384x1x128, .f32⟩ : BufTy).Contents (Elt F)),
    binary main_v7 main_v11 main_v12 (subf : (⟨S16384x1x128, .f32⟩ : BufTy).Contents (Elt F) → (⟨S16384x1x128, .f32⟩ : BufTy).Contents (Elt F) → (⟨S16384x1x128, .f32⟩ : BufTy).Contents (Elt F)),
    binary main_v3 main_v12 main_v13 (addf : (⟨S16384x1x128, .f32⟩ : BufTy).Contents (Elt F) → (⟨S16384x1x128, .f32⟩ : BufTy).Contents (Elt F) → (⟨S16384x1x128, .f32⟩ : BufTy).Contents (Elt F)),
    unary main_v13 main_v14 (Host.absf : (⟨S16384x1x128, .f32⟩ : BufTy).Contents (Elt F) → (⟨S16384x1x128, .f32⟩ : BufTy).Contents (Elt F)),
    nullary main_cst (constant S_ .f32 0x00000000#32),
    binary main_v14 main_cst main_v15 ((fun x v => Host.reduceAdd x v reducesTo_S16384x1x128_S16384x1_d2 h_S_) : (⟨S16384x1x128, .f32⟩ : BufTy).Contents (Elt F) → (⟨S_, .f32⟩ : BufTy).Contents (Elt F) → (⟨S16384x1, .f32⟩ : BufTy).Contents (Elt F)),
    nullary main_cst_0 (constant S_ .f32 0x41400000#32),
    unary main_cst_0 main_v16 (broadcastInDim S16384x1 ![] bcast_S_S16384x1 : (⟨S_, .f32⟩ : BufTy).Contents (Elt F) → (⟨S16384x1, .f32⟩ : BufTy).Contents (Elt F)),
    binary main_v16 main_v15 main_v17 (subf : (⟨S16384x1, .f32⟩ : BufTy).Contents (Elt F) → (⟨S16384x1, .f32⟩ : BufTy).Contents (Elt F) → (⟨S16384x1, .f32⟩ : BufTy).Contents (Elt F)) ]

-- the comparison descends once per step of the chain
set_option maxRecDepth 4096 in
/-- @main is that straight line: with the outlined functions' definitions unfolded at their calls and the sequencing
    grafted through (a program is a tree of steps, and sequencing two programs grafts the second onto the first's leaves),
    both sides are the same chain of 86 steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    binary_bufs_sub .., binary_bufs_sub .., unary_bufs_sub .., nullary_bufs_sub .., binary_bufs_sub .., nullary_bufs_sub ..,
    unary_bufs_sub .., binary_bufs_sub ..⟩

/-- At the compiled mesh, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefRun

end
-- ==== Proof.RefTerm.lean ====
/-
  What the reference computes, as one term of its three arguments' contents.

  `column k` is column k of the sample array as a vector: the slice [0:16384, k:k+1], reshaped to rank 1. `take tbl idx` is the
  table lookup that indexing an array by a vector of integers lowers to: an index below zero has the table height added (`wrap`), the index is made a column
  (`asCol`) and tested against [0, 99999] (`inRange`: the two comparisons' conjunction, reduced along the unit axis), the rows are
  gathered at it (the gather clamps its start index into the table), and where the test failed the row is replaced by the NaN
  pattern. `up` puts a unit axis in the middle. `out` is 12 minus the sum along the last axis, from the constant zero, of
  |up(take ent (column 0)) + (up(take rel (column 1)) - up(take ent (column 2)))|.
-/
import proofs.«209583_g49984829390938_cont_8to1c4_457_35_alg».proof.Proof.Gen.ReferenceIdeal

noncomputable section

namespace Cert.Proof.RefTerm

open Cert.ReferenceIdeal Cert.ReferenceIdeal.Gen
open Idealize.ShloMosaic

variable {F : FTy → Type} [FloatOps F]

/-- Column 0 of the sample array, as a vector. -/
def column0 (sample : IVec S16384x3 32) : IVec S16384 32 :=
  shapeCast S16384 (extractStridedSlice S16384x1 ![0, 0] sample slices_S16384x3_S16384x1_0_0) shapeCasts_S16384x1_S16384
/-- Column 1 of the sample array, as a vector. -/
def column1 (sample : IVec S16384x3 32) : IVec S16384 32 :=
  shapeCast S16384 (extractStridedSlice S16384x1 ![0, 1] sample slices_S16384x3_S16384x1_0_1) shapeCasts_S16384x1_S16384
/-- Column 2 of the sample array, as a vector. -/
def column2 (sample : IVec S16384x3 32) : IVec S16384 32 :=
  shapeCast S16384 (extractStridedSlice S16384x1 ![0, 2] sample slices_S16384x3_S16384x1_0_2) shapeCasts_S16384x1_S16384

/-- A negative index counts from the end of the table: the word plus 100000 where it is below zero signed, else the word. -/
def wrap (idx : IVec S16384 32) : IVec S16384 32 :=
  select (cmpi .slt idx (broadcastInDim S16384 ![] bcast_S_S16384 (constantI S_ 32 0#32)))
    (addi idx (broadcastInDim S16384 ![] bcast_S_S16384 (constantI S_ 32 100000#32))) idx

/-- The indices as a column: one start index per row. -/
def asCol (w : IVec S16384 32) : IVec S16384x1 32 := broadcastInDim S16384x1 ![0] bcast_S16384_S16384x1_0 w

/-- The range test per row: 0 ≤ index and index ≤ 99999, signed, and-reduced along the unit axis from 1. -/
def inRange (w : IVec S16384x1 32) : IVec S16384 1 :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The lookup: the table's rows gathered at the wrapped indices, the NaN pattern where an index is out of range. -/
def take (tbl : FVec F S100000x128 .f32) (idx : IVec S16384 32) : FVec F S16384x128 .f32 :=
  select (broadcastInDim S16384x128 ![0] bcast_S16384_S16384x128_0 (inRange (asCol (wrap idx))))
    (Host.gather gather_S100000x128_S16384x1_S16384x128_1_0_n_n_0_1_1128 tbl (asCol (wrap idx)))
    (broadcastInDim S16384x128 ![] bcast_S_S16384x128 (constant S_ .f32 0x7FC00000#32))

/-- A unit axis in the middle: [16384, 128] as [16384, 1, 128]. -/
def up (x : FVec F S16384x128 .f32) : FVec F S16384x1x128 .f32 :=
  broadcastInDim S16384x1x128 ![0, 2] bcast_S16384x128_S16384x1x128_0_2 x

/-- The reference's result of the three arguments' contents. -/
def out (sample : IVec S16384x3 32) (ent rel : FVec F S100000x128 .f32) : FVec F S16384x1 .f32 :=
  subf (broadcastInDim S16384x1 ![] bcast_S_S16384x1 (constant S_ .f32 0x41400000#32))
    (Host.reduceAdd
      (Host.absf (addf (up (take ent (column0 sample))) (subf (up (take rel (column1 sample))) (up (take ent (column2 sample))))))
      (constant S_ .f32 0x00000000#32) reducesTo_S16384x1x128_S16384x1_d2 h_S_)

end Cert.Proof.RefTerm

end
-- ==== Proof.RefOut.lean ====
/-
  The reference's run read at its result and at its arguments.

  The run's fold over the launch contents, read at the result buffer, is the reference's term of the argument buffers' contents,
  and read at an argument buffer it is what was there: both by unfolding the fold, each operation's result deciding whether
  the buffer read is the one it writes.
-/
import proofs.«209583_g49984829390938_cont_8to1c4_457_35_alg».proof.Proof.RefRun
import proofs.«209583_g49984829390938_cont_8to1c4_457_35_alg».proof.Proof.RefTerm

noncomputable section

namespace Cert.Proof.RefOut

open Cert.ReferenceIdeal Cert.ReferenceIdeal.Gen Cert.Proof.RefRun Cert.Proof.RefTerm
open Idealize.ShloMosaic Idealize.ShloMosaic.TcCoe Idealize.SL.Sem Idealize.ShloMosaic.StableHlo

variable {F : FTy → Type} [FloatOps F]

attribute [local irreducible] Host.reduce Host.gather Host.reduceAdd in
set_option maxRecDepth 8192 in
set_option maxHeartbeats 1000000 in
/-- The fold at the result buffer is `out` of the argument buffers' contents, by computation. The reductions and the gather are
    kept folded meanwhile: the equation never looks inside them. -/
theorem out_eq (V : Valuation τ sig (Elt F)) :
    after ops V (main_v17 : DevRef τ sig)
      = out (V (main_arg0 : DevRef τ sig)) (V (main_arg1 : DevRef τ sig)) (V (main_arg2 : DevRef τ sig)) := by
  after_results_simp
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

end Cert.Proof.RefOut

end
-- ==== Proof.RefValue.lean ====
/-
  The reference's term is the score, under the precondition's range of the sample words.

  Read at the result index (a, 0): the broadcast constant is the margin; the sum along the last axis from the zero constant
  is 0 + Σ_k of the summand at (a, 0, k); the summand is |x + (y - z)| with x, y, z the three looked-up rows at column k (the
  middle unit axis is dropped). A lookup at a word w with 0 ≤ w ≤ 99999: the wrap of negative indices leaves w (it is not
  below zero), the range test is 1 at every row (both comparisons hold of every word, so the reduction by "and" from 1 over
  any set of them is 1), so the NaN fill is never selected, and the gather reads the table at the start index w read signed
  and clamped to the last row, which is row w. Column k of the sample at row a is the sample's entry (a, k).
-/
import proofs.«209583_g49984829390938_cont_8to1c4_457_35_alg».proof.Proof.RefTerm
import proofs.«209583_g49984829390938_cont_8to1c4_457_35_alg».proof.Proof.Score
import Idealize.ShloMosaic.Lib.IdealHost
import Idealize.ShloMosaic.Lib.Pipeline.Value

noncomputable section

open scoped BigOperators

namespace Cert.Proof.RefValue

open Cert.ReferenceIdeal Cert.ReferenceIdeal.Gen Cert.Proof.RefTerm
open Idealize.ShloMosaic Idealize.ShloMosaic.ValueIdx

variable {F : FTy → Type} [FloatOps F]

/-! ## Words -/

/-- A 32-bit word below 100000 as a natural number is that number as a signed integer. -/
theorem toInt_of_lt {w : BitVec 32} (h : w.toNat < 100000) : w.toInt = (w.toNat : Int) := by
  rw [BitVec.toInt_eq_toNat_cond]
  split <;> omega

/-- A left fold by "and" from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (by simp)
    have e : IntOp.andi 1#1 1#1 = 1#1 := by decide
    rw [List.foldl_cons, ha, e]
    exact foldl_andi_one f l (fun n hn => h n (List.mem_cons_of_mem _ hn))

/-! ## The sample's columns -/

/-- Column 0 of the sample array at row a is the sample's entry (a, 0). -/
theorem column0_apply (sample : IVec S16384x3 32) (a : Fin 16384) :
    column0 sample (ix1 a) = sample (ix2 a (0 : Fin 3)) := by
  unfold column0
  rw [shapeCast_apply _ _ (ix1 a) (ix2 a (0 : Fin 1))
    (by rw [Shape.rowMajor_val_two, Shape.rowMajor_val_one]; show a.val * 1 + 0 = a.val; omega)]
  exact extractStridedSlice_apply _ sample _ (ix2 a (0 : Fin 1)) (ix2 a (0 : Fin 3))
    (fun a' => match a' with
      | ⟨0, _⟩ => by show a.val = 0 + a.val; omega
      | ⟨1, _⟩ => by show 0 = 0 + 0; rfl)

/-- Column 1 of the sample array at row a is the sample's entry (a, 1). -/
theorem column1_apply (sample : IVec S16384x3 32) (a : Fin 16384) :
    column1 sample (ix1 a) = sample (ix2 a (1 : Fin 3)) := by
  unfold column1
  rw [shapeCast_apply _ _ (ix1 a) (ix2 a (0 : Fin 1))
    (by rw [Shape.rowMajor_val_two, Shape.rowMajor_val_one]; show a.val * 1 + 0 = a.val; omega)]
  exact extractStridedSlice_apply _ sample _ (ix2 a (0 : Fin 1)) (ix2 a (1 : Fin 3))
    (fun a' => match a' with
      | ⟨0, _⟩ => by show a.val = 0 + a.val; omega
      | ⟨1, _⟩ => by show 1 = 1 + 0; rfl)

/-- Column 2 of the sample array at row a is the sample's entry (a, 2). -/
theorem column2_apply (sample : IVec S16384x3 32) (a : Fin 16384) :
    column2 sample (ix1 a) = sample (ix2 a (2 : Fin 3)) := by
  unfold column2
  rw [shapeCast_apply _ _ (ix1 a) (ix2 a (0 : Fin 1))
    (by rw [Shape.rowMajor_val_two, Shape.rowMajor_val_one]; show a.val * 1 + 0 = a.val; omega)]
  exact extractStridedSlice_apply _ sample _ (ix2 a (0 : Fin 1)) (ix2 a (2 : Fin 3))
    (fun a' => match a' with
      | ⟨0, _⟩ => by show a.val = 0 + a.val; omega
      | ⟨1, _⟩ => by show 2 = 2 + 0; rfl)

/-! ## The lookup -/

/-- The wrap of negative indices leaves a word below 100000 alone: it is not below zero read signed. -/
theorem wrap_apply (idx : IVec S16384 32) (i : S16384.Idx) (h : (idx i).toNat < 100000) : wrap idx i = idx i := by
  have hn : ¬IntOp.cmpi .slt (idx i) 0#32 = 1#1 := by
    rw [IntOp.cmpi_slt, toInt_of_lt h]
    have e0 : (0#32 : BitVec 32).toInt = 0 := by decide
    rw [e0]
    omega
  show Scalar.select (IntOp.cmpi .slt (idx i) 0#32) (IntOp.addi (idx i) 100000#32) (idx i) = idx i
  rw [eq_zero_of_ne_one hn, select_zero]

/-- The indices as a column, at (a, b), are the index of row a. -/
theorem asCol_apply (w : IVec S16384 32) (a : Fin 16384) (b : Fin 1) : asCol w (ix2 a b) = w (ix1 a) := by
  unfold asCol
  exact broadcastInDim_apply _ _ w (ix2 a b) (ix1 a) (fun a' => match a' with | ⟨0, _⟩ => rfl)

/-- The range test is 1 at every row when every index is below 100000 as a natural number. -/
theorem inRange_apply (w : IVec S16384x1 32) (hw : ∀ n, (w n).toNat < 100000) (j : S16384.Idx) : inRange w j = 1#1 := by
  unfold inRange
  rw [Host.reduce_eq_foldl]
  refine foldl_andi_one _ _ (fun n _ => ?_)
  show IntOp.andi (IntOp.cmpi .sge (w n) 0#32) (IntOp.cmpi .sle (w n) 99999#32) = 1#1
  have e0 : (0#32 : BitVec 32).toInt = 0 := by decide
  have e1 : (99999#32 : BitVec 32).toInt = 99999 := by decide
  have hn := hw n
  rw [IntOp.andi_eq_one, IntOp.cmpi_sge, IntOp.cmpi_sle, toInt_of_lt hn, e0, e1]
  constructor <;> omega

/-- The gather at (a, c): the table at the row its start index names — the word at (a, 0) read signed and clamped to the last
    row — and column c. Axis 0 of the table is the collapsed axis the start index addresses; axis 1 is the offset axis. -/
theorem gather_apply {α : Type} (x : S100000x128.Idx → α) (idx : IVec S16384x1 32) (a : Fin 16384) (c : Fin 128) :
    Host.gather gather_S100000x128_S16384x1_S16384x128_1_0_n_n_0_1_1128 x idx (ix2 a c)
      = x (ix2 (⟨min (idx (ix2 a (0 : Fin 1))).toInt.toNat 99999, by omega⟩ : Fin 100000) c) := by
  -- the row coordinate: the clamped start, nothing from batching, nothing from the offset (the axis is collapsed)
  have e0 : gather_S100000x128_S16384x1_S16384x128_1_0_n_n_0_1_1128.start (ix2 a c) idx (0 : Fin 2) + gather_S100000x128_S16384x1_S16384x128_1_0_n_n_0_1_1128.batchCoord (ix2 a c) (0 : Fin 2)
      + gather_S100000x128_S16384x1_S16384x128_1_0_n_n_0_1_1128.offCoord (ix2 a c) (0 : Fin 2) = min (idx (ix2 a (0 : Fin 1))).toInt.toNat 99999 := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S16384x1_S16384x128_1_0_n_n_0_1_1128.startIndexMap from List.mem_singleton.mpr rfl)]
    have hsi : gather_S100000x128_S16384x1_S16384x128_1_0_n_n_0_1_1128.siIdx (ix2 a c) ⟨List.idxOf (0 : Fin 2) gather_S100000x128_S16384x1_S16384x128_1_0_n_n_0_1_1128.startIndexMap,
        List.idxOf_lt_length_iff.2 (List.mem_singleton.mpr rfl)⟩ = ix2 a (0 : Fin 1) := by
      funext b
      refine Fin.ext ?_
      match b with
      | ⟨0, _⟩ => rfl
      | ⟨1, _⟩ => rfl
    rw [hsi]
    rfl
  -- the column coordinate: no start (the start index does not address the axis), nothing from batching, the offset c
  have e1 : gather_S100000x128_S16384x1_S16384x128_1_0_n_n_0_1_1128.start (ix2 a c) idx (1 : Fin 2) + gather_S100000x128_S16384x1_S16384x128_1_0_n_n_0_1_1128.batchCoord (ix2 a c) (1 : Fin 2)
      + gather_S100000x128_S16384x1_S16384x128_1_0_n_n_0_1_1128.offCoord (ix2 a c) (1 : Fin 2) = c.val := by
    rw [GatherDims.batchCoord_eq_zero _ _ _ List.not_mem_nil]
    unfold GatherDims.start
    rw [dif_neg (show (1 : Fin 2) ∉ gather_S100000x128_S16384x1_S16384x128_1_0_n_n_0_1_1128.startIndexMap by decide)]
    unfold GatherDims.offCoord
    rw [dif_pos (show (1 : Fin 2) ∈ gather_S100000x128_S16384x1_S16384x128_1_0_n_n_0_1_1128.sKept by decide)]
    simp only [Nat.zero_add, Nat.add_zero]
    rfl
  unfold Host.gather
  refine congrArg x (funext fun d => Fin.ext ?_)
  match d with
  | ⟨0, _⟩ => exact e0
  | ⟨1, _⟩ => exact e1

/-- The lookup at (a, c) when every index is below 100000: the table at the row the index names, column c. -/
theorem take_apply (tbl : FVec F S100000x128 .f32) (idx : IVec S16384 32) (hidx : ∀ i, (idx i).toNat < 100000)
    (a : Fin 16384) (c : Fin 128) : take tbl idx (ix2 a c) = tbl (ix2 (Cert.Score.rowIx (idx (ix1 a))) c) := by
  have hw : ∀ n, (asCol (wrap idx) n).toNat < 100000 := by
    intro n
    obtain ⟨p, q, rfl⟩ : ∃ (p : Fin 16384) (q : Fin 1), n = ix2 p q := ⟨n 0, n 1, eq_ix2 n⟩
    rw [asCol_apply, wrap_apply idx _ (hidx _)]
    exact hidx _
  unfold take
  rw [select_apply, broadcastInDim_apply _ bcast_S16384_S16384x128_0 (inRange (asCol (wrap idx))) (ix2 a c) (ix1 a)
      (fun a' => match a' with | ⟨0, _⟩ => rfl),
    inRange_apply _ hw, select_one, gather_apply]
  refine congrArg (fun r : Fin 100000 => tbl (ix2 r c)) (Fin.ext ?_)
  show min (asCol (wrap idx) (ix2 a (0 : Fin 1))).toInt.toNat 99999 = min (idx (ix1 a)).toNat 99999
  rw [asCol_apply, wrap_apply idx _ (hidx _), toInt_of_lt (hidx _), Int.toNat_natCast]

/-- The unit axis in the middle is dropped when reading. -/
theorem up_apply (x : FVec F S16384x128 .f32) (a : Fin 16384) (b : Fin 1) (c : Fin 128) : up x (ix3 a b c) = x (ix2 a c) := by
  unfold up
  exact broadcastInDim_apply _ _ x (ix3 a b c) (ix2 a c) (fun a' => match a' with | ⟨0, _⟩ => rfl | ⟨1, _⟩ => rfl)

/-! ## The sum and the score -/

/-- The absolute value at the ideal instance, at an index: max x (-x). -/
theorem hostAbsf_apply {s : Shape} {φ : FTy} (x : FVec Ideal s φ) (i : s.Idx) : Host.absf x i = max (x i) (-(x i)) := rfl

/-- The reduction's shape fact in the form that names the inserted index. -/
theorem reduces : S16384x1x128.Reduces [2] S16384x1 := by decide

/-- The result index (a, b) with k inserted on the summed axis is (a, b, k). -/
theorem lift_eq (a : Fin 16384) (b : Fin 1) (k : Fin 128) : reduces.lift (ix2 a b) k = ix3 a b k := by
  funext d
  match d with
  | ⟨0, _⟩ => exact Fin.ext rfl
  | ⟨1, _⟩ => exact Fin.ext rfl
  | ⟨2, _⟩ => exact Fin.ext rfl

/-- The sum along the last axis from the zero constant, at (a, b): the sum over k of the operand at (a, b, k); the
    extended reals' 0 + x is x. -/
theorem sum_apply (X : FVec Ideal S16384x1x128 .f32) (a : Fin 16384) (b : Fin 1) :
    Host.reduceAdd X (constant S_ .f32 0x00000000#32) reducesTo_S16384x1x128_S16384x1_d2 h_S_ (ix2 a b)
      = ∑ k : Fin 128, X (ix3 a b k) := by
  rw [hostReduceAdd_apply, constant_apply, Ideal.hostReduceAdd_single _ reduces, Ideal.ofBits_zero_f32, zero_add]
  exact Finset.sum_congr rfl (fun k _ => congrArg X (lift_eq a b k))

/-- THE VALUE: under the range of the sample words the reference's term is the score. -/
theorem out_eq_score (sample : IVec S16384x3 32) (ent rel : FVec Ideal S100000x128 .f32)
    (hs : ∀ i, (sample i).toNat < 100000) : out (F := Ideal) sample ent rel = Cert.Score.score sample ent rel := by
  have h0 : ∀ i, (column0 sample i).toNat < 100000 := fun i => by
    obtain ⟨p, rfl⟩ : ∃ p : Fin 16384, i = ix1 p := ⟨i 0, eq_ix1 i⟩
    rw [column0_apply]; exact hs _
  have h1 : ∀ i, (column1 sample i).toNat < 100000 := fun i => by
    obtain ⟨p, rfl⟩ : ∃ p : Fin 16384, i = ix1 p := ⟨i 0, eq_ix1 i⟩
    rw [column1_apply]; exact hs _
  have h2 : ∀ i, (column2 sample i).toNat < 100000 := fun i => by
    obtain ⟨p, rfl⟩ : ∃ p : Fin 16384, i = ix1 p := ⟨i 0, eq_ix1 i⟩
    rw [column2_apply]; exact hs _
  funext j
  obtain ⟨a, b, rfl⟩ : ∃ (a : Fin 16384) (b : Fin 1), j = ix2 a b := ⟨j 0, j 1, eq_ix2 j⟩
  unfold out
  rw [subf_apply, broadcastInDim_scalar_apply, constant_apply, sum_apply]
  show Cert.Score.gamma - _ = Cert.Score.gamma - Cert.Score.dist sample ent rel a
  refine congrArg (fun z : EReal => Cert.Score.gamma - z) ?_
  unfold Cert.Score.dist
  refine Finset.sum_congr rfl (fun k _ => ?_)
  rw [hostAbsf_apply, addf_apply, subf_apply, up_apply, up_apply, up_apply,
    take_apply ent _ h0, take_apply rel _ h1, take_apply ent _ h2, column0_apply, column1_apply, column2_apply]
  rfl

end Cert.Proof.RefValue

end
-- ==== Proof.RefSide.lean ====
/-
  The reference's side of the claim: its run with the result named.

  Every weakly fair execution of the reference's @main terminates; each buffer ends at the fold of the 86 operations over the
  launch contents. Read at the result buffer the fold is the reference's term of the three argument arrays, which under the
  precondition (every sample word names a table row) is the score of those arrays; read at an argument buffer it is what was
  there. Dropping the value gives the frame.
-/
import proofs.«209583_g49984829390938_cont_8to1c4_457_35_alg».proof.Defs
import proofs.«209583_g49984829390938_cont_8to1c4_457_35_alg».proof.Proof.Gen.ReferenceIdeal
import proofs.«209583_g49984829390938_cont_8to1c4_457_35_alg».proof.Proof.Gen.Pre_input_domain
import proofs.«209583_g49984829390938_cont_8to1c4_457_35_alg».proof.Proof.Score
import proofs.«209583_g49984829390938_cont_8to1c4_457_35_alg».proof.Proof.PreRange
import proofs.«209583_g49984829390938_cont_8to1c4_457_35_alg».proof.Proof.RefRun
import proofs.«209583_g49984829390938_cont_8to1c4_457_35_alg».proof.Proof.RefOut
import proofs.«209583_g49984829390938_cont_8to1c4_457_35_alg».proof.Proof.RefValue

noncomputable section

namespace Cert.Proof.RefSide

open Idealize.ShloMosaic Idealize.SL.Sem Idealize.ShloMosaic.TcCoe

/-- The reference's run with its result named: under the precondition the result array is the score of the arguments, and
    the arguments end unchanged. -/
theorem run_score
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v17)
            = Cert.Score.score (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine (θ_run Cert.ReferenceIdeal.defs _ _).mono
    (fun _ h c => ⟨((h c Cert.ReferenceIdeal.main_v17).trans (RefOut.out_eq _)).trans ?_,
      (h c Cert.ReferenceIdeal.main_arg0).trans (RefOut.arg0_eq _),
      (h c Cert.ReferenceIdeal.main_arg1).trans (RefOut.arg1_eq _),
      (h c Cert.ReferenceIdeal.main_arg2).trans (RefOut.arg2_eq _)⟩)
    (RefRun.run_main (F := Ideal) m' g')
  exact RefValue.out_eq_score _ _ _ (PreRange.sample_lt _ _ _ (hpre c))

/-- The reference runs and its argument arrays end unchanged: the run read at its arguments. -/
theorem frame_ri : Cert.frame_ReferenceIdeal (hReferenceIdeal := Cert.ReferenceIdeal.Gen.facts)
    (hPre_input_domain := Cert.Pre_input_domain.Gen.facts) := by
  intro m g _
  exact (θ_run Cert.ReferenceIdeal.defs _ _).mono
    (fun _ h c => ⟨(h c Cert.ReferenceIdeal.main_arg0).trans (RefOut.arg0_eq _),
      (h c Cert.ReferenceIdeal.main_arg1).trans (RefOut.arg1_eq _),
      (h c Cert.ReferenceIdeal.main_arg2).trans (RefOut.arg2_eq _)⟩)
    (RefRun.run_main (F := Ideal) m g)

end Cert.Proof.RefSide

end
-- ==== Proof.Assemble.lean ====
/-
  The claim's conjuncts from the programs' runs.

  Each kernel program's run ends with the result at the kernel's sums and the three arguments unchanged; a frame is that run
  with the result dropped. At the extended reals the kernel's sums are the score the reference computes of the same
  arguments, so from memories that agree on the arguments the two results are equal, the precondition of the reference being
  the kernel's read through the agreement. The idealization rewrote nothing, so it preserves the kernel trivially.
-/
import proofs.«209583_g49984829390938_cont_8to1c4_457_35_alg».proof.Defs
import proofs.«209583_g49984829390938_cont_8to1c4_457_35_alg».proof.Proof.KI.Launch
import proofs.«209583_g49984829390938_cont_8to1c4_457_35_alg».proof.Proof.KI.Algebra
import proofs.«209583_g49984829390938_cont_8to1c4_457_35_alg».proof.Proof.KB.Launch
import proofs.«209583_g49984829390938_cont_8to1c4_457_35_alg».proof.Proof.Gen.ReferenceIdeal
import proofs.«209583_g49984829390938_cont_8to1c4_457_35_alg».proof.Proof.Gen.Pre_input_domain
import proofs.«209583_g49984829390938_cont_8to1c4_457_35_alg».proof.Proof.RefSide

noncomputable section

namespace Cert.Proof.Assemble

open Idealize.ShloMosaic Idealize.SL.Sem

/-- The kernel as printed runs and leaves its arguments unchanged. -/
theorem frame_k (htile : ∀ m, Cert.Pre_Kernel m →
      (Cert.Proof.KB.K (F := Bits)).TileObl (Cert.Proof.KB.D (F := Bits)) Cert.Proof.KB.𝒱 (Cert.Proof.KB.P m) Cert.Proof.KB.v₀ 0) :
    Cert.frame_Kernel := fun m g hpre =>
  (θ_run (Cert.Kernel.defs (F := Bits)) _ _).mono (fun _ h c => ⟨(h c).2.1, (h c).2.2.1, (h c).2.2.2⟩)
    (Cert.Proof.KB.run_main (F := Bits) m g (htile m hpre))

/-- The idealized kernel runs and leaves its arguments unchanged. -/
theorem frame_ki (htile : ∀ m, Cert.Pre_KernelIdeal m →
      (Cert.Proof.KI.K (F := Ideal)).TileObl (Cert.Proof.KI.D (F := Ideal)) Cert.Proof.KI.𝒱 (Cert.Proof.KI.P m) Cert.Proof.KI.v₀ 0) :
    Cert.frame_KernelIdeal := fun m g hpre =>
  (θ_run (Cert.KernelIdeal.defs (F := Ideal)) _ _).mono (fun _ h c => ⟨(h c).2.1, (h c).2.2.1, (h c).2.2.2⟩)
    (Cert.Proof.KI.run_main (F := Ideal) m g (htile m hpre))

/-- The idealization rewrote no operation. -/
theorem preserves : Cert.preserves_Kernel_KernelIdeal := trivial

/-- From memories agreeing on the arguments the idealized kernel and the idealized reference end with equal results. -/
theorem algebraic (htile : ∀ m, Cert.Pre_KernelIdeal m →
      (Cert.Proof.KI.K (F := Ideal)).TileObl (Cert.Proof.KI.D (F := Ideal)) Cert.Proof.KI.𝒱 (Cert.Proof.KI.P m) Cert.Proof.KI.v₀ 0) :
    Cert.algebraic_KernelIdeal_ReferenceIdeal := by
  intro m g m' g' hpre hag
  refine ⟨fun c => Cert.Proof.KI.resOf m c, ?_, ?_⟩
  · exact (θ_run (Cert.KernelIdeal.defs (F := Ideal)) _ _).mono (fun _ h c => h c)
      (Cert.Proof.KI.run_main (F := Ideal) m g (htile m hpre))
  · have hpre' : Cert.Pre_ReferenceIdeal m' := by
      intro c
      rw [(hag c).1, (hag c).2.1, (hag c).2.2]
      exact hpre c
    refine (θ_run (Cert.ReferenceIdeal.defs (F := Ideal)) _ _).mono (fun r h c => ?_) (Cert.Proof.RefSide.run_score m' g' hpre')
    obtain ⟨h17, h0, h1, h2⟩ := h c
    refine ⟨?_, h0, h1, h2⟩
    rw [h17, (hag c).1, (hag c).2.1, (hag c).2.2]
    exact (Cert.Proof.KI.resOf_eq_score m c).symm

/-- The whole claim, from the vector subcores' task proved for each of the two kernel programs. -/
theorem claim_of
    (htileB : ∀ m, Cert.Pre_Kernel m →
      (Cert.Proof.KB.K (F := Bits)).TileObl (Cert.Proof.KB.D (F := Bits)) Cert.Proof.KB.𝒱 (Cert.Proof.KB.P m) Cert.Proof.KB.v₀ 0)
    (htileI : ∀ m, Cert.Pre_KernelIdeal m →
      (Cert.Proof.KI.K (F := Ideal)).TileObl (Cert.Proof.KI.D (F := Ideal)) Cert.Proof.KI.𝒱 (Cert.Proof.KI.P m) Cert.Proof.KI.v₀ 0) :
    Cert.Claim :=
  ⟨Cert.Kernel.Gen.facts, Cert.KernelIdeal.Gen.facts, Cert.ReferenceIdeal.Gen.facts, Cert.Pre_input_domain.Gen.facts,
    frame_k htileB, frame_ki htileI, Cert.Proof.RefSide.frame_ri, preserves, algebraic htileI⟩

end Cert.Proof.Assemble

end
-- ==== Proof.KI.TileRes.lean ====
/-
  A vector subcore's view of its resources: the worker number of a grid point, the 512-row slices of the index columns
  and of the score vector spelt as the body slices them (offset 1024·s + 512·c, which is 512·(2s + c)), and what the
  subcore owns for the kernel: its eight scratch arrays and its 26 DMA semaphores.
-/
import proofs.«209583_g49984829390938_cont_8to1c4_457_35_alg».proof.Proof.KI.Pay

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number of the subcore at grid coordinates `L`. -/
abbrev tL (L : grid0.Coords) : Fin 32 := tid (Fin.cast bound_zero (L 0)) (Fin.cast bound_one (L 1))

/-- The body's slice offset at every grid point: 1024·s + 512·c = 512·(2s + c). -/
theorem off1_tile : ∀ L : grid0.Coords, k0_off1 L = ![512 * (tL L).val] := by decide +kernel

/-- The body's slice rectangle is worker `tL L`'s rows. -/
theorem rect_eq : Rect.unit (s := S16384) (k0_off1 L) S512.size (k0_off1_inb L) = tileRect (tL L) := by
  unfold tileRect Rect.part Rect.block
  congr 1 <;> funext a
  · rw [off1_tile]
    obtain rfl : a = 0 := Subsingleton.elim _ _
    simp [Shape.partIx, Shape.partSize]
    try omega
  · obtain rfl : a = 0 := Subsingleton.elim _ _
    simp [Shape.partSize]

abbrev hSl (L : grid0.Coords) : Memref sig .scVector .hbm S512 .i32 :=
  (Memref.whole main_v1_scv : Memref sig .scVector .hbm S16384 .i32).slice (Rect.unit (s := S16384) (k0_off1 L) S512.size (k0_off1_inb L)) (fun _ => rfl)
abbrev rSl (L : grid0.Coords) : Memref sig .scVector .hbm S512 .i32 :=
  (Memref.whole main_v3_scv : Memref sig .scVector .hbm S16384 .i32).slice (Rect.unit (s := S16384) (k0_off1 L) S512.size (k0_off1_inb L)) (fun _ => rfl)
abbrev tSl (L : grid0.Coords) : Memref sig .scVector .hbm S512 .i32 :=
  (Memref.whole main_v5_scv : Memref sig .scVector .hbm S16384 .i32).slice (Rect.unit (s := S16384) (k0_off1 L) S512.size (k0_off1_inb L)) (fun _ => rfl)
abbrev oSl (L : grid0.Coords) : Memref sig .scVector .hbm S512 .f32 :=
  (Memref.whole main_v6_scv : Memref sig .scVector .hbm S16384 .f32).slice (Rect.unit (s := S16384) (k0_off1 L) S512.size (k0_off1_inb L)) (fun _ => rfl)

theorem set_hSl : (hSl L).view.set = tileSet (tL L) := by
  show ((Memref.whole main_v1_scv : Memref sig .scVector .hbm S16384 .i32).view.slice (Rect.unit (s := S16384) (k0_off1 L) S512.size (k0_off1_inb L))).set
    = ((Memref.whole main_v6_scv : Memref sig .scVector .hbm S16384 .f32).view.slice (tileRect (tL L))).set
  exact rect_eq L ▸ rfl
theorem set_rSl : (rSl L).view.set = tileSet (tL L) := by
  show ((Memref.whole main_v3_scv : Memref sig .scVector .hbm S16384 .i32).view.slice (Rect.unit (s := S16384) (k0_off1 L) S512.size (k0_off1_inb L))).set
    = ((Memref.whole main_v6_scv : Memref sig .scVector .hbm S16384 .f32).view.slice (tileRect (tL L))).set
  exact rect_eq L ▸ rfl
theorem set_tSl : (tSl L).view.set = tileSet (tL L) := by
  show ((Memref.whole main_v5_scv : Memref sig .scVector .hbm S16384 .i32).view.slice (Rect.unit (s := S16384) (k0_off1 L) S512.size (k0_off1_inb L))).set
    = ((Memref.whole main_v6_scv : Memref sig .scVector .hbm S16384 .f32).view.slice (tileRect (tL L))).set
  exact rect_eq L ▸ rfl
theorem set_oSl : (oSl L).view.set = tileSet (tL L) := by
  show ((Memref.whole main_v6_scv : Memref sig .scVector .hbm S16384 .f32).view.slice (Rect.unit (s := S16384) (k0_off1 L) S512.size (k0_off1_inb L))).set
    = ((Memref.whole main_v6_scv : Memref sig .scVector .hbm S16384 .f32).view.slice (tileRect (tL L))).set
  exact rect_eq L ▸ rfl

theorem pts_hSl (f : Buf (Elt F) (hLoc d)) :
    ((hSl L).view.loc (V d (cV L) (jV L)) ↦[(hSl L).view.set]{fullShare} f : sProp 𝕄) = hLoc d ↦[tileSet (tL L)]{fullShare} f := by rw [set_hSl]
theorem pts_rSl (f : Buf (Elt F) (rLoc d)) :
    ((rSl L).view.loc (V d (cV L) (jV L)) ↦[(rSl L).view.set]{fullShare} f : sProp 𝕄) = rLoc d ↦[tileSet (tL L)]{fullShare} f := by rw [set_rSl]
theorem pts_tSl (f : Buf (Elt F) (tLoc d)) :
    ((tSl L).view.loc (V d (cV L) (jV L)) ↦[(tSl L).view.set]{fullShare} f : sProp 𝕄) = tLoc d ↦[tileSet (tL L)]{fullShare} f := by rw [set_tSl]
theorem pts_oSl (f : Buf (Elt F) (outLoc d)) :
    ((oSl L).view.loc (V d (cV L) (jV L)) ↦[(oSl L).view.set]{fullShare} f : sProp 𝕄) = outLoc d ↦[tileSet (tL L)]{fullShare} f := by rw [set_oSl]

/-- A semaphore location a vector subcore scopes is one of the DMA semaphores. -/
theorem scoped_iff (sm : SemLoc sig) : sm.isScoped .scVector = true ↔ ∃ s : DmaSem sig, sm = .dma s := by
  rcases sm with s | s
  · constructor
    · intro h; revert h; revert s; decide
    · rintro ⟨s', h⟩; cases h
  · constructor
    · intro _; exact ⟨s, rfl⟩
    · intro _; revert s; decide

/-- The subcore's own cells are its 26 DMA semaphores. -/
theorem ownCells_V (c : Fin τ.nSC) (i : Fin τ.nSub) :
    ownCells (V d c i) = (Finset.univ : Finset (DmaSem sig)).image fun s => ((V d c i, SemLoc.dma s) : GSem nD τ sig) := by
  ext g
  rw [mem_ownCells, Finset.mem_image]
  constructor
  · rintro ⟨h1, h2⟩
    obtain ⟨thr, sm⟩ := g
    cases h1
    obtain ⟨s, rfl⟩ := (scoped_iff sm).mp h2
    exact ⟨s, Finset.mem_univ _, rfl⟩
  · rintro ⟨s, -, rfl⟩
    exact ⟨rfl, (scoped_iff _).mpr ⟨s, rfl⟩⟩

theorem ownSems0_V (c : Fin τ.nSC) (i : Fin τ.nSub) :
    (ownSems0 (V d c i) : sProp 𝕄) = bigSep (Finset.univ : Finset (DmaSem sig)) fun s => semVal ((V d c i, SemLoc.dma s) : GSem nD τ sig) 0 := by
  unfold SparseCore.Cfg.ownSems0
  rw [ownCells_V, SparseCore.bigSep_image_of_injOn (fun a _ b _ e => by cases e; rfl)]

end Tile
end Cert.Proof.KI
end
-- ==== Proof.KI.TileOwn.lean ====
/-
  What a vector subcore owns, item by item: its eight scratch arrays (the three index lists, the three 8×16×128 row
  buffers, the 256-word transpose scratch, the 512-word score scratch) and its 26 DMA semaphores, each at zero; and a read
  share of an array cut into 26 read tokens, one per semaphore, so that gathers completing on different semaphores may
  read the same table at the same time.
-/
import proofs.«209583_g49984829390938_cont_8to1c4_457_35_alg».proof.Proof.KI.TileRes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile
variable (d : Dev nD)

/-- The subcore's eight scratch arrays, as refs. -/
def scrRefs : Finset (Ref sig .scVector) := {cc0_scratch0, cc0_scratch1, cc0_scratch2, cc0_scratch3, cc0_scratch4, cc0_scratch5, cc0_scratch6, cc0_scratch7}
def scrDev (c : Fin τ.nSC) (i : Fin τ.nSub) : Finset (DevRef τ sig) :=
  scrRefs.map ⟨fun r => (Proc.scVector c i).devRef r, Proc.devRef_injective _⟩

theorem scrDev_sub (c : Fin τ.nSC) (i : Fin τ.nSub) : scrDev c i ⊆ ownRefs (τ := τ) (.scVector c i) := by
  intro b hb
  obtain ⟨r, hr, rfl⟩ := Finset.mem_map.mp hb
  simp only [scrRefs, Finset.mem_insert, Finset.mem_singleton] at hr
  rcases hr with rfl | rfl | rfl | rfl | rfl | rfl | rfl | rfl <;> exact SparseCore.Cfg.mem_ownRefs_of_owner rfl

abbrev scrPts (c : Fin τ.nSC) (i : Fin τ.nSub) (r : Ref sig .scVector) : sProp 𝕄 := iprop(∃ f, (V d c i).loc r ↦{fullShare} f)

/-- The subcore's own buffers: the eight scratch arrays, each at some contents, and the rest. -/
theorem ownBufs_V (c : Fin τ.nSC) (i : Fin τ.nSub) :
    (ownBufs (V d c i) : sProp 𝕄)
      = iprop((scrPts d c i cc0_scratch0 ∗ scrPts d c i cc0_scratch1 ∗ scrPts d c i cc0_scratch2 ∗ scrPts d c i cc0_scratch3 ∗ scrPts d c i cc0_scratch4
          ∗ scrPts d c i cc0_scratch5 ∗ scrPts d c i cc0_scratch6 ∗ scrPts d c i cc0_scratch7)
        ∗ bigSep (ownRefs (τ := τ) (.scVector c i) \ scrDev c i) fun b => iprop(∃ f, ((d, b) : Loc nD τ sig) ↦{fullShare} f)) := by
  unfold SparseCore.Cfg.ownBufs
  rw [SparseCore.bigSep_sdiff_split' (scrDev_sub c i)]
  congr 1
  unfold scrDev scrRefs
  rw [BI.bigSep_map]
  rw [SparseCore.bigSep_insert' (by decide +revert), SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert), bigSep_singleton]
  rfl

theorem dmaSems_univ : (Finset.univ : Finset (DmaSem sig)) = {(⟨0, by decide⟩ : DmaSem sig), (⟨1, by decide⟩ : DmaSem sig), (⟨2, by decide⟩ : DmaSem sig), (⟨3, by decide⟩ : DmaSem sig), (⟨4, by decide⟩ : DmaSem sig), (⟨5, by decide⟩ : DmaSem sig), (⟨6, by decide⟩ : DmaSem sig), (⟨7, by decide⟩ : DmaSem sig), (⟨8, by decide⟩ : DmaSem sig), (⟨9, by decide⟩ : DmaSem sig), (⟨10, by decide⟩ : DmaSem sig), (⟨11, by decide⟩ : DmaSem sig), (⟨12, by decide⟩ : DmaSem sig), (⟨13, by decide⟩ : DmaSem sig), (⟨14, by decide⟩ : DmaSem sig), (⟨15, by decide⟩ : DmaSem sig), (⟨16, by decide⟩ : DmaSem sig), (⟨17, by decide⟩ : DmaSem sig), (⟨18, by decide⟩ : DmaSem sig), (⟨19, by decide⟩ : DmaSem sig), (⟨20, by decide⟩ : DmaSem sig), (⟨21, by decide⟩ : DmaSem sig), (⟨22, by decide⟩ : DmaSem sig), (⟨23, by decide⟩ : DmaSem sig), (⟨24, by decide⟩ : DmaSem sig), (⟨25, by decide⟩ : DmaSem sig)} := by decide +revert

/-- The subcore's 26 semaphores at zero, one by one. -/
theorem ownSems0_each (c : Fin τ.nSC) (i : Fin τ.nSub) :
    (ownSems0 (V d c i) : sProp 𝕄)
      = iprop(semVal ((V d c i, SemLoc.dma (⟨0, by decide⟩ : DmaSem sig)) : GSem nD τ sig) 0
        ∗ semVal ((V d c i, SemLoc.dma (⟨1, by decide⟩ : DmaSem sig)) : GSem nD τ sig) 0
        ∗ semVal ((V d c i, SemLoc.dma (⟨2, by decide⟩ : DmaSem sig)) : GSem nD τ sig) 0
        ∗ semVal ((V d c i, SemLoc.dma (⟨3, by decide⟩ : DmaSem sig)) : GSem nD τ sig) 0
        ∗ semVal ((V d c i, SemLoc.dma (⟨4, by decide⟩ : DmaSem sig)) : GSem nD τ sig) 0
        ∗ semVal ((V d c i, SemLoc.dma (⟨5, by decide⟩ : DmaSem sig)) : GSem nD τ sig) 0
        ∗ semVal ((V d c i, SemLoc.dma (⟨6, by decide⟩ : DmaSem sig)) : GSem nD τ sig) 0
        ∗ semVal ((V d c i, SemLoc.dma (⟨7, by decide⟩ : DmaSem sig)) : GSem nD τ sig) 0
        ∗ semVal ((V d c i, SemLoc.dma (⟨8, by decide⟩ : DmaSem sig)) : GSem nD τ sig) 0
        ∗ semVal ((V d c i, SemLoc.dma (⟨9, by decide⟩ : DmaSem sig)) : GSem nD τ sig) 0
        ∗ semVal ((V d c i, SemLoc.dma (⟨10, by decide⟩ : DmaSem sig)) : GSem nD τ sig) 0
        ∗ semVal ((V d c i, SemLoc.dma (⟨11, by decide⟩ : DmaSem sig)) : GSem nD τ sig) 0
        ∗ semVal ((V d c i, SemLoc.dma (⟨12, by decide⟩ : DmaSem sig)) : GSem nD τ sig) 0
        ∗ semVal ((V d c i, SemLoc.dma (⟨13, by decide⟩ : DmaSem sig)) : GSem nD τ sig) 0
        ∗ semVal ((V d c i, SemLoc.dma (⟨14, by decide⟩ : DmaSem sig)) : GSem nD τ sig) 0
        ∗ semVal ((V d c i, SemLoc.dma (⟨15, by decide⟩ : DmaSem sig)) : GSem nD τ sig) 0
        ∗ semVal ((V d c i, SemLoc.dma (⟨16, by decide⟩ : DmaSem sig)) : GSem nD τ sig) 0
        ∗ semVal ((V d c i, SemLoc.dma (⟨17, by decide⟩ : DmaSem sig)) : GSem nD τ sig) 0
        ∗ semVal ((V d c i, SemLoc.dma (⟨18, by decide⟩ : DmaSem sig)) : GSem nD τ sig) 0
        ∗ semVal ((V d c i, SemLoc.dma (⟨19, by decide⟩ : DmaSem sig)) : GSem nD τ sig) 0
        ∗ semVal ((V d c i, SemLoc.dma (⟨20, by decide⟩ : DmaSem sig)) : GSem nD τ sig) 0
        ∗ semVal ((V d c i, SemLoc.dma (⟨21, by decide⟩ : DmaSem sig)) : GSem nD τ sig) 0
        ∗ semVal ((V d c i, SemLoc.dma (⟨22, by decide⟩ : DmaSem sig)) : GSem nD τ sig) 0
        ∗ semVal ((V d c i, SemLoc.dma (⟨23, by decide⟩ : DmaSem sig)) : GSem nD τ sig) 0
        ∗ semVal ((V d c i, SemLoc.dma (⟨24, by decide⟩ : DmaSem sig)) : GSem nD τ sig) 0
        ∗ semVal ((V d c i, SemLoc.dma (⟨25, by decide⟩ : DmaSem sig)) : GSem nD τ sig) 0) := by
  rw [ownSems0_V, dmaSems_univ]
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]

theorem fin26_univ : (Finset.univ : Finset (Fin 26)) = {(⟨0, by decide⟩ : Fin 26), (⟨1, by decide⟩ : Fin 26), (⟨2, by decide⟩ : Fin 26), (⟨3, by decide⟩ : Fin 26), (⟨4, by decide⟩ : Fin 26), (⟨5, by decide⟩ : Fin 26), (⟨6, by decide⟩ : Fin 26), (⟨7, by decide⟩ : Fin 26), (⟨8, by decide⟩ : Fin 26), (⟨9, by decide⟩ : Fin 26), (⟨10, by decide⟩ : Fin 26), (⟨11, by decide⟩ : Fin 26), (⟨12, by decide⟩ : Fin 26), (⟨13, by decide⟩ : Fin 26), (⟨14, by decide⟩ : Fin 26), (⟨15, by decide⟩ : Fin 26), (⟨16, by decide⟩ : Fin 26), (⟨17, by decide⟩ : Fin 26), (⟨18, by decide⟩ : Fin 26), (⟨19, by decide⟩ : Fin 26), (⟨20, by decide⟩ : Fin 26), (⟨21, by decide⟩ : Fin 26), (⟨22, by decide⟩ : Fin 26), (⟨23, by decide⟩ : Fin 26), (⟨24, by decide⟩ : Fin 26), (⟨25, by decide⟩ : Fin 26)} := by decide +revert

/-- A read share of an array as 26 read tokens, one per semaphore cell, and the remainder. -/
theorem toks_each {ℓ : Loc nD τ sig} (q : PosShare TreeShare) (f : Buf (Elt F) ℓ) :
    (ℓ ↦{q} f : sProp 𝕄) ⊣⊢ iprop((ℓ ↦{Transfers.shareDrop q 26} f)
        ∗ (ℓ ↦{Transfers.shareTok q 26 (⟨0, by decide⟩ : Fin 26)} f)
        ∗ (ℓ ↦{Transfers.shareTok q 26 (⟨1, by decide⟩ : Fin 26)} f)
        ∗ (ℓ ↦{Transfers.shareTok q 26 (⟨2, by decide⟩ : Fin 26)} f)
        ∗ (ℓ ↦{Transfers.shareTok q 26 (⟨3, by decide⟩ : Fin 26)} f)
        ∗ (ℓ ↦{Transfers.shareTok q 26 (⟨4, by decide⟩ : Fin 26)} f)
        ∗ (ℓ ↦{Transfers.shareTok q 26 (⟨5, by decide⟩ : Fin 26)} f)
        ∗ (ℓ ↦{Transfers.shareTok q 26 (⟨6, by decide⟩ : Fin 26)} f)
        ∗ (ℓ ↦{Transfers.shareTok q 26 (⟨7, by decide⟩ : Fin 26)} f)
        ∗ (ℓ ↦{Transfers.shareTok q 26 (⟨8, by decide⟩ : Fin 26)} f)
        ∗ (ℓ ↦{Transfers.shareTok q 26 (⟨9, by decide⟩ : Fin 26)} f)
        ∗ (ℓ ↦{Transfers.shareTok q 26 (⟨10, by decide⟩ : Fin 26)} f)
        ∗ (ℓ ↦{Transfers.shareTok q 26 (⟨11, by decide⟩ : Fin 26)} f)
        ∗ (ℓ ↦{Transfers.shareTok q 26 (⟨12, by decide⟩ : Fin 26)} f)
        ∗ (ℓ ↦{Transfers.shareTok q 26 (⟨13, by decide⟩ : Fin 26)} f)
        ∗ (ℓ ↦{Transfers.shareTok q 26 (⟨14, by decide⟩ : Fin 26)} f)
        ∗ (ℓ ↦{Transfers.shareTok q 26 (⟨15, by decide⟩ : Fin 26)} f)
        ∗ (ℓ ↦{Transfers.shareTok q 26 (⟨16, by decide⟩ : Fin 26)} f)
        ∗ (ℓ ↦{Transfers.shareTok q 26 (⟨17, by decide⟩ : Fin 26)} f)
        ∗ (ℓ ↦{Transfers.shareTok q 26 (⟨18, by decide⟩ : Fin 26)} f)
        ∗ (ℓ ↦{Transfers.shareTok q 26 (⟨19, by decide⟩ : Fin 26)} f)
        ∗ (ℓ ↦{Transfers.shareTok q 26 (⟨20, by decide⟩ : Fin 26)} f)
        ∗ (ℓ ↦{Transfers.shareTok q 26 (⟨21, by decide⟩ : Fin 26)} f)
        ∗ (ℓ ↦{Transfers.shareTok q 26 (⟨22, by decide⟩ : Fin 26)} f)
        ∗ (ℓ ↦{Transfers.shareTok q 26 (⟨23, by decide⟩ : Fin 26)} f)
        ∗ (ℓ ↦{Transfers.shareTok q 26 (⟨24, by decide⟩ : Fin 26)} f)
        ∗ (ℓ ↦{Transfers.shareTok q 26 (⟨25, by decide⟩ : Fin 26)} f)) := by
  have h := Transfers.pointsTo_toks (nD := nD) (τ := τ) (sig := sig) (Ix := HIx 1) (Val := Elt F) (Name := ℕ) (U := UU) (Lvl := ℕ) (ℓ := ℓ) (S := Finset.univ) (f := f) q 26
  rw [fin26_univ] at h
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton] at h
  exact h

end Tile
end Cert.Proof.KI
end
-- ==== Proof.KI.TileLists.lean ====
/-
  What the three index lists hold once the index copies have landed, and that every word a gather reads off them names a
  row of the tables: a list is the worker's 512 rows of one column of `sample`, whose words are all below 100000.
-/
import proofs.«209583_g49984829390938_cont_8to1c4_457_35_alg».proof.Proof.KI.TileRes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

abbrev thrL (d : Dev nD) (L : grid0.Coords) : Thread nD τ := V d (cV L) (jV L)

local notation "hidxW" => (Memref.whole Cert.KernelIdeal.cc0_scratch0 : Memref Cert.KernelIdeal.sig Kind.scVector Space.vmem Cert.KernelIdeal.S512 EltTy.i32)
local notation "ridxW" => (Memref.whole Cert.KernelIdeal.cc0_scratch1 : Memref Cert.KernelIdeal.sig Kind.scVector Space.vmem Cert.KernelIdeal.S512 EltTy.i32)
local notation "tidxW" => (Memref.whole Cert.KernelIdeal.cc0_scratch2 : Memref Cert.KernelIdeal.sig Kind.scVector Space.vmem Cert.KernelIdeal.S512 EltTy.i32)

/-- What a list scratch holds once its copy has landed. -/
abbrev landsH (f0 : Buf (Elt F) ((thrL d L).loc cc0_scratch0)) : Buf (Elt F) ((hidxW).view.loc (thrL d L)) :=
  (hidxW).view.write (Elt F) f0 (ReadAs.same.apply ((hSl L).view.read (Elt F) (col m d 0 : Buf (Elt F) (hLoc d)))) Finset.univ
abbrev landsR (f1 : Buf (Elt F) ((thrL d L).loc cc0_scratch1)) : Buf (Elt F) ((ridxW).view.loc (thrL d L)) :=
  (ridxW).view.write (Elt F) f1 (ReadAs.same.apply ((rSl L).view.read (Elt F) (col m d 1 : Buf (Elt F) (rLoc d)))) Finset.univ
abbrev landsT (f2 : Buf (Elt F) ((thrL d L).loc cc0_scratch2)) : Buf (Elt F) ((tidxW).view.loc (thrL d L)) :=
  (tidxW).view.write (Elt F) f2 (ReadAs.same.apply ((tSl L).view.read (Elt F) (col m d 2 : Buf (Elt F) (tLoc d)))) Finset.univ

/-- Every word of the three columns names a table row. -/
def RangeOK : Prop := ∀ (d : Dev nD) (k : Fin 3) (n : S16384.Idx), (col m d k n).toNat < 100000

abbrev dsem24 : DmaSem sig := ⟨24, by decide⟩

theorem hinH (hpre : RangeOK m) (f0 : Buf (Elt F) ((thrL d L).loc cc0_scratch0)) (off : Fin 1 → Nat) (h : ∀ a, off a + S16.size a ≤ S512.size a) (x : S16.Idx) :
    ((((hidxW).slice (Rect.unit (s := S512) off S16.size h) (fun _ => rfl)).view.read (Elt F) (landsH m d L f0)) x).toNat < S100000x128.size gathers_S100000x128_S16x128.axis := by
  have e : landsH m d L f0 = ReadAs.same.apply ((hSl L).view.read (Elt F) (col m d 0 : Buf (Elt F) (hLoc d))) := View.write_whole_univ _ _ _
  rw [e]
  exact hpre d 0 _

theorem hinR (hpre : RangeOK m) (f1 : Buf (Elt F) ((thrL d L).loc cc0_scratch1)) (off : Fin 1 → Nat) (h : ∀ a, off a + S16.size a ≤ S512.size a) (x : S16.Idx) :
    ((((ridxW).slice (Rect.unit (s := S512) off S16.size h) (fun _ => rfl)).view.read (Elt F) (landsR m d L f1)) x).toNat < S100000x128.size gathers_S100000x128_S16x128.axis := by
  have e : landsR m d L f1 = ReadAs.same.apply ((rSl L).view.read (Elt F) (col m d 1 : Buf (Elt F) (rLoc d))) := View.write_whole_univ _ _ _
  rw [e]
  exact hpre d 1 _

theorem hinT (hpre : RangeOK m) (f2 : Buf (Elt F) ((thrL d L).loc cc0_scratch2)) (off : Fin 1 → Nat) (h : ∀ a, off a + S16.size a ≤ S512.size a) (x : S16.Idx) :
    ((((tidxW).slice (Rect.unit (s := S512) off S16.size h) (fun _ => rfl)).view.read (Elt F) (landsT m d L f2)) x).toNat < S100000x128.size gathers_S100000x128_S16x128.axis := by
  have e : landsT m d L f2 = ReadAs.same.apply ((tSl L).view.read (Elt F) (col m d 2 : Buf (Elt F) (tLoc d))) := View.write_whole_univ _ _ _
  rw [e]
  exact hpre d 2 _

/-- The three index copies' deliveries: each list at its landed contents, each column slice back. -/
def idxDeliv (f0 : Buf (Elt F) ((thrL d L).loc cc0_scratch0)) (f1 : Buf (Elt F) ((thrL d L).loc cc0_scratch1)) (f2 : Buf (Elt F) ((thrL d L).loc cc0_scratch2))
    (w : Fin 3) : sProp 𝕄 :=
  match w with
  | 0 => iprop(((hidxW).view.loc (thrL d L) ↦{fullShare} landsH m d L f0) ∗ ((hSl L).view.loc (thrL d L) ↦[(hSl L).view.set]{fullShare} (col m d 0 : Buf (Elt F) (hLoc d))))
  | 1 => iprop(((ridxW).view.loc (thrL d L) ↦{fullShare} landsR m d L f1) ∗ ((rSl L).view.loc (thrL d L) ↦[(rSl L).view.set]{fullShare} (col m d 1 : Buf (Elt F) (rLoc d))))
  | 2 => iprop(((tidxW).view.loc (thrL d L) ↦{fullShare} landsT m d L f2) ∗ ((tSl L).view.loc (thrL d L) ↦[(tSl L).view.set]{fullShare} (col m d 2 : Buf (Elt F) (tLoc d))))

instance idxDeliv_storable (f0 : Buf (Elt F) ((thrL d L).loc cc0_scratch0)) (f1 : Buf (Elt F) ((thrL d L).loc cc0_scratch1)) (f2 : Buf (Elt F) ((thrL d L).loc cc0_scratch2))
    (w : Fin 3) : BI.Storable (upEmb : UEmb _ 𝕄) (idxDeliv m d L f0 f1 f2 w) := by
  unfold idxDeliv
  match w with
  | 0 => infer_instance
  | 1 => infer_instance
  | 2 => infer_instance

end Tile
end Cert.Proof.KI
end
-- ==== Proof.KI.Slots.lean ====
/-
  The three row buffers as eight slots of sixteen rows, the three index lists as 32 windows of sixteen words, and the
  24 gather semaphores by slot, with numeric indices: slot b < 8 of a row buffer is rows [b] × 16 × 128; window c < 32 of a
  list is words 16c … 16c + 15; table X ∈ {h, r, t} completes its slot-b gathers on semaphore base_X + b with bases 0, 8, 16.
  Chunk c (the worker's rows 16c … 16c + 15) lives in slot c mod 8 and reads window c.
-/
import proofs.«209583_g49984829390938_cont_8to1c4_457_35_alg».proof.Proof.KI.TileLists

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

local notation "hidxW" => (Memref.whole Cert.KernelIdeal.cc0_scratch0 : Memref Cert.KernelIdeal.sig Kind.scVector Space.vmem Cert.KernelIdeal.S512 EltTy.i32)
local notation "ridxW" => (Memref.whole Cert.KernelIdeal.cc0_scratch1 : Memref Cert.KernelIdeal.sig Kind.scVector Space.vmem Cert.KernelIdeal.S512 EltTy.i32)
local notation "tidxW" => (Memref.whole Cert.KernelIdeal.cc0_scratch2 : Memref Cert.KernelIdeal.sig Kind.scVector Space.vmem Cert.KernelIdeal.S512 EltTy.i32)
local notation "bufHW" => (Memref.whole Cert.KernelIdeal.cc0_scratch3 : Memref Cert.KernelIdeal.sig Kind.scVector Space.vmem Cert.KernelIdeal.S8x16x128 EltTy.f32)
local notation "bufRW" => (Memref.whole Cert.KernelIdeal.cc0_scratch4 : Memref Cert.KernelIdeal.sig Kind.scVector Space.vmem Cert.KernelIdeal.S8x16x128 EltTy.f32)
local notation "bufTW" => (Memref.whole Cert.KernelIdeal.cc0_scratch5 : Memref Cert.KernelIdeal.sig Kind.scVector Space.vmem Cert.KernelIdeal.S8x16x128 EltTy.f32)

theorem slot_inb (b : ℕ) (hb : b < 8) : ∀ a, (![b, 0, 0] : Fin 3 → Nat) a + S1x16x128.size a ≤ S8x16x128.size a := by
  intro a
  match a with
  | ⟨0, _⟩ => show b + 1 ≤ 8; omega
  | ⟨1, _⟩ => show 0 + 16 ≤ 16; omega
  | ⟨2, _⟩ => show 0 + 128 ≤ 128; omega
theorem win_inb (c : ℕ) (hc : c < 32) : ∀ a, (![16 * c] : Fin 1 → Nat) a + S16.size a ≤ S512.size a := by
  intro a
  obtain rfl : a = 0 := Subsingleton.elim _ _
  show 16 * c + 16 ≤ 512; omega
theorem sem_inb (b : ℕ) (hb : b < 8) : ∀ a, (![b] : Fin 1 → Nat) a + S1.size a ≤ S8.size a := by
  intro a
  obtain rfl : a = 0 := Subsingleton.elim _ _
  show b + 1 ≤ 8; omega

/-- Slot `b` of a row buffer, as a 16×128 memref. -/
abbrev slotOf (B : Memref sig .scVector .vmem S8x16x128 .f32) (b : ℕ) (hb : b < 8) : Memref sig .scVector .vmem S16x128 .f32 :=
  (B.slice (Rect.unit (s := S8x16x128) ![b, 0, 0] S1x16x128.size (slot_inb b hb)) (fun _ => rfl)).squeeze S16x128 squeezes_S1x16x128_S16x128
/-- Window `c` of a list, as a 16-word memref. -/
abbrev winOf (Lm : Memref sig .scVector .vmem S512 .i32) (c : ℕ) (hc : c < 32) : Memref sig .scVector .vmem S16 .i32 :=
  Lm.slice (Rect.unit (s := S512) ![16 * c] S16.size (win_inb c hc)) (fun _ => rfl)
/-- Semaphore `b` of an array of eight. -/
abbrev semOf (A : DmaSems sig S8) (b : ℕ) (hb : b < 8) : DmaSem sig :=
  ((A.slice (Rect.unit (s := S8) ![b] S1.size (sem_inb b hb))).squeeze S_ squeezes_S1_S_).sem

end Tile
end Cert.Proof.KI
end
-- ==== Proof.KI.SlotEqs.lean ====
/-
  The loop body's slices, by number.

  Trip k of the 32 issues the gathers of chunk k + 7 (when k + 7 < 32) into slot (k + 7) mod 8 of each row buffer, from window
  k + 7 of each index list, completing on semaphore (k + 7) mod 8 of each array; it waits for chunk k's gathers in slot k mod 8
  on semaphore k mod 8; and it stores its sixteen scores at words 16k … 16k + 15 of the score scratch. The program spells each
  offset as the chain of word operations that computes it; each chain equals its closed form at every trip, and slices through
  rectangles of the same sizes at equal offsets are equal whatever their in-bounds evidence. An array of eight semaphores laid
  on the pool from a base names, at index b, the pool's semaphore base + b.
-/
import proofs.«209583_g49984829390938_cont_8to1c4_457_35_alg».proof.Proof.KI.Slots
import proofs.«209583_g49984829390938_cont_8to1c4_457_35_alg».proof.Proof.Gen.KernelIdeal

noncomputable section

namespace Cert.Proof.KI

open Cert.KernelIdeal Cert.KernelIdeal.Gen

open Idealize.ShloMosaic

/-! ## The trips -/

/-- The loop runs 32 trips. -/
theorem trips_eq : k0_t1_loop.trips = 32 := by decide +kernel

theorem cond_iff_all : ∀ k : Fin k0_t1_loop.trips, (k0_cond1 k = 1#1 ↔ k.val + 7 < 32) := by decide +kernel

/-- The body issues the next gathers exactly when chunk k + 7 exists. -/
theorem cond_iff (k : Fin k0_t1_loop.trips) : k0_cond1 k = 1#1 ↔ k.val + 7 < 32 := cond_iff_all k

/-- A trip's number is below 32. -/
theorem trip_lt (k : Fin k0_t1_loop.trips) : k.val < 32 := lt_of_lt_of_eq k.isLt trips_eq

/-! ## The row buffers' slots, the lists' windows, the semaphores -/

section Slices

variable (B : Memref sig .scVector .vmem S8x16x128 .f32) (Lm : Memref sig .scVector .vmem S512 .i32) (A : DmaSems sig S8)

/-- The slot the issued gathers fill is slot (k + 7) mod 8. -/
theorem slot_issue (k : Fin k0_t1_loop.trips) (h : k0_cond1 k = 1#1) :
    (B.slice (Rect.unit (s := S8x16x128) (k0_off4 k) S1x16x128.size (k0_off4_inb k h)) (fun _ => rfl)).squeeze S16x128 squeezes_S1x16x128_S16x128
      = slotOf B ((k.val + 7) % 8) (Nat.mod_lt _ (by decide)) :=
  congrArg (fun M : Memref sig .scVector .vmem S1x16x128 .f32 => M.squeeze S16x128 squeezes_S1x16x128_S16x128)
    (Memref.slice_unit_congr B (k0_off4_eq k) (k0_off4_inb k h) (slot_inb _ (Nat.mod_lt _ (by decide))) (fun _ => rfl) (fun _ => rfl))

/-- The slot the waited gathers filled is slot k mod 8. -/
theorem slot_wait (k : Fin k0_t1_loop.trips) :
    (B.slice (Rect.unit (s := S8x16x128) (k0_off7 k) S1x16x128.size (k0_off7_inb k)) (fun _ => rfl)).squeeze S16x128 squeezes_S1x16x128_S16x128
      = slotOf B (k.val % 8) (Nat.mod_lt _ (by decide)) :=
  congrArg (fun M : Memref sig .scVector .vmem S1x16x128 .f32 => M.squeeze S16x128 squeezes_S1x16x128_S16x128)
    (Memref.slice_unit_congr B (k0_off7_eq k) (k0_off7_inb k) (slot_inb _ (Nat.mod_lt _ (by decide))) (fun _ => rfl) (fun _ => rfl))

/-- The window the issued gathers read is window k + 7: 16k + 112 = 16 (k + 7). -/
theorem win_issue (k : Fin k0_t1_loop.trips) (h : k0_cond1 k = 1#1) :
    Lm.slice (Rect.unit (s := S512) (k0_off5 k) S16.size (k0_off5_inb k h)) (fun _ => rfl)
      = winOf Lm (k.val + 7) ((cond_iff k).mp h) := by
  have e : (![16 * k.val + 112] : Fin 1 → Nat) = ![16 * (k.val + 7)] := by rw [Nat.mul_add]
  exact Memref.slice_unit_congr Lm ((k0_off5_eq k).trans e) (k0_off5_inb k h) (win_inb _ ((cond_iff k).mp h)) (fun _ => rfl) (fun _ => rfl)

/-- The semaphore the issued gathers complete on is semaphore (k + 7) mod 8 of the array. -/
theorem sem_issue (k : Fin k0_t1_loop.trips) (h : k0_cond1 k = 1#1) :
    ((A.slice (Rect.unit (s := S8) (k0_off6 k) S1.size (k0_off6_inb k h))).squeeze S_ squeezes_S1_S_).sem
      = semOf A ((k.val + 7) % 8) (Nat.mod_lt _ (by decide)) :=
  congrArg (fun X : DmaSems sig S1 => (X.squeeze S_ squeezes_S1_S_).sem)
    (SemArray.slice_unit_congr A (k0_off6_eq k) (k0_off6_inb k h) (sem_inb _ (Nat.mod_lt _ (by decide))))

/-- The semaphore the waited gathers completed on is semaphore k mod 8 of the array. -/
theorem sem_wait (k : Fin k0_t1_loop.trips) :
    ((A.slice (Rect.unit (s := S8) (k0_off8 k) S1.size (k0_off8_inb k))).squeeze S_ squeezes_S1_S_).sem
      = semOf A (k.val % 8) (Nat.mod_lt _ (by decide)) :=
  congrArg (fun X : DmaSems sig S1 => (X.squeeze S_ squeezes_S1_S_).sem)
    (SemArray.slice_unit_congr A (k0_off8_eq k) (k0_off8_inb k) (sem_inb _ (Nat.mod_lt _ (by decide))))

/-- Semaphore b of an array is the array at the one index of the unit rectangle at offset b. -/
theorem semOf_ix (b : ℕ) (hb : b < 8) :
    ∃ x : S1.Idx, semOf A b hb = A.ix ((Rect.unit (s := S8) ![b] S1.size (sem_inb b hb)).emb x) := ⟨_, rfl⟩

end Slices

/-! ## The three semaphore arrays on the pool -/

/-- A semaphore of an array of eight laid on the pool from a base that leaves room is in the pool. -/
theorem lt_pool (base b : ℕ) (hb : b < 8) (hbase : base + 8 ≤ 26) : base + b < sig.nDmaSem := by
  show base + b < 26
  omega

/-- Eight consecutive semaphores of the pool from `base`: index b names semaphore base + b. -/
theorem semOf_consecutive (base : ℕ) (hbase : base + S8.numel ≤ sig.nDmaSem) (b : ℕ) (hb : b < 8) :
    (semOf (SemArray.consecutive base S8 hbase) b hb).val = base + b := by
  obtain ⟨x, hx⟩ := semOf_ix (SemArray.consecutive base S8 hbase) b hb
  rw [hx]
  show base + (S8.rowMajor ((Rect.unit (s := S8) ![b] S1.size (sem_inb b hb)).emb x)).val = base + b
  rw [Shape.rowMajor_val_one, Rect.emb_apply]
  have h1 : (x 0).val < 1 := (x 0).isLt
  show base + (b + 1 * (x 0).val) = base + b
  omega

/-- The first array's semaphore b is the pool's semaphore b. -/
theorem semOf_scratch8 (b : ℕ) (hb : b < 8) :
    semOf cc0_scratch8 b hb = (⟨b, by have := lt_pool 0 b hb (by omega); omega⟩ : DmaSem sig) :=
  Fin.ext ((semOf_consecutive 0 _ b hb).trans (Nat.zero_add b))

/-- The second array's semaphore b is the pool's semaphore 8 + b. -/
theorem semOf_scratch9 (b : ℕ) (hb : b < 8) :
    semOf cc0_scratch9 b hb = (⟨8 + b, lt_pool 8 b hb (by omega)⟩ : DmaSem sig) :=
  Fin.ext (semOf_consecutive 8 _ b hb)

/-- The third array's semaphore b is the pool's semaphore 16 + b. -/
theorem semOf_scratch10 (b : ℕ) (hb : b < 8) :
    semOf cc0_scratch10 b hb = (⟨16 + b, lt_pool 16 b hb (by omega)⟩ : DmaSem sig) :=
  Fin.ext (semOf_consecutive 16 _ b hb)

/-! ## The score scratch -/

/-- The trip's store into the 512-word score scratch is at words 16k … 16k + 15. -/
theorem out_slot (k : Fin k0_t1_loop.trips) :
    Rect.unit (s := S512) (k0_off137 k) S16.size (k0_off137_inb k)
      = Rect.unit (s := S512) ![16 * k.val] S16.size (win_inb k.val (trip_lt k)) :=
  Rect.unit_congr (k0_off137_eq k) _ _

end Cert.Proof.KI

end
-- ==== Proof.KI.LoopInv.lean ====
/-
  The counted loop's invariant. Before trip k the gathers of chunks k … min(k + 7, 32) − 1 are in flight, each in slot
  (chunk mod 8) on that slot's three semaphores; the remaining slots — those of the "virtual" chunks min(k + 7, 32) … k + 7 —
  are idle, their rows, semaphores and read tokens in hand; the list windows of the chunks not yet started and of the
  chunks already finished are in hand; so are the transpose scratch and the score scratch, whose first 16k words are the finished scores. A list window of chunk c holds
  the worker's sample words 16c … 16c + 15 of its column; a landed slot of chunk c holds the sixteen table rows they name.
-/
import proofs.«209583_g49984829390938_cont_8to1c4_457_35_alg».proof.Proof.KI.Slots
import proofs.«209583_g49984829390938_cont_8to1c4_457_35_alg».proof.Proof.KI.SlotEqs

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-- The worker's read token for semaphore `i`. -/
abbrev tokQ (L : grid0.Coords) (i : ℕ) (hi : i < 26) : PosShare TreeShare :=
  Transfers.shareTok (Transfers.shareTok fullShare 32 (tL L)) 26 (⟨i, hi⟩ : Fin 26)

/-- Row `s` of chunk `c` of worker `tL L`, as a row of the sample (reduced mod 16384 so that it is total). -/
def rowN (L : grid0.Coords) (c s : ℕ) : Fin 16384 := ⟨(512 * (tL L).val + 16 * c + s) % 16384, Nat.mod_lt _ (by decide)⟩

/-- A 16-row slot at some contents. -/
def slotAny (M : Memref sig .scVector .vmem S16x128 .f32) : sProp 𝕄 :=
  iprop(∃ G, M.view.loc (thrL d L) ↦[M.view.set]{fullShare} G)

/-- A 16-row slot holding, for chunk `c`, the rows of table `tbl` that column `kX` of the sample names. -/
def slotHolds (tbl : S100000x128.Idx → F .f32) (kX : Fin 3) (c : ℕ) (M : Memref sig .scVector .vmem S16x128 .f32) : sProp 𝕄 :=
  iprop(∃ G, ⌜∀ (s : Fin 16) (x : Fin 128), M.view.read (Elt F) G (ix2 s x) = tbl (ix2 (Cert.Score.rowIx (col m d kX (ix1 (rowN L c s.val)))) x)⌝
    ∗ M.view.loc (thrL d L) ↦[M.view.set]{fullShare} G)

/-- A 16-word list window holding chunk `c`'s words of column `kX`. -/
def winHolds (kX : Fin 3) (c : ℕ) (M : Memref sig .scVector .vmem S16 .i32) : sProp 𝕄 :=
  iprop(∃ fw, ⌜∀ z : S16.Idx, M.view.read (Elt F) fw z = col m d kX (ix1 (rowN L c (z 0).val))⌝
    ∗ M.view.loc (thrL d L) ↦[M.view.set]{fullShare} fw)

/-- Chunk `c`'s gather of table H: what its landing hands back. -/
def delivH (c : ℕ) (hc : c < 32) : sProp 𝕄 :=
  iprop((slotHolds m d L (m (entLoc d) : S100000x128.Idx → F .f32) 0 c (slotOf (Memref.whole cc0_scratch3 : Memref sig .scVector .vmem S8x16x128 .f32) (c % 8) (Nat.mod_lt _ (by decide)))
      ∗ winHolds m d L 0 c (winOf (Memref.whole cc0_scratch0 : Memref sig .scVector .vmem S512 .i32) c hc))
    ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (0 + c % 8) (by have := Nat.mod_lt c (show 0 < 8 by decide); omega)} m (entLoc d)))

/-- The gather in flight. -/
def flightH (c : ℕ) (hc : c < 32) : sProp 𝕄 :=
  Transfers.Flight (countersEmb (U := UU)) (thrL d L) (SemLoc.dma (semOf cc0_scratch8 (c % 8) (Nat.mod_lt _ (by decide)))) (default : HIx 1) 65536 (delivH m d L c hc)

/-- Slot `b` of table H idle: its rows at some contents, its semaphore at zero, its read token. -/
def idleH (b : ℕ) (hb : b < 8) : sProp 𝕄 :=
  iprop(slotAny d L (slotOf (Memref.whole cc0_scratch3 : Memref sig .scVector .vmem S8x16x128 .f32) b hb)
    ∗ semVal ((thrL d L, SemLoc.dma (semOf cc0_scratch8 b hb)) : GSem nD τ sig) 0
    ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (0 + b) (by omega)} m (entLoc d)))

/-- Chunk `c`'s gather of table R: what its landing hands back. -/
def delivR (c : ℕ) (hc : c < 32) : sProp 𝕄 :=
  iprop((slotHolds m d L (m (relLoc d) : S100000x128.Idx → F .f32) 1 c (slotOf (Memref.whole cc0_scratch4 : Memref sig .scVector .vmem S8x16x128 .f32) (c % 8) (Nat.mod_lt _ (by decide)))
      ∗ winHolds m d L 1 c (winOf (Memref.whole cc0_scratch1 : Memref sig .scVector .vmem S512 .i32) c hc))
    ∗ (((Memref.whole main_arg2_scv : Memref sig .scVector .hbm S100000x128 .f32).slice (Rect.unit (s := S100000x128) ![0, 0] S100000x128.size inb_S100000x128_S100000x128_0_0) (fun _ => rfl)).view.loc (thrL d L) ↦[((Memref.whole main_arg2_scv : Memref sig .scVector .hbm S100000x128 .f32).slice (Rect.unit (s := S100000x128) ![0, 0] S100000x128.size inb_S100000x128_S100000x128_0_0) (fun _ => rfl)).view.set]{tokQ L (8 + c % 8) (by have := Nat.mod_lt c (show 0 < 8 by decide); omega)} m (relLoc d)))

/-- The gather in flight. -/
def flightR (c : ℕ) (hc : c < 32) : sProp 𝕄 :=
  Transfers.Flight (countersEmb (U := UU)) (thrL d L) (SemLoc.dma (semOf cc0_scratch9 (c % 8) (Nat.mod_lt _ (by decide)))) (default : HIx 1) 65536 (delivR m d L c hc)

/-- Slot `b` of table R idle: its rows at some contents, its semaphore at zero, its read token. -/
def idleR (b : ℕ) (hb : b < 8) : sProp 𝕄 :=
  iprop(slotAny d L (slotOf (Memref.whole cc0_scratch4 : Memref sig .scVector .vmem S8x16x128 .f32) b hb)
    ∗ semVal ((thrL d L, SemLoc.dma (semOf cc0_scratch9 b hb)) : GSem nD τ sig) 0
    ∗ (((Memref.whole main_arg2_scv : Memref sig .scVector .hbm S100000x128 .f32).slice (Rect.unit (s := S100000x128) ![0, 0] S100000x128.size inb_S100000x128_S100000x128_0_0) (fun _ => rfl)).view.loc (thrL d L) ↦[((Memref.whole main_arg2_scv : Memref sig .scVector .hbm S100000x128 .f32).slice (Rect.unit (s := S100000x128) ![0, 0] S100000x128.size inb_S100000x128_S100000x128_0_0) (fun _ => rfl)).view.set]{tokQ L (8 + b) (by omega)} m (relLoc d)))

/-- Chunk `c`'s gather of table T: what its landing hands back. -/
def delivT (c : ℕ) (hc : c < 32) : sProp 𝕄 :=
  iprop((slotHolds m d L (m (entLoc d) : S100000x128.Idx → F .f32) 2 c (slotOf (Memref.whole cc0_scratch5 : Memref sig .scVector .vmem S8x16x128 .f32) (c % 8) (Nat.mod_lt _ (by decide)))
      ∗ winHolds m d L 2 c (winOf (Memref.whole cc0_scratch2 : Memref sig .scVector .vmem S512 .i32) c hc))
    ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (16 + c % 8) (by have := Nat.mod_lt c (show 0 < 8 by decide); omega)} m (entLoc d)))

/-- The gather in flight. -/
def flightT (c : ℕ) (hc : c < 32) : sProp 𝕄 :=
  Transfers.Flight (countersEmb (U := UU)) (thrL d L) (SemLoc.dma (semOf cc0_scratch10 (c % 8) (Nat.mod_lt _ (by decide)))) (default : HIx 1) 65536 (delivT m d L c hc)

/-- Slot `b` of table T idle: its rows at some contents, its semaphore at zero, its read token. -/
def idleT (b : ℕ) (hb : b < 8) : sProp 𝕄 :=
  iprop(slotAny d L (slotOf (Memref.whole cc0_scratch5 : Memref sig .scVector .vmem S8x16x128 .f32) b hb)
    ∗ semVal ((thrL d L, SemLoc.dma (semOf cc0_scratch10 b hb)) : GSem nD τ sig) 0
    ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (16 + b) (by omega)} m (entLoc d)))

/-- A chunk's three flights; its three list windows; a slot's three idle thirds. -/
def flights (c : ℕ) : sProp 𝕄 :=
  if hc : c < 32 then iprop(flightH m d L c hc ∗ flightR m d L c hc ∗ flightT m d L c hc) else iprop(emp)
def wins (c : ℕ) : sProp 𝕄 :=
  if hc : c < 32 then iprop(winHolds m d L 0 c (winOf (Memref.whole cc0_scratch0 : Memref sig .scVector .vmem S512 .i32) c hc) ∗ winHolds m d L 1 c (winOf (Memref.whole cc0_scratch1 : Memref sig .scVector .vmem S512 .i32) c hc) ∗ winHolds m d L 2 c (winOf (Memref.whole cc0_scratch2 : Memref sig .scVector .vmem S512 .i32) c hc)) else iprop(emp)
def idles (c : ℕ) : sProp 𝕄 :=
  iprop(idleH m d L (c % 8) (Nat.mod_lt _ (by decide)) ∗ idleR m d L (c % 8) (Nat.mod_lt _ (by decide)) ∗ idleT m d L (c % 8) (Nat.mod_lt _ (by decide)))

/-- After `k` trips the first 16k words of the score scratch are the kernel's sums for the worker's rows. -/
def ScoreHolds [FloatOps F] (k : ℕ) (g : S512.Idx → F .f32) : Prop :=
  ∀ i : Fin 512, i.val < 16 * k → g (ix1 i) = kout m d (ix1 (rowN L 0 i.val))

variable (O : CellTallies nD τ sig (HIx 1)) (W : Waits sig (HIx 1))

/-- The invariant before trip `k`. -/
def loopInv [FloatOps F] (k : ℕ) (_ : PUnit) : sProp 𝕄 :=
  iprop(Transfers.MayWaits (thrL d L) (none : HIx 1) O
    ∗ (∃ W', ⌜∀ p ∈ W', p ∈ W ∨ p.2 = none⌝ ∗ owes (thrL d L) O W')
    ∗ bigSep (Finset.Ico k (min (k + 7) 32)) (flights m d L)
    ∗ bigSep (Finset.Ico (min (k + 7) 32) (k + 8)) (idles m d L)
    ∗ bigSep (Finset.Ico (min (k + 7) 32) 32) (wins m d L)
    ∗ bigSep (Finset.Ico 0 k) (wins m d L)
    ∗ (∃ g, (Memref.whole cc0_scratch6 : Memref sig .scVector .vmem S256 .f32).view.loc (thrL d L) ↦{fullShare} g)
    ∗ (∃ g, ⌜ScoreHolds m d L k (g : S512.Idx → F .f32)⌝ ∗ (Memref.whole cc0_scratch7 : Memref sig .scVector .vmem S512 .f32).view.loc (thrL d L) ↦{fullShare} g))

end Tile
end Cert.Proof.KI
end
-- ==== Proof.KI.SlotRead.lean ====
/-
  Reading values out of a loop trip: pure index lemmas, no program run.

  A row buffer is eight slots of sixteen rows of 128 words. A 16-lane piece of row s of slot b at lane block kk, loaded as
  a 1×1×16 block and read as a vector, is the buffer at (b, s, 16·kk + x). Slot b as a 16×128 array sits at (b, ·, ·), so a
  gather's rows written through it are read back at (b, s, x) as the gather's payload at (s, x): the table at the row the
  list's word s names, column x. Window c of a list is words 16·c … 16·c + 15, and a landed list is the worker's 512 rows of
  one column of `sample`, so that word is the column at the worker's row 16·c + s; under the range hypothesis it names a
  table row unclamped. The 256-word scratch, after sixteen 16-word rows are stored at offsets 0, 16, …, 240, holds row s's
  word l at 16·s + l; the j-th indexed load, whose lane x names word 16·x + j, therefore reads row x's word j.
-/
import proofs.«209583_g49984829390938_cont_8to1c4_457_35_alg».proof.Proof.KI.Slots
import Idealize.ShloMosaic.Lib.SparseCore.Stream
import Idealize.ShloMosaic.Lib.SparseCore.Ops
import Idealize.ShloMosaic.Lib.Pipeline.Value
import Idealize.ShloMosaic.Lib.WritesUnit

noncomputable section

namespace Cert.Proof.KI

open Cert.KernelIdeal Cert.KernelIdeal.Gen

open Idealize.ShloMosaic Idealize.ShloMosaic.ValueIdx
open Idealize.ShloMosaic.SparseCore (S V T gatherPayload rows)

variable {F : FTy → Type}

/-! ## A 16-lane piece of a row buffer, and a slot of it -/

/-- A 16-lane piece of row `s` of slot `b`, loaded as a 1×1×16 block at offsets (b, s, 16·kk) and read as a 16-vector,
    holds at lane x the buffer's element (b, s, 16·kk + x). -/
theorem piece_read (B : Memref sig .scVector .vmem S8x16x128 .f32) (G : B.view.ty.Contents (Elt F))
    (off : Fin 3 → Nat) (p : ∀ a, off a + S1x1x16.size a ≤ S8x16x128.size a) (hc : S1x1x16.ShapeCasts S16)
    (b s kk : ℕ) (hb : b < 8) (hs : s < 16) (hk : kk < 8) (hoff : off = ![b, s, 16 * kk]) (x : S16.Idx) :
    shapeCast S16 (B.view.readAt (Elt F) (Rect.unit (s := S8x16x128) off S1x1x16.size p).toLoadRect G) hc x
      = B.view.read (Elt F) G (ix3 (⟨b, hb⟩ : Fin 8) (⟨s, hs⟩ : Fin 16)
          (⟨16 * kk + (x 0).val, by have h16 : (x 0).val < 16 := (x 0).isLt; omega⟩ : Fin 128)) := by
  subst hoff
  refine (shapeCast_apply _ hc x (ix3 (0 : Fin 1) (0 : Fin 1) (x 0)) ?_).trans ?_
  · rw [Shape.rowMajor_val_three, Shape.rowMajor_val_one]
    show (0 * 1 + 0) * 16 + (x 0).val = (x 0).val
    omega
  · rw [View.readAt_apply]
    congr 1
    funext a
    match a with
    | ⟨0, _⟩ => exact Fin.ext (show b + 1 * 0 = b by omega)
    | ⟨1, _⟩ => exact Fin.ext (show s + 1 * 0 = s by omega)
    | ⟨2, _⟩ => exact Fin.ext (show 16 * kk + 1 * (x 0).val = 16 * kk + (x 0).val by omega)

/-- Where slot `b`'s element (s, x) sits in the row buffer: at (b, s, x). -/
theorem slot_emb (B : Memref sig .scVector .vmem S8x16x128 .f32) (b : ℕ) (hb : b < 8) (y : S16x128.Idx) :
    (slotOf B b hb).view.emb y = B.view.emb (ix3 (⟨b, hb⟩ : Fin 8) (y 0) (y 1)) := by
  show B.view.emb ((Rect.unit (s := S8x16x128) ![b, 0, 0] S1x16x128.size (slot_inb b hb)).emb
      (Shape.reshapeEquiv (Shape.Squeezes.numel_eq squeezes_S1x16x128_S16x128) y)) = _
  congr 1
  have hre : Shape.reshapeEquiv (Shape.Squeezes.numel_eq squeezes_S1x16x128_S16x128) y = (ix3 (0 : Fin 1) (y 0) (y 1) : S1x16x128.Idx) :=
    Shape.reshapeEquiv_eq_of_rowMajor _ (by
      rw [Shape.rowMajor_val_three, Shape.rowMajor_val_two]
      show (0 * 16 + (y 0).val) * 128 + (y 1).val = (y 0).val * 128 + (y 1).val
      omega)
  refine (congrArg (fun j => (Rect.unit (s := S8x16x128) ![b, 0, 0] S1x16x128.size (slot_inb b hb)).emb j) hre).trans ?_
  funext a
  match a with
  | ⟨0, _⟩ => exact Fin.ext (show b + 1 * 0 = b by omega)
  | ⟨1, _⟩ => exact Fin.ext (show 0 + 1 * (y 0).val = (y 0).val by omega)
  | ⟨2, _⟩ => exact Fin.ext (show 0 + 1 * (y 1).val = (y 1).val by omega)

/-- Reading through slot `b` is reading the row buffer at (b, ·, ·). -/
theorem slot_read (B : Memref sig .scVector .vmem S8x16x128 .f32) (b : ℕ) (hb : b < 8) (G : B.view.ty.Contents (Elt F)) (y : S16x128.Idx) :
    (slotOf B b hb).view.read (Elt F) G y = B.view.read (Elt F) G (ix3 (⟨b, hb⟩ : Fin 8) (y 0) (y 1)) := by
  rw [View.read_apply, View.read_apply, slot_emb]

/-- What was written through slot `b` is what the row buffer holds at (b, s, x). -/
theorem slot_write_read (B : Memref sig .scVector .vmem S8x16x128 .f32) (b : ℕ) (hb : b < 8) (g : B.view.ty.Contents (Elt F))
    (w : S16x128.Idx → Elt F .f32) (s : Fin 16) (x : Fin 128) :
    B.view.read (Elt F) ((slotOf B b hb).view.write (Elt F) g w Finset.univ) (ix3 (⟨b, hb⟩ : Fin 8) s x) = w (ix2 s x) :=
  (slot_read B b hb _ (ix2 s x)).symm.trans (View.read_write_of_mem _ _ (Finset.mem_univ _))

/-! ## What a landed gather put in a slot -/

/-- The word a 16-word list holds at row-major position `k` is the word at index `k`. -/
theorem rowMajor_symm_S16 (k : Fin 16) (h : S16.numel = 16) : S16.rowMajor.symm (k.cast h.symm) = ix1 k := by
  rw [Equiv.symm_apply_eq]
  apply Fin.ext
  rw [Shape.rowMajor_val_one]
  rfl

/-- The gather's payload at (s, x): the table at the row the list's word `s` names, column x. -/
theorem gatherPayload_apply (hg : S100000x128.Gathers 0 S16x128) (Tb : S100000x128.Idx → Elt F .f32) (W : S16.Idx → Elt F .i32)
    (hn : S16.numel = S16x128.size hg.axis') (hin : ∀ x, (W x).toNat < S100000x128.size hg.axis) (y : S16x128.Idx) :
    gatherPayload hg Tb (rows W hn hin) y = Tb (ix2 (⟨(W (ix1 (y 0))).toNat, hin _⟩ : Fin 100000) (y 1)) := by
  unfold gatherPayload
  congr 1
  funext a
  match a with
  | ⟨0, _⟩ =>
    apply Fin.ext
    show ((hg.idx (rows W hn hin) y) hg.axis).val = _
    rw [Shape.Gathers.idx_axis]
    show (W (S16.rowMajor.symm ((y hg.axis').cast hn.symm))).toNat = (W (ix1 (y 0))).toNat
    exact congrArg (fun i => (W i).toNat) (rowMajor_symm_S16 (y 0) hn)
  | ⟨1, _⟩ => exact Fin.ext (Shape.Gathers.idx_of_ne hg _ y 1 (by decide))

/-- Window `c` of a list at word s is the list at word 16·c + s. -/
theorem win_read (Lm : Memref sig .scVector .vmem S512 .i32) (c : ℕ) (hc : c < 32) (W : Lm.view.ty.Contents (Elt F)) (z : S16.Idx) :
    (winOf Lm c hc).view.read (Elt F) W z
      = Lm.view.read (Elt F) W (ix1 (⟨16 * c + (z 0).val, by have h16 : (z 0).val < 16 := (z 0).isLt; omega⟩ : Fin 512)) := by
  rw [View.read_apply, View.read_apply]
  show _root_.cast _ (W (Lm.view.emb ((Rect.unit (s := S512) ![16 * c] S16.size (win_inb c hc)).emb z))) = _
  congr 3
  funext a
  match a with
  | ⟨0, _⟩ => exact Fin.ext (show 16 * c + 1 * (z 0).val = 16 * c + (z 0).val by omega)

/-- The whole table, sliced at offset (0, 0) with its full size, reads as the table. -/
theorem table_read (A : Memref sig .scVector .hbm S100000x128 .f32) (p : ∀ a, (![0, 0] : Fin 2 → Nat) a + S100000x128.size a ≤ S100000x128.size a)
    (tbl : A.view.ty.Contents (Elt F)) (j : S100000x128.Idx) :
    (A.slice (Rect.unit (s := S100000x128) ![0, 0] S100000x128.size p) (fun _ => rfl)).view.read (Elt F) tbl j = A.view.read (Elt F) tbl j := by
  rw [View.read_apply, View.read_apply]
  show _root_.cast _ (tbl (A.view.emb ((Rect.unit (s := S100000x128) ![0, 0] S100000x128.size p).emb j))) = _
  congr 3
  funext a
  match a with
  | ⟨0, _⟩ => exact Fin.ext (show 0 + 1 * (j 0).val = (j 0).val by omega)
  | ⟨1, _⟩ => exact Fin.ext (show 0 + 1 * (j 1).val = (j 1).val by omega)

/-- A slot written with a gather's rows, read at (b, s, x): the table at the row the list's word 16·c + s names. -/
theorem gathered_read (B : Memref sig .scVector .vmem S8x16x128 .f32) (b : ℕ) (hb : b < 8) (g : B.view.ty.Contents (Elt F))
    (A : Memref sig .scVector .hbm S100000x128 .f32) (p : ∀ a, (![0, 0] : Fin 2 → Nat) a + S100000x128.size a ≤ S100000x128.size a)
    (tbl : A.view.ty.Contents (Elt F)) (Lm : Memref sig .scVector .vmem S512 .i32) (c : ℕ) (hc : c < 32) (lands : Lm.view.ty.Contents (Elt F))
    (hg : S100000x128.Gathers 0 S16x128) (hn : S16.numel = S16x128.size hg.axis')
    (hin : ∀ x, ((winOf Lm c hc).view.read (Elt F) lands x).toNat < S100000x128.size hg.axis) (s : Fin 16) (x : Fin 128)
    (hlt : (Lm.view.read (Elt F) lands (ix1 (⟨16 * c + s.val, by omega⟩ : Fin 512))).toNat < 100000) :
    B.view.read (Elt F) ((slotOf B b hb).view.write (Elt F) g
        (gatherPayload hg ((A.slice (Rect.unit (s := S100000x128) ![0, 0] S100000x128.size p) (fun _ => rfl)).view.read (Elt F) tbl)
          (rows ((winOf Lm c hc).view.read (Elt F) lands) hn hin)) Finset.univ) (ix3 (⟨b, hb⟩ : Fin 8) s x)
      = A.view.read (Elt F) tbl (ix2 (⟨(Lm.view.read (Elt F) lands (ix1 (⟨16 * c + s.val, by omega⟩ : Fin 512))).toNat, hlt⟩ : Fin 100000) x) := by
  rw [slot_write_read, gatherPayload_apply, table_read]
  congr 1
  funext a
  match a with
  | ⟨0, _⟩ => exact Fin.ext (congrArg BitVec.toNat (win_read Lm c hc lands (ix1 s)))
  | ⟨1, _⟩ => rfl

/-! ## The lists' words, and the gathered rows as table rows of the sample -/

section Lists
variable (m : (ℓ : Loc nD τ sig) → Buf (Elt F) ℓ) (d : Dev nD) (L : grid0.Coords)

local notation "hidxW" => (Memref.whole Cert.KernelIdeal.cc0_scratch0 : Memref Cert.KernelIdeal.sig Kind.scVector Space.vmem Cert.KernelIdeal.S512 EltTy.i32)
local notation "ridxW" => (Memref.whole Cert.KernelIdeal.cc0_scratch1 : Memref Cert.KernelIdeal.sig Kind.scVector Space.vmem Cert.KernelIdeal.S512 EltTy.i32)
local notation "tidxW" => (Memref.whole Cert.KernelIdeal.cc0_scratch2 : Memref Cert.KernelIdeal.sig Kind.scVector Space.vmem Cert.KernelIdeal.S512 EltTy.i32)
local notation "entW" => (Memref.whole Cert.KernelIdeal.main_arg1_scv : Memref Cert.KernelIdeal.sig Kind.scVector Space.hbm Cert.KernelIdeal.S100000x128 EltTy.f32)
local notation "relW" => (Memref.whole Cert.KernelIdeal.main_arg2_scv : Memref Cert.KernelIdeal.sig Kind.scVector Space.hbm Cert.KernelIdeal.S100000x128 EltTy.f32)

/-- Word i of worker t's 512 rows is row 512·t + i. -/
theorem tile_word (i : ℕ) (hi : i < 512) :
    (Rect.unit (s := S16384) (k0_off1 L) S512.size (k0_off1_inb L)).emb (ix1 (⟨i, hi⟩ : Fin 512))
      = ix1 (⟨512 * (tL L).val + i, by have := (tL L).isLt; omega⟩ : Fin 16384) := by
  funext a
  match a with
  | ⟨0, _⟩ =>
    apply Fin.ext
    show k0_off1 L 0 + 1 * i = 512 * (tL L).val + i
    rw [off1_tile]
    show 512 * (tL L).val + 1 * i = 512 * (tL L).val + i
    omega

theorem landsH_apply (f0 : Buf (Elt F) ((thrL d L).loc cc0_scratch0)) (i : ℕ) (hi : i < 512) :
    (landsH m d L f0 : S512.Idx → BitVec 32) (ix1 (⟨i, hi⟩ : Fin 512))
      = col m d 0 (ix1 (⟨512 * (tL L).val + i, by have := (tL L).isLt; omega⟩ : Fin 16384)) := by
  have e : landsH m d L f0 = ReadAs.same.apply ((hSl L).view.read (Elt F) (col m d 0 : Buf (Elt F) (hLoc d))) := View.write_whole_univ _ _ _
  rw [e]
  show (hSl L).view.read (Elt F) (col m d 0 : Buf (Elt F) (hLoc d)) (ix1 (⟨i, hi⟩ : Fin 512)) = _
  show col m d 0 ((Rect.unit (s := S16384) (k0_off1 L) S512.size (k0_off1_inb L)).emb (ix1 (⟨i, hi⟩ : Fin 512))) = _
  rw [tile_word L i hi]
theorem landsR_apply (f1 : Buf (Elt F) ((thrL d L).loc cc0_scratch1)) (i : ℕ) (hi : i < 512) :
    (landsR m d L f1 : S512.Idx → BitVec 32) (ix1 (⟨i, hi⟩ : Fin 512))
      = col m d 1 (ix1 (⟨512 * (tL L).val + i, by have := (tL L).isLt; omega⟩ : Fin 16384)) := by
  have e : landsR m d L f1 = ReadAs.same.apply ((rSl L).view.read (Elt F) (col m d 1 : Buf (Elt F) (rLoc d))) := View.write_whole_univ _ _ _
  rw [e]
  show (rSl L).view.read (Elt F) (col m d 1 : Buf (Elt F) (rLoc d)) (ix1 (⟨i, hi⟩ : Fin 512)) = _
  show col m d 1 ((Rect.unit (s := S16384) (k0_off1 L) S512.size (k0_off1_inb L)).emb (ix1 (⟨i, hi⟩ : Fin 512))) = _
  rw [tile_word L i hi]
theorem landsT_apply (f2 : Buf (Elt F) ((thrL d L).loc cc0_scratch2)) (i : ℕ) (hi : i < 512) :
    (landsT m d L f2 : S512.Idx → BitVec 32) (ix1 (⟨i, hi⟩ : Fin 512))
      = col m d 2 (ix1 (⟨512 * (tL L).val + i, by have := (tL L).isLt; omega⟩ : Fin 16384)) := by
  have e : landsT m d L f2 = ReadAs.same.apply ((tSl L).view.read (Elt F) (col m d 2 : Buf (Elt F) (tLoc d))) := View.write_whole_univ _ _ _
  rw [e]
  show (tSl L).view.read (Elt F) (col m d 2 : Buf (Elt F) (tLoc d)) (ix1 (⟨i, hi⟩ : Fin 512)) = _
  show col m d 2 ((Rect.unit (s := S16384) (k0_off1 L) S512.size (k0_off1_inb L)).emb (ix1 (⟨i, hi⟩ : Fin 512))) = _
  rw [tile_word L i hi]

end Lists

section Gathered
variable (m : (ℓ : Loc nD τ sig) → Buf (Elt F) ℓ) (d : Dev nD) (L : grid0.Coords)

local notation "hidxW" => (Memref.whole Cert.KernelIdeal.cc0_scratch0 : Memref Cert.KernelIdeal.sig Kind.scVector Space.vmem Cert.KernelIdeal.S512 EltTy.i32)
local notation "ridxW" => (Memref.whole Cert.KernelIdeal.cc0_scratch1 : Memref Cert.KernelIdeal.sig Kind.scVector Space.vmem Cert.KernelIdeal.S512 EltTy.i32)
local notation "tidxW" => (Memref.whole Cert.KernelIdeal.cc0_scratch2 : Memref Cert.KernelIdeal.sig Kind.scVector Space.vmem Cert.KernelIdeal.S512 EltTy.i32)
local notation "entW" => (Memref.whole Cert.KernelIdeal.main_arg1_scv : Memref Cert.KernelIdeal.sig Kind.scVector Space.hbm Cert.KernelIdeal.S100000x128 EltTy.f32)
local notation "relW" => (Memref.whole Cert.KernelIdeal.main_arg2_scv : Memref Cert.KernelIdeal.sig Kind.scVector Space.hbm Cert.KernelIdeal.S100000x128 EltTy.f32)

/-- Slot b of a row buffer after chunk c's gather through the entity table off the head list: at (b, s, x) the table's
    row named by column 0 of `sample` at the worker's row 16·c + s, column x. -/
theorem gathered_H (hpre : RangeOK m) (B : Memref sig .scVector .vmem S8x16x128 .f32) (b : ℕ) (hb : b < 8) (g : B.view.ty.Contents (Elt F))
    (p : ∀ a, (![0, 0] : Fin 2 → Nat) a + S100000x128.size a ≤ S100000x128.size a) (c : ℕ) (hc : c < 32)
    (f0 : Buf (Elt F) ((thrL d L).loc cc0_scratch0)) (hg : S100000x128.Gathers 0 S16x128) (hn : S16.numel = S16x128.size hg.axis')
    (hin : ∀ x, ((winOf hidxW c hc).view.read (Elt F) (landsH m d L f0) x).toNat < S100000x128.size hg.axis) (s : Fin 16) (x : Fin 128) :
    B.view.read (Elt F) ((slotOf B b hb).view.write (Elt F) g
        (gatherPayload hg (((entW).slice (Rect.unit (s := S100000x128) ![0, 0] S100000x128.size p) (fun _ => rfl)).view.read (Elt F) (m (entLoc d)))
          (rows ((winOf hidxW c hc).view.read (Elt F) (landsH m d L f0)) hn hin)) Finset.univ) (ix3 (⟨b, hb⟩ : Fin 8) s x)
      = (m (entLoc d) : S100000x128.Idx → F .f32) (ix2 (Cert.Score.rowIx (col m d 0
          (ix1 (⟨512 * (tL L).val + (16 * c + s.val), by have := (tL L).isLt; omega⟩ : Fin 16384)))) x) := by
  have hw := landsH_apply m d L f0 (16 * c + s.val) (by omega)
  have hlt : ((hidxW).view.read (Elt F) (landsH m d L f0) (ix1 (⟨16 * c + s.val, by omega⟩ : Fin 512))).toNat < 100000 := by
    show ((landsH m d L f0 : S512.Idx → BitVec 32) (ix1 (⟨16 * c + s.val, by omega⟩ : Fin 512))).toNat < 100000
    rw [hw]; exact hpre d 0 _
  rw [gathered_read B b hb g entW p (m (entLoc d)) hidxW c hc (landsH m d L f0) hg hn hin s x hlt]
  show (m (entLoc d) : S100000x128.Idx → F .f32) _ = _
  congr 1
  funext a
  match a with
  | ⟨0, _⟩ =>
    apply Fin.ext
    show ((landsH m d L f0 : S512.Idx → BitVec 32) (ix1 (⟨16 * c + s.val, by omega⟩ : Fin 512))).toNat = _
    rw [hw, Cert.Score.rowIx_of_lt (hpre d 0 _)]
  | ⟨1, _⟩ => rfl

/-- Slot b of a row buffer after chunk c's gather through the relation table off the relation list: at (b, s, x) the table's
    row named by column 1 of `sample` at the worker's row 16·c + s, column x. -/
theorem gathered_R (hpre : RangeOK m) (B : Memref sig .scVector .vmem S8x16x128 .f32) (b : ℕ) (hb : b < 8) (g : B.view.ty.Contents (Elt F))
    (p : ∀ a, (![0, 0] : Fin 2 → Nat) a + S100000x128.size a ≤ S100000x128.size a) (c : ℕ) (hc : c < 32)
    (f1 : Buf (Elt F) ((thrL d L).loc cc0_scratch1)) (hg : S100000x128.Gathers 0 S16x128) (hn : S16.numel = S16x128.size hg.axis')
    (hin : ∀ x, ((winOf ridxW c hc).view.read (Elt F) (landsR m d L f1) x).toNat < S100000x128.size hg.axis) (s : Fin 16) (x : Fin 128) :
    B.view.read (Elt F) ((slotOf B b hb).view.write (Elt F) g
        (gatherPayload hg (((relW).slice (Rect.unit (s := S100000x128) ![0, 0] S100000x128.size p) (fun _ => rfl)).view.read (Elt F) (m (relLoc d)))
          (rows ((winOf ridxW c hc).view.read (Elt F) (landsR m d L f1)) hn hin)) Finset.univ) (ix3 (⟨b, hb⟩ : Fin 8) s x)
      = (m (relLoc d) : S100000x128.Idx → F .f32) (ix2 (Cert.Score.rowIx (col m d 1
          (ix1 (⟨512 * (tL L).val + (16 * c + s.val), by have := (tL L).isLt; omega⟩ : Fin 16384)))) x) := by
  have hw := landsR_apply m d L f1 (16 * c + s.val) (by omega)
  have hlt : ((ridxW).view.read (Elt F) (landsR m d L f1) (ix1 (⟨16 * c + s.val, by omega⟩ : Fin 512))).toNat < 100000 := by
    show ((landsR m d L f1 : S512.Idx → BitVec 32) (ix1 (⟨16 * c + s.val, by omega⟩ : Fin 512))).toNat < 100000
    rw [hw]; exact hpre d 1 _
  rw [gathered_read B b hb g relW p (m (relLoc d)) ridxW c hc (landsR m d L f1) hg hn hin s x hlt]
  show (m (relLoc d) : S100000x128.Idx → F .f32) _ = _
  congr 1
  funext a
  match a with
  | ⟨0, _⟩ =>
    apply Fin.ext
    show ((landsR m d L f1 : S512.Idx → BitVec 32) (ix1 (⟨16 * c + s.val, by omega⟩ : Fin 512))).toNat = _
    rw [hw, Cert.Score.rowIx_of_lt (hpre d 1 _)]
  | ⟨1, _⟩ => rfl

/-- Slot b of a row buffer after chunk c's gather through the entity table off the tail list: at (b, s, x) the table's
    row named by column 2 of `sample` at the worker's row 16·c + s, column x. -/
theorem gathered_T (hpre : RangeOK m) (B : Memref sig .scVector .vmem S8x16x128 .f32) (b : ℕ) (hb : b < 8) (g : B.view.ty.Contents (Elt F))
    (p : ∀ a, (![0, 0] : Fin 2 → Nat) a + S100000x128.size a ≤ S100000x128.size a) (c : ℕ) (hc : c < 32)
    (f2 : Buf (Elt F) ((thrL d L).loc cc0_scratch2)) (hg : S100000x128.Gathers 0 S16x128) (hn : S16.numel = S16x128.size hg.axis')
    (hin : ∀ x, ((winOf tidxW c hc).view.read (Elt F) (landsT m d L f2) x).toNat < S100000x128.size hg.axis) (s : Fin 16) (x : Fin 128) :
    B.view.read (Elt F) ((slotOf B b hb).view.write (Elt F) g
        (gatherPayload hg (((entW).slice (Rect.unit (s := S100000x128) ![0, 0] S100000x128.size p) (fun _ => rfl)).view.read (Elt F) (m (entLoc d)))
          (rows ((winOf tidxW c hc).view.read (Elt F) (landsT m d L f2)) hn hin)) Finset.univ) (ix3 (⟨b, hb⟩ : Fin 8) s x)
      = (m (entLoc d) : S100000x128.Idx → F .f32) (ix2 (Cert.Score.rowIx (col m d 2
          (ix1 (⟨512 * (tL L).val + (16 * c + s.val), by have := (tL L).isLt; omega⟩ : Fin 16384)))) x) := by
  have hw := landsT_apply m d L f2 (16 * c + s.val) (by omega)
  have hlt : ((tidxW).view.read (Elt F) (landsT m d L f2) (ix1 (⟨16 * c + s.val, by omega⟩ : Fin 512))).toNat < 100000 := by
    show ((landsT m d L f2 : S512.Idx → BitVec 32) (ix1 (⟨16 * c + s.val, by omega⟩ : Fin 512))).toNat < 100000
    rw [hw]; exact hpre d 2 _
  rw [gathered_read B b hb g entW p (m (entLoc d)) tidxW c hc (landsT m d L f2) hg hn hin s x hlt]
  show (m (entLoc d) : S100000x128.Idx → F .f32) _ = _
  congr 1
  funext a
  match a with
  | ⟨0, _⟩ =>
    apply Fin.ext
    show ((landsT m d L f2 : S512.Idx → BitVec 32) (ix1 (⟨16 * c + s.val, by omega⟩ : Fin 512))).toNat = _
    rw [hw, Cert.Score.rowIx_of_lt (hpre d 2 _)]
  | ⟨1, _⟩ => rfl

end Gathered

/-! ## The 256-word scratch: sixteen rows stored, read back transposed -/

/-- An indexed load reads, at a lane whose index word is n, the buffer's element n. -/
theorem loadIdx_lane (f : S256.Idx → Elt F .f32) (idx : IVec S16 32) (h : ∀ a x, ((![idx] : Fin 1 → IVec S16 32) a x).toNat < S256.size a)
    (x : S16.Idx) (n : ℕ) (hn : n < 256) (hv : (idx x).toNat = n) : loadIdx f ![idx] h x = f (ix1 (⟨n, hn⟩ : Fin 256)) := by
  unfold loadIdx
  congr 1
  funext a
  match a with
  | ⟨0, _⟩ => exact Fin.ext hv

/-- After sixteen 16-word rows are stored at offsets 0, 16, …, 240 (row i last-but-(15 - i)), word 16·s + l is row s's word l. -/
theorem read_rows16 {κ : Kind} {sp : Space} (v : View sig κ sp S256 .f32) (f : v.ty.Contents (Elt F))
    (inb : ∀ (i : Fin 16) a, (![16 * i.val] : Fin 1 → ℕ) a + S16.size a ≤ S256.size a) (P : Fin 16 → S16.Idx → Elt F .f32) (s l : Fin 16) :
    v.read (Elt F) (v.writes (Elt F) f (View.tilePieces S16.size (fun i : Fin 16 => ![16 * i.val]) inb P 16 le_rfl))
        (ix1 (⟨16 * s.val + l.val, by omega⟩ : Fin 256)) = P s (ix1 l) :=
  View.read_tilePieces v f S16.size _ inb P 16 le_rfl _ s s.isLt (ix1 l) (fun a => by match a with | ⟨0, _⟩ => rfl) 0 (fun i' hne => by
    have hv : i'.val ≠ s.val := fun h => hne (Fin.ext h)
    show 16 * s.val + l.val < 16 * i'.val ∨ 16 * i'.val + 16 ≤ 16 * s.val + l.val
    omega)

/-- The transposed read: the j-th indexed load, whose lane x names word 16·x + j, reads row x's word j. -/
theorem transposed_read {κ : Kind} {sp : Space} (v : View sig κ sp S256 .f32) (f : v.ty.Contents (Elt F))
    (inb : ∀ (i : Fin 16) a, (![16 * i.val] : Fin 1 → ℕ) a + S16.size a ≤ S256.size a) (P : Fin 16 → S16.Idx → Elt F .f32)
    (idx : IVec S16 32) (h : ∀ a x, ((![idx] : Fin 1 → IVec S16 32) a x).toNat < S256.size a) (x : S16.Idx) (j : ℕ) (hj : j < 16)
    (hv : (idx x).toNat = 16 * (x 0).val + j) :
    loadIdx (v.read (Elt F) (v.writes (Elt F) f (View.tilePieces S16.size (fun i : Fin 16 => ![16 * i.val]) inb P 16 le_rfl))) ![idx] h x
      = P (x 0) (ix1 (⟨j, hj⟩ : Fin 16)) := by
  have h16 : (x 0).val < 16 := (x 0).isLt
  rw [loadIdx_lane _ idx h x (16 * (x 0).val + j) (by omega) hv]
  exact read_rows16 v f inb P (x 0) ⟨j, hj⟩

end Cert.Proof.KI

end
-- ==== Proof.KI.Landed.lean ====
/-
  What a landed gather hands back, in the loop invariant's words.

  The gather's delivery is the slot written, in one whole-rectangle write, with the gather's payload, beside the list
  window it read. Read through the slot's own view that write is the payload itself: at (s, x) the table at the row the
  window's word s names, column x. The window holds chunk c's words of a column of `sample`, each below 100000 by the
  range hypothesis, so the row is the one the reference clamps to, unclamped.
-/
import proofs.«209583_g49984829390938_cont_8to1c4_457_35_alg».proof.Proof.KI.LoopInv
import proofs.«209583_g49984829390938_cont_8to1c4_457_35_alg».proof.Proof.KI.SlotRead

noncomputable section

namespace Cert.Proof.KI

open Cert.KernelIdeal Cert.KernelIdeal.Gen

open Idealize.ShloMosaic Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-- One whole-rectangle write, read through the same view, is the payload. -/
theorem read_whole_write {κ : Kind} {sp : Space} {s : Shape} {e : EltTy} (v : View sig κ sp s e) (f : v.ty.Contents (Elt F))
    (w : (Rect.whole s).shape.Idx → Elt F e) (y : s.Idx) :
    v.read (Elt F) (v.writes (Elt F) f [⟨Rect.whole s, w⟩]) y = w y :=
  View.read_writes_cons_unit_of_mem v f (fun _ => by simp) w [] y y rfl fun a => (Nat.zero_add _).symm

/-- The landed slot read at (s, x): the table at the row column `kX` of the sample names for chunk c's row s. -/
theorem landed_read (hpre : RangeOK m) (kX : Fin 3) (c : ℕ) (Ms : Memref sig .scVector .vmem S16x128 .f32)
    (Mw : Memref sig .scVector .vmem S16 .i32) (A : Memref sig .scVector .hbm S100000x128 .f32)
    (p : ∀ a, (![0, 0] : Fin 2 → Nat) a + S100000x128.size a ≤ S100000x128.size a) (tbl : A.view.ty.Contents (Elt F))
    (G : Ms.view.ty.Contents (Elt F)) (fw : Mw.view.ty.Contents (Elt F)) (hg : S100000x128.Gathers 0 S16x128)
    (hn : S16.numel = S16x128.size hg.axis') (hin : ∀ x, (Mw.view.read (Elt F) fw x).toNat < S100000x128.size hg.axis)
    (hfw : ∀ z : S16.Idx, Mw.view.read (Elt F) fw z = col m d kX (ix1 (rowN L c (z 0).val))) (s : Fin 16) (x : Fin 128) :
    Ms.view.read (Elt F) (Ms.view.writes (Elt F) G [⟨Rect.whole S16x128,
        gatherPayload hg ((A.slice (Rect.unit (s := S100000x128) ![0, 0] S100000x128.size p) (fun _ => rfl)).view.read (Elt F) tbl)
          (rows (Mw.view.read (Elt F) fw) hn hin)⟩]) (ix2 s x)
      = A.view.read (Elt F) tbl (ix2 (Cert.Score.rowIx (col m d kX (ix1 (rowN L c s.val)))) x) := by
  rw [read_whole_write, gatherPayload_apply, table_read]
  congr 1
  funext a
  match a with
  | ⟨0, _⟩ =>
    apply Fin.ext
    show (Mw.view.read (Elt F) fw (ix1 s)).toNat = _
    rw [hfw (ix1 s), Cert.Score.rowIx_of_lt (hpre d kX _)]
  | ⟨1, _⟩ => rfl

/-- A gather's delivery is the slot holding chunk c's table rows and the window holding its words. -/
theorem landed (hpre : RangeOK m) (kX : Fin 3) (c : ℕ) (Ms : Memref sig .scVector .vmem S16x128 .f32)
    (Mw : Memref sig .scVector .vmem S16 .i32) (A : Memref sig .scVector .hbm S100000x128 .f32)
    (p : ∀ a, (![0, 0] : Fin 2 → Nat) a + S100000x128.size a ≤ S100000x128.size a) (tbl : A.view.ty.Contents (Elt F))
    (G : Buf (Elt F) (Ms.view.loc (thrL d L))) (fw : Buf (Elt F) (Mw.view.loc (thrL d L))) (hg : S100000x128.Gathers 0 S16x128)
    (hn : S16.numel = S16x128.size hg.axis') (hin : ∀ x, (Mw.view.read (Elt F) fw x).toNat < S100000x128.size hg.axis) (Tk : sProp 𝕄)
    (hfw : ∀ z : S16.Idx, Mw.view.read (Elt F) fw z = col m d kX (ix1 (rowN L c (z 0).val))) :
    iprop(((Ms.view.loc (thrL d L) ↦[Ms.view.set]{fullShare} Ms.view.writes (Elt F) G [⟨Rect.whole S16x128,
            gatherPayload hg ((A.slice (Rect.unit (s := S100000x128) ![0, 0] S100000x128.size p) (fun _ => rfl)).view.read (Elt F) tbl)
              (rows (Mw.view.read (Elt F) fw) hn hin)⟩])
          ∗ (Mw.view.loc (thrL d L) ↦[Mw.view.set]{fullShare} fw)) ∗ Tk)
      ⊢ iprop((slotHolds m d L (A.view.read (Elt F) tbl) kX c Ms ∗ winHolds m d L kX c Mw) ∗ Tk) := by
  iintro ⟨⟨Hs, Hw⟩, Ht⟩
  isplitr [Ht]
  · isplitl [Hs]
    · unfold slotHolds
      iexists _
      isplitr
      · ipureintro
        exact fun s x => landed_read m d L hpre kX c Ms Mw A p tbl G fw hg hn hin hfw s x
      · iexact Hs
    · unfold winHolds
      iexists fw
      isplitr
      · ipureintro
        exact hfw
      · iexact Hw
  · iexact Ht

/-- The same for the entity table, whole. -/
theorem landed_ent (hpre : RangeOK m) (kX : Fin 3) (c : ℕ) (Ms : Memref sig .scVector .vmem S16x128 .f32)
    (Mw : Memref sig .scVector .vmem S16 .i32) (p : ∀ a, (![0, 0] : Fin 2 → Nat) a + S100000x128.size a ≤ S100000x128.size a)
    (G : Buf (Elt F) (Ms.view.loc (thrL d L))) (fw : Buf (Elt F) (Mw.view.loc (thrL d L))) (hg : S100000x128.Gathers 0 S16x128)
    (hn : S16.numel = S16x128.size hg.axis') (hin : ∀ x, (Mw.view.read (Elt F) fw x).toNat < S100000x128.size hg.axis) (Tk : sProp 𝕄)
    (hfw : ∀ z : S16.Idx, Mw.view.read (Elt F) fw z = col m d kX (ix1 (rowN L c (z 0).val))) :
    iprop(((Ms.view.loc (thrL d L) ↦[Ms.view.set]{fullShare} Ms.view.writes (Elt F) G [⟨Rect.whole S16x128,
            gatherPayload hg (((Memref.whole main_arg1_scv : Memref sig .scVector .hbm S100000x128 .f32).slice
                (Rect.unit (s := S100000x128) ![0, 0] S100000x128.size p) (fun _ => rfl)).view.read (Elt F) (m (entLoc d)))
              (rows (Mw.view.read (Elt F) fw) hn hin)⟩])
          ∗ (Mw.view.loc (thrL d L) ↦[Mw.view.set]{fullShare} fw)) ∗ Tk)
      ⊢ iprop((slotHolds m d L (m (entLoc d) : S100000x128.Idx → F .f32) kX c Ms ∗ winHolds m d L kX c Mw) ∗ Tk) :=
  landed m d L hpre kX c Ms Mw (Memref.whole main_arg1_scv : Memref sig .scVector .hbm S100000x128 .f32) p (m (entLoc d)) G fw hg hn hin Tk hfw

/-- The same for the relation table, whole. -/
theorem landed_rel (hpre : RangeOK m) (kX : Fin 3) (c : ℕ) (Ms : Memref sig .scVector .vmem S16x128 .f32)
    (Mw : Memref sig .scVector .vmem S16 .i32) (p : ∀ a, (![0, 0] : Fin 2 → Nat) a + S100000x128.size a ≤ S100000x128.size a)
    (G : Buf (Elt F) (Ms.view.loc (thrL d L))) (fw : Buf (Elt F) (Mw.view.loc (thrL d L))) (hg : S100000x128.Gathers 0 S16x128)
    (hn : S16.numel = S16x128.size hg.axis') (hin : ∀ x, (Mw.view.read (Elt F) fw x).toNat < S100000x128.size hg.axis) (Tk : sProp 𝕄)
    (hfw : ∀ z : S16.Idx, Mw.view.read (Elt F) fw z = col m d kX (ix1 (rowN L c (z 0).val))) :
    iprop(((Ms.view.loc (thrL d L) ↦[Ms.view.set]{fullShare} Ms.view.writes (Elt F) G [⟨Rect.whole S16x128,
            gatherPayload hg (((Memref.whole main_arg2_scv : Memref sig .scVector .hbm S100000x128 .f32).slice
                (Rect.unit (s := S100000x128) ![0, 0] S100000x128.size p) (fun _ => rfl)).view.read (Elt F) (m (relLoc d)))
              (rows (Mw.view.read (Elt F) fw) hn hin)⟩])
          ∗ (Mw.view.loc (thrL d L) ↦[Mw.view.set]{fullShare} fw)) ∗ Tk)
      ⊢ iprop((slotHolds m d L (m (relLoc d) : S100000x128.Idx → F .f32) kX c Ms ∗ winHolds m d L kX c Mw) ∗ Tk) :=
  landed m d L hpre kX c Ms Mw (Memref.whole main_arg2_scv : Memref sig .scVector .hbm S100000x128 .f32) p (m (relLoc d)) G fw hg hn hin Tk hfw

end Cert.Proof.KI

end
-- ==== Proof.KI.ScoreStep.lean ====
/-
  The score scratch across the counted loop. After k trips its first 16k words are the kernel's sums for the worker's rows
  0 … 16k − 1; trip k stores the sixteen sums of chunk k at words 16k … 16k + 15 and leaves every other word alone, so after
  it the first 16 (k + 1) words are right; after the 32nd trip all 512 are.
-/
import proofs.«209583_g49984829390938_cont_8to1c4_457_35_alg».proof.Proof.KI.LoopInv
import proofs.«209583_g49984829390938_cont_8to1c4_457_35_alg».proof.Proof.KI.SlotRead
import proofs.«209583_g49984829390938_cont_8to1c4_457_35_alg».proof.Proof.KI.TileOwn
import Idealize.ShloMosaic.Lib.Writes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-- Before any trip nothing is claimed of the score scratch. -/
theorem score_zero [FloatOps F] (g : S512.Idx → F .f32) : ScoreHolds m d L 0 g := by
  intro i hi
  omega

/-- Row 16k + s of the worker, counted from chunk 0, is row s of chunk k. -/
theorem rowN_chunk (k s : ℕ) : rowN L 0 (16 * k + s) = rowN L k s := by
  apply Fin.ext
  show (512 * (tL L).val + 16 * 0 + (16 * k + s)) % 16384 = (512 * (tL L).val + 16 * k + s) % 16384
  congr 1
  omega

/-- One trip: the sixteen sums of chunk k stored at words 16k … 16k + 15 over contents that hold the first 16k words give
    contents that hold the first 16 (k + 1). A word before 16k lies outside the stored rectangle and keeps its value; a word
    16k + s inside it reads the stored vector's lane s, the sum for the worker's row 16k + s. -/
theorem score_step [FloatOps F] (k : Fin k0_t1_loop.trips)
    (g : Buf (Elt F) ((Memref.whole cc0_scratch7 : Memref sig .scVector .vmem S512 .f32).view.loc (thrL d L))) (V : S16.Idx → F .f32)
    (hg : ScoreHolds m d L k.val g) (hV : ∀ s : S16.Idx, V s = kout m d (ix1 (rowN L k.val (s 0).val))) :
    ScoreHolds m d L (k.val + 1)
      ((Memref.whole cc0_scratch7 : Memref sig .scVector .vmem S512 .f32).view.writes (Elt F) g [⟨Rect.unit (s := S512) (k0_off137 k) S16.size (k0_off137_inb k), V⟩]) := by
  intro i hi
  have hk := trip_lt k
  have hoff : k0_off137 k 0 = 16 * k.val := congrFun (k0_off137_eq k) 0
  by_cases hlt : i.val < 16 * k.val
  · -- before the stored words: the prior contents
    have hnot : ∀ p ∈ ([⟨Rect.unit (s := S512) (k0_off137 k) S16.size (k0_off137_inb k), V⟩] : List (View.Piece (Elt F) S512 .f32)),
        (ix1 i : S512.Idx) ∉ p.1.set := by
      intro p hp
      rw [List.mem_singleton] at hp
      subst hp
      intro hmem
      have hmem' : (ix1 i : S512.Idx) ∈ (Rect.unit (s := S512) (k0_off137 k) S16.size (k0_off137_inb k)).set := hmem
      have h0 := (Rect.mem_set_unit.mp hmem') 0
      have h1 : k0_off137 k 0 ≤ i.val ∧ i.val < k0_off137 k 0 + 16 := h0
      rw [hoff] at h1
      omega
    have hread := View.read_writes_apply_of_forall_not_mem (Memref.whole cc0_scratch7 : Memref sig .scVector .vmem S512 .f32).view g (ix1 i) _ hnot
    exact hread.trans (hg i hlt)
  · -- among the stored words: lane i - 16k of the stored vector
    have hs : i.val - 16 * k.val < 16 := by omega
    have hemb : (Rect.unit (s := S512) (k0_off137 k) S16.size (k0_off137_inb k)).emb (ix1 (⟨i.val - 16 * k.val, hs⟩ : Fin 16)) = ix1 i := by
      funext a
      match a with
      | ⟨0, _⟩ =>
        apply Fin.ext
        show k0_off137 k 0 + 1 * (i.val - 16 * k.val) = i.val
        rw [hoff]
        omega
    have hread := View.read_writes_cons_emb (Memref.whole cc0_scratch7 : Memref sig .scVector .vmem S512 .f32).view g (Rect.unit (s := S512) (k0_off137 k) S16.size (k0_off137_inb k)) V []
      (ix1 (⟨i.val - 16 * k.val, hs⟩ : Fin 16))
    rw [hemb] at hread
    refine hread.trans ((hV _).trans ?_)
    show kout m d (ix1 (rowN L k.val (i.val - 16 * k.val))) = kout m d (ix1 (rowN L 0 i.val))
    rw [← rowN_chunk L k.val (i.val - 16 * k.val)]
    refine congrArg (fun n : ℕ => kout m d (ix1 (rowN L 0 n))) ?_
    omega

/-- After the last trip every word of the score scratch is the kernel's sum for the worker's row. -/
theorem score_all [FloatOps F] (g : S512.Idx → F .f32) (hg : ScoreHolds m d L 32 g) :
    ∀ i : Fin 512, g (ix1 i) = kout m d (ix1 (⟨512 * (tL L).val + i.val, by have := (tL L).isLt; have := i.isLt; omega⟩ : Fin 16384)) := by
  intro i
  have ht := (tL L).isLt
  have hi := i.isLt
  rw [hg i (by omega)]
  refine congrArg (fun n : Fin 16384 => kout m d (ix1 n)) (Fin.ext ?_)
  show (512 * (tL L).val + 16 * 0 + i.val) % 16384 = 512 * (tL L).val + i.val
  rw [Nat.mod_eq_of_lt (by omega)]
  omega

end Tile
end Cert.Proof.KI
end
-- ==== Proof.KI.Checks.lean ====
/-
  The sixteen gathers out of the partial-sum buffer read inside it.

  The j-th gather's index vector is the lane numbers times sixteen plus j, on 32-bit words: lane x of it is 16·x + j, with no
  wrap since x, j < 16. So every index is below 256, the buffer's length.
-/
import proofs.«209583_g49984829390938_cont_8to1c4_457_35_alg».proof.Proof.Gen.KernelIdeal.Skeleton

noncomputable section

namespace Cert.Proof.KI

open Cert.KernelIdeal Cert.KernelIdeal.Gen

open Idealize.ShloMosaic

/-- The lane numbers 0, …, 15. -/
local notation "lanes" => (iota Kind.scVector S16 32 [0] Facts₀.iota_S16_d0_w32_scVector : IVec S16 32)

/-- Lane x of (lane numbers · 16 + j) is 16·x + j. -/
theorem idx_val (h : S16.Iotas .scVector 32 [0]) (j : Nat) (hj : j < 16) (x : S16.Idx) :
    ((addi (muli (iota .scVector S16 32 [0] h) (broadcast S16 16#32)) (broadcast S16 (BitVec.ofNat 32 j))) x).toNat
      = 16 * (x 0).val + j := by
  have hx : (x 0).val < 16 := (x 0).isLt
  show (BitVec.ofNat 32 (0 * 16 + (x 0).val) * 16#32 + BitVec.ofNat 32 j).toNat = _
  simp only [BitVec.toNat_add, BitVec.toNat_mul, BitVec.toNat_ofNat, Nat.reducePow, Nat.zero_mul, Nat.zero_add]
  omega

theorem idx_lt (h : S16.Iotas .scVector 32 [0]) (j : Nat) (hj : j < 16) (x : S16.Idx) :
    ((addi (muli (iota .scVector S16 32 [0] h) (broadcast S16 16#32)) (broadcast S16 (BitVec.ofNat 32 j))) x).toNat < 256 := by
  have hx : (x 0).val < 16 := (x 0).isLt
  rw [idx_val h j hj x]
  omega

/-- One index vector whose lanes are all below 256 names elements of the 256-long buffer. -/
theorem inb_of_lt (v : IVec S16 32) (h : ∀ x, (v x).toNat < 256) :
    ∀ (a : Fin 1) (x : S16.Idx), ((![v] : Fin 1 → IVec S16 32) a x).toNat < S256.size a := by
  intro a x
  match a with
  | ⟨0, _⟩ => exact h x

/-- Gather 1 reads lane x at 16·x + 0. -/
theorem val1 (x : S16.Idx) : ((k0_pay174 lanes) x).toNat = 16 * (x 0).val + 0 := idx_val _ 0 (by decide) x
theorem chk1 : k0_chk1 (k0_pay174 lanes) := inb_of_lt _ fun x => idx_lt _ 0 (by decide) x

/-- Gather 2 reads lane x at 16·x + 1. -/
theorem val2 (x : S16.Idx) : ((k0_pay175 lanes) x).toNat = 16 * (x 0).val + 1 := idx_val _ 1 (by decide) x
theorem chk2 : k0_chk2 (k0_pay175 lanes) := inb_of_lt _ fun x => idx_lt _ 1 (by decide) x

/-- Gather 3 reads lane x at 16·x + 2. -/
theorem val3 (x : S16.Idx) : ((k0_pay176 lanes) x).toNat = 16 * (x 0).val + 2 := idx_val _ 2 (by decide) x
theorem chk3 : k0_chk3 (k0_pay176 lanes) := inb_of_lt _ fun x => idx_lt _ 2 (by decide) x

/-- Gather 4 reads lane x at 16·x + 3. -/
theorem val4 (x : S16.Idx) : ((k0_pay177 lanes) x).toNat = 16 * (x 0).val + 3 := idx_val _ 3 (by decide) x
theorem chk4 : k0_chk4 (k0_pay177 lanes) := inb_of_lt _ fun x => idx_lt _ 3 (by decide) x

/-- Gather 5 reads lane x at 16·x + 4. -/
theorem val5 (x : S16.Idx) : ((k0_pay178 lanes) x).toNat = 16 * (x 0).val + 4 := idx_val _ 4 (by decide) x
theorem chk5 : k0_chk5 (k0_pay178 lanes) := inb_of_lt _ fun x => idx_lt _ 4 (by decide) x

/-- Gather 6 reads lane x at 16·x + 5. -/
theorem val6 (x : S16.Idx) : ((k0_pay179 lanes) x).toNat = 16 * (x 0).val + 5 := idx_val _ 5 (by decide) x
theorem chk6 : k0_chk6 (k0_pay179 lanes) := inb_of_lt _ fun x => idx_lt _ 5 (by decide) x

/-- Gather 7 reads lane x at 16·x + 6. -/
theorem val7 (x : S16.Idx) : ((k0_pay180 lanes) x).toNat = 16 * (x 0).val + 6 := idx_val _ 6 (by decide) x
theorem chk7 : k0_chk7 (k0_pay180 lanes) := inb_of_lt _ fun x => idx_lt _ 6 (by decide) x

/-- Gather 8 reads lane x at 16·x + 7. -/
theorem val8 (x : S16.Idx) : ((k0_pay181 lanes) x).toNat = 16 * (x 0).val + 7 := idx_val _ 7 (by decide) x
theorem chk8 : k0_chk8 (k0_pay181 lanes) := inb_of_lt _ fun x => idx_lt _ 7 (by decide) x

/-- Gather 9 reads lane x at 16·x + 8. -/
theorem val9 (x : S16.Idx) : ((k0_pay182 lanes) x).toNat = 16 * (x 0).val + 8 := idx_val _ 8 (by decide) x
theorem chk9 : k0_chk9 (k0_pay182 lanes) := inb_of_lt _ fun x => idx_lt _ 8 (by decide) x

/-- Gather 10 reads lane x at 16·x + 9. -/
theorem val10 (x : S16.Idx) : ((k0_pay183 lanes) x).toNat = 16 * (x 0).val + 9 := idx_val _ 9 (by decide) x
theorem chk10 : k0_chk10 (k0_pay183 lanes) := inb_of_lt _ fun x => idx_lt _ 9 (by decide) x

/-- Gather 11 reads lane x at 16·x + 10. -/
theorem val11 (x : S16.Idx) : ((k0_pay184 lanes) x).toNat = 16 * (x 0).val + 10 := idx_val _ 10 (by decide) x
theorem chk11 : k0_chk11 (k0_pay184 lanes) := inb_of_lt _ fun x => idx_lt _ 10 (by decide) x

/-- Gather 12 reads lane x at 16·x + 11. -/
theorem val12 (x : S16.Idx) : ((k0_pay185 lanes) x).toNat = 16 * (x 0).val + 11 := idx_val _ 11 (by decide) x
theorem chk12 : k0_chk12 (k0_pay185 lanes) := inb_of_lt _ fun x => idx_lt _ 11 (by decide) x

/-- Gather 13 reads lane x at 16·x + 12. -/
theorem val13 (x : S16.Idx) : ((k0_pay187 (k0_pay186 lanes)) x).toNat = 16 * (x 0).val + 12 := idx_val _ 12 (by decide) x
theorem chk13 : k0_chk13 (k0_pay187 (k0_pay186 lanes)) := inb_of_lt _ fun x => idx_lt _ 12 (by decide) x

/-- Gather 14 reads lane x at 16·x + 13. -/
theorem val14 (x : S16.Idx) : ((addi (k0_pay188 lanes) k0_pay189) x).toNat = 16 * (x 0).val + 13 := idx_val _ 13 (by decide) x
theorem chk14 : k0_chk14 (addi (k0_pay188 lanes) k0_pay189) := inb_of_lt _ fun x => idx_lt _ 13 (by decide) x

/-- Gather 15 reads lane x at 16·x + 14. -/
theorem val15 (x : S16.Idx) : ((k0_pay1 lanes) x).toNat = 16 * (x 0).val + 14 := idx_val _ 14 (by decide) x
theorem chk15 : k0_chk15 (k0_pay1 lanes) := inb_of_lt _ fun x => idx_lt _ 14 (by decide) x

/-- Gather 16 reads lane x at 16·x + 15. -/
theorem val16 (x : S16.Idx) : ((k0_pay2 lanes) x).toNat = 16 * (x 0).val + 15 := idx_val _ 15 (by decide) x
theorem chk16 : k0_chk16 (k0_pay2 lanes) := inb_of_lt _ fun x => idx_lt _ 15 (by decide) x

end Cert.Proof.KI

end
-- ==== Proof.KI.ScoreVal.lean ====
/-
  The value one trip leaves in the score scratch.

  Row s of the chunk is reduced lane-block by lane-block: for each of the eight 16-lane blocks kk the term
  |h + (r − t)| on the three loaded pieces, the eight terms summed as a balanced tree, into words 16·s … 16·s + 15 of the
  transpose scratch. A loaded piece of row s at block kk holds at lane l the landed slot's element (s, 16·kk + l), which is the
  table's element at the row the sample names for the chunk's row s; so word 16·s + l of the scratch is the balanced tree over
  kk of the coordinate terms at 16·kk + l. The j-th indexed load reads word 16·x + j at lane x, and the stored score is
  12 minus the balanced tree over j of those: lane x of it is the kernel's score of the chunk's row x.
-/
import proofs.«209583_g49984829390938_cont_8to1c4_457_35_alg».proof.Proof.KI.LoopInv
import proofs.«209583_g49984829390938_cont_8to1c4_457_35_alg».proof.Proof.KI.SlotRead
import proofs.«209583_g49984829390938_cont_8to1c4_457_35_alg».proof.Proof.KI.Checks
import proofs.«209583_g49984829390938_cont_8to1c4_457_35_alg».proof.Proof.Gen.KernelIdeal.Skeleton

noncomputable section

namespace Cert.Proof.KI

open Cert.KernelIdeal Cert.KernelIdeal.Gen

open Idealize.ShloMosaic Idealize.ShloMosaic.ValueIdx

variable {F : FTy → Type} [FloatOps F] (m : (ℓ : Loc nD τ sig) → Buf (Elt F) ℓ) (d : Dev nD) (L : grid0.Coords)

local notation "bufHW" => (Memref.whole Cert.KernelIdeal.cc0_scratch3 : Memref Cert.KernelIdeal.sig Kind.scVector Space.vmem Cert.KernelIdeal.S8x16x128 EltTy.f32)
local notation "bufRW" => (Memref.whole Cert.KernelIdeal.cc0_scratch4 : Memref Cert.KernelIdeal.sig Kind.scVector Space.vmem Cert.KernelIdeal.S8x16x128 EltTy.f32)
local notation "bufTW" => (Memref.whole Cert.KernelIdeal.cc0_scratch5 : Memref Cert.KernelIdeal.sig Kind.scVector Space.vmem Cert.KernelIdeal.S8x16x128 EltTy.f32)
local notation "pmatW" => (Memref.whole Cert.KernelIdeal.cc0_scratch6 : Memref Cert.KernelIdeal.sig Kind.scVector Space.vmem Cert.KernelIdeal.S256 EltTy.f32)

/-! ## The landed slot as the loop's wait spells it -/

/-- Reading through the slot the wait addresses (offset the trip's own word) is reading the row buffer at (k mod 8, ·, ·). -/
theorem prog_slot_read (B : Memref sig .scVector .vmem S8x16x128 .f32) (k : Fin k0_t1_loop.trips) (G : B.view.ty.Contents (Elt F)) (y : S16x128.Idx) :
    ((B.slice (Rect.unit (s := S8x16x128) (k0_off7 k) S1x16x128.size (k0_off7_inb k)) (fun _ => rfl)).squeeze S16x128 Facts₀.squeezes_S1x16x128_S16x128).view.read (Elt F) G y
      = B.view.read (Elt F) G (ix3 (⟨k.val % 8, Nat.mod_lt _ (by decide)⟩ : Fin 8) (y 0) (y 1)) := by
  have he : ((B.slice (Rect.unit (s := S8x16x128) (k0_off7 k) S1x16x128.size (k0_off7_inb k)) (fun _ => rfl)).squeeze S16x128 Facts₀.squeezes_S1x16x128_S16x128).view.emb y
      = B.view.emb (ix3 (⟨k.val % 8, Nat.mod_lt _ (by decide)⟩ : Fin 8) (y 0) (y 1)) := by
    show B.view.emb ((Rect.unit (s := S8x16x128) (k0_off7 k) S1x16x128.size (k0_off7_inb k)).emb
        (Shape.reshapeEquiv (Shape.Squeezes.numel_eq Facts₀.squeezes_S1x16x128_S16x128) y)) = _
    congr 1
    have hre : Shape.reshapeEquiv (Shape.Squeezes.numel_eq Facts₀.squeezes_S1x16x128_S16x128) y = (ix3 (0 : Fin 1) (y 0) (y 1) : S1x16x128.Idx) :=
      Shape.reshapeEquiv_eq_of_rowMajor _ (by
        rw [Shape.rowMajor_val_three, Shape.rowMajor_val_two]
        show (0 * 16 + (y 0).val) * 128 + (y 1).val = (y 0).val * 128 + (y 1).val
        omega)
    refine (congrArg (fun j => (Rect.unit (s := S8x16x128) (k0_off7 k) S1x16x128.size (k0_off7_inb k)).emb j) hre).trans ?_
    funext a
    apply Fin.ext
    show k0_off7 k a + 1 * ((ix3 (0 : Fin 1) (y 0) (y 1) : S1x16x128.Idx) a).val = _
    rw [k0_off7_eq k]
    match a with
    | ⟨0, _⟩ => show k.val % 8 + 1 * 0 = k.val % 8; omega
    | ⟨1, _⟩ => show 0 + 1 * (y 0).val = (y 0).val; omega
    | ⟨2, _⟩ => show 0 + 1 * (y 1).val = (y 1).val; omega
  rw [View.read_apply, View.read_apply, he]

/-- A hypothesis on the landed slot, restated on the row buffer. -/
theorem whole_of_prog (B : Memref sig .scVector .vmem S8x16x128 .f32) (k : Fin k0_t1_loop.trips) (G : B.view.ty.Contents (Elt F))
    (R : Fin 16 → Fin 128 → F .f32)
    (h : ∀ (s : Fin 16) (x : Fin 128), ((B.slice (Rect.unit (s := S8x16x128) (k0_off7 k) S1x16x128.size (k0_off7_inb k)) (fun _ => rfl)).squeeze S16x128
        Facts₀.squeezes_S1x16x128_S16x128).view.read (Elt F) G (ix2 s x) = R s x) (s : Fin 16) (x : Fin 128) :
    B.view.read (Elt F) G (ix3 (⟨k.val % 8, Nat.mod_lt _ (by decide)⟩ : Fin 8) s x) = R s x :=
  (prog_slot_read B k G (ix2 s x)).symm.trans (h s x)

/-! ## One row into the transpose scratch -/

/-- A balanced tree over eight 16-vectors, lane by lane. -/
def vtree8 (f : Fin 8 → FVec F S16 .f32) : FVec F S16 .f32 :=
  addf (addf (addf (f 0) (f 1)) (addf (f 2) (f 3))) (addf (addf (f 4) (f 5)) (addf (f 6) (f 7)))

theorem vtree8_apply (f : Fin 8 → FVec F S16 .f32) (x : S16.Idx) : vtree8 f x = tree8 (fun kk => f kk x) := rfl

/-- Row s's sixteen words, from the 24 loaded pieces at the eight lane blocks' offsets, in the kernel's order. -/
def rowTerm (LH : (bufHW).view.ty.Contents (Elt F)) (LR : (bufRW).view.ty.Contents (Elt F)) (LT : (bufTW).view.ty.Contents (Elt F))
    (offs : Fin 8 → Fin 3 → ℕ) (inbs : ∀ kk a, offs kk a + S1x1x16.size a ≤ S8x16x128.size a) (hc : S1x1x16.ShapeCasts S16) : FVec F S16 .f32 :=
  vtree8 fun kk => absf (addf
    (shapeCast S16 ((bufHW).view.readAt (Elt F) (Rect.unit (s := S8x16x128) (offs kk) S1x1x16.size (inbs kk)).toLoadRect LH) hc : FVec F S16 .f32)
    (subf (shapeCast S16 ((bufRW).view.readAt (Elt F) (Rect.unit (s := S8x16x128) (offs kk) S1x1x16.size (inbs kk)).toLoadRect LR) hc : FVec F S16 .f32)
      (shapeCast S16 ((bufTW).view.readAt (Elt F) (Rect.unit (s := S8x16x128) (offs kk) S1x1x16.size (inbs kk)).toLoadRect LT) hc : FVec F S16 .f32)))

/-- Word l of row s: the balanced tree over the lane blocks of the row's coordinate terms at 16·kk + l. -/
theorem row_val (k : Fin k0_t1_loop.trips) (LH : (bufHW).view.ty.Contents (Elt F)) (LR : (bufRW).view.ty.Contents (Elt F))
    (LT : (bufTW).view.ty.Contents (Elt F))
    (hH : ∀ (s : Fin 16) (x : Fin 128), (bufHW).view.read (Elt F) LH (ix3 (⟨k.val % 8, Nat.mod_lt _ (by decide)⟩ : Fin 8) s x)
      = (m (entLoc d) : S100000x128.Idx → F .f32) (ix2 (Cert.Score.rowIx (col m d 0 (ix1 (rowN L k.val s.val)))) x))
    (hR : ∀ (s : Fin 16) (x : Fin 128), (bufRW).view.read (Elt F) LR (ix3 (⟨k.val % 8, Nat.mod_lt _ (by decide)⟩ : Fin 8) s x)
      = (m (relLoc d) : S100000x128.Idx → F .f32) (ix2 (Cert.Score.rowIx (col m d 1 (ix1 (rowN L k.val s.val)))) x))
    (hT : ∀ (s : Fin 16) (x : Fin 128), (bufTW).view.read (Elt F) LT (ix3 (⟨k.val % 8, Nat.mod_lt _ (by decide)⟩ : Fin 8) s x)
      = (m (entLoc d) : S100000x128.Idx → F .f32) (ix2 (Cert.Score.rowIx (col m d 2 (ix1 (rowN L k.val s.val)))) x))
    (s : ℕ) (hs : s < 16) (offs : Fin 8 → Fin 3 → ℕ) (inbs : ∀ kk a, offs kk a + S1x1x16.size a ≤ S8x16x128.size a)
    (hc : S1x1x16.ShapeCasts S16) (hoffs : ∀ kk : Fin 8, offs kk = ![k.val % 8, s, 16 * kk.val]) (l : Fin 16) :
    rowTerm LH LR LT offs inbs hc (ix1 l)
      = tree8 fun kk => lane m d (rowN L k.val s) (⟨16 * kk.val + l.val, by omega⟩ : Fin 128) := by
  show tree8 (fun kk => FloatOps.absf (FloatOps.addf
      (shapeCast S16 ((bufHW).view.readAt (Elt F) (Rect.unit (s := S8x16x128) (offs kk) S1x1x16.size (inbs kk)).toLoadRect LH) hc (ix1 l))
      (FloatOps.subf (shapeCast S16 ((bufRW).view.readAt (Elt F) (Rect.unit (s := S8x16x128) (offs kk) S1x1x16.size (inbs kk)).toLoadRect LR) hc (ix1 l))
        (shapeCast S16 ((bufTW).view.readAt (Elt F) (Rect.unit (s := S8x16x128) (offs kk) S1x1x16.size (inbs kk)).toLoadRect LT) hc (ix1 l))))) = _
  congr 1
  funext kk
  rw [piece_read (bufHW) LH (offs kk) (inbs kk) hc (k.val % 8) s kk.val (Nat.mod_lt _ (by decide)) hs kk.isLt (hoffs kk) (ix1 l),
    piece_read (bufRW) LR (offs kk) (inbs kk) hc (k.val % 8) s kk.val (Nat.mod_lt _ (by decide)) hs kk.isLt (hoffs kk) (ix1 l),
    piece_read (bufTW) LT (offs kk) (inbs kk) hc (k.val % 8) s kk.val (Nat.mod_lt _ (by decide)) hs kk.isLt (hoffs kk) (ix1 l),
    hH ⟨s, hs⟩, hR ⟨s, hs⟩, hT ⟨s, hs⟩]
  rfl

/-- Eight in-bounds facts as one. -/
theorem inbs8 (o : Fin 8 → Fin 3 → ℕ)
    (h0 : ∀ a, o 0 a + S1x1x16.size a ≤ S8x16x128.size a) (h1 : ∀ a, o 1 a + S1x1x16.size a ≤ S8x16x128.size a)
    (h2 : ∀ a, o 2 a + S1x1x16.size a ≤ S8x16x128.size a) (h3 : ∀ a, o 3 a + S1x1x16.size a ≤ S8x16x128.size a)
    (h4 : ∀ a, o 4 a + S1x1x16.size a ≤ S8x16x128.size a) (h5 : ∀ a, o 5 a + S1x1x16.size a ≤ S8x16x128.size a)
    (h6 : ∀ a, o 6 a + S1x1x16.size a ≤ S8x16x128.size a) (h7 : ∀ a, o 7 a + S1x1x16.size a ≤ S8x16x128.size a) :
    ∀ kk a, o kk a + S1x1x16.size a ≤ S8x16x128.size a := by
  intro kk
  fin_cases kk <;> assumption

/-- Eight offset equations as one. -/
theorem hoffs8 (o : Fin 8 → Fin 3 → ℕ) (b s : ℕ)
    (e0 : o 0 = ![b, s, 0]) (e1 : o 1 = ![b, s, 16]) (e2 : o 2 = ![b, s, 32]) (e3 : o 3 = ![b, s, 48])
    (e4 : o 4 = ![b, s, 64]) (e5 : o 5 = ![b, s, 80]) (e6 : o 6 = ![b, s, 96]) (e7 : o 7 = ![b, s, 112]) :
    ∀ kk : Fin 8, o kk = ![b, s, 16 * kk.val] := by
  intro kk
  fin_cases kk <;> assumption

/-! ## The score from the sixteen rows -/

/-- The stored score, lane by lane: 12 minus the balanced tree over the sixteen gathered vectors. -/
theorem pay3_lane (v0 v1 v2 v3 v4 v5 v6 v7 v8 v9 v10 v11 v12 v13 v14 v15 : Vec F S16 .f32) (s : S16.Idx) :
    k0_pay3 v0 v1 v2 v3 v4 v5 v6 v7 v8 v9 v10 v11 v12 v13 v14 v15 s
      = FloatOps.subf (Scalar.ofBits .f32 0x41400000#32) (tree16 fun j => (![v0, v1, v2, v3, v4, v5, v6, v7, v8, v9, v10, v11, v12, v13, v14, v15] j) s) := rfl

/-- The score of the chunk's row x, from the sixteen rows' words in the transpose scratch. -/
theorem score_of_rows (k : Fin k0_t1_loop.trips) (g6 : (pmatW).view.ty.Contents (Elt F))
    (P0 P1 P2 P3 P4 P5 P6 P7 P8 P9 P10 P11 P12 P13 P14 P15 : S16.Idx → Elt F .f32)
    (i0 : ∀ a, (![0] : Fin 1 → ℕ) a + S16.size a ≤ S256.size a)
    (i1 : ∀ a, (![16] : Fin 1 → ℕ) a + S16.size a ≤ S256.size a)
    (i2 : ∀ a, (![32] : Fin 1 → ℕ) a + S16.size a ≤ S256.size a)
    (i3 : ∀ a, (![48] : Fin 1 → ℕ) a + S16.size a ≤ S256.size a)
    (i4 : ∀ a, (![64] : Fin 1 → ℕ) a + S16.size a ≤ S256.size a)
    (i5 : ∀ a, (![80] : Fin 1 → ℕ) a + S16.size a ≤ S256.size a)
    (i6 : ∀ a, (![96] : Fin 1 → ℕ) a + S16.size a ≤ S256.size a)
    (i7 : ∀ a, (![112] : Fin 1 → ℕ) a + S16.size a ≤ S256.size a)
    (i8 : ∀ a, (![128] : Fin 1 → ℕ) a + S16.size a ≤ S256.size a)
    (i9 : ∀ a, (![144] : Fin 1 → ℕ) a + S16.size a ≤ S256.size a)
    (i10 : ∀ a, (![160] : Fin 1 → ℕ) a + S16.size a ≤ S256.size a)
    (i11 : ∀ a, (![176] : Fin 1 → ℕ) a + S16.size a ≤ S256.size a)
    (i12 : ∀ a, (![192] : Fin 1 → ℕ) a + S16.size a ≤ S256.size a)
    (i13 : ∀ a, (![208] : Fin 1 → ℕ) a + S16.size a ≤ S256.size a)
    (i14 : ∀ a, (![224] : Fin 1 → ℕ) a + S16.size a ≤ S256.size a)
    (i15 : ∀ a, (![240] : Fin 1 → ℕ) a + S16.size a ≤ S256.size a)
    (idx0 idx1 idx2 idx3 idx4 idx5 idx6 idx7 idx8 idx9 idx10 idx11 idx12 idx13 idx14 idx15 : IVec S16 32)
    (h0 : ∀ a x, ((![idx0] : Fin 1 → IVec S16 32) a x).toNat < S256.size a)
    (h1 : ∀ a x, ((![idx1] : Fin 1 → IVec S16 32) a x).toNat < S256.size a)
    (h2 : ∀ a x, ((![idx2] : Fin 1 → IVec S16 32) a x).toNat < S256.size a)
    (h3 : ∀ a x, ((![idx3] : Fin 1 → IVec S16 32) a x).toNat < S256.size a)
    (h4 : ∀ a x, ((![idx4] : Fin 1 → IVec S16 32) a x).toNat < S256.size a)
    (h5 : ∀ a x, ((![idx5] : Fin 1 → IVec S16 32) a x).toNat < S256.size a)
    (h6 : ∀ a x, ((![idx6] : Fin 1 → IVec S16 32) a x).toNat < S256.size a)
    (h7 : ∀ a x, ((![idx7] : Fin 1 → IVec S16 32) a x).toNat < S256.size a)
    (h8 : ∀ a x, ((![idx8] : Fin 1 → IVec S16 32) a x).toNat < S256.size a)
    (h9 : ∀ a x, ((![idx9] : Fin 1 → IVec S16 32) a x).toNat < S256.size a)
    (h10 : ∀ a x, ((![idx10] : Fin 1 → IVec S16 32) a x).toNat < S256.size a)
    (h11 : ∀ a x, ((![idx11] : Fin 1 → IVec S16 32) a x).toNat < S256.size a)
    (h12 : ∀ a x, ((![idx12] : Fin 1 → IVec S16 32) a x).toNat < S256.size a)
    (h13 : ∀ a x, ((![idx13] : Fin 1 → IVec S16 32) a x).toNat < S256.size a)
    (h14 : ∀ a x, ((![idx14] : Fin 1 → IVec S16 32) a x).toNat < S256.size a)
    (h15 : ∀ a x, ((![idx15] : Fin 1 → IVec S16 32) a x).toNat < S256.size a)
    (w0 : ∀ x : S16.Idx, (idx0 x).toNat = 16 * (x 0).val + 0)
    (w1 : ∀ x : S16.Idx, (idx1 x).toNat = 16 * (x 0).val + 1)
    (w2 : ∀ x : S16.Idx, (idx2 x).toNat = 16 * (x 0).val + 2)
    (w3 : ∀ x : S16.Idx, (idx3 x).toNat = 16 * (x 0).val + 3)
    (w4 : ∀ x : S16.Idx, (idx4 x).toNat = 16 * (x 0).val + 4)
    (w5 : ∀ x : S16.Idx, (idx5 x).toNat = 16 * (x 0).val + 5)
    (w6 : ∀ x : S16.Idx, (idx6 x).toNat = 16 * (x 0).val + 6)
    (w7 : ∀ x : S16.Idx, (idx7 x).toNat = 16 * (x 0).val + 7)
    (w8 : ∀ x : S16.Idx, (idx8 x).toNat = 16 * (x 0).val + 8)
    (w9 : ∀ x : S16.Idx, (idx9 x).toNat = 16 * (x 0).val + 9)
    (w10 : ∀ x : S16.Idx, (idx10 x).toNat = 16 * (x 0).val + 10)
    (w11 : ∀ x : S16.Idx, (idx11 x).toNat = 16 * (x 0).val + 11)
    (w12 : ∀ x : S16.Idx, (idx12 x).toNat = 16 * (x 0).val + 12)
    (w13 : ∀ x : S16.Idx, (idx13 x).toNat = 16 * (x 0).val + 13)
    (w14 : ∀ x : S16.Idx, (idx14 x).toNat = 16 * (x 0).val + 14)
    (w15 : ∀ x : S16.Idx, (idx15 x).toNat = 16 * (x 0).val + 15)
    (hP : ∀ s l : Fin 16, (![P0, P1, P2, P3, P4, P5, P6, P7, P8, P9, P10, P11, P12, P13, P14, P15] s) (ix1 l)
      = tree8 fun kk => lane m d (rowN L k.val s.val) (⟨16 * kk.val + l.val, by omega⟩ : Fin 128))
    (s : S16.Idx) :
    k0_pay3
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx0] h0)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx1] h1)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx2] h2)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx3] h3)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx4] h4)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx5] h5)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx6] h6)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx7] h7)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx8] h8)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx9] h9)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx10] h10)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx11] h11)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx12] h12)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx13] h13)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx14] h14)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx15] h15) s
      = kout m d (ix1 (rowN L k.val (s 0).val)) := by
  have hs16 : (s 0).val < 16 := (s 0).isLt
  have inbF : ∀ (i : Fin 16) a, (![16 * i.val] : Fin 1 → ℕ) a + S16.size a ≤ S256.size a := fun i a => by
    have := i.isLt
    obtain rfl : a = 0 := Subsingleton.elim _ _
    show 16 * i.val + 16 ≤ 256
    omega
  have key : ∀ (idx : IVec S16 32) (h : ∀ a x, ((![idx] : Fin 1 → IVec S16 32) a x).toNat < S256.size a) (jj : ℕ) (hj : jj < 16)
      (hv : ∀ x : S16.Idx, (idx x).toNat = 16 * (x 0).val + jj),
      loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx] h s
        = tree8 fun kk => lane m d (rowN L k.val (s 0).val) (⟨16 * kk.val + jj, by omega⟩ : Fin 128) := by
    intro idx h jj hj hv
    rw [loadIdx_lane _ idx h s (16 * (s 0).val + jj) (by omega) (hv s), Memref.read_access_whole]
    exact (read_rows16 (pmatW).view g6 inbF ![P0, P1, P2, P3, P4, P5, P6, P7, P8, P9, P10, P11, P12, P13, P14, P15] (s 0) ⟨jj, hj⟩).trans (hP (s 0) ⟨jj, hj⟩)
  rw [pay3_lane]
  unfold kout
  congr 2
  funext j
  fin_cases j
  · exact key idx0 h0 0 (by decide) w0
  · exact key idx1 h1 1 (by decide) w1
  · exact key idx2 h2 2 (by decide) w2
  · exact key idx3 h3 3 (by decide) w3
  · exact key idx4 h4 4 (by decide) w4
  · exact key idx5 h5 5 (by decide) w5
  · exact key idx6 h6 6 (by decide) w6
  · exact key idx7 h7 7 (by decide) w7
  · exact key idx8 h8 8 (by decide) w8
  · exact key idx9 h9 9 (by decide) w9
  · exact key idx10 h10 10 (by decide) w10
  · exact key idx11 h11 11 (by decide) w11
  · exact key idx12 h12 12 (by decide) w12
  · exact key idx13 h13 13 (by decide) w13
  · exact key idx14 h14 14 (by decide) w14
  · exact key idx15 h15 15 (by decide) w15

end Cert.Proof.KI

end
-- ==== Proof.KI.Loop.lean ====
/-
  One trip of the counted loop keeps the invariant: trip k starts chunk k + 7 (when there is one) in the idle slot, waits for
  chunk k, reduces its sixteen rows through the transpose scratch into the score scratch, and leaves chunk k's slot idle.
-/
import proofs.«209583_g49984829390938_cont_8to1c4_457_35_alg».proof.Proof.KI.LoopInv
import proofs.«209583_g49984829390938_cont_8to1c4_457_35_alg».proof.Proof.KI.Landed
import proofs.«209583_g49984829390938_cont_8to1c4_457_35_alg».proof.Proof.KI.ScoreStep
import proofs.«209583_g49984829390938_cont_8to1c4_457_35_alg».proof.Proof.KI.ScoreVal
import proofs.«209583_g49984829390938_cont_8to1c4_457_35_alg».proof.Proof.KI.Checks
import proofs.«209583_g49984829390938_cont_8to1c4_457_35_alg».proof.Proof.Gen.KernelIdeal.Skeleton

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.SparseCore (gatherPayload rows)
variable (m : (ℓ : Loc nD τ sig) → Buf (Elt F) ℓ) [FloatOps F]

section Tile
variable (d : Dev nD) (L : grid0.Coords)

/-- The gather of chunk k + 7 of table H, as trip k issues it, is the invariant's flight of that chunk. -/
theorem flightH_of_issue (hpre : RangeOK m) (k : Fin k0_t1_loop.trips) (h : k0_cond1 k = 1#1)
    (G : Buf (Elt F) ((((Memref.whole cc0_scratch3 : Memref sig .scVector .vmem S8x16x128 .f32).slice (Rect.unit (s := S8x16x128) (k0_off4 k) S1x16x128.size (k0_off4_inb k h)) (fun _ => rfl)).squeeze S16x128 squeezes_S1x16x128_S16x128).view.loc (thrL d L))) (fw : Buf (Elt F) (((Memref.whole cc0_scratch0 : Memref sig .scVector .vmem S512 .i32).slice (Rect.unit (s := S512) (k0_off5 k) S16.size (k0_off5_inb k h)) (fun _ => rfl)).view.loc (thrL d L))) (hn) (hin)
    (hfw : ∀ z : S16.Idx, ((Memref.whole cc0_scratch0 : Memref sig .scVector .vmem S512 .i32).slice (Rect.unit (s := S512) (k0_off5 k) S16.size (k0_off5_inb k h)) (fun _ => rfl)).view.read (Elt F) fw z = col m d 0 (ix1 (rowN L (k.val + 7) (z 0).val))) :
    (Transfers.Flight (countersEmb (U := UU)) (thrL d L) (SemLoc.dma (((SemArray.slice cc0_scratch8 (Rect.unit (s := S8) (k0_off6 k) S1.size (k0_off6_inb k h))).squeeze S_ squeezes_S1_S_).sem)) (default : HIx 1) 65536
        iprop((((((Memref.whole cc0_scratch3 : Memref sig .scVector .vmem S8x16x128 .f32).slice (Rect.unit (s := S8x16x128) (k0_off4 k) S1x16x128.size (k0_off4_inb k h)) (fun _ => rfl)).squeeze S16x128 squeezes_S1x16x128_S16x128).view.loc (thrL d L) ↦[(((Memref.whole cc0_scratch3 : Memref sig .scVector .vmem S8x16x128 .f32).slice (Rect.unit (s := S8x16x128) (k0_off4 k) S1x16x128.size (k0_off4_inb k h)) (fun _ => rfl)).squeeze S16x128 squeezes_S1x16x128_S16x128).view.set]{fullShare}
              (((Memref.whole cc0_scratch3 : Memref sig .scVector .vmem S8x16x128 .f32).slice (Rect.unit (s := S8x16x128) (k0_off4 k) S1x16x128.size (k0_off4_inb k h)) (fun _ => rfl)).squeeze S16x128 squeezes_S1x16x128_S16x128).view.writes (Elt F) G [⟨Rect.whole S16x128, gatherPayload gathers_S100000x128_S16x128 (((Memref.whole main_arg1_scv : Memref sig .scVector .hbm S100000x128 .f32).slice (Rect.unit (s := S100000x128) ![0, 0] S100000x128.size inb_S100000x128_S100000x128_0_0) (fun _ => rfl)).view.read (Elt F) (m (entLoc d))) (rows (((Memref.whole cc0_scratch0 : Memref sig .scVector .vmem S512 .i32).slice (Rect.unit (s := S512) (k0_off5 k) S16.size (k0_off5_inb k h)) (fun _ => rfl)).view.read (Elt F) fw) hn hin)⟩])
            ∗ (((Memref.whole cc0_scratch0 : Memref sig .scVector .vmem S512 .i32).slice (Rect.unit (s := S512) (k0_off5 k) S16.size (k0_off5_inb k h)) (fun _ => rfl)).view.loc (thrL d L) ↦[((Memref.whole cc0_scratch0 : Memref sig .scVector .vmem S512 .i32).slice (Rect.unit (s := S512) (k0_off5 k) S16.size (k0_off5_inb k h)) (fun _ => rfl)).view.set]{fullShare} fw))
          ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (0 + (k.val + 7) % 8) (by have := Nat.mod_lt k.val (show 0 < 8 by decide); have := Nat.mod_lt (k.val + 7) (show 0 < 8 by decide); omega)} m (entLoc d))) : sProp 𝕄)
      ⊢ flightH m d L (k.val + 7) ((cond_iff k).mp h) := by
  unfold flightH delivH
  rw [← slot_issue (Memref.whole cc0_scratch3 : Memref sig .scVector .vmem S8x16x128 .f32) k h, ← win_issue (Memref.whole cc0_scratch0 : Memref sig .scVector .vmem S512 .i32) k h, ← sem_issue cc0_scratch8 k h]
  exact Transfers.Flight_mono (countersEmb (U := UU)) (thrL d L) (landed_ent m d L hpre 0 (k.val + 7) _ _ _ G fw gathers_S100000x128_S16x128 hn hin _ hfw)

/-- The gather of chunk k + 7 of table R, as trip k issues it, is the invariant's flight of that chunk. -/
theorem flightR_of_issue (hpre : RangeOK m) (k : Fin k0_t1_loop.trips) (h : k0_cond1 k = 1#1)
    (G : Buf (Elt F) ((((Memref.whole cc0_scratch4 : Memref sig .scVector .vmem S8x16x128 .f32).slice (Rect.unit (s := S8x16x128) (k0_off4 k) S1x16x128.size (k0_off4_inb k h)) (fun _ => rfl)).squeeze S16x128 squeezes_S1x16x128_S16x128).view.loc (thrL d L))) (fw : Buf (Elt F) (((Memref.whole cc0_scratch1 : Memref sig .scVector .vmem S512 .i32).slice (Rect.unit (s := S512) (k0_off5 k) S16.size (k0_off5_inb k h)) (fun _ => rfl)).view.loc (thrL d L))) (hn) (hin)
    (hfw : ∀ z : S16.Idx, ((Memref.whole cc0_scratch1 : Memref sig .scVector .vmem S512 .i32).slice (Rect.unit (s := S512) (k0_off5 k) S16.size (k0_off5_inb k h)) (fun _ => rfl)).view.read (Elt F) fw z = col m d 1 (ix1 (rowN L (k.val + 7) (z 0).val))) :
    (Transfers.Flight (countersEmb (U := UU)) (thrL d L) (SemLoc.dma (((SemArray.slice cc0_scratch9 (Rect.unit (s := S8) (k0_off6 k) S1.size (k0_off6_inb k h))).squeeze S_ squeezes_S1_S_).sem)) (default : HIx 1) 65536
        iprop((((((Memref.whole cc0_scratch4 : Memref sig .scVector .vmem S8x16x128 .f32).slice (Rect.unit (s := S8x16x128) (k0_off4 k) S1x16x128.size (k0_off4_inb k h)) (fun _ => rfl)).squeeze S16x128 squeezes_S1x16x128_S16x128).view.loc (thrL d L) ↦[(((Memref.whole cc0_scratch4 : Memref sig .scVector .vmem S8x16x128 .f32).slice (Rect.unit (s := S8x16x128) (k0_off4 k) S1x16x128.size (k0_off4_inb k h)) (fun _ => rfl)).squeeze S16x128 squeezes_S1x16x128_S16x128).view.set]{fullShare}
              (((Memref.whole cc0_scratch4 : Memref sig .scVector .vmem S8x16x128 .f32).slice (Rect.unit (s := S8x16x128) (k0_off4 k) S1x16x128.size (k0_off4_inb k h)) (fun _ => rfl)).squeeze S16x128 squeezes_S1x16x128_S16x128).view.writes (Elt F) G [⟨Rect.whole S16x128, gatherPayload gathers_S100000x128_S16x128 (((Memref.whole main_arg2_scv : Memref sig .scVector .hbm S100000x128 .f32).slice (Rect.unit (s := S100000x128) ![0, 0] S100000x128.size inb_S100000x128_S100000x128_0_0) (fun _ => rfl)).view.read (Elt F) (m (relLoc d))) (rows (((Memref.whole cc0_scratch1 : Memref sig .scVector .vmem S512 .i32).slice (Rect.unit (s := S512) (k0_off5 k) S16.size (k0_off5_inb k h)) (fun _ => rfl)).view.read (Elt F) fw) hn hin)⟩])
            ∗ (((Memref.whole cc0_scratch1 : Memref sig .scVector .vmem S512 .i32).slice (Rect.unit (s := S512) (k0_off5 k) S16.size (k0_off5_inb k h)) (fun _ => rfl)).view.loc (thrL d L) ↦[((Memref.whole cc0_scratch1 : Memref sig .scVector .vmem S512 .i32).slice (Rect.unit (s := S512) (k0_off5 k) S16.size (k0_off5_inb k h)) (fun _ => rfl)).view.set]{fullShare} fw))
          ∗ (((Memref.whole main_arg2_scv : Memref sig .scVector .hbm S100000x128 .f32).slice (Rect.unit (s := S100000x128) ![0, 0] S100000x128.size inb_S100000x128_S100000x128_0_0) (fun _ => rfl)).view.loc (thrL d L) ↦[((Memref.whole main_arg2_scv : Memref sig .scVector .hbm S100000x128 .f32).slice (Rect.unit (s := S100000x128) ![0, 0] S100000x128.size inb_S100000x128_S100000x128_0_0) (fun _ => rfl)).view.set]{tokQ L (8 + (k.val + 7) % 8) (by have := Nat.mod_lt k.val (show 0 < 8 by decide); have := Nat.mod_lt (k.val + 7) (show 0 < 8 by decide); omega)} m (relLoc d))) : sProp 𝕄)
      ⊢ flightR m d L (k.val + 7) ((cond_iff k).mp h) := by
  unfold flightR delivR
  rw [← slot_issue (Memref.whole cc0_scratch4 : Memref sig .scVector .vmem S8x16x128 .f32) k h, ← win_issue (Memref.whole cc0_scratch1 : Memref sig .scVector .vmem S512 .i32) k h, ← sem_issue cc0_scratch9 k h]
  exact Transfers.Flight_mono (countersEmb (U := UU)) (thrL d L) (landed_rel m d L hpre 1 (k.val + 7) _ _ _ G fw gathers_S100000x128_S16x128 hn hin _ hfw)

/-- The gather of chunk k + 7 of table T, as trip k issues it, is the invariant's flight of that chunk. -/
theorem flightT_of_issue (hpre : RangeOK m) (k : Fin k0_t1_loop.trips) (h : k0_cond1 k = 1#1)
    (G : Buf (Elt F) ((((Memref.whole cc0_scratch5 : Memref sig .scVector .vmem S8x16x128 .f32).slice (Rect.unit (s := S8x16x128) (k0_off4 k) S1x16x128.size (k0_off4_inb k h)) (fun _ => rfl)).squeeze S16x128 squeezes_S1x16x128_S16x128).view.loc (thrL d L))) (fw : Buf (Elt F) (((Memref.whole cc0_scratch2 : Memref sig .scVector .vmem S512 .i32).slice (Rect.unit (s := S512) (k0_off5 k) S16.size (k0_off5_inb k h)) (fun _ => rfl)).view.loc (thrL d L))) (hn) (hin)
    (hfw : ∀ z : S16.Idx, ((Memref.whole cc0_scratch2 : Memref sig .scVector .vmem S512 .i32).slice (Rect.unit (s := S512) (k0_off5 k) S16.size (k0_off5_inb k h)) (fun _ => rfl)).view.read (Elt F) fw z = col m d 2 (ix1 (rowN L (k.val + 7) (z 0).val))) :
    (Transfers.Flight (countersEmb (U := UU)) (thrL d L) (SemLoc.dma (((SemArray.slice cc0_scratch10 (Rect.unit (s := S8) (k0_off6 k) S1.size (k0_off6_inb k h))).squeeze S_ squeezes_S1_S_).sem)) (default : HIx 1) 65536
        iprop((((((Memref.whole cc0_scratch5 : Memref sig .scVector .vmem S8x16x128 .f32).slice (Rect.unit (s := S8x16x128) (k0_off4 k) S1x16x128.size (k0_off4_inb k h)) (fun _ => rfl)).squeeze S16x128 squeezes_S1x16x128_S16x128).view.loc (thrL d L) ↦[(((Memref.whole cc0_scratch5 : Memref sig .scVector .vmem S8x16x128 .f32).slice (Rect.unit (s := S8x16x128) (k0_off4 k) S1x16x128.size (k0_off4_inb k h)) (fun _ => rfl)).squeeze S16x128 squeezes_S1x16x128_S16x128).view.set]{fullShare}
              (((Memref.whole cc0_scratch5 : Memref sig .scVector .vmem S8x16x128 .f32).slice (Rect.unit (s := S8x16x128) (k0_off4 k) S1x16x128.size (k0_off4_inb k h)) (fun _ => rfl)).squeeze S16x128 squeezes_S1x16x128_S16x128).view.writes (Elt F) G [⟨Rect.whole S16x128, gatherPayload gathers_S100000x128_S16x128 (((Memref.whole main_arg1_scv : Memref sig .scVector .hbm S100000x128 .f32).slice (Rect.unit (s := S100000x128) ![0, 0] S100000x128.size inb_S100000x128_S100000x128_0_0) (fun _ => rfl)).view.read (Elt F) (m (entLoc d))) (rows (((Memref.whole cc0_scratch2 : Memref sig .scVector .vmem S512 .i32).slice (Rect.unit (s := S512) (k0_off5 k) S16.size (k0_off5_inb k h)) (fun _ => rfl)).view.read (Elt F) fw) hn hin)⟩])
            ∗ (((Memref.whole cc0_scratch2 : Memref sig .scVector .vmem S512 .i32).slice (Rect.unit (s := S512) (k0_off5 k) S16.size (k0_off5_inb k h)) (fun _ => rfl)).view.loc (thrL d L) ↦[((Memref.whole cc0_scratch2 : Memref sig .scVector .vmem S512 .i32).slice (Rect.unit (s := S512) (k0_off5 k) S16.size (k0_off5_inb k h)) (fun _ => rfl)).view.set]{fullShare} fw))
          ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (16 + (k.val + 7) % 8) (by have := Nat.mod_lt k.val (show 0 < 8 by decide); have := Nat.mod_lt (k.val + 7) (show 0 < 8 by decide); omega)} m (entLoc d))) : sProp 𝕄)
      ⊢ flightT m d L (k.val + 7) ((cond_iff k).mp h) := by
  unfold flightT delivT
  rw [← slot_issue (Memref.whole cc0_scratch5 : Memref sig .scVector .vmem S8x16x128 .f32) k h, ← win_issue (Memref.whole cc0_scratch2 : Memref sig .scVector .vmem S512 .i32) k h, ← sem_issue cc0_scratch10 k h]
  exact Transfers.Flight_mono (countersEmb (U := UU)) (thrL d L) (landed_ent m d L hpre 2 (k.val + 7) _ _ _ G fw gathers_S100000x128_S16x128 hn hin _ hfw)

omit [FloatOps F] in
/-- Eight chunks on, the same slot. -/
theorem idles_add8 (c : ℕ) : idles m d L (c + 8) = idles m d L c := by
  unfold idles
  simp only [Nat.add_mod_right]

/-- Chunk k's slot after its trip — its rows at some contents, its three semaphores back at zero, its three read tokens —
    is the idle slot of the virtual chunk k + 8. -/
theorem idles_of_trip (k : Fin k0_t1_loop.trips)
    (GH : Buf (Elt F) ((((Memref.whole cc0_scratch3 : Memref sig .scVector .vmem S8x16x128 .f32).slice (Rect.unit (s := S8x16x128) (k0_off7 k) S1x16x128.size (k0_off7_inb k)) (fun _ => rfl)).squeeze S16x128 squeezes_S1x16x128_S16x128).view.loc (thrL d L))) (GR : Buf (Elt F) ((((Memref.whole cc0_scratch4 : Memref sig .scVector .vmem S8x16x128 .f32).slice (Rect.unit (s := S8x16x128) (k0_off7 k) S1x16x128.size (k0_off7_inb k)) (fun _ => rfl)).squeeze S16x128 squeezes_S1x16x128_S16x128).view.loc (thrL d L))) (GT : Buf (Elt F) ((((Memref.whole cc0_scratch5 : Memref sig .scVector .vmem S8x16x128 .f32).slice (Rect.unit (s := S8x16x128) (k0_off7 k) S1x16x128.size (k0_off7_inb k)) (fun _ => rfl)).squeeze S16x128 squeezes_S1x16x128_S16x128).view.loc (thrL d L))) :
    iprop(((((Memref.whole cc0_scratch3 : Memref sig .scVector .vmem S8x16x128 .f32).slice (Rect.unit (s := S8x16x128) (k0_off7 k) S1x16x128.size (k0_off7_inb k)) (fun _ => rfl)).squeeze S16x128 squeezes_S1x16x128_S16x128).view.loc (thrL d L) ↦[(((Memref.whole cc0_scratch3 : Memref sig .scVector .vmem S8x16x128 .f32).slice (Rect.unit (s := S8x16x128) (k0_off7 k) S1x16x128.size (k0_off7_inb k)) (fun _ => rfl)).squeeze S16x128 squeezes_S1x16x128_S16x128).view.set]{fullShare} GH)
        ∗ semVal ((thrL d L, SemLoc.dma (((SemArray.slice cc0_scratch8 (Rect.unit (s := S8) (k0_off8 k) S1.size (k0_off8_inb k))).squeeze S_ squeezes_S1_S_).sem)) : GSem nD τ sig) 0
        ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (0 + k.val % 8) (by have := Nat.mod_lt k.val (show 0 < 8 by decide); have := Nat.mod_lt (k.val + 7) (show 0 < 8 by decide); omega)} m (entLoc d))
        ∗ ((((Memref.whole cc0_scratch4 : Memref sig .scVector .vmem S8x16x128 .f32).slice (Rect.unit (s := S8x16x128) (k0_off7 k) S1x16x128.size (k0_off7_inb k)) (fun _ => rfl)).squeeze S16x128 squeezes_S1x16x128_S16x128).view.loc (thrL d L) ↦[(((Memref.whole cc0_scratch4 : Memref sig .scVector .vmem S8x16x128 .f32).slice (Rect.unit (s := S8x16x128) (k0_off7 k) S1x16x128.size (k0_off7_inb k)) (fun _ => rfl)).squeeze S16x128 squeezes_S1x16x128_S16x128).view.set]{fullShare} GR)
        ∗ semVal ((thrL d L, SemLoc.dma (((SemArray.slice cc0_scratch9 (Rect.unit (s := S8) (k0_off8 k) S1.size (k0_off8_inb k))).squeeze S_ squeezes_S1_S_).sem)) : GSem nD τ sig) 0
        ∗ (((Memref.whole main_arg2_scv : Memref sig .scVector .hbm S100000x128 .f32).slice (Rect.unit (s := S100000x128) ![0, 0] S100000x128.size inb_S100000x128_S100000x128_0_0) (fun _ => rfl)).view.loc (thrL d L) ↦[((Memref.whole main_arg2_scv : Memref sig .scVector .hbm S100000x128 .f32).slice (Rect.unit (s := S100000x128) ![0, 0] S100000x128.size inb_S100000x128_S100000x128_0_0) (fun _ => rfl)).view.set]{tokQ L (8 + k.val % 8) (by have := Nat.mod_lt k.val (show 0 < 8 by decide); have := Nat.mod_lt (k.val + 7) (show 0 < 8 by decide); omega)} m (relLoc d))
        ∗ ((((Memref.whole cc0_scratch5 : Memref sig .scVector .vmem S8x16x128 .f32).slice (Rect.unit (s := S8x16x128) (k0_off7 k) S1x16x128.size (k0_off7_inb k)) (fun _ => rfl)).squeeze S16x128 squeezes_S1x16x128_S16x128).view.loc (thrL d L) ↦[(((Memref.whole cc0_scratch5 : Memref sig .scVector .vmem S8x16x128 .f32).slice (Rect.unit (s := S8x16x128) (k0_off7 k) S1x16x128.size (k0_off7_inb k)) (fun _ => rfl)).squeeze S16x128 squeezes_S1x16x128_S16x128).view.set]{fullShare} GT)
        ∗ semVal ((thrL d L, SemLoc.dma (((SemArray.slice cc0_scratch10 (Rect.unit (s := S8) (k0_off8 k) S1.size (k0_off8_inb k))).squeeze S_ squeezes_S1_S_).sem)) : GSem nD τ sig) 0
        ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (16 + k.val % 8) (by have := Nat.mod_lt k.val (show 0 < 8 by decide); have := Nat.mod_lt (k.val + 7) (show 0 < 8 by decide); omega)} m (entLoc d)))
      ⊢ idles m d L (k.val + 8) := by
  rw [idles_add8]
  unfold idles idleH idleR idleT slotAny
  rw [← slot_wait (Memref.whole cc0_scratch3 : Memref sig .scVector .vmem S8x16x128 .f32) k, ← slot_wait (Memref.whole cc0_scratch4 : Memref sig .scVector .vmem S8x16x128 .f32) k, ← slot_wait (Memref.whole cc0_scratch5 : Memref sig .scVector .vmem S8x16x128 .f32) k,
    ← sem_wait cc0_scratch8 k, ← sem_wait cc0_scratch9 k, ← sem_wait cc0_scratch10 k]
  iintro ⟨HbH, HzH, HtH, HbR, HzR, HtR, HbT, HzT, HtT⟩
  isplitl [HbH HzH HtH]
  · isplitl [HbH]; · iexists _; iexact HbH
    isplitl [HzH]; · iexact HzH
    iexact HtH
  isplitl [HbR HzR HtR]
  · isplitl [HbR]; · iexists _; iexact HbR
    isplitl [HzR]; · iexact HzR
    iexact HtR
  isplitl [HbT]; · iexists _; iexact HbT
  isplitl [HzT]; · iexact HzT
  iexact HtT

variable (O : CellTallies nD τ sig (HIx 1)) (W : Waits sig (HIx 1))

/-- The invariant one trip on, when trip k started chunk k + 7. -/
theorem inv_step_issue (k : ℕ) (hk7 : k + 7 < 32) (acc : PUnit) :
    iprop(Transfers.MayWaits (thrL d L) (none : HIx 1) O
        ∗ (∃ W', ⌜∀ p ∈ W', p ∈ W ∨ p.2 = none⌝ ∗ owes (thrL d L) O W')
        ∗ (flights m d L (k + 7) ∗ bigSep ((Finset.Ico k (k + 7)).erase k) (flights m d L))
        ∗ idles m d L (k + 8)
        ∗ bigSep ((Finset.Ico (k + 7) 32).erase (k + 7)) (wins m d L)
        ∗ (wins m d L k ∗ bigSep (Finset.Ico 0 k) (wins m d L))
        ∗ (∃ g, (Memref.whole cc0_scratch6 : Memref sig .scVector .vmem S256 .f32).view.loc (thrL d L) ↦{fullShare} g)
        ∗ (∃ g, ⌜ScoreHolds m d L (k + 1) (g : S512.Idx → F .f32)⌝ ∗ (Memref.whole cc0_scratch7 : Memref sig .scVector .vmem S512 .f32).view.loc (thrL d L) ↦{fullShare} g))
      ⊢ loopInv m d L O W (k + 1) acc := by
  unfold loopInv
  rw [show min (k + 1 + 7) 32 = k + 8 from by omega, show k + 1 + 8 = k + 9 from by omega,
    show Finset.Ico (k + 8) (k + 9) = {k + 8} from (by ext x; simp only [Finset.mem_Ico, Finset.mem_singleton]; omega), bigSep_singleton,
    show Finset.Ico (k + 1) (k + 8) = insert (k + 7) ((Finset.Ico k (k + 7)).erase k) from (by ext x; simp only [Finset.mem_Ico, Finset.mem_insert, Finset.mem_erase]; omega),
    SparseCore.bigSep_insert' (show k + 7 ∉ (Finset.Ico k (k + 7)).erase k from by simp only [Finset.mem_erase, Finset.mem_Ico]; omega),
    show Finset.Ico (k + 8) 32 = (Finset.Ico (k + 7) 32).erase (k + 7) from (by ext x; simp only [Finset.mem_Ico, Finset.mem_erase]; omega),
    show Finset.Ico 0 (k + 1) = insert k (Finset.Ico 0 k) from (by ext x; simp only [Finset.mem_Ico, Finset.mem_insert]; omega),
    SparseCore.bigSep_insert' (show k ∉ Finset.Ico 0 k from by simp only [Finset.mem_Ico]; omega)]

/-- The invariant one trip on, when no chunk was left to start. -/
theorem inv_step_tail (k : ℕ) (hk : k < 32) (hk7 : ¬ k + 7 < 32) (acc : PUnit) :
    iprop(Transfers.MayWaits (thrL d L) (none : HIx 1) O
        ∗ (∃ W', ⌜∀ p ∈ W', p ∈ W ∨ p.2 = none⌝ ∗ owes (thrL d L) O W')
        ∗ bigSep ((Finset.Ico k 32).erase k) (flights m d L)
        ∗ (idles m d L (k + 8) ∗ bigSep (Finset.Ico 32 (k + 8)) (idles m d L))
        ∗ bigSep (Finset.Ico 32 32) (wins m d L)
        ∗ (wins m d L k ∗ bigSep (Finset.Ico 0 k) (wins m d L))
        ∗ (∃ g, (Memref.whole cc0_scratch6 : Memref sig .scVector .vmem S256 .f32).view.loc (thrL d L) ↦{fullShare} g)
        ∗ (∃ g, ⌜ScoreHolds m d L (k + 1) (g : S512.Idx → F .f32)⌝ ∗ (Memref.whole cc0_scratch7 : Memref sig .scVector .vmem S512 .f32).view.loc (thrL d L) ↦{fullShare} g))
      ⊢ loopInv m d L O W (k + 1) acc := by
  unfold loopInv
  rw [show min (k + 1 + 7) 32 = 32 from by omega, show k + 1 + 8 = k + 9 from by omega,
    show Finset.Ico (k + 1) 32 = (Finset.Ico k 32).erase k from (by ext x; simp only [Finset.mem_Ico, Finset.mem_erase]; omega),
    show Finset.Ico 32 (k + 9) = insert (k + 8) (Finset.Ico 32 (k + 8)) from (by ext x; simp only [Finset.mem_Ico, Finset.mem_insert]; omega),
    SparseCore.bigSep_insert' (show k + 8 ∉ Finset.Ico 32 (k + 8) from by simp only [Finset.mem_Ico]; omega),
    show Finset.Ico 0 (k + 1) = insert k (Finset.Ico 0 k) from (by ext x; simp only [Finset.mem_Ico, Finset.mem_insert]; omega),
    SparseCore.bigSep_insert' (show k ∉ Finset.Ico 0 k from by simp only [Finset.mem_Ico]; omega)]

omit [FloatOps F] in
/-- The transpose scratch as the indexed load addresses it. -/
theorem pmat_access (f : Buf (Elt F) ((Memref.whole cc0_scratch6 : Memref sig .scVector .vmem S256 .f32).view.loc (thrL d L))) :
    ((((Memref.whole cc0_scratch6 : Memref sig .scVector .vmem S256 .f32)).access (.whole S256)).loc (thrL d L) ↦{fullShare} f : sProp 𝕄) = ((Memref.whole cc0_scratch6 : Memref sig .scVector .vmem S256 .f32).view.loc (thrL d L) ↦{fullShare} f) := rfl

omit [FloatOps F] in
theorem flights_eq (c : ℕ) (hc : c < 32) :
    flights m d L c = iprop(flightH m d L c hc ∗ flightR m d L c hc ∗ flightT m d L c hc) := dif_pos hc
omit [FloatOps F] in
theorem wins_eq (c : ℕ) (hc : c < 32) :
    wins m d L c = iprop(winHolds m d L 0 c (winOf (Memref.whole cc0_scratch0 : Memref sig .scVector .vmem S512 .i32) c hc) ∗ winHolds m d L 1 c (winOf (Memref.whole cc0_scratch1 : Memref sig .scVector .vmem S512 .i32) c hc) ∗ winHolds m d L 2 c (winOf (Memref.whole cc0_scratch2 : Memref sig .scVector .vmem S512 .i32) c hc)) := dif_pos hc

set_option maxHeartbeats 8000000 in
attribute [local irreducible] k0_off4 k0_off5 k0_off6 k0_off7 k0_off8 flightH flightR flightT flights idles wins in
theorem trip (hpre : RangeOK m) (k : Fin k0_t1_loop.trips) (acc : PUnit) :
    loopInv m d L O W k.val acc
      ⊢ wp frame (wpE (defs₀ (F := F)) 𝒱₀ (thrL d L) none) Set.univ
          (k0_t1_body L (Memref.whole main_v1_scv) (Memref.isWhole_whole _) (Memref.whole main_v3_scv) (Memref.isWhole_whole _) (Memref.whole main_v5_scv) (Memref.isWhole_whole _)
          (Memref.whole main_arg1_scv) (Memref.isWhole_whole _) (Memref.whole main_arg2_scv) (Memref.isWhole_whole _) (Memref.whole main_v6_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) cc0_scratch8 cc0_scratch9 cc0_scratch10 cc0_scratch11 cc0_scoped0
          (iota .scVector S16 32 [0] iota_S16_d0_w32_scVector) 0#32 k acc)
          (loopInv m d L O W (k.val + 1)) := by
  have hk32 : k.val < 32 := trip_lt k
  generalize hQ : loopInv m d L O W (k.val + 1) = Q
  unfold loopInv
  rcases Classical.em (k0_cond1 k = 1#1) with k0_h1 | k0_h1
  · have hk7 : k.val + 7 < 32 := (cond_iff k).mp k0_h1
    rw [show min (k.val + 7) 32 = k.val + 7 from by omega,
      show Finset.Ico (k.val + 7) (k.val + 8) = {k.val + 7} from by ext x; simp only [Finset.mem_Ico, Finset.mem_singleton]; omega, bigSep_singleton]
    iintro ⟨#Hmw, ⟨%W', %hW', HO⟩, Hfl, Hid, Hwn, Hdone, ⟨%g6, Hs6⟩, ⟨%g7, %hg7, Hs7⟩⟩
    -- chunk k's flights
    ihave Hfl' := (Entails.of_eq (SparseCore.bigSep_erase' (Finset.mem_Ico.mpr ⟨le_refl _, by omega⟩ : k.val ∈ Finset.Ico k.val (k.val + 7)))) $$ Hfl
    icases Hfl' with ⟨Hk, Hfl⟩
    ihave Hk' := (Entails.of_eq (flights_eq m d L k.val hk32)) $$ Hk
    icases Hk' with ⟨HfH, HfR, HfT⟩
    -- chunk k + 7's windows and the idle slot
    ihave Hwn' := (Entails.of_eq (SparseCore.bigSep_erase' (Finset.mem_Ico.mpr ⟨le_refl _, hk7⟩ : k.val + 7 ∈ Finset.Ico (k.val + 7) 32))) $$ Hwn
    icases Hwn' with ⟨Hw7, Hwn⟩
    ihave Hw7' := (Entails.of_eq (wins_eq m d L (k.val + 7) hk7)) $$ Hw7
    icases Hw7' with ⟨HwH, HwR, HwT⟩
    unfold idles idleH idleR idleT
    icases Hid with ⟨⟨HbH, HsH, HtH⟩, ⟨HbR, HsR, HtR⟩, ⟨HbT, HsT, HtT⟩⟩
    -- the idle slot, its semaphores and the windows as trip k's issue spells them
    ihave HbH' := (Entails.of_eq (congrArg (slotAny (F := F) d L) (slot_issue (Memref.whole cc0_scratch3 : Memref sig .scVector .vmem S8x16x128 .f32) k k0_h1).symm)) $$ HbH
    ihave HbR' := (Entails.of_eq (congrArg (slotAny (F := F) d L) (slot_issue (Memref.whole cc0_scratch4 : Memref sig .scVector .vmem S8x16x128 .f32) k k0_h1).symm)) $$ HbR
    ihave HbT' := (Entails.of_eq (congrArg (slotAny (F := F) d L) (slot_issue (Memref.whole cc0_scratch5 : Memref sig .scVector .vmem S8x16x128 .f32) k k0_h1).symm)) $$ HbT
    ihave HsH' := (Entails.of_eq (congrArg (fun s : DmaSem sig => (semVal ((thrL d L, SemLoc.dma s) : GSem nD τ sig) 0 : sProp 𝕄)) (sem_issue cc0_scratch8 k k0_h1).symm)) $$ HsH
    ihave HsR' := (Entails.of_eq (congrArg (fun s : DmaSem sig => (semVal ((thrL d L, SemLoc.dma s) : GSem nD τ sig) 0 : sProp 𝕄)) (sem_issue cc0_scratch9 k k0_h1).symm)) $$ HsR
    ihave HsT' := (Entails.of_eq (congrArg (fun s : DmaSem sig => (semVal ((thrL d L, SemLoc.dma s) : GSem nD τ sig) 0 : sProp 𝕄)) (sem_issue cc0_scratch10 k k0_h1).symm)) $$ HsT
    ihave HwH' := (Entails.of_eq (congrArg (winHolds m d L 0 (k.val + 7)) (win_issue (Memref.whole cc0_scratch0 : Memref sig .scVector .vmem S512 .i32) k k0_h1).symm)) $$ HwH
    ihave HwR' := (Entails.of_eq (congrArg (winHolds m d L 1 (k.val + 7)) (win_issue (Memref.whole cc0_scratch1 : Memref sig .scVector .vmem S512 .i32) k k0_h1).symm)) $$ HwR
    ihave HwT' := (Entails.of_eq (congrArg (winHolds m d L 2 (k.val + 7)) (win_issue (Memref.whole cc0_scratch2 : Memref sig .scVector .vmem S512 .i32) k k0_h1).symm)) $$ HwT
    unfold slotAny winHolds
    icases HbH' with ⟨%GH, HbH⟩
    icases HbR' with ⟨%GR, HbR⟩
    icases HbT' with ⟨%GT, HbT⟩
    icases HwH' with ⟨%fwH, %hfwH, HwH⟩
    icases HwR' with ⟨%fwR, %hfwR, HwR⟩
    icases HwT' with ⟨%fwT, %hfwT, HwT⟩
    have hinH' : ∀ x, ((((Memref.whole cc0_scratch0 : Memref sig .scVector .vmem S512 .i32).slice (Rect.unit (s := S512) (k0_off5 k) S16.size (k0_off5_inb k k0_h1)) (fun _ => rfl))).view.read (Elt F) fwH x).toNat < S100000x128.size gathers_S100000x128_S16x128.axis :=
      fun x => by rw [hfwH x]; exact hpre d 0 _
    have hinR' : ∀ x, ((((Memref.whole cc0_scratch1 : Memref sig .scVector .vmem S512 .i32).slice (Rect.unit (s := S512) (k0_off5 k) S16.size (k0_off5_inb k k0_h1)) (fun _ => rfl))).view.read (Elt F) fwR x).toNat < S100000x128.size gathers_S100000x128_S16x128.axis :=
      fun x => by rw [hfwR x]; exact hpre d 1 _
    have hinT' : ∀ x, ((((Memref.whole cc0_scratch2 : Memref sig .scVector .vmem S512 .i32).slice (Rect.unit (s := S512) (k0_off5 k) S16.size (k0_off5_inb k k0_h1)) (fun _ => rfl))).view.read (Elt F) fwT x).toNat < S100000x128.size gathers_S100000x128_S16x128.axis :=
      fun x => by rw [hfwT x]; exact hpre d 2 _
    unfold k0_t1_body
    -- the three gathers of chunk k + 7
    sl_exec
    unfold flightH flightR flightT at *
    -- chunk k's gather of table H: its wait
    ihave HfH' := (Entails.of_eq (congrArg (fun s : DmaSem sig => (Transfers.Flight (countersEmb (U := UU)) (thrL d L) (SemLoc.dma s) (default : HIx 1) 65536 (delivH m d L k.val hk32) : sProp 𝕄)) (sem_wait cc0_scratch8 k).symm)) $$ HfH
    ihave HmwH := (Transfers.MayWaits.elim (SemLoc.dma (((SemArray.slice cc0_scratch8 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfH' HO HmwH]
    · isplitl [HfH']; · iexact HfH'
      isplitl [HO]; · iexact HO
      iexact HmwH
    iintro ⟨HdH, HzH, HO⟩
    sl_exec
    -- chunk k's gather of table R: its wait
    ihave HfR' := (Entails.of_eq (congrArg (fun s : DmaSem sig => (Transfers.Flight (countersEmb (U := UU)) (thrL d L) (SemLoc.dma s) (default : HIx 1) 65536 (delivR m d L k.val hk32) : sProp 𝕄)) (sem_wait cc0_scratch9 k).symm)) $$ HfR
    ihave HmwR := (Transfers.MayWaits.elim (SemLoc.dma (((SemArray.slice cc0_scratch9 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfR' HO HmwR]
    · isplitl [HfR']; · iexact HfR'
      isplitl [HO]; · iexact HO
      iexact HmwR
    iintro ⟨HdR, HzR, HO⟩
    sl_exec
    -- chunk k's gather of table T: its wait
    ihave HfT' := (Entails.of_eq (congrArg (fun s : DmaSem sig => (Transfers.Flight (countersEmb (U := UU)) (thrL d L) (SemLoc.dma s) (default : HIx 1) 65536 (delivT m d L k.val hk32) : sProp 𝕄)) (sem_wait cc0_scratch10 k).symm)) $$ HfT
    ihave HmwT := (Transfers.MayWaits.elim (SemLoc.dma (((SemArray.slice cc0_scratch10 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfT' HO HmwT]
    · isplitl [HfT']; · iexact HfT'
      isplitl [HO]; · iexact HO
      iexact HmwT
    iintro ⟨HdT, HzT, HO⟩
    sl_exec
    -- the landed rows of chunk k, as the loads address them
    unfold delivH delivR delivT
    icases HdH with ⟨⟨HslH, HwnH⟩, HtkH⟩
    ihave HslH' := (Entails.of_eq (congrArg (slotHolds m d L (m (entLoc d) : S100000x128.Idx → F .f32) 0 k.val) (slot_wait (Memref.whole cc0_scratch3 : Memref sig .scVector .vmem S8x16x128 .f32) k).symm)) $$ HslH
    icases HdR with ⟨⟨HslR, HwnR⟩, HtkR⟩
    ihave HslR' := (Entails.of_eq (congrArg (slotHolds m d L (m (relLoc d) : S100000x128.Idx → F .f32) 1 k.val) (slot_wait (Memref.whole cc0_scratch4 : Memref sig .scVector .vmem S8x16x128 .f32) k).symm)) $$ HslR
    icases HdT with ⟨⟨HslT, HwnT⟩, HtkT⟩
    ihave HslT' := (Entails.of_eq (congrArg (slotHolds m d L (m (entLoc d) : S100000x128.Idx → F .f32) 2 k.val) (slot_wait (Memref.whole cc0_scratch5 : Memref sig .scVector .vmem S8x16x128 .f32) k).symm)) $$ HslT
    unfold slotHolds
    icases HslH' with ⟨%LH, %hLH, HbH⟩
    icases HslR' with ⟨%LR, %hLR, HbR⟩
    icases HslT' with ⟨%LT, %hLT, HbT⟩
    have c1 := chk1; have c2 := chk2; have c3 := chk3; have c4 := chk4; have c5 := chk5; have c6 := chk6; have c7 := chk7; have c8 := chk8
    have c9 := chk9; have c10 := chk10; have c11 := chk11; have c12 := chk12; have c13 := chk13; have c14 := chk14; have c15 := chk15; have c16 := chk16
    -- the 384 loads, the sixteen rows into the transpose scratch
    sl_exec
    -- column 0 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 1 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 2 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 3 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 4 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 5 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 6 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 7 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 8 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 9 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 10 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 11 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 12 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 13 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 14 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 15 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- the invariant again, one trip on
    subst hQ
    sl_step
    iapply (inv_step_issue m d L O W k.val hk7 _)
    isplitr; · iexact Hmw
    isplitl [HO]
    · iexists _; isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        exact hW' p hp
    isplitl [HsH' HsR' HsT' Hfl]
    · isplitl [HsH' HsR' HsT']
      · rw [flights_eq m d L (k.val + 7) hk7]
        isplitl [HsH']; · iapply (flightH_of_issue m d L hpre k k0_h1 GH fwH _ hinH' hfwH); iexact HsH'
        isplitl [HsR']; · iapply (flightR_of_issue m d L hpre k k0_h1 GR fwR _ hinR' hfwR); iexact HsR'
        iapply (flightT_of_issue m d L hpre k k0_h1 GT fwT _ hinT' hfwT); iexact HsT'
      · iexact Hfl
    isplitl [HbH HbR HbT HzH HzR HzT HtkH HtkR HtkT]
    · iapply (idles_of_trip m d L k _ _ _)
      isplitl [HbH]; · iexact HbH
      isplitl [HzH]; · iexact HzH
      isplitl [HtkH]; · iexact HtkH
      isplitl [HbR]; · iexact HbR
      isplitl [HzR]; · iexact HzR
      isplitl [HtkR]; · iexact HtkR
      isplitl [HbT]; · iexact HbT
      isplitl [HzT]; · iexact HzT
      iexact HtkT
    isplitl [Hwn]; · iexact Hwn
    isplitl [HwnH HwnR HwnT Hdone]
    · isplitl [HwnH HwnR HwnT]
      · rw [wins_eq m d L k.val hk32]
        isplitl [HwnH]; · iexact HwnH
        isplitl [HwnR]; · iexact HwnR
        iexact HwnT
      · iexact Hdone
    isplitl [Hs6]; · iexists _; iexact Hs6
    iexists _; isplitr
    rotate_left
    · iexact Hs7
    · ipureintro
      refine score_step m d L k g7 _ hg7 ?_
      -- what trip k stores at rows 16k … 16k + 15 of the score scratch is the kernel's sum for those rows
      intro s
      have hH := whole_of_prog (Memref.whole cc0_scratch3 : Memref sig .scVector .vmem S8x16x128 .f32) k LH _ hLH
      have hR := whole_of_prog (Memref.whole cc0_scratch4 : Memref sig .scVector .vmem S8x16x128 .f32) k LR _ hLR
      have hT := whole_of_prog (Memref.whole cc0_scratch5 : Memref sig .scVector .vmem S8x16x128 .f32) k LT _ hLT
      refine score_of_rows m d L k g6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        val1 val2 val3 val4 val5 val6 val7 val8 val9 val10 val11 val12 val13 val14 val15 val16 ?_ s
      intro s' l
      fin_cases s'
      · exact row_val m d L k LH LR LT hH hR hT 0 (by decide) ![k0_off9 k, k0_off10 k, k0_off11 k, k0_off12 k, k0_off13 k, k0_off14 k, k0_off15 k, k0_off16 k]
          (inbs8 ![k0_off9 k, k0_off10 k, k0_off11 k, k0_off12 k, k0_off13 k, k0_off14 k, k0_off15 k, k0_off16 k] (k0_off9_inb k) (k0_off10_inb k) (k0_off11_inb k) (k0_off12_inb k) (k0_off13_inb k) (k0_off14_inb k) (k0_off15_inb k) (k0_off16_inb k))
          Facts₀.shapeCasts_S1x1x16_S16 (hoffs8 _ (k.val % 8) 0 (k0_off9_eq k) (k0_off10_eq k) (k0_off11_eq k) (k0_off12_eq k) (k0_off13_eq k) (k0_off14_eq k) (k0_off15_eq k) (k0_off16_eq k)) l
      · exact row_val m d L k LH LR LT hH hR hT 1 (by decide) ![k0_off17 k, k0_off18 k, k0_off19 k, k0_off20 k, k0_off21 k, k0_off22 k, k0_off23 k, k0_off24 k]
          (inbs8 ![k0_off17 k, k0_off18 k, k0_off19 k, k0_off20 k, k0_off21 k, k0_off22 k, k0_off23 k, k0_off24 k] (k0_off17_inb k) (k0_off18_inb k) (k0_off19_inb k) (k0_off20_inb k) (k0_off21_inb k) (k0_off22_inb k) (k0_off23_inb k) (k0_off24_inb k))
          Facts₀.shapeCasts_S1x1x16_S16 (hoffs8 _ (k.val % 8) 1 (k0_off17_eq k) (k0_off18_eq k) (k0_off19_eq k) (k0_off20_eq k) (k0_off21_eq k) (k0_off22_eq k) (k0_off23_eq k) (k0_off24_eq k)) l
      · exact row_val m d L k LH LR LT hH hR hT 2 (by decide) ![k0_off25 k, k0_off26 k, k0_off27 k, k0_off28 k, k0_off29 k, k0_off30 k, k0_off31 k, k0_off32 k]
          (inbs8 ![k0_off25 k, k0_off26 k, k0_off27 k, k0_off28 k, k0_off29 k, k0_off30 k, k0_off31 k, k0_off32 k] (k0_off25_inb k) (k0_off26_inb k) (k0_off27_inb k) (k0_off28_inb k) (k0_off29_inb k) (k0_off30_inb k) (k0_off31_inb k) (k0_off32_inb k))
          Facts₀.shapeCasts_S1x1x16_S16 (hoffs8 _ (k.val % 8) 2 (k0_off25_eq k) (k0_off26_eq k) (k0_off27_eq k) (k0_off28_eq k) (k0_off29_eq k) (k0_off30_eq k) (k0_off31_eq k) (k0_off32_eq k)) l
      · exact row_val m d L k LH LR LT hH hR hT 3 (by decide) ![k0_off33 k, k0_off34 k, k0_off35 k, k0_off36 k, k0_off37 k, k0_off38 k, k0_off39 k, k0_off40 k]
          (inbs8 ![k0_off33 k, k0_off34 k, k0_off35 k, k0_off36 k, k0_off37 k, k0_off38 k, k0_off39 k, k0_off40 k] (k0_off33_inb k) (k0_off34_inb k) (k0_off35_inb k) (k0_off36_inb k) (k0_off37_inb k) (k0_off38_inb k) (k0_off39_inb k) (k0_off40_inb k))
          Facts₀.shapeCasts_S1x1x16_S16 (hoffs8 _ (k.val % 8) 3 (k0_off33_eq k) (k0_off34_eq k) (k0_off35_eq k) (k0_off36_eq k) (k0_off37_eq k) (k0_off38_eq k) (k0_off39_eq k) (k0_off40_eq k)) l
      · exact row_val m d L k LH LR LT hH hR hT 4 (by decide) ![k0_off41 k, k0_off42 k, k0_off43 k, k0_off44 k, k0_off45 k, k0_off46 k, k0_off47 k, k0_off48 k]
          (inbs8 ![k0_off41 k, k0_off42 k, k0_off43 k, k0_off44 k, k0_off45 k, k0_off46 k, k0_off47 k, k0_off48 k] (k0_off41_inb k) (k0_off42_inb k) (k0_off43_inb k) (k0_off44_inb k) (k0_off45_inb k) (k0_off46_inb k) (k0_off47_inb k) (k0_off48_inb k))
          Facts₀.shapeCasts_S1x1x16_S16 (hoffs8 _ (k.val % 8) 4 (k0_off41_eq k) (k0_off42_eq k) (k0_off43_eq k) (k0_off44_eq k) (k0_off45_eq k) (k0_off46_eq k) (k0_off47_eq k) (k0_off48_eq k)) l
      · exact row_val m d L k LH LR LT hH hR hT 5 (by decide) ![k0_off49 k, k0_off50 k, k0_off51 k, k0_off52 k, k0_off53 k, k0_off54 k, k0_off55 k, k0_off56 k]
          (inbs8 ![k0_off49 k, k0_off50 k, k0_off51 k, k0_off52 k, k0_off53 k, k0_off54 k, k0_off55 k, k0_off56 k] (k0_off49_inb k) (k0_off50_inb k) (k0_off51_inb k) (k0_off52_inb k) (k0_off53_inb k) (k0_off54_inb k) (k0_off55_inb k) (k0_off56_inb k))
          Facts₀.shapeCasts_S1x1x16_S16 (hoffs8 _ (k.val % 8) 5 (k0_off49_eq k) (k0_off50_eq k) (k0_off51_eq k) (k0_off52_eq k) (k0_off53_eq k) (k0_off54_eq k) (k0_off55_eq k) (k0_off56_eq k)) l
      · exact row_val m d L k LH LR LT hH hR hT 6 (by decide) ![k0_off57 k, k0_off58 k, k0_off59 k, k0_off60 k, k0_off61 k, k0_off62 k, k0_off63 k, k0_off64 k]
          (inbs8 ![k0_off57 k, k0_off58 k, k0_off59 k, k0_off60 k, k0_off61 k, k0_off62 k, k0_off63 k, k0_off64 k] (k0_off57_inb k) (k0_off58_inb k) (k0_off59_inb k) (k0_off60_inb k) (k0_off61_inb k) (k0_off62_inb k) (k0_off63_inb k) (k0_off64_inb k))
          Facts₀.shapeCasts_S1x1x16_S16 (hoffs8 _ (k.val % 8) 6 (k0_off57_eq k) (k0_off58_eq k) (k0_off59_eq k) (k0_off60_eq k) (k0_off61_eq k) (k0_off62_eq k) (k0_off63_eq k) (k0_off64_eq k)) l
      · exact row_val m d L k LH LR LT hH hR hT 7 (by decide) ![k0_off65 k, k0_off66 k, k0_off67 k, k0_off68 k, k0_off69 k, k0_off70 k, k0_off71 k, k0_off72 k]
          (inbs8 ![k0_off65 k, k0_off66 k, k0_off67 k, k0_off68 k, k0_off69 k, k0_off70 k, k0_off71 k, k0_off72 k] (k0_off65_inb k) (k0_off66_inb k) (k0_off67_inb k) (k0_off68_inb k) (k0_off69_inb k) (k0_off70_inb k) (k0_off71_inb k) (k0_off72_inb k))
          Facts₀.shapeCasts_S1x1x16_S16 (hoffs8 _ (k.val % 8) 7 (k0_off65_eq k) (k0_off66_eq k) (k0_off67_eq k) (k0_off68_eq k) (k0_off69_eq k) (k0_off70_eq k) (k0_off71_eq k) (k0_off72_eq k)) l
      · exact row_val m d L k LH LR LT hH hR hT 8 (by decide) ![k0_off73 k, k0_off74 k, k0_off75 k, k0_off76 k, k0_off77 k, k0_off78 k, k0_off79 k, k0_off80 k]
          (inbs8 ![k0_off73 k, k0_off74 k, k0_off75 k, k0_off76 k, k0_off77 k, k0_off78 k, k0_off79 k, k0_off80 k] (k0_off73_inb k) (k0_off74_inb k) (k0_off75_inb k) (k0_off76_inb k) (k0_off77_inb k) (k0_off78_inb k) (k0_off79_inb k) (k0_off80_inb k))
          Facts₀.shapeCasts_S1x1x16_S16 (hoffs8 _ (k.val % 8) 8 (k0_off73_eq k) (k0_off74_eq k) (k0_off75_eq k) (k0_off76_eq k) (k0_off77_eq k) (k0_off78_eq k) (k0_off79_eq k) (k0_off80_eq k)) l
      · exact row_val m d L k LH LR LT hH hR hT 9 (by decide) ![k0_off81 k, k0_off82 k, k0_off83 k, k0_off84 k, k0_off85 k, k0_off86 k, k0_off87 k, k0_off88 k]
          (inbs8 ![k0_off81 k, k0_off82 k, k0_off83 k, k0_off84 k, k0_off85 k, k0_off86 k, k0_off87 k, k0_off88 k] (k0_off81_inb k) (k0_off82_inb k) (k0_off83_inb k) (k0_off84_inb k) (k0_off85_inb k) (k0_off86_inb k) (k0_off87_inb k) (k0_off88_inb k))
          Facts₀.shapeCasts_S1x1x16_S16 (hoffs8 _ (k.val % 8) 9 (k0_off81_eq k) (k0_off82_eq k) (k0_off83_eq k) (k0_off84_eq k) (k0_off85_eq k) (k0_off86_eq k) (k0_off87_eq k) (k0_off88_eq k)) l
      · exact row_val m d L k LH LR LT hH hR hT 10 (by decide) ![k0_off89 k, k0_off90 k, k0_off91 k, k0_off92 k, k0_off93 k, k0_off94 k, k0_off95 k, k0_off96 k]
          (inbs8 ![k0_off89 k, k0_off90 k, k0_off91 k, k0_off92 k, k0_off93 k, k0_off94 k, k0_off95 k, k0_off96 k] (k0_off89_inb k) (k0_off90_inb k) (k0_off91_inb k) (k0_off92_inb k) (k0_off93_inb k) (k0_off94_inb k) (k0_off95_inb k) (k0_off96_inb k))
          Facts₀.shapeCasts_S1x1x16_S16 (hoffs8 _ (k.val % 8) 10 (k0_off89_eq k) (k0_off90_eq k) (k0_off91_eq k) (k0_off92_eq k) (k0_off93_eq k) (k0_off94_eq k) (k0_off95_eq k) (k0_off96_eq k)) l
      · exact row_val m d L k LH LR LT hH hR hT 11 (by decide) ![k0_off97 k, k0_off98 k, k0_off99 k, k0_off100 k, k0_off101 k, k0_off102 k, k0_off103 k, k0_off104 k]
          (inbs8 ![k0_off97 k, k0_off98 k, k0_off99 k, k0_off100 k, k0_off101 k, k0_off102 k, k0_off103 k, k0_off104 k] (k0_off97_inb k) (k0_off98_inb k) (k0_off99_inb k) (k0_off100_inb k) (k0_off101_inb k) (k0_off102_inb k) (k0_off103_inb k) (k0_off104_inb k))
          Facts₀.shapeCasts_S1x1x16_S16 (hoffs8 _ (k.val % 8) 11 (k0_off97_eq k) (k0_off98_eq k) (k0_off99_eq k) (k0_off100_eq k) (k0_off101_eq k) (k0_off102_eq k) (k0_off103_eq k) (k0_off104_eq k)) l
      · exact row_val m d L k LH LR LT hH hR hT 12 (by decide) ![k0_off105 k, k0_off106 k, k0_off107 k, k0_off108 k, k0_off109 k, k0_off110 k, k0_off111 k, k0_off112 k]
          (inbs8 ![k0_off105 k, k0_off106 k, k0_off107 k, k0_off108 k, k0_off109 k, k0_off110 k, k0_off111 k, k0_off112 k] (k0_off105_inb k) (k0_off106_inb k) (k0_off107_inb k) (k0_off108_inb k) (k0_off109_inb k) (k0_off110_inb k) (k0_off111_inb k) (k0_off112_inb k))
          Facts₀.shapeCasts_S1x1x16_S16 (hoffs8 _ (k.val % 8) 12 (k0_off105_eq k) (k0_off106_eq k) (k0_off107_eq k) (k0_off108_eq k) (k0_off109_eq k) (k0_off110_eq k) (k0_off111_eq k) (k0_off112_eq k)) l
      · exact row_val m d L k LH LR LT hH hR hT 13 (by decide) ![k0_off113 k, k0_off114 k, k0_off115 k, k0_off116 k, k0_off117 k, k0_off118 k, k0_off119 k, k0_off120 k]
          (inbs8 ![k0_off113 k, k0_off114 k, k0_off115 k, k0_off116 k, k0_off117 k, k0_off118 k, k0_off119 k, k0_off120 k] (k0_off113_inb k) (k0_off114_inb k) (k0_off115_inb k) (k0_off116_inb k) (k0_off117_inb k) (k0_off118_inb k) (k0_off119_inb k) (k0_off120_inb k))
          Facts₀.shapeCasts_S1x1x16_S16 (hoffs8 _ (k.val % 8) 13 (k0_off113_eq k) (k0_off114_eq k) (k0_off115_eq k) (k0_off116_eq k) (k0_off117_eq k) (k0_off118_eq k) (k0_off119_eq k) (k0_off120_eq k)) l
      · exact row_val m d L k LH LR LT hH hR hT 14 (by decide) ![k0_off121 k, k0_off122 k, k0_off123 k, k0_off124 k, k0_off125 k, k0_off126 k, k0_off127 k, k0_off128 k]
          (inbs8 ![k0_off121 k, k0_off122 k, k0_off123 k, k0_off124 k, k0_off125 k, k0_off126 k, k0_off127 k, k0_off128 k] (k0_off121_inb k) (k0_off122_inb k) (k0_off123_inb k) (k0_off124_inb k) (k0_off125_inb k) (k0_off126_inb k) (k0_off127_inb k) (k0_off128_inb k))
          Facts₀.shapeCasts_S1x1x16_S16 (hoffs8 _ (k.val % 8) 14 (k0_off121_eq k) (k0_off122_eq k) (k0_off123_eq k) (k0_off124_eq k) (k0_off125_eq k) (k0_off126_eq k) (k0_off127_eq k) (k0_off128_eq k)) l
      · exact row_val m d L k LH LR LT hH hR hT 15 (by decide) ![k0_off129 k, k0_off130 k, k0_off131 k, k0_off132 k, k0_off133 k, k0_off134 k, k0_off135 k, k0_off136 k]
          (inbs8 ![k0_off129 k, k0_off130 k, k0_off131 k, k0_off132 k, k0_off133 k, k0_off134 k, k0_off135 k, k0_off136 k] (k0_off129_inb k) (k0_off130_inb k) (k0_off131_inb k) (k0_off132_inb k) (k0_off133_inb k) (k0_off134_inb k) (k0_off135_inb k) (k0_off136_inb k))
          Facts₀.shapeCasts_S1x1x16_S16 (hoffs8 _ (k.val % 8) 15 (k0_off129_eq k) (k0_off130_eq k) (k0_off131_eq k) (k0_off132_eq k) (k0_off133_eq k) (k0_off134_eq k) (k0_off135_eq k) (k0_off136_eq k)) l
  · have hk7 : ¬ k.val + 7 < 32 := fun h => k0_h1 ((cond_iff k).mpr h)
    rw [show min (k.val + 7) 32 = 32 from by omega]
    iintro ⟨#Hmw, ⟨%W', %hW', HO⟩, Hfl, Hid, Hwn, Hdone, ⟨%g6, Hs6⟩, ⟨%g7, %hg7, Hs7⟩⟩
    -- chunk k's flights
    ihave Hfl' := (Entails.of_eq (SparseCore.bigSep_erase' (Finset.mem_Ico.mpr ⟨le_refl _, by omega⟩ : k.val ∈ Finset.Ico k.val 32))) $$ Hfl
    icases Hfl' with ⟨Hk, Hfl⟩
    ihave Hk' := (Entails.of_eq (flights_eq m d L k.val hk32)) $$ Hk
    icases Hk' with ⟨HfH, HfR, HfT⟩
    unfold k0_t1_body
    -- no chunk left to start
    sl_exec
    unfold flightH flightR flightT at *
    -- chunk k's gather of table H: its wait
    ihave HfH' := (Entails.of_eq (congrArg (fun s : DmaSem sig => (Transfers.Flight (countersEmb (U := UU)) (thrL d L) (SemLoc.dma s) (default : HIx 1) 65536 (delivH m d L k.val hk32) : sProp 𝕄)) (sem_wait cc0_scratch8 k).symm)) $$ HfH
    ihave HmwH := (Transfers.MayWaits.elim (SemLoc.dma (((SemArray.slice cc0_scratch8 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfH' HO HmwH]
    · isplitl [HfH']; · iexact HfH'
      isplitl [HO]; · iexact HO
      iexact HmwH
    iintro ⟨HdH, HzH, HO⟩
    sl_exec
    -- chunk k's gather of table R: its wait
    ihave HfR' := (Entails.of_eq (congrArg (fun s : DmaSem sig => (Transfers.Flight (countersEmb (U := UU)) (thrL d L) (SemLoc.dma s) (default : HIx 1) 65536 (delivR m d L k.val hk32) : sProp 𝕄)) (sem_wait cc0_scratch9 k).symm)) $$ HfR
    ihave HmwR := (Transfers.MayWaits.elim (SemLoc.dma (((SemArray.slice cc0_scratch9 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfR' HO HmwR]
    · isplitl [HfR']; · iexact HfR'
      isplitl [HO]; · iexact HO
      iexact HmwR
    iintro ⟨HdR, HzR, HO⟩
    sl_exec
    -- chunk k's gather of table T: its wait
    ihave HfT' := (Entails.of_eq (congrArg (fun s : DmaSem sig => (Transfers.Flight (countersEmb (U := UU)) (thrL d L) (SemLoc.dma s) (default : HIx 1) 65536 (delivT m d L k.val hk32) : sProp 𝕄)) (sem_wait cc0_scratch10 k).symm)) $$ HfT
    ihave HmwT := (Transfers.MayWaits.elim (SemLoc.dma (((SemArray.slice cc0_scratch10 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfT' HO HmwT]
    · isplitl [HfT']; · iexact HfT'
      isplitl [HO]; · iexact HO
      iexact HmwT
    iintro ⟨HdT, HzT, HO⟩
    sl_exec
    -- the landed rows of chunk k, as the loads address them
    unfold delivH delivR delivT
    icases HdH with ⟨⟨HslH, HwnH⟩, HtkH⟩
    ihave HslH' := (Entails.of_eq (congrArg (slotHolds m d L (m (entLoc d) : S100000x128.Idx → F .f32) 0 k.val) (slot_wait (Memref.whole cc0_scratch3 : Memref sig .scVector .vmem S8x16x128 .f32) k).symm)) $$ HslH
    icases HdR with ⟨⟨HslR, HwnR⟩, HtkR⟩
    ihave HslR' := (Entails.of_eq (congrArg (slotHolds m d L (m (relLoc d) : S100000x128.Idx → F .f32) 1 k.val) (slot_wait (Memref.whole cc0_scratch4 : Memref sig .scVector .vmem S8x16x128 .f32) k).symm)) $$ HslR
    icases HdT with ⟨⟨HslT, HwnT⟩, HtkT⟩
    ihave HslT' := (Entails.of_eq (congrArg (slotHolds m d L (m (entLoc d) : S100000x128.Idx → F .f32) 2 k.val) (slot_wait (Memref.whole cc0_scratch5 : Memref sig .scVector .vmem S8x16x128 .f32) k).symm)) $$ HslT
    unfold slotHolds
    icases HslH' with ⟨%LH, %hLH, HbH⟩
    icases HslR' with ⟨%LR, %hLR, HbR⟩
    icases HslT' with ⟨%LT, %hLT, HbT⟩
    have c1 := chk1; have c2 := chk2; have c3 := chk3; have c4 := chk4; have c5 := chk5; have c6 := chk6; have c7 := chk7; have c8 := chk8
    have c9 := chk9; have c10 := chk10; have c11 := chk11; have c12 := chk12; have c13 := chk13; have c14 := chk14; have c15 := chk15; have c16 := chk16
    -- the 384 loads, the sixteen rows into the transpose scratch
    sl_exec
    -- column 0 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 1 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 2 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 3 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 4 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 5 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 6 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 7 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 8 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 9 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 10 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 11 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 12 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 13 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 14 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 15 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- the invariant again, one trip on
    subst hQ
    sl_step
    iapply (inv_step_tail m d L O W k.val hk32 hk7 _)
    isplitr; · iexact Hmw
    isplitl [HO]
    · iexists _; isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        exact hW' p hp
    isplitl [Hfl]; · iexact Hfl
    isplitl [HbH HbR HbT HzH HzR HzT HtkH HtkR HtkT Hid]
    · isplitl [HbH HbR HbT HzH HzR HzT HtkH HtkR HtkT]
      · iapply (idles_of_trip m d L k _ _ _)
        isplitl [HbH]; · iexact HbH
        isplitl [HzH]; · iexact HzH
        isplitl [HtkH]; · iexact HtkH
        isplitl [HbR]; · iexact HbR
        isplitl [HzR]; · iexact HzR
        isplitl [HtkR]; · iexact HtkR
        isplitl [HbT]; · iexact HbT
        isplitl [HzT]; · iexact HzT
        iexact HtkT

      · iexact Hid
    isplitl [Hwn]; · iexact Hwn
    isplitl [HwnH HwnR HwnT Hdone]
    · isplitl [HwnH HwnR HwnT]
      · rw [wins_eq m d L k.val hk32]
        isplitl [HwnH]; · iexact HwnH
        isplitl [HwnR]; · iexact HwnR
        iexact HwnT
      · iexact Hdone
    isplitl [Hs6]; · iexists _; iexact Hs6
    iexists _; isplitr
    rotate_left
    · iexact Hs7
    · ipureintro
      refine score_step m d L k g7 _ hg7 ?_
      -- what trip k stores at rows 16k … 16k + 15 of the score scratch is the kernel's sum for those rows
      intro s
      have hH := whole_of_prog (Memref.whole cc0_scratch3 : Memref sig .scVector .vmem S8x16x128 .f32) k LH _ hLH
      have hR := whole_of_prog (Memref.whole cc0_scratch4 : Memref sig .scVector .vmem S8x16x128 .f32) k LR _ hLR
      have hT := whole_of_prog (Memref.whole cc0_scratch5 : Memref sig .scVector .vmem S8x16x128 .f32) k LT _ hLT
      refine score_of_rows m d L k g6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        val1 val2 val3 val4 val5 val6 val7 val8 val9 val10 val11 val12 val13 val14 val15 val16 ?_ s
      intro s' l
      fin_cases s'
      · exact row_val m d L k LH LR LT hH hR hT 0 (by decide) ![k0_off9 k, k0_off10 k, k0_off11 k, k0_off12 k, k0_off13 k, k0_off14 k, k0_off15 k, k0_off16 k]
          (inbs8 ![k0_off9 k, k0_off10 k, k0_off11 k, k0_off12 k, k0_off13 k, k0_off14 k, k0_off15 k, k0_off16 k] (k0_off9_inb k) (k0_off10_inb k) (k0_off11_inb k) (k0_off12_inb k) (k0_off13_inb k) (k0_off14_inb k) (k0_off15_inb k) (k0_off16_inb k))
          Facts₀.shapeCasts_S1x1x16_S16 (hoffs8 _ (k.val % 8) 0 (k0_off9_eq k) (k0_off10_eq k) (k0_off11_eq k) (k0_off12_eq k) (k0_off13_eq k) (k0_off14_eq k) (k0_off15_eq k) (k0_off16_eq k)) l
      · exact row_val m d L k LH LR LT hH hR hT 1 (by decide) ![k0_off17 k, k0_off18 k, k0_off19 k, k0_off20 k, k0_off21 k, k0_off22 k, k0_off23 k, k0_off24 k]
          (inbs8 ![k0_off17 k, k0_off18 k, k0_off19 k, k0_off20 k, k0_off21 k, k0_off22 k, k0_off23 k, k0_off24 k] (k0_off17_inb k) (k0_off18_inb k) (k0_off19_inb k) (k0_off20_inb k) (k0_off21_inb k) (k0_off22_inb k) (k0_off23_inb k) (k0_off24_inb k))
          Facts₀.shapeCasts_S1x1x16_S16 (hoffs8 _ (k.val % 8) 1 (k0_off17_eq k) (k0_off18_eq k) (k0_off19_eq k) (k0_off20_eq k) (k0_off21_eq k) (k0_off22_eq k) (k0_off23_eq k) (k0_off24_eq k)) l
      · exact row_val m d L k LH LR LT hH hR hT 2 (by decide) ![k0_off25 k, k0_off26 k, k0_off27 k, k0_off28 k, k0_off29 k, k0_off30 k, k0_off31 k, k0_off32 k]
          (inbs8 ![k0_off25 k, k0_off26 k, k0_off27 k, k0_off28 k, k0_off29 k, k0_off30 k, k0_off31 k, k0_off32 k] (k0_off25_inb k) (k0_off26_inb k) (k0_off27_inb k) (k0_off28_inb k) (k0_off29_inb k) (k0_off30_inb k) (k0_off31_inb k) (k0_off32_inb k))
          Facts₀.shapeCasts_S1x1x16_S16 (hoffs8 _ (k.val % 8) 2 (k0_off25_eq k) (k0_off26_eq k) (k0_off27_eq k) (k0_off28_eq k) (k0_off29_eq k) (k0_off30_eq k) (k0_off31_eq k) (k0_off32_eq k)) l
      · exact row_val m d L k LH LR LT hH hR hT 3 (by decide) ![k0_off33 k, k0_off34 k, k0_off35 k, k0_off36 k, k0_off37 k, k0_off38 k, k0_off39 k, k0_off40 k]
          (inbs8 ![k0_off33 k, k0_off34 k, k0_off35 k, k0_off36 k, k0_off37 k, k0_off38 k, k0_off39 k, k0_off40 k] (k0_off33_inb k) (k0_off34_inb k) (k0_off35_inb k) (k0_off36_inb k) (k0_off37_inb k) (k0_off38_inb k) (k0_off39_inb k) (k0_off40_inb k))
          Facts₀.shapeCasts_S1x1x16_S16 (hoffs8 _ (k.val % 8) 3 (k0_off33_eq k) (k0_off34_eq k) (k0_off35_eq k) (k0_off36_eq k) (k0_off37_eq k) (k0_off38_eq k) (k0_off39_eq k) (k0_off40_eq k)) l
      · exact row_val m d L k LH LR LT hH hR hT 4 (by decide) ![k0_off41 k, k0_off42 k, k0_off43 k, k0_off44 k, k0_off45 k, k0_off46 k, k0_off47 k, k0_off48 k]
          (inbs8 ![k0_off41 k, k0_off42 k, k0_off43 k, k0_off44 k, k0_off45 k, k0_off46 k, k0_off47 k, k0_off48 k] (k0_off41_inb k) (k0_off42_inb k) (k0_off43_inb k) (k0_off44_inb k) (k0_off45_inb k) (k0_off46_inb k) (k0_off47_inb k) (k0_off48_inb k))
          Facts₀.shapeCasts_S1x1x16_S16 (hoffs8 _ (k.val % 8) 4 (k0_off41_eq k) (k0_off42_eq k) (k0_off43_eq k) (k0_off44_eq k) (k0_off45_eq k) (k0_off46_eq k) (k0_off47_eq k) (k0_off48_eq k)) l
      · exact row_val m d L k LH LR LT hH hR hT 5 (by decide) ![k0_off49 k, k0_off50 k, k0_off51 k, k0_off52 k, k0_off53 k, k0_off54 k, k0_off55 k, k0_off56 k]
          (inbs8 ![k0_off49 k, k0_off50 k, k0_off51 k, k0_off52 k, k0_off53 k, k0_off54 k, k0_off55 k, k0_off56 k] (k0_off49_inb k) (k0_off50_inb k) (k0_off51_inb k) (k0_off52_inb k) (k0_off53_inb k) (k0_off54_inb k) (k0_off55_inb k) (k0_off56_inb k))
          Facts₀.shapeCasts_S1x1x16_S16 (hoffs8 _ (k.val % 8) 5 (k0_off49_eq k) (k0_off50_eq k) (k0_off51_eq k) (k0_off52_eq k) (k0_off53_eq k) (k0_off54_eq k) (k0_off55_eq k) (k0_off56_eq k)) l
      · exact row_val m d L k LH LR LT hH hR hT 6 (by decide) ![k0_off57 k, k0_off58 k, k0_off59 k, k0_off60 k, k0_off61 k, k0_off62 k, k0_off63 k, k0_off64 k]
          (inbs8 ![k0_off57 k, k0_off58 k, k0_off59 k, k0_off60 k, k0_off61 k, k0_off62 k, k0_off63 k, k0_off64 k] (k0_off57_inb k) (k0_off58_inb k) (k0_off59_inb k) (k0_off60_inb k) (k0_off61_inb k) (k0_off62_inb k) (k0_off63_inb k) (k0_off64_inb k))
          Facts₀.shapeCasts_S1x1x16_S16 (hoffs8 _ (k.val % 8) 6 (k0_off57_eq k) (k0_off58_eq k) (k0_off59_eq k) (k0_off60_eq k) (k0_off61_eq k) (k0_off62_eq k) (k0_off63_eq k) (k0_off64_eq k)) l
      · exact row_val m d L k LH LR LT hH hR hT 7 (by decide) ![k0_off65 k, k0_off66 k, k0_off67 k, k0_off68 k, k0_off69 k, k0_off70 k, k0_off71 k, k0_off72 k]
          (inbs8 ![k0_off65 k, k0_off66 k, k0_off67 k, k0_off68 k, k0_off69 k, k0_off70 k, k0_off71 k, k0_off72 k] (k0_off65_inb k) (k0_off66_inb k) (k0_off67_inb k) (k0_off68_inb k) (k0_off69_inb k) (k0_off70_inb k) (k0_off71_inb k) (k0_off72_inb k))
          Facts₀.shapeCasts_S1x1x16_S16 (hoffs8 _ (k.val % 8) 7 (k0_off65_eq k) (k0_off66_eq k) (k0_off67_eq k) (k0_off68_eq k) (k0_off69_eq k) (k0_off70_eq k) (k0_off71_eq k) (k0_off72_eq k)) l
      · exact row_val m d L k LH LR LT hH hR hT 8 (by decide) ![k0_off73 k, k0_off74 k, k0_off75 k, k0_off76 k, k0_off77 k, k0_off78 k, k0_off79 k, k0_off80 k]
          (inbs8 ![k0_off73 k, k0_off74 k, k0_off75 k, k0_off76 k, k0_off77 k, k0_off78 k, k0_off79 k, k0_off80 k] (k0_off73_inb k) (k0_off74_inb k) (k0_off75_inb k) (k0_off76_inb k) (k0_off77_inb k) (k0_off78_inb k) (k0_off79_inb k) (k0_off80_inb k))
          Facts₀.shapeCasts_S1x1x16_S16 (hoffs8 _ (k.val % 8) 8 (k0_off73_eq k) (k0_off74_eq k) (k0_off75_eq k) (k0_off76_eq k) (k0_off77_eq k) (k0_off78_eq k) (k0_off79_eq k) (k0_off80_eq k)) l
      · exact row_val m d L k LH LR LT hH hR hT 9 (by decide) ![k0_off81 k, k0_off82 k, k0_off83 k, k0_off84 k, k0_off85 k, k0_off86 k, k0_off87 k, k0_off88 k]
          (inbs8 ![k0_off81 k, k0_off82 k, k0_off83 k, k0_off84 k, k0_off85 k, k0_off86 k, k0_off87 k, k0_off88 k] (k0_off81_inb k) (k0_off82_inb k) (k0_off83_inb k) (k0_off84_inb k) (k0_off85_inb k) (k0_off86_inb k) (k0_off87_inb k) (k0_off88_inb k))
          Facts₀.shapeCasts_S1x1x16_S16 (hoffs8 _ (k.val % 8) 9 (k0_off81_eq k) (k0_off82_eq k) (k0_off83_eq k) (k0_off84_eq k) (k0_off85_eq k) (k0_off86_eq k) (k0_off87_eq k) (k0_off88_eq k)) l
      · exact row_val m d L k LH LR LT hH hR hT 10 (by decide) ![k0_off89 k, k0_off90 k, k0_off91 k, k0_off92 k, k0_off93 k, k0_off94 k, k0_off95 k, k0_off96 k]
          (inbs8 ![k0_off89 k, k0_off90 k, k0_off91 k, k0_off92 k, k0_off93 k, k0_off94 k, k0_off95 k, k0_off96 k] (k0_off89_inb k) (k0_off90_inb k) (k0_off91_inb k) (k0_off92_inb k) (k0_off93_inb k) (k0_off94_inb k) (k0_off95_inb k) (k0_off96_inb k))
          Facts₀.shapeCasts_S1x1x16_S16 (hoffs8 _ (k.val % 8) 10 (k0_off89_eq k) (k0_off90_eq k) (k0_off91_eq k) (k0_off92_eq k) (k0_off93_eq k) (k0_off94_eq k) (k0_off95_eq k) (k0_off96_eq k)) l
      · exact row_val m d L k LH LR LT hH hR hT 11 (by decide) ![k0_off97 k, k0_off98 k, k0_off99 k, k0_off100 k, k0_off101 k, k0_off102 k, k0_off103 k, k0_off104 k]
          (inbs8 ![k0_off97 k, k0_off98 k, k0_off99 k, k0_off100 k, k0_off101 k, k0_off102 k, k0_off103 k, k0_off104 k] (k0_off97_inb k) (k0_off98_inb k) (k0_off99_inb k) (k0_off100_inb k) (k0_off101_inb k) (k0_off102_inb k) (k0_off103_inb k) (k0_off104_inb k))
          Facts₀.shapeCasts_S1x1x16_S16 (hoffs8 _ (k.val % 8) 11 (k0_off97_eq k) (k0_off98_eq k) (k0_off99_eq k) (k0_off100_eq k) (k0_off101_eq k) (k0_off102_eq k) (k0_off103_eq k) (k0_off104_eq k)) l
      · exact row_val m d L k LH LR LT hH hR hT 12 (by decide) ![k0_off105 k, k0_off106 k, k0_off107 k, k0_off108 k, k0_off109 k, k0_off110 k, k0_off111 k, k0_off112 k]
          (inbs8 ![k0_off105 k, k0_off106 k, k0_off107 k, k0_off108 k, k0_off109 k, k0_off110 k, k0_off111 k, k0_off112 k] (k0_off105_inb k) (k0_off106_inb k) (k0_off107_inb k) (k0_off108_inb k) (k0_off109_inb k) (k0_off110_inb k) (k0_off111_inb k) (k0_off112_inb k))
          Facts₀.shapeCasts_S1x1x16_S16 (hoffs8 _ (k.val % 8) 12 (k0_off105_eq k) (k0_off106_eq k) (k0_off107_eq k) (k0_off108_eq k) (k0_off109_eq k) (k0_off110_eq k) (k0_off111_eq k) (k0_off112_eq k)) l
      · exact row_val m d L k LH LR LT hH hR hT 13 (by decide) ![k0_off113 k, k0_off114 k, k0_off115 k, k0_off116 k, k0_off117 k, k0_off118 k, k0_off119 k, k0_off120 k]
          (inbs8 ![k0_off113 k, k0_off114 k, k0_off115 k, k0_off116 k, k0_off117 k, k0_off118 k, k0_off119 k, k0_off120 k] (k0_off113_inb k) (k0_off114_inb k) (k0_off115_inb k) (k0_off116_inb k) (k0_off117_inb k) (k0_off118_inb k) (k0_off119_inb k) (k0_off120_inb k))
          Facts₀.shapeCasts_S1x1x16_S16 (hoffs8 _ (k.val % 8) 13 (k0_off113_eq k) (k0_off114_eq k) (k0_off115_eq k) (k0_off116_eq k) (k0_off117_eq k) (k0_off118_eq k) (k0_off119_eq k) (k0_off120_eq k)) l
      · exact row_val m d L k LH LR LT hH hR hT 14 (by decide) ![k0_off121 k, k0_off122 k, k0_off123 k, k0_off124 k, k0_off125 k, k0_off126 k, k0_off127 k, k0_off128 k]
          (inbs8 ![k0_off121 k, k0_off122 k, k0_off123 k, k0_off124 k, k0_off125 k, k0_off126 k, k0_off127 k, k0_off128 k] (k0_off121_inb k) (k0_off122_inb k) (k0_off123_inb k) (k0_off124_inb k) (k0_off125_inb k) (k0_off126_inb k) (k0_off127_inb k) (k0_off128_inb k))
          Facts₀.shapeCasts_S1x1x16_S16 (hoffs8 _ (k.val % 8) 14 (k0_off121_eq k) (k0_off122_eq k) (k0_off123_eq k) (k0_off124_eq k) (k0_off125_eq k) (k0_off126_eq k) (k0_off127_eq k) (k0_off128_eq k)) l
      · exact row_val m d L k LH LR LT hH hR hT 15 (by decide) ![k0_off129 k, k0_off130 k, k0_off131 k, k0_off132 k, k0_off133 k, k0_off134 k, k0_off135 k, k0_off136 k]
          (inbs8 ![k0_off129 k, k0_off130 k, k0_off131 k, k0_off132 k, k0_off133 k, k0_off134 k, k0_off135 k, k0_off136 k] (k0_off129_inb k) (k0_off130_inb k) (k0_off131_inb k) (k0_off132_inb k) (k0_off133_inb k) (k0_off134_inb k) (k0_off135_inb k) (k0_off136_inb k))
          Facts₀.shapeCasts_S1x1x16_S16 (hoffs8 _ (k.val % 8) 15 (k0_off129_eq k) (k0_off130_eq k) (k0_off131_eq k) (k0_off132_eq k) (k0_off133_eq k) (k0_off134_eq k) (k0_off135_eq k) (k0_off136_eq k)) l

end Tile
end Cert.Proof.KI
end
-- ==== Proof.KI.LoopEnds.Wins.lean ====
/-
  The counted loop's start, the lists: from the three landed index lists to the invariant's windows.

  A 512-word list is its 32 windows of sixteen words: the windows are pairwise disjoint (word i lies in window i / 16 only)
  and cover the list, so holding the list whole is holding each window. A landed list holds the worker's 512 rows of one
  column of the sample, so window c holds the column at the worker's rows 16c … 16c + 15.
-/
import proofs.«209583_g49984829390938_cont_8to1c4_457_35_alg».proof.Proof.KI.LoopInv
import proofs.«209583_g49984829390938_cont_8to1c4_457_35_alg».proof.Proof.KI.SlotRead
import proofs.«209583_g49984829390938_cont_8to1c4_457_35_alg».proof.Proof.KI.TileOwn

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## The windows of a 512-word list, as sets of its words -/

/-- Window c's words: 16c … 16c + 15 (no words past the last window). -/
def winSet (c : ℕ) : Finset S512.Idx :=
  if hc : c < 32 then (Rect.unit (s := S512) ![16 * c] S16.size (win_inb c hc)).set else ∅

theorem mem_winSet {c : ℕ} (hc : c < 32) (i : S512.Idx) : i ∈ winSet c ↔ 16 * c ≤ (i 0).val ∧ (i 0).val < 16 * c + 16 := by
  unfold winSet
  rw [dif_pos hc, Rect.mem_set_unit]
  constructor
  · intro h; exact h 0
  · intro h a
    obtain rfl : a = 0 := Subsingleton.elim _ _
    exact h

theorem winSet_disjoint : ∀ c ∈ Finset.Ico 0 32, ∀ c' ∈ Finset.Ico 0 32, c ≠ c' → Disjoint (winSet c) (winSet c') := by
  intro c hc c' hc' hne
  have h1 : c < 32 := (Finset.mem_Ico.mp hc).2
  have h2 : c' < 32 := (Finset.mem_Ico.mp hc').2
  rw [Finset.disjoint_left]
  intro i hi hi'
  rw [mem_winSet h1] at hi
  rw [mem_winSet h2] at hi'
  omega

theorem winSet_cover : (Finset.Ico 0 32).biUnion winSet = Finset.univ := by
  ext i
  simp only [Finset.mem_biUnion, Finset.mem_univ, iff_true]
  have hi : (i 0).val < 512 := (i 0).isLt
  refine ⟨(i 0).val / 16, Finset.mem_Ico.mpr ⟨Nat.zero_le _, by omega⟩, ?_⟩
  rw [mem_winSet (by omega)]
  omega

/-! ## (I1) The landed lists as windows -/

/-- Window c of list H, landed, at word z: column 0 of the sample at the worker's row 16c + z. -/
theorem win_word_H (f : Buf (Elt F) ((thrL d L).loc cc0_scratch0)) (c : ℕ) (hc : c < 32) (z : S16.Idx) :
    (winOf (Memref.whole cc0_scratch0 : Memref sig .scVector .vmem S512 .i32) c hc).view.read (Elt F) (landsH m d L f) z = col m d 0 (ix1 (rowN L c (z 0).val)) := by
  have hz : (z 0).val < 16 := (z 0).isLt
  have ht := (tL L).isLt
  rw [win_read]
  show (landsH m d L f : S512.Idx → BitVec 32) (ix1 (⟨16 * c + (z 0).val, by omega⟩ : Fin 512)) = _
  rw [landsH_apply]
  refine congrArg (fun r : Fin 16384 => col m d 0 (ix1 r)) (Fin.ext ?_)
  show 512 * (tL L).val + (16 * c + (z 0).val) = (512 * (tL L).val + 16 * c + (z 0).val) % 16384
  rw [Nat.mod_eq_of_lt (by omega)]
  omega

/-- List H whole is its 32 windows. -/
theorem listH_pts (f : Buf (Elt F) ((Memref.whole cc0_scratch0 : Memref sig .scVector .vmem S512 .i32).view.loc (thrL d L))) :
    ((Memref.whole cc0_scratch0 : Memref sig .scVector .vmem S512 .i32).view.loc (thrL d L) ↦{fullShare} f : sProp 𝕄)
      = bigSep (Finset.Ico 0 32) fun c => (Memref.whole cc0_scratch0 : Memref sig .scVector .vmem S512 .i32).view.loc (thrL d L) ↦[winSet c]{fullShare} f := by
  rw [← pointsTo_biUnion (Finset.Ico 0 32) (ℓ := (Memref.whole cc0_scratch0 : Memref sig .scVector .vmem S512 .i32).view.loc (thrL d L)) winSet winSet_disjoint, winSet_cover]; try rfl

/-- The words of window c of list H are the window's view. -/
theorem set_winH (c : ℕ) (h : c < 32) : (winOf (Memref.whole cc0_scratch0 : Memref sig .scVector .vmem S512 .i32) c h).view.set = winSet c := by
  unfold winSet
  rw [dif_pos h]
  exact View.set_slice_whole _ _

/-- One window of the landed list H holds its chunk's words of column 0. -/
theorem winH_one (f : Buf (Elt F) ((thrL d L).loc cc0_scratch0)) (c : ℕ) (h : c < 32) :
    ((Memref.whole cc0_scratch0 : Memref sig .scVector .vmem S512 .i32).view.loc (thrL d L) ↦[winSet c]{fullShare} landsH m d L f : sProp 𝕄)
      ⊢ winHolds m d L 0 c (winOf (Memref.whole cc0_scratch0 : Memref sig .scVector .vmem S512 .i32) c h) := by
  unfold winHolds
  iintro H
  iexists (landsH m d L f)
  isplitr
  · ipureintro
    intro z
    exact win_word_H m d L f c h z
  · rw [set_winH]
    iexact H

/-- (I1) for list H: the landed list is its 32 windows, each holding its chunk's words of column 0. -/
theorem winsH_intro (f : Buf (Elt F) ((thrL d L).loc cc0_scratch0)) :
    ((Memref.whole cc0_scratch0 : Memref sig .scVector .vmem S512 .i32).view.loc (thrL d L) ↦{fullShare} landsH m d L f : sProp 𝕄)
      ⊢ bigSep (Finset.Ico 0 32) (fun c => if hc : c < 32 then winHolds m d L 0 c (winOf (Memref.whole cc0_scratch0 : Memref sig .scVector .vmem S512 .i32) c hc) else iprop(emp)) := by
  rw [listH_pts]
  refine bigSep_mono (fun c hc => ?_)
  have h : c < 32 := (Finset.mem_Ico.mp hc).2
  rw [dif_pos h]
  exact winH_one m d L f c h

/-- Window c of list R, landed, at word z: column 1 of the sample at the worker's row 16c + z. -/
theorem win_word_R (f : Buf (Elt F) ((thrL d L).loc cc0_scratch1)) (c : ℕ) (hc : c < 32) (z : S16.Idx) :
    (winOf (Memref.whole cc0_scratch1 : Memref sig .scVector .vmem S512 .i32) c hc).view.read (Elt F) (landsR m d L f) z = col m d 1 (ix1 (rowN L c (z 0).val)) := by
  have hz : (z 0).val < 16 := (z 0).isLt
  have ht := (tL L).isLt
  rw [win_read]
  show (landsR m d L f : S512.Idx → BitVec 32) (ix1 (⟨16 * c + (z 0).val, by omega⟩ : Fin 512)) = _
  rw [landsR_apply]
  refine congrArg (fun r : Fin 16384 => col m d 1 (ix1 r)) (Fin.ext ?_)
  show 512 * (tL L).val + (16 * c + (z 0).val) = (512 * (tL L).val + 16 * c + (z 0).val) % 16384
  rw [Nat.mod_eq_of_lt (by omega)]
  omega

/-- List R whole is its 32 windows. -/
theorem listR_pts (f : Buf (Elt F) ((Memref.whole cc0_scratch1 : Memref sig .scVector .vmem S512 .i32).view.loc (thrL d L))) :
    ((Memref.whole cc0_scratch1 : Memref sig .scVector .vmem S512 .i32).view.loc (thrL d L) ↦{fullShare} f : sProp 𝕄)
      = bigSep (Finset.Ico 0 32) fun c => (Memref.whole cc0_scratch1 : Memref sig .scVector .vmem S512 .i32).view.loc (thrL d L) ↦[winSet c]{fullShare} f := by
  rw [← pointsTo_biUnion (Finset.Ico 0 32) (ℓ := (Memref.whole cc0_scratch1 : Memref sig .scVector .vmem S512 .i32).view.loc (thrL d L)) winSet winSet_disjoint, winSet_cover]; try rfl

/-- The words of window c of list R are the window's view. -/
theorem set_winR (c : ℕ) (h : c < 32) : (winOf (Memref.whole cc0_scratch1 : Memref sig .scVector .vmem S512 .i32) c h).view.set = winSet c := by
  unfold winSet
  rw [dif_pos h]
  exact View.set_slice_whole _ _

/-- One window of the landed list R holds its chunk's words of column 1. -/
theorem winR_one (f : Buf (Elt F) ((thrL d L).loc cc0_scratch1)) (c : ℕ) (h : c < 32) :
    ((Memref.whole cc0_scratch1 : Memref sig .scVector .vmem S512 .i32).view.loc (thrL d L) ↦[winSet c]{fullShare} landsR m d L f : sProp 𝕄)
      ⊢ winHolds m d L 1 c (winOf (Memref.whole cc0_scratch1 : Memref sig .scVector .vmem S512 .i32) c h) := by
  unfold winHolds
  iintro H
  iexists (landsR m d L f)
  isplitr
  · ipureintro
    intro z
    exact win_word_R m d L f c h z
  · rw [set_winR]
    iexact H

/-- (I1) for list R: the landed list is its 32 windows, each holding its chunk's words of column 1. -/
theorem winsR_intro (f : Buf (Elt F) ((thrL d L).loc cc0_scratch1)) :
    ((Memref.whole cc0_scratch1 : Memref sig .scVector .vmem S512 .i32).view.loc (thrL d L) ↦{fullShare} landsR m d L f : sProp 𝕄)
      ⊢ bigSep (Finset.Ico 0 32) (fun c => if hc : c < 32 then winHolds m d L 1 c (winOf (Memref.whole cc0_scratch1 : Memref sig .scVector .vmem S512 .i32) c hc) else iprop(emp)) := by
  rw [listR_pts]
  refine bigSep_mono (fun c hc => ?_)
  have h : c < 32 := (Finset.mem_Ico.mp hc).2
  rw [dif_pos h]
  exact winR_one m d L f c h

/-- Window c of list T, landed, at word z: column 2 of the sample at the worker's row 16c + z. -/
theorem win_word_T (f : Buf (Elt F) ((thrL d L).loc cc0_scratch2)) (c : ℕ) (hc : c < 32) (z : S16.Idx) :
    (winOf (Memref.whole cc0_scratch2 : Memref sig .scVector .vmem S512 .i32) c hc).view.read (Elt F) (landsT m d L f) z = col m d 2 (ix1 (rowN L c (z 0).val)) := by
  have hz : (z 0).val < 16 := (z 0).isLt
  have ht := (tL L).isLt
  rw [win_read]
  show (landsT m d L f : S512.Idx → BitVec 32) (ix1 (⟨16 * c + (z 0).val, by omega⟩ : Fin 512)) = _
  rw [landsT_apply]
  refine congrArg (fun r : Fin 16384 => col m d 2 (ix1 r)) (Fin.ext ?_)
  show 512 * (tL L).val + (16 * c + (z 0).val) = (512 * (tL L).val + 16 * c + (z 0).val) % 16384
  rw [Nat.mod_eq_of_lt (by omega)]
  omega

/-- List T whole is its 32 windows. -/
theorem listT_pts (f : Buf (Elt F) ((Memref.whole cc0_scratch2 : Memref sig .scVector .vmem S512 .i32).view.loc (thrL d L))) :
    ((Memref.whole cc0_scratch2 : Memref sig .scVector .vmem S512 .i32).view.loc (thrL d L) ↦{fullShare} f : sProp 𝕄)
      = bigSep (Finset.Ico 0 32) fun c => (Memref.whole cc0_scratch2 : Memref sig .scVector .vmem S512 .i32).view.loc (thrL d L) ↦[winSet c]{fullShare} f := by
  rw [← pointsTo_biUnion (Finset.Ico 0 32) (ℓ := (Memref.whole cc0_scratch2 : Memref sig .scVector .vmem S512 .i32).view.loc (thrL d L)) winSet winSet_disjoint, winSet_cover]; try rfl

/-- The words of window c of list T are the window's view. -/
theorem set_winT (c : ℕ) (h : c < 32) : (winOf (Memref.whole cc0_scratch2 : Memref sig .scVector .vmem S512 .i32) c h).view.set = winSet c := by
  unfold winSet
  rw [dif_pos h]
  exact View.set_slice_whole _ _

/-- One window of the landed list T holds its chunk's words of column 2. -/
theorem winT_one (f : Buf (Elt F) ((thrL d L).loc cc0_scratch2)) (c : ℕ) (h : c < 32) :
    ((Memref.whole cc0_scratch2 : Memref sig .scVector .vmem S512 .i32).view.loc (thrL d L) ↦[winSet c]{fullShare} landsT m d L f : sProp 𝕄)
      ⊢ winHolds m d L 2 c (winOf (Memref.whole cc0_scratch2 : Memref sig .scVector .vmem S512 .i32) c h) := by
  unfold winHolds
  iintro H
  iexists (landsT m d L f)
  isplitr
  · ipureintro
    intro z
    exact win_word_T m d L f c h z
  · rw [set_winT]
    iexact H

/-- (I1) for list T: the landed list is its 32 windows, each holding its chunk's words of column 2. -/
theorem winsT_intro (f : Buf (Elt F) ((thrL d L).loc cc0_scratch2)) :
    ((Memref.whole cc0_scratch2 : Memref sig .scVector .vmem S512 .i32).view.loc (thrL d L) ↦{fullShare} landsT m d L f : sProp 𝕄)
      ⊢ bigSep (Finset.Ico 0 32) (fun c => if hc : c < 32 then winHolds m d L 2 c (winOf (Memref.whole cc0_scratch2 : Memref sig .scVector .vmem S512 .i32) c hc) else iprop(emp)) := by
  rw [listT_pts]
  refine bigSep_mono (fun c hc => ?_)
  have h : c < 32 := (Finset.mem_Ico.mp hc).2
  rw [dif_pos h]
  exact winT_one m d L f c h

/-- (I1) The three landed lists together are the 32 chunks' windows. -/
theorem wins_intro (f0 : Buf (Elt F) ((thrL d L).loc cc0_scratch0)) (f1 : Buf (Elt F) ((thrL d L).loc cc0_scratch1))
    (f2 : Buf (Elt F) ((thrL d L).loc cc0_scratch2)) :
    (iprop(((Memref.whole cc0_scratch0 : Memref sig .scVector .vmem S512 .i32).view.loc (thrL d L) ↦{fullShare} landsH m d L f0)
        ∗ ((Memref.whole cc0_scratch1 : Memref sig .scVector .vmem S512 .i32).view.loc (thrL d L) ↦{fullShare} landsR m d L f1)
        ∗ ((Memref.whole cc0_scratch2 : Memref sig .scVector .vmem S512 .i32).view.loc (thrL d L) ↦{fullShare} landsT m d L f2)) : sProp 𝕄)
      ⊢ bigSep (Finset.Ico 0 32) (wins m d L) := by
  have e : bigSep (Finset.Ico 0 32) (wins m d L)
      = iprop(bigSep (Finset.Ico 0 32) (fun c => if hc : c < 32 then winHolds m d L 0 c (winOf (Memref.whole cc0_scratch0 : Memref sig .scVector .vmem S512 .i32) c hc) else iprop(emp))
        ∗ bigSep (Finset.Ico 0 32) (fun c => if hc : c < 32 then winHolds m d L 1 c (winOf (Memref.whole cc0_scratch1 : Memref sig .scVector .vmem S512 .i32) c hc) else iprop(emp))
        ∗ bigSep (Finset.Ico 0 32) (fun c => if hc : c < 32 then winHolds m d L 2 c (winOf (Memref.whole cc0_scratch2 : Memref sig .scVector .vmem S512 .i32) c hc) else iprop(emp))) := by
    rw [← bigSep_sep', ← bigSep_sep']
    refine bigSep_congr (fun c hc => ?_)
    have h : c < 32 := (Finset.mem_Ico.mp hc).2
    unfold wins
    rw [dif_pos h, dif_pos h, dif_pos h, dif_pos h]
  rw [e]
  iintro ⟨H0, H1, H2⟩
  isplitl [H0]
  · iapply (winsH_intro m d L f0); iexact H0
  isplitl [H1]
  · iapply (winsR_intro m d L f1); iexact H1
  · iapply (winsT_intro m d L f2); iexact H2

end Tile
end Cert.Proof.KI
end
-- ==== Proof.KI.LoopEnds.Slots.lean ====
/-
  The counted loop's start, the row buffers: a row buffer of eight slots of sixteen rows is its slots — pairwise disjoint
  (an element lies in the slot its leading coordinate names) and covering — so holding the buffer whole is holding each slot.
-/
import proofs.«209583_g49984829390938_cont_8to1c4_457_35_alg».proof.Proof.KI.LoopInv
import proofs.«209583_g49984829390938_cont_8to1c4_457_35_alg».proof.Proof.KI.SlotRead
import proofs.«209583_g49984829390938_cont_8to1c4_457_35_alg».proof.Proof.KI.TileOwn

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## The slots of a row buffer, as sets of its elements -/

/-- Slot b's elements: those of leading coordinate b (none past the last slot). -/
def slotSet (b : ℕ) : Finset S8x16x128.Idx :=
  if hb : b < 8 then (Rect.unit (s := S8x16x128) ![b, 0, 0] S1x16x128.size (slot_inb b hb)).set else ∅

theorem mem_slotSet {b : ℕ} (hb : b < 8) (i : S8x16x128.Idx) : i ∈ slotSet b ↔ (i 0).val = b := by
  unfold slotSet
  rw [dif_pos hb, Rect.mem_set_unit]
  constructor
  · intro h
    have h0 : b ≤ (i 0).val ∧ (i 0).val < b + 1 := h 0
    omega
  · intro h a
    match a with
    | ⟨0, _⟩ => show b ≤ (i 0).val ∧ (i 0).val < b + 1; omega
    | ⟨1, _⟩ =>
      have h1 : (i 1).val < 16 := (i 1).isLt
      show 0 ≤ (i 1).val ∧ (i 1).val < 0 + 16; omega
    | ⟨2, _⟩ =>
      have h2 : (i 2).val < 128 := (i 2).isLt
      show 0 ≤ (i 2).val ∧ (i 2).val < 0 + 128; omega

theorem slotSet_disjoint : ∀ b ∈ Finset.Ico 0 8, ∀ b' ∈ Finset.Ico 0 8, b ≠ b' → Disjoint (slotSet b) (slotSet b') := by
  intro b hb b' hb' hne
  have h1 : b < 8 := (Finset.mem_Ico.mp hb).2
  have h2 : b' < 8 := (Finset.mem_Ico.mp hb').2
  rw [Finset.disjoint_left]
  intro i hi hi'
  rw [mem_slotSet h1] at hi
  rw [mem_slotSet h2] at hi'
  omega

theorem slotSet_cover : (Finset.Ico 0 8).biUnion slotSet = Finset.univ := by
  ext i
  simp only [Finset.mem_biUnion, Finset.mem_univ, iff_true]
  have hi : (i 0).val < 8 := (i 0).isLt
  refine ⟨(i 0).val, Finset.mem_Ico.mpr ⟨Nat.zero_le _, hi⟩, ?_⟩
  rw [mem_slotSet hi]

/-! ## (I2) The row buffers as slots -/

/-- Row buffer 3 whole is its eight slots. -/
theorem buf3_pts (f : Buf (Elt F) ((Memref.whole cc0_scratch3 : Memref sig .scVector .vmem S8x16x128 .f32).view.loc (thrL d L))) :
    ((Memref.whole cc0_scratch3 : Memref sig .scVector .vmem S8x16x128 .f32).view.loc (thrL d L) ↦{fullShare} f : sProp 𝕄)
      = bigSep (Finset.Ico 0 8) fun b => (Memref.whole cc0_scratch3 : Memref sig .scVector .vmem S8x16x128 .f32).view.loc (thrL d L) ↦[slotSet b]{fullShare} f := by
  rw [← pointsTo_biUnion (Finset.Ico 0 8) (ℓ := (Memref.whole cc0_scratch3 : Memref sig .scVector .vmem S8x16x128 .f32).view.loc (thrL d L)) slotSet slotSet_disjoint, slotSet_cover]; try rfl

/-- The elements of slot b of row buffer 3 are the slot's view: the slice's, re-indexed without its unit axis. -/
theorem set_slot3 (b : ℕ) (h : b < 8) : (slotOf (Memref.whole cc0_scratch3 : Memref sig .scVector .vmem S8x16x128 .f32) b h).view.set = slotSet b := by
  unfold slotSet
  rw [dif_pos h]
  show (((Memref.whole cc0_scratch3 : Memref sig .scVector .vmem S8x16x128 .f32).view.slice (Rect.unit (s := S8x16x128) ![b, 0, 0] S1x16x128.size (slot_inb b h))).reshape S16x128
    squeezes_S1x16x128_S16x128.numel_eq).set = _
  rw [View.set_reshape]
  exact View.set_slice_whole _ _

/-- One slot of row buffer 3, at the buffer's contents. -/
theorem slot3_one (f : Buf (Elt F) ((Memref.whole cc0_scratch3 : Memref sig .scVector .vmem S8x16x128 .f32).view.loc (thrL d L))) (b : ℕ) (h : b < 8) :
    ((Memref.whole cc0_scratch3 : Memref sig .scVector .vmem S8x16x128 .f32).view.loc (thrL d L) ↦[slotSet b]{fullShare} f : sProp 𝕄) ⊢ slotAny d L (slotOf (Memref.whole cc0_scratch3 : Memref sig .scVector .vmem S8x16x128 .f32) b h) := by
  unfold slotAny
  iintro H
  iexists f
  rw [set_slot3]
  iexact H

/-- (I2) for row buffer 3: the buffer whole is its eight slots, each at some contents. -/
theorem slots3_intro (f : Buf (Elt F) ((Memref.whole cc0_scratch3 : Memref sig .scVector .vmem S8x16x128 .f32).view.loc (thrL d L))) :
    ((Memref.whole cc0_scratch3 : Memref sig .scVector .vmem S8x16x128 .f32).view.loc (thrL d L) ↦{fullShare} f : sProp 𝕄)
      ⊢ bigSep (Finset.Ico 0 8) (fun b => if hb : b < 8 then slotAny d L (slotOf (Memref.whole cc0_scratch3 : Memref sig .scVector .vmem S8x16x128 .f32) b hb) else iprop(emp)) := by
  rw [buf3_pts]
  refine bigSep_mono (fun b hb => ?_)
  have h : b < 8 := (Finset.mem_Ico.mp hb).2
  rw [dif_pos h]
  exact slot3_one d L f b h

/-- Row buffer 4 whole is its eight slots. -/
theorem buf4_pts (f : Buf (Elt F) ((Memref.whole cc0_scratch4 : Memref sig .scVector .vmem S8x16x128 .f32).view.loc (thrL d L))) :
    ((Memref.whole cc0_scratch4 : Memref sig .scVector .vmem S8x16x128 .f32).view.loc (thrL d L) ↦{fullShare} f : sProp 𝕄)
      = bigSep (Finset.Ico 0 8) fun b => (Memref.whole cc0_scratch4 : Memref sig .scVector .vmem S8x16x128 .f32).view.loc (thrL d L) ↦[slotSet b]{fullShare} f := by
  rw [← pointsTo_biUnion (Finset.Ico 0 8) (ℓ := (Memref.whole cc0_scratch4 : Memref sig .scVector .vmem S8x16x128 .f32).view.loc (thrL d L)) slotSet slotSet_disjoint, slotSet_cover]; try rfl

/-- The elements of slot b of row buffer 4 are the slot's view: the slice's, re-indexed without its unit axis. -/
theorem set_slot4 (b : ℕ) (h : b < 8) : (slotOf (Memref.whole cc0_scratch4 : Memref sig .scVector .vmem S8x16x128 .f32) b h).view.set = slotSet b := by
  unfold slotSet
  rw [dif_pos h]
  show (((Memref.whole cc0_scratch4 : Memref sig .scVector .vmem S8x16x128 .f32).view.slice (Rect.unit (s := S8x16x128) ![b, 0, 0] S1x16x128.size (slot_inb b h))).reshape S16x128
    squeezes_S1x16x128_S16x128.numel_eq).set = _
  rw [View.set_reshape]
  exact View.set_slice_whole _ _

/-- One slot of row buffer 4, at the buffer's contents. -/
theorem slot4_one (f : Buf (Elt F) ((Memref.whole cc0_scratch4 : Memref sig .scVector .vmem S8x16x128 .f32).view.loc (thrL d L))) (b : ℕ) (h : b < 8) :
    ((Memref.whole cc0_scratch4 : Memref sig .scVector .vmem S8x16x128 .f32).view.loc (thrL d L) ↦[slotSet b]{fullShare} f : sProp 𝕄) ⊢ slotAny d L (slotOf (Memref.whole cc0_scratch4 : Memref sig .scVector .vmem S8x16x128 .f32) b h) := by
  unfold slotAny
  iintro H
  iexists f
  rw [set_slot4]
  iexact H

/-- (I2) for row buffer 4: the buffer whole is its eight slots, each at some contents. -/
theorem slots4_intro (f : Buf (Elt F) ((Memref.whole cc0_scratch4 : Memref sig .scVector .vmem S8x16x128 .f32).view.loc (thrL d L))) :
    ((Memref.whole cc0_scratch4 : Memref sig .scVector .vmem S8x16x128 .f32).view.loc (thrL d L) ↦{fullShare} f : sProp 𝕄)
      ⊢ bigSep (Finset.Ico 0 8) (fun b => if hb : b < 8 then slotAny d L (slotOf (Memref.whole cc0_scratch4 : Memref sig .scVector .vmem S8x16x128 .f32) b hb) else iprop(emp)) := by
  rw [buf4_pts]
  refine bigSep_mono (fun b hb => ?_)
  have h : b < 8 := (Finset.mem_Ico.mp hb).2
  rw [dif_pos h]
  exact slot4_one d L f b h

/-- Row buffer 5 whole is its eight slots. -/
theorem buf5_pts (f : Buf (Elt F) ((Memref.whole cc0_scratch5 : Memref sig .scVector .vmem S8x16x128 .f32).view.loc (thrL d L))) :
    ((Memref.whole cc0_scratch5 : Memref sig .scVector .vmem S8x16x128 .f32).view.loc (thrL d L) ↦{fullShare} f : sProp 𝕄)
      = bigSep (Finset.Ico 0 8) fun b => (Memref.whole cc0_scratch5 : Memref sig .scVector .vmem S8x16x128 .f32).view.loc (thrL d L) ↦[slotSet b]{fullShare} f := by
  rw [← pointsTo_biUnion (Finset.Ico 0 8) (ℓ := (Memref.whole cc0_scratch5 : Memref sig .scVector .vmem S8x16x128 .f32).view.loc (thrL d L)) slotSet slotSet_disjoint, slotSet_cover]; try rfl

/-- The elements of slot b of row buffer 5 are the slot's view: the slice's, re-indexed without its unit axis. -/
theorem set_slot5 (b : ℕ) (h : b < 8) : (slotOf (Memref.whole cc0_scratch5 : Memref sig .scVector .vmem S8x16x128 .f32) b h).view.set = slotSet b := by
  unfold slotSet
  rw [dif_pos h]
  show (((Memref.whole cc0_scratch5 : Memref sig .scVector .vmem S8x16x128 .f32).view.slice (Rect.unit (s := S8x16x128) ![b, 0, 0] S1x16x128.size (slot_inb b h))).reshape S16x128
    squeezes_S1x16x128_S16x128.numel_eq).set = _
  rw [View.set_reshape]
  exact View.set_slice_whole _ _

/-- One slot of row buffer 5, at the buffer's contents. -/
theorem slot5_one (f : Buf (Elt F) ((Memref.whole cc0_scratch5 : Memref sig .scVector .vmem S8x16x128 .f32).view.loc (thrL d L))) (b : ℕ) (h : b < 8) :
    ((Memref.whole cc0_scratch5 : Memref sig .scVector .vmem S8x16x128 .f32).view.loc (thrL d L) ↦[slotSet b]{fullShare} f : sProp 𝕄) ⊢ slotAny d L (slotOf (Memref.whole cc0_scratch5 : Memref sig .scVector .vmem S8x16x128 .f32) b h) := by
  unfold slotAny
  iintro H
  iexists f
  rw [set_slot5]
  iexact H

/-- (I2) for row buffer 5: the buffer whole is its eight slots, each at some contents. -/
theorem slots5_intro (f : Buf (Elt F) ((Memref.whole cc0_scratch5 : Memref sig .scVector .vmem S8x16x128 .f32).view.loc (thrL d L))) :
    ((Memref.whole cc0_scratch5 : Memref sig .scVector .vmem S8x16x128 .f32).view.loc (thrL d L) ↦{fullShare} f : sProp 𝕄)
      ⊢ bigSep (Finset.Ico 0 8) (fun b => if hb : b < 8 then slotAny d L (slotOf (Memref.whole cc0_scratch5 : Memref sig .scVector .vmem S8x16x128 .f32) b hb) else iprop(emp)) := by
  rw [buf5_pts]
  refine bigSep_mono (fun b hb => ?_)
  have h : b < 8 := (Finset.mem_Ico.mp hb).2
  rw [dif_pos h]
  exact slot5_one d L f b h

end Tile
end Cert.Proof.KI
end
-- ==== Proof.KI.LoopEnds.Idle.lean ====
/-
  The counted loop's start, the idle slots: slot b of the three row buffers at some contents, the slot's three gather
  semaphores (numbers b, 8 + b, 16 + b of the subcore's pool) at zero and its three read tokens (numbers b and 16 + b of the
  entity table, 8 + b of the relation table) are the idle slot of every chunk number congruent to b modulo 8; the eight of
  them, for chunk numbers 0 … 7, are what the invariant holds before the first trip.
-/
import proofs.«209583_g49984829390938_cont_8to1c4_457_35_alg».proof.Proof.KI.LoopInv
import proofs.«209583_g49984829390938_cont_8to1c4_457_35_alg».proof.Proof.KI.SlotRead
import proofs.«209583_g49984829390938_cont_8to1c4_457_35_alg».proof.Proof.KI.TileOwn

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## Names for the pieces -/

/-- The entity table as the gathers take it: the whole array, sliced at offset (0, 0) at its full size. -/
abbrev entSl : Memref sig .scVector .hbm S100000x128 .f32 :=
  (Memref.whole main_arg1_scv : Memref sig .scVector .hbm S100000x128 .f32).slice (Rect.unit (s := S100000x128) ![0, 0] S100000x128.size inb_S100000x128_S100000x128_0_0) (fun _ => rfl)
/-- The relation table likewise. -/
abbrev relSl : Memref sig .scVector .hbm S100000x128 .f32 :=
  (Memref.whole main_arg2_scv : Memref sig .scVector .hbm S100000x128 .f32).slice (Rect.unit (s := S100000x128) ![0, 0] S100000x128.size inb_S100000x128_S100000x128_0_0) (fun _ => rfl)

/-- The subcore's DMA semaphore i at zero. -/
abbrev semZ (i : ℕ) (hi : i < 26) : sProp 𝕄 :=
  semVal ((thrL d L, SemLoc.dma (⟨i, hi⟩ : DmaSem sig)) : GSem nD τ sig) 0
/-- Read token i of the entity table. -/
abbrev tokE (i : ℕ) (hi : i < 26) : sProp 𝕄 :=
  iprop(entSl.view.loc (thrL d L) ↦[entSl.view.set]{tokQ L i hi} m (entLoc d))
/-- Read token i of the relation table. -/
abbrev tokRl (i : ℕ) (hi : i < 26) : sProp 𝕄 :=
  iprop(relSl.view.loc (thrL d L) ↦[relSl.view.set]{tokQ L i hi} m (relLoc d))

/-! ## One slot -/

/-- The nine pieces of slot b — its rows in the three buffers, its three semaphores at zero, its three read tokens — are the
    idle slot of any chunk number c with c mod 8 = b. -/
theorem idle_one (c b : ℕ) (hb : b < 8) (e : c % 8 = b) :
    (iprop(slotAny d L (slotOf (Memref.whole cc0_scratch3 : Memref sig .scVector .vmem S8x16x128 .f32) b hb) ∗ slotAny d L (slotOf (Memref.whole cc0_scratch4 : Memref sig .scVector .vmem S8x16x128 .f32) b hb) ∗ slotAny d L (slotOf (Memref.whole cc0_scratch5 : Memref sig .scVector .vmem S8x16x128 .f32) b hb)
      ∗ semZ d L b (by omega) ∗ semZ d L (8 + b) (by omega) ∗ semZ d L (16 + b) (by omega)
      ∗ tokE m d L (0 + b) (by omega) ∗ tokRl m d L (8 + b) (by omega) ∗ tokE m d L (16 + b) (by omega)) : sProp 𝕄)
      ⊢ idles m d L c := by
  subst e
  unfold idles idleH idleR idleT
  rw [semOf_scratch8, semOf_scratch9, semOf_scratch10]
  iintro ⟨A3, A4, A5, Za, Zb, Zc, Ta, Tb, Tc⟩
  isplitl [A3 Za Ta]
  · isplitl [A3]
    · iexact A3
    isplitl [Za]
    · iexact Za
    iexact Ta
  isplitl [A4 Zb Tb]
  · isplitl [A4]
    · iexact A4
    isplitl [Zb]
    · iexact Zb
    iexact Tb
  · isplitl [A5]
    · iexact A5
    isplitl [Zc]
    · iexact Zc
    iexact Tc

/-- The converse: an idle slot of chunk number c, c mod 8 = b, is slot b's nine pieces. -/
theorem idle_one_elim (c b : ℕ) (hb : b < 8) (e : c % 8 = b) :
    idles m d L c ⊢ (iprop(slotAny d L (slotOf (Memref.whole cc0_scratch3 : Memref sig .scVector .vmem S8x16x128 .f32) b hb) ∗ slotAny d L (slotOf (Memref.whole cc0_scratch4 : Memref sig .scVector .vmem S8x16x128 .f32) b hb) ∗ slotAny d L (slotOf (Memref.whole cc0_scratch5 : Memref sig .scVector .vmem S8x16x128 .f32) b hb)
      ∗ semZ d L b (by omega) ∗ semZ d L (8 + b) (by omega) ∗ semZ d L (16 + b) (by omega)
      ∗ tokE m d L (0 + b) (by omega) ∗ tokRl m d L (8 + b) (by omega) ∗ tokE m d L (16 + b) (by omega)) : sProp 𝕄) := by
  subst e
  unfold idles idleH idleR idleT
  rw [semOf_scratch8, semOf_scratch9, semOf_scratch10]
  iintro ⟨⟨A3, Za, Ta⟩, ⟨A4, Zb, Tb⟩, ⟨A5, Zc, Tc⟩⟩
  isplitl [A3]
  · iexact A3
  isplitl [A4]
  · iexact A4
  isplitl [A5]
  · iexact A5
  isplitl [Za]
  · iexact Za
  isplitl [Zb]
  · iexact Zb
  isplitl [Zc]
  · iexact Zc
  isplitl [Ta]
  · iexact Ta
  isplitl [Tb]
  · iexact Tb
  iexact Tc

/-! ## Eight consecutive numbers -/

theorem ico_0_8 : Finset.Ico 0 8 = ({0, 1, 2, 3, 4, 5, 6, 7} : Finset ℕ) := by decide
theorem ico_32_40 : Finset.Ico 32 40 = ({32, 33, 34, 35, 36, 37, 38, 39} : Finset ℕ) := by decide

theorem bigSep_ico_0_8 (Φ : ℕ → sProp 𝕄) :
    bigSep (Finset.Ico 0 8) Φ = iprop(Φ 0 ∗ Φ 1 ∗ Φ 2 ∗ Φ 3 ∗ Φ 4 ∗ Φ 5 ∗ Φ 6 ∗ Φ 7) := by
  rw [ico_0_8, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem bigSep_ico_32_40 (Φ : ℕ → sProp 𝕄) :
    bigSep (Finset.Ico 32 40) Φ = iprop(Φ 32 ∗ Φ 33 ∗ Φ 34 ∗ Φ 35 ∗ Φ 36 ∗ Φ 37 ∗ Φ 38 ∗ Φ 39) := by
  rw [ico_32_40, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## (I3) All eight slots idle -/

/-- (I3) The three row buffers' slots, the 24 gather semaphores at zero and the 24 read tokens are the eight idle slots. -/
theorem idles_intro :
    (iprop(bigSep (Finset.Ico 0 8) (fun b => if hb : b < 8 then slotAny d L (slotOf (Memref.whole cc0_scratch3 : Memref sig .scVector .vmem S8x16x128 .f32) b hb) else iprop(emp))
      ∗ bigSep (Finset.Ico 0 8) (fun b => if hb : b < 8 then slotAny d L (slotOf (Memref.whole cc0_scratch4 : Memref sig .scVector .vmem S8x16x128 .f32) b hb) else iprop(emp))
      ∗ bigSep (Finset.Ico 0 8) (fun b => if hb : b < 8 then slotAny d L (slotOf (Memref.whole cc0_scratch5 : Memref sig .scVector .vmem S8x16x128 .f32) b hb) else iprop(emp))
      ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
      ∗ (tokE m d L 0 (by decide) ∗ tokE m d L 1 (by decide) ∗ tokE m d L 2 (by decide) ∗ tokE m d L 3 (by decide) ∗ tokE m d L 4 (by decide) ∗ tokE m d L 5 (by decide) ∗ tokE m d L 6 (by decide) ∗ tokE m d L 7 (by decide) ∗ tokRl m d L 8 (by decide) ∗ tokRl m d L 9 (by decide) ∗ tokRl m d L 10 (by decide) ∗ tokRl m d L 11 (by decide) ∗ tokRl m d L 12 (by decide) ∗ tokRl m d L 13 (by decide) ∗ tokRl m d L 14 (by decide) ∗ tokRl m d L 15 (by decide) ∗ tokE m d L 16 (by decide) ∗ tokE m d L 17 (by decide) ∗ tokE m d L 18 (by decide) ∗ tokE m d L 19 (by decide) ∗ tokE m d L 20 (by decide) ∗ tokE m d L 21 (by decide) ∗ tokE m d L 22 (by decide) ∗ tokE m d L 23 (by decide))) : sProp 𝕄)
      ⊢ bigSep (Finset.Ico 0 8) (idles m d L) := by
  rw [bigSep_ico_0_8, bigSep_ico_0_8, bigSep_ico_0_8, bigSep_ico_0_8]
  simp only [Nat.reduceLT, ↓reduceDIte]
  iintro ⟨⟨A3_0, A3_1, A3_2, A3_3, A3_4, A3_5, A3_6, A3_7⟩, ⟨A4_0, A4_1, A4_2, A4_3, A4_4, A4_5, A4_6, A4_7⟩, ⟨A5_0, A5_1, A5_2, A5_3, A5_4, A5_5, A5_6, A5_7⟩, ⟨Z0, Z1, Z2, Z3, Z4, Z5, Z6, Z7, Z8, Z9, Z10, Z11, Z12, Z13, Z14, Z15, Z16, Z17, Z18, Z19, Z20, Z21, Z22, Z23⟩, ⟨T0, T1, T2, T3, T4, T5, T6, T7, T8, T9, T10, T11, T12, T13, T14, T15, T16, T17, T18, T19, T20, T21, T22, T23⟩⟩
  isplitl [A3_0 A4_0 A5_0 Z0 Z8 Z16 T0 T8 T16]
  · iapply (idle_one m d L 0 0 (by decide) (by decide))
    isplitl [A3_0]
    · iexact A3_0
    isplitl [A4_0]
    · iexact A4_0
    isplitl [A5_0]
    · iexact A5_0
    isplitl [Z0]
    · iexact Z0
    isplitl [Z8]
    · iexact Z8
    isplitl [Z16]
    · iexact Z16
    isplitl [T0]
    · iexact T0
    isplitl [T8]
    · iexact T8
    iexact T16
  isplitl [A3_1 A4_1 A5_1 Z1 Z9 Z17 T1 T9 T17]
  · iapply (idle_one m d L 1 1 (by decide) (by decide))
    isplitl [A3_1]
    · iexact A3_1
    isplitl [A4_1]
    · iexact A4_1
    isplitl [A5_1]
    · iexact A5_1
    isplitl [Z1]
    · iexact Z1
    isplitl [Z9]
    · iexact Z9
    isplitl [Z17]
    · iexact Z17
    isplitl [T1]
    · iexact T1
    isplitl [T9]
    · iexact T9
    iexact T17
  isplitl [A3_2 A4_2 A5_2 Z2 Z10 Z18 T2 T10 T18]
  · iapply (idle_one m d L 2 2 (by decide) (by decide))
    isplitl [A3_2]
    · iexact A3_2
    isplitl [A4_2]
    · iexact A4_2
    isplitl [A5_2]
    · iexact A5_2
    isplitl [Z2]
    · iexact Z2
    isplitl [Z10]
    · iexact Z10
    isplitl [Z18]
    · iexact Z18
    isplitl [T2]
    · iexact T2
    isplitl [T10]
    · iexact T10
    iexact T18
  isplitl [A3_3 A4_3 A5_3 Z3 Z11 Z19 T3 T11 T19]
  · iapply (idle_one m d L 3 3 (by decide) (by decide))
    isplitl [A3_3]
    · iexact A3_3
    isplitl [A4_3]
    · iexact A4_3
    isplitl [A5_3]
    · iexact A5_3
    isplitl [Z3]
    · iexact Z3
    isplitl [Z11]
    · iexact Z11
    isplitl [Z19]
    · iexact Z19
    isplitl [T3]
    · iexact T3
    isplitl [T11]
    · iexact T11
    iexact T19
  isplitl [A3_4 A4_4 A5_4 Z4 Z12 Z20 T4 T12 T20]
  · iapply (idle_one m d L 4 4 (by decide) (by decide))
    isplitl [A3_4]
    · iexact A3_4
    isplitl [A4_4]
    · iexact A4_4
    isplitl [A5_4]
    · iexact A5_4
    isplitl [Z4]
    · iexact Z4
    isplitl [Z12]
    · iexact Z12
    isplitl [Z20]
    · iexact Z20
    isplitl [T4]
    · iexact T4
    isplitl [T12]
    · iexact T12
    iexact T20
  isplitl [A3_5 A4_5 A5_5 Z5 Z13 Z21 T5 T13 T21]
  · iapply (idle_one m d L 5 5 (by decide) (by decide))
    isplitl [A3_5]
    · iexact A3_5
    isplitl [A4_5]
    · iexact A4_5
    isplitl [A5_5]
    · iexact A5_5
    isplitl [Z5]
    · iexact Z5
    isplitl [Z13]
    · iexact Z13
    isplitl [Z21]
    · iexact Z21
    isplitl [T5]
    · iexact T5
    isplitl [T13]
    · iexact T13
    iexact T21
  isplitl [A3_6 A4_6 A5_6 Z6 Z14 Z22 T6 T14 T22]
  · iapply (idle_one m d L 6 6 (by decide) (by decide))
    isplitl [A3_6]
    · iexact A3_6
    isplitl [A4_6]
    · iexact A4_6
    isplitl [A5_6]
    · iexact A5_6
    isplitl [Z6]
    · iexact Z6
    isplitl [Z14]
    · iexact Z14
    isplitl [Z22]
    · iexact Z22
    isplitl [T6]
    · iexact T6
    isplitl [T14]
    · iexact T14
    iexact T22
  · iapply (idle_one m d L 7 7 (by decide) (by decide))
    isplitl [A3_7]
    · iexact A3_7
    isplitl [A4_7]
    · iexact A4_7
    isplitl [A5_7]
    · iexact A5_7
    isplitl [Z7]
    · iexact Z7
    isplitl [Z15]
    · iexact Z15
    isplitl [Z23]
    · iexact Z23
    isplitl [T7]
    · iexact T7
    isplitl [T15]
    · iexact T15
    iexact T23

/-! ## A table's read token, through the slice the gathers take or through the whole array -/

theorem tblRect_set : (Rect.unit (s := S100000x128) ![0, 0] S100000x128.size inb_S100000x128_S100000x128_0_0).set = Finset.univ := by
  ext i
  simp only [Finset.mem_univ, iff_true]
  rw [Rect.mem_set_unit]
  intro a
  match a with
  | ⟨0, _⟩ =>
    have h0 : (i 0).val < 100000 := (i 0).isLt
    show 0 ≤ (i 0).val ∧ (i 0).val < 0 + 100000; omega
  | ⟨1, _⟩ =>
    have h1 : (i 1).val < 128 := (i 1).isLt
    show 0 ≤ (i 1).val ∧ (i 1).val < 0 + 128; omega

/-- The slice the gathers take of the entity table is the whole table. -/
theorem entSl_set : (entSl).view.set = Finset.univ :=
  (View.set_slice_whole _ _).trans tblRect_set
theorem relSl_set : (relSl).view.set = Finset.univ :=
  (View.set_slice_whole _ _).trans tblRect_set

/-- A share of the entity table held through the gathers' slice is that share of the whole array. -/
theorem entTok_eq (q : PosShare TreeShare) (t : Buf (Elt F) (entSl.view.loc (thrL d L))) :
    (entSl.view.loc (thrL d L) ↦[entSl.view.set]{q} t : sProp 𝕄) = ((Memref.whole main_arg1_scv : Memref sig .scVector .hbm S100000x128 .f32).view.loc (thrL d L) ↦{q} t) := by
  rw [entSl_set]; try rfl
theorem relTok_eq (q : PosShare TreeShare) (t : Buf (Elt F) (relSl.view.loc (thrL d L))) :
    (relSl.view.loc (thrL d L) ↦[relSl.view.set]{q} t : sProp 𝕄) = ((Memref.whole main_arg2_scv : Memref sig .scVector .hbm S100000x128 .f32).view.loc (thrL d L) ↦{q} t) := by
  rw [relSl_set]; try rfl

end Tile
end Cert.Proof.KI
end
-- ==== Proof.KI.LoopEnds.Exit.lean ====
/-
  The counted loop's end: from the invariant's pieces after the last trip back to what the subcore holds. The 32 windows of
  a list, each at whatever it holds, glue into the list whole at some contents (the windows are pairwise disjoint and cover
  it); the idle slots of the virtual chunks 32 … 39 are the eight slots (chunk c's slot is c mod 8), whose rows glue into the
  three row buffers whole at some contents, with the 24 gather semaphores at zero and the 24 read tokens.
-/
import proofs.«209583_g49984829390938_cont_8to1c4_457_35_alg».proof.Proof.KI.LoopInv
import proofs.«209583_g49984829390938_cont_8to1c4_457_35_alg».proof.Proof.KI.SlotRead
import proofs.«209583_g49984829390938_cont_8to1c4_457_35_alg».proof.Proof.KI.TileOwn
import proofs.«209583_g49984829390938_cont_8to1c4_457_35_alg».proof.Proof.KI.LoopEnds.Wins
import proofs.«209583_g49984829390938_cont_8to1c4_457_35_alg».proof.Proof.KI.LoopEnds.Slots
import proofs.«209583_g49984829390938_cont_8to1c4_457_35_alg».proof.Proof.KI.LoopEnds.Idle

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## (E1) The windows back to the lists -/

/-- A window of list H, forgetting what it holds. -/
theorem winH_forget (c : ℕ) (h : c < 32) :
    winHolds m d L 0 c (winOf (Memref.whole cc0_scratch0 : Memref sig .scVector .vmem S512 .i32) c h) ⊢ (iprop(∃ fw, (Memref.whole cc0_scratch0 : Memref sig .scVector .vmem S512 .i32).view.loc (thrL d L) ↦[winSet c]{fullShare} fw) : sProp 𝕄) := by
  unfold winHolds
  rw [set_winH c h]
  iintro ⟨%fw, -, H⟩
  iexists fw
  iexact H

theorem winsH_forget :
    bigSep (Finset.Ico 0 32) (fun c => if hc : c < 32 then winHolds m d L 0 c (winOf (Memref.whole cc0_scratch0 : Memref sig .scVector .vmem S512 .i32) c hc) else iprop(emp))
      ⊢ (bigSep (Finset.Ico 0 32) (fun c => iprop(∃ fw, (Memref.whole cc0_scratch0 : Memref sig .scVector .vmem S512 .i32).view.loc (thrL d L) ↦[winSet c]{fullShare} fw)) : sProp 𝕄) := by
  refine bigSep_mono (fun c hc => ?_)
  have h : c < 32 := (Finset.mem_Ico.mp hc).2
  rw [dif_pos h]
  exact winH_forget m d L c h

/-- (E1) for list H: the 32 windows are the list whole, at some contents. -/
theorem listH_join :
    bigSep (Finset.Ico 0 32) (fun c => if hc : c < 32 then winHolds m d L 0 c (winOf (Memref.whole cc0_scratch0 : Memref sig .scVector .vmem S512 .i32) c hc) else iprop(emp))
      ⊢ (iprop(∃ f, (Memref.whole cc0_scratch0 : Memref sig .scVector .vmem S512 .i32).view.loc (thrL d L) ↦{fullShare} f) : sProp 𝕄) := by
  haveI : Nonempty (Buf (Elt F) ((Memref.whole cc0_scratch0 : Memref sig .scVector .vmem S512 .i32).view.loc (thrL d L))) := ⟨(fun _ => 0#32 : S512.Idx → BitVec 32)⟩
  iintro H
  ihave H1 := (winsH_forget m d L) $$ H
  ihave H2 := (bigSep_exists_pi (Finset.Ico 0 32) (fun (c : ℕ) (fw : Buf (Elt F) ((Memref.whole cc0_scratch0 : Memref sig .scVector .vmem S512 .i32).view.loc (thrL d L))) => iprop((Memref.whole cc0_scratch0 : Memref sig .scVector .vmem S512 .i32).view.loc (thrL d L) ↦[winSet c]{fullShare} fw))) $$ H1
  icases H2 with ⟨%fs, H2⟩
  ihave H3 := (pointsTo_biUnion_join (Finset.Ico 0 32) winSet fs (fs 0) winSet_disjoint) $$ H2
  icases H3 with ⟨%g, -, Hg⟩
  rw [winSet_cover]
  iexists g
  iexact Hg

/-- A window of list R, forgetting what it holds. -/
theorem winR_forget (c : ℕ) (h : c < 32) :
    winHolds m d L 1 c (winOf (Memref.whole cc0_scratch1 : Memref sig .scVector .vmem S512 .i32) c h) ⊢ (iprop(∃ fw, (Memref.whole cc0_scratch1 : Memref sig .scVector .vmem S512 .i32).view.loc (thrL d L) ↦[winSet c]{fullShare} fw) : sProp 𝕄) := by
  unfold winHolds
  rw [set_winR c h]
  iintro ⟨%fw, -, H⟩
  iexists fw
  iexact H

theorem winsR_forget :
    bigSep (Finset.Ico 0 32) (fun c => if hc : c < 32 then winHolds m d L 1 c (winOf (Memref.whole cc0_scratch1 : Memref sig .scVector .vmem S512 .i32) c hc) else iprop(emp))
      ⊢ (bigSep (Finset.Ico 0 32) (fun c => iprop(∃ fw, (Memref.whole cc0_scratch1 : Memref sig .scVector .vmem S512 .i32).view.loc (thrL d L) ↦[winSet c]{fullShare} fw)) : sProp 𝕄) := by
  refine bigSep_mono (fun c hc => ?_)
  have h : c < 32 := (Finset.mem_Ico.mp hc).2
  rw [dif_pos h]
  exact winR_forget m d L c h

/-- (E1) for list R: the 32 windows are the list whole, at some contents. -/
theorem listR_join :
    bigSep (Finset.Ico 0 32) (fun c => if hc : c < 32 then winHolds m d L 1 c (winOf (Memref.whole cc0_scratch1 : Memref sig .scVector .vmem S512 .i32) c hc) else iprop(emp))
      ⊢ (iprop(∃ f, (Memref.whole cc0_scratch1 : Memref sig .scVector .vmem S512 .i32).view.loc (thrL d L) ↦{fullShare} f) : sProp 𝕄) := by
  haveI : Nonempty (Buf (Elt F) ((Memref.whole cc0_scratch1 : Memref sig .scVector .vmem S512 .i32).view.loc (thrL d L))) := ⟨(fun _ => 0#32 : S512.Idx → BitVec 32)⟩
  iintro H
  ihave H1 := (winsR_forget m d L) $$ H
  ihave H2 := (bigSep_exists_pi (Finset.Ico 0 32) (fun (c : ℕ) (fw : Buf (Elt F) ((Memref.whole cc0_scratch1 : Memref sig .scVector .vmem S512 .i32).view.loc (thrL d L))) => iprop((Memref.whole cc0_scratch1 : Memref sig .scVector .vmem S512 .i32).view.loc (thrL d L) ↦[winSet c]{fullShare} fw))) $$ H1
  icases H2 with ⟨%fs, H2⟩
  ihave H3 := (pointsTo_biUnion_join (Finset.Ico 0 32) winSet fs (fs 0) winSet_disjoint) $$ H2
  icases H3 with ⟨%g, -, Hg⟩
  rw [winSet_cover]
  iexists g
  iexact Hg

/-- A window of list T, forgetting what it holds. -/
theorem winT_forget (c : ℕ) (h : c < 32) :
    winHolds m d L 2 c (winOf (Memref.whole cc0_scratch2 : Memref sig .scVector .vmem S512 .i32) c h) ⊢ (iprop(∃ fw, (Memref.whole cc0_scratch2 : Memref sig .scVector .vmem S512 .i32).view.loc (thrL d L) ↦[winSet c]{fullShare} fw) : sProp 𝕄) := by
  unfold winHolds
  rw [set_winT c h]
  iintro ⟨%fw, -, H⟩
  iexists fw
  iexact H

theorem winsT_forget :
    bigSep (Finset.Ico 0 32) (fun c => if hc : c < 32 then winHolds m d L 2 c (winOf (Memref.whole cc0_scratch2 : Memref sig .scVector .vmem S512 .i32) c hc) else iprop(emp))
      ⊢ (bigSep (Finset.Ico 0 32) (fun c => iprop(∃ fw, (Memref.whole cc0_scratch2 : Memref sig .scVector .vmem S512 .i32).view.loc (thrL d L) ↦[winSet c]{fullShare} fw)) : sProp 𝕄) := by
  refine bigSep_mono (fun c hc => ?_)
  have h : c < 32 := (Finset.mem_Ico.mp hc).2
  rw [dif_pos h]
  exact winT_forget m d L c h

/-- (E1) for list T: the 32 windows are the list whole, at some contents. -/
theorem listT_join :
    bigSep (Finset.Ico 0 32) (fun c => if hc : c < 32 then winHolds m d L 2 c (winOf (Memref.whole cc0_scratch2 : Memref sig .scVector .vmem S512 .i32) c hc) else iprop(emp))
      ⊢ (iprop(∃ f, (Memref.whole cc0_scratch2 : Memref sig .scVector .vmem S512 .i32).view.loc (thrL d L) ↦{fullShare} f) : sProp 𝕄) := by
  haveI : Nonempty (Buf (Elt F) ((Memref.whole cc0_scratch2 : Memref sig .scVector .vmem S512 .i32).view.loc (thrL d L))) := ⟨(fun _ => 0#32 : S512.Idx → BitVec 32)⟩
  iintro H
  ihave H1 := (winsT_forget m d L) $$ H
  ihave H2 := (bigSep_exists_pi (Finset.Ico 0 32) (fun (c : ℕ) (fw : Buf (Elt F) ((Memref.whole cc0_scratch2 : Memref sig .scVector .vmem S512 .i32).view.loc (thrL d L))) => iprop((Memref.whole cc0_scratch2 : Memref sig .scVector .vmem S512 .i32).view.loc (thrL d L) ↦[winSet c]{fullShare} fw))) $$ H1
  icases H2 with ⟨%fs, H2⟩
  ihave H3 := (pointsTo_biUnion_join (Finset.Ico 0 32) winSet fs (fs 0) winSet_disjoint) $$ H2
  icases H3 with ⟨%g, -, Hg⟩
  rw [winSet_cover]
  iexists g
  iexact Hg

/-- The chunks' windows, list by list. -/
theorem wins_split :
    bigSep (Finset.Ico 0 32) (wins m d L)
      = (iprop(bigSep (Finset.Ico 0 32) (fun c => if hc : c < 32 then winHolds m d L 0 c (winOf (Memref.whole cc0_scratch0 : Memref sig .scVector .vmem S512 .i32) c hc) else iprop(emp))
        ∗ bigSep (Finset.Ico 0 32) (fun c => if hc : c < 32 then winHolds m d L 1 c (winOf (Memref.whole cc0_scratch1 : Memref sig .scVector .vmem S512 .i32) c hc) else iprop(emp))
        ∗ bigSep (Finset.Ico 0 32) (fun c => if hc : c < 32 then winHolds m d L 2 c (winOf (Memref.whole cc0_scratch2 : Memref sig .scVector .vmem S512 .i32) c hc) else iprop(emp))) : sProp 𝕄) := by
  rw [← bigSep_sep', ← bigSep_sep']
  refine bigSep_congr (fun c hc => ?_)
  have h : c < 32 := (Finset.mem_Ico.mp hc).2
  unfold wins
  rw [dif_pos h, dif_pos h, dif_pos h, dif_pos h]

/-- (E1) All the chunks' windows are the three lists whole, each at some contents. -/
theorem wins_elim :
    bigSep (Finset.Ico 0 32) (wins m d L)
      ⊢ (iprop((∃ f, (Memref.whole cc0_scratch0 : Memref sig .scVector .vmem S512 .i32).view.loc (thrL d L) ↦{fullShare} f)
        ∗ (∃ f, (Memref.whole cc0_scratch1 : Memref sig .scVector .vmem S512 .i32).view.loc (thrL d L) ↦{fullShare} f)
        ∗ (∃ f, (Memref.whole cc0_scratch2 : Memref sig .scVector .vmem S512 .i32).view.loc (thrL d L) ↦{fullShare} f)) : sProp 𝕄) := by
  rw [wins_split]
  iintro ⟨H0, H1, H2⟩
  isplitl [H0]
  · iapply (listH_join m d L); iexact H0
  isplitl [H1]
  · iapply (listR_join m d L); iexact H1
  · iapply (listT_join m d L); iexact H2

/-! ## (E2) The slots back to the row buffers -/

/-- A slot of row buffer 3 at some contents, as elements of the buffer. -/
theorem slot3_forget (b : ℕ) (h : b < 8) :
    slotAny d L (slotOf (Memref.whole cc0_scratch3 : Memref sig .scVector .vmem S8x16x128 .f32) b h) ⊢ (iprop(∃ G, (Memref.whole cc0_scratch3 : Memref sig .scVector .vmem S8x16x128 .f32).view.loc (thrL d L) ↦[slotSet b]{fullShare} G) : sProp 𝕄) := by
  unfold slotAny
  rw [set_slot3 b h]

theorem slots3_forget :
    bigSep (Finset.Ico 0 8) (fun b => if hb : b < 8 then slotAny d L (slotOf (Memref.whole cc0_scratch3 : Memref sig .scVector .vmem S8x16x128 .f32) b hb) else iprop(emp))
      ⊢ (bigSep (Finset.Ico 0 8) (fun b => iprop(∃ G, (Memref.whole cc0_scratch3 : Memref sig .scVector .vmem S8x16x128 .f32).view.loc (thrL d L) ↦[slotSet b]{fullShare} G)) : sProp 𝕄) := by
  refine bigSep_mono (fun b hb => ?_)
  have h : b < 8 := (Finset.mem_Ico.mp hb).2
  rw [dif_pos h]
  exact slot3_forget d L b h

/-- The eight slots of row buffer 3, each at some contents, are the buffer whole at some contents. -/
theorem slots3_join :
    bigSep (Finset.Ico 0 8) (fun b => if hb : b < 8 then slotAny d L (slotOf (Memref.whole cc0_scratch3 : Memref sig .scVector .vmem S8x16x128 .f32) b hb) else iprop(emp))
      ⊢ (iprop(∃ f, (Memref.whole cc0_scratch3 : Memref sig .scVector .vmem S8x16x128 .f32).view.loc (thrL d L) ↦{fullShare} f) : sProp 𝕄) := by
  by_cases hne : Nonempty (Buf (Elt F) ((Memref.whole cc0_scratch3 : Memref sig .scVector .vmem S8x16x128 .f32).view.loc (thrL d L)))
  · haveI := hne
    iintro H
    ihave H1 := (slots3_forget d L) $$ H
    ihave H2 := (bigSep_exists_pi (Finset.Ico 0 8) (fun (b : ℕ) (G : Buf (Elt F) ((Memref.whole cc0_scratch3 : Memref sig .scVector .vmem S8x16x128 .f32).view.loc (thrL d L))) => iprop((Memref.whole cc0_scratch3 : Memref sig .scVector .vmem S8x16x128 .f32).view.loc (thrL d L) ↦[slotSet b]{fullShare} G))) $$ H1
    icases H2 with ⟨%fs, H2⟩
    ihave H3 := (pointsTo_biUnion_join (Finset.Ico 0 8) slotSet fs (fs 0) slotSet_disjoint) $$ H2
    icases H3 with ⟨%g, -, Hg⟩
    rw [slotSet_cover]
    iexists g
    iexact Hg
  · -- no contents at all: then no slot is held either
    rw [bigSep_ico_0_8]
    simp only [Nat.reduceLT, ↓reduceDIte]
    unfold slotAny
    iintro ⟨⟨%G, H0⟩, H⟩
    exact absurd ⟨G⟩ hne

/-- A slot of row buffer 4 at some contents, as elements of the buffer. -/
theorem slot4_forget (b : ℕ) (h : b < 8) :
    slotAny d L (slotOf (Memref.whole cc0_scratch4 : Memref sig .scVector .vmem S8x16x128 .f32) b h) ⊢ (iprop(∃ G, (Memref.whole cc0_scratch4 : Memref sig .scVector .vmem S8x16x128 .f32).view.loc (thrL d L) ↦[slotSet b]{fullShare} G) : sProp 𝕄) := by
  unfold slotAny
  rw [set_slot4 b h]

theorem slots4_forget :
    bigSep (Finset.Ico 0 8) (fun b => if hb : b < 8 then slotAny d L (slotOf (Memref.whole cc0_scratch4 : Memref sig .scVector .vmem S8x16x128 .f32) b hb) else iprop(emp))
      ⊢ (bigSep (Finset.Ico 0 8) (fun b => iprop(∃ G, (Memref.whole cc0_scratch4 : Memref sig .scVector .vmem S8x16x128 .f32).view.loc (thrL d L) ↦[slotSet b]{fullShare} G)) : sProp 𝕄) := by
  refine bigSep_mono (fun b hb => ?_)
  have h : b < 8 := (Finset.mem_Ico.mp hb).2
  rw [dif_pos h]
  exact slot4_forget d L b h

/-- The eight slots of row buffer 4, each at some contents, are the buffer whole at some contents. -/
theorem slots4_join :
    bigSep (Finset.Ico 0 8) (fun b => if hb : b < 8 then slotAny d L (slotOf (Memref.whole cc0_scratch4 : Memref sig .scVector .vmem S8x16x128 .f32) b hb) else iprop(emp))
      ⊢ (iprop(∃ f, (Memref.whole cc0_scratch4 : Memref sig .scVector .vmem S8x16x128 .f32).view.loc (thrL d L) ↦{fullShare} f) : sProp 𝕄) := by
  by_cases hne : Nonempty (Buf (Elt F) ((Memref.whole cc0_scratch4 : Memref sig .scVector .vmem S8x16x128 .f32).view.loc (thrL d L)))
  · haveI := hne
    iintro H
    ihave H1 := (slots4_forget d L) $$ H
    ihave H2 := (bigSep_exists_pi (Finset.Ico 0 8) (fun (b : ℕ) (G : Buf (Elt F) ((Memref.whole cc0_scratch4 : Memref sig .scVector .vmem S8x16x128 .f32).view.loc (thrL d L))) => iprop((Memref.whole cc0_scratch4 : Memref sig .scVector .vmem S8x16x128 .f32).view.loc (thrL d L) ↦[slotSet b]{fullShare} G))) $$ H1
    icases H2 with ⟨%fs, H2⟩
    ihave H3 := (pointsTo_biUnion_join (Finset.Ico 0 8) slotSet fs (fs 0) slotSet_disjoint) $$ H2
    icases H3 with ⟨%g, -, Hg⟩
    rw [slotSet_cover]
    iexists g
    iexact Hg
  · -- no contents at all: then no slot is held either
    rw [bigSep_ico_0_8]
    simp only [Nat.reduceLT, ↓reduceDIte]
    unfold slotAny
    iintro ⟨⟨%G, H0⟩, H⟩
    exact absurd ⟨G⟩ hne

/-- A slot of row buffer 5 at some contents, as elements of the buffer. -/
theorem slot5_forget (b : ℕ) (h : b < 8) :
    slotAny d L (slotOf (Memref.whole cc0_scratch5 : Memref sig .scVector .vmem S8x16x128 .f32) b h) ⊢ (iprop(∃ G, (Memref.whole cc0_scratch5 : Memref sig .scVector .vmem S8x16x128 .f32).view.loc (thrL d L) ↦[slotSet b]{fullShare} G) : sProp 𝕄) := by
  unfold slotAny
  rw [set_slot5 b h]

theorem slots5_forget :
    bigSep (Finset.Ico 0 8) (fun b => if hb : b < 8 then slotAny d L (slotOf (Memref.whole cc0_scratch5 : Memref sig .scVector .vmem S8x16x128 .f32) b hb) else iprop(emp))
      ⊢ (bigSep (Finset.Ico 0 8) (fun b => iprop(∃ G, (Memref.whole cc0_scratch5 : Memref sig .scVector .vmem S8x16x128 .f32).view.loc (thrL d L) ↦[slotSet b]{fullShare} G)) : sProp 𝕄) := by
  refine bigSep_mono (fun b hb => ?_)
  have h : b < 8 := (Finset.mem_Ico.mp hb).2
  rw [dif_pos h]
  exact slot5_forget d L b h

/-- The eight slots of row buffer 5, each at some contents, are the buffer whole at some contents. -/
theorem slots5_join :
    bigSep (Finset.Ico 0 8) (fun b => if hb : b < 8 then slotAny d L (slotOf (Memref.whole cc0_scratch5 : Memref sig .scVector .vmem S8x16x128 .f32) b hb) else iprop(emp))
      ⊢ (iprop(∃ f, (Memref.whole cc0_scratch5 : Memref sig .scVector .vmem S8x16x128 .f32).view.loc (thrL d L) ↦{fullShare} f) : sProp 𝕄) := by
  by_cases hne : Nonempty (Buf (Elt F) ((Memref.whole cc0_scratch5 : Memref sig .scVector .vmem S8x16x128 .f32).view.loc (thrL d L)))
  · haveI := hne
    iintro H
    ihave H1 := (slots5_forget d L) $$ H
    ihave H2 := (bigSep_exists_pi (Finset.Ico 0 8) (fun (b : ℕ) (G : Buf (Elt F) ((Memref.whole cc0_scratch5 : Memref sig .scVector .vmem S8x16x128 .f32).view.loc (thrL d L))) => iprop((Memref.whole cc0_scratch5 : Memref sig .scVector .vmem S8x16x128 .f32).view.loc (thrL d L) ↦[slotSet b]{fullShare} G))) $$ H1
    icases H2 with ⟨%fs, H2⟩
    ihave H3 := (pointsTo_biUnion_join (Finset.Ico 0 8) slotSet fs (fs 0) slotSet_disjoint) $$ H2
    icases H3 with ⟨%g, -, Hg⟩
    rw [slotSet_cover]
    iexists g
    iexact Hg
  · -- no contents at all: then no slot is held either
    rw [bigSep_ico_0_8]
    simp only [Nat.reduceLT, ↓reduceDIte]
    unfold slotAny
    iintro ⟨⟨%G, H0⟩, H⟩
    exact absurd ⟨G⟩ hne

/-! ## (E3) The idle slots of the virtual chunks 32 … 39 -/

/-- (E2, E3) After the last trip the idle slots are the three row buffers whole at some contents, the 24 gather semaphores
    at zero and the 24 read tokens. -/
theorem idles_elim :
    bigSep (Finset.Ico 32 40) (idles m d L)
      ⊢ (iprop((∃ f, (Memref.whole cc0_scratch3 : Memref sig .scVector .vmem S8x16x128 .f32).view.loc (thrL d L) ↦{fullShare} f)
        ∗ (∃ f, (Memref.whole cc0_scratch4 : Memref sig .scVector .vmem S8x16x128 .f32).view.loc (thrL d L) ↦{fullShare} f)
        ∗ (∃ f, (Memref.whole cc0_scratch5 : Memref sig .scVector .vmem S8x16x128 .f32).view.loc (thrL d L) ↦{fullShare} f)
        ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
        ∗ (tokE m d L 0 (by decide) ∗ tokE m d L 1 (by decide) ∗ tokE m d L 2 (by decide) ∗ tokE m d L 3 (by decide) ∗ tokE m d L 4 (by decide) ∗ tokE m d L 5 (by decide) ∗ tokE m d L 6 (by decide) ∗ tokE m d L 7 (by decide) ∗ tokRl m d L 8 (by decide) ∗ tokRl m d L 9 (by decide) ∗ tokRl m d L 10 (by decide) ∗ tokRl m d L 11 (by decide) ∗ tokRl m d L 12 (by decide) ∗ tokRl m d L 13 (by decide) ∗ tokRl m d L 14 (by decide) ∗ tokRl m d L 15 (by decide) ∗ tokE m d L 16 (by decide) ∗ tokE m d L 17 (by decide) ∗ tokE m d L 18 (by decide) ∗ tokE m d L 19 (by decide) ∗ tokE m d L 20 (by decide) ∗ tokE m d L 21 (by decide) ∗ tokE m d L 22 (by decide) ∗ tokE m d L 23 (by decide))) : sProp 𝕄) := by
  rw [bigSep_ico_32_40]
  iintro ⟨I0, I1, I2, I3, I4, I5, I6, I7⟩
  ihave J0 := (idle_one_elim m d L 32 0 (by decide) (by decide)) $$ I0
  icases J0 with ⟨A3_0, A4_0, A5_0, Z0, Z8, Z16, T0, T8, T16⟩
  ihave J1 := (idle_one_elim m d L 33 1 (by decide) (by decide)) $$ I1
  icases J1 with ⟨A3_1, A4_1, A5_1, Z1, Z9, Z17, T1, T9, T17⟩
  ihave J2 := (idle_one_elim m d L 34 2 (by decide) (by decide)) $$ I2
  icases J2 with ⟨A3_2, A4_2, A5_2, Z2, Z10, Z18, T2, T10, T18⟩
  ihave J3 := (idle_one_elim m d L 35 3 (by decide) (by decide)) $$ I3
  icases J3 with ⟨A3_3, A4_3, A5_3, Z3, Z11, Z19, T3, T11, T19⟩
  ihave J4 := (idle_one_elim m d L 36 4 (by decide) (by decide)) $$ I4
  icases J4 with ⟨A3_4, A4_4, A5_4, Z4, Z12, Z20, T4, T12, T20⟩
  ihave J5 := (idle_one_elim m d L 37 5 (by decide) (by decide)) $$ I5
  icases J5 with ⟨A3_5, A4_5, A5_5, Z5, Z13, Z21, T5, T13, T21⟩
  ihave J6 := (idle_one_elim m d L 38 6 (by decide) (by decide)) $$ I6
  icases J6 with ⟨A3_6, A4_6, A5_6, Z6, Z14, Z22, T6, T14, T22⟩
  ihave J7 := (idle_one_elim m d L 39 7 (by decide) (by decide)) $$ I7
  icases J7 with ⟨A3_7, A4_7, A5_7, Z7, Z15, Z23, T7, T15, T23⟩
  isplitl [A3_0 A3_1 A3_2 A3_3 A3_4 A3_5 A3_6 A3_7]
  · iapply (slots3_join d L)
    rw [bigSep_ico_0_8]
    simp only [Nat.reduceLT, ↓reduceDIte]
    isplitl [A3_0]
    · iexact A3_0
    isplitl [A3_1]
    · iexact A3_1
    isplitl [A3_2]
    · iexact A3_2
    isplitl [A3_3]
    · iexact A3_3
    isplitl [A3_4]
    · iexact A3_4
    isplitl [A3_5]
    · iexact A3_5
    isplitl [A3_6]
    · iexact A3_6
    iexact A3_7
  isplitl [A4_0 A4_1 A4_2 A4_3 A4_4 A4_5 A4_6 A4_7]
  · iapply (slots4_join d L)
    rw [bigSep_ico_0_8]
    simp only [Nat.reduceLT, ↓reduceDIte]
    isplitl [A4_0]
    · iexact A4_0
    isplitl [A4_1]
    · iexact A4_1
    isplitl [A4_2]
    · iexact A4_2
    isplitl [A4_3]
    · iexact A4_3
    isplitl [A4_4]
    · iexact A4_4
    isplitl [A4_5]
    · iexact A4_5
    isplitl [A4_6]
    · iexact A4_6
    iexact A4_7
  isplitl [A5_0 A5_1 A5_2 A5_3 A5_4 A5_5 A5_6 A5_7]
  · iapply (slots5_join d L)
    rw [bigSep_ico_0_8]
    simp only [Nat.reduceLT, ↓reduceDIte]
    isplitl [A5_0]
    · iexact A5_0
    isplitl [A5_1]
    · iexact A5_1
    isplitl [A5_2]
    · iexact A5_2
    isplitl [A5_3]
    · iexact A5_3
    isplitl [A5_4]
    · iexact A5_4
    isplitl [A5_5]
    · iexact A5_5
    isplitl [A5_6]
    · iexact A5_6
    iexact A5_7
  isplitl [Z0 Z1 Z2 Z3 Z4 Z5 Z6 Z7 Z8 Z9 Z10 Z11 Z12 Z13 Z14 Z15 Z16 Z17 Z18 Z19 Z20 Z21 Z22 Z23]
  · isplitl [Z0]
    · iexact Z0
    isplitl [Z1]
    · iexact Z1
    isplitl [Z2]
    · iexact Z2
    isplitl [Z3]
    · iexact Z3
    isplitl [Z4]
    · iexact Z4
    isplitl [Z5]
    · iexact Z5
    isplitl [Z6]
    · iexact Z6
    isplitl [Z7]
    · iexact Z7
    isplitl [Z8]
    · iexact Z8
    isplitl [Z9]
    · iexact Z9
    isplitl [Z10]
    · iexact Z10
    isplitl [Z11]
    · iexact Z11
    isplitl [Z12]
    · iexact Z12
    isplitl [Z13]
    · iexact Z13
    isplitl [Z14]
    · iexact Z14
    isplitl [Z15]
    · iexact Z15
    isplitl [Z16]
    · iexact Z16
    isplitl [Z17]
    · iexact Z17
    isplitl [Z18]
    · iexact Z18
    isplitl [Z19]
    · iexact Z19
    isplitl [Z20]
    · iexact Z20
    isplitl [Z21]
    · iexact Z21
    isplitl [Z22]
    · iexact Z22
    iexact Z23
  · isplitl [T0]
    · iexact T0
    isplitl [T1]
    · iexact T1
    isplitl [T2]
    · iexact T2
    isplitl [T3]
    · iexact T3
    isplitl [T4]
    · iexact T4
    isplitl [T5]
    · iexact T5
    isplitl [T6]
    · iexact T6
    isplitl [T7]
    · iexact T7
    isplitl [T8]
    · iexact T8
    isplitl [T9]
    · iexact T9
    isplitl [T10]
    · iexact T10
    isplitl [T11]
    · iexact T11
    isplitl [T12]
    · iexact T12
    isplitl [T13]
    · iexact T13
    isplitl [T14]
    · iexact T14
    isplitl [T15]
    · iexact T15
    isplitl [T16]
    · iexact T16
    isplitl [T17]
    · iexact T17
    isplitl [T18]
    · iexact T18
    isplitl [T19]
    · iexact T19
    isplitl [T20]
    · iexact T20
    isplitl [T21]
    · iexact T21
    isplitl [T22]
    · iexact T22
    iexact T23

end Tile
end Cert.Proof.KI
end
-- ==== Proof.KI.LoopEnds.Bracket.lean ====
/-
  What brackets the counted loop. Before it: the three landed lists, the three row buffers, the 24 gather semaphores at zero
  and the tile's share of each table become the eight idle slots, the 32 chunks' windows, and what is left of the two shares
  (the remainder after 26 tokens are cut, and the tokens the gathers do not use: the entity table's tokens 8 … 15, 24, 25, the
  relation table's 0 … 7, 16 … 25). After it the same pieces go back. Also: the first seven chunks split off an interval of
  chunk numbers, and a gather in flight stated at a slot number is the flight of any chunk in that slot.
-/
import proofs.«209583_g49984829390938_cont_8to1c4_457_35_alg».proof.Proof.KI.LoopInv
import proofs.«209583_g49984829390938_cont_8to1c4_457_35_alg».proof.Proof.KI.SlotRead
import proofs.«209583_g49984829390938_cont_8to1c4_457_35_alg».proof.Proof.KI.TileOwn
import proofs.«209583_g49984829390938_cont_8to1c4_457_35_alg».proof.Proof.KI.LoopEnds.Wins
import proofs.«209583_g49984829390938_cont_8to1c4_457_35_alg».proof.Proof.KI.LoopEnds.Slots
import proofs.«209583_g49984829390938_cont_8to1c4_457_35_alg».proof.Proof.KI.LoopEnds.Idle
import proofs.«209583_g49984829390938_cont_8to1c4_457_35_alg».proof.Proof.KI.LoopEnds.Exit

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## Names -/

/-- The tile's share of each table. -/
abbrev qt : PosShare TreeShare := Transfers.shareTok fullShare 32 (tL L)
/-- The entity table, whole, at share q. -/
abbrev entWU (q : PosShare TreeShare) : sProp 𝕄 := iprop((Memref.whole main_arg1_scv : Memref sig .scVector .hbm S100000x128 .f32).view.loc (thrL d L) ↦{q} m (entLoc d))
/-- The relation table, whole, at share q. -/
abbrev relWU (q : PosShare TreeShare) : sProp 𝕄 := iprop((Memref.whole main_arg2_scv : Memref sig .scVector .hbm S100000x128 .f32).view.loc (thrL d L) ↦{q} m (relLoc d))

/-- What the loop does not use of the entity table's tile share. -/
def entRest : sProp 𝕄 :=
  iprop(entWU m d L (Transfers.shareDrop (qt L) 26) ∗ entWU m d L (tokQ L 8 (by decide)) ∗ entWU m d L (tokQ L 9 (by decide)) ∗ entWU m d L (tokQ L 10 (by decide)) ∗ entWU m d L (tokQ L 11 (by decide)) ∗ entWU m d L (tokQ L 12 (by decide)) ∗ entWU m d L (tokQ L 13 (by decide)) ∗ entWU m d L (tokQ L 14 (by decide)) ∗ entWU m d L (tokQ L 15 (by decide)) ∗ entWU m d L (tokQ L 24 (by decide)) ∗ entWU m d L (tokQ L 25 (by decide)))
/-- What the loop does not use of the relation table's tile share. -/
def relRest : sProp 𝕄 :=
  iprop(relWU m d L (Transfers.shareDrop (qt L) 26) ∗ relWU m d L (tokQ L 0 (by decide)) ∗ relWU m d L (tokQ L 1 (by decide)) ∗ relWU m d L (tokQ L 2 (by decide)) ∗ relWU m d L (tokQ L 3 (by decide)) ∗ relWU m d L (tokQ L 4 (by decide)) ∗ relWU m d L (tokQ L 5 (by decide)) ∗ relWU m d L (tokQ L 6 (by decide)) ∗ relWU m d L (tokQ L 7 (by decide)) ∗ relWU m d L (tokQ L 16 (by decide)) ∗ relWU m d L (tokQ L 17 (by decide)) ∗ relWU m d L (tokQ L 18 (by decide)) ∗ relWU m d L (tokQ L 19 (by decide)) ∗ relWU m d L (tokQ L 20 (by decide)) ∗ relWU m d L (tokQ L 21 (by decide)) ∗ relWU m d L (tokQ L 22 (by decide)) ∗ relWU m d L (tokQ L 23 (by decide)) ∗ relWU m d L (tokQ L 24 (by decide)) ∗ relWU m d L (tokQ L 25 (by decide)))

/-! ## (B3) Intervals of chunk numbers -/

theorem ico_0_32_split : Finset.Ico 0 32 = insert 0 (insert 1 (insert 2 (insert 3 (insert 4 (insert 5 (insert 6 (Finset.Ico 7 32))))))) := by
  ext x
  simp only [Finset.mem_insert, Finset.mem_Ico]
  omega
theorem ico_0_7 : Finset.Ico 0 7 = ({0, 1, 2, 3, 4, 5, 6} : Finset ℕ) := by decide
theorem ico_7_8 : Finset.Ico 7 8 = ({7} : Finset ℕ) := by decide

theorem bigSep_ico_0_32_split (Φ : ℕ → sProp 𝕄) :
    bigSep (Finset.Ico 0 32) Φ = iprop(Φ 0 ∗ Φ 1 ∗ Φ 2 ∗ Φ 3 ∗ Φ 4 ∗ Φ 5 ∗ Φ 6 ∗ bigSep (Finset.Ico 7 32) Φ) := by
  have h0 : (0 : ℕ) ∉ insert 1 (insert 2 (insert 3 (insert 4 (insert 5 (insert 6 (Finset.Ico 7 32)))))) := by
    simp only [Finset.mem_insert, Finset.mem_Ico]; omega
  have h1 : (1 : ℕ) ∉ insert 2 (insert 3 (insert 4 (insert 5 (insert 6 (Finset.Ico 7 32))))) := by
    simp only [Finset.mem_insert, Finset.mem_Ico]; omega
  have h2 : (2 : ℕ) ∉ insert 3 (insert 4 (insert 5 (insert 6 (Finset.Ico 7 32)))) := by
    simp only [Finset.mem_insert, Finset.mem_Ico]; omega
  have h3 : (3 : ℕ) ∉ insert 4 (insert 5 (insert 6 (Finset.Ico 7 32))) := by
    simp only [Finset.mem_insert, Finset.mem_Ico]; omega
  have h4 : (4 : ℕ) ∉ insert 5 (insert 6 (Finset.Ico 7 32)) := by
    simp only [Finset.mem_insert, Finset.mem_Ico]; omega
  have h5 : (5 : ℕ) ∉ insert 6 (Finset.Ico 7 32) := by
    simp only [Finset.mem_insert, Finset.mem_Ico]; omega
  have h6 : (6 : ℕ) ∉ Finset.Ico 7 32 := by
    simp only [Finset.mem_Ico]; omega
  rw [ico_0_32_split, SparseCore.bigSep_insert' h0, SparseCore.bigSep_insert' h1, SparseCore.bigSep_insert' h2,
    SparseCore.bigSep_insert' h3, SparseCore.bigSep_insert' h4, SparseCore.bigSep_insert' h5, SparseCore.bigSep_insert' h6]

/-- The first seven chunks' windows off the 32. -/
theorem wins_first7 :
    bigSep (Finset.Ico 0 32) (wins m d L)
      = (iprop(wins m d L 0 ∗ wins m d L 1 ∗ wins m d L 2 ∗ wins m d L 3 ∗ wins m d L 4 ∗ wins m d L 5 ∗ wins m d L 6
          ∗ bigSep (Finset.Ico 7 32) (wins m d L)) : sProp 𝕄) :=
  bigSep_ico_0_32_split (wins m d L)

theorem bigSep_ico_0_7 (Φ : ℕ → sProp 𝕄) : bigSep (Finset.Ico 0 7) Φ = iprop(Φ 0 ∗ Φ 1 ∗ Φ 2 ∗ Φ 3 ∗ Φ 4 ∗ Φ 5 ∗ Φ 6) := by
  rw [ico_0_7, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem bigSep_ico_7_8 (Φ : ℕ → sProp 𝕄) : bigSep (Finset.Ico 7 8) Φ = Φ 7 := by
  rw [ico_7_8, bigSep_singleton]

theorem bigSep_ico_0_0 (Φ : ℕ → sProp 𝕄) : bigSep (Finset.Ico 0 0) Φ = iprop(emp) := by
  rw [Finset.Ico_self, bigSep_empty]
  rfl

theorem bigSep_ico_32_32 (Φ : ℕ → sProp 𝕄) : bigSep (Finset.Ico 32 32) Φ = iprop(emp) := by
  rw [Finset.Ico_self, bigSep_empty]
  rfl

/-! ## (B4) A flight at a slot number -/

/-- A gather of table H in flight into slot number b, stated at the slot, is the invariant's flight of any chunk c with
    c mod 8 = b. -/
theorem flightH_one (c b : ℕ) (hc : c < 32) (hb : b < 8) (e : c % 8 = b) :
    (Transfers.Flight (countersEmb (U := UU)) (thrL d L) (SemLoc.dma (⟨0 + b, lt_pool 0 b hb (by omega)⟩ : DmaSem sig)) (default : HIx 1) 65536
        (iprop((slotHolds m d L (m (entLoc d) : S100000x128.Idx → F .f32) 0 c (slotOf (Memref.whole cc0_scratch3 : Memref sig .scVector .vmem S8x16x128 .f32) b hb)
            ∗ winHolds m d L 0 c (winOf (Memref.whole cc0_scratch0 : Memref sig .scVector .vmem S512 .i32) c hc))
          ∗ tokE m d L (0 + b) (by omega))) : sProp 𝕄)
      ⊢ flightH m d L c hc := by
  subst e
  unfold flightH delivH
  rw [semOf_scratch8]
  simp only [Nat.zero_add]
  rfl

/-- A gather of table R in flight into slot number b, stated at the slot, is the invariant's flight of any chunk c with
    c mod 8 = b. -/
theorem flightR_one (c b : ℕ) (hc : c < 32) (hb : b < 8) (e : c % 8 = b) :
    (Transfers.Flight (countersEmb (U := UU)) (thrL d L) (SemLoc.dma (⟨8 + b, lt_pool 8 b hb (by omega)⟩ : DmaSem sig)) (default : HIx 1) 65536
        (iprop((slotHolds m d L (m (relLoc d) : S100000x128.Idx → F .f32) 1 c (slotOf (Memref.whole cc0_scratch4 : Memref sig .scVector .vmem S8x16x128 .f32) b hb)
            ∗ winHolds m d L 1 c (winOf (Memref.whole cc0_scratch1 : Memref sig .scVector .vmem S512 .i32) c hc))
          ∗ tokRl m d L (8 + b) (by omega))) : sProp 𝕄)
      ⊢ flightR m d L c hc := by
  subst e
  unfold flightR delivR
  rw [semOf_scratch9]

/-- A gather of table T in flight into slot number b, stated at the slot, is the invariant's flight of any chunk c with
    c mod 8 = b. -/
theorem flightT_one (c b : ℕ) (hc : c < 32) (hb : b < 8) (e : c % 8 = b) :
    (Transfers.Flight (countersEmb (U := UU)) (thrL d L) (SemLoc.dma (⟨16 + b, lt_pool 16 b hb (by omega)⟩ : DmaSem sig)) (default : HIx 1) 65536
        (iprop((slotHolds m d L (m (entLoc d) : S100000x128.Idx → F .f32) 2 c (slotOf (Memref.whole cc0_scratch5 : Memref sig .scVector .vmem S8x16x128 .f32) b hb)
            ∗ winHolds m d L 2 c (winOf (Memref.whole cc0_scratch2 : Memref sig .scVector .vmem S512 .i32) c hc))
          ∗ tokE m d L (16 + b) (by omega))) : sProp 𝕄)
      ⊢ flightT m d L c hc := by
  subst e
  unfold flightT delivT
  rw [semOf_scratch10]

/-! ## The idle slots with the tokens held through the whole arrays -/

/-- A read token of the entity table held through the gathers' slice is that share of the whole array. -/
theorem tokE_eq (i : ℕ) (hi : i < 26) : tokE m d L i hi = entWU m d L (tokQ L i hi) := entTok_eq d L _ _
/-- A read token of the relation table likewise. -/
theorem tokRl_eq (i : ℕ) (hi : i < 26) : tokRl m d L i hi = relWU m d L (tokQ L i hi) := relTok_eq d L _ _

/-- `idles_intro` with each read token as a share of the whole array. -/
theorem idles_intro_w :
    (iprop(bigSep (Finset.Ico 0 8) (fun b => if hb : b < 8 then slotAny d L (slotOf (Memref.whole cc0_scratch3 : Memref sig .scVector .vmem S8x16x128 .f32) b hb) else iprop(emp))
      ∗ bigSep (Finset.Ico 0 8) (fun b => if hb : b < 8 then slotAny d L (slotOf (Memref.whole cc0_scratch4 : Memref sig .scVector .vmem S8x16x128 .f32) b hb) else iprop(emp))
      ∗ bigSep (Finset.Ico 0 8) (fun b => if hb : b < 8 then slotAny d L (slotOf (Memref.whole cc0_scratch5 : Memref sig .scVector .vmem S8x16x128 .f32) b hb) else iprop(emp))
      ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
      ∗ (entWU m d L (tokQ L 0 (by decide)) ∗ entWU m d L (tokQ L 1 (by decide)) ∗ entWU m d L (tokQ L 2 (by decide)) ∗ entWU m d L (tokQ L 3 (by decide)) ∗ entWU m d L (tokQ L 4 (by decide)) ∗ entWU m d L (tokQ L 5 (by decide)) ∗ entWU m d L (tokQ L 6 (by decide)) ∗ entWU m d L (tokQ L 7 (by decide)) ∗ relWU m d L (tokQ L 8 (by decide)) ∗ relWU m d L (tokQ L 9 (by decide)) ∗ relWU m d L (tokQ L 10 (by decide)) ∗ relWU m d L (tokQ L 11 (by decide)) ∗ relWU m d L (tokQ L 12 (by decide)) ∗ relWU m d L (tokQ L 13 (by decide)) ∗ relWU m d L (tokQ L 14 (by decide)) ∗ relWU m d L (tokQ L 15 (by decide)) ∗ entWU m d L (tokQ L 16 (by decide)) ∗ entWU m d L (tokQ L 17 (by decide)) ∗ entWU m d L (tokQ L 18 (by decide)) ∗ entWU m d L (tokQ L 19 (by decide)) ∗ entWU m d L (tokQ L 20 (by decide)) ∗ entWU m d L (tokQ L 21 (by decide)) ∗ entWU m d L (tokQ L 22 (by decide)) ∗ entWU m d L (tokQ L 23 (by decide)))) : sProp 𝕄)
      ⊢ bigSep (Finset.Ico 0 8) (idles m d L) := by
  iintro ⟨B3, B4, B5, Z, T0, T1, T2, T3, T4, T5, T6, T7, T8, T9, T10, T11, T12, T13, T14, T15, T16, T17, T18, T19, T20, T21, T22, T23⟩
  iapply (idles_intro m d L)
  isplitl [B3]
  · iexact B3
  isplitl [B4]
  · iexact B4
  isplitl [B5]
  · iexact B5
  isplitl [Z]
  · iexact Z
  isplitl [T0]
  · rw [tokE_eq]; iexact T0
  isplitl [T1]
  · rw [tokE_eq]; iexact T1
  isplitl [T2]
  · rw [tokE_eq]; iexact T2
  isplitl [T3]
  · rw [tokE_eq]; iexact T3
  isplitl [T4]
  · rw [tokE_eq]; iexact T4
  isplitl [T5]
  · rw [tokE_eq]; iexact T5
  isplitl [T6]
  · rw [tokE_eq]; iexact T6
  isplitl [T7]
  · rw [tokE_eq]; iexact T7
  isplitl [T8]
  · rw [tokRl_eq]; iexact T8
  isplitl [T9]
  · rw [tokRl_eq]; iexact T9
  isplitl [T10]
  · rw [tokRl_eq]; iexact T10
  isplitl [T11]
  · rw [tokRl_eq]; iexact T11
  isplitl [T12]
  · rw [tokRl_eq]; iexact T12
  isplitl [T13]
  · rw [tokRl_eq]; iexact T13
  isplitl [T14]
  · rw [tokRl_eq]; iexact T14
  isplitl [T15]
  · rw [tokRl_eq]; iexact T15
  isplitl [T16]
  · rw [tokE_eq]; iexact T16
  isplitl [T17]
  · rw [tokE_eq]; iexact T17
  isplitl [T18]
  · rw [tokE_eq]; iexact T18
  isplitl [T19]
  · rw [tokE_eq]; iexact T19
  isplitl [T20]
  · rw [tokE_eq]; iexact T20
  isplitl [T21]
  · rw [tokE_eq]; iexact T21
  isplitl [T22]
  · rw [tokE_eq]; iexact T22
  rw [tokE_eq]; iexact T23

/-- `idles_elim` with each read token as a share of the whole array. -/
theorem idles_elim_w :
    bigSep (Finset.Ico 32 40) (idles m d L)
      ⊢ (iprop((∃ f, (Memref.whole cc0_scratch3 : Memref sig .scVector .vmem S8x16x128 .f32).view.loc (thrL d L) ↦{fullShare} f)
        ∗ (∃ f, (Memref.whole cc0_scratch4 : Memref sig .scVector .vmem S8x16x128 .f32).view.loc (thrL d L) ↦{fullShare} f)
        ∗ (∃ f, (Memref.whole cc0_scratch5 : Memref sig .scVector .vmem S8x16x128 .f32).view.loc (thrL d L) ↦{fullShare} f)
        ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
        ∗ (entWU m d L (tokQ L 0 (by decide)) ∗ entWU m d L (tokQ L 1 (by decide)) ∗ entWU m d L (tokQ L 2 (by decide)) ∗ entWU m d L (tokQ L 3 (by decide)) ∗ entWU m d L (tokQ L 4 (by decide)) ∗ entWU m d L (tokQ L 5 (by decide)) ∗ entWU m d L (tokQ L 6 (by decide)) ∗ entWU m d L (tokQ L 7 (by decide)) ∗ relWU m d L (tokQ L 8 (by decide)) ∗ relWU m d L (tokQ L 9 (by decide)) ∗ relWU m d L (tokQ L 10 (by decide)) ∗ relWU m d L (tokQ L 11 (by decide)) ∗ relWU m d L (tokQ L 12 (by decide)) ∗ relWU m d L (tokQ L 13 (by decide)) ∗ relWU m d L (tokQ L 14 (by decide)) ∗ relWU m d L (tokQ L 15 (by decide)) ∗ entWU m d L (tokQ L 16 (by decide)) ∗ entWU m d L (tokQ L 17 (by decide)) ∗ entWU m d L (tokQ L 18 (by decide)) ∗ entWU m d L (tokQ L 19 (by decide)) ∗ entWU m d L (tokQ L 20 (by decide)) ∗ entWU m d L (tokQ L 21 (by decide)) ∗ entWU m d L (tokQ L 22 (by decide)) ∗ entWU m d L (tokQ L 23 (by decide)))) : sProp 𝕄) := by
  iintro I
  ihave HI := (idles_elim m d L) $$ I
  icases HI with ⟨B3, B4, B5, Z, T0, T1, T2, T3, T4, T5, T6, T7, T8, T9, T10, T11, T12, T13, T14, T15, T16, T17, T18, T19, T20, T21, T22, T23⟩
  isplitl [B3]
  · iexact B3
  isplitl [B4]
  · iexact B4
  isplitl [B5]
  · iexact B5
  isplitl [Z]
  · iexact Z
  isplitl [T0]
  · rw [← tokE_eq]; iexact T0
  isplitl [T1]
  · rw [← tokE_eq]; iexact T1
  isplitl [T2]
  · rw [← tokE_eq]; iexact T2
  isplitl [T3]
  · rw [← tokE_eq]; iexact T3
  isplitl [T4]
  · rw [← tokE_eq]; iexact T4
  isplitl [T5]
  · rw [← tokE_eq]; iexact T5
  isplitl [T6]
  · rw [← tokE_eq]; iexact T6
  isplitl [T7]
  · rw [← tokE_eq]; iexact T7
  isplitl [T8]
  · rw [← tokRl_eq]; iexact T8
  isplitl [T9]
  · rw [← tokRl_eq]; iexact T9
  isplitl [T10]
  · rw [← tokRl_eq]; iexact T10
  isplitl [T11]
  · rw [← tokRl_eq]; iexact T11
  isplitl [T12]
  · rw [← tokRl_eq]; iexact T12
  isplitl [T13]
  · rw [← tokRl_eq]; iexact T13
  isplitl [T14]
  · rw [← tokRl_eq]; iexact T14
  isplitl [T15]
  · rw [← tokRl_eq]; iexact T15
  isplitl [T16]
  · rw [← tokE_eq]; iexact T16
  isplitl [T17]
  · rw [← tokE_eq]; iexact T17
  isplitl [T18]
  · rw [← tokE_eq]; iexact T18
  isplitl [T19]
  · rw [← tokE_eq]; iexact T19
  isplitl [T20]
  · rw [← tokE_eq]; iexact T20
  isplitl [T21]
  · rw [← tokE_eq]; iexact T21
  isplitl [T22]
  · rw [← tokE_eq]; iexact T22
  rw [← tokE_eq]; iexact T23

/-! ## (B1) Before the loop -/

/-- (B1) The landed lists, the row buffers, the gather semaphores at zero and the tile's shares of the two tables are the
    eight idle slots, the chunks' windows, and the unused rest of the two shares. -/
theorem init_idle (f0 : Buf (Elt F) ((thrL d L).loc cc0_scratch0)) (f1 : Buf (Elt F) ((thrL d L).loc cc0_scratch1))
    (f2 : Buf (Elt F) ((thrL d L).loc cc0_scratch2))
    (g3 : Buf (Elt F) ((Memref.whole cc0_scratch3 : Memref sig .scVector .vmem S8x16x128 .f32).view.loc (thrL d L))) (g4 : Buf (Elt F) ((Memref.whole cc0_scratch4 : Memref sig .scVector .vmem S8x16x128 .f32).view.loc (thrL d L)))
    (g5 : Buf (Elt F) ((Memref.whole cc0_scratch5 : Memref sig .scVector .vmem S8x16x128 .f32).view.loc (thrL d L))) :
    (iprop(((Memref.whole cc0_scratch0 : Memref sig .scVector .vmem S512 .i32).view.loc (thrL d L) ↦{fullShare} landsH m d L f0) ∗ ((Memref.whole cc0_scratch1 : Memref sig .scVector .vmem S512 .i32).view.loc (thrL d L) ↦{fullShare} landsR m d L f1) ∗ ((Memref.whole cc0_scratch2 : Memref sig .scVector .vmem S512 .i32).view.loc (thrL d L) ↦{fullShare} landsT m d L f2)
      ∗ ((Memref.whole cc0_scratch3 : Memref sig .scVector .vmem S8x16x128 .f32).view.loc (thrL d L) ↦{fullShare} g3) ∗ ((Memref.whole cc0_scratch4 : Memref sig .scVector .vmem S8x16x128 .f32).view.loc (thrL d L) ↦{fullShare} g4) ∗ ((Memref.whole cc0_scratch5 : Memref sig .scVector .vmem S8x16x128 .f32).view.loc (thrL d L) ↦{fullShare} g5)
      ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
      ∗ entWU m d L (qt L) ∗ relWU m d L (qt L)) : sProp 𝕄)
      ⊢ iprop(bigSep (Finset.Ico 0 8) (idles m d L) ∗ bigSep (Finset.Ico 0 32) (wins m d L) ∗ entRest m d L ∗ relRest m d L) := by
  iintro ⟨H0, H1, H2, G3, G4, G5, Z, E, R⟩
  ihave HE := (toks_each (F := F) (qt L) (m (entLoc d))).1 $$ E
  icases HE with ⟨Ed, E0, E1, E2, E3, E4, E5, E6, E7, E8, E9, E10, E11, E12, E13, E14, E15, E16, E17, E18, E19, E20, E21, E22, E23, E24, E25⟩
  ihave HR := (toks_each (F := F) (qt L) (m (relLoc d))).1 $$ R
  icases HR with ⟨Rd, R0, R1, R2, R3, R4, R5, R6, R7, R8, R9, R10, R11, R12, R13, R14, R15, R16, R17, R18, R19, R20, R21, R22, R23, R24, R25⟩
  isplitl [G3 G4 G5 Z E0 E1 E2 E3 E4 E5 E6 E7 R8 R9 R10 R11 R12 R13 R14 R15 E16 E17 E18 E19 E20 E21 E22 E23]
  · iapply (idles_intro_w m d L)
    isplitl [G3]
    · iapply (slots3_intro d L g3); iexact G3
    isplitl [G4]
    · iapply (slots4_intro d L g4); iexact G4
    isplitl [G5]
    · iapply (slots5_intro d L g5); iexact G5
    isplitl [Z]
    · iexact Z
    isplitl [E0]
    · iexact E0
    isplitl [E1]
    · iexact E1
    isplitl [E2]
    · iexact E2
    isplitl [E3]
    · iexact E3
    isplitl [E4]
    · iexact E4
    isplitl [E5]
    · iexact E5
    isplitl [E6]
    · iexact E6
    isplitl [E7]
    · iexact E7
    isplitl [R8]
    · iexact R8
    isplitl [R9]
    · iexact R9
    isplitl [R10]
    · iexact R10
    isplitl [R11]
    · iexact R11
    isplitl [R12]
    · iexact R12
    isplitl [R13]
    · iexact R13
    isplitl [R14]
    · iexact R14
    isplitl [R15]
    · iexact R15
    isplitl [E16]
    · iexact E16
    isplitl [E17]
    · iexact E17
    isplitl [E18]
    · iexact E18
    isplitl [E19]
    · iexact E19
    isplitl [E20]
    · iexact E20
    isplitl [E21]
    · iexact E21
    isplitl [E22]
    · iexact E22
    iexact E23
  isplitl [H0 H1 H2]
  · iapply (wins_intro m d L f0 f1 f2)
    isplitl [H0]
    · iexact H0
    isplitl [H1]
    · iexact H1
    iexact H2
  isplitl [Ed E8 E9 E10 E11 E12 E13 E14 E15 E24 E25]
  · unfold entRest
    isplitl [Ed]
    · iexact Ed
    isplitl [E8]
    · iexact E8
    isplitl [E9]
    · iexact E9
    isplitl [E10]
    · iexact E10
    isplitl [E11]
    · iexact E11
    isplitl [E12]
    · iexact E12
    isplitl [E13]
    · iexact E13
    isplitl [E14]
    · iexact E14
    isplitl [E15]
    · iexact E15
    isplitl [E24]
    · iexact E24
    iexact E25
  · unfold relRest
    isplitl [Rd]
    · iexact Rd
    isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R16]
    · iexact R16
    isplitl [R17]
    · iexact R17
    isplitl [R18]
    · iexact R18
    isplitl [R19]
    · iexact R19
    isplitl [R20]
    · iexact R20
    isplitl [R21]
    · iexact R21
    isplitl [R22]
    · iexact R22
    isplitl [R23]
    · iexact R23
    isplitl [R24]
    · iexact R24
    iexact R25

/-! ## (B2) After the loop -/

/-- (B2) After the last trip the idle slots, the windows and the unused rest are the lists and the row buffers whole at some
    contents, the gather semaphores at zero and the tile's shares of the two tables. -/
theorem exit_whole :
    (iprop(bigSep (Finset.Ico 32 40) (idles m d L) ∗ bigSep (Finset.Ico 0 32) (wins m d L) ∗ entRest m d L ∗ relRest m d L) : sProp 𝕄)
      ⊢ iprop((∃ f, (Memref.whole cc0_scratch0 : Memref sig .scVector .vmem S512 .i32).view.loc (thrL d L) ↦{fullShare} f) ∗ (∃ f, (Memref.whole cc0_scratch1 : Memref sig .scVector .vmem S512 .i32).view.loc (thrL d L) ↦{fullShare} f) ∗ (∃ f, (Memref.whole cc0_scratch2 : Memref sig .scVector .vmem S512 .i32).view.loc (thrL d L) ↦{fullShare} f)
        ∗ (∃ f, (Memref.whole cc0_scratch3 : Memref sig .scVector .vmem S8x16x128 .f32).view.loc (thrL d L) ↦{fullShare} f) ∗ (∃ f, (Memref.whole cc0_scratch4 : Memref sig .scVector .vmem S8x16x128 .f32).view.loc (thrL d L) ↦{fullShare} f) ∗ (∃ f, (Memref.whole cc0_scratch5 : Memref sig .scVector .vmem S8x16x128 .f32).view.loc (thrL d L) ↦{fullShare} f)
        ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
        ∗ entWU m d L (qt L) ∗ relWU m d L (qt L)) := by
  unfold entRest relRest
  iintro ⟨I, Wn, ⟨Ed, E8, E9, E10, E11, E12, E13, E14, E15, E24, E25⟩, ⟨Rd, R0, R1, R2, R3, R4, R5, R6, R7, R16, R17, R18, R19, R20, R21, R22, R23, R24, R25⟩⟩
  ihave HI := (idles_elim_w m d L) $$ I
  icases HI with ⟨B3, B4, B5, Z, E0, E1, E2, E3, E4, E5, E6, E7, R8, R9, R10, R11, R12, R13, R14, R15, E16, E17, E18, E19, E20, E21, E22, E23⟩
  ihave HW := (wins_elim m d L) $$ Wn
  icases HW with ⟨L0, L1, L2⟩
  isplitl [L0]
  · iexact L0
  isplitl [L1]
  · iexact L1
  isplitl [L2]
  · iexact L2
  isplitl [B3]
  · iexact B3
  isplitl [B4]
  · iexact B4
  isplitl [B5]
  · iexact B5
  isplitl [Z]
  · iexact Z
  isplitl [Ed E0 E1 E2 E3 E4 E5 E6 E7 E8 E9 E10 E11 E12 E13 E14 E15 E16 E17 E18 E19 E20 E21 E22 E23 E24 E25]
  · iapply (toks_each (F := F) (qt L) (m (entLoc d))).2
    isplitl [Ed]
    · iexact Ed
    isplitl [E0]
    · iexact E0
    isplitl [E1]
    · iexact E1
    isplitl [E2]
    · iexact E2
    isplitl [E3]
    · iexact E3
    isplitl [E4]
    · iexact E4
    isplitl [E5]
    · iexact E5
    isplitl [E6]
    · iexact E6
    isplitl [E7]
    · iexact E7
    isplitl [E8]
    · iexact E8
    isplitl [E9]
    · iexact E9
    isplitl [E10]
    · iexact E10
    isplitl [E11]
    · iexact E11
    isplitl [E12]
    · iexact E12
    isplitl [E13]
    · iexact E13
    isplitl [E14]
    · iexact E14
    isplitl [E15]
    · iexact E15
    isplitl [E16]
    · iexact E16
    isplitl [E17]
    · iexact E17
    isplitl [E18]
    · iexact E18
    isplitl [E19]
    · iexact E19
    isplitl [E20]
    · iexact E20
    isplitl [E21]
    · iexact E21
    isplitl [E22]
    · iexact E22
    isplitl [E23]
    · iexact E23
    isplitl [E24]
    · iexact E24
    iexact E25
  · iapply (toks_each (F := F) (qt L) (m (relLoc d))).2
    isplitl [Rd]
    · iexact Rd
    isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    isplitl [R10]
    · iexact R10
    isplitl [R11]
    · iexact R11
    isplitl [R12]
    · iexact R12
    isplitl [R13]
    · iexact R13
    isplitl [R14]
    · iexact R14
    isplitl [R15]
    · iexact R15
    isplitl [R16]
    · iexact R16
    isplitl [R17]
    · iexact R17
    isplitl [R18]
    · iexact R18
    isplitl [R19]
    · iexact R19
    isplitl [R20]
    · iexact R20
    isplitl [R21]
    · iexact R21
    isplitl [R22]
    · iexact R22
    isplitl [R23]
    · iexact R23
    isplitl [R24]
    · iexact R24
    iexact R25

end Tile
end Cert.Proof.KI
end
-- ==== Proof.KI.LoopEnds.OutRows.lean ====
/-
  The epilogue's value: after the last trip the score scratch holds the kernel's 512 sums for the worker's rows, and one copy
  sends it to the worker's rows of the score vector. The copy writes the scratch's words, as they are, through the whole of
  the destination slice; an element of the slice is the slice's word y, which after the write is the scratch's word y, the sum
  for the worker's row y, and the slice's word y is the score vector's element 512 t + y (t the worker's number). So on the
  slice's elements the written contents are the kernel's sums.
-/
import proofs.«209583_g49984829390938_cont_8to1c4_457_35_alg».proof.Proof.KI.LoopInv
import proofs.«209583_g49984829390938_cont_8to1c4_457_35_alg».proof.Proof.KI.SlotRead
import proofs.«209583_g49984829390938_cont_8to1c4_457_35_alg».proof.Proof.KI.TileOwn
import proofs.«209583_g49984829390938_cont_8to1c4_457_35_alg».proof.Proof.KI.ScoreStep
import Idealize.ShloMosaic.Lib.Writes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-- The destination slice's word y is the score vector's element 512 t + y. -/
theorem oSl_emb (j : Fin 512) :
    (oSl L).view.emb (ix1 j) = (ix1 (⟨512 * (tL L).val + j.val, by have := (tL L).isLt; have := j.isLt; omega⟩ : Fin 16384) : S16384.Idx) :=
  tile_word L j.val j.isLt

/-- What the written contents hold at the slice's word y, given what reading them through the slice gives. -/
theorem out_rows_core [FloatOps F] (g7 : Buf (Elt F) ((Memref.whole cc0_scratch7 : Memref sig .scVector .vmem S512 .f32).view.loc (thrL d L))) (hg : ScoreHolds m d L 32 g7)
    (C : (oSl L).view.ty.Contents (Elt F)) (hC : ∀ y : S512.Idx, (oSl L).view.read (Elt F) C y = g7 y) :
    ((oSl L).view.loc (thrL d L) ↦[(oSl L).view.set]{fullShare} C : sProp 𝕄)
      = (outLoc d ↦[tileSet (tL L)]{fullShare} (kout m d : Buf (Elt F) (outLoc d))) := by
  rw [pts_oSl]
  refine pointsTo_congr (fun i hi => ?_)
  have hi' : i ∈ (oSl L).view.set := by rw [set_oSl]; exact hi
  obtain ⟨y, -, rfl⟩ := Finset.mem_map.mp hi'
  obtain ⟨j, rfl⟩ : ∃ j : Fin 512, y = ix1 j := ⟨y 0, eq_ix1 y⟩
  have h1 : C ((oSl L).view.emb (ix1 j)) = g7 (ix1 j) := hC (ix1 j)
  refine h1.trans ((score_all m d L g7 hg j).trans ?_)
  exact (congrArg (kout m d) (oSl_emb L j)).symm

/-- The copy's result spelt as one listed write through the whole slice. -/
theorem out_rows_1 [FloatOps F] (g7 : Buf (Elt F) ((Memref.whole cc0_scratch7 : Memref sig .scVector .vmem S512 .f32).view.loc (thrL d L))) (hg : ScoreHolds m d L 32 g7)
    (fout : Buf (Elt F) (outLoc d)) :
    ((oSl L).view.loc (thrL d L) ↦[(oSl L).view.set]{fullShare}
        (oSl L).view.writes (Elt F) fout [⟨Rect.whole S512, ReadAs.same.apply ((Memref.whole cc0_scratch7 : Memref sig .scVector .vmem S512 .f32).view.read (Elt F) g7)⟩] : sProp 𝕄)
      = (outLoc d ↦[tileSet (tL L)]{fullShare} (kout m d : Buf (Elt F) (outLoc d))) := by
  refine out_rows_core m d L g7 hg _ (fun y => ?_)
  have h := View.read_writes_cons_emb (oSl L).view fout (Rect.whole S512) (ReadAs.same.apply ((Memref.whole cc0_scratch7 : Memref sig .scVector .vmem S512 .f32).view.read (Elt F) g7)) [] y
  rw [Rect.emb_whole_apply] at h
  exact h

/-- The copy's result spelt as one unmasked write through the slice. -/
theorem out_rows_2 [FloatOps F] (g7 : Buf (Elt F) ((Memref.whole cc0_scratch7 : Memref sig .scVector .vmem S512 .f32).view.loc (thrL d L))) (hg : ScoreHolds m d L 32 g7)
    (fout : Buf (Elt F) (outLoc d)) :
    ((oSl L).view.loc (thrL d L) ↦[(oSl L).view.set]{fullShare}
        (oSl L).view.write (Elt F) fout (ReadAs.same.apply ((Memref.whole cc0_scratch7 : Memref sig .scVector .vmem S512 .f32).view.read (Elt F) g7)) Finset.univ : sProp 𝕄)
      = (outLoc d ↦[tileSet (tL L)]{fullShare} (kout m d : Buf (Elt F) (outLoc d))) := by
  refine out_rows_core m d L g7 hg _ (fun y => ?_)
  exact View.read_write_of_mem (v := (oSl L).view) (Val := Elt F) fout _ (Finset.mem_univ y)

end Tile
end Cert.Proof.KI
end
-- ==== Proof.KI.LoopEnds.lean ====
/-
  The counted loop's ends, gathered: from what the subcore holds when the loop starts to the invariant's pieces (the landed
  lists as windows, the row buffers as slots, the slots idle with their semaphores and read tokens), and from the invariant's
  pieces after the last trip back to the lists, the row buffers, the semaphores and the tokens; and the two lemmas that
  bracket the loop with the tables' shares cut into read tokens.
-/
import proofs.«209583_g49984829390938_cont_8to1c4_457_35_alg».proof.Proof.KI.LoopEnds.Wins
import proofs.«209583_g49984829390938_cont_8to1c4_457_35_alg».proof.Proof.KI.LoopEnds.Slots
import proofs.«209583_g49984829390938_cont_8to1c4_457_35_alg».proof.Proof.KI.LoopEnds.Idle
import proofs.«209583_g49984829390938_cont_8to1c4_457_35_alg».proof.Proof.KI.LoopEnds.Exit
import proofs.«209583_g49984829390938_cont_8to1c4_457_35_alg».proof.Proof.KI.LoopEnds.Bracket
import proofs.«209583_g49984829390938_cont_8to1c4_457_35_alg».proof.Proof.KI.LoopEnds.OutRows
-- ==== Proof.KI.Tile.lean ====
/-
  One vector subcore's run of the kernel, as the launch theorem asks for it.

  The subcore is handed its 512 rows of the three index columns and of the score vector and a read share of each table.
  It first copies its rows of the three columns into its own lists — three copies completing on one semaphore, all started
  before the first of three waits, so only the third wait tells it that all three have landed. From then on the three
  lists are 32 windows of sixteen words, the three row buffers eight slots of sixteen rows, each slot with its semaphore
  and its read token of the table. The prologue starts the gathers of chunks 0 … 6 in slots 0 … 6; the 32 trips of the
  counted loop keep the invariant of KI/LoopInv.lean; after the last trip every slot is idle again, the score scratch holds
  the 512 scores, and one copy puts them in the worker's rows of the score vector.
-/
import proofs.«209583_g49984829390938_cont_8to1c4_457_35_alg».proof.Proof.KI.TileOwn
import proofs.«209583_g49984829390938_cont_8to1c4_457_35_alg».proof.Proof.KI.Loop
import proofs.«209583_g49984829390938_cont_8to1c4_457_35_alg».proof.Proof.KI.LoopEnds
import proofs.«209583_g49984829390938_cont_8to1c4_457_35_alg».proof.Proof.Gen.KernelIdeal.Skeleton

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.SparseCore (gatherPayload rows)
variable (m : (ℓ : Loc nD τ sig) → Buf (Elt F) ℓ) [FloatOps F]

section Tile
variable (d : Dev nD) (L : grid0.Coords)

local notation "hW" => (Memref.whole Cert.KernelIdeal.main_v1_scv : Memref Cert.KernelIdeal.sig Kind.scVector Space.hbm Cert.KernelIdeal.S16384 EltTy.i32)
local notation "rW" => (Memref.whole Cert.KernelIdeal.main_v3_scv : Memref Cert.KernelIdeal.sig Kind.scVector Space.hbm Cert.KernelIdeal.S16384 EltTy.i32)
local notation "tW" => (Memref.whole Cert.KernelIdeal.main_v5_scv : Memref Cert.KernelIdeal.sig Kind.scVector Space.hbm Cert.KernelIdeal.S16384 EltTy.i32)
local notation "entW" => (Memref.whole Cert.KernelIdeal.main_arg1_scv : Memref Cert.KernelIdeal.sig Kind.scVector Space.hbm Cert.KernelIdeal.S100000x128 EltTy.f32)
local notation "relW" => (Memref.whole Cert.KernelIdeal.main_arg2_scv : Memref Cert.KernelIdeal.sig Kind.scVector Space.hbm Cert.KernelIdeal.S100000x128 EltTy.f32)
local notation "outW" => (Memref.whole Cert.KernelIdeal.main_v6_scv : Memref Cert.KernelIdeal.sig Kind.scVector Space.hbm Cert.KernelIdeal.S16384 EltTy.f32)

/-- A gather of the prologue, started for chunk `j` < 8 in slot `j`, is the invariant's flight of that chunk. -/
theorem flightH_lit (hpre : RangeOK m) (j : ℕ) (hj : j < 32) (hj8 : j < 8) (Mw : Memref sig .scVector .vmem S16 .i32) (eMw : winOf (Memref.whole cc0_scratch0 : Memref sig .scVector .vmem S512 .i32) j hj = Mw)
    (G : Buf (Elt F) ((slotOf (Memref.whole cc0_scratch3 : Memref sig .scVector .vmem S8x16x128 .f32) j hj8).view.loc (thrL d L))) (fw : Buf (Elt F) (Mw.view.loc (thrL d L))) (hn) (hin)
    (hfw : ∀ z : S16.Idx, Mw.view.read (Elt F) fw z = col m d 0 (ix1 (rowN L j (z 0).val))) :
    (Transfers.Flight (countersEmb (U := UU)) (thrL d L) (SemLoc.dma (⟨0 + j, lt_pool 0 j hj8 (by decide)⟩ : DmaSem sig)) (default : HIx 1) 65536
        iprop((((slotOf (Memref.whole cc0_scratch3 : Memref sig .scVector .vmem S8x16x128 .f32) j hj8).view.loc (thrL d L) ↦[(slotOf (Memref.whole cc0_scratch3 : Memref sig .scVector .vmem S8x16x128 .f32) j hj8).view.set]{fullShare}
              (slotOf (Memref.whole cc0_scratch3 : Memref sig .scVector .vmem S8x16x128 .f32) j hj8).view.writes (Elt F) G [⟨Rect.whole S16x128, gatherPayload gathers_S100000x128_S16x128 (((Memref.whole main_arg1_scv : Memref sig .scVector .hbm S100000x128 .f32).slice (Rect.unit (s := S100000x128) ![0, 0] S100000x128.size inb_S100000x128_S100000x128_0_0) (fun _ => rfl)).view.read (Elt F) (m (entLoc d))) (rows (Mw.view.read (Elt F) fw) hn hin)⟩])
            ∗ (Mw.view.loc (thrL d L) ↦[Mw.view.set]{fullShare} fw))
          ∗ tokE m d L (0 + j) (by omega)) : sProp 𝕄)
      ⊢ flightH m d L j hj := by
  subst eMw
  exact (Transfers.Flight_mono (countersEmb (U := UU)) (thrL d L) (landed_ent m d L hpre 0 j _ _ _ G fw gathers_S100000x128_S16x128 hn hin _ hfw)).trans
    (flightH_one m d L j j hj hj8 (Nat.mod_eq_of_lt hj8))

/-- A gather of the prologue, started for chunk `j` < 8 in slot `j`, is the invariant's flight of that chunk. -/
theorem flightR_lit (hpre : RangeOK m) (j : ℕ) (hj : j < 32) (hj8 : j < 8) (Mw : Memref sig .scVector .vmem S16 .i32) (eMw : winOf (Memref.whole cc0_scratch1 : Memref sig .scVector .vmem S512 .i32) j hj = Mw)
    (G : Buf (Elt F) ((slotOf (Memref.whole cc0_scratch4 : Memref sig .scVector .vmem S8x16x128 .f32) j hj8).view.loc (thrL d L))) (fw : Buf (Elt F) (Mw.view.loc (thrL d L))) (hn) (hin)
    (hfw : ∀ z : S16.Idx, Mw.view.read (Elt F) fw z = col m d 1 (ix1 (rowN L j (z 0).val))) :
    (Transfers.Flight (countersEmb (U := UU)) (thrL d L) (SemLoc.dma (⟨8 + j, lt_pool 8 j hj8 (by decide)⟩ : DmaSem sig)) (default : HIx 1) 65536
        iprop((((slotOf (Memref.whole cc0_scratch4 : Memref sig .scVector .vmem S8x16x128 .f32) j hj8).view.loc (thrL d L) ↦[(slotOf (Memref.whole cc0_scratch4 : Memref sig .scVector .vmem S8x16x128 .f32) j hj8).view.set]{fullShare}
              (slotOf (Memref.whole cc0_scratch4 : Memref sig .scVector .vmem S8x16x128 .f32) j hj8).view.writes (Elt F) G [⟨Rect.whole S16x128, gatherPayload gathers_S100000x128_S16x128 (((Memref.whole main_arg2_scv : Memref sig .scVector .hbm S100000x128 .f32).slice (Rect.unit (s := S100000x128) ![0, 0] S100000x128.size inb_S100000x128_S100000x128_0_0) (fun _ => rfl)).view.read (Elt F) (m (relLoc d))) (rows (Mw.view.read (Elt F) fw) hn hin)⟩])
            ∗ (Mw.view.loc (thrL d L) ↦[Mw.view.set]{fullShare} fw))
          ∗ tokRl m d L (8 + j) (by omega)) : sProp 𝕄)
      ⊢ flightR m d L j hj := by
  subst eMw
  exact (Transfers.Flight_mono (countersEmb (U := UU)) (thrL d L) (landed_rel m d L hpre 1 j _ _ _ G fw gathers_S100000x128_S16x128 hn hin _ hfw)).trans
    (flightR_one m d L j j hj hj8 (Nat.mod_eq_of_lt hj8))

/-- A gather of the prologue, started for chunk `j` < 8 in slot `j`, is the invariant's flight of that chunk. -/
theorem flightT_lit (hpre : RangeOK m) (j : ℕ) (hj : j < 32) (hj8 : j < 8) (Mw : Memref sig .scVector .vmem S16 .i32) (eMw : winOf (Memref.whole cc0_scratch2 : Memref sig .scVector .vmem S512 .i32) j hj = Mw)
    (G : Buf (Elt F) ((slotOf (Memref.whole cc0_scratch5 : Memref sig .scVector .vmem S8x16x128 .f32) j hj8).view.loc (thrL d L))) (fw : Buf (Elt F) (Mw.view.loc (thrL d L))) (hn) (hin)
    (hfw : ∀ z : S16.Idx, Mw.view.read (Elt F) fw z = col m d 2 (ix1 (rowN L j (z 0).val))) :
    (Transfers.Flight (countersEmb (U := UU)) (thrL d L) (SemLoc.dma (⟨16 + j, lt_pool 16 j hj8 (by decide)⟩ : DmaSem sig)) (default : HIx 1) 65536
        iprop((((slotOf (Memref.whole cc0_scratch5 : Memref sig .scVector .vmem S8x16x128 .f32) j hj8).view.loc (thrL d L) ↦[(slotOf (Memref.whole cc0_scratch5 : Memref sig .scVector .vmem S8x16x128 .f32) j hj8).view.set]{fullShare}
              (slotOf (Memref.whole cc0_scratch5 : Memref sig .scVector .vmem S8x16x128 .f32) j hj8).view.writes (Elt F) G [⟨Rect.whole S16x128, gatherPayload gathers_S100000x128_S16x128 (((Memref.whole main_arg1_scv : Memref sig .scVector .hbm S100000x128 .f32).slice (Rect.unit (s := S100000x128) ![0, 0] S100000x128.size inb_S100000x128_S100000x128_0_0) (fun _ => rfl)).view.read (Elt F) (m (entLoc d))) (rows (Mw.view.read (Elt F) fw) hn hin)⟩])
            ∗ (Mw.view.loc (thrL d L) ↦[Mw.view.set]{fullShare} fw))
          ∗ tokE m d L (16 + j) (by omega)) : sProp 𝕄)
      ⊢ flightT m d L j hj := by
  subst eMw
  exact (Transfers.Flight_mono (countersEmb (U := UU)) (thrL d L) (landed_ent m d L hpre 2 j _ _ _ G fw gathers_S100000x128_S16x128 hn hin _ hfw)).trans
    (flightT_one m d L j j hj hj8 (Nat.mod_eq_of_lt hj8))

variable (O : CellTallies nD τ sig (HIx 1)) (W : Waits sig (HIx 1)) in
/-- The invariant before the first trip: chunks 0 … 6 in flight, slot 7 idle, windows 7 … 31 unused, nothing finished. -/
theorem inv_zero_intro (acc : PUnit) :
    iprop(Transfers.MayWaits (thrL d L) (none : HIx 1) O
        ∗ (∃ W', ⌜∀ p ∈ W', p ∈ W ∨ p.2 = none⌝ ∗ owes (thrL d L) O W')
        ∗ (flights m d L 0 ∗ flights m d L 1 ∗ flights m d L 2 ∗ flights m d L 3 ∗ flights m d L 4 ∗ flights m d L 5 ∗ flights m d L 6)
        ∗ idles m d L 7
        ∗ bigSep (Finset.Ico 7 32) (wins m d L)
        ∗ (∃ g, (Memref.whole cc0_scratch6 : Memref sig .scVector .vmem S256 .f32).view.loc (thrL d L) ↦{fullShare} g)
        ∗ (∃ g, ⌜ScoreHolds m d L 0 (g : S512.Idx → F .f32)⌝ ∗ (Memref.whole cc0_scratch7 : Memref sig .scVector .vmem S512 .f32).view.loc (thrL d L) ↦{fullShare} g))
      ⊢ loopInv m d L O W 0 acc := by
  unfold loopInv
  rw [show min (0 + 7) 32 = 7 from rfl, show 0 + 8 = 8 from rfl, bigSep_ico_0_7, bigSep_ico_7_8, bigSep_ico_0_0]
  iintro ⟨H1, H2, H3, H4, H5, H6, H7⟩
  isplitl [H1]; · iexact H1
  isplitl [H2]; · iexact H2
  isplitl [H3]; · iexact H3
  isplitl [H4]; · iexact H4
  isplitl [H5]; · iexact H5
  isplitr; · iempintro
  isplitl [H6]; · iexact H6
  iexact H7

variable (O : CellTallies nD τ sig (HIx 1)) (W : Waits sig (HIx 1)) in
/-- The invariant after the last trip: nothing in flight, every slot idle, every window finished, the 512 scores in the score scratch. -/
theorem inv_32_elim (acc : PUnit) :
    loopInv m d L O W 32 acc
      ⊢ iprop((∃ W', ⌜∀ p ∈ W', p ∈ W ∨ p.2 = none⌝ ∗ owes (thrL d L) O W')
        ∗ bigSep (Finset.Ico 32 40) (idles m d L)
        ∗ bigSep (Finset.Ico 0 32) (wins m d L)
        ∗ (∃ g, (Memref.whole cc0_scratch6 : Memref sig .scVector .vmem S256 .f32).view.loc (thrL d L) ↦{fullShare} g)
        ∗ (∃ g, ⌜ScoreHolds m d L 32 (g : S512.Idx → F .f32)⌝ ∗ (Memref.whole cc0_scratch7 : Memref sig .scVector .vmem S512 .f32).view.loc (thrL d L) ↦{fullShare} g)) := by
  unfold loopInv
  rw [show min (32 + 7) 32 = 32 from rfl, show 32 + 8 = 40 from rfl, bigSep_ico_32_32 (flights m d L), bigSep_ico_32_32 (wins m d L)]
  iintro ⟨-, H2, -, H4, -, H6, H7, H8⟩
  isplitl [H2]; · iexact H2
  isplitl [H4]; · iexact H4
  isplitl [H6]; · iexact H6
  isplitl [H7]; · iexact H7
  iexact H8

set_option maxHeartbeats 8000000 in
/-- The subcore at grid coordinates `L` runs the kernel from its rows and shares to the scores in its rows. -/
theorem tile_body (hF : (K (F := F)).Facts) (hpre : RangeOK m) (O : CellTallies nD τ sig (HIx 1)) (W : Waits sig (HIx 1)) (hO : ∀ g, O g none = 0) :
    iprop(levAts (K (F := F)).L (K (F := F)).lev ∗ emp ∗ tileRes m d (tL L) (m (outLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_kge_score L hW (Memref.isWhole_whole _) rW (Memref.isWhole_whole _) tW (Memref.isWhole_whole _) entW (Memref.isWhole_whole _) relW (Memref.isWhole_whole _) outW (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) cc0_scratch8 cc0_scratch9 cc0_scratch10 cc0_scratch11 cc0_scoped0)
          fun _ => iprop(tileRes m d (tL L) (kout m d : Buf (Elt F) (outLoc d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_kge_score_eq_skeleton]; unfold cc0_kge_score_skel
  rw [(K (F := F)).scopedBufs_V hF d (cV L) (jV L), SparseCore.Cfg.scopedSems0_V (Val := Elt F) d (cV L) (jV L), ownSems0_each, ownBufs_V]
  unfold tileRes scrPts
  iintro ⟨#Hlv, -, ⟨Hh, Hr, Ht, Hent, Hrel, Hout⟩, ⟨⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩⟩, Hbufs⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, HO⟩
  ihave Hmw := ((K (F := F)).mayWaits_none (thr := V d (cV L) (jV L)) hO) $$ Hlv
  -- the rows and the three lists as the body addresses them
  ihave Hh' := (Entails.of_eq (pts_hSl (F := F) d L _).symm) $$ Hh
  ihave Hr' := (Entails.of_eq (pts_rSl (F := F) d L _).symm) $$ Hr
  ihave Ht' := (Entails.of_eq (pts_tSl (F := F) d L _).symm) $$ Ht
  ihave Hout' := (Entails.of_eq (pts_oSl (F := F) d L _).symm) $$ Hout
  ihave Hs0' := (Entails.of_eq (show (((Memref.whole cc0_scratch0 : Memref sig .scVector .vmem S512 .i32)).view.loc (V d (cV L) (jV L)) ↦{fullShare} f0 : sProp 𝕄) = ((V d (cV L) (jV L)).loc cc0_scratch0 ↦{fullShare} f0) from rfl).symm) $$ Hs0
  ihave Hs1' := (Entails.of_eq (show (((Memref.whole cc0_scratch1 : Memref sig .scVector .vmem S512 .i32)).view.loc (V d (cV L) (jV L)) ↦{fullShare} f1 : sProp 𝕄) = ((V d (cV L) (jV L)).loc cc0_scratch1 ↦{fullShare} f1) from rfl).symm) $$ Hs1
  ihave Hs2' := (Entails.of_eq (show (((Memref.whole cc0_scratch2 : Memref sig .scVector .vmem S512 .i32)).view.loc (V d (cV L) (jV L)) ↦{fullShare} f2 : sProp 𝕄) = ((V d (cV L) (jV L)).loc cc0_scratch2 ↦{fullShare} f2) from rfl).symm) $$ Hs2
  -- the three index copies: one batch on the list semaphore, the deliveries stated now
  imod (Transfers.batch_alloc' (Lvl := ℕ) (countersEmb (U := UU)) (V d (cV L) (jV L)) (none : HIx 1) ((Memref.whole cc0_scratch0 : Memref sig .scVector .vmem S512 .i32).view.amount (SemLoc.dma (sig := sig) dsem24))
    (idxDeliv m d L f0 f1 f2) (sm := .dma (dsem24 : DmaSem sig)) (E := Set.univ)) $$ Hq24 with HB
  sl_exec
  -- lists into windows, row buffers into slots, each slot with its semaphores and read tokens
  ihave Hs3' := (Entails.of_eq (show (((Memref.whole cc0_scratch3 : Memref sig .scVector .vmem S8x16x128 .f32)).view.loc (V d (cV L) (jV L)) ↦{fullShare} f3 : sProp 𝕄) = ((V d (cV L) (jV L)).loc cc0_scratch3 ↦{fullShare} f3) from rfl).symm) $$ Hs3
  ihave Hs4' := (Entails.of_eq (show (((Memref.whole cc0_scratch4 : Memref sig .scVector .vmem S8x16x128 .f32)).view.loc (V d (cV L) (jV L)) ↦{fullShare} f4 : sProp 𝕄) = ((V d (cV L) (jV L)).loc cc0_scratch4 ↦{fullShare} f4) from rfl).symm) $$ Hs4
  ihave Hs5' := (Entails.of_eq (show (((Memref.whole cc0_scratch5 : Memref sig .scVector .vmem S8x16x128 .f32)).view.loc (V d (cV L) (jV L)) ↦{fullShare} f5 : sProp 𝕄) = ((V d (cV L) (jV L)).loc cc0_scratch5 ↦{fullShare} f5) from rfl).symm) $$ Hs5
  ihave Hs6' := (Entails.of_eq (show (((Memref.whole cc0_scratch6 : Memref sig .scVector .vmem S256 .f32)).view.loc (V d (cV L) (jV L)) ↦{fullShare} f6 : sProp 𝕄) = ((V d (cV L) (jV L)).loc cc0_scratch6 ↦{fullShare} f6) from rfl).symm) $$ Hs6
  ihave Hs7' := (Entails.of_eq (show (((Memref.whole cc0_scratch7 : Memref sig .scVector .vmem S512 .f32)).view.loc (V d (cV L) (jV L)) ↦{fullShare} f7 : sProp 𝕄) = ((V d (cV L) (jV L)).loc cc0_scratch7 ↦{fullShare} f7) from rfl).symm) $$ Hs7
  ihave Hent' := (Entails.of_eq (show (entWU m d L (qt L) : sProp 𝕄) = (entLoc d ↦{Transfers.shareTok fullShare 32 (tL L)} m (entLoc d)) from rfl).symm) $$ Hent
  ihave Hrel' := (Entails.of_eq (show (relWU m d L (qt L) : sProp 𝕄) = (relLoc d ↦{Transfers.shareTok fullShare 32 (tL L)} m (relLoc d)) from rfl).symm) $$ Hrel
  ihave Hall := (init_idle m d L f0 f1 f2 f3 f4 f5) $$ [HB_dst0 HB_dst1 HB_dst2 Hs3' Hs4' Hs5' Hq0 Hq1 Hq2 Hq3 Hq4 Hq5 Hq6 Hq7 Hq8 Hq9 Hq10 Hq11 Hq12 Hq13 Hq14 Hq15 Hq16 Hq17 Hq18 Hq19 Hq20 Hq21 Hq22 Hq23 Hent' Hrel']
  · isplitl [HB_dst0]; · iexact HB_dst0
    isplitl [HB_dst1]; · iexact HB_dst1
    isplitl [HB_dst2]; · iexact HB_dst2
    isplitl [Hs3']; · iexact Hs3'
    isplitl [Hs4']; · iexact Hs4'
    isplitl [Hs5']; · iexact Hs5'
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      iexact Hq23
    isplitl [Hent']; · iexact Hent'
    iexact Hrel'
  icases Hall with ⟨Hidl, Hwins, HentR, HrelR⟩
  ihave Hidl' := (Entails.of_eq (bigSep_ico_0_8 (idles m d L))) $$ Hidl
  icases Hidl' with ⟨Hi0, Hi1, Hi2, Hi3, Hi4, Hi5, Hi6, Hi7⟩
  ihave Hwins' := (Entails.of_eq (wins_first7 m d L)) $$ Hwins
  icases Hwins' with ⟨Hw0, Hw1, Hw2, Hw3, Hw4, Hw5, Hw6, HwRest⟩
  -- chunk 0: its idle slot and its list windows, as the prologue addresses them
  ihave Hi0' := (idle_one_elim m d L 0 0 (by decide) rfl) $$ Hi0
  icases Hi0' with ⟨HbH0, HbR0, HbT0, HzH0, HzR0, HzT0, HtH0, HtR0, HtT0⟩
  ihave Hw0' := (Entails.of_eq (wins_eq m d L 0 (by decide))) $$ Hw0
  icases Hw0' with ⟨HwH0, HwR0, HwT0⟩
  ihave HwH0' := (Entails.of_eq (congrArg (winHolds m d L 0 0) (show winOf (Memref.whole cc0_scratch0 : Memref sig .scVector .vmem S512 .i32) 0 (of_decide_eq_true rfl) = ((Memref.whole cc0_scratch0 : Memref sig .scVector .vmem S512 .i32).slice (Rect.unit (s := S512) ![0] S16.size inb_S512_S16_0) (fun _ => rfl)) from rfl))) $$ HwH0
  ihave HwR0' := (Entails.of_eq (congrArg (winHolds m d L 1 0) (show winOf (Memref.whole cc0_scratch1 : Memref sig .scVector .vmem S512 .i32) 0 (of_decide_eq_true rfl) = ((Memref.whole cc0_scratch1 : Memref sig .scVector .vmem S512 .i32).slice (Rect.unit (s := S512) ![0] S16.size inb_S512_S16_0) (fun _ => rfl)) from rfl))) $$ HwR0
  ihave HwT0' := (Entails.of_eq (congrArg (winHolds m d L 2 0) (show winOf (Memref.whole cc0_scratch2 : Memref sig .scVector .vmem S512 .i32) 0 (of_decide_eq_true rfl) = ((Memref.whole cc0_scratch2 : Memref sig .scVector .vmem S512 .i32).slice (Rect.unit (s := S512) ![0] S16.size inb_S512_S16_0) (fun _ => rfl)) from rfl))) $$ HwT0
  -- chunk 1: its idle slot and its list windows, as the prologue addresses them
  ihave Hi1' := (idle_one_elim m d L 1 1 (by decide) rfl) $$ Hi1
  icases Hi1' with ⟨HbH1, HbR1, HbT1, HzH1, HzR1, HzT1, HtH1, HtR1, HtT1⟩
  ihave Hw1' := (Entails.of_eq (wins_eq m d L 1 (by decide))) $$ Hw1
  icases Hw1' with ⟨HwH1, HwR1, HwT1⟩
  ihave HwH1' := (Entails.of_eq (congrArg (winHolds m d L 0 1) (show winOf (Memref.whole cc0_scratch0 : Memref sig .scVector .vmem S512 .i32) 1 (of_decide_eq_true rfl) = ((Memref.whole cc0_scratch0 : Memref sig .scVector .vmem S512 .i32).slice (Rect.unit (s := S512) ![16] S16.size inb_S512_S16_16) (fun _ => rfl)) from rfl))) $$ HwH1
  ihave HwR1' := (Entails.of_eq (congrArg (winHolds m d L 1 1) (show winOf (Memref.whole cc0_scratch1 : Memref sig .scVector .vmem S512 .i32) 1 (of_decide_eq_true rfl) = ((Memref.whole cc0_scratch1 : Memref sig .scVector .vmem S512 .i32).slice (Rect.unit (s := S512) ![16] S16.size inb_S512_S16_16) (fun _ => rfl)) from rfl))) $$ HwR1
  ihave HwT1' := (Entails.of_eq (congrArg (winHolds m d L 2 1) (show winOf (Memref.whole cc0_scratch2 : Memref sig .scVector .vmem S512 .i32) 1 (of_decide_eq_true rfl) = ((Memref.whole cc0_scratch2 : Memref sig .scVector .vmem S512 .i32).slice (Rect.unit (s := S512) ![16] S16.size inb_S512_S16_16) (fun _ => rfl)) from rfl))) $$ HwT1
  -- chunk 2: its idle slot and its list windows, as the prologue addresses them
  ihave Hi2' := (idle_one_elim m d L 2 2 (by decide) rfl) $$ Hi2
  icases Hi2' with ⟨HbH2, HbR2, HbT2, HzH2, HzR2, HzT2, HtH2, HtR2, HtT2⟩
  ihave Hw2' := (Entails.of_eq (wins_eq m d L 2 (by decide))) $$ Hw2
  icases Hw2' with ⟨HwH2, HwR2, HwT2⟩
  ihave HwH2' := (Entails.of_eq (congrArg (winHolds m d L 0 2) (show winOf (Memref.whole cc0_scratch0 : Memref sig .scVector .vmem S512 .i32) 2 (of_decide_eq_true rfl) = ((Memref.whole cc0_scratch0 : Memref sig .scVector .vmem S512 .i32).slice (Rect.unit (s := S512) ![32] S16.size inb_S512_S16_32) (fun _ => rfl)) from rfl))) $$ HwH2
  ihave HwR2' := (Entails.of_eq (congrArg (winHolds m d L 1 2) (show winOf (Memref.whole cc0_scratch1 : Memref sig .scVector .vmem S512 .i32) 2 (of_decide_eq_true rfl) = ((Memref.whole cc0_scratch1 : Memref sig .scVector .vmem S512 .i32).slice (Rect.unit (s := S512) ![32] S16.size inb_S512_S16_32) (fun _ => rfl)) from rfl))) $$ HwR2
  ihave HwT2' := (Entails.of_eq (congrArg (winHolds m d L 2 2) (show winOf (Memref.whole cc0_scratch2 : Memref sig .scVector .vmem S512 .i32) 2 (of_decide_eq_true rfl) = ((Memref.whole cc0_scratch2 : Memref sig .scVector .vmem S512 .i32).slice (Rect.unit (s := S512) ![32] S16.size inb_S512_S16_32) (fun _ => rfl)) from rfl))) $$ HwT2
  -- chunk 3: its idle slot and its list windows, as the prologue addresses them
  ihave Hi3' := (idle_one_elim m d L 3 3 (by decide) rfl) $$ Hi3
  icases Hi3' with ⟨HbH3, HbR3, HbT3, HzH3, HzR3, HzT3, HtH3, HtR3, HtT3⟩
  ihave Hw3' := (Entails.of_eq (wins_eq m d L 3 (by decide))) $$ Hw3
  icases Hw3' with ⟨HwH3, HwR3, HwT3⟩
  ihave HwH3' := (Entails.of_eq (congrArg (winHolds m d L 0 3) (show winOf (Memref.whole cc0_scratch0 : Memref sig .scVector .vmem S512 .i32) 3 (of_decide_eq_true rfl) = ((Memref.whole cc0_scratch0 : Memref sig .scVector .vmem S512 .i32).slice (Rect.unit (s := S512) ![48] S16.size inb_S512_S16_48) (fun _ => rfl)) from rfl))) $$ HwH3
  ihave HwR3' := (Entails.of_eq (congrArg (winHolds m d L 1 3) (show winOf (Memref.whole cc0_scratch1 : Memref sig .scVector .vmem S512 .i32) 3 (of_decide_eq_true rfl) = ((Memref.whole cc0_scratch1 : Memref sig .scVector .vmem S512 .i32).slice (Rect.unit (s := S512) ![48] S16.size inb_S512_S16_48) (fun _ => rfl)) from rfl))) $$ HwR3
  ihave HwT3' := (Entails.of_eq (congrArg (winHolds m d L 2 3) (show winOf (Memref.whole cc0_scratch2 : Memref sig .scVector .vmem S512 .i32) 3 (of_decide_eq_true rfl) = ((Memref.whole cc0_scratch2 : Memref sig .scVector .vmem S512 .i32).slice (Rect.unit (s := S512) ![48] S16.size inb_S512_S16_48) (fun _ => rfl)) from rfl))) $$ HwT3
  -- chunk 4: its idle slot and its list windows, as the prologue addresses them
  ihave Hi4' := (idle_one_elim m d L 4 4 (by decide) rfl) $$ Hi4
  icases Hi4' with ⟨HbH4, HbR4, HbT4, HzH4, HzR4, HzT4, HtH4, HtR4, HtT4⟩
  ihave Hw4' := (Entails.of_eq (wins_eq m d L 4 (by decide))) $$ Hw4
  icases Hw4' with ⟨HwH4, HwR4, HwT4⟩
  ihave HwH4' := (Entails.of_eq (congrArg (winHolds m d L 0 4) (show winOf (Memref.whole cc0_scratch0 : Memref sig .scVector .vmem S512 .i32) 4 (of_decide_eq_true rfl) = ((Memref.whole cc0_scratch0 : Memref sig .scVector .vmem S512 .i32).slice (Rect.unit (s := S512) ![64] S16.size inb_S512_S16_64) (fun _ => rfl)) from rfl))) $$ HwH4
  ihave HwR4' := (Entails.of_eq (congrArg (winHolds m d L 1 4) (show winOf (Memref.whole cc0_scratch1 : Memref sig .scVector .vmem S512 .i32) 4 (of_decide_eq_true rfl) = ((Memref.whole cc0_scratch1 : Memref sig .scVector .vmem S512 .i32).slice (Rect.unit (s := S512) ![64] S16.size inb_S512_S16_64) (fun _ => rfl)) from rfl))) $$ HwR4
  ihave HwT4' := (Entails.of_eq (congrArg (winHolds m d L 2 4) (show winOf (Memref.whole cc0_scratch2 : Memref sig .scVector .vmem S512 .i32) 4 (of_decide_eq_true rfl) = ((Memref.whole cc0_scratch2 : Memref sig .scVector .vmem S512 .i32).slice (Rect.unit (s := S512) ![64] S16.size inb_S512_S16_64) (fun _ => rfl)) from rfl))) $$ HwT4
  -- chunk 5: its idle slot and its list windows, as the prologue addresses them
  ihave Hi5' := (idle_one_elim m d L 5 5 (by decide) rfl) $$ Hi5
  icases Hi5' with ⟨HbH5, HbR5, HbT5, HzH5, HzR5, HzT5, HtH5, HtR5, HtT5⟩
  ihave Hw5' := (Entails.of_eq (wins_eq m d L 5 (by decide))) $$ Hw5
  icases Hw5' with ⟨HwH5, HwR5, HwT5⟩
  ihave HwH5' := (Entails.of_eq (congrArg (winHolds m d L 0 5) (show winOf (Memref.whole cc0_scratch0 : Memref sig .scVector .vmem S512 .i32) 5 (of_decide_eq_true rfl) = ((Memref.whole cc0_scratch0 : Memref sig .scVector .vmem S512 .i32).slice (Rect.unit (s := S512) ![80] S16.size inb_S512_S16_80) (fun _ => rfl)) from rfl))) $$ HwH5
  ihave HwR5' := (Entails.of_eq (congrArg (winHolds m d L 1 5) (show winOf (Memref.whole cc0_scratch1 : Memref sig .scVector .vmem S512 .i32) 5 (of_decide_eq_true rfl) = ((Memref.whole cc0_scratch1 : Memref sig .scVector .vmem S512 .i32).slice (Rect.unit (s := S512) ![80] S16.size inb_S512_S16_80) (fun _ => rfl)) from rfl))) $$ HwR5
  ihave HwT5' := (Entails.of_eq (congrArg (winHolds m d L 2 5) (show winOf (Memref.whole cc0_scratch2 : Memref sig .scVector .vmem S512 .i32) 5 (of_decide_eq_true rfl) = ((Memref.whole cc0_scratch2 : Memref sig .scVector .vmem S512 .i32).slice (Rect.unit (s := S512) ![80] S16.size inb_S512_S16_80) (fun _ => rfl)) from rfl))) $$ HwT5
  -- chunk 6: its idle slot and its list windows, as the prologue addresses them
  ihave Hi6' := (idle_one_elim m d L 6 6 (by decide) rfl) $$ Hi6
  icases Hi6' with ⟨HbH6, HbR6, HbT6, HzH6, HzR6, HzT6, HtH6, HtR6, HtT6⟩
  ihave Hw6' := (Entails.of_eq (wins_eq m d L 6 (by decide))) $$ Hw6
  icases Hw6' with ⟨HwH6, HwR6, HwT6⟩
  ihave HwH6' := (Entails.of_eq (congrArg (winHolds m d L 0 6) (show winOf (Memref.whole cc0_scratch0 : Memref sig .scVector .vmem S512 .i32) 6 (of_decide_eq_true rfl) = ((Memref.whole cc0_scratch0 : Memref sig .scVector .vmem S512 .i32).slice (Rect.unit (s := S512) ![96] S16.size inb_S512_S16_96) (fun _ => rfl)) from rfl))) $$ HwH6
  ihave HwR6' := (Entails.of_eq (congrArg (winHolds m d L 1 6) (show winOf (Memref.whole cc0_scratch1 : Memref sig .scVector .vmem S512 .i32) 6 (of_decide_eq_true rfl) = ((Memref.whole cc0_scratch1 : Memref sig .scVector .vmem S512 .i32).slice (Rect.unit (s := S512) ![96] S16.size inb_S512_S16_96) (fun _ => rfl)) from rfl))) $$ HwR6
  ihave HwT6' := (Entails.of_eq (congrArg (winHolds m d L 2 6) (show winOf (Memref.whole cc0_scratch2 : Memref sig .scVector .vmem S512 .i32) 6 (of_decide_eq_true rfl) = ((Memref.whole cc0_scratch2 : Memref sig .scVector .vmem S512 .i32).slice (Rect.unit (s := S512) ![96] S16.size inb_S512_S16_96) (fun _ => rfl)) from rfl))) $$ HwT6
  unfold slotAny winHolds
  icases HbH0 with ⟨%GH0, HbH0⟩
  icases HwH0' with ⟨%fwH0, %hfwH0, HwH0⟩
  have hinH0 : ∀ x, ((((Memref.whole cc0_scratch0 : Memref sig .scVector .vmem S512 .i32).slice (Rect.unit (s := S512) ![0] S16.size inb_S512_S16_0) (fun _ => rfl))).view.read (Elt F) fwH0 x).toNat < S100000x128.size gathers_S100000x128_S16x128.axis :=
    fun x => by rw [hfwH0 x]; exact hpre d 0 _
  icases HbR0 with ⟨%GR0, HbR0⟩
  icases HwR0' with ⟨%fwR0, %hfwR0, HwR0⟩
  have hinR0 : ∀ x, ((((Memref.whole cc0_scratch1 : Memref sig .scVector .vmem S512 .i32).slice (Rect.unit (s := S512) ![0] S16.size inb_S512_S16_0) (fun _ => rfl))).view.read (Elt F) fwR0 x).toNat < S100000x128.size gathers_S100000x128_S16x128.axis :=
    fun x => by rw [hfwR0 x]; exact hpre d 1 _
  icases HbT0 with ⟨%GT0, HbT0⟩
  icases HwT0' with ⟨%fwT0, %hfwT0, HwT0⟩
  have hinT0 : ∀ x, ((((Memref.whole cc0_scratch2 : Memref sig .scVector .vmem S512 .i32).slice (Rect.unit (s := S512) ![0] S16.size inb_S512_S16_0) (fun _ => rfl))).view.read (Elt F) fwT0 x).toNat < S100000x128.size gathers_S100000x128_S16x128.axis :=
    fun x => by rw [hfwT0 x]; exact hpre d 2 _
  icases HbH1 with ⟨%GH1, HbH1⟩
  icases HwH1' with ⟨%fwH1, %hfwH1, HwH1⟩
  have hinH1 : ∀ x, ((((Memref.whole cc0_scratch0 : Memref sig .scVector .vmem S512 .i32).slice (Rect.unit (s := S512) ![16] S16.size inb_S512_S16_16) (fun _ => rfl))).view.read (Elt F) fwH1 x).toNat < S100000x128.size gathers_S100000x128_S16x128.axis :=
    fun x => by rw [hfwH1 x]; exact hpre d 0 _
  icases HbR1 with ⟨%GR1, HbR1⟩
  icases HwR1' with ⟨%fwR1, %hfwR1, HwR1⟩
  have hinR1 : ∀ x, ((((Memref.whole cc0_scratch1 : Memref sig .scVector .vmem S512 .i32).slice (Rect.unit (s := S512) ![16] S16.size inb_S512_S16_16) (fun _ => rfl))).view.read (Elt F) fwR1 x).toNat < S100000x128.size gathers_S100000x128_S16x128.axis :=
    fun x => by rw [hfwR1 x]; exact hpre d 1 _
  icases HbT1 with ⟨%GT1, HbT1⟩
  icases HwT1' with ⟨%fwT1, %hfwT1, HwT1⟩
  have hinT1 : ∀ x, ((((Memref.whole cc0_scratch2 : Memref sig .scVector .vmem S512 .i32).slice (Rect.unit (s := S512) ![16] S16.size inb_S512_S16_16) (fun _ => rfl))).view.read (Elt F) fwT1 x).toNat < S100000x128.size gathers_S100000x128_S16x128.axis :=
    fun x => by rw [hfwT1 x]; exact hpre d 2 _
  icases HbH2 with ⟨%GH2, HbH2⟩
  icases HwH2' with ⟨%fwH2, %hfwH2, HwH2⟩
  have hinH2 : ∀ x, ((((Memref.whole cc0_scratch0 : Memref sig .scVector .vmem S512 .i32).slice (Rect.unit (s := S512) ![32] S16.size inb_S512_S16_32) (fun _ => rfl))).view.read (Elt F) fwH2 x).toNat < S100000x128.size gathers_S100000x128_S16x128.axis :=
    fun x => by rw [hfwH2 x]; exact hpre d 0 _
  icases HbR2 with ⟨%GR2, HbR2⟩
  icases HwR2' with ⟨%fwR2, %hfwR2, HwR2⟩
  have hinR2 : ∀ x, ((((Memref.whole cc0_scratch1 : Memref sig .scVector .vmem S512 .i32).slice (Rect.unit (s := S512) ![32] S16.size inb_S512_S16_32) (fun _ => rfl))).view.read (Elt F) fwR2 x).toNat < S100000x128.size gathers_S100000x128_S16x128.axis :=
    fun x => by rw [hfwR2 x]; exact hpre d 1 _
  icases HbT2 with ⟨%GT2, HbT2⟩
  icases HwT2' with ⟨%fwT2, %hfwT2, HwT2⟩
  have hinT2 : ∀ x, ((((Memref.whole cc0_scratch2 : Memref sig .scVector .vmem S512 .i32).slice (Rect.unit (s := S512) ![32] S16.size inb_S512_S16_32) (fun _ => rfl))).view.read (Elt F) fwT2 x).toNat < S100000x128.size gathers_S100000x128_S16x128.axis :=
    fun x => by rw [hfwT2 x]; exact hpre d 2 _
  icases HbH3 with ⟨%GH3, HbH3⟩
  icases HwH3' with ⟨%fwH3, %hfwH3, HwH3⟩
  have hinH3 : ∀ x, ((((Memref.whole cc0_scratch0 : Memref sig .scVector .vmem S512 .i32).slice (Rect.unit (s := S512) ![48] S16.size inb_S512_S16_48) (fun _ => rfl))).view.read (Elt F) fwH3 x).toNat < S100000x128.size gathers_S100000x128_S16x128.axis :=
    fun x => by rw [hfwH3 x]; exact hpre d 0 _
  icases HbR3 with ⟨%GR3, HbR3⟩
  icases HwR3' with ⟨%fwR3, %hfwR3, HwR3⟩
  have hinR3 : ∀ x, ((((Memref.whole cc0_scratch1 : Memref sig .scVector .vmem S512 .i32).slice (Rect.unit (s := S512) ![48] S16.size inb_S512_S16_48) (fun _ => rfl))).view.read (Elt F) fwR3 x).toNat < S100000x128.size gathers_S100000x128_S16x128.axis :=
    fun x => by rw [hfwR3 x]; exact hpre d 1 _
  icases HbT3 with ⟨%GT3, HbT3⟩
  icases HwT3' with ⟨%fwT3, %hfwT3, HwT3⟩
  have hinT3 : ∀ x, ((((Memref.whole cc0_scratch2 : Memref sig .scVector .vmem S512 .i32).slice (Rect.unit (s := S512) ![48] S16.size inb_S512_S16_48) (fun _ => rfl))).view.read (Elt F) fwT3 x).toNat < S100000x128.size gathers_S100000x128_S16x128.axis :=
    fun x => by rw [hfwT3 x]; exact hpre d 2 _
  icases HbH4 with ⟨%GH4, HbH4⟩
  icases HwH4' with ⟨%fwH4, %hfwH4, HwH4⟩
  have hinH4 : ∀ x, ((((Memref.whole cc0_scratch0 : Memref sig .scVector .vmem S512 .i32).slice (Rect.unit (s := S512) ![64] S16.size inb_S512_S16_64) (fun _ => rfl))).view.read (Elt F) fwH4 x).toNat < S100000x128.size gathers_S100000x128_S16x128.axis :=
    fun x => by rw [hfwH4 x]; exact hpre d 0 _
  icases HbR4 with ⟨%GR4, HbR4⟩
  icases HwR4' with ⟨%fwR4, %hfwR4, HwR4⟩
  have hinR4 : ∀ x, ((((Memref.whole cc0_scratch1 : Memref sig .scVector .vmem S512 .i32).slice (Rect.unit (s := S512) ![64] S16.size inb_S512_S16_64) (fun _ => rfl))).view.read (Elt F) fwR4 x).toNat < S100000x128.size gathers_S100000x128_S16x128.axis :=
    fun x => by rw [hfwR4 x]; exact hpre d 1 _
  icases HbT4 with ⟨%GT4, HbT4⟩
  icases HwT4' with ⟨%fwT4, %hfwT4, HwT4⟩
  have hinT4 : ∀ x, ((((Memref.whole cc0_scratch2 : Memref sig .scVector .vmem S512 .i32).slice (Rect.unit (s := S512) ![64] S16.size inb_S512_S16_64) (fun _ => rfl))).view.read (Elt F) fwT4 x).toNat < S100000x128.size gathers_S100000x128_S16x128.axis :=
    fun x => by rw [hfwT4 x]; exact hpre d 2 _
  icases HbH5 with ⟨%GH5, HbH5⟩
  icases HwH5' with ⟨%fwH5, %hfwH5, HwH5⟩
  have hinH5 : ∀ x, ((((Memref.whole cc0_scratch0 : Memref sig .scVector .vmem S512 .i32).slice (Rect.unit (s := S512) ![80] S16.size inb_S512_S16_80) (fun _ => rfl))).view.read (Elt F) fwH5 x).toNat < S100000x128.size gathers_S100000x128_S16x128.axis :=
    fun x => by rw [hfwH5 x]; exact hpre d 0 _
  icases HbR5 with ⟨%GR5, HbR5⟩
  icases HwR5' with ⟨%fwR5, %hfwR5, HwR5⟩
  have hinR5 : ∀ x, ((((Memref.whole cc0_scratch1 : Memref sig .scVector .vmem S512 .i32).slice (Rect.unit (s := S512) ![80] S16.size inb_S512_S16_80) (fun _ => rfl))).view.read (Elt F) fwR5 x).toNat < S100000x128.size gathers_S100000x128_S16x128.axis :=
    fun x => by rw [hfwR5 x]; exact hpre d 1 _
  icases HbT5 with ⟨%GT5, HbT5⟩
  icases HwT5' with ⟨%fwT5, %hfwT5, HwT5⟩
  have hinT5 : ∀ x, ((((Memref.whole cc0_scratch2 : Memref sig .scVector .vmem S512 .i32).slice (Rect.unit (s := S512) ![80] S16.size inb_S512_S16_80) (fun _ => rfl))).view.read (Elt F) fwT5 x).toNat < S100000x128.size gathers_S100000x128_S16x128.axis :=
    fun x => by rw [hfwT5 x]; exact hpre d 2 _
  icases HbH6 with ⟨%GH6, HbH6⟩
  icases HwH6' with ⟨%fwH6, %hfwH6, HwH6⟩
  have hinH6 : ∀ x, ((((Memref.whole cc0_scratch0 : Memref sig .scVector .vmem S512 .i32).slice (Rect.unit (s := S512) ![96] S16.size inb_S512_S16_96) (fun _ => rfl))).view.read (Elt F) fwH6 x).toNat < S100000x128.size gathers_S100000x128_S16x128.axis :=
    fun x => by rw [hfwH6 x]; exact hpre d 0 _
  icases HbR6 with ⟨%GR6, HbR6⟩
  icases HwR6' with ⟨%fwR6, %hfwR6, HwR6⟩
  have hinR6 : ∀ x, ((((Memref.whole cc0_scratch1 : Memref sig .scVector .vmem S512 .i32).slice (Rect.unit (s := S512) ![96] S16.size inb_S512_S16_96) (fun _ => rfl))).view.read (Elt F) fwR6 x).toNat < S100000x128.size gathers_S100000x128_S16x128.axis :=
    fun x => by rw [hfwR6 x]; exact hpre d 1 _
  icases HbT6 with ⟨%GT6, HbT6⟩
  icases HwT6' with ⟨%fwT6, %hfwT6, HwT6⟩
  have hinT6 : ∀ x, ((((Memref.whole cc0_scratch2 : Memref sig .scVector .vmem S512 .i32).slice (Rect.unit (s := S512) ![96] S16.size inb_S512_S16_96) (fun _ => rfl))).view.read (Elt F) fwT6 x).toNat < S100000x128.size gathers_S100000x128_S16x128.axis :=
    fun x => by rw [hfwT6 x]; exact hpre d 2 _
  -- the gathers of chunks 0 … 6
  sl_exec
  -- the counted loop, by its invariant
  sl_for (loopInv m d L O W) $$ [Hmw HO HzH0 HzR0 HzT0 HzH1 HzR1 HzT1 HzH2 HzR2 HzT2 HzH3 HzR3 HzT3 HzH4 HzR4 HzT4 HzH5 HzR5 HzT5 HzH6 HzR6 HzT6 Hi7 HwRest Hs6' Hs7']
  case region =>
    intro k acc
    exact trip m d L O W hpre k acc
  · iapply (inv_zero_intro m d L O W _)
    isplitr; · iexact Hmw
    isplitl [HO]
    · iexists _; isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        exact .inl hp
    isplitl [HzH0 HzR0 HzT0 HzH1 HzR1 HzT1 HzH2 HzR2 HzT2 HzH3 HzR3 HzT3 HzH4 HzR4 HzT4 HzH5 HzR5 HzT5 HzH6 HzR6 HzT6]
    · -- the 21 gathers of the prologue, chunk by chunk
      isplitl [HzH0 HzR0 HzT0]
      · rw [flights_eq m d L 0 (of_decide_eq_true rfl)]
        isplitl [HzH0]; · iapply (flightH_lit m d L hpre 0 (of_decide_eq_true rfl) (of_decide_eq_true rfl) _ rfl GH0 fwH0 _ hinH0 hfwH0); iexact HzH0
        isplitl [HzR0]; · iapply (flightR_lit m d L hpre 0 (of_decide_eq_true rfl) (of_decide_eq_true rfl) _ rfl GR0 fwR0 _ hinR0 hfwR0); iexact HzR0
        iapply (flightT_lit m d L hpre 0 (of_decide_eq_true rfl) (of_decide_eq_true rfl) _ rfl GT0 fwT0 _ hinT0 hfwT0); iexact HzT0
      isplitl [HzH1 HzR1 HzT1]
      · rw [flights_eq m d L 1 (of_decide_eq_true rfl)]
        isplitl [HzH1]; · iapply (flightH_lit m d L hpre 1 (of_decide_eq_true rfl) (of_decide_eq_true rfl) _ rfl GH1 fwH1 _ hinH1 hfwH1); iexact HzH1
        isplitl [HzR1]; · iapply (flightR_lit m d L hpre 1 (of_decide_eq_true rfl) (of_decide_eq_true rfl) _ rfl GR1 fwR1 _ hinR1 hfwR1); iexact HzR1
        iapply (flightT_lit m d L hpre 1 (of_decide_eq_true rfl) (of_decide_eq_true rfl) _ rfl GT1 fwT1 _ hinT1 hfwT1); iexact HzT1
      isplitl [HzH2 HzR2 HzT2]
      · rw [flights_eq m d L 2 (of_decide_eq_true rfl)]
        isplitl [HzH2]; · iapply (flightH_lit m d L hpre 2 (of_decide_eq_true rfl) (of_decide_eq_true rfl) _ rfl GH2 fwH2 _ hinH2 hfwH2); iexact HzH2
        isplitl [HzR2]; · iapply (flightR_lit m d L hpre 2 (of_decide_eq_true rfl) (of_decide_eq_true rfl) _ rfl GR2 fwR2 _ hinR2 hfwR2); iexact HzR2
        iapply (flightT_lit m d L hpre 2 (of_decide_eq_true rfl) (of_decide_eq_true rfl) _ rfl GT2 fwT2 _ hinT2 hfwT2); iexact HzT2
      isplitl [HzH3 HzR3 HzT3]
      · rw [flights_eq m d L 3 (of_decide_eq_true rfl)]
        isplitl [HzH3]; · iapply (flightH_lit m d L hpre 3 (of_decide_eq_true rfl) (of_decide_eq_true rfl) _ rfl GH3 fwH3 _ hinH3 hfwH3); iexact HzH3
        isplitl [HzR3]; · iapply (flightR_lit m d L hpre 3 (of_decide_eq_true rfl) (of_decide_eq_true rfl) _ rfl GR3 fwR3 _ hinR3 hfwR3); iexact HzR3
        iapply (flightT_lit m d L hpre 3 (of_decide_eq_true rfl) (of_decide_eq_true rfl) _ rfl GT3 fwT3 _ hinT3 hfwT3); iexact HzT3
      isplitl [HzH4 HzR4 HzT4]
      · rw [flights_eq m d L 4 (of_decide_eq_true rfl)]
        isplitl [HzH4]; · iapply (flightH_lit m d L hpre 4 (of_decide_eq_true rfl) (of_decide_eq_true rfl) _ rfl GH4 fwH4 _ hinH4 hfwH4); iexact HzH4
        isplitl [HzR4]; · iapply (flightR_lit m d L hpre 4 (of_decide_eq_true rfl) (of_decide_eq_true rfl) _ rfl GR4 fwR4 _ hinR4 hfwR4); iexact HzR4
        iapply (flightT_lit m d L hpre 4 (of_decide_eq_true rfl) (of_decide_eq_true rfl) _ rfl GT4 fwT4 _ hinT4 hfwT4); iexact HzT4
      isplitl [HzH5 HzR5 HzT5]
      · rw [flights_eq m d L 5 (of_decide_eq_true rfl)]
        isplitl [HzH5]; · iapply (flightH_lit m d L hpre 5 (of_decide_eq_true rfl) (of_decide_eq_true rfl) _ rfl GH5 fwH5 _ hinH5 hfwH5); iexact HzH5
        isplitl [HzR5]; · iapply (flightR_lit m d L hpre 5 (of_decide_eq_true rfl) (of_decide_eq_true rfl) _ rfl GR5 fwR5 _ hinR5 hfwR5); iexact HzR5
        iapply (flightT_lit m d L hpre 5 (of_decide_eq_true rfl) (of_decide_eq_true rfl) _ rfl GT5 fwT5 _ hinT5 hfwT5); iexact HzT5
      rw [flights_eq m d L 6 (of_decide_eq_true rfl)]
      isplitl [HzH6]; · iapply (flightH_lit m d L hpre 6 (of_decide_eq_true rfl) (of_decide_eq_true rfl) _ rfl GH6 fwH6 _ hinH6 hfwH6); iexact HzH6
      isplitl [HzR6]; · iapply (flightR_lit m d L hpre 6 (of_decide_eq_true rfl) (of_decide_eq_true rfl) _ rfl GR6 fwR6 _ hinR6 hfwR6); iexact HzR6
      iapply (flightT_lit m d L hpre 6 (of_decide_eq_true rfl) (of_decide_eq_true rfl) _ rfl GT6 fwT6 _ hinT6 hfwT6); iexact HzT6
    isplitl [Hi7]; · iexact Hi7
    isplitl [HwRest]; · iexact HwRest
    isplitl [Hs6']; · iexists _; iexact Hs6'
    iexists _; isplitr
    rotate_left
    · iexact Hs7'
    · ipureintro; exact score_zero m d L _
  -- after the last trip: every slot idle, the 512 scores in the score scratch
  iintro %acc HI
  have e32 : Scf.trips k0_t1_loop.lb k0_t1_loop.ub k0_t1_loop.st = 32 := trips_eq
  ihave HI' := (Entails.of_eq (congrArg (fun n => loopInv m d L O W n acc) e32)) $$ HI
  ihave HI'' := (inv_32_elim m d L O W acc) $$ HI'
  icases HI'' with ⟨⟨%W2, %hW2, HO⟩, Hid, Hdone, ⟨%g6, Hs6⟩, ⟨%g7, %hg7, Hs7⟩⟩
  ihave Hex := (exit_whole m d L) $$ [Hid Hdone HentR HrelR]
  · isplitl [Hid]; · iexact Hid
    isplitl [Hdone]; · iexact Hdone
    isplitl [HentR]; · iexact HentR
    iexact HrelR
  icases Hex with ⟨⟨%e0, Hl0⟩, ⟨%e1, Hl1⟩, ⟨%e2, Hl2⟩, ⟨%e3, Hb3⟩, ⟨%e4, Hb4⟩, ⟨%e5, Hb5⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hent', Hrel'⟩
  -- the copy of the 512 scores to the worker's rows of the score vector
  sl_exec
  sl_step
  -- the worker's rows and shares back, the scores in its rows of the score vector
  isplitl [HB_src0 HB_src1 HB_src2 Hent' Hrel' Hout']
  · isplitl [HB_src0]
    · ihave H := (Entails.of_eq (pts_hSl (F := F) d L _)) $$ HB_src0
      iexact H
    isplitl [HB_src1]
    · ihave H := (Entails.of_eq (pts_rSl (F := F) d L _)) $$ HB_src1
      iexact H
    isplitl [HB_src2]
    · ihave H := (Entails.of_eq (pts_tSl (F := F) d L _)) $$ HB_src2
      iexact H
    isplitl [Hent']; · iexact Hent'
    isplitl [Hrel']; · iexact Hrel'
    iapply (Entails.of_eq (out_rows_1 m d L g7 hg7 (m (outLoc d))))
    iexact Hout'
  -- the subcore's own buffers and semaphores back
  isplitl [Hl0 Hl1 Hl2 Hb3 Hb4 Hb5 Hs6 Hs7 Hbufs]
  · isplitl [Hl0 Hl1 Hl2 Hb3 Hb4 Hb5 Hs6 Hs7]
    · isplitl [Hl0]; · iexists _; iexact Hl0
      isplitl [Hl1]; · iexists _; iexact Hl1
      isplitl [Hl2]; · iexists _; iexact Hl2
      isplitl [Hb3]; · iexists _; iexact Hb3
      isplitl [Hb4]; · iexists _; iexact Hb4
      isplitl [Hb5]; · iexists _; iexact Hb5
      isplitl [Hs6]; · iexists _; iexact Hs6
      iexists _; iexact Hs7
    · iexact Hbufs
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 HB Hq25]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [HB]; · iexact HB
    iexact Hq25
  iexists _; isplitr
  rotate_left
  · iexact HO
  · ipureintro; intro p hp
    rcases Finset.mem_insert.mp hp with rfl | hp
    · exact .inr rfl
    exact hW2 p hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_kge_score (coordsV c s) (Memref.whole main_v1_scv) (Memref.isWhole_whole _) (Memref.whole main_v3_scv) (Memref.isWhole_whole _) (Memref.whole main_v5_scv) (Memref.isWhole_whole _)
          (Memref.whole main_arg1_scv) (Memref.isWhole_whole _) (Memref.whole main_arg2_scv) (Memref.isWhole_whole _) (Memref.whole main_v6_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) cc0_scratch8 cc0_scratch9 cc0_scratch10 cc0_scratch11 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore of the call's grid meets the launch theorem's obligation, under the range hypothesis. -/
theorem tileObl (hF : (K (F := F)).Facts) (hpre : RangeOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KI
end
-- ==== Proof.KI.Range.lean ====
/-
  Under the precondition every word of the three index columns names a table row.

  The precondition holds of the three argument arrays on every device; its conjunct on `sample` says every word w has
  0 ≤ w ≤ 99999 read signed, so its unsigned value is below 100000. Column k at row n is `sample` at (n, k).
-/
import proofs.«209583_g49984829390938_cont_8to1c4_457_35_alg».proof.Proof.KI.TileLists
import proofs.«209583_g49984829390938_cont_8to1c4_457_35_alg».proof.Proof.PreRange

noncomputable section

namespace Cert.Proof.KI

open Cert.KernelIdeal Cert.KernelIdeal.Gen

open Idealize.ShloMosaic Idealize.ShloMosaic.ValueIdx

variable {F : FTy → Type} [FloatOps F] (m : (ℓ : Loc nD τ sig) → Buf (Elt F) ℓ)

/-- From the precondition read on every device: every word of the three columns is below 100000. -/
theorem rangeOK_of_fn
    (h : ∀ c : Dev nD, Cert.Pre_input_domain.fn (F := F) (m (sampleLoc c)) (m (entLoc c)) (m (relLoc c)) = fun _ => 1#1) :
    RangeOK m :=
  fun d k n => Cert.Proof.PreRange.sample_lt (m (sampleLoc d)) (m (entLoc d)) (m (relLoc d)) (h d) (ix2 (n 0) k)

end Cert.Proof.KI

end
-- ==== Proof.KB.TileRes.lean ====
/-
  A vector subcore's view of its resources: the worker number of a grid point, the 512-row slices of the index columns
  and of the score vector spelt as the body slices them (offset 1024·s + 512·c, which is 512·(2s + c)), and what the
  subcore owns for the kernel: its eight scratch arrays and its 26 DMA semaphores.
-/
import proofs.«209583_g49984829390938_cont_8to1c4_457_35_alg».proof.Proof.KB.Pay

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number of the subcore at grid coordinates `L`. -/
abbrev tL (L : grid0.Coords) : Fin 32 := tid (Fin.cast bound_zero (L 0)) (Fin.cast bound_one (L 1))

/-- The body's slice offset at every grid point: 1024·s + 512·c = 512·(2s + c). -/
theorem off1_tile : ∀ L : grid0.Coords, k0_off1 L = ![512 * (tL L).val] := by decide +kernel

/-- The body's slice rectangle is worker `tL L`'s rows. -/
theorem rect_eq : Rect.unit (s := S16384) (k0_off1 L) S512.size (k0_off1_inb L) = tileRect (tL L) := by
  unfold tileRect Rect.part Rect.block
  congr 1 <;> funext a
  · rw [off1_tile]
    obtain rfl : a = 0 := Subsingleton.elim _ _
    simp [Shape.partIx, Shape.partSize]
    try omega
  · obtain rfl : a = 0 := Subsingleton.elim _ _
    simp [Shape.partSize]

abbrev hSl (L : grid0.Coords) : Memref sig .scVector .hbm S512 .i32 :=
  (Memref.whole main_v1_scv : Memref sig .scVector .hbm S16384 .i32).slice (Rect.unit (s := S16384) (k0_off1 L) S512.size (k0_off1_inb L)) (fun _ => rfl)
abbrev rSl (L : grid0.Coords) : Memref sig .scVector .hbm S512 .i32 :=
  (Memref.whole main_v3_scv : Memref sig .scVector .hbm S16384 .i32).slice (Rect.unit (s := S16384) (k0_off1 L) S512.size (k0_off1_inb L)) (fun _ => rfl)
abbrev tSl (L : grid0.Coords) : Memref sig .scVector .hbm S512 .i32 :=
  (Memref.whole main_v5_scv : Memref sig .scVector .hbm S16384 .i32).slice (Rect.unit (s := S16384) (k0_off1 L) S512.size (k0_off1_inb L)) (fun _ => rfl)
abbrev oSl (L : grid0.Coords) : Memref sig .scVector .hbm S512 .f32 :=
  (Memref.whole main_v6_scv : Memref sig .scVector .hbm S16384 .f32).slice (Rect.unit (s := S16384) (k0_off1 L) S512.size (k0_off1_inb L)) (fun _ => rfl)

theorem set_hSl : (hSl L).view.set = tileSet (tL L) := by
  show ((Memref.whole main_v1_scv : Memref sig .scVector .hbm S16384 .i32).view.slice (Rect.unit (s := S16384) (k0_off1 L) S512.size (k0_off1_inb L))).set
    = ((Memref.whole main_v6_scv : Memref sig .scVector .hbm S16384 .f32).view.slice (tileRect (tL L))).set
  exact rect_eq L ▸ rfl
theorem set_rSl : (rSl L).view.set = tileSet (tL L) := by
  show ((Memref.whole main_v3_scv : Memref sig .scVector .hbm S16384 .i32).view.slice (Rect.unit (s := S16384) (k0_off1 L) S512.size (k0_off1_inb L))).set
    = ((Memref.whole main_v6_scv : Memref sig .scVector .hbm S16384 .f32).view.slice (tileRect (tL L))).set
  exact rect_eq L ▸ rfl
theorem set_tSl : (tSl L).view.set = tileSet (tL L) := by
  show ((Memref.whole main_v5_scv : Memref sig .scVector .hbm S16384 .i32).view.slice (Rect.unit (s := S16384) (k0_off1 L) S512.size (k0_off1_inb L))).set
    = ((Memref.whole main_v6_scv : Memref sig .scVector .hbm S16384 .f32).view.slice (tileRect (tL L))).set
  exact rect_eq L ▸ rfl
theorem set_oSl : (oSl L).view.set = tileSet (tL L) := by
  show ((Memref.whole main_v6_scv : Memref sig .scVector .hbm S16384 .f32).view.slice (Rect.unit (s := S16384) (k0_off1 L) S512.size (k0_off1_inb L))).set
    = ((Memref.whole main_v6_scv : Memref sig .scVector .hbm S16384 .f32).view.slice (tileRect (tL L))).set
  exact rect_eq L ▸ rfl

theorem pts_hSl (f : Buf (Elt F) (hLoc d)) :
    ((hSl L).view.loc (V d (cV L) (jV L)) ↦[(hSl L).view.set]{fullShare} f : sProp 𝕄) = hLoc d ↦[tileSet (tL L)]{fullShare} f := by rw [set_hSl]
theorem pts_rSl (f : Buf (Elt F) (rLoc d)) :
    ((rSl L).view.loc (V d (cV L) (jV L)) ↦[(rSl L).view.set]{fullShare} f : sProp 𝕄) = rLoc d ↦[tileSet (tL L)]{fullShare} f := by rw [set_rSl]
theorem pts_tSl (f : Buf (Elt F) (tLoc d)) :
    ((tSl L).view.loc (V d (cV L) (jV L)) ↦[(tSl L).view.set]{fullShare} f : sProp 𝕄) = tLoc d ↦[tileSet (tL L)]{fullShare} f := by rw [set_tSl]
theorem pts_oSl (f : Buf (Elt F) (outLoc d)) :
    ((oSl L).view.loc (V d (cV L) (jV L)) ↦[(oSl L).view.set]{fullShare} f : sProp 𝕄) = outLoc d ↦[tileSet (tL L)]{fullShare} f := by rw [set_oSl]

/-- A semaphore location a vector subcore scopes is one of the DMA semaphores. -/
theorem scoped_iff (sm : SemLoc sig) : sm.isScoped .scVector = true ↔ ∃ s : DmaSem sig, sm = .dma s := by
  rcases sm with s | s
  · constructor
    · intro h; revert h; revert s; decide
    · rintro ⟨s', h⟩; cases h
  · constructor
    · intro _; exact ⟨s, rfl⟩
    · intro _; revert s; decide

/-- The subcore's own cells are its 26 DMA semaphores. -/
theorem ownCells_V (c : Fin τ.nSC) (i : Fin τ.nSub) :
    ownCells (V d c i) = (Finset.univ : Finset (DmaSem sig)).image fun s => ((V d c i, SemLoc.dma s) : GSem nD τ sig) := by
  ext g
  rw [mem_ownCells, Finset.mem_image]
  constructor
  · rintro ⟨h1, h2⟩
    obtain ⟨thr, sm⟩ := g
    cases h1
    obtain ⟨s, rfl⟩ := (scoped_iff sm).mp h2
    exact ⟨s, Finset.mem_univ _, rfl⟩
  · rintro ⟨s, -, rfl⟩
    exact ⟨rfl, (scoped_iff _).mpr ⟨s, rfl⟩⟩

theorem ownSems0_V (c : Fin τ.nSC) (i : Fin τ.nSub) :
    (ownSems0 (V d c i) : sProp 𝕄) = bigSep (Finset.univ : Finset (DmaSem sig)) fun s => semVal ((V d c i, SemLoc.dma s) : GSem nD τ sig) 0 := by
  unfold SparseCore.Cfg.ownSems0
  rw [ownCells_V, SparseCore.bigSep_image_of_injOn (fun a _ b _ e => by cases e; rfl)]

end Tile
end Cert.Proof.KB
end
-- ==== Proof.KB.TileOwn.lean ====
/-
  What a vector subcore owns, item by item: its eight scratch arrays (the three index lists, the three 8×16×128 row
  buffers, the 256-word transpose scratch, the 512-word score scratch) and its 26 DMA semaphores, each at zero; and a read
  share of an array cut into 26 read tokens, one per semaphore, so that gathers completing on different semaphores may
  read the same table at the same time.
-/
import proofs.«209583_g49984829390938_cont_8to1c4_457_35_alg».proof.Proof.KB.TileRes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile
variable (d : Dev nD)

/-- The subcore's eight scratch arrays, as refs. -/
def scrRefs : Finset (Ref sig .scVector) := {cc0_scratch0, cc0_scratch1, cc0_scratch2, cc0_scratch3, cc0_scratch4, cc0_scratch5, cc0_scratch6, cc0_scratch7}
def scrDev (c : Fin τ.nSC) (i : Fin τ.nSub) : Finset (DevRef τ sig) :=
  scrRefs.map ⟨fun r => (Proc.scVector c i).devRef r, Proc.devRef_injective _⟩

theorem scrDev_sub (c : Fin τ.nSC) (i : Fin τ.nSub) : scrDev c i ⊆ ownRefs (τ := τ) (.scVector c i) := by
  intro b hb
  obtain ⟨r, hr, rfl⟩ := Finset.mem_map.mp hb
  simp only [scrRefs, Finset.mem_insert, Finset.mem_singleton] at hr
  rcases hr with rfl | rfl | rfl | rfl | rfl | rfl | rfl | rfl <;> exact SparseCore.Cfg.mem_ownRefs_of_owner rfl

abbrev scrPts (c : Fin τ.nSC) (i : Fin τ.nSub) (r : Ref sig .scVector) : sProp 𝕄 := iprop(∃ f, (V d c i).loc r ↦{fullShare} f)

/-- The subcore's own buffers: the eight scratch arrays, each at some contents, and the rest. -/
theorem ownBufs_V (c : Fin τ.nSC) (i : Fin τ.nSub) :
    (ownBufs (V d c i) : sProp 𝕄)
      = iprop((scrPts d c i cc0_scratch0 ∗ scrPts d c i cc0_scratch1 ∗ scrPts d c i cc0_scratch2 ∗ scrPts d c i cc0_scratch3 ∗ scrPts d c i cc0_scratch4
          ∗ scrPts d c i cc0_scratch5 ∗ scrPts d c i cc0_scratch6 ∗ scrPts d c i cc0_scratch7)
        ∗ bigSep (ownRefs (τ := τ) (.scVector c i) \ scrDev c i) fun b => iprop(∃ f, ((d, b) : Loc nD τ sig) ↦{fullShare} f)) := by
  unfold SparseCore.Cfg.ownBufs
  rw [SparseCore.bigSep_sdiff_split' (scrDev_sub c i)]
  congr 1
  unfold scrDev scrRefs
  rw [BI.bigSep_map]
  rw [SparseCore.bigSep_insert' (by decide +revert), SparseCore.bigSep_insert' (by decide +revert), SparseCore.bigSep_insert' (by decide +revert), SparseCore.bigSep_insert' (by decide +revert),
    SparseCore.bigSep_insert' (by decide +revert), SparseCore.bigSep_insert' (by decide +revert), SparseCore.bigSep_insert' (by decide +revert), bigSep_singleton]
  rfl

theorem dmaSems_univ : (Finset.univ : Finset (DmaSem sig)) = {(⟨0, by decide⟩ : DmaSem sig), (⟨1, by decide⟩ : DmaSem sig), (⟨2, by decide⟩ : DmaSem sig), (⟨3, by decide⟩ : DmaSem sig), (⟨4, by decide⟩ : DmaSem sig), (⟨5, by decide⟩ : DmaSem sig), (⟨6, by decide⟩ : DmaSem sig), (⟨7, by decide⟩ : DmaSem sig), (⟨8, by decide⟩ : DmaSem sig), (⟨9, by decide⟩ : DmaSem sig), (⟨10, by decide⟩ : DmaSem sig), (⟨11, by decide⟩ : DmaSem sig), (⟨12, by decide⟩ : DmaSem sig), (⟨13, by decide⟩ : DmaSem sig), (⟨14, by decide⟩ : DmaSem sig), (⟨15, by decide⟩ : DmaSem sig), (⟨16, by decide⟩ : DmaSem sig), (⟨17, by decide⟩ : DmaSem sig), (⟨18, by decide⟩ : DmaSem sig), (⟨19, by decide⟩ : DmaSem sig), (⟨20, by decide⟩ : DmaSem sig), (⟨21, by decide⟩ : DmaSem sig), (⟨22, by decide⟩ : DmaSem sig), (⟨23, by decide⟩ : DmaSem sig), (⟨24, by decide⟩ : DmaSem sig), (⟨25, by decide⟩ : DmaSem sig)} := by decide +revert

/-- The subcore's 26 semaphores at zero, one by one. -/
theorem ownSems0_each (c : Fin τ.nSC) (i : Fin τ.nSub) :
    (ownSems0 (V d c i) : sProp 𝕄)
      = iprop(semVal ((V d c i, SemLoc.dma (⟨0, by decide⟩ : DmaSem sig)) : GSem nD τ sig) 0
        ∗ semVal ((V d c i, SemLoc.dma (⟨1, by decide⟩ : DmaSem sig)) : GSem nD τ sig) 0
        ∗ semVal ((V d c i, SemLoc.dma (⟨2, by decide⟩ : DmaSem sig)) : GSem nD τ sig) 0
        ∗ semVal ((V d c i, SemLoc.dma (⟨3, by decide⟩ : DmaSem sig)) : GSem nD τ sig) 0
        ∗ semVal ((V d c i, SemLoc.dma (⟨4, by decide⟩ : DmaSem sig)) : GSem nD τ sig) 0
        ∗ semVal ((V d c i, SemLoc.dma (⟨5, by decide⟩ : DmaSem sig)) : GSem nD τ sig) 0
        ∗ semVal ((V d c i, SemLoc.dma (⟨6, by decide⟩ : DmaSem sig)) : GSem nD τ sig) 0
        ∗ semVal ((V d c i, SemLoc.dma (⟨7, by decide⟩ : DmaSem sig)) : GSem nD τ sig) 0
        ∗ semVal ((V d c i, SemLoc.dma (⟨8, by decide⟩ : DmaSem sig)) : GSem nD τ sig) 0
        ∗ semVal ((V d c i, SemLoc.dma (⟨9, by decide⟩ : DmaSem sig)) : GSem nD τ sig) 0
        ∗ semVal ((V d c i, SemLoc.dma (⟨10, by decide⟩ : DmaSem sig)) : GSem nD τ sig) 0
        ∗ semVal ((V d c i, SemLoc.dma (⟨11, by decide⟩ : DmaSem sig)) : GSem nD τ sig) 0
        ∗ semVal ((V d c i, SemLoc.dma (⟨12, by decide⟩ : DmaSem sig)) : GSem nD τ sig) 0
        ∗ semVal ((V d c i, SemLoc.dma (⟨13, by decide⟩ : DmaSem sig)) : GSem nD τ sig) 0
        ∗ semVal ((V d c i, SemLoc.dma (⟨14, by decide⟩ : DmaSem sig)) : GSem nD τ sig) 0
        ∗ semVal ((V d c i, SemLoc.dma (⟨15, by decide⟩ : DmaSem sig)) : GSem nD τ sig) 0
        ∗ semVal ((V d c i, SemLoc.dma (⟨16, by decide⟩ : DmaSem sig)) : GSem nD τ sig) 0
        ∗ semVal ((V d c i, SemLoc.dma (⟨17, by decide⟩ : DmaSem sig)) : GSem nD τ sig) 0
        ∗ semVal ((V d c i, SemLoc.dma (⟨18, by decide⟩ : DmaSem sig)) : GSem nD τ sig) 0
        ∗ semVal ((V d c i, SemLoc.dma (⟨19, by decide⟩ : DmaSem sig)) : GSem nD τ sig) 0
        ∗ semVal ((V d c i, SemLoc.dma (⟨20, by decide⟩ : DmaSem sig)) : GSem nD τ sig) 0
        ∗ semVal ((V d c i, SemLoc.dma (⟨21, by decide⟩ : DmaSem sig)) : GSem nD τ sig) 0
        ∗ semVal ((V d c i, SemLoc.dma (⟨22, by decide⟩ : DmaSem sig)) : GSem nD τ sig) 0
        ∗ semVal ((V d c i, SemLoc.dma (⟨23, by decide⟩ : DmaSem sig)) : GSem nD τ sig) 0
        ∗ semVal ((V d c i, SemLoc.dma (⟨24, by decide⟩ : DmaSem sig)) : GSem nD τ sig) 0
        ∗ semVal ((V d c i, SemLoc.dma (⟨25, by decide⟩ : DmaSem sig)) : GSem nD τ sig) 0) := by
  rw [ownSems0_V, dmaSems_univ]
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton]

theorem fin26_univ : (Finset.univ : Finset (Fin 26)) = {(⟨0, by decide⟩ : Fin 26), (⟨1, by decide⟩ : Fin 26), (⟨2, by decide⟩ : Fin 26), (⟨3, by decide⟩ : Fin 26), (⟨4, by decide⟩ : Fin 26), (⟨5, by decide⟩ : Fin 26), (⟨6, by decide⟩ : Fin 26), (⟨7, by decide⟩ : Fin 26), (⟨8, by decide⟩ : Fin 26), (⟨9, by decide⟩ : Fin 26), (⟨10, by decide⟩ : Fin 26), (⟨11, by decide⟩ : Fin 26), (⟨12, by decide⟩ : Fin 26), (⟨13, by decide⟩ : Fin 26), (⟨14, by decide⟩ : Fin 26), (⟨15, by decide⟩ : Fin 26), (⟨16, by decide⟩ : Fin 26), (⟨17, by decide⟩ : Fin 26), (⟨18, by decide⟩ : Fin 26), (⟨19, by decide⟩ : Fin 26), (⟨20, by decide⟩ : Fin 26), (⟨21, by decide⟩ : Fin 26), (⟨22, by decide⟩ : Fin 26), (⟨23, by decide⟩ : Fin 26), (⟨24, by decide⟩ : Fin 26), (⟨25, by decide⟩ : Fin 26)} := by decide +revert

/-- A read share of an array as 26 read tokens, one per semaphore cell, and the remainder. -/
theorem toks_each {ℓ : Loc nD τ sig} (q : PosShare TreeShare) (f : Buf (Elt F) ℓ) :
    (ℓ ↦{q} f : sProp 𝕄) ⊣⊢ iprop((ℓ ↦{Transfers.shareDrop q 26} f)
        ∗ (ℓ ↦{Transfers.shareTok q 26 (⟨0, by decide⟩ : Fin 26)} f)
        ∗ (ℓ ↦{Transfers.shareTok q 26 (⟨1, by decide⟩ : Fin 26)} f)
        ∗ (ℓ ↦{Transfers.shareTok q 26 (⟨2, by decide⟩ : Fin 26)} f)
        ∗ (ℓ ↦{Transfers.shareTok q 26 (⟨3, by decide⟩ : Fin 26)} f)
        ∗ (ℓ ↦{Transfers.shareTok q 26 (⟨4, by decide⟩ : Fin 26)} f)
        ∗ (ℓ ↦{Transfers.shareTok q 26 (⟨5, by decide⟩ : Fin 26)} f)
        ∗ (ℓ ↦{Transfers.shareTok q 26 (⟨6, by decide⟩ : Fin 26)} f)
        ∗ (ℓ ↦{Transfers.shareTok q 26 (⟨7, by decide⟩ : Fin 26)} f)
        ∗ (ℓ ↦{Transfers.shareTok q 26 (⟨8, by decide⟩ : Fin 26)} f)
        ∗ (ℓ ↦{Transfers.shareTok q 26 (⟨9, by decide⟩ : Fin 26)} f)
        ∗ (ℓ ↦{Transfers.shareTok q 26 (⟨10, by decide⟩ : Fin 26)} f)
        ∗ (ℓ ↦{Transfers.shareTok q 26 (⟨11, by decide⟩ : Fin 26)} f)
        ∗ (ℓ ↦{Transfers.shareTok q 26 (⟨12, by decide⟩ : Fin 26)} f)
        ∗ (ℓ ↦{Transfers.shareTok q 26 (⟨13, by decide⟩ : Fin 26)} f)
        ∗ (ℓ ↦{Transfers.shareTok q 26 (⟨14, by decide⟩ : Fin 26)} f)
        ∗ (ℓ ↦{Transfers.shareTok q 26 (⟨15, by decide⟩ : Fin 26)} f)
        ∗ (ℓ ↦{Transfers.shareTok q 26 (⟨16, by decide⟩ : Fin 26)} f)
        ∗ (ℓ ↦{Transfers.shareTok q 26 (⟨17, by decide⟩ : Fin 26)} f)
        ∗ (ℓ ↦{Transfers.shareTok q 26 (⟨18, by decide⟩ : Fin 26)} f)
        ∗ (ℓ ↦{Transfers.shareTok q 26 (⟨19, by decide⟩ : Fin 26)} f)
        ∗ (ℓ ↦{Transfers.shareTok q 26 (⟨20, by decide⟩ : Fin 26)} f)
        ∗ (ℓ ↦{Transfers.shareTok q 26 (⟨21, by decide⟩ : Fin 26)} f)
        ∗ (ℓ ↦{Transfers.shareTok q 26 (⟨22, by decide⟩ : Fin 26)} f)
        ∗ (ℓ ↦{Transfers.shareTok q 26 (⟨23, by decide⟩ : Fin 26)} f)
        ∗ (ℓ ↦{Transfers.shareTok q 26 (⟨24, by decide⟩ : Fin 26)} f)
        ∗ (ℓ ↦{Transfers.shareTok q 26 (⟨25, by decide⟩ : Fin 26)} f)) := by
  have h := Transfers.pointsTo_toks (nD := nD) (τ := τ) (sig := sig) (Ix := HIx 1) (Val := Elt F) (Name := ℕ) (U := UU) (Lvl := ℕ) (ℓ := ℓ) (S := Finset.univ) (f := f) q 26
  rw [fin26_univ] at h
  rw [SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), SparseCore.bigSep_insert' (by decide +revert), bigSep_singleton] at h
  exact h

end Tile
end Cert.Proof.KB
end
-- ==== Proof.KB.TileLists.lean ====
/-
  What the three index lists hold once the index copies have landed, and that every word a gather reads off them names a
  row of the tables: a list is the worker's 512 rows of one column of `sample`, whose words are all below 100000.
-/
import proofs.«209583_g49984829390938_cont_8to1c4_457_35_alg».proof.Proof.KB.TileRes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

abbrev thrL (d : Dev nD) (L : grid0.Coords) : Thread nD τ := V d (cV L) (jV L)

local notation "hidxW" => (Memref.whole Cert.Kernel.cc0_scratch0 : Memref Cert.Kernel.sig Kind.scVector Space.vmem Cert.Kernel.S512 EltTy.i32)
local notation "ridxW" => (Memref.whole Cert.Kernel.cc0_scratch1 : Memref Cert.Kernel.sig Kind.scVector Space.vmem Cert.Kernel.S512 EltTy.i32)
local notation "tidxW" => (Memref.whole Cert.Kernel.cc0_scratch2 : Memref Cert.Kernel.sig Kind.scVector Space.vmem Cert.Kernel.S512 EltTy.i32)

/-- What a list scratch holds once its copy has landed. -/
abbrev landsH (f0 : Buf (Elt F) ((thrL d L).loc cc0_scratch0)) : Buf (Elt F) ((hidxW).view.loc (thrL d L)) :=
  (hidxW).view.write (Elt F) f0 (ReadAs.same.apply ((hSl L).view.read (Elt F) (col m d 0 : Buf (Elt F) (hLoc d)))) Finset.univ
abbrev landsR (f1 : Buf (Elt F) ((thrL d L).loc cc0_scratch1)) : Buf (Elt F) ((ridxW).view.loc (thrL d L)) :=
  (ridxW).view.write (Elt F) f1 (ReadAs.same.apply ((rSl L).view.read (Elt F) (col m d 1 : Buf (Elt F) (rLoc d)))) Finset.univ
abbrev landsT (f2 : Buf (Elt F) ((thrL d L).loc cc0_scratch2)) : Buf (Elt F) ((tidxW).view.loc (thrL d L)) :=
  (tidxW).view.write (Elt F) f2 (ReadAs.same.apply ((tSl L).view.read (Elt F) (col m d 2 : Buf (Elt F) (tLoc d)))) Finset.univ

/-- Every word of the three columns names a table row. -/
def RangeOK : Prop := ∀ (d : Dev nD) (k : Fin 3) (n : S16384.Idx), (col m d k n).toNat < 100000

abbrev dsem24 : DmaSem sig := ⟨24, by decide⟩

theorem hinH (hpre : RangeOK m) (f0 : Buf (Elt F) ((thrL d L).loc cc0_scratch0)) (off : Fin 1 → Nat) (h : ∀ a, off a + S16.size a ≤ S512.size a) (x : S16.Idx) :
    ((((hidxW).slice (Rect.unit (s := S512) off S16.size h) (fun _ => rfl)).view.read (Elt F) (landsH m d L f0)) x).toNat < S100000x128.size gathers_S100000x128_S16x128.axis := by
  have e : landsH m d L f0 = ReadAs.same.apply ((hSl L).view.read (Elt F) (col m d 0 : Buf (Elt F) (hLoc d))) := View.write_whole_univ _ _ _
  rw [e]
  exact hpre d 0 _

theorem hinR (hpre : RangeOK m) (f1 : Buf (Elt F) ((thrL d L).loc cc0_scratch1)) (off : Fin 1 → Nat) (h : ∀ a, off a + S16.size a ≤ S512.size a) (x : S16.Idx) :
    ((((ridxW).slice (Rect.unit (s := S512) off S16.size h) (fun _ => rfl)).view.read (Elt F) (landsR m d L f1)) x).toNat < S100000x128.size gathers_S100000x128_S16x128.axis := by
  have e : landsR m d L f1 = ReadAs.same.apply ((rSl L).view.read (Elt F) (col m d 1 : Buf (Elt F) (rLoc d))) := View.write_whole_univ _ _ _
  rw [e]
  exact hpre d 1 _

theorem hinT (hpre : RangeOK m) (f2 : Buf (Elt F) ((thrL d L).loc cc0_scratch2)) (off : Fin 1 → Nat) (h : ∀ a, off a + S16.size a ≤ S512.size a) (x : S16.Idx) :
    ((((tidxW).slice (Rect.unit (s := S512) off S16.size h) (fun _ => rfl)).view.read (Elt F) (landsT m d L f2)) x).toNat < S100000x128.size gathers_S100000x128_S16x128.axis := by
  have e : landsT m d L f2 = ReadAs.same.apply ((tSl L).view.read (Elt F) (col m d 2 : Buf (Elt F) (tLoc d))) := View.write_whole_univ _ _ _
  rw [e]
  exact hpre d 2 _

/-- The three index copies' deliveries: each list at its landed contents, each column slice back. -/
def idxDeliv (f0 : Buf (Elt F) ((thrL d L).loc cc0_scratch0)) (f1 : Buf (Elt F) ((thrL d L).loc cc0_scratch1)) (f2 : Buf (Elt F) ((thrL d L).loc cc0_scratch2))
    (w : Fin 3) : sProp 𝕄 :=
  match w with
  | 0 => iprop(((hidxW).view.loc (thrL d L) ↦{fullShare} landsH m d L f0) ∗ ((hSl L).view.loc (thrL d L) ↦[(hSl L).view.set]{fullShare} (col m d 0 : Buf (Elt F) (hLoc d))))
  | 1 => iprop(((ridxW).view.loc (thrL d L) ↦{fullShare} landsR m d L f1) ∗ ((rSl L).view.loc (thrL d L) ↦[(rSl L).view.set]{fullShare} (col m d 1 : Buf (Elt F) (rLoc d))))
  | 2 => iprop(((tidxW).view.loc (thrL d L) ↦{fullShare} landsT m d L f2) ∗ ((tSl L).view.loc (thrL d L) ↦[(tSl L).view.set]{fullShare} (col m d 2 : Buf (Elt F) (tLoc d))))

instance idxDeliv_storable (f0 : Buf (Elt F) ((thrL d L).loc cc0_scratch0)) (f1 : Buf (Elt F) ((thrL d L).loc cc0_scratch1)) (f2 : Buf (Elt F) ((thrL d L).loc cc0_scratch2))
    (w : Fin 3) : BI.Storable (upEmb : UEmb _ 𝕄) (idxDeliv m d L f0 f1 f2 w) := by
  unfold idxDeliv
  match w with
  | 0 => infer_instance
  | 1 => infer_instance
  | 2 => infer_instance

end Tile
end Cert.Proof.KB
end
-- ==== Proof.KB.Slots.lean ====
/-
  The three row buffers as eight slots of sixteen rows, the three index lists as 32 windows of sixteen words, and the
  24 gather semaphores by slot, with numeric indices: slot b < 8 of a row buffer is rows [b] × 16 × 128; window c < 32 of a
  list is words 16c … 16c + 15; table X ∈ {h, r, t} completes its slot-b gathers on semaphore base_X + b with bases 0, 8, 16.
  Chunk c (the worker's rows 16c … 16c + 15) lives in slot c mod 8 and reads window c.
-/
import proofs.«209583_g49984829390938_cont_8to1c4_457_35_alg».proof.Proof.KB.TileLists

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

local notation "hidxW" => (Memref.whole Cert.Kernel.cc0_scratch0 : Memref Cert.Kernel.sig Kind.scVector Space.vmem Cert.Kernel.S512 EltTy.i32)
local notation "ridxW" => (Memref.whole Cert.Kernel.cc0_scratch1 : Memref Cert.Kernel.sig Kind.scVector Space.vmem Cert.Kernel.S512 EltTy.i32)
local notation "tidxW" => (Memref.whole Cert.Kernel.cc0_scratch2 : Memref Cert.Kernel.sig Kind.scVector Space.vmem Cert.Kernel.S512 EltTy.i32)
local notation "bufHW" => (Memref.whole Cert.Kernel.cc0_scratch3 : Memref Cert.Kernel.sig Kind.scVector Space.vmem Cert.Kernel.S8x16x128 EltTy.f32)
local notation "bufRW" => (Memref.whole Cert.Kernel.cc0_scratch4 : Memref Cert.Kernel.sig Kind.scVector Space.vmem Cert.Kernel.S8x16x128 EltTy.f32)
local notation "bufTW" => (Memref.whole Cert.Kernel.cc0_scratch5 : Memref Cert.Kernel.sig Kind.scVector Space.vmem Cert.Kernel.S8x16x128 EltTy.f32)

theorem slot_inb (b : ℕ) (hb : b < 8) : ∀ a, (![b, 0, 0] : Fin 3 → Nat) a + S1x16x128.size a ≤ S8x16x128.size a := by
  intro a
  match a with
  | ⟨0, _⟩ => show b + 1 ≤ 8; omega
  | ⟨1, _⟩ => show 0 + 16 ≤ 16; omega
  | ⟨2, _⟩ => show 0 + 128 ≤ 128; omega
theorem win_inb (c : ℕ) (hc : c < 32) : ∀ a, (![16 * c] : Fin 1 → Nat) a + S16.size a ≤ S512.size a := by
  intro a
  obtain rfl : a = 0 := Subsingleton.elim _ _
  show 16 * c + 16 ≤ 512; omega
theorem sem_inb (b : ℕ) (hb : b < 8) : ∀ a, (![b] : Fin 1 → Nat) a + S1.size a ≤ S8.size a := by
  intro a
  obtain rfl : a = 0 := Subsingleton.elim _ _
  show b + 1 ≤ 8; omega

/-- Slot `b` of a row buffer, as a 16×128 memref. -/
abbrev slotOf (B : Memref sig .scVector .vmem S8x16x128 .f32) (b : ℕ) (hb : b < 8) : Memref sig .scVector .vmem S16x128 .f32 :=
  (B.slice (Rect.unit (s := S8x16x128) ![b, 0, 0] S1x16x128.size (slot_inb b hb)) (fun _ => rfl)).squeeze S16x128 squeezes_S1x16x128_S16x128
/-- Window `c` of a list, as a 16-word memref. -/
abbrev winOf (Lm : Memref sig .scVector .vmem S512 .i32) (c : ℕ) (hc : c < 32) : Memref sig .scVector .vmem S16 .i32 :=
  Lm.slice (Rect.unit (s := S512) ![16 * c] S16.size (win_inb c hc)) (fun _ => rfl)
/-- Semaphore `b` of an array of eight. -/
abbrev semOf (A : DmaSems sig S8) (b : ℕ) (hb : b < 8) : DmaSem sig :=
  ((A.slice (Rect.unit (s := S8) ![b] S1.size (sem_inb b hb))).squeeze S_ squeezes_S1_S_).sem

end Tile
end Cert.Proof.KB
end
-- ==== Proof.KB.SlotEqs.lean ====
/-
  The loop body's slices, by number.

  Trip k of the 32 issues the gathers of chunk k + 7 (when k + 7 < 32) into slot (k + 7) mod 8 of each row buffer, from window
  k + 7 of each index list, completing on semaphore (k + 7) mod 8 of each array; it waits for chunk k's gathers in slot k mod 8
  on semaphore k mod 8; and it stores its sixteen scores at words 16k … 16k + 15 of the score scratch. The program spells each
  offset as the chain of word operations that computes it; each chain equals its closed form at every trip, and slices through
  rectangles of the same sizes at equal offsets are equal whatever their in-bounds evidence. An array of eight semaphores laid
  on the pool from a base names, at index b, the pool's semaphore base + b.
-/
import proofs.«209583_g49984829390938_cont_8to1c4_457_35_alg».proof.Proof.KB.Slots
import proofs.«209583_g49984829390938_cont_8to1c4_457_35_alg».proof.Proof.Gen.Kernel

noncomputable section

namespace Cert.Proof.KB

open Cert.Kernel Cert.Kernel.Gen

open Idealize.ShloMosaic

/-! ## The trips -/

/-- The loop runs 32 trips. -/
theorem trips_eq : k0_t1_loop.trips = 32 := by decide +kernel

theorem cond_iff_all : ∀ k : Fin k0_t1_loop.trips, (k0_cond1 k = 1#1 ↔ k.val + 7 < 32) := by decide +kernel

/-- The body issues the next gathers exactly when chunk k + 7 exists. -/
theorem cond_iff (k : Fin k0_t1_loop.trips) : k0_cond1 k = 1#1 ↔ k.val + 7 < 32 := cond_iff_all k

/-- A trip's number is below 32. -/
theorem trip_lt (k : Fin k0_t1_loop.trips) : k.val < 32 := lt_of_lt_of_eq k.isLt trips_eq

/-! ## The row buffers' slots, the lists' windows, the semaphores -/

section Slices

variable (B : Memref sig .scVector .vmem S8x16x128 .f32) (Lm : Memref sig .scVector .vmem S512 .i32) (A : DmaSems sig S8)

/-- The slot the issued gathers fill is slot (k + 7) mod 8. -/
theorem slot_issue (k : Fin k0_t1_loop.trips) (h : k0_cond1 k = 1#1) :
    (B.slice (Rect.unit (s := S8x16x128) (k0_off4 k) S1x16x128.size (k0_off4_inb k h)) (fun _ => rfl)).squeeze S16x128 squeezes_S1x16x128_S16x128
      = slotOf B ((k.val + 7) % 8) (Nat.mod_lt _ (by decide)) :=
  congrArg (fun M : Memref sig .scVector .vmem S1x16x128 .f32 => M.squeeze S16x128 squeezes_S1x16x128_S16x128)
    (Memref.slice_unit_congr B (k0_off4_eq k) (k0_off4_inb k h) (slot_inb _ (Nat.mod_lt _ (by decide))) (fun _ => rfl) (fun _ => rfl))

/-- The slot the waited gathers filled is slot k mod 8. -/
theorem slot_wait (k : Fin k0_t1_loop.trips) :
    (B.slice (Rect.unit (s := S8x16x128) (k0_off7 k) S1x16x128.size (k0_off7_inb k)) (fun _ => rfl)).squeeze S16x128 squeezes_S1x16x128_S16x128
      = slotOf B (k.val % 8) (Nat.mod_lt _ (by decide)) :=
  congrArg (fun M : Memref sig .scVector .vmem S1x16x128 .f32 => M.squeeze S16x128 squeezes_S1x16x128_S16x128)
    (Memref.slice_unit_congr B (k0_off7_eq k) (k0_off7_inb k) (slot_inb _ (Nat.mod_lt _ (by decide))) (fun _ => rfl) (fun _ => rfl))

/-- The window the issued gathers read is window k + 7: 16k + 112 = 16 (k + 7). -/
theorem win_issue (k : Fin k0_t1_loop.trips) (h : k0_cond1 k = 1#1) :
    Lm.slice (Rect.unit (s := S512) (k0_off5 k) S16.size (k0_off5_inb k h)) (fun _ => rfl)
      = winOf Lm (k.val + 7) ((cond_iff k).mp h) := by
  have e : (![16 * k.val + 112] : Fin 1 → Nat) = ![16 * (k.val + 7)] := by rw [Nat.mul_add]
  exact Memref.slice_unit_congr Lm ((k0_off5_eq k).trans e) (k0_off5_inb k h) (win_inb _ ((cond_iff k).mp h)) (fun _ => rfl) (fun _ => rfl)

/-- The semaphore the issued gathers complete on is semaphore (k + 7) mod 8 of the array. -/
theorem sem_issue (k : Fin k0_t1_loop.trips) (h : k0_cond1 k = 1#1) :
    ((A.slice (Rect.unit (s := S8) (k0_off6 k) S1.size (k0_off6_inb k h))).squeeze S_ squeezes_S1_S_).sem
      = semOf A ((k.val + 7) % 8) (Nat.mod_lt _ (by decide)) :=
  congrArg (fun X : DmaSems sig S1 => (X.squeeze S_ squeezes_S1_S_).sem)
    (SemArray.slice_unit_congr A (k0_off6_eq k) (k0_off6_inb k h) (sem_inb _ (Nat.mod_lt _ (by decide))))

/-- The semaphore the waited gathers completed on is semaphore k mod 8 of the array. -/
theorem sem_wait (k : Fin k0_t1_loop.trips) :
    ((A.slice (Rect.unit (s := S8) (k0_off8 k) S1.size (k0_off8_inb k))).squeeze S_ squeezes_S1_S_).sem
      = semOf A (k.val % 8) (Nat.mod_lt _ (by decide)) :=
  congrArg (fun X : DmaSems sig S1 => (X.squeeze S_ squeezes_S1_S_).sem)
    (SemArray.slice_unit_congr A (k0_off8_eq k) (k0_off8_inb k) (sem_inb _ (Nat.mod_lt _ (by decide))))

/-- Semaphore b of an array is the array at the one index of the unit rectangle at offset b. -/
theorem semOf_ix (b : ℕ) (hb : b < 8) :
    ∃ x : S1.Idx, semOf A b hb = A.ix ((Rect.unit (s := S8) ![b] S1.size (sem_inb b hb)).emb x) := ⟨_, rfl⟩

end Slices

/-! ## The three semaphore arrays on the pool -/

/-- A semaphore of an array of eight laid on the pool from a base that leaves room is in the pool. -/
theorem lt_pool (base b : ℕ) (hb : b < 8) (hbase : base + 8 ≤ 26) : base + b < sig.nDmaSem := by
  show base + b < 26
  omega

/-- Eight consecutive semaphores of the pool from `base`: index b names semaphore base + b. -/
theorem semOf_consecutive (base : ℕ) (hbase : base + S8.numel ≤ sig.nDmaSem) (b : ℕ) (hb : b < 8) :
    (semOf (SemArray.consecutive base S8 hbase) b hb).val = base + b := by
  obtain ⟨x, hx⟩ := semOf_ix (SemArray.consecutive base S8 hbase) b hb
  rw [hx]
  show base + (S8.rowMajor ((Rect.unit (s := S8) ![b] S1.size (sem_inb b hb)).emb x)).val = base + b
  rw [Shape.rowMajor_val_one, Rect.emb_apply]
  have h1 : (x 0).val < 1 := (x 0).isLt
  show base + (b + 1 * (x 0).val) = base + b
  omega

/-- The first array's semaphore b is the pool's semaphore b. -/
theorem semOf_scratch8 (b : ℕ) (hb : b < 8) :
    semOf cc0_scratch8 b hb = (⟨b, by have := lt_pool 0 b hb (by omega); omega⟩ : DmaSem sig) :=
  Fin.ext ((semOf_consecutive 0 _ b hb).trans (Nat.zero_add b))

/-- The second array's semaphore b is the pool's semaphore 8 + b. -/
theorem semOf_scratch9 (b : ℕ) (hb : b < 8) :
    semOf cc0_scratch9 b hb = (⟨8 + b, lt_pool 8 b hb (by omega)⟩ : DmaSem sig) :=
  Fin.ext (semOf_consecutive 8 _ b hb)

/-- The third array's semaphore b is the pool's semaphore 16 + b. -/
theorem semOf_scratch10 (b : ℕ) (hb : b < 8) :
    semOf cc0_scratch10 b hb = (⟨16 + b, lt_pool 16 b hb (by omega)⟩ : DmaSem sig) :=
  Fin.ext (semOf_consecutive 16 _ b hb)

/-! ## The score scratch -/

/-- The trip's store into the 512-word score scratch is at words 16k … 16k + 15. -/
theorem out_slot (k : Fin k0_t1_loop.trips) :
    Rect.unit (s := S512) (k0_off137 k) S16.size (k0_off137_inb k)
      = Rect.unit (s := S512) ![16 * k.val] S16.size (win_inb k.val (trip_lt k)) :=
  Rect.unit_congr (k0_off137_eq k) _ _

end Cert.Proof.KB

end
-- ==== Proof.KB.LoopInv.lean ====
/-
  The counted loop's invariant. Before trip k the gathers of chunks k … min(k + 7, 32) − 1 are in flight, each in slot
  (chunk mod 8) on that slot's three semaphores; the remaining slots — those of the "virtual" chunks min(k + 7, 32) … k + 7 —
  are idle, their rows, semaphores and read tokens in hand; the list windows of the chunks not yet started and of the
  chunks already finished are in hand; so are the transpose scratch and the score scratch, whose first 16k words are the finished scores. A list window of chunk c holds
  the worker's sample words 16c … 16c + 15 of its column; a landed slot of chunk c holds the sixteen table rows they name.
-/
import proofs.«209583_g49984829390938_cont_8to1c4_457_35_alg».proof.Proof.KB.Slots
import proofs.«209583_g49984829390938_cont_8to1c4_457_35_alg».proof.Proof.KB.SlotEqs

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-- The worker's read token for semaphore `i`. -/
abbrev tokQ (L : grid0.Coords) (i : ℕ) (hi : i < 26) : PosShare TreeShare :=
  Transfers.shareTok (Transfers.shareTok fullShare 32 (tL L)) 26 (⟨i, hi⟩ : Fin 26)

/-- Row `s` of chunk `c` of worker `tL L`, as a row of the sample (reduced mod 16384 so that it is total). -/
def rowN (L : grid0.Coords) (c s : ℕ) : Fin 16384 := ⟨(512 * (tL L).val + 16 * c + s) % 16384, Nat.mod_lt _ (by decide)⟩

/-- A 16-row slot at some contents. -/
def slotAny (M : Memref sig .scVector .vmem S16x128 .f32) : sProp 𝕄 :=
  iprop(∃ G, M.view.loc (thrL d L) ↦[M.view.set]{fullShare} G)

/-- A 16-row slot holding, for chunk `c`, the rows of table `tbl` that column `kX` of the sample names. -/
def slotHolds (tbl : S100000x128.Idx → F .f32) (kX : Fin 3) (c : ℕ) (M : Memref sig .scVector .vmem S16x128 .f32) : sProp 𝕄 :=
  iprop(∃ G, ⌜∀ (s : Fin 16) (x : Fin 128), M.view.read (Elt F) G (ix2 s x) = tbl (ix2 (Cert.Score.rowIx (col m d kX (ix1 (rowN L c s.val)))) x)⌝
    ∗ M.view.loc (thrL d L) ↦[M.view.set]{fullShare} G)

/-- A 16-word list window holding chunk `c`'s words of column `kX`. -/
def winHolds (kX : Fin 3) (c : ℕ) (M : Memref sig .scVector .vmem S16 .i32) : sProp 𝕄 :=
  iprop(∃ fw, ⌜∀ z : S16.Idx, M.view.read (Elt F) fw z = col m d kX (ix1 (rowN L c (z 0).val))⌝
    ∗ M.view.loc (thrL d L) ↦[M.view.set]{fullShare} fw)

/-- Chunk `c`'s gather of table H: what its landing hands back. -/
def delivH (c : ℕ) (hc : c < 32) : sProp 𝕄 :=
  iprop((slotHolds m d L (m (entLoc d) : S100000x128.Idx → F .f32) 0 c (slotOf (Memref.whole cc0_scratch3 : Memref sig .scVector .vmem S8x16x128 .f32) (c % 8) (Nat.mod_lt _ (by decide)))
      ∗ winHolds m d L 0 c (winOf (Memref.whole cc0_scratch0 : Memref sig .scVector .vmem S512 .i32) c hc))
    ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (0 + c % 8) (by have := Nat.mod_lt c (show 0 < 8 by decide); omega)} m (entLoc d)))

/-- The gather in flight. -/
def flightH (c : ℕ) (hc : c < 32) : sProp 𝕄 :=
  Transfers.Flight (countersEmb (U := UU)) (thrL d L) (SemLoc.dma (semOf cc0_scratch8 (c % 8) (Nat.mod_lt _ (by decide)))) (default : HIx 1) 65536 (delivH m d L c hc)

/-- Slot `b` of table H idle: its rows at some contents, its semaphore at zero, its read token. -/
def idleH (b : ℕ) (hb : b < 8) : sProp 𝕄 :=
  iprop(slotAny d L (slotOf (Memref.whole cc0_scratch3 : Memref sig .scVector .vmem S8x16x128 .f32) b hb)
    ∗ semVal ((thrL d L, SemLoc.dma (semOf cc0_scratch8 b hb)) : GSem nD τ sig) 0
    ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (0 + b) (by omega)} m (entLoc d)))

/-- Chunk `c`'s gather of table R: what its landing hands back. -/
def delivR (c : ℕ) (hc : c < 32) : sProp 𝕄 :=
  iprop((slotHolds m d L (m (relLoc d) : S100000x128.Idx → F .f32) 1 c (slotOf (Memref.whole cc0_scratch4 : Memref sig .scVector .vmem S8x16x128 .f32) (c % 8) (Nat.mod_lt _ (by decide)))
      ∗ winHolds m d L 1 c (winOf (Memref.whole cc0_scratch1 : Memref sig .scVector .vmem S512 .i32) c hc))
    ∗ (((Memref.whole main_arg2_scv : Memref sig .scVector .hbm S100000x128 .f32).slice (Rect.unit (s := S100000x128) ![0, 0] S100000x128.size inb_S100000x128_S100000x128_0_0) (fun _ => rfl)).view.loc (thrL d L) ↦[((Memref.whole main_arg2_scv : Memref sig .scVector .hbm S100000x128 .f32).slice (Rect.unit (s := S100000x128) ![0, 0] S100000x128.size inb_S100000x128_S100000x128_0_0) (fun _ => rfl)).view.set]{tokQ L (8 + c % 8) (by have := Nat.mod_lt c (show 0 < 8 by decide); omega)} m (relLoc d)))

/-- The gather in flight. -/
def flightR (c : ℕ) (hc : c < 32) : sProp 𝕄 :=
  Transfers.Flight (countersEmb (U := UU)) (thrL d L) (SemLoc.dma (semOf cc0_scratch9 (c % 8) (Nat.mod_lt _ (by decide)))) (default : HIx 1) 65536 (delivR m d L c hc)

/-- Slot `b` of table R idle: its rows at some contents, its semaphore at zero, its read token. -/
def idleR (b : ℕ) (hb : b < 8) : sProp 𝕄 :=
  iprop(slotAny d L (slotOf (Memref.whole cc0_scratch4 : Memref sig .scVector .vmem S8x16x128 .f32) b hb)
    ∗ semVal ((thrL d L, SemLoc.dma (semOf cc0_scratch9 b hb)) : GSem nD τ sig) 0
    ∗ (((Memref.whole main_arg2_scv : Memref sig .scVector .hbm S100000x128 .f32).slice (Rect.unit (s := S100000x128) ![0, 0] S100000x128.size inb_S100000x128_S100000x128_0_0) (fun _ => rfl)).view.loc (thrL d L) ↦[((Memref.whole main_arg2_scv : Memref sig .scVector .hbm S100000x128 .f32).slice (Rect.unit (s := S100000x128) ![0, 0] S100000x128.size inb_S100000x128_S100000x128_0_0) (fun _ => rfl)).view.set]{tokQ L (8 + b) (by omega)} m (relLoc d)))

/-- Chunk `c`'s gather of table T: what its landing hands back. -/
def delivT (c : ℕ) (hc : c < 32) : sProp 𝕄 :=
  iprop((slotHolds m d L (m (entLoc d) : S100000x128.Idx → F .f32) 2 c (slotOf (Memref.whole cc0_scratch5 : Memref sig .scVector .vmem S8x16x128 .f32) (c % 8) (Nat.mod_lt _ (by decide)))
      ∗ winHolds m d L 2 c (winOf (Memref.whole cc0_scratch2 : Memref sig .scVector .vmem S512 .i32) c hc))
    ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (16 + c % 8) (by have := Nat.mod_lt c (show 0 < 8 by decide); omega)} m (entLoc d)))

/-- The gather in flight. -/
def flightT (c : ℕ) (hc : c < 32) : sProp 𝕄 :=
  Transfers.Flight (countersEmb (U := UU)) (thrL d L) (SemLoc.dma (semOf cc0_scratch10 (c % 8) (Nat.mod_lt _ (by decide)))) (default : HIx 1) 65536 (delivT m d L c hc)

/-- Slot `b` of table T idle: its rows at some contents, its semaphore at zero, its read token. -/
def idleT (b : ℕ) (hb : b < 8) : sProp 𝕄 :=
  iprop(slotAny d L (slotOf (Memref.whole cc0_scratch5 : Memref sig .scVector .vmem S8x16x128 .f32) b hb)
    ∗ semVal ((thrL d L, SemLoc.dma (semOf cc0_scratch10 b hb)) : GSem nD τ sig) 0
    ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (16 + b) (by omega)} m (entLoc d)))

/-- A chunk's three flights; its three list windows; a slot's three idle thirds. -/
def flights (c : ℕ) : sProp 𝕄 :=
  if hc : c < 32 then iprop(flightH m d L c hc ∗ flightR m d L c hc ∗ flightT m d L c hc) else iprop(emp)
def wins (c : ℕ) : sProp 𝕄 :=
  if hc : c < 32 then iprop(winHolds m d L 0 c (winOf (Memref.whole cc0_scratch0 : Memref sig .scVector .vmem S512 .i32) c hc) ∗ winHolds m d L 1 c (winOf (Memref.whole cc0_scratch1 : Memref sig .scVector .vmem S512 .i32) c hc) ∗ winHolds m d L 2 c (winOf (Memref.whole cc0_scratch2 : Memref sig .scVector .vmem S512 .i32) c hc)) else iprop(emp)
def idles (c : ℕ) : sProp 𝕄 :=
  iprop(idleH m d L (c % 8) (Nat.mod_lt _ (by decide)) ∗ idleR m d L (c % 8) (Nat.mod_lt _ (by decide)) ∗ idleT m d L (c % 8) (Nat.mod_lt _ (by decide)))

/-- After `k` trips the first 16k words of the score scratch are the kernel's sums for the worker's rows. -/
def ScoreHolds [FloatOps F] (k : ℕ) (g : S512.Idx → F .f32) : Prop :=
  ∀ i : Fin 512, i.val < 16 * k → g (ix1 i) = kout m d (ix1 (rowN L 0 i.val))

variable (O : CellTallies nD τ sig (HIx 1)) (W : Waits sig (HIx 1))

/-- The invariant before trip `k`. -/
def loopInv [FloatOps F] (k : ℕ) (_ : PUnit) : sProp 𝕄 :=
  iprop(Transfers.MayWaits (thrL d L) (none : HIx 1) O
    ∗ (∃ W', ⌜∀ p ∈ W', p ∈ W ∨ p.2 = none⌝ ∗ owes (thrL d L) O W')
    ∗ bigSep (Finset.Ico k (min (k + 7) 32)) (flights m d L)
    ∗ bigSep (Finset.Ico (min (k + 7) 32) (k + 8)) (idles m d L)
    ∗ bigSep (Finset.Ico (min (k + 7) 32) 32) (wins m d L)
    ∗ bigSep (Finset.Ico 0 k) (wins m d L)
    ∗ (∃ g, (Memref.whole cc0_scratch6 : Memref sig .scVector .vmem S256 .f32).view.loc (thrL d L) ↦{fullShare} g)
    ∗ (∃ g, ⌜ScoreHolds m d L k (g : S512.Idx → F .f32)⌝ ∗ (Memref.whole cc0_scratch7 : Memref sig .scVector .vmem S512 .f32).view.loc (thrL d L) ↦{fullShare} g))

end Tile
end Cert.Proof.KB
end
-- ==== Proof.KB.SlotRead.lean ====
/-
  Reading values out of a loop trip: pure index lemmas, no program run.

  A row buffer is eight slots of sixteen rows of 128 words. A 16-lane piece of row s of slot b at lane block kk, loaded as
  a 1×1×16 block and read as a vector, is the buffer at (b, s, 16·kk + x). Slot b as a 16×128 array sits at (b, ·, ·), so a
  gather's rows written through it are read back at (b, s, x) as the gather's payload at (s, x): the table at the row the
  list's word s names, column x. Window c of a list is words 16·c … 16·c + 15, and a landed list is the worker's 512 rows of
  one column of `sample`, so that word is the column at the worker's row 16·c + s; under the range hypothesis it names a
  table row unclamped. The 256-word scratch, after sixteen 16-word rows are stored at offsets 0, 16, …, 240, holds row s's
  word l at 16·s + l; the j-th indexed load, whose lane x names word 16·x + j, therefore reads row x's word j.
-/
import proofs.«209583_g49984829390938_cont_8to1c4_457_35_alg».proof.Proof.KB.Slots
import Idealize.ShloMosaic.Lib.SparseCore.Stream
import Idealize.ShloMosaic.Lib.SparseCore.Ops
import Idealize.ShloMosaic.Lib.Pipeline.Value
import Idealize.ShloMosaic.Lib.WritesUnit

noncomputable section

namespace Cert.Proof.KB

open Cert.Kernel Cert.Kernel.Gen

open Idealize.ShloMosaic Idealize.ShloMosaic.ValueIdx
open Idealize.ShloMosaic.SparseCore (S V T gatherPayload rows)

variable {F : FTy → Type}

/-! ## A 16-lane piece of a row buffer, and a slot of it -/

/-- A 16-lane piece of row `s` of slot `b`, loaded as a 1×1×16 block at offsets (b, s, 16·kk) and read as a 16-vector,
    holds at lane x the buffer's element (b, s, 16·kk + x). -/
theorem piece_read (B : Memref sig .scVector .vmem S8x16x128 .f32) (G : B.view.ty.Contents (Elt F))
    (off : Fin 3 → Nat) (p : ∀ a, off a + S1x1x16.size a ≤ S8x16x128.size a) (hc : S1x1x16.ShapeCasts S16)
    (b s kk : ℕ) (hb : b < 8) (hs : s < 16) (hk : kk < 8) (hoff : off = ![b, s, 16 * kk]) (x : S16.Idx) :
    shapeCast S16 (B.view.readAt (Elt F) (Rect.unit (s := S8x16x128) off S1x1x16.size p).toLoadRect G) hc x
      = B.view.read (Elt F) G (ix3 (⟨b, hb⟩ : Fin 8) (⟨s, hs⟩ : Fin 16)
          (⟨16 * kk + (x 0).val, by have h16 : (x 0).val < 16 := (x 0).isLt; omega⟩ : Fin 128)) := by
  subst hoff
  refine (shapeCast_apply _ hc x (ix3 (0 : Fin 1) (0 : Fin 1) (x 0)) ?_).trans ?_
  · rw [Shape.rowMajor_val_three, Shape.rowMajor_val_one]
    show (0 * 1 + 0) * 16 + (x 0).val = (x 0).val
    omega
  · rw [View.readAt_apply]
    congr 1
    funext a
    match a with
    | ⟨0, _⟩ => exact Fin.ext (show b + 1 * 0 = b by omega)
    | ⟨1, _⟩ => exact Fin.ext (show s + 1 * 0 = s by omega)
    | ⟨2, _⟩ => exact Fin.ext (show 16 * kk + 1 * (x 0).val = 16 * kk + (x 0).val by omega)

/-- Where slot `b`'s element (s, x) sits in the row buffer: at (b, s, x). -/
theorem slot_emb (B : Memref sig .scVector .vmem S8x16x128 .f32) (b : ℕ) (hb : b < 8) (y : S16x128.Idx) :
    (slotOf B b hb).view.emb y = B.view.emb (ix3 (⟨b, hb⟩ : Fin 8) (y 0) (y 1)) := by
  show B.view.emb ((Rect.unit (s := S8x16x128) ![b, 0, 0] S1x16x128.size (slot_inb b hb)).emb
      (Shape.reshapeEquiv (Shape.Squeezes.numel_eq squeezes_S1x16x128_S16x128) y)) = _
  congr 1
  have hre : Shape.reshapeEquiv (Shape.Squeezes.numel_eq squeezes_S1x16x128_S16x128) y = (ix3 (0 : Fin 1) (y 0) (y 1) : S1x16x128.Idx) :=
    Shape.reshapeEquiv_eq_of_rowMajor _ (by
      rw [Shape.rowMajor_val_three, Shape.rowMajor_val_two]
      show (0 * 16 + (y 0).val) * 128 + (y 1).val = (y 0).val * 128 + (y 1).val
      omega)
  refine (congrArg (fun j => (Rect.unit (s := S8x16x128) ![b, 0, 0] S1x16x128.size (slot_inb b hb)).emb j) hre).trans ?_
  funext a
  match a with
  | ⟨0, _⟩ => exact Fin.ext (show b + 1 * 0 = b by omega)
  | ⟨1, _⟩ => exact Fin.ext (show 0 + 1 * (y 0).val = (y 0).val by omega)
  | ⟨2, _⟩ => exact Fin.ext (show 0 + 1 * (y 1).val = (y 1).val by omega)

/-- Reading through slot `b` is reading the row buffer at (b, ·, ·). -/
theorem slot_read (B : Memref sig .scVector .vmem S8x16x128 .f32) (b : ℕ) (hb : b < 8) (G : B.view.ty.Contents (Elt F)) (y : S16x128.Idx) :
    (slotOf B b hb).view.read (Elt F) G y = B.view.read (Elt F) G (ix3 (⟨b, hb⟩ : Fin 8) (y 0) (y 1)) := by
  rw [View.read_apply, View.read_apply, slot_emb]

/-- What was written through slot `b` is what the row buffer holds at (b, s, x). -/
theorem slot_write_read (B : Memref sig .scVector .vmem S8x16x128 .f32) (b : ℕ) (hb : b < 8) (g : B.view.ty.Contents (Elt F))
    (w : S16x128.Idx → Elt F .f32) (s : Fin 16) (x : Fin 128) :
    B.view.read (Elt F) ((slotOf B b hb).view.write (Elt F) g w Finset.univ) (ix3 (⟨b, hb⟩ : Fin 8) s x) = w (ix2 s x) :=
  (slot_read B b hb _ (ix2 s x)).symm.trans (View.read_write_of_mem _ _ (Finset.mem_univ _))

/-! ## What a landed gather put in a slot -/

/-- The word a 16-word list holds at row-major position `k` is the word at index `k`. -/
theorem rowMajor_symm_S16 (k : Fin 16) (h : S16.numel = 16) : S16.rowMajor.symm (k.cast h.symm) = ix1 k := by
  rw [Equiv.symm_apply_eq]
  apply Fin.ext
  rw [Shape.rowMajor_val_one]
  rfl

/-- The gather's payload at (s, x): the table at the row the list's word `s` names, column x. -/
theorem gatherPayload_apply (hg : S100000x128.Gathers 0 S16x128) (Tb : S100000x128.Idx → Elt F .f32) (W : S16.Idx → Elt F .i32)
    (hn : S16.numel = S16x128.size hg.axis') (hin : ∀ x, (W x).toNat < S100000x128.size hg.axis) (y : S16x128.Idx) :
    gatherPayload hg Tb (rows W hn hin) y = Tb (ix2 (⟨(W (ix1 (y 0))).toNat, hin _⟩ : Fin 100000) (y 1)) := by
  unfold gatherPayload
  congr 1
  funext a
  match a with
  | ⟨0, _⟩ =>
    apply Fin.ext
    show ((hg.idx (rows W hn hin) y) hg.axis).val = _
    rw [Shape.Gathers.idx_axis]
    show (W (S16.rowMajor.symm ((y hg.axis').cast hn.symm))).toNat = (W (ix1 (y 0))).toNat
    exact congrArg (fun i => (W i).toNat) (rowMajor_symm_S16 (y 0) hn)
  | ⟨1, _⟩ => exact Fin.ext (Shape.Gathers.idx_of_ne hg _ y 1 (by decide))

/-- Window `c` of a list at word s is the list at word 16·c + s. -/
theorem win_read (Lm : Memref sig .scVector .vmem S512 .i32) (c : ℕ) (hc : c < 32) (W : Lm.view.ty.Contents (Elt F)) (z : S16.Idx) :
    (winOf Lm c hc).view.read (Elt F) W z
      = Lm.view.read (Elt F) W (ix1 (⟨16 * c + (z 0).val, by have h16 : (z 0).val < 16 := (z 0).isLt; omega⟩ : Fin 512)) := by
  rw [View.read_apply, View.read_apply]
  show _root_.cast _ (W (Lm.view.emb ((Rect.unit (s := S512) ![16 * c] S16.size (win_inb c hc)).emb z))) = _
  congr 3
  funext a
  match a with
  | ⟨0, _⟩ => exact Fin.ext (show 16 * c + 1 * (z 0).val = 16 * c + (z 0).val by omega)

/-- The whole table, sliced at offset (0, 0) with its full size, reads as the table. -/
theorem table_read (A : Memref sig .scVector .hbm S100000x128 .f32) (p : ∀ a, (![0, 0] : Fin 2 → Nat) a + S100000x128.size a ≤ S100000x128.size a)
    (tbl : A.view.ty.Contents (Elt F)) (j : S100000x128.Idx) :
    (A.slice (Rect.unit (s := S100000x128) ![0, 0] S100000x128.size p) (fun _ => rfl)).view.read (Elt F) tbl j = A.view.read (Elt F) tbl j := by
  rw [View.read_apply, View.read_apply]
  show _root_.cast _ (tbl (A.view.emb ((Rect.unit (s := S100000x128) ![0, 0] S100000x128.size p).emb j))) = _
  congr 3
  funext a
  match a with
  | ⟨0, _⟩ => exact Fin.ext (show 0 + 1 * (j 0).val = (j 0).val by omega)
  | ⟨1, _⟩ => exact Fin.ext (show 0 + 1 * (j 1).val = (j 1).val by omega)

/-- A slot written with a gather's rows, read at (b, s, x): the table at the row the list's word 16·c + s names. -/
theorem gathered_read (B : Memref sig .scVector .vmem S8x16x128 .f32) (b : ℕ) (hb : b < 8) (g : B.view.ty.Contents (Elt F))
    (A : Memref sig .scVector .hbm S100000x128 .f32) (p : ∀ a, (![0, 0] : Fin 2 → Nat) a + S100000x128.size a ≤ S100000x128.size a)
    (tbl : A.view.ty.Contents (Elt F)) (Lm : Memref sig .scVector .vmem S512 .i32) (c : ℕ) (hc : c < 32) (lands : Lm.view.ty.Contents (Elt F))
    (hg : S100000x128.Gathers 0 S16x128) (hn : S16.numel = S16x128.size hg.axis')
    (hin : ∀ x, ((winOf Lm c hc).view.read (Elt F) lands x).toNat < S100000x128.size hg.axis) (s : Fin 16) (x : Fin 128)
    (hlt : (Lm.view.read (Elt F) lands (ix1 (⟨16 * c + s.val, by omega⟩ : Fin 512))).toNat < 100000) :
    B.view.read (Elt F) ((slotOf B b hb).view.write (Elt F) g
        (gatherPayload hg ((A.slice (Rect.unit (s := S100000x128) ![0, 0] S100000x128.size p) (fun _ => rfl)).view.read (Elt F) tbl)
          (rows ((winOf Lm c hc).view.read (Elt F) lands) hn hin)) Finset.univ) (ix3 (⟨b, hb⟩ : Fin 8) s x)
      = A.view.read (Elt F) tbl (ix2 (⟨(Lm.view.read (Elt F) lands (ix1 (⟨16 * c + s.val, by omega⟩ : Fin 512))).toNat, hlt⟩ : Fin 100000) x) := by
  rw [slot_write_read, gatherPayload_apply, table_read]
  congr 1
  funext a
  match a with
  | ⟨0, _⟩ => exact Fin.ext (congrArg BitVec.toNat (win_read Lm c hc lands (ix1 s)))
  | ⟨1, _⟩ => rfl

/-! ## The lists' words, and the gathered rows as table rows of the sample -/

section Lists
variable (m : (ℓ : Loc nD τ sig) → Buf (Elt F) ℓ) (d : Dev nD) (L : grid0.Coords)

local notation "hidxW" => (Memref.whole Cert.Kernel.cc0_scratch0 : Memref Cert.Kernel.sig Kind.scVector Space.vmem Cert.Kernel.S512 EltTy.i32)
local notation "ridxW" => (Memref.whole Cert.Kernel.cc0_scratch1 : Memref Cert.Kernel.sig Kind.scVector Space.vmem Cert.Kernel.S512 EltTy.i32)
local notation "tidxW" => (Memref.whole Cert.Kernel.cc0_scratch2 : Memref Cert.Kernel.sig Kind.scVector Space.vmem Cert.Kernel.S512 EltTy.i32)
local notation "entW" => (Memref.whole Cert.Kernel.main_arg1_scv : Memref Cert.Kernel.sig Kind.scVector Space.hbm Cert.Kernel.S100000x128 EltTy.f32)
local notation "relW" => (Memref.whole Cert.Kernel.main_arg2_scv : Memref Cert.Kernel.sig Kind.scVector Space.hbm Cert.Kernel.S100000x128 EltTy.f32)

/-- Word i of worker t's 512 rows is row 512·t + i. -/
theorem tile_word (i : ℕ) (hi : i < 512) :
    (Rect.unit (s := S16384) (k0_off1 L) S512.size (k0_off1_inb L)).emb (ix1 (⟨i, hi⟩ : Fin 512))
      = ix1 (⟨512 * (tL L).val + i, by have := (tL L).isLt; omega⟩ : Fin 16384) := by
  funext a
  match a with
  | ⟨0, _⟩ =>
    apply Fin.ext
    show k0_off1 L 0 + 1 * i = 512 * (tL L).val + i
    rw [off1_tile]
    show 512 * (tL L).val + 1 * i = 512 * (tL L).val + i
    omega

theorem landsH_apply (f0 : Buf (Elt F) ((thrL d L).loc cc0_scratch0)) (i : ℕ) (hi : i < 512) :
    (landsH m d L f0 : S512.Idx → BitVec 32) (ix1 (⟨i, hi⟩ : Fin 512))
      = col m d 0 (ix1 (⟨512 * (tL L).val + i, by have := (tL L).isLt; omega⟩ : Fin 16384)) := by
  have e : landsH m d L f0 = ReadAs.same.apply ((hSl L).view.read (Elt F) (col m d 0 : Buf (Elt F) (hLoc d))) := View.write_whole_univ _ _ _
  rw [e]
  show (hSl L).view.read (Elt F) (col m d 0 : Buf (Elt F) (hLoc d)) (ix1 (⟨i, hi⟩ : Fin 512)) = _
  show col m d 0 ((Rect.unit (s := S16384) (k0_off1 L) S512.size (k0_off1_inb L)).emb (ix1 (⟨i, hi⟩ : Fin 512))) = _
  rw [tile_word L i hi]
theorem landsR_apply (f1 : Buf (Elt F) ((thrL d L).loc cc0_scratch1)) (i : ℕ) (hi : i < 512) :
    (landsR m d L f1 : S512.Idx → BitVec 32) (ix1 (⟨i, hi⟩ : Fin 512))
      = col m d 1 (ix1 (⟨512 * (tL L).val + i, by have := (tL L).isLt; omega⟩ : Fin 16384)) := by
  have e : landsR m d L f1 = ReadAs.same.apply ((rSl L).view.read (Elt F) (col m d 1 : Buf (Elt F) (rLoc d))) := View.write_whole_univ _ _ _
  rw [e]
  show (rSl L).view.read (Elt F) (col m d 1 : Buf (Elt F) (rLoc d)) (ix1 (⟨i, hi⟩ : Fin 512)) = _
  show col m d 1 ((Rect.unit (s := S16384) (k0_off1 L) S512.size (k0_off1_inb L)).emb (ix1 (⟨i, hi⟩ : Fin 512))) = _
  rw [tile_word L i hi]
theorem landsT_apply (f2 : Buf (Elt F) ((thrL d L).loc cc0_scratch2)) (i : ℕ) (hi : i < 512) :
    (landsT m d L f2 : S512.Idx → BitVec 32) (ix1 (⟨i, hi⟩ : Fin 512))
      = col m d 2 (ix1 (⟨512 * (tL L).val + i, by have := (tL L).isLt; omega⟩ : Fin 16384)) := by
  have e : landsT m d L f2 = ReadAs.same.apply ((tSl L).view.read (Elt F) (col m d 2 : Buf (Elt F) (tLoc d))) := View.write_whole_univ _ _ _
  rw [e]
  show (tSl L).view.read (Elt F) (col m d 2 : Buf (Elt F) (tLoc d)) (ix1 (⟨i, hi⟩ : Fin 512)) = _
  show col m d 2 ((Rect.unit (s := S16384) (k0_off1 L) S512.size (k0_off1_inb L)).emb (ix1 (⟨i, hi⟩ : Fin 512))) = _
  rw [tile_word L i hi]

end Lists

section Gathered
variable (m : (ℓ : Loc nD τ sig) → Buf (Elt F) ℓ) (d : Dev nD) (L : grid0.Coords)

local notation "hidxW" => (Memref.whole Cert.Kernel.cc0_scratch0 : Memref Cert.Kernel.sig Kind.scVector Space.vmem Cert.Kernel.S512 EltTy.i32)
local notation "ridxW" => (Memref.whole Cert.Kernel.cc0_scratch1 : Memref Cert.Kernel.sig Kind.scVector Space.vmem Cert.Kernel.S512 EltTy.i32)
local notation "tidxW" => (Memref.whole Cert.Kernel.cc0_scratch2 : Memref Cert.Kernel.sig Kind.scVector Space.vmem Cert.Kernel.S512 EltTy.i32)
local notation "entW" => (Memref.whole Cert.Kernel.main_arg1_scv : Memref Cert.Kernel.sig Kind.scVector Space.hbm Cert.Kernel.S100000x128 EltTy.f32)
local notation "relW" => (Memref.whole Cert.Kernel.main_arg2_scv : Memref Cert.Kernel.sig Kind.scVector Space.hbm Cert.Kernel.S100000x128 EltTy.f32)

/-- Slot b of a row buffer after chunk c's gather through the entity table off the head list: at (b, s, x) the table's
    row named by column 0 of `sample` at the worker's row 16·c + s, column x. -/
theorem gathered_H (hpre : RangeOK m) (B : Memref sig .scVector .vmem S8x16x128 .f32) (b : ℕ) (hb : b < 8) (g : B.view.ty.Contents (Elt F))
    (p : ∀ a, (![0, 0] : Fin 2 → Nat) a + S100000x128.size a ≤ S100000x128.size a) (c : ℕ) (hc : c < 32)
    (f0 : Buf (Elt F) ((thrL d L).loc cc0_scratch0)) (hg : S100000x128.Gathers 0 S16x128) (hn : S16.numel = S16x128.size hg.axis')
    (hin : ∀ x, ((winOf hidxW c hc).view.read (Elt F) (landsH m d L f0) x).toNat < S100000x128.size hg.axis) (s : Fin 16) (x : Fin 128) :
    B.view.read (Elt F) ((slotOf B b hb).view.write (Elt F) g
        (gatherPayload hg (((entW).slice (Rect.unit (s := S100000x128) ![0, 0] S100000x128.size p) (fun _ => rfl)).view.read (Elt F) (m (entLoc d)))
          (rows ((winOf hidxW c hc).view.read (Elt F) (landsH m d L f0)) hn hin)) Finset.univ) (ix3 (⟨b, hb⟩ : Fin 8) s x)
      = (m (entLoc d) : S100000x128.Idx → F .f32) (ix2 (Cert.Score.rowIx (col m d 0
          (ix1 (⟨512 * (tL L).val + (16 * c + s.val), by have := (tL L).isLt; omega⟩ : Fin 16384)))) x) := by
  have hw := landsH_apply m d L f0 (16 * c + s.val) (by omega)
  have hlt : ((hidxW).view.read (Elt F) (landsH m d L f0) (ix1 (⟨16 * c + s.val, by omega⟩ : Fin 512))).toNat < 100000 := by
    show ((landsH m d L f0 : S512.Idx → BitVec 32) (ix1 (⟨16 * c + s.val, by omega⟩ : Fin 512))).toNat < 100000
    rw [hw]; exact hpre d 0 _
  rw [gathered_read B b hb g entW p (m (entLoc d)) hidxW c hc (landsH m d L f0) hg hn hin s x hlt]
  show (m (entLoc d) : S100000x128.Idx → F .f32) _ = _
  congr 1
  funext a
  match a with
  | ⟨0, _⟩ =>
    apply Fin.ext
    show ((landsH m d L f0 : S512.Idx → BitVec 32) (ix1 (⟨16 * c + s.val, by omega⟩ : Fin 512))).toNat = _
    rw [hw, Cert.Score.rowIx_of_lt (hpre d 0 _)]
  | ⟨1, _⟩ => rfl

/-- Slot b of a row buffer after chunk c's gather through the relation table off the relation list: at (b, s, x) the table's
    row named by column 1 of `sample` at the worker's row 16·c + s, column x. -/
theorem gathered_R (hpre : RangeOK m) (B : Memref sig .scVector .vmem S8x16x128 .f32) (b : ℕ) (hb : b < 8) (g : B.view.ty.Contents (Elt F))
    (p : ∀ a, (![0, 0] : Fin 2 → Nat) a + S100000x128.size a ≤ S100000x128.size a) (c : ℕ) (hc : c < 32)
    (f1 : Buf (Elt F) ((thrL d L).loc cc0_scratch1)) (hg : S100000x128.Gathers 0 S16x128) (hn : S16.numel = S16x128.size hg.axis')
    (hin : ∀ x, ((winOf ridxW c hc).view.read (Elt F) (landsR m d L f1) x).toNat < S100000x128.size hg.axis) (s : Fin 16) (x : Fin 128) :
    B.view.read (Elt F) ((slotOf B b hb).view.write (Elt F) g
        (gatherPayload hg (((relW).slice (Rect.unit (s := S100000x128) ![0, 0] S100000x128.size p) (fun _ => rfl)).view.read (Elt F) (m (relLoc d)))
          (rows ((winOf ridxW c hc).view.read (Elt F) (landsR m d L f1)) hn hin)) Finset.univ) (ix3 (⟨b, hb⟩ : Fin 8) s x)
      = (m (relLoc d) : S100000x128.Idx → F .f32) (ix2 (Cert.Score.rowIx (col m d 1
          (ix1 (⟨512 * (tL L).val + (16 * c + s.val), by have := (tL L).isLt; omega⟩ : Fin 16384)))) x) := by
  have hw := landsR_apply m d L f1 (16 * c + s.val) (by omega)
  have hlt : ((ridxW).view.read (Elt F) (landsR m d L f1) (ix1 (⟨16 * c + s.val, by omega⟩ : Fin 512))).toNat < 100000 := by
    show ((landsR m d L f1 : S512.Idx → BitVec 32) (ix1 (⟨16 * c + s.val, by omega⟩ : Fin 512))).toNat < 100000
    rw [hw]; exact hpre d 1 _
  rw [gathered_read B b hb g relW p (m (relLoc d)) ridxW c hc (landsR m d L f1) hg hn hin s x hlt]
  show (m (relLoc d) : S100000x128.Idx → F .f32) _ = _
  congr 1
  funext a
  match a with
  | ⟨0, _⟩ =>
    apply Fin.ext
    show ((landsR m d L f1 : S512.Idx → BitVec 32) (ix1 (⟨16 * c + s.val, by omega⟩ : Fin 512))).toNat = _
    rw [hw, Cert.Score.rowIx_of_lt (hpre d 1 _)]
  | ⟨1, _⟩ => rfl

/-- Slot b of a row buffer after chunk c's gather through the entity table off the tail list: at (b, s, x) the table's
    row named by column 2 of `sample` at the worker's row 16·c + s, column x. -/
theorem gathered_T (hpre : RangeOK m) (B : Memref sig .scVector .vmem S8x16x128 .f32) (b : ℕ) (hb : b < 8) (g : B.view.ty.Contents (Elt F))
    (p : ∀ a, (![0, 0] : Fin 2 → Nat) a + S100000x128.size a ≤ S100000x128.size a) (c : ℕ) (hc : c < 32)
    (f2 : Buf (Elt F) ((thrL d L).loc cc0_scratch2)) (hg : S100000x128.Gathers 0 S16x128) (hn : S16.numel = S16x128.size hg.axis')
    (hin : ∀ x, ((winOf tidxW c hc).view.read (Elt F) (landsT m d L f2) x).toNat < S100000x128.size hg.axis) (s : Fin 16) (x : Fin 128) :
    B.view.read (Elt F) ((slotOf B b hb).view.write (Elt F) g
        (gatherPayload hg (((entW).slice (Rect.unit (s := S100000x128) ![0, 0] S100000x128.size p) (fun _ => rfl)).view.read (Elt F) (m (entLoc d)))
          (rows ((winOf tidxW c hc).view.read (Elt F) (landsT m d L f2)) hn hin)) Finset.univ) (ix3 (⟨b, hb⟩ : Fin 8) s x)
      = (m (entLoc d) : S100000x128.Idx → F .f32) (ix2 (Cert.Score.rowIx (col m d 2
          (ix1 (⟨512 * (tL L).val + (16 * c + s.val), by have := (tL L).isLt; omega⟩ : Fin 16384)))) x) := by
  have hw := landsT_apply m d L f2 (16 * c + s.val) (by omega)
  have hlt : ((tidxW).view.read (Elt F) (landsT m d L f2) (ix1 (⟨16 * c + s.val, by omega⟩ : Fin 512))).toNat < 100000 := by
    show ((landsT m d L f2 : S512.Idx → BitVec 32) (ix1 (⟨16 * c + s.val, by omega⟩ : Fin 512))).toNat < 100000
    rw [hw]; exact hpre d 2 _
  rw [gathered_read B b hb g entW p (m (entLoc d)) tidxW c hc (landsT m d L f2) hg hn hin s x hlt]
  show (m (entLoc d) : S100000x128.Idx → F .f32) _ = _
  congr 1
  funext a
  match a with
  | ⟨0, _⟩ =>
    apply Fin.ext
    show ((landsT m d L f2 : S512.Idx → BitVec 32) (ix1 (⟨16 * c + s.val, by omega⟩ : Fin 512))).toNat = _
    rw [hw, Cert.Score.rowIx_of_lt (hpre d 2 _)]
  | ⟨1, _⟩ => rfl

end Gathered

/-! ## The 256-word scratch: sixteen rows stored, read back transposed -/

/-- An indexed load reads, at a lane whose index word is n, the buffer's element n. -/
theorem loadIdx_lane (f : S256.Idx → Elt F .f32) (idx : IVec S16 32) (h : ∀ a x, ((![idx] : Fin 1 → IVec S16 32) a x).toNat < S256.size a)
    (x : S16.Idx) (n : ℕ) (hn : n < 256) (hv : (idx x).toNat = n) : loadIdx f ![idx] h x = f (ix1 (⟨n, hn⟩ : Fin 256)) := by
  unfold loadIdx
  congr 1
  funext a
  match a with
  | ⟨0, _⟩ => exact Fin.ext hv

/-- After sixteen 16-word rows are stored at offsets 0, 16, …, 240 (row i last-but-(15 - i)), word 16·s + l is row s's word l. -/
theorem read_rows16 {κ : Kind} {sp : Space} (v : View sig κ sp S256 .f32) (f : v.ty.Contents (Elt F))
    (inb : ∀ (i : Fin 16) a, (![16 * i.val] : Fin 1 → ℕ) a + S16.size a ≤ S256.size a) (P : Fin 16 → S16.Idx → Elt F .f32) (s l : Fin 16) :
    v.read (Elt F) (v.writes (Elt F) f (View.tilePieces S16.size (fun i : Fin 16 => ![16 * i.val]) inb P 16 le_rfl))
        (ix1 (⟨16 * s.val + l.val, by omega⟩ : Fin 256)) = P s (ix1 l) :=
  View.read_tilePieces v f S16.size _ inb P 16 le_rfl _ s s.isLt (ix1 l) (fun a => by match a with | ⟨0, _⟩ => rfl) 0 (fun i' hne => by
    have hv : i'.val ≠ s.val := fun h => hne (Fin.ext h)
    show 16 * s.val + l.val < 16 * i'.val ∨ 16 * i'.val + 16 ≤ 16 * s.val + l.val
    omega)

/-- The transposed read: the j-th indexed load, whose lane x names word 16·x + j, reads row x's word j. -/
theorem transposed_read {κ : Kind} {sp : Space} (v : View sig κ sp S256 .f32) (f : v.ty.Contents (Elt F))
    (inb : ∀ (i : Fin 16) a, (![16 * i.val] : Fin 1 → ℕ) a + S16.size a ≤ S256.size a) (P : Fin 16 → S16.Idx → Elt F .f32)
    (idx : IVec S16 32) (h : ∀ a x, ((![idx] : Fin 1 → IVec S16 32) a x).toNat < S256.size a) (x : S16.Idx) (j : ℕ) (hj : j < 16)
    (hv : (idx x).toNat = 16 * (x 0).val + j) :
    loadIdx (v.read (Elt F) (v.writes (Elt F) f (View.tilePieces S16.size (fun i : Fin 16 => ![16 * i.val]) inb P 16 le_rfl))) ![idx] h x
      = P (x 0) (ix1 (⟨j, hj⟩ : Fin 16)) := by
  have h16 : (x 0).val < 16 := (x 0).isLt
  rw [loadIdx_lane _ idx h x (16 * (x 0).val + j) (by omega) hv]
  exact read_rows16 v f inb P (x 0) ⟨j, hj⟩

end Cert.Proof.KB

end
-- ==== Proof.KB.Landed.lean ====
/-
  What a landed gather hands back, in the loop invariant's words.

  The gather's delivery is the slot written, in one whole-rectangle write, with the gather's payload, beside the list
  window it read. Read through the slot's own view that write is the payload itself: at (s, x) the table at the row the
  window's word s names, column x. The window holds chunk c's words of a column of `sample`, each below 100000 by the
  range hypothesis, so the row is the one the reference clamps to, unclamped.
-/
import proofs.«209583_g49984829390938_cont_8to1c4_457_35_alg».proof.Proof.KB.LoopInv
import proofs.«209583_g49984829390938_cont_8to1c4_457_35_alg».proof.Proof.KB.SlotRead

noncomputable section

namespace Cert.Proof.KB

open Cert.Kernel Cert.Kernel.Gen

open Idealize.ShloMosaic Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-- One whole-rectangle write, read through the same view, is the payload. -/
theorem read_whole_write {κ : Kind} {sp : Space} {s : Shape} {e : EltTy} (v : View sig κ sp s e) (f : v.ty.Contents (Elt F))
    (w : (Rect.whole s).shape.Idx → Elt F e) (y : s.Idx) :
    v.read (Elt F) (v.writes (Elt F) f [⟨Rect.whole s, w⟩]) y = w y :=
  View.read_writes_cons_unit_of_mem v f (fun _ => by simp) w [] y y rfl fun a => (Nat.zero_add _).symm

/-- The landed slot read at (s, x): the table at the row column `kX` of the sample names for chunk c's row s. -/
theorem landed_read (hpre : RangeOK m) (kX : Fin 3) (c : ℕ) (Ms : Memref sig .scVector .vmem S16x128 .f32)
    (Mw : Memref sig .scVector .vmem S16 .i32) (A : Memref sig .scVector .hbm S100000x128 .f32)
    (p : ∀ a, (![0, 0] : Fin 2 → Nat) a + S100000x128.size a ≤ S100000x128.size a) (tbl : A.view.ty.Contents (Elt F))
    (G : Ms.view.ty.Contents (Elt F)) (fw : Mw.view.ty.Contents (Elt F)) (hg : S100000x128.Gathers 0 S16x128)
    (hn : S16.numel = S16x128.size hg.axis') (hin : ∀ x, (Mw.view.read (Elt F) fw x).toNat < S100000x128.size hg.axis)
    (hfw : ∀ z : S16.Idx, Mw.view.read (Elt F) fw z = col m d kX (ix1 (rowN L c (z 0).val))) (s : Fin 16) (x : Fin 128) :
    Ms.view.read (Elt F) (Ms.view.writes (Elt F) G [⟨Rect.whole S16x128,
        gatherPayload hg ((A.slice (Rect.unit (s := S100000x128) ![0, 0] S100000x128.size p) (fun _ => rfl)).view.read (Elt F) tbl)
          (rows (Mw.view.read (Elt F) fw) hn hin)⟩]) (ix2 s x)
      = A.view.read (Elt F) tbl (ix2 (Cert.Score.rowIx (col m d kX (ix1 (rowN L c s.val)))) x) := by
  rw [read_whole_write, gatherPayload_apply, table_read]
  congr 1
  funext a
  match a with
  | ⟨0, _⟩ =>
    apply Fin.ext
    show (Mw.view.read (Elt F) fw (ix1 s)).toNat = _
    rw [hfw (ix1 s), Cert.Score.rowIx_of_lt (hpre d kX _)]
  | ⟨1, _⟩ => rfl

/-- A gather's delivery is the slot holding chunk c's table rows and the window holding its words. -/
theorem landed (hpre : RangeOK m) (kX : Fin 3) (c : ℕ) (Ms : Memref sig .scVector .vmem S16x128 .f32)
    (Mw : Memref sig .scVector .vmem S16 .i32) (A : Memref sig .scVector .hbm S100000x128 .f32)
    (p : ∀ a, (![0, 0] : Fin 2 → Nat) a + S100000x128.size a ≤ S100000x128.size a) (tbl : A.view.ty.Contents (Elt F))
    (G : Buf (Elt F) (Ms.view.loc (thrL d L))) (fw : Buf (Elt F) (Mw.view.loc (thrL d L))) (hg : S100000x128.Gathers 0 S16x128)
    (hn : S16.numel = S16x128.size hg.axis') (hin : ∀ x, (Mw.view.read (Elt F) fw x).toNat < S100000x128.size hg.axis) (Tk : sProp 𝕄)
    (hfw : ∀ z : S16.Idx, Mw.view.read (Elt F) fw z = col m d kX (ix1 (rowN L c (z 0).val))) :
    iprop(((Ms.view.loc (thrL d L) ↦[Ms.view.set]{fullShare} Ms.view.writes (Elt F) G [⟨Rect.whole S16x128,
            gatherPayload hg ((A.slice (Rect.unit (s := S100000x128) ![0, 0] S100000x128.size p) (fun _ => rfl)).view.read (Elt F) tbl)
              (rows (Mw.view.read (Elt F) fw) hn hin)⟩])
          ∗ (Mw.view.loc (thrL d L) ↦[Mw.view.set]{fullShare} fw)) ∗ Tk)
      ⊢ iprop((slotHolds m d L (A.view.read (Elt F) tbl) kX c Ms ∗ winHolds m d L kX c Mw) ∗ Tk) := by
  iintro ⟨⟨Hs, Hw⟩, Ht⟩
  isplitr [Ht]
  · isplitl [Hs]
    · unfold slotHolds
      iexists _
      isplitr
      · ipureintro
        exact fun s x => landed_read m d L hpre kX c Ms Mw A p tbl G fw hg hn hin hfw s x
      · iexact Hs
    · unfold winHolds
      iexists fw
      isplitr
      · ipureintro
        exact hfw
      · iexact Hw
  · iexact Ht

/-- The same for the entity table, whole. -/
theorem landed_ent (hpre : RangeOK m) (kX : Fin 3) (c : ℕ) (Ms : Memref sig .scVector .vmem S16x128 .f32)
    (Mw : Memref sig .scVector .vmem S16 .i32) (p : ∀ a, (![0, 0] : Fin 2 → Nat) a + S100000x128.size a ≤ S100000x128.size a)
    (G : Buf (Elt F) (Ms.view.loc (thrL d L))) (fw : Buf (Elt F) (Mw.view.loc (thrL d L))) (hg : S100000x128.Gathers 0 S16x128)
    (hn : S16.numel = S16x128.size hg.axis') (hin : ∀ x, (Mw.view.read (Elt F) fw x).toNat < S100000x128.size hg.axis) (Tk : sProp 𝕄)
    (hfw : ∀ z : S16.Idx, Mw.view.read (Elt F) fw z = col m d kX (ix1 (rowN L c (z 0).val))) :
    iprop(((Ms.view.loc (thrL d L) ↦[Ms.view.set]{fullShare} Ms.view.writes (Elt F) G [⟨Rect.whole S16x128,
            gatherPayload hg (((Memref.whole main_arg1_scv : Memref sig .scVector .hbm S100000x128 .f32).slice
                (Rect.unit (s := S100000x128) ![0, 0] S100000x128.size p) (fun _ => rfl)).view.read (Elt F) (m (entLoc d)))
              (rows (Mw.view.read (Elt F) fw) hn hin)⟩])
          ∗ (Mw.view.loc (thrL d L) ↦[Mw.view.set]{fullShare} fw)) ∗ Tk)
      ⊢ iprop((slotHolds m d L (m (entLoc d) : S100000x128.Idx → F .f32) kX c Ms ∗ winHolds m d L kX c Mw) ∗ Tk) :=
  landed m d L hpre kX c Ms Mw (Memref.whole main_arg1_scv : Memref sig .scVector .hbm S100000x128 .f32) p (m (entLoc d)) G fw hg hn hin Tk hfw

/-- The same for the relation table, whole. -/
theorem landed_rel (hpre : RangeOK m) (kX : Fin 3) (c : ℕ) (Ms : Memref sig .scVector .vmem S16x128 .f32)
    (Mw : Memref sig .scVector .vmem S16 .i32) (p : ∀ a, (![0, 0] : Fin 2 → Nat) a + S100000x128.size a ≤ S100000x128.size a)
    (G : Buf (Elt F) (Ms.view.loc (thrL d L))) (fw : Buf (Elt F) (Mw.view.loc (thrL d L))) (hg : S100000x128.Gathers 0 S16x128)
    (hn : S16.numel = S16x128.size hg.axis') (hin : ∀ x, (Mw.view.read (Elt F) fw x).toNat < S100000x128.size hg.axis) (Tk : sProp 𝕄)
    (hfw : ∀ z : S16.Idx, Mw.view.read (Elt F) fw z = col m d kX (ix1 (rowN L c (z 0).val))) :
    iprop(((Ms.view.loc (thrL d L) ↦[Ms.view.set]{fullShare} Ms.view.writes (Elt F) G [⟨Rect.whole S16x128,
            gatherPayload hg (((Memref.whole main_arg2_scv : Memref sig .scVector .hbm S100000x128 .f32).slice
                (Rect.unit (s := S100000x128) ![0, 0] S100000x128.size p) (fun _ => rfl)).view.read (Elt F) (m (relLoc d)))
              (rows (Mw.view.read (Elt F) fw) hn hin)⟩])
          ∗ (Mw.view.loc (thrL d L) ↦[Mw.view.set]{fullShare} fw)) ∗ Tk)
      ⊢ iprop((slotHolds m d L (m (relLoc d) : S100000x128.Idx → F .f32) kX c Ms ∗ winHolds m d L kX c Mw) ∗ Tk) :=
  landed m d L hpre kX c Ms Mw (Memref.whole main_arg2_scv : Memref sig .scVector .hbm S100000x128 .f32) p (m (relLoc d)) G fw hg hn hin Tk hfw

end Cert.Proof.KB

end
-- ==== Proof.KB.ScoreStep.lean ====
/-
  The score scratch across the counted loop. After k trips its first 16k words are the kernel's sums for the worker's rows
  0 … 16k − 1; trip k stores the sixteen sums of chunk k at words 16k … 16k + 15 and leaves every other word alone, so after
  it the first 16 (k + 1) words are right; after the 32nd trip all 512 are.
-/
import proofs.«209583_g49984829390938_cont_8to1c4_457_35_alg».proof.Proof.KB.LoopInv
import proofs.«209583_g49984829390938_cont_8to1c4_457_35_alg».proof.Proof.KB.SlotRead
import proofs.«209583_g49984829390938_cont_8to1c4_457_35_alg».proof.Proof.KB.TileOwn
import Idealize.ShloMosaic.Lib.Writes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-- Before any trip nothing is claimed of the score scratch. -/
theorem score_zero [FloatOps F] (g : S512.Idx → F .f32) : ScoreHolds m d L 0 g := by
  intro i hi
  omega

/-- Row 16k + s of the worker, counted from chunk 0, is row s of chunk k. -/
theorem rowN_chunk (k s : ℕ) : rowN L 0 (16 * k + s) = rowN L k s := by
  apply Fin.ext
  show (512 * (tL L).val + 16 * 0 + (16 * k + s)) % 16384 = (512 * (tL L).val + 16 * k + s) % 16384
  congr 1
  omega

/-- One trip: the sixteen sums of chunk k stored at words 16k … 16k + 15 over contents that hold the first 16k words give
    contents that hold the first 16 (k + 1). A word before 16k lies outside the stored rectangle and keeps its value; a word
    16k + s inside it reads the stored vector's lane s, the sum for the worker's row 16k + s. -/
theorem score_step [FloatOps F] (k : Fin k0_t1_loop.trips)
    (g : Buf (Elt F) ((Memref.whole cc0_scratch7 : Memref sig .scVector .vmem S512 .f32).view.loc (thrL d L))) (V : S16.Idx → F .f32)
    (hg : ScoreHolds m d L k.val g) (hV : ∀ s : S16.Idx, V s = kout m d (ix1 (rowN L k.val (s 0).val))) :
    ScoreHolds m d L (k.val + 1)
      ((Memref.whole cc0_scratch7 : Memref sig .scVector .vmem S512 .f32).view.writes (Elt F) g [⟨Rect.unit (s := S512) (k0_off137 k) S16.size (k0_off137_inb k), V⟩]) := by
  intro i hi
  have hk := trip_lt k
  have hoff : k0_off137 k 0 = 16 * k.val := congrFun (k0_off137_eq k) 0
  by_cases hlt : i.val < 16 * k.val
  · -- before the stored words: the prior contents
    have hnot : ∀ p ∈ ([⟨Rect.unit (s := S512) (k0_off137 k) S16.size (k0_off137_inb k), V⟩] : List (View.Piece (Elt F) S512 .f32)),
        (ix1 i : S512.Idx) ∉ p.1.set := by
      intro p hp
      rw [List.mem_singleton] at hp
      subst hp
      intro hmem
      have hmem' : (ix1 i : S512.Idx) ∈ (Rect.unit (s := S512) (k0_off137 k) S16.size (k0_off137_inb k)).set := hmem
      have h0 := (Rect.mem_set_unit.mp hmem') 0
      have h1 : k0_off137 k 0 ≤ i.val ∧ i.val < k0_off137 k 0 + 16 := h0
      rw [hoff] at h1
      omega
    have hread := View.read_writes_apply_of_forall_not_mem (Memref.whole cc0_scratch7 : Memref sig .scVector .vmem S512 .f32).view g (ix1 i) _ hnot
    exact hread.trans (hg i hlt)
  · -- among the stored words: lane i - 16k of the stored vector
    have hs : i.val - 16 * k.val < 16 := by omega
    have hemb : (Rect.unit (s := S512) (k0_off137 k) S16.size (k0_off137_inb k)).emb (ix1 (⟨i.val - 16 * k.val, hs⟩ : Fin 16)) = ix1 i := by
      funext a
      match a with
      | ⟨0, _⟩ =>
        apply Fin.ext
        show k0_off137 k 0 + 1 * (i.val - 16 * k.val) = i.val
        rw [hoff]
        omega
    have hread := View.read_writes_cons_emb (Memref.whole cc0_scratch7 : Memref sig .scVector .vmem S512 .f32).view g (Rect.unit (s := S512) (k0_off137 k) S16.size (k0_off137_inb k)) V []
      (ix1 (⟨i.val - 16 * k.val, hs⟩ : Fin 16))
    rw [hemb] at hread
    refine hread.trans ((hV _).trans ?_)
    show kout m d (ix1 (rowN L k.val (i.val - 16 * k.val))) = kout m d (ix1 (rowN L 0 i.val))
    rw [← rowN_chunk L k.val (i.val - 16 * k.val)]
    refine congrArg (fun n : ℕ => kout m d (ix1 (rowN L 0 n))) ?_
    omega

/-- After the last trip every word of the score scratch is the kernel's sum for the worker's row. -/
theorem score_all [FloatOps F] (g : S512.Idx → F .f32) (hg : ScoreHolds m d L 32 g) :
    ∀ i : Fin 512, g (ix1 i) = kout m d (ix1 (⟨512 * (tL L).val + i.val, by have := (tL L).isLt; have := i.isLt; omega⟩ : Fin 16384)) := by
  intro i
  have ht := (tL L).isLt
  have hi := i.isLt
  rw [hg i (by omega)]
  refine congrArg (fun n : Fin 16384 => kout m d (ix1 n)) (Fin.ext ?_)
  show (512 * (tL L).val + 16 * 0 + i.val) % 16384 = 512 * (tL L).val + i.val
  rw [Nat.mod_eq_of_lt (by omega)]
  omega

end Tile
end Cert.Proof.KB
end
-- ==== Proof.KB.Checks.lean ====
/-
  The sixteen gathers out of the partial-sum buffer read inside it.

  The j-th gather's index vector is the lane numbers times sixteen plus j, on 32-bit words: lane x of it is 16·x + j, with no
  wrap since x, j < 16. So every index is below 256, the buffer's length.
-/
import proofs.«209583_g49984829390938_cont_8to1c4_457_35_alg».proof.Proof.Gen.Kernel.Skeleton

noncomputable section

namespace Cert.Proof.KB

open Cert.Kernel Cert.Kernel.Gen

open Idealize.ShloMosaic

/-- The lane numbers 0, …, 15. -/
local notation "lanes" => (iota Kind.scVector S16 32 [0] Facts₀.iota_S16_d0_w32_scVector : IVec S16 32)

/-- Lane x of (lane numbers · 16 + j) is 16·x + j. -/
theorem idx_val (h : S16.Iotas .scVector 32 [0]) (j : Nat) (hj : j < 16) (x : S16.Idx) :
    ((addi (muli (iota .scVector S16 32 [0] h) (broadcast S16 16#32)) (broadcast S16 (BitVec.ofNat 32 j))) x).toNat
      = 16 * (x 0).val + j := by
  have hx : (x 0).val < 16 := (x 0).isLt
  show (BitVec.ofNat 32 (0 * 16 + (x 0).val) * 16#32 + BitVec.ofNat 32 j).toNat = _
  simp only [BitVec.toNat_add, BitVec.toNat_mul, BitVec.toNat_ofNat, Nat.reducePow, Nat.zero_mul, Nat.zero_add]
  omega

theorem idx_lt (h : S16.Iotas .scVector 32 [0]) (j : Nat) (hj : j < 16) (x : S16.Idx) :
    ((addi (muli (iota .scVector S16 32 [0] h) (broadcast S16 16#32)) (broadcast S16 (BitVec.ofNat 32 j))) x).toNat < 256 := by
  have hx : (x 0).val < 16 := (x 0).isLt
  rw [idx_val h j hj x]
  omega

/-- One index vector whose lanes are all below 256 names elements of the 256-long buffer. -/
theorem inb_of_lt (v : IVec S16 32) (h : ∀ x, (v x).toNat < 256) :
    ∀ (a : Fin 1) (x : S16.Idx), ((![v] : Fin 1 → IVec S16 32) a x).toNat < S256.size a := by
  intro a x
  match a with
  | ⟨0, _⟩ => exact h x

/-- Gather 1 reads lane x at 16·x + 0. -/
theorem val1 (x : S16.Idx) : ((k0_pay174 lanes) x).toNat = 16 * (x 0).val + 0 := idx_val _ 0 (by decide) x
theorem chk1 : k0_chk1 (k0_pay174 lanes) := inb_of_lt _ fun x => idx_lt _ 0 (by decide) x

/-- Gather 2 reads lane x at 16·x + 1. -/
theorem val2 (x : S16.Idx) : ((k0_pay175 lanes) x).toNat = 16 * (x 0).val + 1 := idx_val _ 1 (by decide) x
theorem chk2 : k0_chk2 (k0_pay175 lanes) := inb_of_lt _ fun x => idx_lt _ 1 (by decide) x

/-- Gather 3 reads lane x at 16·x + 2. -/
theorem val3 (x : S16.Idx) : ((k0_pay176 lanes) x).toNat = 16 * (x 0).val + 2 := idx_val _ 2 (by decide) x
theorem chk3 : k0_chk3 (k0_pay176 lanes) := inb_of_lt _ fun x => idx_lt _ 2 (by decide) x

/-- Gather 4 reads lane x at 16·x + 3. -/
theorem val4 (x : S16.Idx) : ((k0_pay177 lanes) x).toNat = 16 * (x 0).val + 3 := idx_val _ 3 (by decide) x
theorem chk4 : k0_chk4 (k0_pay177 lanes) := inb_of_lt _ fun x => idx_lt _ 3 (by decide) x

/-- Gather 5 reads lane x at 16·x + 4. -/
theorem val5 (x : S16.Idx) : ((k0_pay178 lanes) x).toNat = 16 * (x 0).val + 4 := idx_val _ 4 (by decide) x
theorem chk5 : k0_chk5 (k0_pay178 lanes) := inb_of_lt _ fun x => idx_lt _ 4 (by decide) x

/-- Gather 6 reads lane x at 16·x + 5. -/
theorem val6 (x : S16.Idx) : ((k0_pay179 lanes) x).toNat = 16 * (x 0).val + 5 := idx_val _ 5 (by decide) x
theorem chk6 : k0_chk6 (k0_pay179 lanes) := inb_of_lt _ fun x => idx_lt _ 5 (by decide) x

/-- Gather 7 reads lane x at 16·x + 6. -/
theorem val7 (x : S16.Idx) : ((k0_pay180 lanes) x).toNat = 16 * (x 0).val + 6 := idx_val _ 6 (by decide) x
theorem chk7 : k0_chk7 (k0_pay180 lanes) := inb_of_lt _ fun x => idx_lt _ 6 (by decide) x

/-- Gather 8 reads lane x at 16·x + 7. -/
theorem val8 (x : S16.Idx) : ((k0_pay181 lanes) x).toNat = 16 * (x 0).val + 7 := idx_val _ 7 (by decide) x
theorem chk8 : k0_chk8 (k0_pay181 lanes) := inb_of_lt _ fun x => idx_lt _ 7 (by decide) x

/-- Gather 9 reads lane x at 16·x + 8. -/
theorem val9 (x : S16.Idx) : ((k0_pay182 lanes) x).toNat = 16 * (x 0).val + 8 := idx_val _ 8 (by decide) x
theorem chk9 : k0_chk9 (k0_pay182 lanes) := inb_of_lt _ fun x => idx_lt _ 8 (by decide) x

/-- Gather 10 reads lane x at 16·x + 9. -/
theorem val10 (x : S16.Idx) : ((k0_pay183 lanes) x).toNat = 16 * (x 0).val + 9 := idx_val _ 9 (by decide) x
theorem chk10 : k0_chk10 (k0_pay183 lanes) := inb_of_lt _ fun x => idx_lt _ 9 (by decide) x

/-- Gather 11 reads lane x at 16·x + 10. -/
theorem val11 (x : S16.Idx) : ((k0_pay184 lanes) x).toNat = 16 * (x 0).val + 10 := idx_val _ 10 (by decide) x
theorem chk11 : k0_chk11 (k0_pay184 lanes) := inb_of_lt _ fun x => idx_lt _ 10 (by decide) x

/-- Gather 12 reads lane x at 16·x + 11. -/
theorem val12 (x : S16.Idx) : ((k0_pay185 lanes) x).toNat = 16 * (x 0).val + 11 := idx_val _ 11 (by decide) x
theorem chk12 : k0_chk12 (k0_pay185 lanes) := inb_of_lt _ fun x => idx_lt _ 11 (by decide) x

/-- Gather 13 reads lane x at 16·x + 12. -/
theorem val13 (x : S16.Idx) : ((k0_pay187 (k0_pay186 lanes)) x).toNat = 16 * (x 0).val + 12 := idx_val _ 12 (by decide) x
theorem chk13 : k0_chk13 (k0_pay187 (k0_pay186 lanes)) := inb_of_lt _ fun x => idx_lt _ 12 (by decide) x

/-- Gather 14 reads lane x at 16·x + 13. -/
theorem val14 (x : S16.Idx) : ((addi (k0_pay188 lanes) k0_pay189) x).toNat = 16 * (x 0).val + 13 := idx_val _ 13 (by decide) x
theorem chk14 : k0_chk14 (addi (k0_pay188 lanes) k0_pay189) := inb_of_lt _ fun x => idx_lt _ 13 (by decide) x

/-- Gather 15 reads lane x at 16·x + 14. -/
theorem val15 (x : S16.Idx) : ((k0_pay1 lanes) x).toNat = 16 * (x 0).val + 14 := idx_val _ 14 (by decide) x
theorem chk15 : k0_chk15 (k0_pay1 lanes) := inb_of_lt _ fun x => idx_lt _ 14 (by decide) x

/-- Gather 16 reads lane x at 16·x + 15. -/
theorem val16 (x : S16.Idx) : ((k0_pay2 lanes) x).toNat = 16 * (x 0).val + 15 := idx_val _ 15 (by decide) x
theorem chk16 : k0_chk16 (k0_pay2 lanes) := inb_of_lt _ fun x => idx_lt _ 15 (by decide) x

end Cert.Proof.KB

end
-- ==== Proof.KB.ScoreVal.lean ====
/-
  The value one trip leaves in the score scratch.

  Row s of the chunk is reduced lane-block by lane-block: for each of the eight 16-lane blocks kk the term
  |h + (r − t)| on the three loaded pieces, the eight terms summed as a balanced tree, into words 16·s … 16·s + 15 of the
  transpose scratch. A loaded piece of row s at block kk holds at lane l the landed slot's element (s, 16·kk + l), which is the
  table's element at the row the sample names for the chunk's row s; so word 16·s + l of the scratch is the balanced tree over
  kk of the coordinate terms at 16·kk + l. The j-th indexed load reads word 16·x + j at lane x, and the stored score is
  12 minus the balanced tree over j of those: lane x of it is the kernel's score of the chunk's row x.
-/
import proofs.«209583_g49984829390938_cont_8to1c4_457_35_alg».proof.Proof.KB.LoopInv
import proofs.«209583_g49984829390938_cont_8to1c4_457_35_alg».proof.Proof.KB.SlotRead
import proofs.«209583_g49984829390938_cont_8to1c4_457_35_alg».proof.Proof.KB.Checks
import proofs.«209583_g49984829390938_cont_8to1c4_457_35_alg».proof.Proof.Gen.Kernel.Skeleton

noncomputable section

namespace Cert.Proof.KB

open Cert.Kernel Cert.Kernel.Gen

open Idealize.ShloMosaic Idealize.ShloMosaic.ValueIdx

variable {F : FTy → Type} [FloatOps F] (m : (ℓ : Loc nD τ sig) → Buf (Elt F) ℓ) (d : Dev nD) (L : grid0.Coords)

local notation "bufHW" => (Memref.whole Cert.Kernel.cc0_scratch3 : Memref Cert.Kernel.sig Kind.scVector Space.vmem Cert.Kernel.S8x16x128 EltTy.f32)
local notation "bufRW" => (Memref.whole Cert.Kernel.cc0_scratch4 : Memref Cert.Kernel.sig Kind.scVector Space.vmem Cert.Kernel.S8x16x128 EltTy.f32)
local notation "bufTW" => (Memref.whole Cert.Kernel.cc0_scratch5 : Memref Cert.Kernel.sig Kind.scVector Space.vmem Cert.Kernel.S8x16x128 EltTy.f32)
local notation "pmatW" => (Memref.whole Cert.Kernel.cc0_scratch6 : Memref Cert.Kernel.sig Kind.scVector Space.vmem Cert.Kernel.S256 EltTy.f32)

/-! ## The landed slot as the loop's wait spells it -/

/-- Reading through the slot the wait addresses (offset the trip's own word) is reading the row buffer at (k mod 8, ·, ·). -/
theorem prog_slot_read (B : Memref sig .scVector .vmem S8x16x128 .f32) (k : Fin k0_t1_loop.trips) (G : B.view.ty.Contents (Elt F)) (y : S16x128.Idx) :
    ((B.slice (Rect.unit (s := S8x16x128) (k0_off7 k) S1x16x128.size (k0_off7_inb k)) (fun _ => rfl)).squeeze S16x128 Facts₀.squeezes_S1x16x128_S16x128).view.read (Elt F) G y
      = B.view.read (Elt F) G (ix3 (⟨k.val % 8, Nat.mod_lt _ (by decide)⟩ : Fin 8) (y 0) (y 1)) := by
  have he : ((B.slice (Rect.unit (s := S8x16x128) (k0_off7 k) S1x16x128.size (k0_off7_inb k)) (fun _ => rfl)).squeeze S16x128 Facts₀.squeezes_S1x16x128_S16x128).view.emb y
      = B.view.emb (ix3 (⟨k.val % 8, Nat.mod_lt _ (by decide)⟩ : Fin 8) (y 0) (y 1)) := by
    show B.view.emb ((Rect.unit (s := S8x16x128) (k0_off7 k) S1x16x128.size (k0_off7_inb k)).emb
        (Shape.reshapeEquiv (Shape.Squeezes.numel_eq Facts₀.squeezes_S1x16x128_S16x128) y)) = _
    congr 1
    have hre : Shape.reshapeEquiv (Shape.Squeezes.numel_eq Facts₀.squeezes_S1x16x128_S16x128) y = (ix3 (0 : Fin 1) (y 0) (y 1) : S1x16x128.Idx) :=
      Shape.reshapeEquiv_eq_of_rowMajor _ (by
        rw [Shape.rowMajor_val_three, Shape.rowMajor_val_two]
        show (0 * 16 + (y 0).val) * 128 + (y 1).val = (y 0).val * 128 + (y 1).val
        omega)
    refine (congrArg (fun j => (Rect.unit (s := S8x16x128) (k0_off7 k) S1x16x128.size (k0_off7_inb k)).emb j) hre).trans ?_
    funext a
    apply Fin.ext
    show k0_off7 k a + 1 * ((ix3 (0 : Fin 1) (y 0) (y 1) : S1x16x128.Idx) a).val = _
    rw [k0_off7_eq k]
    match a with
    | ⟨0, _⟩ => show k.val % 8 + 1 * 0 = k.val % 8; omega
    | ⟨1, _⟩ => show 0 + 1 * (y 0).val = (y 0).val; omega
    | ⟨2, _⟩ => show 0 + 1 * (y 1).val = (y 1).val; omega
  rw [View.read_apply, View.read_apply, he]

/-- A hypothesis on the landed slot, restated on the row buffer. -/
theorem whole_of_prog (B : Memref sig .scVector .vmem S8x16x128 .f32) (k : Fin k0_t1_loop.trips) (G : B.view.ty.Contents (Elt F))
    (R : Fin 16 → Fin 128 → F .f32)
    (h : ∀ (s : Fin 16) (x : Fin 128), ((B.slice (Rect.unit (s := S8x16x128) (k0_off7 k) S1x16x128.size (k0_off7_inb k)) (fun _ => rfl)).squeeze S16x128
        Facts₀.squeezes_S1x16x128_S16x128).view.read (Elt F) G (ix2 s x) = R s x) (s : Fin 16) (x : Fin 128) :
    B.view.read (Elt F) G (ix3 (⟨k.val % 8, Nat.mod_lt _ (by decide)⟩ : Fin 8) s x) = R s x :=
  (prog_slot_read B k G (ix2 s x)).symm.trans (h s x)

/-! ## One row into the transpose scratch -/

/-- A balanced tree over eight 16-vectors, lane by lane. -/
def vtree8 (f : Fin 8 → FVec F S16 .f32) : FVec F S16 .f32 :=
  addf (addf (addf (f 0) (f 1)) (addf (f 2) (f 3))) (addf (addf (f 4) (f 5)) (addf (f 6) (f 7)))

theorem vtree8_apply (f : Fin 8 → FVec F S16 .f32) (x : S16.Idx) : vtree8 f x = tree8 (fun kk => f kk x) := rfl

/-- Row s's sixteen words, from the 24 loaded pieces at the eight lane blocks' offsets, in the kernel's order. -/
def rowTerm (LH : (bufHW).view.ty.Contents (Elt F)) (LR : (bufRW).view.ty.Contents (Elt F)) (LT : (bufTW).view.ty.Contents (Elt F))
    (offs : Fin 8 → Fin 3 → ℕ) (inbs : ∀ kk a, offs kk a + S1x1x16.size a ≤ S8x16x128.size a) (hc : S1x1x16.ShapeCasts S16) : FVec F S16 .f32 :=
  vtree8 fun kk => absf (addf
    (shapeCast S16 ((bufHW).view.readAt (Elt F) (Rect.unit (s := S8x16x128) (offs kk) S1x1x16.size (inbs kk)).toLoadRect LH) hc : FVec F S16 .f32)
    (subf (shapeCast S16 ((bufRW).view.readAt (Elt F) (Rect.unit (s := S8x16x128) (offs kk) S1x1x16.size (inbs kk)).toLoadRect LR) hc : FVec F S16 .f32)
      (shapeCast S16 ((bufTW).view.readAt (Elt F) (Rect.unit (s := S8x16x128) (offs kk) S1x1x16.size (inbs kk)).toLoadRect LT) hc : FVec F S16 .f32)))

/-- Word l of row s: the balanced tree over the lane blocks of the row's coordinate terms at 16·kk + l. -/
theorem row_val (k : Fin k0_t1_loop.trips) (LH : (bufHW).view.ty.Contents (Elt F)) (LR : (bufRW).view.ty.Contents (Elt F))
    (LT : (bufTW).view.ty.Contents (Elt F))
    (hH : ∀ (s : Fin 16) (x : Fin 128), (bufHW).view.read (Elt F) LH (ix3 (⟨k.val % 8, Nat.mod_lt _ (by decide)⟩ : Fin 8) s x)
      = (m (entLoc d) : S100000x128.Idx → F .f32) (ix2 (Cert.Score.rowIx (col m d 0 (ix1 (rowN L k.val s.val)))) x))
    (hR : ∀ (s : Fin 16) (x : Fin 128), (bufRW).view.read (Elt F) LR (ix3 (⟨k.val % 8, Nat.mod_lt _ (by decide)⟩ : Fin 8) s x)
      = (m (relLoc d) : S100000x128.Idx → F .f32) (ix2 (Cert.Score.rowIx (col m d 1 (ix1 (rowN L k.val s.val)))) x))
    (hT : ∀ (s : Fin 16) (x : Fin 128), (bufTW).view.read (Elt F) LT (ix3 (⟨k.val % 8, Nat.mod_lt _ (by decide)⟩ : Fin 8) s x)
      = (m (entLoc d) : S100000x128.Idx → F .f32) (ix2 (Cert.Score.rowIx (col m d 2 (ix1 (rowN L k.val s.val)))) x))
    (s : ℕ) (hs : s < 16) (offs : Fin 8 → Fin 3 → ℕ) (inbs : ∀ kk a, offs kk a + S1x1x16.size a ≤ S8x16x128.size a)
    (hc : S1x1x16.ShapeCasts S16) (hoffs : ∀ kk : Fin 8, offs kk = ![k.val % 8, s, 16 * kk.val]) (l : Fin 16) :
    rowTerm LH LR LT offs inbs hc (ix1 l)
      = tree8 fun kk => lane m d (rowN L k.val s) (⟨16 * kk.val + l.val, by omega⟩ : Fin 128) := by
  show tree8 (fun kk => FloatOps.absf (FloatOps.addf
      (shapeCast S16 ((bufHW).view.readAt (Elt F) (Rect.unit (s := S8x16x128) (offs kk) S1x1x16.size (inbs kk)).toLoadRect LH) hc (ix1 l))
      (FloatOps.subf (shapeCast S16 ((bufRW).view.readAt (Elt F) (Rect.unit (s := S8x16x128) (offs kk) S1x1x16.size (inbs kk)).toLoadRect LR) hc (ix1 l))
        (shapeCast S16 ((bufTW).view.readAt (Elt F) (Rect.unit (s := S8x16x128) (offs kk) S1x1x16.size (inbs kk)).toLoadRect LT) hc (ix1 l))))) = _
  congr 1
  funext kk
  rw [piece_read (bufHW) LH (offs kk) (inbs kk) hc (k.val % 8) s kk.val (Nat.mod_lt _ (by decide)) hs kk.isLt (hoffs kk) (ix1 l),
    piece_read (bufRW) LR (offs kk) (inbs kk) hc (k.val % 8) s kk.val (Nat.mod_lt _ (by decide)) hs kk.isLt (hoffs kk) (ix1 l),
    piece_read (bufTW) LT (offs kk) (inbs kk) hc (k.val % 8) s kk.val (Nat.mod_lt _ (by decide)) hs kk.isLt (hoffs kk) (ix1 l),
    hH ⟨s, hs⟩, hR ⟨s, hs⟩, hT ⟨s, hs⟩]
  rfl

/-- Eight in-bounds facts as one. -/
theorem inbs8 (o : Fin 8 → Fin 3 → ℕ)
    (h0 : ∀ a, o 0 a + S1x1x16.size a ≤ S8x16x128.size a) (h1 : ∀ a, o 1 a + S1x1x16.size a ≤ S8x16x128.size a)
    (h2 : ∀ a, o 2 a + S1x1x16.size a ≤ S8x16x128.size a) (h3 : ∀ a, o 3 a + S1x1x16.size a ≤ S8x16x128.size a)
    (h4 : ∀ a, o 4 a + S1x1x16.size a ≤ S8x16x128.size a) (h5 : ∀ a, o 5 a + S1x1x16.size a ≤ S8x16x128.size a)
    (h6 : ∀ a, o 6 a + S1x1x16.size a ≤ S8x16x128.size a) (h7 : ∀ a, o 7 a + S1x1x16.size a ≤ S8x16x128.size a) :
    ∀ kk a, o kk a + S1x1x16.size a ≤ S8x16x128.size a := by
  intro kk
  fin_cases kk <;> assumption

/-- Eight offset equations as one. -/
theorem hoffs8 (o : Fin 8 → Fin 3 → ℕ) (b s : ℕ)
    (e0 : o 0 = ![b, s, 0]) (e1 : o 1 = ![b, s, 16]) (e2 : o 2 = ![b, s, 32]) (e3 : o 3 = ![b, s, 48])
    (e4 : o 4 = ![b, s, 64]) (e5 : o 5 = ![b, s, 80]) (e6 : o 6 = ![b, s, 96]) (e7 : o 7 = ![b, s, 112]) :
    ∀ kk : Fin 8, o kk = ![b, s, 16 * kk.val] := by
  intro kk
  fin_cases kk <;> assumption

/-! ## The score from the sixteen rows -/

/-- The stored score, lane by lane: 12 minus the balanced tree over the sixteen gathered vectors. -/
theorem pay3_lane (v0 v1 v2 v3 v4 v5 v6 v7 v8 v9 v10 v11 v12 v13 v14 v15 : Vec F S16 .f32) (s : S16.Idx) :
    k0_pay3 v0 v1 v2 v3 v4 v5 v6 v7 v8 v9 v10 v11 v12 v13 v14 v15 s
      = FloatOps.subf (Scalar.ofBits .f32 0x41400000#32) (tree16 fun j => (![v0, v1, v2, v3, v4, v5, v6, v7, v8, v9, v10, v11, v12, v13, v14, v15] j) s) := rfl

/-- The score of the chunk's row x, from the sixteen rows' words in the transpose scratch. -/
theorem score_of_rows (k : Fin k0_t1_loop.trips) (g6 : (pmatW).view.ty.Contents (Elt F))
    (P0 P1 P2 P3 P4 P5 P6 P7 P8 P9 P10 P11 P12 P13 P14 P15 : S16.Idx → Elt F .f32)
    (i0 : ∀ a, (![0] : Fin 1 → ℕ) a + S16.size a ≤ S256.size a)
    (i1 : ∀ a, (![16] : Fin 1 → ℕ) a + S16.size a ≤ S256.size a)
    (i2 : ∀ a, (![32] : Fin 1 → ℕ) a + S16.size a ≤ S256.size a)
    (i3 : ∀ a, (![48] : Fin 1 → ℕ) a + S16.size a ≤ S256.size a)
    (i4 : ∀ a, (![64] : Fin 1 → ℕ) a + S16.size a ≤ S256.size a)
    (i5 : ∀ a, (![80] : Fin 1 → ℕ) a + S16.size a ≤ S256.size a)
    (i6 : ∀ a, (![96] : Fin 1 → ℕ) a + S16.size a ≤ S256.size a)
    (i7 : ∀ a, (![112] : Fin 1 → ℕ) a + S16.size a ≤ S256.size a)
    (i8 : ∀ a, (![128] : Fin 1 → ℕ) a + S16.size a ≤ S256.size a)
    (i9 : ∀ a, (![144] : Fin 1 → ℕ) a + S16.size a ≤ S256.size a)
    (i10 : ∀ a, (![160] : Fin 1 → ℕ) a + S16.size a ≤ S256.size a)
    (i11 : ∀ a, (![176] : Fin 1 → ℕ) a + S16.size a ≤ S256.size a)
    (i12 : ∀ a, (![192] : Fin 1 → ℕ) a + S16.size a ≤ S256.size a)
    (i13 : ∀ a, (![208] : Fin 1 → ℕ) a + S16.size a ≤ S256.size a)
    (i14 : ∀ a, (![224] : Fin 1 → ℕ) a + S16.size a ≤ S256.size a)
    (i15 : ∀ a, (![240] : Fin 1 → ℕ) a + S16.size a ≤ S256.size a)
    (idx0 idx1 idx2 idx3 idx4 idx5 idx6 idx7 idx8 idx9 idx10 idx11 idx12 idx13 idx14 idx15 : IVec S16 32)
    (h0 : ∀ a x, ((![idx0] : Fin 1 → IVec S16 32) a x).toNat < S256.size a)
    (h1 : ∀ a x, ((![idx1] : Fin 1 → IVec S16 32) a x).toNat < S256.size a)
    (h2 : ∀ a x, ((![idx2] : Fin 1 → IVec S16 32) a x).toNat < S256.size a)
    (h3 : ∀ a x, ((![idx3] : Fin 1 → IVec S16 32) a x).toNat < S256.size a)
    (h4 : ∀ a x, ((![idx4] : Fin 1 → IVec S16 32) a x).toNat < S256.size a)
    (h5 : ∀ a x, ((![idx5] : Fin 1 → IVec S16 32) a x).toNat < S256.size a)
    (h6 : ∀ a x, ((![idx6] : Fin 1 → IVec S16 32) a x).toNat < S256.size a)
    (h7 : ∀ a x, ((![idx7] : Fin 1 → IVec S16 32) a x).toNat < S256.size a)
    (h8 : ∀ a x, ((![idx8] : Fin 1 → IVec S16 32) a x).toNat < S256.size a)
    (h9 : ∀ a x, ((![idx9] : Fin 1 → IVec S16 32) a x).toNat < S256.size a)
    (h10 : ∀ a x, ((![idx10] : Fin 1 → IVec S16 32) a x).toNat < S256.size a)
    (h11 : ∀ a x, ((![idx11] : Fin 1 → IVec S16 32) a x).toNat < S256.size a)
    (h12 : ∀ a x, ((![idx12] : Fin 1 → IVec S16 32) a x).toNat < S256.size a)
    (h13 : ∀ a x, ((![idx13] : Fin 1 → IVec S16 32) a x).toNat < S256.size a)
    (h14 : ∀ a x, ((![idx14] : Fin 1 → IVec S16 32) a x).toNat < S256.size a)
    (h15 : ∀ a x, ((![idx15] : Fin 1 → IVec S16 32) a x).toNat < S256.size a)
    (w0 : ∀ x : S16.Idx, (idx0 x).toNat = 16 * (x 0).val + 0)
    (w1 : ∀ x : S16.Idx, (idx1 x).toNat = 16 * (x 0).val + 1)
    (w2 : ∀ x : S16.Idx, (idx2 x).toNat = 16 * (x 0).val + 2)
    (w3 : ∀ x : S16.Idx, (idx3 x).toNat = 16 * (x 0).val + 3)
    (w4 : ∀ x : S16.Idx, (idx4 x).toNat = 16 * (x 0).val + 4)
    (w5 : ∀ x : S16.Idx, (idx5 x).toNat = 16 * (x 0).val + 5)
    (w6 : ∀ x : S16.Idx, (idx6 x).toNat = 16 * (x 0).val + 6)
    (w7 : ∀ x : S16.Idx, (idx7 x).toNat = 16 * (x 0).val + 7)
    (w8 : ∀ x : S16.Idx, (idx8 x).toNat = 16 * (x 0).val + 8)
    (w9 : ∀ x : S16.Idx, (idx9 x).toNat = 16 * (x 0).val + 9)
    (w10 : ∀ x : S16.Idx, (idx10 x).toNat = 16 * (x 0).val + 10)
    (w11 : ∀ x : S16.Idx, (idx11 x).toNat = 16 * (x 0).val + 11)
    (w12 : ∀ x : S16.Idx, (idx12 x).toNat = 16 * (x 0).val + 12)
    (w13 : ∀ x : S16.Idx, (idx13 x).toNat = 16 * (x 0).val + 13)
    (w14 : ∀ x : S16.Idx, (idx14 x).toNat = 16 * (x 0).val + 14)
    (w15 : ∀ x : S16.Idx, (idx15 x).toNat = 16 * (x 0).val + 15)
    (hP : ∀ s l : Fin 16, (![P0, P1, P2, P3, P4, P5, P6, P7, P8, P9, P10, P11, P12, P13, P14, P15] s) (ix1 l)
      = tree8 fun kk => lane m d (rowN L k.val s.val) (⟨16 * kk.val + l.val, by omega⟩ : Fin 128))
    (s : S16.Idx) :
    k0_pay3
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx0] h0)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx1] h1)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx2] h2)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx3] h3)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx4] h4)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx5] h5)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx6] h6)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx7] h7)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx8] h8)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx9] h9)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx10] h10)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx11] h11)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx12] h12)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx13] h13)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx14] h14)
      (loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx15] h15) s
      = kout m d (ix1 (rowN L k.val (s 0).val)) := by
  have hs16 : (s 0).val < 16 := (s 0).isLt
  have inbF : ∀ (i : Fin 16) a, (![16 * i.val] : Fin 1 → ℕ) a + S16.size a ≤ S256.size a := fun i a => by
    have := i.isLt
    obtain rfl : a = 0 := Subsingleton.elim _ _
    show 16 * i.val + 16 ≤ 256
    omega
  have key : ∀ (idx : IVec S16 32) (h : ∀ a x, ((![idx] : Fin 1 → IVec S16 32) a x).toNat < S256.size a) (jj : ℕ) (hj : jj < 16)
      (hv : ∀ x : S16.Idx, (idx x).toNat = 16 * (x 0).val + jj),
      loadIdx (View.read (Elt F) ((pmatW).access (Rect.whole cc0_scratch6.ty.shape)) ((pmatW).view.writes (Elt F) g6
        [⟨Rect.unit ![240] S16.size i15, P15⟩,
          ⟨Rect.unit ![224] S16.size i14, P14⟩,
          ⟨Rect.unit ![208] S16.size i13, P13⟩,
          ⟨Rect.unit ![192] S16.size i12, P12⟩,
          ⟨Rect.unit ![176] S16.size i11, P11⟩,
          ⟨Rect.unit ![160] S16.size i10, P10⟩,
          ⟨Rect.unit ![144] S16.size i9, P9⟩,
          ⟨Rect.unit ![128] S16.size i8, P8⟩,
          ⟨Rect.unit ![112] S16.size i7, P7⟩,
          ⟨Rect.unit ![96] S16.size i6, P6⟩,
          ⟨Rect.unit ![80] S16.size i5, P5⟩,
          ⟨Rect.unit ![64] S16.size i4, P4⟩,
          ⟨Rect.unit ![48] S16.size i3, P3⟩,
          ⟨Rect.unit ![32] S16.size i2, P2⟩,
          ⟨Rect.unit ![16] S16.size i1, P1⟩,
          ⟨Rect.unit ![0] S16.size i0, P0⟩])) ![idx] h s
        = tree8 fun kk => lane m d (rowN L k.val (s 0).val) (⟨16 * kk.val + jj, by omega⟩ : Fin 128) := by
    intro idx h jj hj hv
    rw [loadIdx_lane _ idx h s (16 * (s 0).val + jj) (by omega) (hv s), Memref.read_access_whole]
    exact (read_rows16 (pmatW).view g6 inbF ![P0, P1, P2, P3, P4, P5, P6, P7, P8, P9, P10, P11, P12, P13, P14, P15] (s 0) ⟨jj, hj⟩).trans (hP (s 0) ⟨jj, hj⟩)
  rw [pay3_lane]
  unfold kout
  congr 2
  funext j
  fin_cases j
  · exact key idx0 h0 0 (by decide) w0
  · exact key idx1 h1 1 (by decide) w1
  · exact key idx2 h2 2 (by decide) w2
  · exact key idx3 h3 3 (by decide) w3
  · exact key idx4 h4 4 (by decide) w4
  · exact key idx5 h5 5 (by decide) w5
  · exact key idx6 h6 6 (by decide) w6
  · exact key idx7 h7 7 (by decide) w7
  · exact key idx8 h8 8 (by decide) w8
  · exact key idx9 h9 9 (by decide) w9
  · exact key idx10 h10 10 (by decide) w10
  · exact key idx11 h11 11 (by decide) w11
  · exact key idx12 h12 12 (by decide) w12
  · exact key idx13 h13 13 (by decide) w13
  · exact key idx14 h14 14 (by decide) w14
  · exact key idx15 h15 15 (by decide) w15

end Cert.Proof.KB

end
-- ==== Proof.KB.Loop.lean ====
/-
  One trip of the counted loop keeps the invariant: trip k starts chunk k + 7 (when there is one) in the idle slot, waits for
  chunk k, reduces its sixteen rows through the transpose scratch into the score scratch, and leaves chunk k's slot idle.
-/
import proofs.«209583_g49984829390938_cont_8to1c4_457_35_alg».proof.Proof.KB.LoopInv
import proofs.«209583_g49984829390938_cont_8to1c4_457_35_alg».proof.Proof.KB.Landed
import proofs.«209583_g49984829390938_cont_8to1c4_457_35_alg».proof.Proof.KB.ScoreStep
import proofs.«209583_g49984829390938_cont_8to1c4_457_35_alg».proof.Proof.KB.ScoreVal
import proofs.«209583_g49984829390938_cont_8to1c4_457_35_alg».proof.Proof.KB.Checks
import proofs.«209583_g49984829390938_cont_8to1c4_457_35_alg».proof.Proof.Gen.Kernel.Skeleton

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.SparseCore (gatherPayload rows)
variable (m : (ℓ : Loc nD τ sig) → Buf (Elt F) ℓ) [FloatOps F]

section Tile
variable (d : Dev nD) (L : grid0.Coords)

/-- The gather of chunk k + 7 of table H, as trip k issues it, is the invariant's flight of that chunk. -/
theorem flightH_of_issue (hpre : RangeOK m) (k : Fin k0_t1_loop.trips) (h : k0_cond1 k = 1#1)
    (G : Buf (Elt F) ((((Memref.whole cc0_scratch3 : Memref sig .scVector .vmem S8x16x128 .f32).slice (Rect.unit (s := S8x16x128) (k0_off4 k) S1x16x128.size (k0_off4_inb k h)) (fun _ => rfl)).squeeze S16x128 squeezes_S1x16x128_S16x128).view.loc (thrL d L))) (fw : Buf (Elt F) (((Memref.whole cc0_scratch0 : Memref sig .scVector .vmem S512 .i32).slice (Rect.unit (s := S512) (k0_off5 k) S16.size (k0_off5_inb k h)) (fun _ => rfl)).view.loc (thrL d L))) (hn) (hin)
    (hfw : ∀ z : S16.Idx, ((Memref.whole cc0_scratch0 : Memref sig .scVector .vmem S512 .i32).slice (Rect.unit (s := S512) (k0_off5 k) S16.size (k0_off5_inb k h)) (fun _ => rfl)).view.read (Elt F) fw z = col m d 0 (ix1 (rowN L (k.val + 7) (z 0).val))) :
    (Transfers.Flight (countersEmb (U := UU)) (thrL d L) (SemLoc.dma (((SemArray.slice cc0_scratch8 (Rect.unit (s := S8) (k0_off6 k) S1.size (k0_off6_inb k h))).squeeze S_ squeezes_S1_S_).sem)) (default : HIx 1) 65536
        iprop((((((Memref.whole cc0_scratch3 : Memref sig .scVector .vmem S8x16x128 .f32).slice (Rect.unit (s := S8x16x128) (k0_off4 k) S1x16x128.size (k0_off4_inb k h)) (fun _ => rfl)).squeeze S16x128 squeezes_S1x16x128_S16x128).view.loc (thrL d L) ↦[(((Memref.whole cc0_scratch3 : Memref sig .scVector .vmem S8x16x128 .f32).slice (Rect.unit (s := S8x16x128) (k0_off4 k) S1x16x128.size (k0_off4_inb k h)) (fun _ => rfl)).squeeze S16x128 squeezes_S1x16x128_S16x128).view.set]{fullShare}
              (((Memref.whole cc0_scratch3 : Memref sig .scVector .vmem S8x16x128 .f32).slice (Rect.unit (s := S8x16x128) (k0_off4 k) S1x16x128.size (k0_off4_inb k h)) (fun _ => rfl)).squeeze S16x128 squeezes_S1x16x128_S16x128).view.writes (Elt F) G [⟨Rect.whole S16x128, gatherPayload gathers_S100000x128_S16x128 (((Memref.whole main_arg1_scv : Memref sig .scVector .hbm S100000x128 .f32).slice (Rect.unit (s := S100000x128) ![0, 0] S100000x128.size inb_S100000x128_S100000x128_0_0) (fun _ => rfl)).view.read (Elt F) (m (entLoc d))) (rows (((Memref.whole cc0_scratch0 : Memref sig .scVector .vmem S512 .i32).slice (Rect.unit (s := S512) (k0_off5 k) S16.size (k0_off5_inb k h)) (fun _ => rfl)).view.read (Elt F) fw) hn hin)⟩])
            ∗ (((Memref.whole cc0_scratch0 : Memref sig .scVector .vmem S512 .i32).slice (Rect.unit (s := S512) (k0_off5 k) S16.size (k0_off5_inb k h)) (fun _ => rfl)).view.loc (thrL d L) ↦[((Memref.whole cc0_scratch0 : Memref sig .scVector .vmem S512 .i32).slice (Rect.unit (s := S512) (k0_off5 k) S16.size (k0_off5_inb k h)) (fun _ => rfl)).view.set]{fullShare} fw))
          ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (0 + (k.val + 7) % 8) (by have := Nat.mod_lt k.val (show 0 < 8 by decide); have := Nat.mod_lt (k.val + 7) (show 0 < 8 by decide); omega)} m (entLoc d))) : sProp 𝕄)
      ⊢ flightH m d L (k.val + 7) ((cond_iff k).mp h) := by
  unfold flightH delivH
  rw [← slot_issue (Memref.whole cc0_scratch3 : Memref sig .scVector .vmem S8x16x128 .f32) k h, ← win_issue (Memref.whole cc0_scratch0 : Memref sig .scVector .vmem S512 .i32) k h, ← sem_issue cc0_scratch8 k h]
  exact Transfers.Flight_mono (countersEmb (U := UU)) (thrL d L) (landed_ent m d L hpre 0 (k.val + 7) _ _ _ G fw gathers_S100000x128_S16x128 hn hin _ hfw)

/-- The gather of chunk k + 7 of table R, as trip k issues it, is the invariant's flight of that chunk. -/
theorem flightR_of_issue (hpre : RangeOK m) (k : Fin k0_t1_loop.trips) (h : k0_cond1 k = 1#1)
    (G : Buf (Elt F) ((((Memref.whole cc0_scratch4 : Memref sig .scVector .vmem S8x16x128 .f32).slice (Rect.unit (s := S8x16x128) (k0_off4 k) S1x16x128.size (k0_off4_inb k h)) (fun _ => rfl)).squeeze S16x128 squeezes_S1x16x128_S16x128).view.loc (thrL d L))) (fw : Buf (Elt F) (((Memref.whole cc0_scratch1 : Memref sig .scVector .vmem S512 .i32).slice (Rect.unit (s := S512) (k0_off5 k) S16.size (k0_off5_inb k h)) (fun _ => rfl)).view.loc (thrL d L))) (hn) (hin)
    (hfw : ∀ z : S16.Idx, ((Memref.whole cc0_scratch1 : Memref sig .scVector .vmem S512 .i32).slice (Rect.unit (s := S512) (k0_off5 k) S16.size (k0_off5_inb k h)) (fun _ => rfl)).view.read (Elt F) fw z = col m d 1 (ix1 (rowN L (k.val + 7) (z 0).val))) :
    (Transfers.Flight (countersEmb (U := UU)) (thrL d L) (SemLoc.dma (((SemArray.slice cc0_scratch9 (Rect.unit (s := S8) (k0_off6 k) S1.size (k0_off6_inb k h))).squeeze S_ squeezes_S1_S_).sem)) (default : HIx 1) 65536
        iprop((((((Memref.whole cc0_scratch4 : Memref sig .scVector .vmem S8x16x128 .f32).slice (Rect.unit (s := S8x16x128) (k0_off4 k) S1x16x128.size (k0_off4_inb k h)) (fun _ => rfl)).squeeze S16x128 squeezes_S1x16x128_S16x128).view.loc (thrL d L) ↦[(((Memref.whole cc0_scratch4 : Memref sig .scVector .vmem S8x16x128 .f32).slice (Rect.unit (s := S8x16x128) (k0_off4 k) S1x16x128.size (k0_off4_inb k h)) (fun _ => rfl)).squeeze S16x128 squeezes_S1x16x128_S16x128).view.set]{fullShare}
              (((Memref.whole cc0_scratch4 : Memref sig .scVector .vmem S8x16x128 .f32).slice (Rect.unit (s := S8x16x128) (k0_off4 k) S1x16x128.size (k0_off4_inb k h)) (fun _ => rfl)).squeeze S16x128 squeezes_S1x16x128_S16x128).view.writes (Elt F) G [⟨Rect.whole S16x128, gatherPayload gathers_S100000x128_S16x128 (((Memref.whole main_arg2_scv : Memref sig .scVector .hbm S100000x128 .f32).slice (Rect.unit (s := S100000x128) ![0, 0] S100000x128.size inb_S100000x128_S100000x128_0_0) (fun _ => rfl)).view.read (Elt F) (m (relLoc d))) (rows (((Memref.whole cc0_scratch1 : Memref sig .scVector .vmem S512 .i32).slice (Rect.unit (s := S512) (k0_off5 k) S16.size (k0_off5_inb k h)) (fun _ => rfl)).view.read (Elt F) fw) hn hin)⟩])
            ∗ (((Memref.whole cc0_scratch1 : Memref sig .scVector .vmem S512 .i32).slice (Rect.unit (s := S512) (k0_off5 k) S16.size (k0_off5_inb k h)) (fun _ => rfl)).view.loc (thrL d L) ↦[((Memref.whole cc0_scratch1 : Memref sig .scVector .vmem S512 .i32).slice (Rect.unit (s := S512) (k0_off5 k) S16.size (k0_off5_inb k h)) (fun _ => rfl)).view.set]{fullShare} fw))
          ∗ (((Memref.whole main_arg2_scv : Memref sig .scVector .hbm S100000x128 .f32).slice (Rect.unit (s := S100000x128) ![0, 0] S100000x128.size inb_S100000x128_S100000x128_0_0) (fun _ => rfl)).view.loc (thrL d L) ↦[((Memref.whole main_arg2_scv : Memref sig .scVector .hbm S100000x128 .f32).slice (Rect.unit (s := S100000x128) ![0, 0] S100000x128.size inb_S100000x128_S100000x128_0_0) (fun _ => rfl)).view.set]{tokQ L (8 + (k.val + 7) % 8) (by have := Nat.mod_lt k.val (show 0 < 8 by decide); have := Nat.mod_lt (k.val + 7) (show 0 < 8 by decide); omega)} m (relLoc d))) : sProp 𝕄)
      ⊢ flightR m d L (k.val + 7) ((cond_iff k).mp h) := by
  unfold flightR delivR
  rw [← slot_issue (Memref.whole cc0_scratch4 : Memref sig .scVector .vmem S8x16x128 .f32) k h, ← win_issue (Memref.whole cc0_scratch1 : Memref sig .scVector .vmem S512 .i32) k h, ← sem_issue cc0_scratch9 k h]
  exact Transfers.Flight_mono (countersEmb (U := UU)) (thrL d L) (landed_rel m d L hpre 1 (k.val + 7) _ _ _ G fw gathers_S100000x128_S16x128 hn hin _ hfw)

/-- The gather of chunk k + 7 of table T, as trip k issues it, is the invariant's flight of that chunk. -/
theorem flightT_of_issue (hpre : RangeOK m) (k : Fin k0_t1_loop.trips) (h : k0_cond1 k = 1#1)
    (G : Buf (Elt F) ((((Memref.whole cc0_scratch5 : Memref sig .scVector .vmem S8x16x128 .f32).slice (Rect.unit (s := S8x16x128) (k0_off4 k) S1x16x128.size (k0_off4_inb k h)) (fun _ => rfl)).squeeze S16x128 squeezes_S1x16x128_S16x128).view.loc (thrL d L))) (fw : Buf (Elt F) (((Memref.whole cc0_scratch2 : Memref sig .scVector .vmem S512 .i32).slice (Rect.unit (s := S512) (k0_off5 k) S16.size (k0_off5_inb k h)) (fun _ => rfl)).view.loc (thrL d L))) (hn) (hin)
    (hfw : ∀ z : S16.Idx, ((Memref.whole cc0_scratch2 : Memref sig .scVector .vmem S512 .i32).slice (Rect.unit (s := S512) (k0_off5 k) S16.size (k0_off5_inb k h)) (fun _ => rfl)).view.read (Elt F) fw z = col m d 2 (ix1 (rowN L (k.val + 7) (z 0).val))) :
    (Transfers.Flight (countersEmb (U := UU)) (thrL d L) (SemLoc.dma (((SemArray.slice cc0_scratch10 (Rect.unit (s := S8) (k0_off6 k) S1.size (k0_off6_inb k h))).squeeze S_ squeezes_S1_S_).sem)) (default : HIx 1) 65536
        iprop((((((Memref.whole cc0_scratch5 : Memref sig .scVector .vmem S8x16x128 .f32).slice (Rect.unit (s := S8x16x128) (k0_off4 k) S1x16x128.size (k0_off4_inb k h)) (fun _ => rfl)).squeeze S16x128 squeezes_S1x16x128_S16x128).view.loc (thrL d L) ↦[(((Memref.whole cc0_scratch5 : Memref sig .scVector .vmem S8x16x128 .f32).slice (Rect.unit (s := S8x16x128) (k0_off4 k) S1x16x128.size (k0_off4_inb k h)) (fun _ => rfl)).squeeze S16x128 squeezes_S1x16x128_S16x128).view.set]{fullShare}
              (((Memref.whole cc0_scratch5 : Memref sig .scVector .vmem S8x16x128 .f32).slice (Rect.unit (s := S8x16x128) (k0_off4 k) S1x16x128.size (k0_off4_inb k h)) (fun _ => rfl)).squeeze S16x128 squeezes_S1x16x128_S16x128).view.writes (Elt F) G [⟨Rect.whole S16x128, gatherPayload gathers_S100000x128_S16x128 (((Memref.whole main_arg1_scv : Memref sig .scVector .hbm S100000x128 .f32).slice (Rect.unit (s := S100000x128) ![0, 0] S100000x128.size inb_S100000x128_S100000x128_0_0) (fun _ => rfl)).view.read (Elt F) (m (entLoc d))) (rows (((Memref.whole cc0_scratch2 : Memref sig .scVector .vmem S512 .i32).slice (Rect.unit (s := S512) (k0_off5 k) S16.size (k0_off5_inb k h)) (fun _ => rfl)).view.read (Elt F) fw) hn hin)⟩])
            ∗ (((Memref.whole cc0_scratch2 : Memref sig .scVector .vmem S512 .i32).slice (Rect.unit (s := S512) (k0_off5 k) S16.size (k0_off5_inb k h)) (fun _ => rfl)).view.loc (thrL d L) ↦[((Memref.whole cc0_scratch2 : Memref sig .scVector .vmem S512 .i32).slice (Rect.unit (s := S512) (k0_off5 k) S16.size (k0_off5_inb k h)) (fun _ => rfl)).view.set]{fullShare} fw))
          ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (16 + (k.val + 7) % 8) (by have := Nat.mod_lt k.val (show 0 < 8 by decide); have := Nat.mod_lt (k.val + 7) (show 0 < 8 by decide); omega)} m (entLoc d))) : sProp 𝕄)
      ⊢ flightT m d L (k.val + 7) ((cond_iff k).mp h) := by
  unfold flightT delivT
  rw [← slot_issue (Memref.whole cc0_scratch5 : Memref sig .scVector .vmem S8x16x128 .f32) k h, ← win_issue (Memref.whole cc0_scratch2 : Memref sig .scVector .vmem S512 .i32) k h, ← sem_issue cc0_scratch10 k h]
  exact Transfers.Flight_mono (countersEmb (U := UU)) (thrL d L) (landed_ent m d L hpre 2 (k.val + 7) _ _ _ G fw gathers_S100000x128_S16x128 hn hin _ hfw)

omit [FloatOps F] in
/-- Eight chunks on, the same slot. -/
theorem idles_add8 (c : ℕ) : idles m d L (c + 8) = idles m d L c := by
  unfold idles
  simp only [Nat.add_mod_right]

/-- Chunk k's slot after its trip — its rows at some contents, its three semaphores back at zero, its three read tokens —
    is the idle slot of the virtual chunk k + 8. -/
theorem idles_of_trip (k : Fin k0_t1_loop.trips)
    (GH : Buf (Elt F) ((((Memref.whole cc0_scratch3 : Memref sig .scVector .vmem S8x16x128 .f32).slice (Rect.unit (s := S8x16x128) (k0_off7 k) S1x16x128.size (k0_off7_inb k)) (fun _ => rfl)).squeeze S16x128 squeezes_S1x16x128_S16x128).view.loc (thrL d L))) (GR : Buf (Elt F) ((((Memref.whole cc0_scratch4 : Memref sig .scVector .vmem S8x16x128 .f32).slice (Rect.unit (s := S8x16x128) (k0_off7 k) S1x16x128.size (k0_off7_inb k)) (fun _ => rfl)).squeeze S16x128 squeezes_S1x16x128_S16x128).view.loc (thrL d L))) (GT : Buf (Elt F) ((((Memref.whole cc0_scratch5 : Memref sig .scVector .vmem S8x16x128 .f32).slice (Rect.unit (s := S8x16x128) (k0_off7 k) S1x16x128.size (k0_off7_inb k)) (fun _ => rfl)).squeeze S16x128 squeezes_S1x16x128_S16x128).view.loc (thrL d L))) :
    iprop(((((Memref.whole cc0_scratch3 : Memref sig .scVector .vmem S8x16x128 .f32).slice (Rect.unit (s := S8x16x128) (k0_off7 k) S1x16x128.size (k0_off7_inb k)) (fun _ => rfl)).squeeze S16x128 squeezes_S1x16x128_S16x128).view.loc (thrL d L) ↦[(((Memref.whole cc0_scratch3 : Memref sig .scVector .vmem S8x16x128 .f32).slice (Rect.unit (s := S8x16x128) (k0_off7 k) S1x16x128.size (k0_off7_inb k)) (fun _ => rfl)).squeeze S16x128 squeezes_S1x16x128_S16x128).view.set]{fullShare} GH)
        ∗ semVal ((thrL d L, SemLoc.dma (((SemArray.slice cc0_scratch8 (Rect.unit (s := S8) (k0_off8 k) S1.size (k0_off8_inb k))).squeeze S_ squeezes_S1_S_).sem)) : GSem nD τ sig) 0
        ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (0 + k.val % 8) (by have := Nat.mod_lt k.val (show 0 < 8 by decide); have := Nat.mod_lt (k.val + 7) (show 0 < 8 by decide); omega)} m (entLoc d))
        ∗ ((((Memref.whole cc0_scratch4 : Memref sig .scVector .vmem S8x16x128 .f32).slice (Rect.unit (s := S8x16x128) (k0_off7 k) S1x16x128.size (k0_off7_inb k)) (fun _ => rfl)).squeeze S16x128 squeezes_S1x16x128_S16x128).view.loc (thrL d L) ↦[(((Memref.whole cc0_scratch4 : Memref sig .scVector .vmem S8x16x128 .f32).slice (Rect.unit (s := S8x16x128) (k0_off7 k) S1x16x128.size (k0_off7_inb k)) (fun _ => rfl)).squeeze S16x128 squeezes_S1x16x128_S16x128).view.set]{fullShare} GR)
        ∗ semVal ((thrL d L, SemLoc.dma (((SemArray.slice cc0_scratch9 (Rect.unit (s := S8) (k0_off8 k) S1.size (k0_off8_inb k))).squeeze S_ squeezes_S1_S_).sem)) : GSem nD τ sig) 0
        ∗ (((Memref.whole main_arg2_scv : Memref sig .scVector .hbm S100000x128 .f32).slice (Rect.unit (s := S100000x128) ![0, 0] S100000x128.size inb_S100000x128_S100000x128_0_0) (fun _ => rfl)).view.loc (thrL d L) ↦[((Memref.whole main_arg2_scv : Memref sig .scVector .hbm S100000x128 .f32).slice (Rect.unit (s := S100000x128) ![0, 0] S100000x128.size inb_S100000x128_S100000x128_0_0) (fun _ => rfl)).view.set]{tokQ L (8 + k.val % 8) (by have := Nat.mod_lt k.val (show 0 < 8 by decide); have := Nat.mod_lt (k.val + 7) (show 0 < 8 by decide); omega)} m (relLoc d))
        ∗ ((((Memref.whole cc0_scratch5 : Memref sig .scVector .vmem S8x16x128 .f32).slice (Rect.unit (s := S8x16x128) (k0_off7 k) S1x16x128.size (k0_off7_inb k)) (fun _ => rfl)).squeeze S16x128 squeezes_S1x16x128_S16x128).view.loc (thrL d L) ↦[(((Memref.whole cc0_scratch5 : Memref sig .scVector .vmem S8x16x128 .f32).slice (Rect.unit (s := S8x16x128) (k0_off7 k) S1x16x128.size (k0_off7_inb k)) (fun _ => rfl)).squeeze S16x128 squeezes_S1x16x128_S16x128).view.set]{fullShare} GT)
        ∗ semVal ((thrL d L, SemLoc.dma (((SemArray.slice cc0_scratch10 (Rect.unit (s := S8) (k0_off8 k) S1.size (k0_off8_inb k))).squeeze S_ squeezes_S1_S_).sem)) : GSem nD τ sig) 0
        ∗ (((Memref.whole main_arg1_scv : Memref sig .scVector .hbm S100000x128 .f32).slice (Rect.unit (s := S100000x128) ![0, 0] S100000x128.size inb_S100000x128_S100000x128_0_0) (fun _ => rfl)).view.loc (thrL d L) ↦[((Memref.whole main_arg1_scv : Memref sig .scVector .hbm S100000x128 .f32).slice (Rect.unit (s := S100000x128) ![0, 0] S100000x128.size inb_S100000x128_S100000x128_0_0) (fun _ => rfl)).view.set]{tokQ L (16 + k.val % 8) (by have := Nat.mod_lt k.val (show 0 < 8 by decide); have := Nat.mod_lt (k.val + 7) (show 0 < 8 by decide); omega)} m (entLoc d)))
      ⊢ idles m d L (k.val + 8) := by
  rw [idles_add8]
  unfold idles idleH idleR idleT slotAny
  rw [← slot_wait (Memref.whole cc0_scratch3 : Memref sig .scVector .vmem S8x16x128 .f32) k, ← slot_wait (Memref.whole cc0_scratch4 : Memref sig .scVector .vmem S8x16x128 .f32) k, ← slot_wait (Memref.whole cc0_scratch5 : Memref sig .scVector .vmem S8x16x128 .f32) k,
    ← sem_wait cc0_scratch8 k, ← sem_wait cc0_scratch9 k, ← sem_wait cc0_scratch10 k]
  iintro ⟨HbH, HzH, HtH, HbR, HzR, HtR, HbT, HzT, HtT⟩
  isplitl [HbH HzH HtH]
  · isplitl [HbH]; · iexists _; iexact HbH
    isplitl [HzH]; · iexact HzH
    iexact HtH
  isplitl [HbR HzR HtR]
  · isplitl [HbR]; · iexists _; iexact HbR
    isplitl [HzR]; · iexact HzR
    iexact HtR
  isplitl [HbT]; · iexists _; iexact HbT
  isplitl [HzT]; · iexact HzT
  iexact HtT

variable (O : CellTallies nD τ sig (HIx 1)) (W : Waits sig (HIx 1))

/-- The invariant one trip on, when trip k started chunk k + 7. -/
theorem inv_step_issue (k : ℕ) (hk7 : k + 7 < 32) (acc : PUnit) :
    iprop(Transfers.MayWaits (thrL d L) (none : HIx 1) O
        ∗ (∃ W', ⌜∀ p ∈ W', p ∈ W ∨ p.2 = none⌝ ∗ owes (thrL d L) O W')
        ∗ (flights m d L (k + 7) ∗ bigSep ((Finset.Ico k (k + 7)).erase k) (flights m d L))
        ∗ idles m d L (k + 8)
        ∗ bigSep ((Finset.Ico (k + 7) 32).erase (k + 7)) (wins m d L)
        ∗ (wins m d L k ∗ bigSep (Finset.Ico 0 k) (wins m d L))
        ∗ (∃ g, (Memref.whole cc0_scratch6 : Memref sig .scVector .vmem S256 .f32).view.loc (thrL d L) ↦{fullShare} g)
        ∗ (∃ g, ⌜ScoreHolds m d L (k + 1) (g : S512.Idx → F .f32)⌝ ∗ (Memref.whole cc0_scratch7 : Memref sig .scVector .vmem S512 .f32).view.loc (thrL d L) ↦{fullShare} g))
      ⊢ loopInv m d L O W (k + 1) acc := by
  unfold loopInv
  rw [show min (k + 1 + 7) 32 = k + 8 from by omega, show k + 1 + 8 = k + 9 from by omega,
    show Finset.Ico (k + 8) (k + 9) = {k + 8} from (by ext x; simp only [Finset.mem_Ico, Finset.mem_singleton]; omega), bigSep_singleton,
    show Finset.Ico (k + 1) (k + 8) = insert (k + 7) ((Finset.Ico k (k + 7)).erase k) from (by ext x; simp only [Finset.mem_Ico, Finset.mem_insert, Finset.mem_erase]; omega),
    SparseCore.bigSep_insert' (show k + 7 ∉ (Finset.Ico k (k + 7)).erase k from by simp only [Finset.mem_erase, Finset.mem_Ico]; omega),
    show Finset.Ico (k + 8) 32 = (Finset.Ico (k + 7) 32).erase (k + 7) from (by ext x; simp only [Finset.mem_Ico, Finset.mem_erase]; omega),
    show Finset.Ico 0 (k + 1) = insert k (Finset.Ico 0 k) from (by ext x; simp only [Finset.mem_Ico, Finset.mem_insert]; omega),
    SparseCore.bigSep_insert' (show k ∉ Finset.Ico 0 k from by simp only [Finset.mem_Ico]; omega)]

/-- The invariant one trip on, when no chunk was left to start. -/
theorem inv_step_tail (k : ℕ) (hk : k < 32) (hk7 : ¬ k + 7 < 32) (acc : PUnit) :
    iprop(Transfers.MayWaits (thrL d L) (none : HIx 1) O
        ∗ (∃ W', ⌜∀ p ∈ W', p ∈ W ∨ p.2 = none⌝ ∗ owes (thrL d L) O W')
        ∗ bigSep ((Finset.Ico k 32).erase k) (flights m d L)
        ∗ (idles m d L (k + 8) ∗ bigSep (Finset.Ico 32 (k + 8)) (idles m d L))
        ∗ bigSep (Finset.Ico 32 32) (wins m d L)
        ∗ (wins m d L k ∗ bigSep (Finset.Ico 0 k) (wins m d L))
        ∗ (∃ g, (Memref.whole cc0_scratch6 : Memref sig .scVector .vmem S256 .f32).view.loc (thrL d L) ↦{fullShare} g)
        ∗ (∃ g, ⌜ScoreHolds m d L (k + 1) (g : S512.Idx → F .f32)⌝ ∗ (Memref.whole cc0_scratch7 : Memref sig .scVector .vmem S512 .f32).view.loc (thrL d L) ↦{fullShare} g))
      ⊢ loopInv m d L O W (k + 1) acc := by
  unfold loopInv
  rw [show min (k + 1 + 7) 32 = 32 from by omega, show k + 1 + 8 = k + 9 from by omega,
    show Finset.Ico (k + 1) 32 = (Finset.Ico k 32).erase k from (by ext x; simp only [Finset.mem_Ico, Finset.mem_erase]; omega),
    show Finset.Ico 32 (k + 9) = insert (k + 8) (Finset.Ico 32 (k + 8)) from (by ext x; simp only [Finset.mem_Ico, Finset.mem_insert]; omega),
    SparseCore.bigSep_insert' (show k + 8 ∉ Finset.Ico 32 (k + 8) from by simp only [Finset.mem_Ico]; omega),
    show Finset.Ico 0 (k + 1) = insert k (Finset.Ico 0 k) from (by ext x; simp only [Finset.mem_Ico, Finset.mem_insert]; omega),
    SparseCore.bigSep_insert' (show k ∉ Finset.Ico 0 k from by simp only [Finset.mem_Ico]; omega)]

omit [FloatOps F] in
/-- The transpose scratch as the indexed load addresses it. -/
theorem pmat_access (f : Buf (Elt F) ((Memref.whole cc0_scratch6 : Memref sig .scVector .vmem S256 .f32).view.loc (thrL d L))) :
    ((((Memref.whole cc0_scratch6 : Memref sig .scVector .vmem S256 .f32)).access (.whole S256)).loc (thrL d L) ↦{fullShare} f : sProp 𝕄) = ((Memref.whole cc0_scratch6 : Memref sig .scVector .vmem S256 .f32).view.loc (thrL d L) ↦{fullShare} f) := rfl

omit [FloatOps F] in
theorem flights_eq (c : ℕ) (hc : c < 32) :
    flights m d L c = iprop(flightH m d L c hc ∗ flightR m d L c hc ∗ flightT m d L c hc) := dif_pos hc
omit [FloatOps F] in
theorem wins_eq (c : ℕ) (hc : c < 32) :
    wins m d L c = iprop(winHolds m d L 0 c (winOf (Memref.whole cc0_scratch0 : Memref sig .scVector .vmem S512 .i32) c hc) ∗ winHolds m d L 1 c (winOf (Memref.whole cc0_scratch1 : Memref sig .scVector .vmem S512 .i32) c hc) ∗ winHolds m d L 2 c (winOf (Memref.whole cc0_scratch2 : Memref sig .scVector .vmem S512 .i32) c hc)) := dif_pos hc

set_option maxHeartbeats 8000000 in
attribute [local irreducible] k0_off4 k0_off5 k0_off6 k0_off7 k0_off8 flightH flightR flightT flights idles wins in
theorem trip (hpre : RangeOK m) (k : Fin k0_t1_loop.trips) (acc : PUnit) :
    loopInv m d L O W k.val acc
      ⊢ wp frame (wpE (defs₀ (F := F)) 𝒱₀ (thrL d L) none) Set.univ
          (k0_t1_body L (Memref.whole main_v1_scv) (Memref.isWhole_whole _) (Memref.whole main_v3_scv) (Memref.isWhole_whole _) (Memref.whole main_v5_scv) (Memref.isWhole_whole _)
          (Memref.whole main_arg1_scv) (Memref.isWhole_whole _) (Memref.whole main_arg2_scv) (Memref.isWhole_whole _) (Memref.whole main_v6_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) cc0_scratch8 cc0_scratch9 cc0_scratch10 cc0_scratch11 cc0_scoped0
          (iota .scVector S16 32 [0] iota_S16_d0_w32_scVector) 0#32 k acc)
          (loopInv m d L O W (k.val + 1)) := by
  have hk32 : k.val < 32 := trip_lt k
  generalize hQ : loopInv m d L O W (k.val + 1) = Q
  unfold loopInv
  rcases Classical.em (k0_cond1 k = 1#1) with k0_h1 | k0_h1
  · have hk7 : k.val + 7 < 32 := (cond_iff k).mp k0_h1
    rw [show min (k.val + 7) 32 = k.val + 7 from by omega,
      show Finset.Ico (k.val + 7) (k.val + 8) = {k.val + 7} from by ext x; simp only [Finset.mem_Ico, Finset.mem_singleton]; omega, bigSep_singleton]
    iintro ⟨#Hmw, ⟨%W', %hW', HO⟩, Hfl, Hid, Hwn, Hdone, ⟨%g6, Hs6⟩, ⟨%g7, %hg7, Hs7⟩⟩
    -- chunk k's flights
    ihave Hfl' := (Entails.of_eq (SparseCore.bigSep_erase' (Finset.mem_Ico.mpr ⟨le_refl _, by omega⟩ : k.val ∈ Finset.Ico k.val (k.val + 7)))) $$ Hfl
    icases Hfl' with ⟨Hk, Hfl⟩
    ihave Hk' := (Entails.of_eq (flights_eq m d L k.val hk32)) $$ Hk
    icases Hk' with ⟨HfH, HfR, HfT⟩
    -- chunk k + 7's windows and the idle slot
    ihave Hwn' := (Entails.of_eq (SparseCore.bigSep_erase' (Finset.mem_Ico.mpr ⟨le_refl _, hk7⟩ : k.val + 7 ∈ Finset.Ico (k.val + 7) 32))) $$ Hwn
    icases Hwn' with ⟨Hw7, Hwn⟩
    ihave Hw7' := (Entails.of_eq (wins_eq m d L (k.val + 7) hk7)) $$ Hw7
    icases Hw7' with ⟨HwH, HwR, HwT⟩
    unfold idles idleH idleR idleT
    icases Hid with ⟨⟨HbH, HsH, HtH⟩, ⟨HbR, HsR, HtR⟩, ⟨HbT, HsT, HtT⟩⟩
    -- the idle slot, its semaphores and the windows as trip k's issue spells them
    ihave HbH' := (Entails.of_eq (congrArg (slotAny (F := F) d L) (slot_issue (Memref.whole cc0_scratch3 : Memref sig .scVector .vmem S8x16x128 .f32) k k0_h1).symm)) $$ HbH
    ihave HbR' := (Entails.of_eq (congrArg (slotAny (F := F) d L) (slot_issue (Memref.whole cc0_scratch4 : Memref sig .scVector .vmem S8x16x128 .f32) k k0_h1).symm)) $$ HbR
    ihave HbT' := (Entails.of_eq (congrArg (slotAny (F := F) d L) (slot_issue (Memref.whole cc0_scratch5 : Memref sig .scVector .vmem S8x16x128 .f32) k k0_h1).symm)) $$ HbT
    ihave HsH' := (Entails.of_eq (congrArg (fun s : DmaSem sig => (semVal ((thrL d L, SemLoc.dma s) : GSem nD τ sig) 0 : sProp 𝕄)) (sem_issue cc0_scratch8 k k0_h1).symm)) $$ HsH
    ihave HsR' := (Entails.of_eq (congrArg (fun s : DmaSem sig => (semVal ((thrL d L, SemLoc.dma s) : GSem nD τ sig) 0 : sProp 𝕄)) (sem_issue cc0_scratch9 k k0_h1).symm)) $$ HsR
    ihave HsT' := (Entails.of_eq (congrArg (fun s : DmaSem sig => (semVal ((thrL d L, SemLoc.dma s) : GSem nD τ sig) 0 : sProp 𝕄)) (sem_issue cc0_scratch10 k k0_h1).symm)) $$ HsT
    ihave HwH' := (Entails.of_eq (congrArg (winHolds m d L 0 (k.val + 7)) (win_issue (Memref.whole cc0_scratch0 : Memref sig .scVector .vmem S512 .i32) k k0_h1).symm)) $$ HwH
    ihave HwR' := (Entails.of_eq (congrArg (winHolds m d L 1 (k.val + 7)) (win_issue (Memref.whole cc0_scratch1 : Memref sig .scVector .vmem S512 .i32) k k0_h1).symm)) $$ HwR
    ihave HwT' := (Entails.of_eq (congrArg (winHolds m d L 2 (k.val + 7)) (win_issue (Memref.whole cc0_scratch2 : Memref sig .scVector .vmem S512 .i32) k k0_h1).symm)) $$ HwT
    unfold slotAny winHolds
    icases HbH' with ⟨%GH, HbH⟩
    icases HbR' with ⟨%GR, HbR⟩
    icases HbT' with ⟨%GT, HbT⟩
    icases HwH' with ⟨%fwH, %hfwH, HwH⟩
    icases HwR' with ⟨%fwR, %hfwR, HwR⟩
    icases HwT' with ⟨%fwT, %hfwT, HwT⟩
    have hinH' : ∀ x, ((((Memref.whole cc0_scratch0 : Memref sig .scVector .vmem S512 .i32).slice (Rect.unit (s := S512) (k0_off5 k) S16.size (k0_off5_inb k k0_h1)) (fun _ => rfl))).view.read (Elt F) fwH x).toNat < S100000x128.size gathers_S100000x128_S16x128.axis :=
      fun x => by rw [hfwH x]; exact hpre d 0 _
    have hinR' : ∀ x, ((((Memref.whole cc0_scratch1 : Memref sig .scVector .vmem S512 .i32).slice (Rect.unit (s := S512) (k0_off5 k) S16.size (k0_off5_inb k k0_h1)) (fun _ => rfl))).view.read (Elt F) fwR x).toNat < S100000x128.size gathers_S100000x128_S16x128.axis :=
      fun x => by rw [hfwR x]; exact hpre d 1 _
    have hinT' : ∀ x, ((((Memref.whole cc0_scratch2 : Memref sig .scVector .vmem S512 .i32).slice (Rect.unit (s := S512) (k0_off5 k) S16.size (k0_off5_inb k k0_h1)) (fun _ => rfl))).view.read (Elt F) fwT x).toNat < S100000x128.size gathers_S100000x128_S16x128.axis :=
      fun x => by rw [hfwT x]; exact hpre d 2 _
    unfold k0_t1_body
    -- the three gathers of chunk k + 7
    sl_exec
    unfold flightH flightR flightT at *
    -- chunk k's gather of table H: its wait
    ihave HfH' := (Entails.of_eq (congrArg (fun s : DmaSem sig => (Transfers.Flight (countersEmb (U := UU)) (thrL d L) (SemLoc.dma s) (default : HIx 1) 65536 (delivH m d L k.val hk32) : sProp 𝕄)) (sem_wait cc0_scratch8 k).symm)) $$ HfH
    ihave HmwH := (Transfers.MayWaits.elim (SemLoc.dma (((SemArray.slice cc0_scratch8 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfH' HO HmwH]
    · isplitl [HfH']; · iexact HfH'
      isplitl [HO]; · iexact HO
      iexact HmwH
    iintro ⟨HdH, HzH, HO⟩
    sl_exec
    -- chunk k's gather of table R: its wait
    ihave HfR' := (Entails.of_eq (congrArg (fun s : DmaSem sig => (Transfers.Flight (countersEmb (U := UU)) (thrL d L) (SemLoc.dma s) (default : HIx 1) 65536 (delivR m d L k.val hk32) : sProp 𝕄)) (sem_wait cc0_scratch9 k).symm)) $$ HfR
    ihave HmwR := (Transfers.MayWaits.elim (SemLoc.dma (((SemArray.slice cc0_scratch9 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfR' HO HmwR]
    · isplitl [HfR']; · iexact HfR'
      isplitl [HO]; · iexact HO
      iexact HmwR
    iintro ⟨HdR, HzR, HO⟩
    sl_exec
    -- chunk k's gather of table T: its wait
    ihave HfT' := (Entails.of_eq (congrArg (fun s : DmaSem sig => (Transfers.Flight (countersEmb (U := UU)) (thrL d L) (SemLoc.dma s) (default : HIx 1) 65536 (delivT m d L k.val hk32) : sProp 𝕄)) (sem_wait cc0_scratch10 k).symm)) $$ HfT
    ihave HmwT := (Transfers.MayWaits.elim (SemLoc.dma (((SemArray.slice cc0_scratch10 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfT' HO HmwT]
    · isplitl [HfT']; · iexact HfT'
      isplitl [HO]; · iexact HO
      iexact HmwT
    iintro ⟨HdT, HzT, HO⟩
    sl_exec
    -- the landed rows of chunk k, as the loads address them
    unfold delivH delivR delivT
    icases HdH with ⟨⟨HslH, HwnH⟩, HtkH⟩
    ihave HslH' := (Entails.of_eq (congrArg (slotHolds m d L (m (entLoc d) : S100000x128.Idx → F .f32) 0 k.val) (slot_wait (Memref.whole cc0_scratch3 : Memref sig .scVector .vmem S8x16x128 .f32) k).symm)) $$ HslH
    icases HdR with ⟨⟨HslR, HwnR⟩, HtkR⟩
    ihave HslR' := (Entails.of_eq (congrArg (slotHolds m d L (m (relLoc d) : S100000x128.Idx → F .f32) 1 k.val) (slot_wait (Memref.whole cc0_scratch4 : Memref sig .scVector .vmem S8x16x128 .f32) k).symm)) $$ HslR
    icases HdT with ⟨⟨HslT, HwnT⟩, HtkT⟩
    ihave HslT' := (Entails.of_eq (congrArg (slotHolds m d L (m (entLoc d) : S100000x128.Idx → F .f32) 2 k.val) (slot_wait (Memref.whole cc0_scratch5 : Memref sig .scVector .vmem S8x16x128 .f32) k).symm)) $$ HslT
    unfold slotHolds
    icases HslH' with ⟨%LH, %hLH, HbH⟩
    icases HslR' with ⟨%LR, %hLR, HbR⟩
    icases HslT' with ⟨%LT, %hLT, HbT⟩
    have c1 := chk1; have c2 := chk2; have c3 := chk3; have c4 := chk4; have c5 := chk5; have c6 := chk6; have c7 := chk7; have c8 := chk8
    have c9 := chk9; have c10 := chk10; have c11 := chk11; have c12 := chk12; have c13 := chk13; have c14 := chk14; have c15 := chk15; have c16 := chk16
    -- the 384 loads, the sixteen rows into the transpose scratch
    sl_exec
    -- column 0 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 1 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 2 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 3 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 4 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 5 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 6 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 7 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 8 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 9 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 10 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 11 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 12 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 13 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 14 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 15 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- the invariant again, one trip on
    subst hQ
    sl_step
    iapply (inv_step_issue m d L O W k.val hk7 _)
    isplitr; · iexact Hmw
    isplitl [HO]
    · iexists _; isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        exact hW' p hp
    isplitl [HsH' HsR' HsT' Hfl]
    · isplitl [HsH' HsR' HsT']
      · rw [flights_eq m d L (k.val + 7) hk7]
        isplitl [HsH']; · iapply (flightH_of_issue m d L hpre k k0_h1 GH fwH _ hinH' hfwH); iexact HsH'
        isplitl [HsR']; · iapply (flightR_of_issue m d L hpre k k0_h1 GR fwR _ hinR' hfwR); iexact HsR'
        iapply (flightT_of_issue m d L hpre k k0_h1 GT fwT _ hinT' hfwT); iexact HsT'
      · iexact Hfl
    isplitl [HbH HbR HbT HzH HzR HzT HtkH HtkR HtkT]
    · iapply (idles_of_trip m d L k _ _ _)
      isplitl [HbH]; · iexact HbH
      isplitl [HzH]; · iexact HzH
      isplitl [HtkH]; · iexact HtkH
      isplitl [HbR]; · iexact HbR
      isplitl [HzR]; · iexact HzR
      isplitl [HtkR]; · iexact HtkR
      isplitl [HbT]; · iexact HbT
      isplitl [HzT]; · iexact HzT
      iexact HtkT
    isplitl [Hwn]; · iexact Hwn
    isplitl [HwnH HwnR HwnT Hdone]
    · isplitl [HwnH HwnR HwnT]
      · rw [wins_eq m d L k.val hk32]
        isplitl [HwnH]; · iexact HwnH
        isplitl [HwnR]; · iexact HwnR
        iexact HwnT
      · iexact Hdone
    isplitl [Hs6]; · iexists _; iexact Hs6
    iexists _; isplitr
    rotate_left
    · iexact Hs7
    · ipureintro
      refine score_step m d L k g7 _ hg7 ?_
      -- what trip k stores at rows 16k … 16k + 15 of the score scratch is the kernel's sum for those rows
      intro s
      have hH := whole_of_prog (Memref.whole cc0_scratch3 : Memref sig .scVector .vmem S8x16x128 .f32) k LH _ hLH
      have hR := whole_of_prog (Memref.whole cc0_scratch4 : Memref sig .scVector .vmem S8x16x128 .f32) k LR _ hLR
      have hT := whole_of_prog (Memref.whole cc0_scratch5 : Memref sig .scVector .vmem S8x16x128 .f32) k LT _ hLT
      refine score_of_rows m d L k g6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        val1 val2 val3 val4 val5 val6 val7 val8 val9 val10 val11 val12 val13 val14 val15 val16 ?_ s
      intro s' l
      fin_cases s'
      · exact row_val m d L k LH LR LT hH hR hT 0 (by decide) ![k0_off9 k, k0_off10 k, k0_off11 k, k0_off12 k, k0_off13 k, k0_off14 k, k0_off15 k, k0_off16 k]
          (inbs8 ![k0_off9 k, k0_off10 k, k0_off11 k, k0_off12 k, k0_off13 k, k0_off14 k, k0_off15 k, k0_off16 k] (k0_off9_inb k) (k0_off10_inb k) (k0_off11_inb k) (k0_off12_inb k) (k0_off13_inb k) (k0_off14_inb k) (k0_off15_inb k) (k0_off16_inb k))
          Facts₀.shapeCasts_S1x1x16_S16 (hoffs8 _ (k.val % 8) 0 (k0_off9_eq k) (k0_off10_eq k) (k0_off11_eq k) (k0_off12_eq k) (k0_off13_eq k) (k0_off14_eq k) (k0_off15_eq k) (k0_off16_eq k)) l
      · exact row_val m d L k LH LR LT hH hR hT 1 (by decide) ![k0_off17 k, k0_off18 k, k0_off19 k, k0_off20 k, k0_off21 k, k0_off22 k, k0_off23 k, k0_off24 k]
          (inbs8 ![k0_off17 k, k0_off18 k, k0_off19 k, k0_off20 k, k0_off21 k, k0_off22 k, k0_off23 k, k0_off24 k] (k0_off17_inb k) (k0_off18_inb k) (k0_off19_inb k) (k0_off20_inb k) (k0_off21_inb k) (k0_off22_inb k) (k0_off23_inb k) (k0_off24_inb k))
          Facts₀.shapeCasts_S1x1x16_S16 (hoffs8 _ (k.val % 8) 1 (k0_off17_eq k) (k0_off18_eq k) (k0_off19_eq k) (k0_off20_eq k) (k0_off21_eq k) (k0_off22_eq k) (k0_off23_eq k) (k0_off24_eq k)) l
      · exact row_val m d L k LH LR LT hH hR hT 2 (by decide) ![k0_off25 k, k0_off26 k, k0_off27 k, k0_off28 k, k0_off29 k, k0_off30 k, k0_off31 k, k0_off32 k]
          (inbs8 ![k0_off25 k, k0_off26 k, k0_off27 k, k0_off28 k, k0_off29 k, k0_off30 k, k0_off31 k, k0_off32 k] (k0_off25_inb k) (k0_off26_inb k) (k0_off27_inb k) (k0_off28_inb k) (k0_off29_inb k) (k0_off30_inb k) (k0_off31_inb k) (k0_off32_inb k))
          Facts₀.shapeCasts_S1x1x16_S16 (hoffs8 _ (k.val % 8) 2 (k0_off25_eq k) (k0_off26_eq k) (k0_off27_eq k) (k0_off28_eq k) (k0_off29_eq k) (k0_off30_eq k) (k0_off31_eq k) (k0_off32_eq k)) l
      · exact row_val m d L k LH LR LT hH hR hT 3 (by decide) ![k0_off33 k, k0_off34 k, k0_off35 k, k0_off36 k, k0_off37 k, k0_off38 k, k0_off39 k, k0_off40 k]
          (inbs8 ![k0_off33 k, k0_off34 k, k0_off35 k, k0_off36 k, k0_off37 k, k0_off38 k, k0_off39 k, k0_off40 k] (k0_off33_inb k) (k0_off34_inb k) (k0_off35_inb k) (k0_off36_inb k) (k0_off37_inb k) (k0_off38_inb k) (k0_off39_inb k) (k0_off40_inb k))
          Facts₀.shapeCasts_S1x1x16_S16 (hoffs8 _ (k.val % 8) 3 (k0_off33_eq k) (k0_off34_eq k) (k0_off35_eq k) (k0_off36_eq k) (k0_off37_eq k) (k0_off38_eq k) (k0_off39_eq k) (k0_off40_eq k)) l
      · exact row_val m d L k LH LR LT hH hR hT 4 (by decide) ![k0_off41 k, k0_off42 k, k0_off43 k, k0_off44 k, k0_off45 k, k0_off46 k, k0_off47 k, k0_off48 k]
          (inbs8 ![k0_off41 k, k0_off42 k, k0_off43 k, k0_off44 k, k0_off45 k, k0_off46 k, k0_off47 k, k0_off48 k] (k0_off41_inb k) (k0_off42_inb k) (k0_off43_inb k) (k0_off44_inb k) (k0_off45_inb k) (k0_off46_inb k) (k0_off47_inb k) (k0_off48_inb k))
          Facts₀.shapeCasts_S1x1x16_S16 (hoffs8 _ (k.val % 8) 4 (k0_off41_eq k) (k0_off42_eq k) (k0_off43_eq k) (k0_off44_eq k) (k0_off45_eq k) (k0_off46_eq k) (k0_off47_eq k) (k0_off48_eq k)) l
      · exact row_val m d L k LH LR LT hH hR hT 5 (by decide) ![k0_off49 k, k0_off50 k, k0_off51 k, k0_off52 k, k0_off53 k, k0_off54 k, k0_off55 k, k0_off56 k]
          (inbs8 ![k0_off49 k, k0_off50 k, k0_off51 k, k0_off52 k, k0_off53 k, k0_off54 k, k0_off55 k, k0_off56 k] (k0_off49_inb k) (k0_off50_inb k) (k0_off51_inb k) (k0_off52_inb k) (k0_off53_inb k) (k0_off54_inb k) (k0_off55_inb k) (k0_off56_inb k))
          Facts₀.shapeCasts_S1x1x16_S16 (hoffs8 _ (k.val % 8) 5 (k0_off49_eq k) (k0_off50_eq k) (k0_off51_eq k) (k0_off52_eq k) (k0_off53_eq k) (k0_off54_eq k) (k0_off55_eq k) (k0_off56_eq k)) l
      · exact row_val m d L k LH LR LT hH hR hT 6 (by decide) ![k0_off57 k, k0_off58 k, k0_off59 k, k0_off60 k, k0_off61 k, k0_off62 k, k0_off63 k, k0_off64 k]
          (inbs8 ![k0_off57 k, k0_off58 k, k0_off59 k, k0_off60 k, k0_off61 k, k0_off62 k, k0_off63 k, k0_off64 k] (k0_off57_inb k) (k0_off58_inb k) (k0_off59_inb k) (k0_off60_inb k) (k0_off61_inb k) (k0_off62_inb k) (k0_off63_inb k) (k0_off64_inb k))
          Facts₀.shapeCasts_S1x1x16_S16 (hoffs8 _ (k.val % 8) 6 (k0_off57_eq k) (k0_off58_eq k) (k0_off59_eq k) (k0_off60_eq k) (k0_off61_eq k) (k0_off62_eq k) (k0_off63_eq k) (k0_off64_eq k)) l
      · exact row_val m d L k LH LR LT hH hR hT 7 (by decide) ![k0_off65 k, k0_off66 k, k0_off67 k, k0_off68 k, k0_off69 k, k0_off70 k, k0_off71 k, k0_off72 k]
          (inbs8 ![k0_off65 k, k0_off66 k, k0_off67 k, k0_off68 k, k0_off69 k, k0_off70 k, k0_off71 k, k0_off72 k] (k0_off65_inb k) (k0_off66_inb k) (k0_off67_inb k) (k0_off68_inb k) (k0_off69_inb k) (k0_off70_inb k) (k0_off71_inb k) (k0_off72_inb k))
          Facts₀.shapeCasts_S1x1x16_S16 (hoffs8 _ (k.val % 8) 7 (k0_off65_eq k) (k0_off66_eq k) (k0_off67_eq k) (k0_off68_eq k) (k0_off69_eq k) (k0_off70_eq k) (k0_off71_eq k) (k0_off72_eq k)) l
      · exact row_val m d L k LH LR LT hH hR hT 8 (by decide) ![k0_off73 k, k0_off74 k, k0_off75 k, k0_off76 k, k0_off77 k, k0_off78 k, k0_off79 k, k0_off80 k]
          (inbs8 ![k0_off73 k, k0_off74 k, k0_off75 k, k0_off76 k, k0_off77 k, k0_off78 k, k0_off79 k, k0_off80 k] (k0_off73_inb k) (k0_off74_inb k) (k0_off75_inb k) (k0_off76_inb k) (k0_off77_inb k) (k0_off78_inb k) (k0_off79_inb k) (k0_off80_inb k))
          Facts₀.shapeCasts_S1x1x16_S16 (hoffs8 _ (k.val % 8) 8 (k0_off73_eq k) (k0_off74_eq k) (k0_off75_eq k) (k0_off76_eq k) (k0_off77_eq k) (k0_off78_eq k) (k0_off79_eq k) (k0_off80_eq k)) l
      · exact row_val m d L k LH LR LT hH hR hT 9 (by decide) ![k0_off81 k, k0_off82 k, k0_off83 k, k0_off84 k, k0_off85 k, k0_off86 k, k0_off87 k, k0_off88 k]
          (inbs8 ![k0_off81 k, k0_off82 k, k0_off83 k, k0_off84 k, k0_off85 k, k0_off86 k, k0_off87 k, k0_off88 k] (k0_off81_inb k) (k0_off82_inb k) (k0_off83_inb k) (k0_off84_inb k) (k0_off85_inb k) (k0_off86_inb k) (k0_off87_inb k) (k0_off88_inb k))
          Facts₀.shapeCasts_S1x1x16_S16 (hoffs8 _ (k.val % 8) 9 (k0_off81_eq k) (k0_off82_eq k) (k0_off83_eq k) (k0_off84_eq k) (k0_off85_eq k) (k0_off86_eq k) (k0_off87_eq k) (k0_off88_eq k)) l
      · exact row_val m d L k LH LR LT hH hR hT 10 (by decide) ![k0_off89 k, k0_off90 k, k0_off91 k, k0_off92 k, k0_off93 k, k0_off94 k, k0_off95 k, k0_off96 k]
          (inbs8 ![k0_off89 k, k0_off90 k, k0_off91 k, k0_off92 k, k0_off93 k, k0_off94 k, k0_off95 k, k0_off96 k] (k0_off89_inb k) (k0_off90_inb k) (k0_off91_inb k) (k0_off92_inb k) (k0_off93_inb k) (k0_off94_inb k) (k0_off95_inb k) (k0_off96_inb k))
          Facts₀.shapeCasts_S1x1x16_S16 (hoffs8 _ (k.val % 8) 10 (k0_off89_eq k) (k0_off90_eq k) (k0_off91_eq k) (k0_off92_eq k) (k0_off93_eq k) (k0_off94_eq k) (k0_off95_eq k) (k0_off96_eq k)) l
      · exact row_val m d L k LH LR LT hH hR hT 11 (by decide) ![k0_off97 k, k0_off98 k, k0_off99 k, k0_off100 k, k0_off101 k, k0_off102 k, k0_off103 k, k0_off104 k]
          (inbs8 ![k0_off97 k, k0_off98 k, k0_off99 k, k0_off100 k, k0_off101 k, k0_off102 k, k0_off103 k, k0_off104 k] (k0_off97_inb k) (k0_off98_inb k) (k0_off99_inb k) (k0_off100_inb k) (k0_off101_inb k) (k0_off102_inb k) (k0_off103_inb k) (k0_off104_inb k))
          Facts₀.shapeCasts_S1x1x16_S16 (hoffs8 _ (k.val % 8) 11 (k0_off97_eq k) (k0_off98_eq k) (k0_off99_eq k) (k0_off100_eq k) (k0_off101_eq k) (k0_off102_eq k) (k0_off103_eq k) (k0_off104_eq k)) l
      · exact row_val m d L k LH LR LT hH hR hT 12 (by decide) ![k0_off105 k, k0_off106 k, k0_off107 k, k0_off108 k, k0_off109 k, k0_off110 k, k0_off111 k, k0_off112 k]
          (inbs8 ![k0_off105 k, k0_off106 k, k0_off107 k, k0_off108 k, k0_off109 k, k0_off110 k, k0_off111 k, k0_off112 k] (k0_off105_inb k) (k0_off106_inb k) (k0_off107_inb k) (k0_off108_inb k) (k0_off109_inb k) (k0_off110_inb k) (k0_off111_inb k) (k0_off112_inb k))
          Facts₀.shapeCasts_S1x1x16_S16 (hoffs8 _ (k.val % 8) 12 (k0_off105_eq k) (k0_off106_eq k) (k0_off107_eq k) (k0_off108_eq k) (k0_off109_eq k) (k0_off110_eq k) (k0_off111_eq k) (k0_off112_eq k)) l
      · exact row_val m d L k LH LR LT hH hR hT 13 (by decide) ![k0_off113 k, k0_off114 k, k0_off115 k, k0_off116 k, k0_off117 k, k0_off118 k, k0_off119 k, k0_off120 k]
          (inbs8 ![k0_off113 k, k0_off114 k, k0_off115 k, k0_off116 k, k0_off117 k, k0_off118 k, k0_off119 k, k0_off120 k] (k0_off113_inb k) (k0_off114_inb k) (k0_off115_inb k) (k0_off116_inb k) (k0_off117_inb k) (k0_off118_inb k) (k0_off119_inb k) (k0_off120_inb k))
          Facts₀.shapeCasts_S1x1x16_S16 (hoffs8 _ (k.val % 8) 13 (k0_off113_eq k) (k0_off114_eq k) (k0_off115_eq k) (k0_off116_eq k) (k0_off117_eq k) (k0_off118_eq k) (k0_off119_eq k) (k0_off120_eq k)) l
      · exact row_val m d L k LH LR LT hH hR hT 14 (by decide) ![k0_off121 k, k0_off122 k, k0_off123 k, k0_off124 k, k0_off125 k, k0_off126 k, k0_off127 k, k0_off128 k]
          (inbs8 ![k0_off121 k, k0_off122 k, k0_off123 k, k0_off124 k, k0_off125 k, k0_off126 k, k0_off127 k, k0_off128 k] (k0_off121_inb k) (k0_off122_inb k) (k0_off123_inb k) (k0_off124_inb k) (k0_off125_inb k) (k0_off126_inb k) (k0_off127_inb k) (k0_off128_inb k))
          Facts₀.shapeCasts_S1x1x16_S16 (hoffs8 _ (k.val % 8) 14 (k0_off121_eq k) (k0_off122_eq k) (k0_off123_eq k) (k0_off124_eq k) (k0_off125_eq k) (k0_off126_eq k) (k0_off127_eq k) (k0_off128_eq k)) l
      · exact row_val m d L k LH LR LT hH hR hT 15 (by decide) ![k0_off129 k, k0_off130 k, k0_off131 k, k0_off132 k, k0_off133 k, k0_off134 k, k0_off135 k, k0_off136 k]
          (inbs8 ![k0_off129 k, k0_off130 k, k0_off131 k, k0_off132 k, k0_off133 k, k0_off134 k, k0_off135 k, k0_off136 k] (k0_off129_inb k) (k0_off130_inb k) (k0_off131_inb k) (k0_off132_inb k) (k0_off133_inb k) (k0_off134_inb k) (k0_off135_inb k) (k0_off136_inb k))
          Facts₀.shapeCasts_S1x1x16_S16 (hoffs8 _ (k.val % 8) 15 (k0_off129_eq k) (k0_off130_eq k) (k0_off131_eq k) (k0_off132_eq k) (k0_off133_eq k) (k0_off134_eq k) (k0_off135_eq k) (k0_off136_eq k)) l
  · have hk7 : ¬ k.val + 7 < 32 := fun h => k0_h1 ((cond_iff k).mpr h)
    rw [show min (k.val + 7) 32 = 32 from by omega]
    iintro ⟨#Hmw, ⟨%W', %hW', HO⟩, Hfl, Hid, Hwn, Hdone, ⟨%g6, Hs6⟩, ⟨%g7, %hg7, Hs7⟩⟩
    -- chunk k's flights
    ihave Hfl' := (Entails.of_eq (SparseCore.bigSep_erase' (Finset.mem_Ico.mpr ⟨le_refl _, by omega⟩ : k.val ∈ Finset.Ico k.val 32))) $$ Hfl
    icases Hfl' with ⟨Hk, Hfl⟩
    ihave Hk' := (Entails.of_eq (flights_eq m d L k.val hk32)) $$ Hk
    icases Hk' with ⟨HfH, HfR, HfT⟩
    unfold k0_t1_body
    -- no chunk left to start
    sl_exec
    unfold flightH flightR flightT at *
    -- chunk k's gather of table H: its wait
    ihave HfH' := (Entails.of_eq (congrArg (fun s : DmaSem sig => (Transfers.Flight (countersEmb (U := UU)) (thrL d L) (SemLoc.dma s) (default : HIx 1) 65536 (delivH m d L k.val hk32) : sProp 𝕄)) (sem_wait cc0_scratch8 k).symm)) $$ HfH
    ihave HmwH := (Transfers.MayWaits.elim (SemLoc.dma (((SemArray.slice cc0_scratch8 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfH' HO HmwH]
    · isplitl [HfH']; · iexact HfH'
      isplitl [HO]; · iexact HO
      iexact HmwH
    iintro ⟨HdH, HzH, HO⟩
    sl_exec
    -- chunk k's gather of table R: its wait
    ihave HfR' := (Entails.of_eq (congrArg (fun s : DmaSem sig => (Transfers.Flight (countersEmb (U := UU)) (thrL d L) (SemLoc.dma s) (default : HIx 1) 65536 (delivR m d L k.val hk32) : sProp 𝕄)) (sem_wait cc0_scratch9 k).symm)) $$ HfR
    ihave HmwR := (Transfers.MayWaits.elim (SemLoc.dma (((SemArray.slice cc0_scratch9 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfR' HO HmwR]
    · isplitl [HfR']; · iexact HfR'
      isplitl [HO]; · iexact HO
      iexact HmwR
    iintro ⟨HdR, HzR, HO⟩
    sl_exec
    -- chunk k's gather of table T: its wait
    ihave HfT' := (Entails.of_eq (congrArg (fun s : DmaSem sig => (Transfers.Flight (countersEmb (U := UU)) (thrL d L) (SemLoc.dma s) (default : HIx 1) 65536 (delivT m d L k.val hk32) : sProp 𝕄)) (sem_wait cc0_scratch10 k).symm)) $$ HfT
    ihave HmwT := (Transfers.MayWaits.elim (SemLoc.dma (((SemArray.slice cc0_scratch10 (Rect.unit (s := S8) (k0_off8 k) S1.size (k0_off8_inb k))).squeeze S_ squeezes_S1_S_).sem))) $$ Hmw
    iapply (Transfers.wp_waitLocalO (countersEmb (U := UU)) 𝒱₀ (thrL d L) none (default : HIx 1) (N := 65536) rfl) $$ [HfT' HO HmwT]
    · isplitl [HfT']; · iexact HfT'
      isplitl [HO]; · iexact HO
      iexact HmwT
    iintro ⟨HdT, HzT, HO⟩
    sl_exec
    -- the landed rows of chunk k, as the loads address them
    unfold delivH delivR delivT
    icases HdH with ⟨⟨HslH, HwnH⟩, HtkH⟩
    ihave HslH' := (Entails.of_eq (congrArg (slotHolds m d L (m (entLoc d) : S100000x128.Idx → F .f32) 0 k.val) (slot_wait (Memref.whole cc0_scratch3 : Memref sig .scVector .vmem S8x16x128 .f32) k).symm)) $$ HslH
    icases HdR with ⟨⟨HslR, HwnR⟩, HtkR⟩
    ihave HslR' := (Entails.of_eq (congrArg (slotHolds m d L (m (relLoc d) : S100000x128.Idx → F .f32) 1 k.val) (slot_wait (Memref.whole cc0_scratch4 : Memref sig .scVector .vmem S8x16x128 .f32) k).symm)) $$ HslR
    icases HdT with ⟨⟨HslT, HwnT⟩, HtkT⟩
    ihave HslT' := (Entails.of_eq (congrArg (slotHolds m d L (m (entLoc d) : S100000x128.Idx → F .f32) 2 k.val) (slot_wait (Memref.whole cc0_scratch5 : Memref sig .scVector .vmem S8x16x128 .f32) k).symm)) $$ HslT
    unfold slotHolds
    icases HslH' with ⟨%LH, %hLH, HbH⟩
    icases HslR' with ⟨%LR, %hLR, HbR⟩
    icases HslT' with ⟨%LT, %hLT, HbT⟩
    have c1 := chk1; have c2 := chk2; have c3 := chk3; have c4 := chk4; have c5 := chk5; have c6 := chk6; have c7 := chk7; have c8 := chk8
    have c9 := chk9; have c10 := chk10; have c11 := chk11; have c12 := chk12; have c13 := chk13; have c14 := chk14; have c15 := chk15; have c16 := chk16
    -- the 384 loads, the sixteen rows into the transpose scratch
    sl_exec
    -- column 0 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 1 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 2 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 3 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 4 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 5 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 6 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 7 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 8 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 9 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 10 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 11 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 12 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 13 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 14 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- column 15 of the transposed scratch
    ihave Hp := (Entails.of_eq (pmat_access (F := F) d L _).symm) $$ Hs6
    iapply (SparseCore.wp_vectorLoadIdx 𝒱₀ (thrL d L) none Set.univ (base := (Memref.whole cc0_scratch6 : Memref sig .scVector .vmem S256 .f32)) (S := Finset.univ) (q := fullShare) (Finset.subset_univ _)) $$ Hp; iintro Hp
    ihave Hs6 := (Entails.of_eq (pmat_access (F := F) d L _)) $$ Hp
    sl_exec
    -- the invariant again, one trip on
    subst hQ
    sl_step
    iapply (inv_step_tail m d L O W k.val hk32 hk7 _)
    isplitr; · iexact Hmw
    isplitl [HO]
    · iexists _; isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        exact hW' p hp
    isplitl [Hfl]; · iexact Hfl
    isplitl [HbH HbR HbT HzH HzR HzT HtkH HtkR HtkT Hid]
    · isplitl [HbH HbR HbT HzH HzR HzT HtkH HtkR HtkT]
      · iapply (idles_of_trip m d L k _ _ _)
        isplitl [HbH]; · iexact HbH
        isplitl [HzH]; · iexact HzH
        isplitl [HtkH]; · iexact HtkH
        isplitl [HbR]; · iexact HbR
        isplitl [HzR]; · iexact HzR
        isplitl [HtkR]; · iexact HtkR
        isplitl [HbT]; · iexact HbT
        isplitl [HzT]; · iexact HzT
        iexact HtkT

      · iexact Hid
    isplitl [Hwn]; · iexact Hwn
    isplitl [HwnH HwnR HwnT Hdone]
    · isplitl [HwnH HwnR HwnT]
      · rw [wins_eq m d L k.val hk32]
        isplitl [HwnH]; · iexact HwnH
        isplitl [HwnR]; · iexact HwnR
        iexact HwnT
      · iexact Hdone
    isplitl [Hs6]; · iexists _; iexact Hs6
    iexists _; isplitr
    rotate_left
    · iexact Hs7
    · ipureintro
      refine score_step m d L k g7 _ hg7 ?_
      -- what trip k stores at rows 16k … 16k + 15 of the score scratch is the kernel's sum for those rows
      intro s
      have hH := whole_of_prog (Memref.whole cc0_scratch3 : Memref sig .scVector .vmem S8x16x128 .f32) k LH _ hLH
      have hR := whole_of_prog (Memref.whole cc0_scratch4 : Memref sig .scVector .vmem S8x16x128 .f32) k LR _ hLR
      have hT := whole_of_prog (Memref.whole cc0_scratch5 : Memref sig .scVector .vmem S8x16x128 .f32) k LT _ hLT
      refine score_of_rows m d L k g6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        val1 val2 val3 val4 val5 val6 val7 val8 val9 val10 val11 val12 val13 val14 val15 val16 ?_ s
      intro s' l
      fin_cases s'
      · exact row_val m d L k LH LR LT hH hR hT 0 (by decide) ![k0_off9 k, k0_off10 k, k0_off11 k, k0_off12 k, k0_off13 k, k0_off14 k, k0_off15 k, k0_off16 k]
          (inbs8 ![k0_off9 k, k0_off10 k, k0_off11 k, k0_off12 k, k0_off13 k, k0_off14 k, k0_off15 k, k0_off16 k] (k0_off9_inb k) (k0_off10_inb k) (k0_off11_inb k) (k0_off12_inb k) (k0_off13_inb k) (k0_off14_inb k) (k0_off15_inb k) (k0_off16_inb k))
          Facts₀.shapeCasts_S1x1x16_S16 (hoffs8 _ (k.val % 8) 0 (k0_off9_eq k) (k0_off10_eq k) (k0_off11_eq k) (k0_off12_eq k) (k0_off13_eq k) (k0_off14_eq k) (k0_off15_eq k) (k0_off16_eq k)) l
      · exact row_val m d L k LH LR LT hH hR hT 1 (by decide) ![k0_off17 k, k0_off18 k, k0_off19 k, k0_off20 k, k0_off21 k, k0_off22 k, k0_off23 k, k0_off24 k]
          (inbs8 ![k0_off17 k, k0_off18 k, k0_off19 k, k0_off20 k, k0_off21 k, k0_off22 k, k0_off23 k, k0_off24 k] (k0_off17_inb k) (k0_off18_inb k) (k0_off19_inb k) (k0_off20_inb k) (k0_off21_inb k) (k0_off22_inb k) (k0_off23_inb k) (k0_off24_inb k))
          Facts₀.shapeCasts_S1x1x16_S16 (hoffs8 _ (k.val % 8) 1 (k0_off17_eq k) (k0_off18_eq k) (k0_off19_eq k) (k0_off20_eq k) (k0_off21_eq k) (k0_off22_eq k) (k0_off23_eq k) (k0_off24_eq k)) l
      · exact row_val m d L k LH LR LT hH hR hT 2 (by decide) ![k0_off25 k, k0_off26 k, k0_off27 k, k0_off28 k, k0_off29 k, k0_off30 k, k0_off31 k, k0_off32 k]
          (inbs8 ![k0_off25 k, k0_off26 k, k0_off27 k, k0_off28 k, k0_off29 k, k0_off30 k, k0_off31 k, k0_off32 k] (k0_off25_inb k) (k0_off26_inb k) (k0_off27_inb k) (k0_off28_inb k) (k0_off29_inb k) (k0_off30_inb k) (k0_off31_inb k) (k0_off32_inb k))
          Facts₀.shapeCasts_S1x1x16_S16 (hoffs8 _ (k.val % 8) 2 (k0_off25_eq k) (k0_off26_eq k) (k0_off27_eq k) (k0_off28_eq k) (k0_off29_eq k) (k0_off30_eq k) (k0_off31_eq k) (k0_off32_eq k)) l
      · exact row_val m d L k LH LR LT hH hR hT 3 (by decide) ![k0_off33 k, k0_off34 k, k0_off35 k, k0_off36 k, k0_off37 k, k0_off38 k, k0_off39 k, k0_off40 k]
          (inbs8 ![k0_off33 k, k0_off34 k, k0_off35 k, k0_off36 k, k0_off37 k, k0_off38 k, k0_off39 k, k0_off40 k] (k0_off33_inb k) (k0_off34_inb k) (k0_off35_inb k) (k0_off36_inb k) (k0_off37_inb k) (k0_off38_inb k) (k0_off39_inb k) (k0_off40_inb k))
          Facts₀.shapeCasts_S1x1x16_S16 (hoffs8 _ (k.val % 8) 3 (k0_off33_eq k) (k0_off34_eq k) (k0_off35_eq k) (k0_off36_eq k) (k0_off37_eq k) (k0_off38_eq k) (k0_off39_eq k) (k0_off40_eq k)) l
      · exact row_val m d L k LH LR LT hH hR hT 4 (by decide) ![k0_off41 k, k0_off42 k, k0_off43 k, k0_off44 k, k0_off45 k, k0_off46 k, k0_off47 k, k0_off48 k]
          (inbs8 ![k0_off41 k, k0_off42 k, k0_off43 k, k0_off44 k, k0_off45 k, k0_off46 k, k0_off47 k, k0_off48 k] (k0_off41_inb k) (k0_off42_inb k) (k0_off43_inb k) (k0_off44_inb k) (k0_off45_inb k) (k0_off46_inb k) (k0_off47_inb k) (k0_off48_inb k))
          Facts₀.shapeCasts_S1x1x16_S16 (hoffs8 _ (k.val % 8) 4 (k0_off41_eq k) (k0_off42_eq k) (k0_off43_eq k) (k0_off44_eq k) (k0_off45_eq k) (k0_off46_eq k) (k0_off47_eq k) (k0_off48_eq k)) l
      · exact row_val m d L k LH LR LT hH hR hT 5 (by decide) ![k0_off49 k, k0_off50 k, k0_off51 k, k0_off52 k, k0_off53 k, k0_off54 k, k0_off55 k, k0_off56 k]
          (inbs8 ![k0_off49 k, k0_off50 k, k0_off51 k, k0_off52 k, k0_off53 k, k0_off54 k, k0_off55 k, k0_off56 k] (k0_off49_inb k) (k0_off50_inb k) (k0_off51_inb k) (k0_off52_inb k) (k0_off53_inb k) (k0_off54_inb k) (k0_off55_inb k) (k0_off56_inb k))
          Facts₀.shapeCasts_S1x1x16_S16 (hoffs8 _ (k.val % 8) 5 (k0_off49_eq k) (k0_off50_eq k) (k0_off51_eq k) (k0_off52_eq k) (k0_off53_eq k) (k0_off54_eq k) (k0_off55_eq k) (k0_off56_eq k)) l
      · exact row_val m d L k LH LR LT hH hR hT 6 (by decide) ![k0_off57 k, k0_off58 k, k0_off59 k, k0_off60 k, k0_off61 k, k0_off62 k, k0_off63 k, k0_off64 k]
          (inbs8 ![k0_off57 k, k0_off58 k, k0_off59 k, k0_off60 k, k0_off61 k, k0_off62 k, k0_off63 k, k0_off64 k] (k0_off57_inb k) (k0_off58_inb k) (k0_off59_inb k) (k0_off60_inb k) (k0_off61_inb k) (k0_off62_inb k) (k0_off63_inb k) (k0_off64_inb k))
          Facts₀.shapeCasts_S1x1x16_S16 (hoffs8 _ (k.val % 8) 6 (k0_off57_eq k) (k0_off58_eq k) (k0_off59_eq k) (k0_off60_eq k) (k0_off61_eq k) (k0_off62_eq k) (k0_off63_eq k) (k0_off64_eq k)) l
      · exact row_val m d L k LH LR LT hH hR hT 7 (by decide) ![k0_off65 k, k0_off66 k, k0_off67 k, k0_off68 k, k0_off69 k, k0_off70 k, k0_off71 k, k0_off72 k]
          (inbs8 ![k0_off65 k, k0_off66 k, k0_off67 k, k0_off68 k, k0_off69 k, k0_off70 k, k0_off71 k, k0_off72 k] (k0_off65_inb k) (k0_off66_inb k) (k0_off67_inb k) (k0_off68_inb k) (k0_off69_inb k) (k0_off70_inb k) (k0_off71_inb k) (k0_off72_inb k))
          Facts₀.shapeCasts_S1x1x16_S16 (hoffs8 _ (k.val % 8) 7 (k0_off65_eq k) (k0_off66_eq k) (k0_off67_eq k) (k0_off68_eq k) (k0_off69_eq k) (k0_off70_eq k) (k0_off71_eq k) (k0_off72_eq k)) l
      · exact row_val m d L k LH LR LT hH hR hT 8 (by decide) ![k0_off73 k, k0_off74 k, k0_off75 k, k0_off76 k, k0_off77 k, k0_off78 k, k0_off79 k, k0_off80 k]
          (inbs8 ![k0_off73 k, k0_off74 k, k0_off75 k, k0_off76 k, k0_off77 k, k0_off78 k, k0_off79 k, k0_off80 k] (k0_off73_inb k) (k0_off74_inb k) (k0_off75_inb k) (k0_off76_inb k) (k0_off77_inb k) (k0_off78_inb k) (k0_off79_inb k) (k0_off80_inb k))
          Facts₀.shapeCasts_S1x1x16_S16 (hoffs8 _ (k.val % 8) 8 (k0_off73_eq k) (k0_off74_eq k) (k0_off75_eq k) (k0_off76_eq k) (k0_off77_eq k) (k0_off78_eq k) (k0_off79_eq k) (k0_off80_eq k)) l
      · exact row_val m d L k LH LR LT hH hR hT 9 (by decide) ![k0_off81 k, k0_off82 k, k0_off83 k, k0_off84 k, k0_off85 k, k0_off86 k, k0_off87 k, k0_off88 k]
          (inbs8 ![k0_off81 k, k0_off82 k, k0_off83 k, k0_off84 k, k0_off85 k, k0_off86 k, k0_off87 k, k0_off88 k] (k0_off81_inb k) (k0_off82_inb k) (k0_off83_inb k) (k0_off84_inb k) (k0_off85_inb k) (k0_off86_inb k) (k0_off87_inb k) (k0_off88_inb k))
          Facts₀.shapeCasts_S1x1x16_S16 (hoffs8 _ (k.val % 8) 9 (k0_off81_eq k) (k0_off82_eq k) (k0_off83_eq k) (k0_off84_eq k) (k0_off85_eq k) (k0_off86_eq k) (k0_off87_eq k) (k0_off88_eq k)) l
      · exact row_val m d L k LH LR LT hH hR hT 10 (by decide) ![k0_off89 k, k0_off90 k, k0_off91 k, k0_off92 k, k0_off93 k, k0_off94 k, k0_off95 k, k0_off96 k]
          (inbs8 ![k0_off89 k, k0_off90 k, k0_off91 k, k0_off92 k, k0_off93 k, k0_off94 k, k0_off95 k, k0_off96 k] (k0_off89_inb k) (k0_off90_inb k) (k0_off91_inb k) (k0_off92_inb k) (k0_off93_inb k) (k0_off94_inb k) (k0_off95_inb k) (k0_off96_inb k))
          Facts₀.shapeCasts_S1x1x16_S16 (hoffs8 _ (k.val % 8) 10 (k0_off89_eq k) (k0_off90_eq k) (k0_off91_eq k) (k0_off92_eq k) (k0_off93_eq k) (k0_off94_eq k) (k0_off95_eq k) (k0_off96_eq k)) l
      · exact row_val m d L k LH LR LT hH hR hT 11 (by decide) ![k0_off97 k, k0_off98 k, k0_off99 k, k0_off100 k, k0_off101 k, k0_off102 k, k0_off103 k, k0_off104 k]
          (inbs8 ![k0_off97 k, k0_off98 k, k0_off99 k, k0_off100 k, k0_off101 k, k0_off102 k, k0_off103 k, k0_off104 k] (k0_off97_inb k) (k0_off98_inb k) (k0_off99_inb k) (k0_off100_inb k) (k0_off101_inb k) (k0_off102_inb k) (k0_off103_inb k) (k0_off104_inb k))
          Facts₀.shapeCasts_S1x1x16_S16 (hoffs8 _ (k.val % 8) 11 (k0_off97_eq k) (k0_off98_eq k) (k0_off99_eq k) (k0_off100_eq k) (k0_off101_eq k) (k0_off102_eq k) (k0_off103_eq k) (k0_off104_eq k)) l
      · exact row_val m d L k LH LR LT hH hR hT 12 (by decide) ![k0_off105 k, k0_off106 k, k0_off107 k, k0_off108 k, k0_off109 k, k0_off110 k, k0_off111 k, k0_off112 k]
          (inbs8 ![k0_off105 k, k0_off106 k, k0_off107 k, k0_off108 k, k0_off109 k, k0_off110 k, k0_off111 k, k0_off112 k] (k0_off105_inb k) (k0_off106_inb k) (k0_off107_inb k) (k0_off108_inb k) (k0_off109_inb k) (k0_off110_inb k) (k0_off111_inb k) (k0_off112_inb k))
          Facts₀.shapeCasts_S1x1x16_S16 (hoffs8 _ (k.val % 8) 12 (k0_off105_eq k) (k0_off106_eq k) (k0_off107_eq k) (k0_off108_eq k) (k0_off109_eq k) (k0_off110_eq k) (k0_off111_eq k) (k0_off112_eq k)) l
      · exact row_val m d L k LH LR LT hH hR hT 13 (by decide) ![k0_off113 k, k0_off114 k, k0_off115 k, k0_off116 k, k0_off117 k, k0_off118 k, k0_off119 k, k0_off120 k]
          (inbs8 ![k0_off113 k, k0_off114 k, k0_off115 k, k0_off116 k, k0_off117 k, k0_off118 k, k0_off119 k, k0_off120 k] (k0_off113_inb k) (k0_off114_inb k) (k0_off115_inb k) (k0_off116_inb k) (k0_off117_inb k) (k0_off118_inb k) (k0_off119_inb k) (k0_off120_inb k))
          Facts₀.shapeCasts_S1x1x16_S16 (hoffs8 _ (k.val % 8) 13 (k0_off113_eq k) (k0_off114_eq k) (k0_off115_eq k) (k0_off116_eq k) (k0_off117_eq k) (k0_off118_eq k) (k0_off119_eq k) (k0_off120_eq k)) l
      · exact row_val m d L k LH LR LT hH hR hT 14 (by decide) ![k0_off121 k, k0_off122 k, k0_off123 k, k0_off124 k, k0_off125 k, k0_off126 k, k0_off127 k, k0_off128 k]
          (inbs8 ![k0_off121 k, k0_off122 k, k0_off123 k, k0_off124 k, k0_off125 k, k0_off126 k, k0_off127 k, k0_off128 k] (k0_off121_inb k) (k0_off122_inb k) (k0_off123_inb k) (k0_off124_inb k) (k0_off125_inb k) (k0_off126_inb k) (k0_off127_inb k) (k0_off128_inb k))
          Facts₀.shapeCasts_S1x1x16_S16 (hoffs8 _ (k.val % 8) 14 (k0_off121_eq k) (k0_off122_eq k) (k0_off123_eq k) (k0_off124_eq k) (k0_off125_eq k) (k0_off126_eq k) (k0_off127_eq k) (k0_off128_eq k)) l
      · exact row_val m d L k LH LR LT hH hR hT 15 (by decide) ![k0_off129 k, k0_off130 k, k0_off131 k, k0_off132 k, k0_off133 k, k0_off134 k, k0_off135 k, k0_off136 k]
          (inbs8 ![k0_off129 k, k0_off130 k, k0_off131 k, k0_off132 k, k0_off133 k, k0_off134 k, k0_off135 k, k0_off136 k] (k0_off129_inb k) (k0_off130_inb k) (k0_off131_inb k) (k0_off132_inb k) (k0_off133_inb k) (k0_off134_inb k) (k0_off135_inb k) (k0_off136_inb k))
          Facts₀.shapeCasts_S1x1x16_S16 (hoffs8 _ (k.val % 8) 15 (k0_off129_eq k) (k0_off130_eq k) (k0_off131_eq k) (k0_off132_eq k) (k0_off133_eq k) (k0_off134_eq k) (k0_off135_eq k) (k0_off136_eq k)) l

end Tile
end Cert.Proof.KB
end
-- ==== Proof.KB.LoopEnds.Wins.lean ====
/-
  The counted loop's start, the lists: from the three landed index lists to the invariant's windows.

  A 512-word list is its 32 windows of sixteen words: the windows are pairwise disjoint (word i lies in window i / 16 only)
  and cover the list, so holding the list whole is holding each window. A landed list holds the worker's 512 rows of one
  column of the sample, so window c holds the column at the worker's rows 16c … 16c + 15.
-/
import proofs.«209583_g49984829390938_cont_8to1c4_457_35_alg».proof.Proof.KB.LoopInv
import proofs.«209583_g49984829390938_cont_8to1c4_457_35_alg».proof.Proof.KB.SlotRead
import proofs.«209583_g49984829390938_cont_8to1c4_457_35_alg».proof.Proof.KB.TileOwn

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## The windows of a 512-word list, as sets of its words -/

/-- Window c's words: 16c … 16c + 15 (no words past the last window). -/
def winSet (c : ℕ) : Finset S512.Idx :=
  if hc : c < 32 then (Rect.unit (s := S512) ![16 * c] S16.size (win_inb c hc)).set else ∅

theorem mem_winSet {c : ℕ} (hc : c < 32) (i : S512.Idx) : i ∈ winSet c ↔ 16 * c ≤ (i 0).val ∧ (i 0).val < 16 * c + 16 := by
  unfold winSet
  rw [dif_pos hc, Rect.mem_set_unit]
  constructor
  · intro h; exact h 0
  · intro h a
    obtain rfl : a = 0 := Subsingleton.elim _ _
    exact h

theorem winSet_disjoint : ∀ c ∈ Finset.Ico 0 32, ∀ c' ∈ Finset.Ico 0 32, c ≠ c' → Disjoint (winSet c) (winSet c') := by
  intro c hc c' hc' hne
  have h1 : c < 32 := (Finset.mem_Ico.mp hc).2
  have h2 : c' < 32 := (Finset.mem_Ico.mp hc').2
  rw [Finset.disjoint_left]
  intro i hi hi'
  rw [mem_winSet h1] at hi
  rw [mem_winSet h2] at hi'
  omega

theorem winSet_cover : (Finset.Ico 0 32).biUnion winSet = Finset.univ := by
  ext i
  simp only [Finset.mem_biUnion, Finset.mem_univ, iff_true]
  have hi : (i 0).val < 512 := (i 0).isLt
  refine ⟨(i 0).val / 16, Finset.mem_Ico.mpr ⟨Nat.zero_le _, by omega⟩, ?_⟩
  rw [mem_winSet (by omega)]
  omega

/-! ## (I1) The landed lists as windows -/

/-- Window c of list H, landed, at word z: column 0 of the sample at the worker's row 16c + z. -/
theorem win_word_H (f : Buf (Elt F) ((thrL d L).loc cc0_scratch0)) (c : ℕ) (hc : c < 32) (z : S16.Idx) :
    (winOf (Memref.whole cc0_scratch0 : Memref sig .scVector .vmem S512 .i32) c hc).view.read (Elt F) (landsH m d L f) z = col m d 0 (ix1 (rowN L c (z 0).val)) := by
  have hz : (z 0).val < 16 := (z 0).isLt
  have ht := (tL L).isLt
  rw [win_read]
  show (landsH m d L f : S512.Idx → BitVec 32) (ix1 (⟨16 * c + (z 0).val, by omega⟩ : Fin 512)) = _
  rw [landsH_apply]
  refine congrArg (fun r : Fin 16384 => col m d 0 (ix1 r)) (Fin.ext ?_)
  show 512 * (tL L).val + (16 * c + (z 0).val) = (512 * (tL L).val + 16 * c + (z 0).val) % 16384
  rw [Nat.mod_eq_of_lt (by omega)]
  omega

/-- List H whole is its 32 windows. -/
theorem listH_pts (f : Buf (Elt F) ((Memref.whole cc0_scratch0 : Memref sig .scVector .vmem S512 .i32).view.loc (thrL d L))) :
    ((Memref.whole cc0_scratch0 : Memref sig .scVector .vmem S512 .i32).view.loc (thrL d L) ↦{fullShare} f : sProp 𝕄)
      = bigSep (Finset.Ico 0 32) fun c => (Memref.whole cc0_scratch0 : Memref sig .scVector .vmem S512 .i32).view.loc (thrL d L) ↦[winSet c]{fullShare} f := by
  rw [← pointsTo_biUnion (Finset.Ico 0 32) (ℓ := (Memref.whole cc0_scratch0 : Memref sig .scVector .vmem S512 .i32).view.loc (thrL d L)) winSet winSet_disjoint, winSet_cover]; try rfl

/-- The words of window c of list H are the window's view. -/
theorem set_winH (c : ℕ) (h : c < 32) : (winOf (Memref.whole cc0_scratch0 : Memref sig .scVector .vmem S512 .i32) c h).view.set = winSet c := by
  unfold winSet
  rw [dif_pos h]
  exact View.set_slice_whole _ _

/-- One window of the landed list H holds its chunk's words of column 0. -/
theorem winH_one (f : Buf (Elt F) ((thrL d L).loc cc0_scratch0)) (c : ℕ) (h : c < 32) :
    ((Memref.whole cc0_scratch0 : Memref sig .scVector .vmem S512 .i32).view.loc (thrL d L) ↦[winSet c]{fullShare} landsH m d L f : sProp 𝕄)
      ⊢ winHolds m d L 0 c (winOf (Memref.whole cc0_scratch0 : Memref sig .scVector .vmem S512 .i32) c h) := by
  unfold winHolds
  iintro H
  iexists (landsH m d L f)
  isplitr
  · ipureintro
    intro z
    exact win_word_H m d L f c h z
  · rw [set_winH]
    iexact H

/-- (I1) for list H: the landed list is its 32 windows, each holding its chunk's words of column 0. -/
theorem winsH_intro (f : Buf (Elt F) ((thrL d L).loc cc0_scratch0)) :
    ((Memref.whole cc0_scratch0 : Memref sig .scVector .vmem S512 .i32).view.loc (thrL d L) ↦{fullShare} landsH m d L f : sProp 𝕄)
      ⊢ bigSep (Finset.Ico 0 32) (fun c => if hc : c < 32 then winHolds m d L 0 c (winOf (Memref.whole cc0_scratch0 : Memref sig .scVector .vmem S512 .i32) c hc) else iprop(emp)) := by
  rw [listH_pts]
  refine bigSep_mono (fun c hc => ?_)
  have h : c < 32 := (Finset.mem_Ico.mp hc).2
  rw [dif_pos h]
  exact winH_one m d L f c h

/-- Window c of list R, landed, at word z: column 1 of the sample at the worker's row 16c + z. -/
theorem win_word_R (f : Buf (Elt F) ((thrL d L).loc cc0_scratch1)) (c : ℕ) (hc : c < 32) (z : S16.Idx) :
    (winOf (Memref.whole cc0_scratch1 : Memref sig .scVector .vmem S512 .i32) c hc).view.read (Elt F) (landsR m d L f) z = col m d 1 (ix1 (rowN L c (z 0).val)) := by
  have hz : (z 0).val < 16 := (z 0).isLt
  have ht := (tL L).isLt
  rw [win_read]
  show (landsR m d L f : S512.Idx → BitVec 32) (ix1 (⟨16 * c + (z 0).val, by omega⟩ : Fin 512)) = _
  rw [landsR_apply]
  refine congrArg (fun r : Fin 16384 => col m d 1 (ix1 r)) (Fin.ext ?_)
  show 512 * (tL L).val + (16 * c + (z 0).val) = (512 * (tL L).val + 16 * c + (z 0).val) % 16384
  rw [Nat.mod_eq_of_lt (by omega)]
  omega

/-- List R whole is its 32 windows. -/
theorem listR_pts (f : Buf (Elt F) ((Memref.whole cc0_scratch1 : Memref sig .scVector .vmem S512 .i32).view.loc (thrL d L))) :
    ((Memref.whole cc0_scratch1 : Memref sig .scVector .vmem S512 .i32).view.loc (thrL d L) ↦{fullShare} f : sProp 𝕄)
      = bigSep (Finset.Ico 0 32) fun c => (Memref.whole cc0_scratch1 : Memref sig .scVector .vmem S512 .i32).view.loc (thrL d L) ↦[winSet c]{fullShare} f := by
  rw [← pointsTo_biUnion (Finset.Ico 0 32) (ℓ := (Memref.whole cc0_scratch1 : Memref sig .scVector .vmem S512 .i32).view.loc (thrL d L)) winSet winSet_disjoint, winSet_cover]; try rfl

/-- The words of window c of list R are the window's view. -/
theorem set_winR (c : ℕ) (h : c < 32) : (winOf (Memref.whole cc0_scratch1 : Memref sig .scVector .vmem S512 .i32) c h).view.set = winSet c := by
  unfold winSet
  rw [dif_pos h]
  exact View.set_slice_whole _ _

/-- One window of the landed list R holds its chunk's words of column 1. -/
theorem winR_one (f : Buf (Elt F) ((thrL d L).loc cc0_scratch1)) (c : ℕ) (h : c < 32) :
    ((Memref.whole cc0_scratch1 : Memref sig .scVector .vmem S512 .i32).view.loc (thrL d L) ↦[winSet c]{fullShare} landsR m d L f : sProp 𝕄)
      ⊢ winHolds m d L 1 c (winOf (Memref.whole cc0_scratch1 : Memref sig .scVector .vmem S512 .i32) c h) := by
  unfold winHolds
  iintro H
  iexists (landsR m d L f)
  isplitr
  · ipureintro
    intro z
    exact win_word_R m d L f c h z
  · rw [set_winR]
    iexact H

/-- (I1) for list R: the landed list is its 32 windows, each holding its chunk's words of column 1. -/
theorem winsR_intro (f : Buf (Elt F) ((thrL d L).loc cc0_scratch1)) :
    ((Memref.whole cc0_scratch1 : Memref sig .scVector .vmem S512 .i32).view.loc (thrL d L) ↦{fullShare} landsR m d L f : sProp 𝕄)
      ⊢ bigSep (Finset.Ico 0 32) (fun c => if hc : c < 32 then winHolds m d L 1 c (winOf (Memref.whole cc0_scratch1 : Memref sig .scVector .vmem S512 .i32) c hc) else iprop(emp)) := by
  rw [listR_pts]
  refine bigSep_mono (fun c hc => ?_)
  have h : c < 32 := (Finset.mem_Ico.mp hc).2
  rw [dif_pos h]
  exact winR_one m d L f c h

/-- Window c of list T, landed, at word z: column 2 of the sample at the worker's row 16c + z. -/
theorem win_word_T (f : Buf (Elt F) ((thrL d L).loc cc0_scratch2)) (c : ℕ) (hc : c < 32) (z : S16.Idx) :
    (winOf (Memref.whole cc0_scratch2 : Memref sig .scVector .vmem S512 .i32) c hc).view.read (Elt F) (landsT m d L f) z = col m d 2 (ix1 (rowN L c (z 0).val)) := by
  have hz : (z 0).val < 16 := (z 0).isLt
  have ht := (tL L).isLt
  rw [win_read]
  show (landsT m d L f : S512.Idx → BitVec 32) (ix1 (⟨16 * c + (z 0).val, by omega⟩ : Fin 512)) = _
  rw [landsT_apply]
  refine congrArg (fun r : Fin 16384 => col m d 2 (ix1 r)) (Fin.ext ?_)
  show 512 * (tL L).val + (16 * c + (z 0).val) = (512 * (tL L).val + 16 * c + (z 0).val) % 16384
  rw [Nat.mod_eq_of_lt (by omega)]
  omega

/-- List T whole is its 32 windows. -/
theorem listT_pts (f : Buf (Elt F) ((Memref.whole cc0_scratch2 : Memref sig .scVector .vmem S512 .i32).view.loc (thrL d L))) :
    ((Memref.whole cc0_scratch2 : Memref sig .scVector .vmem S512 .i32).view.loc (thrL d L) ↦{fullShare} f : sProp 𝕄)
      = bigSep (Finset.Ico 0 32) fun c => (Memref.whole cc0_scratch2 : Memref sig .scVector .vmem S512 .i32).view.loc (thrL d L) ↦[winSet c]{fullShare} f := by
  rw [← pointsTo_biUnion (Finset.Ico 0 32) (ℓ := (Memref.whole cc0_scratch2 : Memref sig .scVector .vmem S512 .i32).view.loc (thrL d L)) winSet winSet_disjoint, winSet_cover]; try rfl

/-- The words of window c of list T are the window's view. -/
theorem set_winT (c : ℕ) (h : c < 32) : (winOf (Memref.whole cc0_scratch2 : Memref sig .scVector .vmem S512 .i32) c h).view.set = winSet c := by
  unfold winSet
  rw [dif_pos h]
  exact View.set_slice_whole _ _

/-- One window of the landed list T holds its chunk's words of column 2. -/
theorem winT_one (f : Buf (Elt F) ((thrL d L).loc cc0_scratch2)) (c : ℕ) (h : c < 32) :
    ((Memref.whole cc0_scratch2 : Memref sig .scVector .vmem S512 .i32).view.loc (thrL d L) ↦[winSet c]{fullShare} landsT m d L f : sProp 𝕄)
      ⊢ winHolds m d L 2 c (winOf (Memref.whole cc0_scratch2 : Memref sig .scVector .vmem S512 .i32) c h) := by
  unfold winHolds
  iintro H
  iexists (landsT m d L f)
  isplitr
  · ipureintro
    intro z
    exact win_word_T m d L f c h z
  · rw [set_winT]
    iexact H

/-- (I1) for list T: the landed list is its 32 windows, each holding its chunk's words of column 2. -/
theorem winsT_intro (f : Buf (Elt F) ((thrL d L).loc cc0_scratch2)) :
    ((Memref.whole cc0_scratch2 : Memref sig .scVector .vmem S512 .i32).view.loc (thrL d L) ↦{fullShare} landsT m d L f : sProp 𝕄)
      ⊢ bigSep (Finset.Ico 0 32) (fun c => if hc : c < 32 then winHolds m d L 2 c (winOf (Memref.whole cc0_scratch2 : Memref sig .scVector .vmem S512 .i32) c hc) else iprop(emp)) := by
  rw [listT_pts]
  refine bigSep_mono (fun c hc => ?_)
  have h : c < 32 := (Finset.mem_Ico.mp hc).2
  rw [dif_pos h]
  exact winT_one m d L f c h

/-- (I1) The three landed lists together are the 32 chunks' windows. -/
theorem wins_intro (f0 : Buf (Elt F) ((thrL d L).loc cc0_scratch0)) (f1 : Buf (Elt F) ((thrL d L).loc cc0_scratch1))
    (f2 : Buf (Elt F) ((thrL d L).loc cc0_scratch2)) :
    (iprop(((Memref.whole cc0_scratch0 : Memref sig .scVector .vmem S512 .i32).view.loc (thrL d L) ↦{fullShare} landsH m d L f0)
        ∗ ((Memref.whole cc0_scratch1 : Memref sig .scVector .vmem S512 .i32).view.loc (thrL d L) ↦{fullShare} landsR m d L f1)
        ∗ ((Memref.whole cc0_scratch2 : Memref sig .scVector .vmem S512 .i32).view.loc (thrL d L) ↦{fullShare} landsT m d L f2)) : sProp 𝕄)
      ⊢ bigSep (Finset.Ico 0 32) (wins m d L) := by
  have e : bigSep (Finset.Ico 0 32) (wins m d L)
      = iprop(bigSep (Finset.Ico 0 32) (fun c => if hc : c < 32 then winHolds m d L 0 c (winOf (Memref.whole cc0_scratch0 : Memref sig .scVector .vmem S512 .i32) c hc) else iprop(emp))
        ∗ bigSep (Finset.Ico 0 32) (fun c => if hc : c < 32 then winHolds m d L 1 c (winOf (Memref.whole cc0_scratch1 : Memref sig .scVector .vmem S512 .i32) c hc) else iprop(emp))
        ∗ bigSep (Finset.Ico 0 32) (fun c => if hc : c < 32 then winHolds m d L 2 c (winOf (Memref.whole cc0_scratch2 : Memref sig .scVector .vmem S512 .i32) c hc) else iprop(emp))) := by
    rw [← bigSep_sep', ← bigSep_sep']
    refine bigSep_congr (fun c hc => ?_)
    have h : c < 32 := (Finset.mem_Ico.mp hc).2
    unfold wins
    rw [dif_pos h, dif_pos h, dif_pos h, dif_pos h]
  rw [e]
  iintro ⟨H0, H1, H2⟩
  isplitl [H0]
  · iapply (winsH_intro m d L f0); iexact H0
  isplitl [H1]
  · iapply (winsR_intro m d L f1); iexact H1
  · iapply (winsT_intro m d L f2); iexact H2

end Tile
end Cert.Proof.KB
end
-- ==== Proof.KB.LoopEnds.Slots.lean ====
/-
  The counted loop's start, the row buffers: a row buffer of eight slots of sixteen rows is its slots — pairwise disjoint
  (an element lies in the slot its leading coordinate names) and covering — so holding the buffer whole is holding each slot.
-/
import proofs.«209583_g49984829390938_cont_8to1c4_457_35_alg».proof.Proof.KB.LoopInv
import proofs.«209583_g49984829390938_cont_8to1c4_457_35_alg».proof.Proof.KB.SlotRead
import proofs.«209583_g49984829390938_cont_8to1c4_457_35_alg».proof.Proof.KB.TileOwn

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## The slots of a row buffer, as sets of its elements -/

/-- Slot b's elements: those of leading coordinate b (none past the last slot). -/
def slotSet (b : ℕ) : Finset S8x16x128.Idx :=
  if hb : b < 8 then (Rect.unit (s := S8x16x128) ![b, 0, 0] S1x16x128.size (slot_inb b hb)).set else ∅

theorem mem_slotSet {b : ℕ} (hb : b < 8) (i : S8x16x128.Idx) : i ∈ slotSet b ↔ (i 0).val = b := by
  unfold slotSet
  rw [dif_pos hb, Rect.mem_set_unit]
  constructor
  · intro h
    have h0 : b ≤ (i 0).val ∧ (i 0).val < b + 1 := h 0
    omega
  · intro h a
    match a with
    | ⟨0, _⟩ => show b ≤ (i 0).val ∧ (i 0).val < b + 1; omega
    | ⟨1, _⟩ =>
      have h1 : (i 1).val < 16 := (i 1).isLt
      show 0 ≤ (i 1).val ∧ (i 1).val < 0 + 16; omega
    | ⟨2, _⟩ =>
      have h2 : (i 2).val < 128 := (i 2).isLt
      show 0 ≤ (i 2).val ∧ (i 2).val < 0 + 128; omega

theorem slotSet_disjoint : ∀ b ∈ Finset.Ico 0 8, ∀ b' ∈ Finset.Ico 0 8, b ≠ b' → Disjoint (slotSet b) (slotSet b') := by
  intro b hb b' hb' hne
  have h1 : b < 8 := (Finset.mem_Ico.mp hb).2
  have h2 : b' < 8 := (Finset.mem_Ico.mp hb').2
  rw [Finset.disjoint_left]
  intro i hi hi'
  rw [mem_slotSet h1] at hi
  rw [mem_slotSet h2] at hi'
  omega

theorem slotSet_cover : (Finset.Ico 0 8).biUnion slotSet = Finset.univ := by
  ext i
  simp only [Finset.mem_biUnion, Finset.mem_univ, iff_true]
  have hi : (i 0).val < 8 := (i 0).isLt
  refine ⟨(i 0).val, Finset.mem_Ico.mpr ⟨Nat.zero_le _, hi⟩, ?_⟩
  rw [mem_slotSet hi]

/-! ## (I2) The row buffers as slots -/

/-- Row buffer 3 whole is its eight slots. -/
theorem buf3_pts (f : Buf (Elt F) ((Memref.whole cc0_scratch3 : Memref sig .scVector .vmem S8x16x128 .f32).view.loc (thrL d L))) :
    ((Memref.whole cc0_scratch3 : Memref sig .scVector .vmem S8x16x128 .f32).view.loc (thrL d L) ↦{fullShare} f : sProp 𝕄)
      = bigSep (Finset.Ico 0 8) fun b => (Memref.whole cc0_scratch3 : Memref sig .scVector .vmem S8x16x128 .f32).view.loc (thrL d L) ↦[slotSet b]{fullShare} f := by
  rw [← pointsTo_biUnion (Finset.Ico 0 8) (ℓ := (Memref.whole cc0_scratch3 : Memref sig .scVector .vmem S8x16x128 .f32).view.loc (thrL d L)) slotSet slotSet_disjoint, slotSet_cover]; try rfl

/-- The elements of slot b of row buffer 3 are the slot's view: the slice's, re-indexed without its unit axis. -/
theorem set_slot3 (b : ℕ) (h : b < 8) : (slotOf (Memref.whole cc0_scratch3 : Memref sig .scVector .vmem S8x16x128 .f32) b h).view.set = slotSet b := by
  unfold slotSet
  rw [dif_pos h]
  show (((Memref.whole cc0_scratch3 : Memref sig .scVector .vmem S8x16x128 .f32).view.slice (Rect.unit (s := S8x16x128) ![b, 0, 0] S1x16x128.size (slot_inb b h))).reshape S16x128
    squeezes_S1x16x128_S16x128.numel_eq).set = _
  rw [View.set_reshape]
  exact View.set_slice_whole _ _

/-- One slot of row buffer 3, at the buffer's contents. -/
theorem slot3_one (f : Buf (Elt F) ((Memref.whole cc0_scratch3 : Memref sig .scVector .vmem S8x16x128 .f32).view.loc (thrL d L))) (b : ℕ) (h : b < 8) :
    ((Memref.whole cc0_scratch3 : Memref sig .scVector .vmem S8x16x128 .f32).view.loc (thrL d L) ↦[slotSet b]{fullShare} f : sProp 𝕄) ⊢ slotAny d L (slotOf (Memref.whole cc0_scratch3 : Memref sig .scVector .vmem S8x16x128 .f32) b h) := by
  unfold slotAny
  iintro H
  iexists f
  rw [set_slot3]
  iexact H

/-- (I2) for row buffer 3: the buffer whole is its eight slots, each at some contents. -/
theorem slots3_intro (f : Buf (Elt F) ((Memref.whole cc0_scratch3 : Memref sig .scVector .vmem S8x16x128 .f32).view.loc (thrL d L))) :
    ((Memref.whole cc0_scratch3 : Memref sig .scVector .vmem S8x16x128 .f32).view.loc (thrL d L) ↦{fullShare} f : sProp 𝕄)
      ⊢ bigSep (Finset.Ico 0 8) (fun b => if hb : b < 8 then slotAny d L (slotOf (Memref.whole cc0_scratch3 : Memref sig .scVector .vmem S8x16x128 .f32) b hb) else iprop(emp)) := by
  rw [buf3_pts]
  refine bigSep_mono (fun b hb => ?_)
  have h : b < 8 := (Finset.mem_Ico.mp hb).2
  rw [dif_pos h]
  exact slot3_one d L f b h

/-- Row buffer 4 whole is its eight slots. -/
theorem buf4_pts (f : Buf (Elt F) ((Memref.whole cc0_scratch4 : Memref sig .scVector .vmem S8x16x128 .f32).view.loc (thrL d L))) :
    ((Memref.whole cc0_scratch4 : Memref sig .scVector .vmem S8x16x128 .f32).view.loc (thrL d L) ↦{fullShare} f : sProp 𝕄)
      = bigSep (Finset.Ico 0 8) fun b => (Memref.whole cc0_scratch4 : Memref sig .scVector .vmem S8x16x128 .f32).view.loc (thrL d L) ↦[slotSet b]{fullShare} f := by
  rw [← pointsTo_biUnion (Finset.Ico 0 8) (ℓ := (Memref.whole cc0_scratch4 : Memref sig .scVector .vmem S8x16x128 .f32).view.loc (thrL d L)) slotSet slotSet_disjoint, slotSet_cover]; try rfl

/-- The elements of slot b of row buffer 4 are the slot's view: the slice's, re-indexed without its unit axis. -/
theorem set_slot4 (b : ℕ) (h : b < 8) : (slotOf (Memref.whole cc0_scratch4 : Memref sig .scVector .vmem S8x16x128 .f32) b h).view.set = slotSet b := by
  unfold slotSet
  rw [dif_pos h]
  show (((Memref.whole cc0_scratch4 : Memref sig .scVector .vmem S8x16x128 .f32).view.slice (Rect.unit (s := S8x16x128) ![b, 0, 0] S1x16x128.size (slot_inb b h))).reshape S16x128
    squeezes_S1x16x128_S16x128.numel_eq).set = _
  rw [View.set_reshape]
  exact View.set_slice_whole _ _

/-- One slot of row buffer 4, at the buffer's contents. -/
theorem slot4_one (f : Buf (Elt F) ((Memref.whole cc0_scratch4 : Memref sig .scVector .vmem S8x16x128 .f32).view.loc (thrL d L))) (b : ℕ) (h : b < 8) :
    ((Memref.whole cc0_scratch4 : Memref sig .scVector .vmem S8x16x128 .f32).view.loc (thrL d L) ↦[slotSet b]{fullShare} f : sProp 𝕄) ⊢ slotAny d L (slotOf (Memref.whole cc0_scratch4 : Memref sig .scVector .vmem S8x16x128 .f32) b h) := by
  unfold slotAny
  iintro H
  iexists f
  rw [set_slot4]
  iexact H

/-- (I2) for row buffer 4: the buffer whole is its eight slots, each at some contents. -/
theorem slots4_intro (f : Buf (Elt F) ((Memref.whole cc0_scratch4 : Memref sig .scVector .vmem S8x16x128 .f32).view.loc (thrL d L))) :
    ((Memref.whole cc0_scratch4 : Memref sig .scVector .vmem S8x16x128 .f32).view.loc (thrL d L) ↦{fullShare} f : sProp 𝕄)
      ⊢ bigSep (Finset.Ico 0 8) (fun b => if hb : b < 8 then slotAny d L (slotOf (Memref.whole cc0_scratch4 : Memref sig .scVector .vmem S8x16x128 .f32) b hb) else iprop(emp)) := by
  rw [buf4_pts]
  refine bigSep_mono (fun b hb => ?_)
  have h : b < 8 := (Finset.mem_Ico.mp hb).2
  rw [dif_pos h]
  exact slot4_one d L f b h

/-- Row buffer 5 whole is its eight slots. -/
theorem buf5_pts (f : Buf (Elt F) ((Memref.whole cc0_scratch5 : Memref sig .scVector .vmem S8x16x128 .f32).view.loc (thrL d L))) :
    ((Memref.whole cc0_scratch5 : Memref sig .scVector .vmem S8x16x128 .f32).view.loc (thrL d L) ↦{fullShare} f : sProp 𝕄)
      = bigSep (Finset.Ico 0 8) fun b => (Memref.whole cc0_scratch5 : Memref sig .scVector .vmem S8x16x128 .f32).view.loc (thrL d L) ↦[slotSet b]{fullShare} f := by
  rw [← pointsTo_biUnion (Finset.Ico 0 8) (ℓ := (Memref.whole cc0_scratch5 : Memref sig .scVector .vmem S8x16x128 .f32).view.loc (thrL d L)) slotSet slotSet_disjoint, slotSet_cover]; try rfl

/-- The elements of slot b of row buffer 5 are the slot's view: the slice's, re-indexed without its unit axis. -/
theorem set_slot5 (b : ℕ) (h : b < 8) : (slotOf (Memref.whole cc0_scratch5 : Memref sig .scVector .vmem S8x16x128 .f32) b h).view.set = slotSet b := by
  unfold slotSet
  rw [dif_pos h]
  show (((Memref.whole cc0_scratch5 : Memref sig .scVector .vmem S8x16x128 .f32).view.slice (Rect.unit (s := S8x16x128) ![b, 0, 0] S1x16x128.size (slot_inb b h))).reshape S16x128
    squeezes_S1x16x128_S16x128.numel_eq).set = _
  rw [View.set_reshape]
  exact View.set_slice_whole _ _

/-- One slot of row buffer 5, at the buffer's contents. -/
theorem slot5_one (f : Buf (Elt F) ((Memref.whole cc0_scratch5 : Memref sig .scVector .vmem S8x16x128 .f32).view.loc (thrL d L))) (b : ℕ) (h : b < 8) :
    ((Memref.whole cc0_scratch5 : Memref sig .scVector .vmem S8x16x128 .f32).view.loc (thrL d L) ↦[slotSet b]{fullShare} f : sProp 𝕄) ⊢ slotAny d L (slotOf (Memref.whole cc0_scratch5 : Memref sig .scVector .vmem S8x16x128 .f32) b h) := by
  unfold slotAny
  iintro H
  iexists f
  rw [set_slot5]
  iexact H

/-- (I2) for row buffer 5: the buffer whole is its eight slots, each at some contents. -/
theorem slots5_intro (f : Buf (Elt F) ((Memref.whole cc0_scratch5 : Memref sig .scVector .vmem S8x16x128 .f32).view.loc (thrL d L))) :
    ((Memref.whole cc0_scratch5 : Memref sig .scVector .vmem S8x16x128 .f32).view.loc (thrL d L) ↦{fullShare} f : sProp 𝕄)
      ⊢ bigSep (Finset.Ico 0 8) (fun b => if hb : b < 8 then slotAny d L (slotOf (Memref.whole cc0_scratch5 : Memref sig .scVector .vmem S8x16x128 .f32) b hb) else iprop(emp)) := by
  rw [buf5_pts]
  refine bigSep_mono (fun b hb => ?_)
  have h : b < 8 := (Finset.mem_Ico.mp hb).2
  rw [dif_pos h]
  exact slot5_one d L f b h

end Tile
end Cert.Proof.KB
end
-- ==== Proof.KB.LoopEnds.Idle.lean ====
/-
  The counted loop's start, the idle slots: slot b of the three row buffers at some contents, the slot's three gather
  semaphores (numbers b, 8 + b, 16 + b of the subcore's pool) at zero and its three read tokens (numbers b and 16 + b of the
  entity table, 8 + b of the relation table) are the idle slot of every chunk number congruent to b modulo 8; the eight of
  them, for chunk numbers 0 … 7, are what the invariant holds before the first trip.
-/
import proofs.«209583_g49984829390938_cont_8to1c4_457_35_alg».proof.Proof.KB.LoopInv
import proofs.«209583_g49984829390938_cont_8to1c4_457_35_alg».proof.Proof.KB.SlotRead
import proofs.«209583_g49984829390938_cont_8to1c4_457_35_alg».proof.Proof.KB.TileOwn

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## Names for the pieces -/

/-- The entity table as the gathers take it: the whole array, sliced at offset (0, 0) at its full size. -/
abbrev entSl : Memref sig .scVector .hbm S100000x128 .f32 :=
  (Memref.whole main_arg1_scv : Memref sig .scVector .hbm S100000x128 .f32).slice (Rect.unit (s := S100000x128) ![0, 0] S100000x128.size inb_S100000x128_S100000x128_0_0) (fun _ => rfl)
/-- The relation table likewise. -/
abbrev relSl : Memref sig .scVector .hbm S100000x128 .f32 :=
  (Memref.whole main_arg2_scv : Memref sig .scVector .hbm S100000x128 .f32).slice (Rect.unit (s := S100000x128) ![0, 0] S100000x128.size inb_S100000x128_S100000x128_0_0) (fun _ => rfl)

/-- The subcore's DMA semaphore i at zero. -/
abbrev semZ (i : ℕ) (hi : i < 26) : sProp 𝕄 :=
  semVal ((thrL d L, SemLoc.dma (⟨i, hi⟩ : DmaSem sig)) : GSem nD τ sig) 0
/-- Read token i of the entity table. -/
abbrev tokE (i : ℕ) (hi : i < 26) : sProp 𝕄 :=
  iprop(entSl.view.loc (thrL d L) ↦[entSl.view.set]{tokQ L i hi} m (entLoc d))
/-- Read token i of the relation table. -/
abbrev tokRl (i : ℕ) (hi : i < 26) : sProp 𝕄 :=
  iprop(relSl.view.loc (thrL d L) ↦[relSl.view.set]{tokQ L i hi} m (relLoc d))

/-! ## One slot -/

/-- The nine pieces of slot b — its rows in the three buffers, its three semaphores at zero, its three read tokens — are the
    idle slot of any chunk number c with c mod 8 = b. -/
theorem idle_one (c b : ℕ) (hb : b < 8) (e : c % 8 = b) :
    (iprop(slotAny d L (slotOf (Memref.whole cc0_scratch3 : Memref sig .scVector .vmem S8x16x128 .f32) b hb) ∗ slotAny d L (slotOf (Memref.whole cc0_scratch4 : Memref sig .scVector .vmem S8x16x128 .f32) b hb) ∗ slotAny d L (slotOf (Memref.whole cc0_scratch5 : Memref sig .scVector .vmem S8x16x128 .f32) b hb)
      ∗ semZ d L b (by omega) ∗ semZ d L (8 + b) (by omega) ∗ semZ d L (16 + b) (by omega)
      ∗ tokE m d L (0 + b) (by omega) ∗ tokRl m d L (8 + b) (by omega) ∗ tokE m d L (16 + b) (by omega)) : sProp 𝕄)
      ⊢ idles m d L c := by
  subst e
  unfold idles idleH idleR idleT
  rw [semOf_scratch8, semOf_scratch9, semOf_scratch10]
  iintro ⟨A3, A4, A5, Za, Zb, Zc, Ta, Tb, Tc⟩
  isplitl [A3 Za Ta]
  · isplitl [A3]
    · iexact A3
    isplitl [Za]
    · iexact Za
    iexact Ta
  isplitl [A4 Zb Tb]
  · isplitl [A4]
    · iexact A4
    isplitl [Zb]
    · iexact Zb
    iexact Tb
  · isplitl [A5]
    · iexact A5
    isplitl [Zc]
    · iexact Zc
    iexact Tc

/-- The converse: an idle slot of chunk number c, c mod 8 = b, is slot b's nine pieces. -/
theorem idle_one_elim (c b : ℕ) (hb : b < 8) (e : c % 8 = b) :
    idles m d L c ⊢ (iprop(slotAny d L (slotOf (Memref.whole cc0_scratch3 : Memref sig .scVector .vmem S8x16x128 .f32) b hb) ∗ slotAny d L (slotOf (Memref.whole cc0_scratch4 : Memref sig .scVector .vmem S8x16x128 .f32) b hb) ∗ slotAny d L (slotOf (Memref.whole cc0_scratch5 : Memref sig .scVector .vmem S8x16x128 .f32) b hb)
      ∗ semZ d L b (by omega) ∗ semZ d L (8 + b) (by omega) ∗ semZ d L (16 + b) (by omega)
      ∗ tokE m d L (0 + b) (by omega) ∗ tokRl m d L (8 + b) (by omega) ∗ tokE m d L (16 + b) (by omega)) : sProp 𝕄) := by
  subst e
  unfold idles idleH idleR idleT
  rw [semOf_scratch8, semOf_scratch9, semOf_scratch10]
  iintro ⟨⟨A3, Za, Ta⟩, ⟨A4, Zb, Tb⟩, ⟨A5, Zc, Tc⟩⟩
  isplitl [A3]
  · iexact A3
  isplitl [A4]
  · iexact A4
  isplitl [A5]
  · iexact A5
  isplitl [Za]
  · iexact Za
  isplitl [Zb]
  · iexact Zb
  isplitl [Zc]
  · iexact Zc
  isplitl [Ta]
  · iexact Ta
  isplitl [Tb]
  · iexact Tb
  iexact Tc

/-! ## Eight consecutive numbers -/

theorem ico_0_8 : Finset.Ico 0 8 = ({0, 1, 2, 3, 4, 5, 6, 7} : Finset ℕ) := by decide
theorem ico_32_40 : Finset.Ico 32 40 = ({32, 33, 34, 35, 36, 37, 38, 39} : Finset ℕ) := by decide

theorem bigSep_ico_0_8 (Φ : ℕ → sProp 𝕄) :
    bigSep (Finset.Ico 0 8) Φ = iprop(Φ 0 ∗ Φ 1 ∗ Φ 2 ∗ Φ 3 ∗ Φ 4 ∗ Φ 5 ∗ Φ 6 ∗ Φ 7) := by
  rw [ico_0_8, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem bigSep_ico_32_40 (Φ : ℕ → sProp 𝕄) :
    bigSep (Finset.Ico 32 40) Φ = iprop(Φ 32 ∗ Φ 33 ∗ Φ 34 ∗ Φ 35 ∗ Φ 36 ∗ Φ 37 ∗ Φ 38 ∗ Φ 39) := by
  rw [ico_32_40, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## (I3) All eight slots idle -/

/-- (I3) The three row buffers' slots, the 24 gather semaphores at zero and the 24 read tokens are the eight idle slots. -/
theorem idles_intro :
    (iprop(bigSep (Finset.Ico 0 8) (fun b => if hb : b < 8 then slotAny d L (slotOf (Memref.whole cc0_scratch3 : Memref sig .scVector .vmem S8x16x128 .f32) b hb) else iprop(emp))
      ∗ bigSep (Finset.Ico 0 8) (fun b => if hb : b < 8 then slotAny d L (slotOf (Memref.whole cc0_scratch4 : Memref sig .scVector .vmem S8x16x128 .f32) b hb) else iprop(emp))
      ∗ bigSep (Finset.Ico 0 8) (fun b => if hb : b < 8 then slotAny d L (slotOf (Memref.whole cc0_scratch5 : Memref sig .scVector .vmem S8x16x128 .f32) b hb) else iprop(emp))
      ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
      ∗ (tokE m d L 0 (by decide) ∗ tokE m d L 1 (by decide) ∗ tokE m d L 2 (by decide) ∗ tokE m d L 3 (by decide) ∗ tokE m d L 4 (by decide) ∗ tokE m d L 5 (by decide) ∗ tokE m d L 6 (by decide) ∗ tokE m d L 7 (by decide) ∗ tokRl m d L 8 (by decide) ∗ tokRl m d L 9 (by decide) ∗ tokRl m d L 10 (by decide) ∗ tokRl m d L 11 (by decide) ∗ tokRl m d L 12 (by decide) ∗ tokRl m d L 13 (by decide) ∗ tokRl m d L 14 (by decide) ∗ tokRl m d L 15 (by decide) ∗ tokE m d L 16 (by decide) ∗ tokE m d L 17 (by decide) ∗ tokE m d L 18 (by decide) ∗ tokE m d L 19 (by decide) ∗ tokE m d L 20 (by decide) ∗ tokE m d L 21 (by decide) ∗ tokE m d L 22 (by decide) ∗ tokE m d L 23 (by decide))) : sProp 𝕄)
      ⊢ bigSep (Finset.Ico 0 8) (idles m d L) := by
  rw [bigSep_ico_0_8, bigSep_ico_0_8, bigSep_ico_0_8, bigSep_ico_0_8]
  simp only [Nat.reduceLT, ↓reduceDIte]
  iintro ⟨⟨A3_0, A3_1, A3_2, A3_3, A3_4, A3_5, A3_6, A3_7⟩, ⟨A4_0, A4_1, A4_2, A4_3, A4_4, A4_5, A4_6, A4_7⟩, ⟨A5_0, A5_1, A5_2, A5_3, A5_4, A5_5, A5_6, A5_7⟩, ⟨Z0, Z1, Z2, Z3, Z4, Z5, Z6, Z7, Z8, Z9, Z10, Z11, Z12, Z13, Z14, Z15, Z16, Z17, Z18, Z19, Z20, Z21, Z22, Z23⟩, ⟨T0, T1, T2, T3, T4, T5, T6, T7, T8, T9, T10, T11, T12, T13, T14, T15, T16, T17, T18, T19, T20, T21, T22, T23⟩⟩
  isplitl [A3_0 A4_0 A5_0 Z0 Z8 Z16 T0 T8 T16]
  · iapply (idle_one m d L 0 0 (by decide) (by decide))
    isplitl [A3_0]
    · iexact A3_0
    isplitl [A4_0]
    · iexact A4_0
    isplitl [A5_0]
    · iexact A5_0
    isplitl [Z0]
    · iexact Z0
    isplitl [Z8]
    · iexact Z8
    isplitl [Z16]
    · iexact Z16
    isplitl [T0]
    · iexact T0
    isplitl [T8]
    · iexact T8
    iexact T16
  isplitl [A3_1 A4_1 A5_1 Z1 Z9 Z17 T1 T9 T17]
  · iapply (idle_one m d L 1 1 (by decide) (by decide))
    isplitl [A3_1]
    · iexact A3_1
    isplitl [A4_1]
    · iexact A4_1
    isplitl [A5_1]
    · iexact A5_1
    isplitl [Z1]
    · iexact Z1
    isplitl [Z9]
    · iexact Z9
    isplitl [Z17]
    · iexact Z17
    isplitl [T1]
    · iexact T1
    isplitl [T9]
    · iexact T9
    iexact T17
  isplitl [A3_2 A4_2 A5_2 Z2 Z10 Z18 T2 T10 T18]
  · iapply (idle_one m d L 2 2 (by decide) (by decide))
    isplitl [A3_2]
    · iexact A3_2
    isplitl [A4_2]
    · iexact A4_2
    isplitl [A5_2]
    · iexact A5_2
    isplitl [Z2]
    · iexact Z2
    isplitl [Z10]
    · iexact Z10
    isplitl [Z18]
    · iexact Z18
    isplitl [T2]
    · iexact T2
    isplitl [T10]
    · iexact T10
    iexact T18
  isplitl [A3_3 A4_3 A5_3 Z3 Z11 Z19 T3 T11 T19]
  · iapply (idle_one m d L 3 3 (by decide) (by decide))
    isplitl [A3_3]
    · iexact A3_3
    isplitl [A4_3]
    · iexact A4_3
    isplitl [A5_3]
    · iexact A5_3
    isplitl [Z3]
    · iexact Z3
    isplitl [Z11]
    · iexact Z11
    isplitl [Z19]
    · iexact Z19
    isplitl [T3]
    · iexact T3
    isplitl [T11]
    · iexact T11
    iexact T19
  isplitl [A3_4 A4_4 A5_4 Z4 Z12 Z20 T4 T12 T20]
  · iapply (idle_one m d L 4 4 (by decide) (by decide))
    isplitl [A3_4]
    · iexact A3_4
    isplitl [A4_4]
    · iexact A4_4
    isplitl [A5_4]
    · iexact A5_4
    isplitl [Z4]
    · iexact Z4
    isplitl [Z12]
    · iexact Z12
    isplitl [Z20]
    · iexact Z20
    isplitl [T4]
    · iexact T4
    isplitl [T12]
    · iexact T12
    iexact T20
  isplitl [A3_5 A4_5 A5_5 Z5 Z13 Z21 T5 T13 T21]
  · iapply (idle_one m d L 5 5 (by decide) (by decide))
    isplitl [A3_5]
    · iexact A3_5
    isplitl [A4_5]
    · iexact A4_5
    isplitl [A5_5]
    · iexact A5_5
    isplitl [Z5]
    · iexact Z5
    isplitl [Z13]
    · iexact Z13
    isplitl [Z21]
    · iexact Z21
    isplitl [T5]
    · iexact T5
    isplitl [T13]
    · iexact T13
    iexact T21
  isplitl [A3_6 A4_6 A5_6 Z6 Z14 Z22 T6 T14 T22]
  · iapply (idle_one m d L 6 6 (by decide) (by decide))
    isplitl [A3_6]
    · iexact A3_6
    isplitl [A4_6]
    · iexact A4_6
    isplitl [A5_6]
    · iexact A5_6
    isplitl [Z6]
    · iexact Z6
    isplitl [Z14]
    · iexact Z14
    isplitl [Z22]
    · iexact Z22
    isplitl [T6]
    · iexact T6
    isplitl [T14]
    · iexact T14
    iexact T22
  · iapply (idle_one m d L 7 7 (by decide) (by decide))
    isplitl [A3_7]
    · iexact A3_7
    isplitl [A4_7]
    · iexact A4_7
    isplitl [A5_7]
    · iexact A5_7
    isplitl [Z7]
    · iexact Z7
    isplitl [Z15]
    · iexact Z15
    isplitl [Z23]
    · iexact Z23
    isplitl [T7]
    · iexact T7
    isplitl [T15]
    · iexact T15
    iexact T23

/-! ## A table's read token, through the slice the gathers take or through the whole array -/

theorem tblRect_set : (Rect.unit (s := S100000x128) ![0, 0] S100000x128.size inb_S100000x128_S100000x128_0_0).set = Finset.univ := by
  ext i
  simp only [Finset.mem_univ, iff_true]
  rw [Rect.mem_set_unit]
  intro a
  match a with
  | ⟨0, _⟩ =>
    have h0 : (i 0).val < 100000 := (i 0).isLt
    show 0 ≤ (i 0).val ∧ (i 0).val < 0 + 100000; omega
  | ⟨1, _⟩ =>
    have h1 : (i 1).val < 128 := (i 1).isLt
    show 0 ≤ (i 1).val ∧ (i 1).val < 0 + 128; omega

/-- The slice the gathers take of the entity table is the whole table. -/
theorem entSl_set : (entSl).view.set = Finset.univ :=
  (View.set_slice_whole _ _).trans tblRect_set
theorem relSl_set : (relSl).view.set = Finset.univ :=
  (View.set_slice_whole _ _).trans tblRect_set

/-- A share of the entity table held through the gathers' slice is that share of the whole array. -/
theorem entTok_eq (q : PosShare TreeShare) (t : Buf (Elt F) (entSl.view.loc (thrL d L))) :
    (entSl.view.loc (thrL d L) ↦[entSl.view.set]{q} t : sProp 𝕄) = ((Memref.whole main_arg1_scv : Memref sig .scVector .hbm S100000x128 .f32).view.loc (thrL d L) ↦{q} t) := by
  rw [entSl_set]; try rfl
theorem relTok_eq (q : PosShare TreeShare) (t : Buf (Elt F) (relSl.view.loc (thrL d L))) :
    (relSl.view.loc (thrL d L) ↦[relSl.view.set]{q} t : sProp 𝕄) = ((Memref.whole main_arg2_scv : Memref sig .scVector .hbm S100000x128 .f32).view.loc (thrL d L) ↦{q} t) := by
  rw [relSl_set]; try rfl

end Tile
end Cert.Proof.KB
end
-- ==== Proof.KB.LoopEnds.Exit.lean ====
/-
  The counted loop's end: from the invariant's pieces after the last trip back to what the subcore holds. The 32 windows of
  a list, each at whatever it holds, glue into the list whole at some contents (the windows are pairwise disjoint and cover
  it); the idle slots of the virtual chunks 32 … 39 are the eight slots (chunk c's slot is c mod 8), whose rows glue into the
  three row buffers whole at some contents, with the 24 gather semaphores at zero and the 24 read tokens.
-/
import proofs.«209583_g49984829390938_cont_8to1c4_457_35_alg».proof.Proof.KB.LoopInv
import proofs.«209583_g49984829390938_cont_8to1c4_457_35_alg».proof.Proof.KB.SlotRead
import proofs.«209583_g49984829390938_cont_8to1c4_457_35_alg».proof.Proof.KB.TileOwn
import proofs.«209583_g49984829390938_cont_8to1c4_457_35_alg».proof.Proof.KB.LoopEnds.Wins
import proofs.«209583_g49984829390938_cont_8to1c4_457_35_alg».proof.Proof.KB.LoopEnds.Slots
import proofs.«209583_g49984829390938_cont_8to1c4_457_35_alg».proof.Proof.KB.LoopEnds.Idle

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## (E1) The windows back to the lists -/

/-- A window of list H, forgetting what it holds. -/
theorem winH_forget (c : ℕ) (h : c < 32) :
    winHolds m d L 0 c (winOf (Memref.whole cc0_scratch0 : Memref sig .scVector .vmem S512 .i32) c h) ⊢ (iprop(∃ fw, (Memref.whole cc0_scratch0 : Memref sig .scVector .vmem S512 .i32).view.loc (thrL d L) ↦[winSet c]{fullShare} fw) : sProp 𝕄) := by
  unfold winHolds
  rw [set_winH c h]
  iintro ⟨%fw, -, H⟩
  iexists fw
  iexact H

theorem winsH_forget :
    bigSep (Finset.Ico 0 32) (fun c => if hc : c < 32 then winHolds m d L 0 c (winOf (Memref.whole cc0_scratch0 : Memref sig .scVector .vmem S512 .i32) c hc) else iprop(emp))
      ⊢ (bigSep (Finset.Ico 0 32) (fun c => iprop(∃ fw, (Memref.whole cc0_scratch0 : Memref sig .scVector .vmem S512 .i32).view.loc (thrL d L) ↦[winSet c]{fullShare} fw)) : sProp 𝕄) := by
  refine bigSep_mono (fun c hc => ?_)
  have h : c < 32 := (Finset.mem_Ico.mp hc).2
  rw [dif_pos h]
  exact winH_forget m d L c h

/-- (E1) for list H: the 32 windows are the list whole, at some contents. -/
theorem listH_join :
    bigSep (Finset.Ico 0 32) (fun c => if hc : c < 32 then winHolds m d L 0 c (winOf (Memref.whole cc0_scratch0 : Memref sig .scVector .vmem S512 .i32) c hc) else iprop(emp))
      ⊢ (iprop(∃ f, (Memref.whole cc0_scratch0 : Memref sig .scVector .vmem S512 .i32).view.loc (thrL d L) ↦{fullShare} f) : sProp 𝕄) := by
  haveI : Nonempty (Buf (Elt F) ((Memref.whole cc0_scratch0 : Memref sig .scVector .vmem S512 .i32).view.loc (thrL d L))) := ⟨(fun _ => 0#32 : S512.Idx → BitVec 32)⟩
  iintro H
  ihave H1 := (winsH_forget m d L) $$ H
  ihave H2 := (bigSep_exists_pi (Finset.Ico 0 32) (fun (c : ℕ) (fw : Buf (Elt F) ((Memref.whole cc0_scratch0 : Memref sig .scVector .vmem S512 .i32).view.loc (thrL d L))) => iprop((Memref.whole cc0_scratch0 : Memref sig .scVector .vmem S512 .i32).view.loc (thrL d L) ↦[winSet c]{fullShare} fw))) $$ H1
  icases H2 with ⟨%fs, H2⟩
  ihave H3 := (pointsTo_biUnion_join (Finset.Ico 0 32) winSet fs (fs 0) winSet_disjoint) $$ H2
  icases H3 with ⟨%g, -, Hg⟩
  rw [winSet_cover]
  iexists g
  iexact Hg

/-- A window of list R, forgetting what it holds. -/
theorem winR_forget (c : ℕ) (h : c < 32) :
    winHolds m d L 1 c (winOf (Memref.whole cc0_scratch1 : Memref sig .scVector .vmem S512 .i32) c h) ⊢ (iprop(∃ fw, (Memref.whole cc0_scratch1 : Memref sig .scVector .vmem S512 .i32).view.loc (thrL d L) ↦[winSet c]{fullShare} fw) : sProp 𝕄) := by
  unfold winHolds
  rw [set_winR c h]
  iintro ⟨%fw, -, H⟩
  iexists fw
  iexact H

theorem winsR_forget :
    bigSep (Finset.Ico 0 32) (fun c => if hc : c < 32 then winHolds m d L 1 c (winOf (Memref.whole cc0_scratch1 : Memref sig .scVector .vmem S512 .i32) c hc) else iprop(emp))
      ⊢ (bigSep (Finset.Ico 0 32) (fun c => iprop(∃ fw, (Memref.whole cc0_scratch1 : Memref sig .scVector .vmem S512 .i32).view.loc (thrL d L) ↦[winSet c]{fullShare} fw)) : sProp 𝕄) := by
  refine bigSep_mono (fun c hc => ?_)
  have h : c < 32 := (Finset.mem_Ico.mp hc).2
  rw [dif_pos h]
  exact winR_forget m d L c h

/-- (E1) for list R: the 32 windows are the list whole, at some contents. -/
theorem listR_join :
    bigSep (Finset.Ico 0 32) (fun c => if hc : c < 32 then winHolds m d L 1 c (winOf (Memref.whole cc0_scratch1 : Memref sig .scVector .vmem S512 .i32) c hc) else iprop(emp))
      ⊢ (iprop(∃ f, (Memref.whole cc0_scratch1 : Memref sig .scVector .vmem S512 .i32).view.loc (thrL d L) ↦{fullShare} f) : sProp 𝕄) := by
  haveI : Nonempty (Buf (Elt F) ((Memref.whole cc0_scratch1 : Memref sig .scVector .vmem S512 .i32).view.loc (thrL d L))) := ⟨(fun _ => 0#32 : S512.Idx → BitVec 32)⟩
  iintro H
  ihave H1 := (winsR_forget m d L) $$ H
  ihave H2 := (bigSep_exists_pi (Finset.Ico 0 32) (fun (c : ℕ) (fw : Buf (Elt F) ((Memref.whole cc0_scratch1 : Memref sig .scVector .vmem S512 .i32).view.loc (thrL d L))) => iprop((Memref.whole cc0_scratch1 : Memref sig .scVector .vmem S512 .i32).view.loc (thrL d L) ↦[winSet c]{fullShare} fw))) $$ H1
  icases H2 with ⟨%fs, H2⟩
  ihave H3 := (pointsTo_biUnion_join (Finset.Ico 0 32) winSet fs (fs 0) winSet_disjoint) $$ H2
  icases H3 with ⟨%g, -, Hg⟩
  rw [winSet_cover]
  iexists g
  iexact Hg

/-- A window of list T, forgetting what it holds. -/
theorem winT_forget (c : ℕ) (h : c < 32) :
    winHolds m d L 2 c (winOf (Memref.whole cc0_scratch2 : Memref sig .scVector .vmem S512 .i32) c h) ⊢ (iprop(∃ fw, (Memref.whole cc0_scratch2 : Memref sig .scVector .vmem S512 .i32).view.loc (thrL d L) ↦[winSet c]{fullShare} fw) : sProp 𝕄) := by
  unfold winHolds
  rw [set_winT c h]
  iintro ⟨%fw, -, H⟩
  iexists fw
  iexact H

theorem winsT_forget :
    bigSep (Finset.Ico 0 32) (fun c => if hc : c < 32 then winHolds m d L 2 c (winOf (Memref.whole cc0_scratch2 : Memref sig .scVector .vmem S512 .i32) c hc) else iprop(emp))
      ⊢ (bigSep (Finset.Ico 0 32) (fun c => iprop(∃ fw, (Memref.whole cc0_scratch2 : Memref sig .scVector .vmem S512 .i32).view.loc (thrL d L) ↦[winSet c]{fullShare} fw)) : sProp 𝕄) := by
  refine bigSep_mono (fun c hc => ?_)
  have h : c < 32 := (Finset.mem_Ico.mp hc).2
  rw [dif_pos h]
  exact winT_forget m d L c h

/-- (E1) for list T: the 32 windows are the list whole, at some contents. -/
theorem listT_join :
    bigSep (Finset.Ico 0 32) (fun c => if hc : c < 32 then winHolds m d L 2 c (winOf (Memref.whole cc0_scratch2 : Memref sig .scVector .vmem S512 .i32) c hc) else iprop(emp))
      ⊢ (iprop(∃ f, (Memref.whole cc0_scratch2 : Memref sig .scVector .vmem S512 .i32).view.loc (thrL d L) ↦{fullShare} f) : sProp 𝕄) := by
  haveI : Nonempty (Buf (Elt F) ((Memref.whole cc0_scratch2 : Memref sig .scVector .vmem S512 .i32).view.loc (thrL d L))) := ⟨(fun _ => 0#32 : S512.Idx → BitVec 32)⟩
  iintro H
  ihave H1 := (winsT_forget m d L) $$ H
  ihave H2 := (bigSep_exists_pi (Finset.Ico 0 32) (fun (c : ℕ) (fw : Buf (Elt F) ((Memref.whole cc0_scratch2 : Memref sig .scVector .vmem S512 .i32).view.loc (thrL d L))) => iprop((Memref.whole cc0_scratch2 : Memref sig .scVector .vmem S512 .i32).view.loc (thrL d L) ↦[winSet c]{fullShare} fw))) $$ H1
  icases H2 with ⟨%fs, H2⟩
  ihave H3 := (pointsTo_biUnion_join (Finset.Ico 0 32) winSet fs (fs 0) winSet_disjoint) $$ H2
  icases H3 with ⟨%g, -, Hg⟩
  rw [winSet_cover]
  iexists g
  iexact Hg

/-- The chunks' windows, list by list. -/
theorem wins_split :
    bigSep (Finset.Ico 0 32) (wins m d L)
      = (iprop(bigSep (Finset.Ico 0 32) (fun c => if hc : c < 32 then winHolds m d L 0 c (winOf (Memref.whole cc0_scratch0 : Memref sig .scVector .vmem S512 .i32) c hc) else iprop(emp))
        ∗ bigSep (Finset.Ico 0 32) (fun c => if hc : c < 32 then winHolds m d L 1 c (winOf (Memref.whole cc0_scratch1 : Memref sig .scVector .vmem S512 .i32) c hc) else iprop(emp))
        ∗ bigSep (Finset.Ico 0 32) (fun c => if hc : c < 32 then winHolds m d L 2 c (winOf (Memref.whole cc0_scratch2 : Memref sig .scVector .vmem S512 .i32) c hc) else iprop(emp))) : sProp 𝕄) := by
  rw [← bigSep_sep', ← bigSep_sep']
  refine bigSep_congr (fun c hc => ?_)
  have h : c < 32 := (Finset.mem_Ico.mp hc).2
  unfold wins
  rw [dif_pos h, dif_pos h, dif_pos h, dif_pos h]

/-- (E1) All the chunks' windows are the three lists whole, each at some contents. -/
theorem wins_elim :
    bigSep (Finset.Ico 0 32) (wins m d L)
      ⊢ (iprop((∃ f, (Memref.whole cc0_scratch0 : Memref sig .scVector .vmem S512 .i32).view.loc (thrL d L) ↦{fullShare} f)
        ∗ (∃ f, (Memref.whole cc0_scratch1 : Memref sig .scVector .vmem S512 .i32).view.loc (thrL d L) ↦{fullShare} f)
        ∗ (∃ f, (Memref.whole cc0_scratch2 : Memref sig .scVector .vmem S512 .i32).view.loc (thrL d L) ↦{fullShare} f)) : sProp 𝕄) := by
  rw [wins_split]
  iintro ⟨H0, H1, H2⟩
  isplitl [H0]
  · iapply (listH_join m d L); iexact H0
  isplitl [H1]
  · iapply (listR_join m d L); iexact H1
  · iapply (listT_join m d L); iexact H2

/-! ## (E2) The slots back to the row buffers -/

/-- A slot of row buffer 3 at some contents, as elements of the buffer. -/
theorem slot3_forget (b : ℕ) (h : b < 8) :
    slotAny d L (slotOf (Memref.whole cc0_scratch3 : Memref sig .scVector .vmem S8x16x128 .f32) b h) ⊢ (iprop(∃ G, (Memref.whole cc0_scratch3 : Memref sig .scVector .vmem S8x16x128 .f32).view.loc (thrL d L) ↦[slotSet b]{fullShare} G) : sProp 𝕄) := by
  unfold slotAny
  rw [set_slot3 b h]

theorem slots3_forget :
    bigSep (Finset.Ico 0 8) (fun b => if hb : b < 8 then slotAny d L (slotOf (Memref.whole cc0_scratch3 : Memref sig .scVector .vmem S8x16x128 .f32) b hb) else iprop(emp))
      ⊢ (bigSep (Finset.Ico 0 8) (fun b => iprop(∃ G, (Memref.whole cc0_scratch3 : Memref sig .scVector .vmem S8x16x128 .f32).view.loc (thrL d L) ↦[slotSet b]{fullShare} G)) : sProp 𝕄) := by
  refine bigSep_mono (fun b hb => ?_)
  have h : b < 8 := (Finset.mem_Ico.mp hb).2
  rw [dif_pos h]
  exact slot3_forget d L b h

/-- The eight slots of row buffer 3, each at some contents, are the buffer whole at some contents. -/
theorem slots3_join :
    bigSep (Finset.Ico 0 8) (fun b => if hb : b < 8 then slotAny d L (slotOf (Memref.whole cc0_scratch3 : Memref sig .scVector .vmem S8x16x128 .f32) b hb) else iprop(emp))
      ⊢ (iprop(∃ f, (Memref.whole cc0_scratch3 : Memref sig .scVector .vmem S8x16x128 .f32).view.loc (thrL d L) ↦{fullShare} f) : sProp 𝕄) := by
  by_cases hne : Nonempty (Buf (Elt F) ((Memref.whole cc0_scratch3 : Memref sig .scVector .vmem S8x16x128 .f32).view.loc (thrL d L)))
  · haveI := hne
    iintro H
    ihave H1 := (slots3_forget d L) $$ H
    ihave H2 := (bigSep_exists_pi (Finset.Ico 0 8) (fun (b : ℕ) (G : Buf (Elt F) ((Memref.whole cc0_scratch3 : Memref sig .scVector .vmem S8x16x128 .f32).view.loc (thrL d L))) => iprop((Memref.whole cc0_scratch3 : Memref sig .scVector .vmem S8x16x128 .f32).view.loc (thrL d L) ↦[slotSet b]{fullShare} G))) $$ H1
    icases H2 with ⟨%fs, H2⟩
    ihave H3 := (pointsTo_biUnion_join (Finset.Ico 0 8) slotSet fs (fs 0) slotSet_disjoint) $$ H2
    icases H3 with ⟨%g, -, Hg⟩
    rw [slotSet_cover]
    iexists g
    iexact Hg
  · -- no contents at all: then no slot is held either
    rw [bigSep_ico_0_8]
    simp only [Nat.reduceLT, ↓reduceDIte]
    unfold slotAny
    iintro ⟨⟨%G, H0⟩, H⟩
    exact absurd ⟨G⟩ hne

/-- A slot of row buffer 4 at some contents, as elements of the buffer. -/
theorem slot4_forget (b : ℕ) (h : b < 8) :
    slotAny d L (slotOf (Memref.whole cc0_scratch4 : Memref sig .scVector .vmem S8x16x128 .f32) b h) ⊢ (iprop(∃ G, (Memref.whole cc0_scratch4 : Memref sig .scVector .vmem S8x16x128 .f32).view.loc (thrL d L) ↦[slotSet b]{fullShare} G) : sProp 𝕄) := by
  unfold slotAny
  rw [set_slot4 b h]

theorem slots4_forget :
    bigSep (Finset.Ico 0 8) (fun b => if hb : b < 8 then slotAny d L (slotOf (Memref.whole cc0_scratch4 : Memref sig .scVector .vmem S8x16x128 .f32) b hb) else iprop(emp))
      ⊢ (bigSep (Finset.Ico 0 8) (fun b => iprop(∃ G, (Memref.whole cc0_scratch4 : Memref sig .scVector .vmem S8x16x128 .f32).view.loc (thrL d L) ↦[slotSet b]{fullShare} G)) : sProp 𝕄) := by
  refine bigSep_mono (fun b hb => ?_)
  have h : b < 8 := (Finset.mem_Ico.mp hb).2
  rw [dif_pos h]
  exact slot4_forget d L b h

/-- The eight slots of row buffer 4, each at some contents, are the buffer whole at some contents. -/
theorem slots4_join :
    bigSep (Finset.Ico 0 8) (fun b => if hb : b < 8 then slotAny d L (slotOf (Memref.whole cc0_scratch4 : Memref sig .scVector .vmem S8x16x128 .f32) b hb) else iprop(emp))
      ⊢ (iprop(∃ f, (Memref.whole cc0_scratch4 : Memref sig .scVector .vmem S8x16x128 .f32).view.loc (thrL d L) ↦{fullShare} f) : sProp 𝕄) := by
  by_cases hne : Nonempty (Buf (Elt F) ((Memref.whole cc0_scratch4 : Memref sig .scVector .vmem S8x16x128 .f32).view.loc (thrL d L)))
  · haveI := hne
    iintro H
    ihave H1 := (slots4_forget d L) $$ H
    ihave H2 := (bigSep_exists_pi (Finset.Ico 0 8) (fun (b : ℕ) (G : Buf (Elt F) ((Memref.whole cc0_scratch4 : Memref sig .scVector .vmem S8x16x128 .f32).view.loc (thrL d L))) => iprop((Memref.whole cc0_scratch4 : Memref sig .scVector .vmem S8x16x128 .f32).view.loc (thrL d L) ↦[slotSet b]{fullShare} G))) $$ H1
    icases H2 with ⟨%fs, H2⟩
    ihave H3 := (pointsTo_biUnion_join (Finset.Ico 0 8) slotSet fs (fs 0) slotSet_disjoint) $$ H2
    icases H3 with ⟨%g, -, Hg⟩
    rw [slotSet_cover]
    iexists g
    iexact Hg
  · -- no contents at all: then no slot is held either
    rw [bigSep_ico_0_8]
    simp only [Nat.reduceLT, ↓reduceDIte]
    unfold slotAny
    iintro ⟨⟨%G, H0⟩, H⟩
    exact absurd ⟨G⟩ hne

/-- A slot of row buffer 5 at some contents, as elements of the buffer. -/
theorem slot5_forget (b : ℕ) (h : b < 8) :
    slotAny d L (slotOf (Memref.whole cc0_scratch5 : Memref sig .scVector .vmem S8x16x128 .f32) b h) ⊢ (iprop(∃ G, (Memref.whole cc0_scratch5 : Memref sig .scVector .vmem S8x16x128 .f32).view.loc (thrL d L) ↦[slotSet b]{fullShare} G) : sProp 𝕄) := by
  unfold slotAny
  rw [set_slot5 b h]

theorem slots5_forget :
    bigSep (Finset.Ico 0 8) (fun b => if hb : b < 8 then slotAny d L (slotOf (Memref.whole cc0_scratch5 : Memref sig .scVector .vmem S8x16x128 .f32) b hb) else iprop(emp))
      ⊢ (bigSep (Finset.Ico 0 8) (fun b => iprop(∃ G, (Memref.whole cc0_scratch5 : Memref sig .scVector .vmem S8x16x128 .f32).view.loc (thrL d L) ↦[slotSet b]{fullShare} G)) : sProp 𝕄) := by
  refine bigSep_mono (fun b hb => ?_)
  have h : b < 8 := (Finset.mem_Ico.mp hb).2
  rw [dif_pos h]
  exact slot5_forget d L b h

/-- The eight slots of row buffer 5, each at some contents, are the buffer whole at some contents. -/
theorem slots5_join :
    bigSep (Finset.Ico 0 8) (fun b => if hb : b < 8 then slotAny d L (slotOf (Memref.whole cc0_scratch5 : Memref sig .scVector .vmem S8x16x128 .f32) b hb) else iprop(emp))
      ⊢ (iprop(∃ f, (Memref.whole cc0_scratch5 : Memref sig .scVector .vmem S8x16x128 .f32).view.loc (thrL d L) ↦{fullShare} f) : sProp 𝕄) := by
  by_cases hne : Nonempty (Buf (Elt F) ((Memref.whole cc0_scratch5 : Memref sig .scVector .vmem S8x16x128 .f32).view.loc (thrL d L)))
  · haveI := hne
    iintro H
    ihave H1 := (slots5_forget d L) $$ H
    ihave H2 := (bigSep_exists_pi (Finset.Ico 0 8) (fun (b : ℕ) (G : Buf (Elt F) ((Memref.whole cc0_scratch5 : Memref sig .scVector .vmem S8x16x128 .f32).view.loc (thrL d L))) => iprop((Memref.whole cc0_scratch5 : Memref sig .scVector .vmem S8x16x128 .f32).view.loc (thrL d L) ↦[slotSet b]{fullShare} G))) $$ H1
    icases H2 with ⟨%fs, H2⟩
    ihave H3 := (pointsTo_biUnion_join (Finset.Ico 0 8) slotSet fs (fs 0) slotSet_disjoint) $$ H2
    icases H3 with ⟨%g, -, Hg⟩
    rw [slotSet_cover]
    iexists g
    iexact Hg
  · -- no contents at all: then no slot is held either
    rw [bigSep_ico_0_8]
    simp only [Nat.reduceLT, ↓reduceDIte]
    unfold slotAny
    iintro ⟨⟨%G, H0⟩, H⟩
    exact absurd ⟨G⟩ hne

/-! ## (E3) The idle slots of the virtual chunks 32 … 39 -/

/-- (E2, E3) After the last trip the idle slots are the three row buffers whole at some contents, the 24 gather semaphores
    at zero and the 24 read tokens. -/
theorem idles_elim :
    bigSep (Finset.Ico 32 40) (idles m d L)
      ⊢ (iprop((∃ f, (Memref.whole cc0_scratch3 : Memref sig .scVector .vmem S8x16x128 .f32).view.loc (thrL d L) ↦{fullShare} f)
        ∗ (∃ f, (Memref.whole cc0_scratch4 : Memref sig .scVector .vmem S8x16x128 .f32).view.loc (thrL d L) ↦{fullShare} f)
        ∗ (∃ f, (Memref.whole cc0_scratch5 : Memref sig .scVector .vmem S8x16x128 .f32).view.loc (thrL d L) ↦{fullShare} f)
        ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
        ∗ (tokE m d L 0 (by decide) ∗ tokE m d L 1 (by decide) ∗ tokE m d L 2 (by decide) ∗ tokE m d L 3 (by decide) ∗ tokE m d L 4 (by decide) ∗ tokE m d L 5 (by decide) ∗ tokE m d L 6 (by decide) ∗ tokE m d L 7 (by decide) ∗ tokRl m d L 8 (by decide) ∗ tokRl m d L 9 (by decide) ∗ tokRl m d L 10 (by decide) ∗ tokRl m d L 11 (by decide) ∗ tokRl m d L 12 (by decide) ∗ tokRl m d L 13 (by decide) ∗ tokRl m d L 14 (by decide) ∗ tokRl m d L 15 (by decide) ∗ tokE m d L 16 (by decide) ∗ tokE m d L 17 (by decide) ∗ tokE m d L 18 (by decide) ∗ tokE m d L 19 (by decide) ∗ tokE m d L 20 (by decide) ∗ tokE m d L 21 (by decide) ∗ tokE m d L 22 (by decide) ∗ tokE m d L 23 (by decide))) : sProp 𝕄) := by
  rw [bigSep_ico_32_40]
  iintro ⟨I0, I1, I2, I3, I4, I5, I6, I7⟩
  ihave J0 := (idle_one_elim m d L 32 0 (by decide) (by decide)) $$ I0
  icases J0 with ⟨A3_0, A4_0, A5_0, Z0, Z8, Z16, T0, T8, T16⟩
  ihave J1 := (idle_one_elim m d L 33 1 (by decide) (by decide)) $$ I1
  icases J1 with ⟨A3_1, A4_1, A5_1, Z1, Z9, Z17, T1, T9, T17⟩
  ihave J2 := (idle_one_elim m d L 34 2 (by decide) (by decide)) $$ I2
  icases J2 with ⟨A3_2, A4_2, A5_2, Z2, Z10, Z18, T2, T10, T18⟩
  ihave J3 := (idle_one_elim m d L 35 3 (by decide) (by decide)) $$ I3
  icases J3 with ⟨A3_3, A4_3, A5_3, Z3, Z11, Z19, T3, T11, T19⟩
  ihave J4 := (idle_one_elim m d L 36 4 (by decide) (by decide)) $$ I4
  icases J4 with ⟨A3_4, A4_4, A5_4, Z4, Z12, Z20, T4, T12, T20⟩
  ihave J5 := (idle_one_elim m d L 37 5 (by decide) (by decide)) $$ I5
  icases J5 with ⟨A3_5, A4_5, A5_5, Z5, Z13, Z21, T5, T13, T21⟩
  ihave J6 := (idle_one_elim m d L 38 6 (by decide) (by decide)) $$ I6
  icases J6 with ⟨A3_6, A4_6, A5_6, Z6, Z14, Z22, T6, T14, T22⟩
  ihave J7 := (idle_one_elim m d L 39 7 (by decide) (by decide)) $$ I7
  icases J7 with ⟨A3_7, A4_7, A5_7, Z7, Z15, Z23, T7, T15, T23⟩
  isplitl [A3_0 A3_1 A3_2 A3_3 A3_4 A3_5 A3_6 A3_7]
  · iapply (slots3_join d L)
    rw [bigSep_ico_0_8]
    simp only [Nat.reduceLT, ↓reduceDIte]
    isplitl [A3_0]
    · iexact A3_0
    isplitl [A3_1]
    · iexact A3_1
    isplitl [A3_2]
    · iexact A3_2
    isplitl [A3_3]
    · iexact A3_3
    isplitl [A3_4]
    · iexact A3_4
    isplitl [A3_5]
    · iexact A3_5
    isplitl [A3_6]
    · iexact A3_6
    iexact A3_7
  isplitl [A4_0 A4_1 A4_2 A4_3 A4_4 A4_5 A4_6 A4_7]
  · iapply (slots4_join d L)
    rw [bigSep_ico_0_8]
    simp only [Nat.reduceLT, ↓reduceDIte]
    isplitl [A4_0]
    · iexact A4_0
    isplitl [A4_1]
    · iexact A4_1
    isplitl [A4_2]
    · iexact A4_2
    isplitl [A4_3]
    · iexact A4_3
    isplitl [A4_4]
    · iexact A4_4
    isplitl [A4_5]
    · iexact A4_5
    isplitl [A4_6]
    · iexact A4_6
    iexact A4_7
  isplitl [A5_0 A5_1 A5_2 A5_3 A5_4 A5_5 A5_6 A5_7]
  · iapply (slots5_join d L)
    rw [bigSep_ico_0_8]
    simp only [Nat.reduceLT, ↓reduceDIte]
    isplitl [A5_0]
    · iexact A5_0
    isplitl [A5_1]
    · iexact A5_1
    isplitl [A5_2]
    · iexact A5_2
    isplitl [A5_3]
    · iexact A5_3
    isplitl [A5_4]
    · iexact A5_4
    isplitl [A5_5]
    · iexact A5_5
    isplitl [A5_6]
    · iexact A5_6
    iexact A5_7
  isplitl [Z0 Z1 Z2 Z3 Z4 Z5 Z6 Z7 Z8 Z9 Z10 Z11 Z12 Z13 Z14 Z15 Z16 Z17 Z18 Z19 Z20 Z21 Z22 Z23]
  · isplitl [Z0]
    · iexact Z0
    isplitl [Z1]
    · iexact Z1
    isplitl [Z2]
    · iexact Z2
    isplitl [Z3]
    · iexact Z3
    isplitl [Z4]
    · iexact Z4
    isplitl [Z5]
    · iexact Z5
    isplitl [Z6]
    · iexact Z6
    isplitl [Z7]
    · iexact Z7
    isplitl [Z8]
    · iexact Z8
    isplitl [Z9]
    · iexact Z9
    isplitl [Z10]
    · iexact Z10
    isplitl [Z11]
    · iexact Z11
    isplitl [Z12]
    · iexact Z12
    isplitl [Z13]
    · iexact Z13
    isplitl [Z14]
    · iexact Z14
    isplitl [Z15]
    · iexact Z15
    isplitl [Z16]
    · iexact Z16
    isplitl [Z17]
    · iexact Z17
    isplitl [Z18]
    · iexact Z18
    isplitl [Z19]
    · iexact Z19
    isplitl [Z20]
    · iexact Z20
    isplitl [Z21]
    · iexact Z21
    isplitl [Z22]
    · iexact Z22
    iexact Z23
  · isplitl [T0]
    · iexact T0
    isplitl [T1]
    · iexact T1
    isplitl [T2]
    · iexact T2
    isplitl [T3]
    · iexact T3
    isplitl [T4]
    · iexact T4
    isplitl [T5]
    · iexact T5
    isplitl [T6]
    · iexact T6
    isplitl [T7]
    · iexact T7
    isplitl [T8]
    · iexact T8
    isplitl [T9]
    · iexact T9
    isplitl [T10]
    · iexact T10
    isplitl [T11]
    · iexact T11
    isplitl [T12]
    · iexact T12
    isplitl [T13]
    · iexact T13
    isplitl [T14]
    · iexact T14
    isplitl [T15]
    · iexact T15
    isplitl [T16]
    · iexact T16
    isplitl [T17]
    · iexact T17
    isplitl [T18]
    · iexact T18
    isplitl [T19]
    · iexact T19
    isplitl [T20]
    · iexact T20
    isplitl [T21]
    · iexact T21
    isplitl [T22]
    · iexact T22
    iexact T23

end Tile
end Cert.Proof.KB
end
-- ==== Proof.KB.LoopEnds.Bracket.lean ====
/-
  What brackets the counted loop. Before it: the three landed lists, the three row buffers, the 24 gather semaphores at zero
  and the tile's share of each table become the eight idle slots, the 32 chunks' windows, and what is left of the two shares
  (the remainder after 26 tokens are cut, and the tokens the gathers do not use: the entity table's tokens 8 … 15, 24, 25, the
  relation table's 0 … 7, 16 … 25). After it the same pieces go back. Also: the first seven chunks split off an interval of
  chunk numbers, and a gather in flight stated at a slot number is the flight of any chunk in that slot.
-/
import proofs.«209583_g49984829390938_cont_8to1c4_457_35_alg».proof.Proof.KB.LoopInv
import proofs.«209583_g49984829390938_cont_8to1c4_457_35_alg».proof.Proof.KB.SlotRead
import proofs.«209583_g49984829390938_cont_8to1c4_457_35_alg».proof.Proof.KB.TileOwn
import proofs.«209583_g49984829390938_cont_8to1c4_457_35_alg».proof.Proof.KB.LoopEnds.Wins
import proofs.«209583_g49984829390938_cont_8to1c4_457_35_alg».proof.Proof.KB.LoopEnds.Slots
import proofs.«209583_g49984829390938_cont_8to1c4_457_35_alg».proof.Proof.KB.LoopEnds.Idle
import proofs.«209583_g49984829390938_cont_8to1c4_457_35_alg».proof.Proof.KB.LoopEnds.Exit

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-! ## Names -/

/-- The tile's share of each table. -/
abbrev qt : PosShare TreeShare := Transfers.shareTok fullShare 32 (tL L)
/-- The entity table, whole, at share q. -/
abbrev entWU (q : PosShare TreeShare) : sProp 𝕄 := iprop((Memref.whole main_arg1_scv : Memref sig .scVector .hbm S100000x128 .f32).view.loc (thrL d L) ↦{q} m (entLoc d))
/-- The relation table, whole, at share q. -/
abbrev relWU (q : PosShare TreeShare) : sProp 𝕄 := iprop((Memref.whole main_arg2_scv : Memref sig .scVector .hbm S100000x128 .f32).view.loc (thrL d L) ↦{q} m (relLoc d))

/-- What the loop does not use of the entity table's tile share. -/
def entRest : sProp 𝕄 :=
  iprop(entWU m d L (Transfers.shareDrop (qt L) 26) ∗ entWU m d L (tokQ L 8 (by decide)) ∗ entWU m d L (tokQ L 9 (by decide)) ∗ entWU m d L (tokQ L 10 (by decide)) ∗ entWU m d L (tokQ L 11 (by decide)) ∗ entWU m d L (tokQ L 12 (by decide)) ∗ entWU m d L (tokQ L 13 (by decide)) ∗ entWU m d L (tokQ L 14 (by decide)) ∗ entWU m d L (tokQ L 15 (by decide)) ∗ entWU m d L (tokQ L 24 (by decide)) ∗ entWU m d L (tokQ L 25 (by decide)))
/-- What the loop does not use of the relation table's tile share. -/
def relRest : sProp 𝕄 :=
  iprop(relWU m d L (Transfers.shareDrop (qt L) 26) ∗ relWU m d L (tokQ L 0 (by decide)) ∗ relWU m d L (tokQ L 1 (by decide)) ∗ relWU m d L (tokQ L 2 (by decide)) ∗ relWU m d L (tokQ L 3 (by decide)) ∗ relWU m d L (tokQ L 4 (by decide)) ∗ relWU m d L (tokQ L 5 (by decide)) ∗ relWU m d L (tokQ L 6 (by decide)) ∗ relWU m d L (tokQ L 7 (by decide)) ∗ relWU m d L (tokQ L 16 (by decide)) ∗ relWU m d L (tokQ L 17 (by decide)) ∗ relWU m d L (tokQ L 18 (by decide)) ∗ relWU m d L (tokQ L 19 (by decide)) ∗ relWU m d L (tokQ L 20 (by decide)) ∗ relWU m d L (tokQ L 21 (by decide)) ∗ relWU m d L (tokQ L 22 (by decide)) ∗ relWU m d L (tokQ L 23 (by decide)) ∗ relWU m d L (tokQ L 24 (by decide)) ∗ relWU m d L (tokQ L 25 (by decide)))

/-! ## (B3) Intervals of chunk numbers -/

theorem ico_0_32_split : Finset.Ico 0 32 = insert 0 (insert 1 (insert 2 (insert 3 (insert 4 (insert 5 (insert 6 (Finset.Ico 7 32))))))) := by
  ext x
  simp only [Finset.mem_insert, Finset.mem_Ico]
  omega
theorem ico_0_7 : Finset.Ico 0 7 = ({0, 1, 2, 3, 4, 5, 6} : Finset ℕ) := by decide
theorem ico_7_8 : Finset.Ico 7 8 = ({7} : Finset ℕ) := by decide

theorem bigSep_ico_0_32_split (Φ : ℕ → sProp 𝕄) :
    bigSep (Finset.Ico 0 32) Φ = iprop(Φ 0 ∗ Φ 1 ∗ Φ 2 ∗ Φ 3 ∗ Φ 4 ∗ Φ 5 ∗ Φ 6 ∗ bigSep (Finset.Ico 7 32) Φ) := by
  have h0 : (0 : ℕ) ∉ insert 1 (insert 2 (insert 3 (insert 4 (insert 5 (insert 6 (Finset.Ico 7 32)))))) := by
    simp only [Finset.mem_insert, Finset.mem_Ico]; omega
  have h1 : (1 : ℕ) ∉ insert 2 (insert 3 (insert 4 (insert 5 (insert 6 (Finset.Ico 7 32))))) := by
    simp only [Finset.mem_insert, Finset.mem_Ico]; omega
  have h2 : (2 : ℕ) ∉ insert 3 (insert 4 (insert 5 (insert 6 (Finset.Ico 7 32)))) := by
    simp only [Finset.mem_insert, Finset.mem_Ico]; omega
  have h3 : (3 : ℕ) ∉ insert 4 (insert 5 (insert 6 (Finset.Ico 7 32))) := by
    simp only [Finset.mem_insert, Finset.mem_Ico]; omega
  have h4 : (4 : ℕ) ∉ insert 5 (insert 6 (Finset.Ico 7 32)) := by
    simp only [Finset.mem_insert, Finset.mem_Ico]; omega
  have h5 : (5 : ℕ) ∉ insert 6 (Finset.Ico 7 32) := by
    simp only [Finset.mem_insert, Finset.mem_Ico]; omega
  have h6 : (6 : ℕ) ∉ Finset.Ico 7 32 := by
    simp only [Finset.mem_Ico]; omega
  rw [ico_0_32_split, SparseCore.bigSep_insert' h0, SparseCore.bigSep_insert' h1, SparseCore.bigSep_insert' h2,
    SparseCore.bigSep_insert' h3, SparseCore.bigSep_insert' h4, SparseCore.bigSep_insert' h5, SparseCore.bigSep_insert' h6]

/-- The first seven chunks' windows off the 32. -/
theorem wins_first7 :
    bigSep (Finset.Ico 0 32) (wins m d L)
      = (iprop(wins m d L 0 ∗ wins m d L 1 ∗ wins m d L 2 ∗ wins m d L 3 ∗ wins m d L 4 ∗ wins m d L 5 ∗ wins m d L 6
          ∗ bigSep (Finset.Ico 7 32) (wins m d L)) : sProp 𝕄) :=
  bigSep_ico_0_32_split (wins m d L)

theorem bigSep_ico_0_7 (Φ : ℕ → sProp 𝕄) : bigSep (Finset.Ico 0 7) Φ = iprop(Φ 0 ∗ Φ 1 ∗ Φ 2 ∗ Φ 3 ∗ Φ 4 ∗ Φ 5 ∗ Φ 6) := by
  rw [ico_0_7, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem bigSep_ico_7_8 (Φ : ℕ → sProp 𝕄) : bigSep (Finset.Ico 7 8) Φ = Φ 7 := by
  rw [ico_7_8, bigSep_singleton]

theorem bigSep_ico_0_0 (Φ : ℕ → sProp 𝕄) : bigSep (Finset.Ico 0 0) Φ = iprop(emp) := by
  rw [Finset.Ico_self, bigSep_empty]
  rfl

theorem bigSep_ico_32_32 (Φ : ℕ → sProp 𝕄) : bigSep (Finset.Ico 32 32) Φ = iprop(emp) := by
  rw [Finset.Ico_self, bigSep_empty]
  rfl

/-! ## (B4) A flight at a slot number -/

/-- A gather of table H in flight into slot number b, stated at the slot, is the invariant's flight of any chunk c with
    c mod 8 = b. -/
theorem flightH_one (c b : ℕ) (hc : c < 32) (hb : b < 8) (e : c % 8 = b) :
    (Transfers.Flight (countersEmb (U := UU)) (thrL d L) (SemLoc.dma (⟨0 + b, lt_pool 0 b hb (by omega)⟩ : DmaSem sig)) (default : HIx 1) 65536
        (iprop((slotHolds m d L (m (entLoc d) : S100000x128.Idx → F .f32) 0 c (slotOf (Memref.whole cc0_scratch3 : Memref sig .scVector .vmem S8x16x128 .f32) b hb)
            ∗ winHolds m d L 0 c (winOf (Memref.whole cc0_scratch0 : Memref sig .scVector .vmem S512 .i32) c hc))
          ∗ tokE m d L (0 + b) (by omega))) : sProp 𝕄)
      ⊢ flightH m d L c hc := by
  subst e
  unfold flightH delivH
  rw [semOf_scratch8]
  simp only [Nat.zero_add]
  rfl

/-- A gather of table R in flight into slot number b, stated at the slot, is the invariant's flight of any chunk c with
    c mod 8 = b. -/
theorem flightR_one (c b : ℕ) (hc : c < 32) (hb : b < 8) (e : c % 8 = b) :
    (Transfers.Flight (countersEmb (U := UU)) (thrL d L) (SemLoc.dma (⟨8 + b, lt_pool 8 b hb (by omega)⟩ : DmaSem sig)) (default : HIx 1) 65536
        (iprop((slotHolds m d L (m (relLoc d) : S100000x128.Idx → F .f32) 1 c (slotOf (Memref.whole cc0_scratch4 : Memref sig .scVector .vmem S8x16x128 .f32) b hb)
            ∗ winHolds m d L 1 c (winOf (Memref.whole cc0_scratch1 : Memref sig .scVector .vmem S512 .i32) c hc))
          ∗ tokRl m d L (8 + b) (by omega))) : sProp 𝕄)
      ⊢ flightR m d L c hc := by
  subst e
  unfold flightR delivR
  rw [semOf_scratch9]

/-- A gather of table T in flight into slot number b, stated at the slot, is the invariant's flight of any chunk c with
    c mod 8 = b. -/
theorem flightT_one (c b : ℕ) (hc : c < 32) (hb : b < 8) (e : c % 8 = b) :
    (Transfers.Flight (countersEmb (U := UU)) (thrL d L) (SemLoc.dma (⟨16 + b, lt_pool 16 b hb (by omega)⟩ : DmaSem sig)) (default : HIx 1) 65536
        (iprop((slotHolds m d L (m (entLoc d) : S100000x128.Idx → F .f32) 2 c (slotOf (Memref.whole cc0_scratch5 : Memref sig .scVector .vmem S8x16x128 .f32) b hb)
            ∗ winHolds m d L 2 c (winOf (Memref.whole cc0_scratch2 : Memref sig .scVector .vmem S512 .i32) c hc))
          ∗ tokE m d L (16 + b) (by omega))) : sProp 𝕄)
      ⊢ flightT m d L c hc := by
  subst e
  unfold flightT delivT
  rw [semOf_scratch10]

/-! ## The idle slots with the tokens held through the whole arrays -/

/-- A read token of the entity table held through the gathers' slice is that share of the whole array. -/
theorem tokE_eq (i : ℕ) (hi : i < 26) : tokE m d L i hi = entWU m d L (tokQ L i hi) := entTok_eq d L _ _
/-- A read token of the relation table likewise. -/
theorem tokRl_eq (i : ℕ) (hi : i < 26) : tokRl m d L i hi = relWU m d L (tokQ L i hi) := relTok_eq d L _ _

/-- `idles_intro` with each read token as a share of the whole array. -/
theorem idles_intro_w :
    (iprop(bigSep (Finset.Ico 0 8) (fun b => if hb : b < 8 then slotAny d L (slotOf (Memref.whole cc0_scratch3 : Memref sig .scVector .vmem S8x16x128 .f32) b hb) else iprop(emp))
      ∗ bigSep (Finset.Ico 0 8) (fun b => if hb : b < 8 then slotAny d L (slotOf (Memref.whole cc0_scratch4 : Memref sig .scVector .vmem S8x16x128 .f32) b hb) else iprop(emp))
      ∗ bigSep (Finset.Ico 0 8) (fun b => if hb : b < 8 then slotAny d L (slotOf (Memref.whole cc0_scratch5 : Memref sig .scVector .vmem S8x16x128 .f32) b hb) else iprop(emp))
      ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
      ∗ (entWU m d L (tokQ L 0 (by decide)) ∗ entWU m d L (tokQ L 1 (by decide)) ∗ entWU m d L (tokQ L 2 (by decide)) ∗ entWU m d L (tokQ L 3 (by decide)) ∗ entWU m d L (tokQ L 4 (by decide)) ∗ entWU m d L (tokQ L 5 (by decide)) ∗ entWU m d L (tokQ L 6 (by decide)) ∗ entWU m d L (tokQ L 7 (by decide)) ∗ relWU m d L (tokQ L 8 (by decide)) ∗ relWU m d L (tokQ L 9 (by decide)) ∗ relWU m d L (tokQ L 10 (by decide)) ∗ relWU m d L (tokQ L 11 (by decide)) ∗ relWU m d L (tokQ L 12 (by decide)) ∗ relWU m d L (tokQ L 13 (by decide)) ∗ relWU m d L (tokQ L 14 (by decide)) ∗ relWU m d L (tokQ L 15 (by decide)) ∗ entWU m d L (tokQ L 16 (by decide)) ∗ entWU m d L (tokQ L 17 (by decide)) ∗ entWU m d L (tokQ L 18 (by decide)) ∗ entWU m d L (tokQ L 19 (by decide)) ∗ entWU m d L (tokQ L 20 (by decide)) ∗ entWU m d L (tokQ L 21 (by decide)) ∗ entWU m d L (tokQ L 22 (by decide)) ∗ entWU m d L (tokQ L 23 (by decide)))) : sProp 𝕄)
      ⊢ bigSep (Finset.Ico 0 8) (idles m d L) := by
  iintro ⟨B3, B4, B5, Z, T0, T1, T2, T3, T4, T5, T6, T7, T8, T9, T10, T11, T12, T13, T14, T15, T16, T17, T18, T19, T20, T21, T22, T23⟩
  iapply (idles_intro m d L)
  isplitl [B3]
  · iexact B3
  isplitl [B4]
  · iexact B4
  isplitl [B5]
  · iexact B5
  isplitl [Z]
  · iexact Z
  isplitl [T0]
  · rw [tokE_eq]; iexact T0
  isplitl [T1]
  · rw [tokE_eq]; iexact T1
  isplitl [T2]
  · rw [tokE_eq]; iexact T2
  isplitl [T3]
  · rw [tokE_eq]; iexact T3
  isplitl [T4]
  · rw [tokE_eq]; iexact T4
  isplitl [T5]
  · rw [tokE_eq]; iexact T5
  isplitl [T6]
  · rw [tokE_eq]; iexact T6
  isplitl [T7]
  · rw [tokE_eq]; iexact T7
  isplitl [T8]
  · rw [tokRl_eq]; iexact T8
  isplitl [T9]
  · rw [tokRl_eq]; iexact T9
  isplitl [T10]
  · rw [tokRl_eq]; iexact T10
  isplitl [T11]
  · rw [tokRl_eq]; iexact T11
  isplitl [T12]
  · rw [tokRl_eq]; iexact T12
  isplitl [T13]
  · rw [tokRl_eq]; iexact T13
  isplitl [T14]
  · rw [tokRl_eq]; iexact T14
  isplitl [T15]
  · rw [tokRl_eq]; iexact T15
  isplitl [T16]
  · rw [tokE_eq]; iexact T16
  isplitl [T17]
  · rw [tokE_eq]; iexact T17
  isplitl [T18]
  · rw [tokE_eq]; iexact T18
  isplitl [T19]
  · rw [tokE_eq]; iexact T19
  isplitl [T20]
  · rw [tokE_eq]; iexact T20
  isplitl [T21]
  · rw [tokE_eq]; iexact T21
  isplitl [T22]
  · rw [tokE_eq]; iexact T22
  rw [tokE_eq]; iexact T23

/-- `idles_elim` with each read token as a share of the whole array. -/
theorem idles_elim_w :
    bigSep (Finset.Ico 32 40) (idles m d L)
      ⊢ (iprop((∃ f, (Memref.whole cc0_scratch3 : Memref sig .scVector .vmem S8x16x128 .f32).view.loc (thrL d L) ↦{fullShare} f)
        ∗ (∃ f, (Memref.whole cc0_scratch4 : Memref sig .scVector .vmem S8x16x128 .f32).view.loc (thrL d L) ↦{fullShare} f)
        ∗ (∃ f, (Memref.whole cc0_scratch5 : Memref sig .scVector .vmem S8x16x128 .f32).view.loc (thrL d L) ↦{fullShare} f)
        ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
        ∗ (entWU m d L (tokQ L 0 (by decide)) ∗ entWU m d L (tokQ L 1 (by decide)) ∗ entWU m d L (tokQ L 2 (by decide)) ∗ entWU m d L (tokQ L 3 (by decide)) ∗ entWU m d L (tokQ L 4 (by decide)) ∗ entWU m d L (tokQ L 5 (by decide)) ∗ entWU m d L (tokQ L 6 (by decide)) ∗ entWU m d L (tokQ L 7 (by decide)) ∗ relWU m d L (tokQ L 8 (by decide)) ∗ relWU m d L (tokQ L 9 (by decide)) ∗ relWU m d L (tokQ L 10 (by decide)) ∗ relWU m d L (tokQ L 11 (by decide)) ∗ relWU m d L (tokQ L 12 (by decide)) ∗ relWU m d L (tokQ L 13 (by decide)) ∗ relWU m d L (tokQ L 14 (by decide)) ∗ relWU m d L (tokQ L 15 (by decide)) ∗ entWU m d L (tokQ L 16 (by decide)) ∗ entWU m d L (tokQ L 17 (by decide)) ∗ entWU m d L (tokQ L 18 (by decide)) ∗ entWU m d L (tokQ L 19 (by decide)) ∗ entWU m d L (tokQ L 20 (by decide)) ∗ entWU m d L (tokQ L 21 (by decide)) ∗ entWU m d L (tokQ L 22 (by decide)) ∗ entWU m d L (tokQ L 23 (by decide)))) : sProp 𝕄) := by
  iintro I
  ihave HI := (idles_elim m d L) $$ I
  icases HI with ⟨B3, B4, B5, Z, T0, T1, T2, T3, T4, T5, T6, T7, T8, T9, T10, T11, T12, T13, T14, T15, T16, T17, T18, T19, T20, T21, T22, T23⟩
  isplitl [B3]
  · iexact B3
  isplitl [B4]
  · iexact B4
  isplitl [B5]
  · iexact B5
  isplitl [Z]
  · iexact Z
  isplitl [T0]
  · rw [← tokE_eq]; iexact T0
  isplitl [T1]
  · rw [← tokE_eq]; iexact T1
  isplitl [T2]
  · rw [← tokE_eq]; iexact T2
  isplitl [T3]
  · rw [← tokE_eq]; iexact T3
  isplitl [T4]
  · rw [← tokE_eq]; iexact T4
  isplitl [T5]
  · rw [← tokE_eq]; iexact T5
  isplitl [T6]
  · rw [← tokE_eq]; iexact T6
  isplitl [T7]
  · rw [← tokE_eq]; iexact T7
  isplitl [T8]
  · rw [← tokRl_eq]; iexact T8
  isplitl [T9]
  · rw [← tokRl_eq]; iexact T9
  isplitl [T10]
  · rw [← tokRl_eq]; iexact T10
  isplitl [T11]
  · rw [← tokRl_eq]; iexact T11
  isplitl [T12]
  · rw [← tokRl_eq]; iexact T12
  isplitl [T13]
  · rw [← tokRl_eq]; iexact T13
  isplitl [T14]
  · rw [← tokRl_eq]; iexact T14
  isplitl [T15]
  · rw [← tokRl_eq]; iexact T15
  isplitl [T16]
  · rw [← tokE_eq]; iexact T16
  isplitl [T17]
  · rw [← tokE_eq]; iexact T17
  isplitl [T18]
  · rw [← tokE_eq]; iexact T18
  isplitl [T19]
  · rw [← tokE_eq]; iexact T19
  isplitl [T20]
  · rw [← tokE_eq]; iexact T20
  isplitl [T21]
  · rw [← tokE_eq]; iexact T21
  isplitl [T22]
  · rw [← tokE_eq]; iexact T22
  rw [← tokE_eq]; iexact T23

/-! ## (B1) Before the loop -/

/-- (B1) The landed lists, the row buffers, the gather semaphores at zero and the tile's shares of the two tables are the
    eight idle slots, the chunks' windows, and the unused rest of the two shares. -/
theorem init_idle (f0 : Buf (Elt F) ((thrL d L).loc cc0_scratch0)) (f1 : Buf (Elt F) ((thrL d L).loc cc0_scratch1))
    (f2 : Buf (Elt F) ((thrL d L).loc cc0_scratch2))
    (g3 : Buf (Elt F) ((Memref.whole cc0_scratch3 : Memref sig .scVector .vmem S8x16x128 .f32).view.loc (thrL d L))) (g4 : Buf (Elt F) ((Memref.whole cc0_scratch4 : Memref sig .scVector .vmem S8x16x128 .f32).view.loc (thrL d L)))
    (g5 : Buf (Elt F) ((Memref.whole cc0_scratch5 : Memref sig .scVector .vmem S8x16x128 .f32).view.loc (thrL d L))) :
    (iprop(((Memref.whole cc0_scratch0 : Memref sig .scVector .vmem S512 .i32).view.loc (thrL d L) ↦{fullShare} landsH m d L f0) ∗ ((Memref.whole cc0_scratch1 : Memref sig .scVector .vmem S512 .i32).view.loc (thrL d L) ↦{fullShare} landsR m d L f1) ∗ ((Memref.whole cc0_scratch2 : Memref sig .scVector .vmem S512 .i32).view.loc (thrL d L) ↦{fullShare} landsT m d L f2)
      ∗ ((Memref.whole cc0_scratch3 : Memref sig .scVector .vmem S8x16x128 .f32).view.loc (thrL d L) ↦{fullShare} g3) ∗ ((Memref.whole cc0_scratch4 : Memref sig .scVector .vmem S8x16x128 .f32).view.loc (thrL d L) ↦{fullShare} g4) ∗ ((Memref.whole cc0_scratch5 : Memref sig .scVector .vmem S8x16x128 .f32).view.loc (thrL d L) ↦{fullShare} g5)
      ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
      ∗ entWU m d L (qt L) ∗ relWU m d L (qt L)) : sProp 𝕄)
      ⊢ iprop(bigSep (Finset.Ico 0 8) (idles m d L) ∗ bigSep (Finset.Ico 0 32) (wins m d L) ∗ entRest m d L ∗ relRest m d L) := by
  iintro ⟨H0, H1, H2, G3, G4, G5, Z, E, R⟩
  ihave HE := (toks_each (F := F) (qt L) (m (entLoc d))).1 $$ E
  icases HE with ⟨Ed, E0, E1, E2, E3, E4, E5, E6, E7, E8, E9, E10, E11, E12, E13, E14, E15, E16, E17, E18, E19, E20, E21, E22, E23, E24, E25⟩
  ihave HR := (toks_each (F := F) (qt L) (m (relLoc d))).1 $$ R
  icases HR with ⟨Rd, R0, R1, R2, R3, R4, R5, R6, R7, R8, R9, R10, R11, R12, R13, R14, R15, R16, R17, R18, R19, R20, R21, R22, R23, R24, R25⟩
  isplitl [G3 G4 G5 Z E0 E1 E2 E3 E4 E5 E6 E7 R8 R9 R10 R11 R12 R13 R14 R15 E16 E17 E18 E19 E20 E21 E22 E23]
  · iapply (idles_intro_w m d L)
    isplitl [G3]
    · iapply (slots3_intro d L g3); iexact G3
    isplitl [G4]
    · iapply (slots4_intro d L g4); iexact G4
    isplitl [G5]
    · iapply (slots5_intro d L g5); iexact G5
    isplitl [Z]
    · iexact Z
    isplitl [E0]
    · iexact E0
    isplitl [E1]
    · iexact E1
    isplitl [E2]
    · iexact E2
    isplitl [E3]
    · iexact E3
    isplitl [E4]
    · iexact E4
    isplitl [E5]
    · iexact E5
    isplitl [E6]
    · iexact E6
    isplitl [E7]
    · iexact E7
    isplitl [R8]
    · iexact R8
    isplitl [R9]
    · iexact R9
    isplitl [R10]
    · iexact R10
    isplitl [R11]
    · iexact R11
    isplitl [R12]
    · iexact R12
    isplitl [R13]
    · iexact R13
    isplitl [R14]
    · iexact R14
    isplitl [R15]
    · iexact R15
    isplitl [E16]
    · iexact E16
    isplitl [E17]
    · iexact E17
    isplitl [E18]
    · iexact E18
    isplitl [E19]
    · iexact E19
    isplitl [E20]
    · iexact E20
    isplitl [E21]
    · iexact E21
    isplitl [E22]
    · iexact E22
    iexact E23
  isplitl [H0 H1 H2]
  · iapply (wins_intro m d L f0 f1 f2)
    isplitl [H0]
    · iexact H0
    isplitl [H1]
    · iexact H1
    iexact H2
  isplitl [Ed E8 E9 E10 E11 E12 E13 E14 E15 E24 E25]
  · unfold entRest
    isplitl [Ed]
    · iexact Ed
    isplitl [E8]
    · iexact E8
    isplitl [E9]
    · iexact E9
    isplitl [E10]
    · iexact E10
    isplitl [E11]
    · iexact E11
    isplitl [E12]
    · iexact E12
    isplitl [E13]
    · iexact E13
    isplitl [E14]
    · iexact E14
    isplitl [E15]
    · iexact E15
    isplitl [E24]
    · iexact E24
    iexact E25
  · unfold relRest
    isplitl [Rd]
    · iexact Rd
    isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R16]
    · iexact R16
    isplitl [R17]
    · iexact R17
    isplitl [R18]
    · iexact R18
    isplitl [R19]
    · iexact R19
    isplitl [R20]
    · iexact R20
    isplitl [R21]
    · iexact R21
    isplitl [R22]
    · iexact R22
    isplitl [R23]
    · iexact R23
    isplitl [R24]
    · iexact R24
    iexact R25

/-! ## (B2) After the loop -/

/-- (B2) After the last trip the idle slots, the windows and the unused rest are the lists and the row buffers whole at some
    contents, the gather semaphores at zero and the tile's shares of the two tables. -/
theorem exit_whole :
    (iprop(bigSep (Finset.Ico 32 40) (idles m d L) ∗ bigSep (Finset.Ico 0 32) (wins m d L) ∗ entRest m d L ∗ relRest m d L) : sProp 𝕄)
      ⊢ iprop((∃ f, (Memref.whole cc0_scratch0 : Memref sig .scVector .vmem S512 .i32).view.loc (thrL d L) ↦{fullShare} f) ∗ (∃ f, (Memref.whole cc0_scratch1 : Memref sig .scVector .vmem S512 .i32).view.loc (thrL d L) ↦{fullShare} f) ∗ (∃ f, (Memref.whole cc0_scratch2 : Memref sig .scVector .vmem S512 .i32).view.loc (thrL d L) ↦{fullShare} f)
        ∗ (∃ f, (Memref.whole cc0_scratch3 : Memref sig .scVector .vmem S8x16x128 .f32).view.loc (thrL d L) ↦{fullShare} f) ∗ (∃ f, (Memref.whole cc0_scratch4 : Memref sig .scVector .vmem S8x16x128 .f32).view.loc (thrL d L) ↦{fullShare} f) ∗ (∃ f, (Memref.whole cc0_scratch5 : Memref sig .scVector .vmem S8x16x128 .f32).view.loc (thrL d L) ↦{fullShare} f)
        ∗ (semZ d L 0 (by decide) ∗ semZ d L 1 (by decide) ∗ semZ d L 2 (by decide) ∗ semZ d L 3 (by decide) ∗ semZ d L 4 (by decide) ∗ semZ d L 5 (by decide) ∗ semZ d L 6 (by decide) ∗ semZ d L 7 (by decide) ∗ semZ d L 8 (by decide) ∗ semZ d L 9 (by decide) ∗ semZ d L 10 (by decide) ∗ semZ d L 11 (by decide) ∗ semZ d L 12 (by decide) ∗ semZ d L 13 (by decide) ∗ semZ d L 14 (by decide) ∗ semZ d L 15 (by decide) ∗ semZ d L 16 (by decide) ∗ semZ d L 17 (by decide) ∗ semZ d L 18 (by decide) ∗ semZ d L 19 (by decide) ∗ semZ d L 20 (by decide) ∗ semZ d L 21 (by decide) ∗ semZ d L 22 (by decide) ∗ semZ d L 23 (by decide))
        ∗ entWU m d L (qt L) ∗ relWU m d L (qt L)) := by
  unfold entRest relRest
  iintro ⟨I, Wn, ⟨Ed, E8, E9, E10, E11, E12, E13, E14, E15, E24, E25⟩, ⟨Rd, R0, R1, R2, R3, R4, R5, R6, R7, R16, R17, R18, R19, R20, R21, R22, R23, R24, R25⟩⟩
  ihave HI := (idles_elim_w m d L) $$ I
  icases HI with ⟨B3, B4, B5, Z, E0, E1, E2, E3, E4, E5, E6, E7, R8, R9, R10, R11, R12, R13, R14, R15, E16, E17, E18, E19, E20, E21, E22, E23⟩
  ihave HW := (wins_elim m d L) $$ Wn
  icases HW with ⟨L0, L1, L2⟩
  isplitl [L0]
  · iexact L0
  isplitl [L1]
  · iexact L1
  isplitl [L2]
  · iexact L2
  isplitl [B3]
  · iexact B3
  isplitl [B4]
  · iexact B4
  isplitl [B5]
  · iexact B5
  isplitl [Z]
  · iexact Z
  isplitl [Ed E0 E1 E2 E3 E4 E5 E6 E7 E8 E9 E10 E11 E12 E13 E14 E15 E16 E17 E18 E19 E20 E21 E22 E23 E24 E25]
  · iapply (toks_each (F := F) (qt L) (m (entLoc d))).2
    isplitl [Ed]
    · iexact Ed
    isplitl [E0]
    · iexact E0
    isplitl [E1]
    · iexact E1
    isplitl [E2]
    · iexact E2
    isplitl [E3]
    · iexact E3
    isplitl [E4]
    · iexact E4
    isplitl [E5]
    · iexact E5
    isplitl [E6]
    · iexact E6
    isplitl [E7]
    · iexact E7
    isplitl [E8]
    · iexact E8
    isplitl [E9]
    · iexact E9
    isplitl [E10]
    · iexact E10
    isplitl [E11]
    · iexact E11
    isplitl [E12]
    · iexact E12
    isplitl [E13]
    · iexact E13
    isplitl [E14]
    · iexact E14
    isplitl [E15]
    · iexact E15
    isplitl [E16]
    · iexact E16
    isplitl [E17]
    · iexact E17
    isplitl [E18]
    · iexact E18
    isplitl [E19]
    · iexact E19
    isplitl [E20]
    · iexact E20
    isplitl [E21]
    · iexact E21
    isplitl [E22]
    · iexact E22
    isplitl [E23]
    · iexact E23
    isplitl [E24]
    · iexact E24
    iexact E25
  · iapply (toks_each (F := F) (qt L) (m (relLoc d))).2
    isplitl [Rd]
    · iexact Rd
    isplitl [R0]
    · iexact R0
    isplitl [R1]
    · iexact R1
    isplitl [R2]
    · iexact R2
    isplitl [R3]
    · iexact R3
    isplitl [R4]
    · iexact R4
    isplitl [R5]
    · iexact R5
    isplitl [R6]
    · iexact R6
    isplitl [R7]
    · iexact R7
    isplitl [R8]
    · iexact R8
    isplitl [R9]
    · iexact R9
    isplitl [R10]
    · iexact R10
    isplitl [R11]
    · iexact R11
    isplitl [R12]
    · iexact R12
    isplitl [R13]
    · iexact R13
    isplitl [R14]
    · iexact R14
    isplitl [R15]
    · iexact R15
    isplitl [R16]
    · iexact R16
    isplitl [R17]
    · iexact R17
    isplitl [R18]
    · iexact R18
    isplitl [R19]
    · iexact R19
    isplitl [R20]
    · iexact R20
    isplitl [R21]
    · iexact R21
    isplitl [R22]
    · iexact R22
    isplitl [R23]
    · iexact R23
    isplitl [R24]
    · iexact R24
    iexact R25

end Tile
end Cert.Proof.KB
end
-- ==== Proof.KB.LoopEnds.OutRows.lean ====
/-
  The epilogue's value: after the last trip the score scratch holds the kernel's 512 sums for the worker's rows, and one copy
  sends it to the worker's rows of the score vector. The copy writes the scratch's words, as they are, through the whole of
  the destination slice; an element of the slice is the slice's word y, which after the write is the scratch's word y, the sum
  for the worker's row y, and the slice's word y is the score vector's element 512 t + y (t the worker's number). So on the
  slice's elements the written contents are the kernel's sums.
-/
import proofs.«209583_g49984829390938_cont_8to1c4_457_35_alg».proof.Proof.KB.LoopInv
import proofs.«209583_g49984829390938_cont_8to1c4_457_35_alg».proof.Proof.KB.SlotRead
import proofs.«209583_g49984829390938_cont_8to1c4_457_35_alg».proof.Proof.KB.TileOwn
import proofs.«209583_g49984829390938_cont_8to1c4_457_35_alg».proof.Proof.KB.ScoreStep
import Idealize.ShloMosaic.Lib.Writes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile
variable (d : Dev nD) (L : grid0.Coords)

/-- The destination slice's word y is the score vector's element 512 t + y. -/
theorem oSl_emb (j : Fin 512) :
    (oSl L).view.emb (ix1 j) = (ix1 (⟨512 * (tL L).val + j.val, by have := (tL L).isLt; have := j.isLt; omega⟩ : Fin 16384) : S16384.Idx) :=
  tile_word L j.val j.isLt

/-- What the written contents hold at the slice's word y, given what reading them through the slice gives. -/
theorem out_rows_core [FloatOps F] (g7 : Buf (Elt F) ((Memref.whole cc0_scratch7 : Memref sig .scVector .vmem S512 .f32).view.loc (thrL d L))) (hg : ScoreHolds m d L 32 g7)
    (C : (oSl L).view.ty.Contents (Elt F)) (hC : ∀ y : S512.Idx, (oSl L).view.read (Elt F) C y = g7 y) :
    ((oSl L).view.loc (thrL d L) ↦[(oSl L).view.set]{fullShare} C : sProp 𝕄)
      = (outLoc d ↦[tileSet (tL L)]{fullShare} (kout m d : Buf (Elt F) (outLoc d))) := by
  rw [pts_oSl]
  refine pointsTo_congr (fun i hi => ?_)
  have hi' : i ∈ (oSl L).view.set := by rw [set_oSl]; exact hi
  obtain ⟨y, -, rfl⟩ := Finset.mem_map.mp hi'
  obtain ⟨j, rfl⟩ : ∃ j : Fin 512, y = ix1 j := ⟨y 0, eq_ix1 y⟩
  have h1 : C ((oSl L).view.emb (ix1 j)) = g7 (ix1 j) := hC (ix1 j)
  refine h1.trans ((score_all m d L g7 hg j).trans ?_)
  exact (congrArg (kout m d) (oSl_emb L j)).symm

/-- The copy's result spelt as one listed write through the whole slice. -/
theorem out_rows_1 [FloatOps F] (g7 : Buf (Elt F) ((Memref.whole cc0_scratch7 : Memref sig .scVector .vmem S512 .f32).view.loc (thrL d L))) (hg : ScoreHolds m d L 32 g7)
    (fout : Buf (Elt F) (outLoc d)) :
    ((oSl L).view.loc (thrL d L) ↦[(oSl L).view.set]{fullShare}
        (oSl L).view.writes (Elt F) fout [⟨Rect.whole S512, ReadAs.same.apply ((Memref.whole cc0_scratch7 : Memref sig .scVector .vmem S512 .f32).view.read (Elt F) g7)⟩] : sProp 𝕄)
      = (outLoc d ↦[tileSet (tL L)]{fullShare} (kout m d : Buf (Elt F) (outLoc d))) := by
  refine out_rows_core m d L g7 hg _ (fun y => ?_)
  have h := View.read_writes_cons_emb (oSl L).view fout (Rect.whole S512) (ReadAs.same.apply ((Memref.whole cc0_scratch7 : Memref sig .scVector .vmem S512 .f32).view.read (Elt F) g7)) [] y
  rw [Rect.emb_whole_apply] at h
  exact h

/-- The copy's result spelt as one unmasked write through the slice. -/
theorem out_rows_2 [FloatOps F] (g7 : Buf (Elt F) ((Memref.whole cc0_scratch7 : Memref sig .scVector .vmem S512 .f32).view.loc (thrL d L))) (hg : ScoreHolds m d L 32 g7)
    (fout : Buf (Elt F) (outLoc d)) :
    ((oSl L).view.loc (thrL d L) ↦[(oSl L).view.set]{fullShare}
        (oSl L).view.write (Elt F) fout (ReadAs.same.apply ((Memref.whole cc0_scratch7 : Memref sig .scVector .vmem S512 .f32).view.read (Elt F) g7)) Finset.univ : sProp 𝕄)
      = (outLoc d ↦[tileSet (tL L)]{fullShare} (kout m d : Buf (Elt F) (outLoc d))) := by
  refine out_rows_core m d L g7 hg _ (fun y => ?_)
  exact View.read_write_of_mem (v := (oSl L).view) (Val := Elt F) fout _ (Finset.mem_univ y)

end Tile
end Cert.Proof.KB
end
-- ==== Proof.KB.LoopEnds.lean ====
/-
  The counted loop's ends, gathered: from what the subcore holds when the loop starts to the invariant's pieces (the landed
  lists as windows, the row buffers as slots, the slots idle with their semaphores and read tokens), and from the invariant's
  pieces after the last trip back to the lists, the row buffers, the semaphores and the tokens; and the two lemmas that
  bracket the loop with the tables' shares cut into read tokens.
-/
import proofs.«209583_g49984829390938_cont_8to1c4_457_35_alg».proof.Proof.KB.LoopEnds.Wins
import proofs.«209583_g49984829390938_cont_8to1c4_457_35_alg».proof.Proof.KB.LoopEnds.Slots
import proofs.«209583_g49984829390938_cont_8to1c4_457_35_alg».proof.Proof.KB.LoopEnds.Idle
import proofs.«209583_g49984829390938_cont_8to1c4_457_35_alg».proof.Proof.KB.LoopEnds.Exit
import proofs.«209583_g49984829390938_cont_8to1c4_457_35_alg».proof.Proof.KB.LoopEnds.Bracket
import proofs.«209583_g49984829390938_cont_8to1c4_457_35_alg».proof.Proof.KB.LoopEnds.OutRows
-- ==== Proof.KB.Tile.lean ====
/-
  One vector subcore's run of the kernel, as the launch theorem asks for it.

  The subcore is handed its 512 rows of the three index columns and of the score vector and a read share of each table.
  It first copies its rows of the three columns into its own lists — three copies completing on one semaphore, all started
  before the first of three waits, so only the third wait tells it that all three have landed. From then on the three
  lists are 32 windows of sixteen words, the three row buffers eight slots of sixteen rows, each slot with its semaphore
  and its read token of the table. The prologue starts the gathers of chunks 0 … 6 in slots 0 … 6; the 32 trips of the
  counted loop keep the invariant of KI/LoopInv.lean; after the last trip every slot is idle again, the score scratch holds
  the 512 scores, and one copy puts them in the worker's rows of the score vector.
-/
import proofs.«209583_g49984829390938_cont_8to1c4_457_35_alg».proof.Proof.KB.TileOwn
import proofs.«209583_g49984829390938_cont_8to1c4_457_35_alg».proof.Proof.KB.Loop
import proofs.«209583_g49984829390938_cont_8to1c4_457_35_alg».proof.Proof.KB.LoopEnds
import proofs.«209583_g49984829390938_cont_8to1c4_457_35_alg».proof.Proof.Gen.Kernel.Skeleton

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.SparseCore (gatherPayload rows)
variable (m : (ℓ : Loc nD τ sig) → Buf (Elt F) ℓ) [FloatOps F]

section Tile
variable (d : Dev nD) (L : grid0.Coords)

local notation "hW" => (Memref.whole Cert.Kernel.main_v1_scv : Memref Cert.Kernel.sig Kind.scVector Space.hbm Cert.Kernel.S16384 EltTy.i32)
local notation "rW" => (Memref.whole Cert.Kernel.main_v3_scv : Memref Cert.Kernel.sig Kind.scVector Space.hbm Cert.Kernel.S16384 EltTy.i32)
local notation "tW" => (Memref.whole Cert.Kernel.main_v5_scv : Memref Cert.Kernel.sig Kind.scVector Space.hbm Cert.Kernel.S16384 EltTy.i32)
local notation "entW" => (Memref.whole Cert.Kernel.main_arg1_scv : Memref Cert.Kernel.sig Kind.scVector Space.hbm Cert.Kernel.S100000x128 EltTy.f32)
local notation "relW" => (Memref.whole Cert.Kernel.main_arg2_scv : Memref Cert.Kernel.sig Kind.scVector Space.hbm Cert.Kernel.S100000x128 EltTy.f32)
local notation "outW" => (Memref.whole Cert.Kernel.main_v6_scv : Memref Cert.Kernel.sig Kind.scVector Space.hbm Cert.Kernel.S16384 EltTy.f32)

/-- A gather of the prologue, started for chunk `j` < 8 in slot `j`, is the invariant's flight of that chunk. -/
theorem flightH_lit (hpre : RangeOK m) (j : ℕ) (hj : j < 32) (hj8 : j < 8) (Mw : Memref sig .scVector .vmem S16 .i32) (eMw : winOf (Memref.whole cc0_scratch0 : Memref sig .scVector .vmem S512 .i32) j hj = Mw)
    (G : Buf (Elt F) ((slotOf (Memref.whole cc0_scratch3 : Memref sig .scVector .vmem S8x16x128 .f32) j hj8).view.loc (thrL d L))) (fw : Buf (Elt F) (Mw.view.loc (thrL d L))) (hn) (hin)
    (hfw : ∀ z : S16.Idx, Mw.view.read (Elt F) fw z = col m d 0 (ix1 (rowN L j (z 0).val))) :
    (Transfers.Flight (countersEmb (U := UU)) (thrL d L) (SemLoc.dma (⟨0 + j, lt_pool 0 j hj8 (by decide)⟩ : DmaSem sig)) (default : HIx 1) 65536
        iprop((((slotOf (Memref.whole cc0_scratch3 : Memref sig .scVector .vmem S8x16x128 .f32) j hj8).view.loc (thrL d L) ↦[(slotOf (Memref.whole cc0_scratch3 : Memref sig .scVector .vmem S8x16x128 .f32) j hj8).view.set]{fullShare}
              (slotOf (Memref.whole cc0_scratch3 : Memref sig .scVector .vmem S8x16x128 .f32) j hj8).view.writes (Elt F) G [⟨Rect.whole S16x128, gatherPayload gathers_S100000x128_S16x128 (((Memref.whole main_arg1_scv : Memref sig .scVector .hbm S100000x128 .f32).slice (Rect.unit (s := S100000x128) ![0, 0] S100000x128.size inb_S100000x128_S100000x128_0_0) (fun _ => rfl)).view.read (Elt F) (m (entLoc d))) (rows (Mw.view.read (Elt F) fw) hn hin)⟩])
            ∗ (Mw.view.loc (thrL d L) ↦[Mw.view.set]{fullShare} fw))
          ∗ tokE m d L (0 + j) (by omega)) : sProp 𝕄)
      ⊢ flightH m d L j hj := by
  subst eMw
  exact (Transfers.Flight_mono (countersEmb (U := UU)) (thrL d L) (landed_ent m d L hpre 0 j _ _ _ G fw gathers_S100000x128_S16x128 hn hin _ hfw)).trans
    (flightH_one m d L j j hj hj8 (Nat.mod_eq_of_lt hj8))

/-- A gather of the prologue, started for chunk `j` < 8 in slot `j`, is the invariant's flight of that chunk. -/
theorem flightR_lit (hpre : RangeOK m) (j : ℕ) (hj : j < 32) (hj8 : j < 8) (Mw : Memref sig .scVector .vmem S16 .i32) (eMw : winOf (Memref.whole cc0_scratch1 : Memref sig .scVector .vmem S512 .i32) j hj = Mw)
    (G : Buf (Elt F) ((slotOf (Memref.whole cc0_scratch4 : Memref sig .scVector .vmem S8x16x128 .f32) j hj8).view.loc (thrL d L))) (fw : Buf (Elt F) (Mw.view.loc (thrL d L))) (hn) (hin)
    (hfw : ∀ z : S16.Idx, Mw.view.read (Elt F) fw z = col m d 1 (ix1 (rowN L j (z 0).val))) :
    (Transfers.Flight (countersEmb (U := UU)) (thrL d L) (SemLoc.dma (⟨8 + j, lt_pool 8 j hj8 (by decide)⟩ : DmaSem sig)) (default : HIx 1) 65536
        iprop((((slotOf (Memref.whole cc0_scratch4 : Memref sig .scVector .vmem S8x16x128 .f32) j hj8).view.loc (thrL d L) ↦[(slotOf (Memref.whole cc0_scratch4 : Memref sig .scVector .vmem S8x16x128 .f32) j hj8).view.set]{fullShare}
              (slotOf (Memref.whole cc0_scratch4 : Memref sig .scVector .vmem S8x16x128 .f32) j hj8).view.writes (Elt F) G [⟨Rect.whole S16x128, gatherPayload gathers_S100000x128_S16x128 (((Memref.whole main_arg2_scv : Memref sig .scVector .hbm S100000x128 .f32).slice (Rect.unit (s := S100000x128) ![0, 0] S100000x128.size inb_S100000x128_S100000x128_0_0) (fun _ => rfl)).view.read (Elt F) (m (relLoc d))) (rows (Mw.view.read (Elt F) fw) hn hin)⟩])
            ∗ (Mw.view.loc (thrL d L) ↦[Mw.view.set]{fullShare} fw))
          ∗ tokRl m d L (8 + j) (by omega)) : sProp 𝕄)
      ⊢ flightR m d L j hj := by
  subst eMw
  exact (Transfers.Flight_mono (countersEmb (U := UU)) (thrL d L) (landed_rel m d L hpre 1 j _ _ _ G fw gathers_S100000x128_S16x128 hn hin _ hfw)).trans
    (flightR_one m d L j j hj hj8 (Nat.mod_eq_of_lt hj8))

/-- A gather of the prologue, started for chunk `j` < 8 in slot `j`, is the invariant's flight of that chunk. -/
theorem flightT_lit (hpre : RangeOK m) (j : ℕ) (hj : j < 32) (hj8 : j < 8) (Mw : Memref sig .scVector .vmem S16 .i32) (eMw : winOf (Memref.whole cc0_scratch2 : Memref sig .scVector .vmem S512 .i32) j hj = Mw)
    (G : Buf (Elt F) ((slotOf (Memref.whole cc0_scratch5 : Memref sig .scVector .vmem S8x16x128 .f32) j hj8).view.loc (thrL d L))) (fw : Buf (Elt F) (Mw.view.loc (thrL d L))) (hn) (hin)
    (hfw : ∀ z : S16.Idx, Mw.view.read (Elt F) fw z = col m d 2 (ix1 (rowN L j (z 0).val))) :
    (Transfers.Flight (countersEmb (U := UU)) (thrL d L) (SemLoc.dma (⟨16 + j, lt_pool 16 j hj8 (by decide)⟩ : DmaSem sig)) (default : HIx 1) 65536
        iprop((((slotOf (Memref.whole cc0_scratch5 : Memref sig .scVector .vmem S8x16x128 .f32) j hj8).view.loc (thrL d L) ↦[(slotOf (Memref.whole cc0_scratch5 : Memref sig .scVector .vmem S8x16x128 .f32) j hj8).view.set]{fullShare}
              (slotOf (Memref.whole cc0_scratch5 : Memref sig .scVector .vmem S8x16x128 .f32) j hj8).view.writes (Elt F) G [⟨Rect.whole S16x128, gatherPayload gathers_S100000x128_S16x128 (((Memref.whole main_arg1_scv : Memref sig .scVector .hbm S100000x128 .f32).slice (Rect.unit (s := S100000x128) ![0, 0] S100000x128.size inb_S100000x128_S100000x128_0_0) (fun _ => rfl)).view.read (Elt F) (m (entLoc d))) (rows (Mw.view.read (Elt F) fw) hn hin)⟩])
            ∗ (Mw.view.loc (thrL d L) ↦[Mw.view.set]{fullShare} fw))
          ∗ tokE m d L (16 + j) (by omega)) : sProp 𝕄)
      ⊢ flightT m d L j hj := by
  subst eMw
  exact (Transfers.Flight_mono (countersEmb (U := UU)) (thrL d L) (landed_ent m d L hpre 2 j _ _ _ G fw gathers_S100000x128_S16x128 hn hin _ hfw)).trans
    (flightT_one m d L j j hj hj8 (Nat.mod_eq_of_lt hj8))

variable (O : CellTallies nD τ sig (HIx 1)) (W : Waits sig (HIx 1)) in
/-- The invariant before the first trip: chunks 0 … 6 in flight, slot 7 idle, windows 7 … 31 unused, nothing finished. -/
theorem inv_zero_intro (acc : PUnit) :
    iprop(Transfers.MayWaits (thrL d L) (none : HIx 1) O
        ∗ (∃ W', ⌜∀ p ∈ W', p ∈ W ∨ p.2 = none⌝ ∗ owes (thrL d L) O W')
        ∗ (flights m d L 0 ∗ flights m d L 1 ∗ flights m d L 2 ∗ flights m d L 3 ∗ flights m d L 4 ∗ flights m d L 5 ∗ flights m d L 6)
        ∗ idles m d L 7
        ∗ bigSep (Finset.Ico 7 32) (wins m d L)
        ∗ (∃ g, (Memref.whole cc0_scratch6 : Memref sig .scVector .vmem S256 .f32).view.loc (thrL d L) ↦{fullShare} g)
        ∗ (∃ g, ⌜ScoreHolds m d L 0 (g : S512.Idx → F .f32)⌝ ∗ (Memref.whole cc0_scratch7 : Memref sig .scVector .vmem S512 .f32).view.loc (thrL d L) ↦{fullShare} g))
      ⊢ loopInv m d L O W 0 acc := by
  unfold loopInv
  rw [show min (0 + 7) 32 = 7 from rfl, show 0 + 8 = 8 from rfl, bigSep_ico_0_7, bigSep_ico_7_8, bigSep_ico_0_0]
  iintro ⟨H1, H2, H3, H4, H5, H6, H7⟩
  isplitl [H1]; · iexact H1
  isplitl [H2]; · iexact H2
  isplitl [H3]; · iexact H3
  isplitl [H4]; · iexact H4
  isplitl [H5]; · iexact H5
  isplitr; · iempintro
  isplitl [H6]; · iexact H6
  iexact H7

variable (O : CellTallies nD τ sig (HIx 1)) (W : Waits sig (HIx 1)) in
/-- The invariant after the last trip: nothing in flight, every slot idle, every window finished, the 512 scores in the score scratch. -/
theorem inv_32_elim (acc : PUnit) :
    loopInv m d L O W 32 acc
      ⊢ iprop((∃ W', ⌜∀ p ∈ W', p ∈ W ∨ p.2 = none⌝ ∗ owes (thrL d L) O W')
        ∗ bigSep (Finset.Ico 32 40) (idles m d L)
        ∗ bigSep (Finset.Ico 0 32) (wins m d L)
        ∗ (∃ g, (Memref.whole cc0_scratch6 : Memref sig .scVector .vmem S256 .f32).view.loc (thrL d L) ↦{fullShare} g)
        ∗ (∃ g, ⌜ScoreHolds m d L 32 (g : S512.Idx → F .f32)⌝ ∗ (Memref.whole cc0_scratch7 : Memref sig .scVector .vmem S512 .f32).view.loc (thrL d L) ↦{fullShare} g)) := by
  unfold loopInv
  rw [show min (32 + 7) 32 = 32 from rfl, show 32 + 8 = 40 from rfl, bigSep_ico_32_32 (flights m d L), bigSep_ico_32_32 (wins m d L)]
  iintro ⟨-, H2, -, H4, -, H6, H7, H8⟩
  isplitl [H2]; · iexact H2
  isplitl [H4]; · iexact H4
  isplitl [H6]; · iexact H6
  isplitl [H7]; · iexact H7
  iexact H8

set_option maxHeartbeats 8000000 in
/-- The subcore at grid coordinates `L` runs the kernel from its rows and shares to the scores in its rows. -/
theorem tile_body (hF : (K (F := F)).Facts) (hpre : RangeOK m) (O : CellTallies nD τ sig (HIx 1)) (W : Waits sig (HIx 1)) (hO : ∀ g, O g none = 0) :
    iprop(levAts (K (F := F)).L (K (F := F)).lev ∗ emp ∗ tileRes m d (tL L) (m (outLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_kge_score L hW (Memref.isWhole_whole _) rW (Memref.isWhole_whole _) tW (Memref.isWhole_whole _) entW (Memref.isWhole_whole _) relW (Memref.isWhole_whole _) outW (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) cc0_scratch8 cc0_scratch9 cc0_scratch10 cc0_scratch11 cc0_scoped0)
          fun _ => iprop(tileRes m d (tL L) (kout m d : Buf (Elt F) (outLoc d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_kge_score_eq_skeleton]; unfold cc0_kge_score_skel
  rw [(K (F := F)).scopedBufs_V hF d (cV L) (jV L), SparseCore.Cfg.scopedSems0_V (Val := Elt F) d (cV L) (jV L), ownSems0_each, ownBufs_V]
  unfold tileRes scrPts
  iintro ⟨#Hlv, -, ⟨Hh, Hr, Ht, Hent, Hrel, Hout⟩, ⟨⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩⟩, Hbufs⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, HO⟩
  ihave Hmw := ((K (F := F)).mayWaits_none (thr := V d (cV L) (jV L)) hO) $$ Hlv
  -- the rows and the three lists as the body addresses them
  ihave Hh' := (Entails.of_eq (pts_hSl (F := F) d L _).symm) $$ Hh
  ihave Hr' := (Entails.of_eq (pts_rSl (F := F) d L _).symm) $$ Hr
  ihave Ht' := (Entails.of_eq (pts_tSl (F := F) d L _).symm) $$ Ht
  ihave Hout' := (Entails.of_eq (pts_oSl (F := F) d L _).symm) $$ Hout
  ihave Hs0' := (Entails.of_eq (show (((Memref.whole cc0_scratch0 : Memref sig .scVector .vmem S512 .i32)).view.loc (V d (cV L) (jV L)) ↦{fullShare} f0 : sProp 𝕄) = ((V d (cV L) (jV L)).loc cc0_scratch0 ↦{fullShare} f0) from rfl).symm) $$ Hs0
  ihave Hs1' := (Entails.of_eq (show (((Memref.whole cc0_scratch1 : Memref sig .scVector .vmem S512 .i32)).view.loc (V d (cV L) (jV L)) ↦{fullShare} f1 : sProp 𝕄) = ((V d (cV L) (jV L)).loc cc0_scratch1 ↦{fullShare} f1) from rfl).symm) $$ Hs1
  ihave Hs2' := (Entails.of_eq (show (((Memref.whole cc0_scratch2 : Memref sig .scVector .vmem S512 .i32)).view.loc (V d (cV L) (jV L)) ↦{fullShare} f2 : sProp 𝕄) = ((V d (cV L) (jV L)).loc cc0_scratch2 ↦{fullShare} f2) from rfl).symm) $$ Hs2
  -- the three index copies: one batch on the list semaphore, the deliveries stated now
  imod (Transfers.batch_alloc' (Lvl := ℕ) (countersEmb (U := UU)) (V d (cV L) (jV L)) (none : HIx 1) ((Memref.whole cc0_scratch0 : Memref sig .scVector .vmem S512 .i32).view.amount (SemLoc.dma (sig := sig) dsem24))
    (idxDeliv m d L f0 f1 f2) (sm := .dma (dsem24 : DmaSem sig)) (E := Set.univ)) $$ Hq24 with HB
  sl_exec
  -- lists into windows, row buffers into slots, each slot with its semaphores and read tokens
  ihave Hs3' := (Entails.of_eq (show (((Memref.whole cc0_scratch3 : Memref sig .scVector .vmem S8x16x128 .f32)).view.loc (V d (cV L) (jV L)) ↦{fullShare} f3 : sProp 𝕄) = ((V d (cV L) (jV L)).loc cc0_scratch3 ↦{fullShare} f3) from rfl).symm) $$ Hs3
  ihave Hs4' := (Entails.of_eq (show (((Memref.whole cc0_scratch4 : Memref sig .scVector .vmem S8x16x128 .f32)).view.loc (V d (cV L) (jV L)) ↦{fullShare} f4 : sProp 𝕄) = ((V d (cV L) (jV L)).loc cc0_scratch4 ↦{fullShare} f4) from rfl).symm) $$ Hs4
  ihave Hs5' := (Entails.of_eq (show (((Memref.whole cc0_scratch5 : Memref sig .scVector .vmem S8x16x128 .f32)).view.loc (V d (cV L) (jV L)) ↦{fullShare} f5 : sProp 𝕄) = ((V d (cV L) (jV L)).loc cc0_scratch5 ↦{fullShare} f5) from rfl).symm) $$ Hs5
  ihave Hs6' := (Entails.of_eq (show (((Memref.whole cc0_scratch6 : Memref sig .scVector .vmem S256 .f32)).view.loc (V d (cV L) (jV L)) ↦{fullShare} f6 : sProp 𝕄) = ((V d (cV L) (jV L)).loc cc0_scratch6 ↦{fullShare} f6) from rfl).symm) $$ Hs6
  ihave Hs7' := (Entails.of_eq (show (((Memref.whole cc0_scratch7 : Memref sig .scVector .vmem S512 .f32)).view.loc (V d (cV L) (jV L)) ↦{fullShare} f7 : sProp 𝕄) = ((V d (cV L) (jV L)).loc cc0_scratch7 ↦{fullShare} f7) from rfl).symm) $$ Hs7
  ihave Hent' := (Entails.of_eq (show (entWU m d L (qt L) : sProp 𝕄) = (entLoc d ↦{Transfers.shareTok fullShare 32 (tL L)} m (entLoc d)) from rfl).symm) $$ Hent
  ihave Hrel' := (Entails.of_eq (show (relWU m d L (qt L) : sProp 𝕄) = (relLoc d ↦{Transfers.shareTok fullShare 32 (tL L)} m (relLoc d)) from rfl).symm) $$ Hrel
  ihave Hall := (init_idle m d L f0 f1 f2 f3 f4 f5) $$ [HB_dst0 HB_dst1 HB_dst2 Hs3' Hs4' Hs5' Hq0 Hq1 Hq2 Hq3 Hq4 Hq5 Hq6 Hq7 Hq8 Hq9 Hq10 Hq11 Hq12 Hq13 Hq14 Hq15 Hq16 Hq17 Hq18 Hq19 Hq20 Hq21 Hq22 Hq23 Hent' Hrel']
  · isplitl [HB_dst0]; · iexact HB_dst0
    isplitl [HB_dst1]; · iexact HB_dst1
    isplitl [HB_dst2]; · iexact HB_dst2
    isplitl [Hs3']; · iexact Hs3'
    isplitl [Hs4']; · iexact Hs4'
    isplitl [Hs5']; · iexact Hs5'
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      iexact Hq23
    isplitl [Hent']; · iexact Hent'
    iexact Hrel'
  icases Hall with ⟨Hidl, Hwins, HentR, HrelR⟩
  ihave Hidl' := (Entails.of_eq (bigSep_ico_0_8 (idles m d L))) $$ Hidl
  icases Hidl' with ⟨Hi0, Hi1, Hi2, Hi3, Hi4, Hi5, Hi6, Hi7⟩
  ihave Hwins' := (Entails.of_eq (wins_first7 m d L)) $$ Hwins
  icases Hwins' with ⟨Hw0, Hw1, Hw2, Hw3, Hw4, Hw5, Hw6, HwRest⟩
  -- chunk 0: its idle slot and its list windows, as the prologue addresses them
  ihave Hi0' := (idle_one_elim m d L 0 0 (by decide) rfl) $$ Hi0
  icases Hi0' with ⟨HbH0, HbR0, HbT0, HzH0, HzR0, HzT0, HtH0, HtR0, HtT0⟩
  ihave Hw0' := (Entails.of_eq (wins_eq m d L 0 (by decide))) $$ Hw0
  icases Hw0' with ⟨HwH0, HwR0, HwT0⟩
  ihave HwH0' := (Entails.of_eq (congrArg (winHolds m d L 0 0) (show winOf (Memref.whole cc0_scratch0 : Memref sig .scVector .vmem S512 .i32) 0 (of_decide_eq_true rfl) = ((Memref.whole cc0_scratch0 : Memref sig .scVector .vmem S512 .i32).slice (Rect.unit (s := S512) ![0] S16.size inb_S512_S16_0) (fun _ => rfl)) from rfl))) $$ HwH0
  ihave HwR0' := (Entails.of_eq (congrArg (winHolds m d L 1 0) (show winOf (Memref.whole cc0_scratch1 : Memref sig .scVector .vmem S512 .i32) 0 (of_decide_eq_true rfl) = ((Memref.whole cc0_scratch1 : Memref sig .scVector .vmem S512 .i32).slice (Rect.unit (s := S512) ![0] S16.size inb_S512_S16_0) (fun _ => rfl)) from rfl))) $$ HwR0
  ihave HwT0' := (Entails.of_eq (congrArg (winHolds m d L 2 0) (show winOf (Memref.whole cc0_scratch2 : Memref sig .scVector .vmem S512 .i32) 0 (of_decide_eq_true rfl) = ((Memref.whole cc0_scratch2 : Memref sig .scVector .vmem S512 .i32).slice (Rect.unit (s := S512) ![0] S16.size inb_S512_S16_0) (fun _ => rfl)) from rfl))) $$ HwT0
  -- chunk 1: its idle slot and its list windows, as the prologue addresses them
  ihave Hi1' := (idle_one_elim m d L 1 1 (by decide) rfl) $$ Hi1
  icases Hi1' with ⟨HbH1, HbR1, HbT1, HzH1, HzR1, HzT1, HtH1, HtR1, HtT1⟩
  ihave Hw1' := (Entails.of_eq (wins_eq m d L 1 (by decide))) $$ Hw1
  icases Hw1' with ⟨HwH1, HwR1, HwT1⟩
  ihave HwH1' := (Entails.of_eq (congrArg (winHolds m d L 0 1) (show winOf (Memref.whole cc0_scratch0 : Memref sig .scVector .vmem S512 .i32) 1 (of_decide_eq_true rfl) = ((Memref.whole cc0_scratch0 : Memref sig .scVector .vmem S512 .i32).slice (Rect.unit (s := S512) ![16] S16.size inb_S512_S16_16) (fun _ => rfl)) from rfl))) $$ HwH1
  ihave HwR1' := (Entails.of_eq (congrArg (winHolds m d L 1 1) (show winOf (Memref.whole cc0_scratch1 : Memref sig .scVector .vmem S512 .i32) 1 (of_decide_eq_true rfl) = ((Memref.whole cc0_scratch1 : Memref sig .scVector .vmem S512 .i32).slice (Rect.unit (s := S512) ![16] S16.size inb_S512_S16_16) (fun _ => rfl)) from rfl))) $$ HwR1
  ihave HwT1' := (Entails.of_eq (congrArg (winHolds m d L 2 1) (show winOf (Memref.whole cc0_scratch2 : Memref sig .scVector .vmem S512 .i32) 1 (of_decide_eq_true rfl) = ((Memref.whole cc0_scratch2 : Memref sig .scVector .vmem S512 .i32).slice (Rect.unit (s := S512) ![16] S16.size inb_S512_S16_16) (fun _ => rfl)) from rfl))) $$ HwT1
  -- chunk 2: its idle slot and its list windows, as the prologue addresses them
  ihave Hi2' := (idle_one_elim m d L 2 2 (by decide) rfl) $$ Hi2
  icases Hi2' with ⟨HbH2, HbR2, HbT2, HzH2, HzR2, HzT2, HtH2, HtR2, HtT2⟩
  ihave Hw2' := (Entails.of_eq (wins_eq m d L 2 (by decide))) $$ Hw2
  icases Hw2' with ⟨HwH2, HwR2, HwT2⟩
  ihave HwH2' := (Entails.of_eq (congrArg (winHolds m d L 0 2) (show winOf (Memref.whole cc0_scratch0 : Memref sig .scVector .vmem S512 .i32) 2 (of_decide_eq_true rfl) = ((Memref.whole cc0_scratch0 : Memref sig .scVector .vmem S512 .i32).slice (Rect.unit (s := S512) ![32] S16.size inb_S512_S16_32) (fun _ => rfl)) from rfl))) $$ HwH2
  ihave HwR2' := (Entails.of_eq (congrArg (winHolds m d L 1 2) (show winOf (Memref.whole cc0_scratch1 : Memref sig .scVector .vmem S512 .i32) 2 (of_decide_eq_true rfl) = ((Memref.whole cc0_scratch1 : Memref sig .scVector .vmem S512 .i32).slice (Rect.unit (s := S512) ![32] S16.size inb_S512_S16_32) (fun _ => rfl)) from rfl))) $$ HwR2
  ihave HwT2' := (Entails.of_eq (congrArg (winHolds m d L 2 2) (show winOf (Memref.whole cc0_scratch2 : Memref sig .scVector .vmem S512 .i32) 2 (of_decide_eq_true rfl) = ((Memref.whole cc0_scratch2 : Memref sig .scVector .vmem S512 .i32).slice (Rect.unit (s := S512) ![32] S16.size inb_S512_S16_32) (fun _ => rfl)) from rfl))) $$ HwT2
  -- chunk 3: its idle slot and its list windows, as the prologue addresses them
  ihave Hi3' := (idle_one_elim m d L 3 3 (by decide) rfl) $$ Hi3
  icases Hi3' with ⟨HbH3, HbR3, HbT3, HzH3, HzR3, HzT3, HtH3, HtR3, HtT3⟩
  ihave Hw3' := (Entails.of_eq (wins_eq m d L 3 (by decide))) $$ Hw3
  icases Hw3' with ⟨HwH3, HwR3, HwT3⟩
  ihave HwH3' := (Entails.of_eq (congrArg (winHolds m d L 0 3) (show winOf (Memref.whole cc0_scratch0 : Memref sig .scVector .vmem S512 .i32) 3 (of_decide_eq_true rfl) = ((Memref.whole cc0_scratch0 : Memref sig .scVector .vmem S512 .i32).slice (Rect.unit (s := S512) ![48] S16.size inb_S512_S16_48) (fun _ => rfl)) from rfl))) $$ HwH3
  ihave HwR3' := (Entails.of_eq (congrArg (winHolds m d L 1 3) (show winOf (Memref.whole cc0_scratch1 : Memref sig .scVector .vmem S512 .i32) 3 (of_decide_eq_true rfl) = ((Memref.whole cc0_scratch1 : Memref sig .scVector .vmem S512 .i32).slice (Rect.unit (s := S512) ![48] S16.size inb_S512_S16_48) (fun _ => rfl)) from rfl))) $$ HwR3
  ihave HwT3' := (Entails.of_eq (congrArg (winHolds m d L 2 3) (show winOf (Memref.whole cc0_scratch2 : Memref sig .scVector .vmem S512 .i32) 3 (of_decide_eq_true rfl) = ((Memref.whole cc0_scratch2 : Memref sig .scVector .vmem S512 .i32).slice (Rect.unit (s := S512) ![48] S16.size inb_S512_S16_48) (fun _ => rfl)) from rfl))) $$ HwT3
  -- chunk 4: its idle slot and its list windows, as the prologue addresses them
  ihave Hi4' := (idle_one_elim m d L 4 4 (by decide) rfl) $$ Hi4
  icases Hi4' with ⟨HbH4, HbR4, HbT4, HzH4, HzR4, HzT4, HtH4, HtR4, HtT4⟩
  ihave Hw4' := (Entails.of_eq (wins_eq m d L 4 (by decide))) $$ Hw4
  icases Hw4' with ⟨HwH4, HwR4, HwT4⟩
  ihave HwH4' := (Entails.of_eq (congrArg (winHolds m d L 0 4) (show winOf (Memref.whole cc0_scratch0 : Memref sig .scVector .vmem S512 .i32) 4 (of_decide_eq_true rfl) = ((Memref.whole cc0_scratch0 : Memref sig .scVector .vmem S512 .i32).slice (Rect.unit (s := S512) ![64] S16.size inb_S512_S16_64) (fun _ => rfl)) from rfl))) $$ HwH4
  ihave HwR4' := (Entails.of_eq (congrArg (winHolds m d L 1 4) (show winOf (Memref.whole cc0_scratch1 : Memref sig .scVector .vmem S512 .i32) 4 (of_decide_eq_true rfl) = ((Memref.whole cc0_scratch1 : Memref sig .scVector .vmem S512 .i32).slice (Rect.unit (s := S512) ![64] S16.size inb_S512_S16_64) (fun _ => rfl)) from rfl))) $$ HwR4
  ihave HwT4' := (Entails.of_eq (congrArg (winHolds m d L 2 4) (show winOf (Memref.whole cc0_scratch2 : Memref sig .scVector .vmem S512 .i32) 4 (of_decide_eq_true rfl) = ((Memref.whole cc0_scratch2 : Memref sig .scVector .vmem S512 .i32).slice (Rect.unit (s := S512) ![64] S16.size inb_S512_S16_64) (fun _ => rfl)) from rfl))) $$ HwT4
  -- chunk 5: its idle slot and its list windows, as the prologue addresses them
  ihave Hi5' := (idle_one_elim m d L 5 5 (by decide) rfl) $$ Hi5
  icases Hi5' with ⟨HbH5, HbR5, HbT5, HzH5, HzR5, HzT5, HtH5, HtR5, HtT5⟩
  ihave Hw5' := (Entails.of_eq (wins_eq m d L 5 (by decide))) $$ Hw5
  icases Hw5' with ⟨HwH5, HwR5, HwT5⟩
  ihave HwH5' := (Entails.of_eq (congrArg (winHolds m d L 0 5) (show winOf (Memref.whole cc0_scratch0 : Memref sig .scVector .vmem S512 .i32) 5 (of_decide_eq_true rfl) = ((Memref.whole cc0_scratch0 : Memref sig .scVector .vmem S512 .i32).slice (Rect.unit (s := S512) ![80] S16.size inb_S512_S16_80) (fun _ => rfl)) from rfl))) $$ HwH5
  ihave HwR5' := (Entails.of_eq (congrArg (winHolds m d L 1 5) (show winOf (Memref.whole cc0_scratch1 : Memref sig .scVector .vmem S512 .i32) 5 (of_decide_eq_true rfl) = ((Memref.whole cc0_scratch1 : Memref sig .scVector .vmem S512 .i32).slice (Rect.unit (s := S512) ![80] S16.size inb_S512_S16_80) (fun _ => rfl)) from rfl))) $$ HwR5
  ihave HwT5' := (Entails.of_eq (congrArg (winHolds m d L 2 5) (show winOf (Memref.whole cc0_scratch2 : Memref sig .scVector .vmem S512 .i32) 5 (of_decide_eq_true rfl) = ((Memref.whole cc0_scratch2 : Memref sig .scVector .vmem S512 .i32).slice (Rect.unit (s := S512) ![80] S16.size inb_S512_S16_80) (fun _ => rfl)) from rfl))) $$ HwT5
  -- chunk 6: its idle slot and its list windows, as the prologue addresses them
  ihave Hi6' := (idle_one_elim m d L 6 6 (by decide) rfl) $$ Hi6
  icases Hi6' with ⟨HbH6, HbR6, HbT6, HzH6, HzR6, HzT6, HtH6, HtR6, HtT6⟩
  ihave Hw6' := (Entails.of_eq (wins_eq m d L 6 (by decide))) $$ Hw6
  icases Hw6' with ⟨HwH6, HwR6, HwT6⟩
  ihave HwH6' := (Entails.of_eq (congrArg (winHolds m d L 0 6) (show winOf (Memref.whole cc0_scratch0 : Memref sig .scVector .vmem S512 .i32) 6 (of_decide_eq_true rfl) = ((Memref.whole cc0_scratch0 : Memref sig .scVector .vmem S512 .i32).slice (Rect.unit (s := S512) ![96] S16.size inb_S512_S16_96) (fun _ => rfl)) from rfl))) $$ HwH6
  ihave HwR6' := (Entails.of_eq (congrArg (winHolds m d L 1 6) (show winOf (Memref.whole cc0_scratch1 : Memref sig .scVector .vmem S512 .i32) 6 (of_decide_eq_true rfl) = ((Memref.whole cc0_scratch1 : Memref sig .scVector .vmem S512 .i32).slice (Rect.unit (s := S512) ![96] S16.size inb_S512_S16_96) (fun _ => rfl)) from rfl))) $$ HwR6
  ihave HwT6' := (Entails.of_eq (congrArg (winHolds m d L 2 6) (show winOf (Memref.whole cc0_scratch2 : Memref sig .scVector .vmem S512 .i32) 6 (of_decide_eq_true rfl) = ((Memref.whole cc0_scratch2 : Memref sig .scVector .vmem S512 .i32).slice (Rect.unit (s := S512) ![96] S16.size inb_S512_S16_96) (fun _ => rfl)) from rfl))) $$ HwT6
  unfold slotAny winHolds
  icases HbH0 with ⟨%GH0, HbH0⟩
  icases HwH0' with ⟨%fwH0, %hfwH0, HwH0⟩
  have hinH0 : ∀ x, ((((Memref.whole cc0_scratch0 : Memref sig .scVector .vmem S512 .i32).slice (Rect.unit (s := S512) ![0] S16.size inb_S512_S16_0) (fun _ => rfl))).view.read (Elt F) fwH0 x).toNat < S100000x128.size gathers_S100000x128_S16x128.axis :=
    fun x => by rw [hfwH0 x]; exact hpre d 0 _
  icases HbR0 with ⟨%GR0, HbR0⟩
  icases HwR0' with ⟨%fwR0, %hfwR0, HwR0⟩
  have hinR0 : ∀ x, ((((Memref.whole cc0_scratch1 : Memref sig .scVector .vmem S512 .i32).slice (Rect.unit (s := S512) ![0] S16.size inb_S512_S16_0) (fun _ => rfl))).view.read (Elt F) fwR0 x).toNat < S100000x128.size gathers_S100000x128_S16x128.axis :=
    fun x => by rw [hfwR0 x]; exact hpre d 1 _
  icases HbT0 with ⟨%GT0, HbT0⟩
  icases HwT0' with ⟨%fwT0, %hfwT0, HwT0⟩
  have hinT0 : ∀ x, ((((Memref.whole cc0_scratch2 : Memref sig .scVector .vmem S512 .i32).slice (Rect.unit (s := S512) ![0] S16.size inb_S512_S16_0) (fun _ => rfl))).view.read (Elt F) fwT0 x).toNat < S100000x128.size gathers_S100000x128_S16x128.axis :=
    fun x => by rw [hfwT0 x]; exact hpre d 2 _
  icases HbH1 with ⟨%GH1, HbH1⟩
  icases HwH1' with ⟨%fwH1, %hfwH1, HwH1⟩
  have hinH1 : ∀ x, ((((Memref.whole cc0_scratch0 : Memref sig .scVector .vmem S512 .i32).slice (Rect.unit (s := S512) ![16] S16.size inb_S512_S16_16) (fun _ => rfl))).view.read (Elt F) fwH1 x).toNat < S100000x128.size gathers_S100000x128_S16x128.axis :=
    fun x => by rw [hfwH1 x]; exact hpre d 0 _
  icases HbR1 with ⟨%GR1, HbR1⟩
  icases HwR1' with ⟨%fwR1, %hfwR1, HwR1⟩
  have hinR1 : ∀ x, ((((Memref.whole cc0_scratch1 : Memref sig .scVector .vmem S512 .i32).slice (Rect.unit (s := S512) ![16] S16.size inb_S512_S16_16) (fun _ => rfl))).view.read (Elt F) fwR1 x).toNat < S100000x128.size gathers_S100000x128_S16x128.axis :=
    fun x => by rw [hfwR1 x]; exact hpre d 1 _
  icases HbT1 with ⟨%GT1, HbT1⟩
  icases HwT1' with ⟨%fwT1, %hfwT1, HwT1⟩
  have hinT1 : ∀ x, ((((Memref.whole cc0_scratch2 : Memref sig .scVector .vmem S512 .i32).slice (Rect.unit (s := S512) ![16] S16.size inb_S512_S16_16) (fun _ => rfl))).view.read (Elt F) fwT1 x).toNat < S100000x128.size gathers_S100000x128_S16x128.axis :=
    fun x => by rw [hfwT1 x]; exact hpre d 2 _
  icases HbH2 with ⟨%GH2, HbH2⟩
  icases HwH2' with ⟨%fwH2, %hfwH2, HwH2⟩
  have hinH2 : ∀ x, ((((Memref.whole cc0_scratch0 : Memref sig .scVector .vmem S512 .i32).slice (Rect.unit (s := S512) ![32] S16.size inb_S512_S16_32) (fun _ => rfl))).view.read (Elt F) fwH2 x).toNat < S100000x128.size gathers_S100000x128_S16x128.axis :=
    fun x => by rw [hfwH2 x]; exact hpre d 0 _
  icases HbR2 with ⟨%GR2, HbR2⟩
  icases HwR2' with ⟨%fwR2, %hfwR2, HwR2⟩
  have hinR2 : ∀ x, ((((Memref.whole cc0_scratch1 : Memref sig .scVector .vmem S512 .i32).slice (Rect.unit (s := S512) ![32] S16.size inb_S512_S16_32) (fun _ => rfl))).view.read (Elt F) fwR2 x).toNat < S100000x128.size gathers_S100000x128_S16x128.axis :=
    fun x => by rw [hfwR2 x]; exact hpre d 1 _
  icases HbT2 with ⟨%GT2, HbT2⟩
  icases HwT2' with ⟨%fwT2, %hfwT2, HwT2⟩
  have hinT2 : ∀ x, ((((Memref.whole cc0_scratch2 : Memref sig .scVector .vmem S512 .i32).slice (Rect.unit (s := S512) ![32] S16.size inb_S512_S16_32) (fun _ => rfl))).view.read (Elt F) fwT2 x).toNat < S100000x128.size gathers_S100000x128_S16x128.axis :=
    fun x => by rw [hfwT2 x]; exact hpre d 2 _
  icases HbH3 with ⟨%GH3, HbH3⟩
  icases HwH3' with ⟨%fwH3, %hfwH3, HwH3⟩
  have hinH3 : ∀ x, ((((Memref.whole cc0_scratch0 : Memref sig .scVector .vmem S512 .i32).slice (Rect.unit (s := S512) ![48] S16.size inb_S512_S16_48) (fun _ => rfl))).view.read (Elt F) fwH3 x).toNat < S100000x128.size gathers_S100000x128_S16x128.axis :=
    fun x => by rw [hfwH3 x]; exact hpre d 0 _
  icases HbR3 with ⟨%GR3, HbR3⟩
  icases HwR3' with ⟨%fwR3, %hfwR3, HwR3⟩
  have hinR3 : ∀ x, ((((Memref.whole cc0_scratch1 : Memref sig .scVector .vmem S512 .i32).slice (Rect.unit (s := S512) ![48] S16.size inb_S512_S16_48) (fun _ => rfl))).view.read (Elt F) fwR3 x).toNat < S100000x128.size gathers_S100000x128_S16x128.axis :=
    fun x => by rw [hfwR3 x]; exact hpre d 1 _
  icases HbT3 with ⟨%GT3, HbT3⟩
  icases HwT3' with ⟨%fwT3, %hfwT3, HwT3⟩
  have hinT3 : ∀ x, ((((Memref.whole cc0_scratch2 : Memref sig .scVector .vmem S512 .i32).slice (Rect.unit (s := S512) ![48] S16.size inb_S512_S16_48) (fun _ => rfl))).view.read (Elt F) fwT3 x).toNat < S100000x128.size gathers_S100000x128_S16x128.axis :=
    fun x => by rw [hfwT3 x]; exact hpre d 2 _
  icases HbH4 with ⟨%GH4, HbH4⟩
  icases HwH4' with ⟨%fwH4, %hfwH4, HwH4⟩
  have hinH4 : ∀ x, ((((Memref.whole cc0_scratch0 : Memref sig .scVector .vmem S512 .i32).slice (Rect.unit (s := S512) ![64] S16.size inb_S512_S16_64) (fun _ => rfl))).view.read (Elt F) fwH4 x).toNat < S100000x128.size gathers_S100000x128_S16x128.axis :=
    fun x => by rw [hfwH4 x]; exact hpre d 0 _
  icases HbR4 with ⟨%GR4, HbR4⟩
  icases HwR4' with ⟨%fwR4, %hfwR4, HwR4⟩
  have hinR4 : ∀ x, ((((Memref.whole cc0_scratch1 : Memref sig .scVector .vmem S512 .i32).slice (Rect.unit (s := S512) ![64] S16.size inb_S512_S16_64) (fun _ => rfl))).view.read (Elt F) fwR4 x).toNat < S100000x128.size gathers_S100000x128_S16x128.axis :=
    fun x => by rw [hfwR4 x]; exact hpre d 1 _
  icases HbT4 with ⟨%GT4, HbT4⟩
  icases HwT4' with ⟨%fwT4, %hfwT4, HwT4⟩
  have hinT4 : ∀ x, ((((Memref.whole cc0_scratch2 : Memref sig .scVector .vmem S512 .i32).slice (Rect.unit (s := S512) ![64] S16.size inb_S512_S16_64) (fun _ => rfl))).view.read (Elt F) fwT4 x).toNat < S100000x128.size gathers_S100000x128_S16x128.axis :=
    fun x => by rw [hfwT4 x]; exact hpre d 2 _
  icases HbH5 with ⟨%GH5, HbH5⟩
  icases HwH5' with ⟨%fwH5, %hfwH5, HwH5⟩
  have hinH5 : ∀ x, ((((Memref.whole cc0_scratch0 : Memref sig .scVector .vmem S512 .i32).slice (Rect.unit (s := S512) ![80] S16.size inb_S512_S16_80) (fun _ => rfl))).view.read (Elt F) fwH5 x).toNat < S100000x128.size gathers_S100000x128_S16x128.axis :=
    fun x => by rw [hfwH5 x]; exact hpre d 0 _
  icases HbR5 with ⟨%GR5, HbR5⟩
  icases HwR5' with ⟨%fwR5, %hfwR5, HwR5⟩
  have hinR5 : ∀ x, ((((Memref.whole cc0_scratch1 : Memref sig .scVector .vmem S512 .i32).slice (Rect.unit (s := S512) ![80] S16.size inb_S512_S16_80) (fun _ => rfl))).view.read (Elt F) fwR5 x).toNat < S100000x128.size gathers_S100000x128_S16x128.axis :=
    fun x => by rw [hfwR5 x]; exact hpre d 1 _
  icases HbT5 with ⟨%GT5, HbT5⟩
  icases HwT5' with ⟨%fwT5, %hfwT5, HwT5⟩
  have hinT5 : ∀ x, ((((Memref.whole cc0_scratch2 : Memref sig .scVector .vmem S512 .i32).slice (Rect.unit (s := S512) ![80] S16.size inb_S512_S16_80) (fun _ => rfl))).view.read (Elt F) fwT5 x).toNat < S100000x128.size gathers_S100000x128_S16x128.axis :=
    fun x => by rw [hfwT5 x]; exact hpre d 2 _
  icases HbH6 with ⟨%GH6, HbH6⟩
  icases HwH6' with ⟨%fwH6, %hfwH6, HwH6⟩
  have hinH6 : ∀ x, ((((Memref.whole cc0_scratch0 : Memref sig .scVector .vmem S512 .i32).slice (Rect.unit (s := S512) ![96] S16.size inb_S512_S16_96) (fun _ => rfl))).view.read (Elt F) fwH6 x).toNat < S100000x128.size gathers_S100000x128_S16x128.axis :=
    fun x => by rw [hfwH6 x]; exact hpre d 0 _
  icases HbR6 with ⟨%GR6, HbR6⟩
  icases HwR6' with ⟨%fwR6, %hfwR6, HwR6⟩
  have hinR6 : ∀ x, ((((Memref.whole cc0_scratch1 : Memref sig .scVector .vmem S512 .i32).slice (Rect.unit (s := S512) ![96] S16.size inb_S512_S16_96) (fun _ => rfl))).view.read (Elt F) fwR6 x).toNat < S100000x128.size gathers_S100000x128_S16x128.axis :=
    fun x => by rw [hfwR6 x]; exact hpre d 1 _
  icases HbT6 with ⟨%GT6, HbT6⟩
  icases HwT6' with ⟨%fwT6, %hfwT6, HwT6⟩
  have hinT6 : ∀ x, ((((Memref.whole cc0_scratch2 : Memref sig .scVector .vmem S512 .i32).slice (Rect.unit (s := S512) ![96] S16.size inb_S512_S16_96) (fun _ => rfl))).view.read (Elt F) fwT6 x).toNat < S100000x128.size gathers_S100000x128_S16x128.axis :=
    fun x => by rw [hfwT6 x]; exact hpre d 2 _
  -- the gathers of chunks 0 … 6
  sl_exec
  -- the counted loop, by its invariant
  sl_for (loopInv m d L O W) $$ [Hmw HO HzH0 HzR0 HzT0 HzH1 HzR1 HzT1 HzH2 HzR2 HzT2 HzH3 HzR3 HzT3 HzH4 HzR4 HzT4 HzH5 HzR5 HzT5 HzH6 HzR6 HzT6 Hi7 HwRest Hs6' Hs7']
  case region =>
    intro k acc
    exact trip m d L O W hpre k acc
  · iapply (inv_zero_intro m d L O W _)
    isplitr; · iexact Hmw
    isplitl [HO]
    · iexists _; isplitr
      rotate_left
      · iexact HO
      · ipureintro; intro p hp
        rcases Finset.mem_insert.mp hp with rfl | hp
        · exact .inr rfl
        rcases Finset.mem_insert.mp hp with rfl | hp
        · exact .inr rfl
        rcases Finset.mem_insert.mp hp with rfl | hp
        · exact .inr rfl
        exact .inl hp
    isplitl [HzH0 HzR0 HzT0 HzH1 HzR1 HzT1 HzH2 HzR2 HzT2 HzH3 HzR3 HzT3 HzH4 HzR4 HzT4 HzH5 HzR5 HzT5 HzH6 HzR6 HzT6]
    · -- the 21 gathers of the prologue, chunk by chunk
      isplitl [HzH0 HzR0 HzT0]
      · rw [flights_eq m d L 0 (of_decide_eq_true rfl)]
        isplitl [HzH0]; · iapply (flightH_lit m d L hpre 0 (of_decide_eq_true rfl) (of_decide_eq_true rfl) _ rfl GH0 fwH0 _ hinH0 hfwH0); iexact HzH0
        isplitl [HzR0]; · iapply (flightR_lit m d L hpre 0 (of_decide_eq_true rfl) (of_decide_eq_true rfl) _ rfl GR0 fwR0 _ hinR0 hfwR0); iexact HzR0
        iapply (flightT_lit m d L hpre 0 (of_decide_eq_true rfl) (of_decide_eq_true rfl) _ rfl GT0 fwT0 _ hinT0 hfwT0); iexact HzT0
      isplitl [HzH1 HzR1 HzT1]
      · rw [flights_eq m d L 1 (of_decide_eq_true rfl)]
        isplitl [HzH1]; · iapply (flightH_lit m d L hpre 1 (of_decide_eq_true rfl) (of_decide_eq_true rfl) _ rfl GH1 fwH1 _ hinH1 hfwH1); iexact HzH1
        isplitl [HzR1]; · iapply (flightR_lit m d L hpre 1 (of_decide_eq_true rfl) (of_decide_eq_true rfl) _ rfl GR1 fwR1 _ hinR1 hfwR1); iexact HzR1
        iapply (flightT_lit m d L hpre 1 (of_decide_eq_true rfl) (of_decide_eq_true rfl) _ rfl GT1 fwT1 _ hinT1 hfwT1); iexact HzT1
      isplitl [HzH2 HzR2 HzT2]
      · rw [flights_eq m d L 2 (of_decide_eq_true rfl)]
        isplitl [HzH2]; · iapply (flightH_lit m d L hpre 2 (of_decide_eq_true rfl) (of_decide_eq_true rfl) _ rfl GH2 fwH2 _ hinH2 hfwH2); iexact HzH2
        isplitl [HzR2]; · iapply (flightR_lit m d L hpre 2 (of_decide_eq_true rfl) (of_decide_eq_true rfl) _ rfl GR2 fwR2 _ hinR2 hfwR2); iexact HzR2
        iapply (flightT_lit m d L hpre 2 (of_decide_eq_true rfl) (of_decide_eq_true rfl) _ rfl GT2 fwT2 _ hinT2 hfwT2); iexact HzT2
      isplitl [HzH3 HzR3 HzT3]
      · rw [flights_eq m d L 3 (of_decide_eq_true rfl)]
        isplitl [HzH3]; · iapply (flightH_lit m d L hpre 3 (of_decide_eq_true rfl) (of_decide_eq_true rfl) _ rfl GH3 fwH3 _ hinH3 hfwH3); iexact HzH3
        isplitl [HzR3]; · iapply (flightR_lit m d L hpre 3 (of_decide_eq_true rfl) (of_decide_eq_true rfl) _ rfl GR3 fwR3 _ hinR3 hfwR3); iexact HzR3
        iapply (flightT_lit m d L hpre 3 (of_decide_eq_true rfl) (of_decide_eq_true rfl) _ rfl GT3 fwT3 _ hinT3 hfwT3); iexact HzT3
      isplitl [HzH4 HzR4 HzT4]
      · rw [flights_eq m d L 4 (of_decide_eq_true rfl)]
        isplitl [HzH4]; · iapply (flightH_lit m d L hpre 4 (of_decide_eq_true rfl) (of_decide_eq_true rfl) _ rfl GH4 fwH4 _ hinH4 hfwH4); iexact HzH4
        isplitl [HzR4]; · iapply (flightR_lit m d L hpre 4 (of_decide_eq_true rfl) (of_decide_eq_true rfl) _ rfl GR4 fwR4 _ hinR4 hfwR4); iexact HzR4
        iapply (flightT_lit m d L hpre 4 (of_decide_eq_true rfl) (of_decide_eq_true rfl) _ rfl GT4 fwT4 _ hinT4 hfwT4); iexact HzT4
      isplitl [HzH5 HzR5 HzT5]
      · rw [flights_eq m d L 5 (of_decide_eq_true rfl)]
        isplitl [HzH5]; · iapply (flightH_lit m d L hpre 5 (of_decide_eq_true rfl) (of_decide_eq_true rfl) _ rfl GH5 fwH5 _ hinH5 hfwH5); iexact HzH5
        isplitl [HzR5]; · iapply (flightR_lit m d L hpre 5 (of_decide_eq_true rfl) (of_decide_eq_true rfl) _ rfl GR5 fwR5 _ hinR5 hfwR5); iexact HzR5
        iapply (flightT_lit m d L hpre 5 (of_decide_eq_true rfl) (of_decide_eq_true rfl) _ rfl GT5 fwT5 _ hinT5 hfwT5); iexact HzT5
      rw [flights_eq m d L 6 (of_decide_eq_true rfl)]
      isplitl [HzH6]; · iapply (flightH_lit m d L hpre 6 (of_decide_eq_true rfl) (of_decide_eq_true rfl) _ rfl GH6 fwH6 _ hinH6 hfwH6); iexact HzH6
      isplitl [HzR6]; · iapply (flightR_lit m d L hpre 6 (of_decide_eq_true rfl) (of_decide_eq_true rfl) _ rfl GR6 fwR6 _ hinR6 hfwR6); iexact HzR6
      iapply (flightT_lit m d L hpre 6 (of_decide_eq_true rfl) (of_decide_eq_true rfl) _ rfl GT6 fwT6 _ hinT6 hfwT6); iexact HzT6
    isplitl [Hi7]; · iexact Hi7
    isplitl [HwRest]; · iexact HwRest
    isplitl [Hs6']; · iexists _; iexact Hs6'
    iexists _; isplitr
    rotate_left
    · iexact Hs7'
    · ipureintro; exact score_zero m d L _
  -- after the last trip: every slot idle, the 512 scores in the score scratch
  iintro %acc HI
  have e32 : Scf.trips k0_t1_loop.lb k0_t1_loop.ub k0_t1_loop.st = 32 := trips_eq
  ihave HI' := (Entails.of_eq (congrArg (fun n => loopInv m d L O W n acc) e32)) $$ HI
  ihave HI'' := (inv_32_elim m d L O W acc) $$ HI'
  icases HI'' with ⟨⟨%W2, %hW2, HO⟩, Hid, Hdone, ⟨%g6, Hs6⟩, ⟨%g7, %hg7, Hs7⟩⟩
  ihave Hex := (exit_whole m d L) $$ [Hid Hdone HentR HrelR]
  · isplitl [Hid]; · iexact Hid
    isplitl [Hdone]; · iexact Hdone
    isplitl [HentR]; · iexact HentR
    iexact HrelR
  icases Hex with ⟨⟨%e0, Hl0⟩, ⟨%e1, Hl1⟩, ⟨%e2, Hl2⟩, ⟨%e3, Hb3⟩, ⟨%e4, Hb4⟩, ⟨%e5, Hb5⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hent', Hrel'⟩
  -- the copy of the 512 scores to the worker's rows of the score vector
  sl_exec
  sl_step
  -- the worker's rows and shares back, the scores in its rows of the score vector
  isplitl [HB_src0 HB_src1 HB_src2 Hent' Hrel' Hout']
  · isplitl [HB_src0]
    · ihave H := (Entails.of_eq (pts_hSl (F := F) d L _)) $$ HB_src0
      iexact H
    isplitl [HB_src1]
    · ihave H := (Entails.of_eq (pts_rSl (F := F) d L _)) $$ HB_src1
      iexact H
    isplitl [HB_src2]
    · ihave H := (Entails.of_eq (pts_tSl (F := F) d L _)) $$ HB_src2
      iexact H
    isplitl [Hent']; · iexact Hent'
    isplitl [Hrel']; · iexact Hrel'
    iapply (Entails.of_eq (out_rows_1 m d L g7 hg7 (m (outLoc d))))
    iexact Hout'
  -- the subcore's own buffers and semaphores back
  isplitl [Hl0 Hl1 Hl2 Hb3 Hb4 Hb5 Hs6 Hs7 Hbufs]
  · isplitl [Hl0 Hl1 Hl2 Hb3 Hb4 Hb5 Hs6 Hs7]
    · isplitl [Hl0]; · iexists _; iexact Hl0
      isplitl [Hl1]; · iexists _; iexact Hl1
      isplitl [Hl2]; · iexists _; iexact Hl2
      isplitl [Hb3]; · iexists _; iexact Hb3
      isplitl [Hb4]; · iexists _; iexact Hb4
      isplitl [Hb5]; · iexists _; iexact Hb5
      isplitl [Hs6]; · iexists _; iexact Hs6
      iexists _; iexact Hs7
    · iexact Hbufs
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 HB Hq25]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [HB]; · iexact HB
    iexact Hq25
  iexists _; isplitr
  rotate_left
  · iexact HO
  · ipureintro; intro p hp
    rcases Finset.mem_insert.mp hp with rfl | hp
    · exact .inr rfl
    exact hW2 p hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_kge_score (coordsV c s) (Memref.whole main_v1_scv) (Memref.isWhole_whole _) (Memref.whole main_v3_scv) (Memref.isWhole_whole _) (Memref.whole main_v5_scv) (Memref.isWhole_whole _)
          (Memref.whole main_arg1_scv) (Memref.isWhole_whole _) (Memref.whole main_arg2_scv) (Memref.isWhole_whole _) (Memref.whole main_v6_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) cc0_scratch8 cc0_scratch9 cc0_scratch10 cc0_scratch11 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore of the call's grid meets the launch theorem's obligation, under the range hypothesis. -/
theorem tileObl (hF : (K (F := F)).Facts) (hpre : RangeOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KB
end
-- ==== Proof.KB.Range.lean ====
/-
  Under the precondition every word of the three index columns names a table row.

  The precondition holds of the three argument arrays on every device; its conjunct on `sample` says every word w has
  0 ≤ w ≤ 99999 read signed, so its unsigned value is below 100000. Column k at row n is `sample` at (n, k).
-/
import proofs.«209583_g49984829390938_cont_8to1c4_457_35_alg».proof.Proof.KB.TileLists
import proofs.«209583_g49984829390938_cont_8to1c4_457_35_alg».proof.Proof.PreRange

noncomputable section

namespace Cert.Proof.KB

open Cert.Kernel Cert.Kernel.Gen

open Idealize.ShloMosaic Idealize.ShloMosaic.ValueIdx

variable {F : FTy → Type} [FloatOps F] (m : (ℓ : Loc nD τ sig) → Buf (Elt F) ℓ)

/-- From the precondition read on every device: every word of the three columns is below 100000. -/
theorem rangeOK_of_fn
    (h : ∀ c : Dev nD, Cert.Pre_input_domain.fn (F := F) (m (sampleLoc c)) (m (entLoc c)) (m (relLoc c)) = fun _ => 1#1) :
    RangeOK m :=
  fun d k n => Cert.Proof.PreRange.sample_lt (m (sampleLoc d)) (m (entLoc d)) (m (relLoc d)) (h d) (ix2 (n 0) k)

end Cert.Proof.KB

end
-- ==== Proof.lean ====
/- The claim: both kernel programs' vector-subcore task, under the table-row range the precondition gives the sample words,
   put through the launch of each program and joined with the reference's run. -/
import proofs.«209583_g49984829390938_cont_8to1c4_457_35_alg».proof.Defs
import proofs.«209583_g49984829390938_cont_8to1c4_457_35_alg».proof.Proof.Gen.Kernel
import proofs.«209583_g49984829390938_cont_8to1c4_457_35_alg».proof.Proof.Gen.Kernel.Skeleton
import proofs.«209583_g49984829390938_cont_8to1c4_457_35_alg».proof.Proof.Gen.KernelIdeal
import proofs.«209583_g49984829390938_cont_8to1c4_457_35_alg».proof.Proof.Gen.KernelIdeal.Skeleton
import proofs.«209583_g49984829390938_cont_8to1c4_457_35_alg».proof.Proof.Gen.ReferenceIdeal
import proofs.«209583_g49984829390938_cont_8to1c4_457_35_alg».proof.Proof.Gen.Pre_input_domain
import proofs.«209583_g49984829390938_cont_8to1c4_457_35_alg».proof.Proof.Assemble
import proofs.«209583_g49984829390938_cont_8to1c4_457_35_alg».proof.Proof.KI.Tile
import proofs.«209583_g49984829390938_cont_8to1c4_457_35_alg».proof.Proof.KI.Range
import proofs.«209583_g49984829390938_cont_8to1c4_457_35_alg».proof.Proof.KB.Tile
import proofs.«209583_g49984829390938_cont_8to1c4_457_35_alg».proof.Proof.KB.Range

noncomputable section

namespace Cert.Proof

theorem claim : Cert.Claim :=
  Cert.Proof.Assemble.claim_of
    (fun m h => Cert.Proof.KB.tileObl m Cert.Proof.KB.facts (Cert.Proof.KB.rangeOK_of_fn m h))
    (fun m h => Cert.Proof.KI.tileObl m Cert.Proof.KI.facts (Cert.Proof.KI.rangeOK_of_fn m h))

end Cert.Proof

end
